-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v293)) (v1 : (c : Dev Cert.KernelIdeal.nD) → Buf (Elt Ideal) ((c.tc : Thread Cert.KernelIdeal.nD Cert.KernelIdeal.τ).loc Cert.KernelIdeal.main_v284)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v293) = v0 c
          ∧ r.2.mem ((c.tc : Thread Cert.KernelIdeal.nD Cert.KernelIdeal.τ).loc Cert.KernelIdeal.main_v284) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v373) = v0 c
          ∧ r.2.mem ((c.tc : Thread Cert.ReferenceIdeal.nD Cert.ReferenceIdeal.τ).loc Cert.ReferenceIdeal.main_v364) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x640000 : Shape := ⟨2, ![2, 640000]⟩
abbrev S640000x16 : Shape := ⟨2, ![640000, 16]⟩
abbrev S50000 : Shape := ⟨1, ![50000]⟩
abbrev S64x128 : Shape := ⟨2, ![64, 128]⟩
abbrev S128 : Shape := ⟨1, ![128]⟩
abbrev S16x128 : Shape := ⟨2, ![16, 128]⟩
abbrev S5 : Shape := ⟨1, ![5]⟩
abbrev S5x128x128 : Shape := ⟨3, ![5, 128, 128]⟩
abbrev S5x128 : Shape := ⟨2, ![5, 128]⟩
abbrev S5x128x256 : Shape := ⟨3, ![5, 128, 256]⟩
abbrev S5x256 : Shape := ⟨2, ![5, 256]⟩
abbrev S5x256x128 : Shape := ⟨3, ![5, 256, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S5 : S_.BroadcastsInDim S5 (![] : Fin 0 → Fin S5.rank)
  reducesTo_S5_S_d0 : S5.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg20 : FVec F S128 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S5x128 .f32) (main_arg17 : FVec F S128x64 .f32) (main_arg18 : FVec F S64 .f32) (main_arg19 : FVec F S64x128 .f32) (main_arg20 : FVec F S128 .f32) (main_v63 : IVec S_ 1) (main_v67 : IVec S_ 1) : IVec S_ 1 :=
  let main_v68 : IVec S_ 1 := andi main_v63 main_v67
  let main_v69 : FVec F S5x128 .f32 := Host.absf main_arg16
  let main_cst_26 : FVec F S_ .f32 := constant S_ .f32 0x7F800000#32
  let main_v70 : FVec F S5x128 .f32 := broadcastInDim S5x128 ![] bcast_S_S5x128 main_cst_26
  let main_v71 : IVec S5x128 1 := cmpf .olt main_v69 main_v70
  let main_c_27 : IVec S_ 1 := constantI S_ 1 1#1
  let main_v72 : IVec S_ 1 := (fun x v => Host.reduce IntOp.andi x v reducesTo_S5x128_S_d0_1 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S5x256x128 .f32) (main_arg14 : FVec F S5x128 .f32) (main_arg15 : FVec F S5x128 .f32) (main_arg16 : FVec F S5x128 .f32) (main_arg17 : FVec F S128x64 .f32) (main_arg18 : FVec F S64 .f32) (main_arg19 : FVec F S64x128 .f32) (main_arg20 : FVec F S128 .f32) (main_v48 : IVec S_ 1) (main_v49 : FVec F S5x256 .f32) (main_v50 : FVec F S5x256 .f32) : IVec S_ 1 :=
  let main_v51 : IVec S5x256 1 := cmpf .olt main_v49 main_v50
  let main_c_19 : IVec S_ 1 := constantI S_ 1 1#1
  let main_v52 : IVec S_ 1 := (fun x v => Host.reduce IntOp.andi x v reducesTo_S5x256_S_d0_1 h_S_) main_v51 main_c_19
  let main_v53 : IVec S_ 1 := andi main_v48 main_v52
  let main_v54 : FVec F S5x256x128 .f32 := Host.absf main_arg13
  let main_cst_20 : FVec F S_ .f32 := constant S_ .f32 0x7F800000#32
  let main_v55 : FVec F S5x256x128 .f32 := broadcastInDim S5x256x128 ![] bcast_S_S5x256x128 main_cst_20
  let main_v56 : IVec S5x256x128 1 := cmpf .olt main_v54 main_v55
  let main_c_21 : IVec S_ 1 := constantI S_ 1 1#1
  let main_v57 : IVec S_ 1 := (fun x v => Host.reduce IntOp.andi x v reducesTo_S5x256x128_S_d0_1_2 h_S_) main_v56 main_c_21
  let main_v58 : IVec S_ 1 := andi main_v53 main_v57
  let main_v59 : FVec F S5x128 .f32 := Host.absf main_arg14
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  let main_v64 : FVec F S5x128 .f32 := Host.absf main_arg15
  let main_cst_24 : FVec F S_ .f32 := constant S_ .f32 0x7F800000#32
  let main_v65 : FVec F S5x128 .f32 := broadcastInDim S5x128 ![] bcast_S_S5x128 main_cst_24
  let main_v66 : IVec S5x128 1 := cmpf .olt main_v64 main_v65
  let main_c_25 : IVec S_ 1 := constantI S_ 1 1#1
  let main_v67 : IVec S_ 1 := (fun x v => Host.reduce IntOp.andi x v reducesTo_S5x128_S_d0_1 h_S_) main_v66 main_c_25
  fn_part4 (F := F) main_arg16 main_arg17 main_arg18 main_arg19 main_arg20 main_v63 main_v67

def fn_part2 {F : FTy → Type} [FloatOps F] (main_arg9 : FVec F S5x128x128 .f32) (main_arg10 : FVec F S5x128 .f32) (main_arg11 : FVec F S5x128x256 .f32) (main_arg12 : FVec F S5x256 .f32) (main_arg13 : FVec F S5x256x128 .f32) (main_arg14 : FVec F S5x128 .f32) (main_arg15 : FVec F S5x128 .f32) (main_arg16 : FVec F S5x128 .f32) (main_arg17 : FVec F S128x64 .f32) (main_arg18 : FVec F S64 .f32) (main_arg19 : FVec F S64x128 .f32) (main_arg20 : FVec F S128 .f32) (main_v33 : IVec S_ 1) : IVec S_ 1 :=
  let main_v34 : FVec F S5x128x128 .f32 := Host.absf main_arg9
  let main_cst_12 : FVec F S_ .f32 := constant S_ .f32 0x7F800000#32
  let main_v35 : FVec F S5x128x128 .f32 := broadcastInDim S5x128x128 ![] bcast_S_S5x128x128 main_cst_12
  let main_v36 : IVec S5x128x128 1 := cmpf .olt main_v34 main_v35
  let main_c_13 : IVec S_ 1 := constantI S_ 1 1#1
  let main_v37 : IVec S_ 1 := (fun x v => Host.reduce IntOp.andi x v reducesTo_S5x128x128_S_d0_1_2 h_S_) main_v36 main_c_13
  let main_v38 : IVec S_ 1 := andi main_v33 main_v37
  let main_v39 : FVec F S5x128 .f32 := Host.absf main_arg10
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128x256 .f32 := Host.absf main_arg11
  let main_cst_16 : FVec F S_ .f32 := constant S_ .f32 0x7F800000#32
  let main_v45 : FVec F S5x128x256 .f32 := broadcastInDim S5x128x256 ![] bcast_S_S5x128x256 main_cst_16
  let main_v46 : IVec S5x128x256 1 := cmpf .olt main_v44 main_v45
  let main_c_17 : IVec S_ 1 := constantI S_ 1 1#1
  let main_v47 : IVec S_ 1 := (fun x v => Host.reduce IntOp.andi x v reducesTo_S5x128x256_S_d0_1_2 h_S_) main_v46 main_c_17
  let main_v48 : IVec S_ 1 := andi main_v43 main_v47
  let main_v49 : FVec F S5x256 .f32 := Host.absf main_arg12
  let main_cst_18 : FVec F S_ .f32 := constant S_ .f32 0x7F800000#32
  let main_v50 : FVec F S5x256 .f32 := broadcastInDim S5x256 ![] bcast_S_S5x256 main_cst_18
  fn_part3 (F := F) main_arg13 main_arg14 main_arg15 main_arg16 main_arg17 main_arg18 main_arg19 main_arg20 main_v48 main_v49 main_v50

def fn_part1 {F : FTy → Type} [FloatOps F] (main_arg6 : FVec F S16x128 .f32) (main_arg7 : FVec F S128 .f32) (main_arg8 : FVec F S5 .f32) (main_arg9 : FVec F S5x128x128 .f32) (main_arg10 : FVec F S5x128 .f32) (main_arg11 : FVec F S5x128x256 .f32) (main_arg12 : FVec F S5x256 .f32) (main_arg13 : FVec F S5x256x128 .f32) (main_arg14 : FVec F S5x128 .f32) (main_arg15 : FVec F S5x128 .f32) (main_arg16 : FVec F S5x128 .f32) (main_arg17 : FVec F S128x64 .f32) (main_arg18 : FVec F S64 .f32) (main_arg19 : FVec F S64x128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg6
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x64 .f32) (main_arg1 : IVec S2x640000 32) (main_arg2 : FVec F S640000x16 .f32) (main_arg3 : IVec S50000 32) (main_arg4 : FVec F S64x128 .f32) (main_arg5 : FVec F S128 .f32) (main_arg6 : FVec F S16x128 .f32) (main_arg7 : FVec F S128 .f32) (main_arg8 : FVec F S5 .f32) (main_arg9 : FVec F S5x128x128 .f32) (main_arg10 : FVec F S5x128 .f32) (main_arg11 : FVec F S5x128x256 .f32) (main_arg12 : FVec F S5x256 .f32) (main_arg13 : FVec F S5x256x128 .f32) (main_arg14 : FVec F S5x128 .f32) (main_arg15 : FVec F S5x128 .f32) (main_arg16 : FVec F S5x128 .f32) (main_arg17 : FVec F S128x64 .f32) (main_arg18 : FVec F S64 .f32) (main_arg19 : FVec F S64x128 .f32) (main_arg20 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S2x640000 : Shape := ⟨2, ![2, 640000]⟩
abbrev S640000x16 : Shape := ⟨2, ![640000, 16]⟩
abbrev S50000 : Shape := ⟨1, ![50000]⟩
abbrev S64x128 : Shape := ⟨2, ![64, 128]⟩
abbrev S128 : Shape := ⟨1, ![128]⟩
abbrev S16x128 : Shape := ⟨2, ![16, 128]⟩
abbrev S5 : Shape := ⟨1, ![5]⟩
abbrev S5x128x128 : Shape := ⟨3, ![5, 128, 128]⟩
abbrev S5x128 : Shape := ⟨2, ![5, 128]⟩
abbrev S5x128x256 : Shape := ⟨3, ![5, 128, 256]⟩
abbrev S5x256 : Shape := ⟨2, ![5, 256]⟩
abbrev S5x256x128 : Shape := ⟨3, ![5, 256, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S640000x128 : Shape := ⟨2, ![640000, 128]⟩
abbrev S10000x16 : Shape := ⟨2, ![10000, 16]⟩
abbrev S10000x128 : Shape := ⟨2, ![10000, 128]⟩
abbrev S1x128x128 : Shape := ⟨3, ![1, 128, 128]⟩
abbrev S128x128 : Shape := ⟨2, ![128, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S25x8x128 : Shape := ⟨3, ![25, 8, 128]⟩
abbrev S1x8x128 : Shape := ⟨3, ![1, 8, 128]⟩
abbrev S2000x256 : Shape := ⟨2, ![2000, 256]⟩
abbrev S8x128 : Shape := ⟨2, ![8, 128]⟩
abbrev S50000x1 : Shape := ⟨2, ![50000, 1]⟩
abbrev S128x1 : Shape := ⟨2, ![128, 1]⟩
abbrev S1x64 : Shape := ⟨2, ![1, 64]⟩

abbrev nBuf : Space → Nat
  | .hbm => 371
  | .vmem => 167
  | .smem => 0
  | _ => 0

abbrev hbmTy0_0 (i : Nat) : BufTy := match i % 128 with
  | 0 => ⟨S50000x64, .f32⟩
  | 1 => ⟨S2x640000, .i32⟩
  | 2 => ⟨S640000x16, .f32⟩
  | 3 => ⟨S50000, .i32⟩
  | 4 => ⟨S64x128, .f32⟩
  | 5 => ⟨S128, .f32⟩
  | 6 => ⟨S16x128, .f32⟩
  | 7 => ⟨S128, .f32⟩
  | 8 => ⟨S5, .f32⟩
  | 9 => ⟨S5x128x128, .f32⟩
  | 10 => ⟨S5x128, .f32⟩
  | 11 => ⟨S5x128x256, .f32⟩
  | 12 => ⟨S5x256, .f32⟩
  | 13 => ⟨S5x256x128, .f32⟩
  | 14 => ⟨S5x128, .f32⟩
  | 15 => ⟨S5x128, .f32⟩
  | 16 => ⟨S5x128, .f32⟩
  | 17 => ⟨S128x64, .f32⟩
  | 18 => ⟨S64, .f32⟩
  | 19 => ⟨S64x128, .f32⟩
  | 20 => ⟨S128, .f32⟩
  | 21 => ⟨S1x640000, .i32⟩
  | 22 => ⟨S640000, .i32⟩
  | 23 => ⟨S1x640000, .i32⟩
  | 24 => ⟨S640000, .i32⟩
  | 25 => ⟨S1x128, .f32⟩
  | 26 => ⟨S50000x128, .f32⟩
  | 27 => ⟨S1x128, .f32⟩
  | 28 => ⟨S640000x128, .bf16⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S640000x128, .bf16⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S640000x128, .f32⟩
  | 45 => ⟨S640000x128, .f32⟩
  | 46 => ⟨S_, .f32⟩
  | 47 => ⟨S640000x128, .f32⟩
  | 48 => ⟨S640000x128, .f32⟩
  | 49 => ⟨S640000x128, .bf16⟩
  | 50 => ⟨S640000x128, .f32⟩
  | 51 => ⟨S_, .f32⟩
  | 52 => ⟨S50000x128, .f32⟩
  | 53 => ⟨S640000x1, .i32⟩
  | 54 => ⟨S50000x128, .f32⟩
  | 55 => ⟨S1, .f32⟩
  | 56 => ⟨S_, .f32⟩
  | 57 => ⟨S1x1, .f32⟩
  | 58 => ⟨S1x128x256, .f32⟩
  | 59 => ⟨S128x256, .f32⟩
  | 60 => ⟨S1x256, .f32⟩
  | 61 => ⟨S256, .f32⟩
  | 62 => ⟨S1x256, .f32⟩
  | 63 => ⟨S1x256x128, .f32⟩
  | 64 => ⟨S256x128, .f32⟩
  | 65 => ⟨S1x128, .f32⟩
  | 66 => ⟨S128, .f32⟩
  | 67 => ⟨S1x128, .f32⟩
  | 68 => ⟨S50000x128, .f32⟩
  | 69 => ⟨S25x8x128, .f32⟩
  | 70 => ⟨S25x8x128, .f32⟩
  | 71 => ⟨S_, .f32⟩
  | 72 => ⟨S128, .f32⟩
  | 73 => ⟨S_, .f32⟩
  | 74 => ⟨S128, .f32⟩
  | 75 => ⟨S_, .f32⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S50000x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S640000x128, .bf16⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x128, .f32⟩
  | 108 => ⟨S640000x128, .f32⟩
  | 109 => ⟨S_, .f32⟩
  | 110 => ⟨S640000x128, .f32⟩
  | 111 => ⟨S640000x128, .f32⟩
  | 112 => ⟨S640000x128, .bf16⟩
  | 113 => ⟨S640000x128, .f32⟩
  | 114 => ⟨S_, .f32⟩
  | 115 => ⟨S50000x128, .f32⟩
  | 116 => ⟨S640000x1, .i32⟩
  | 117 => ⟨S50000x128, .f32⟩
  | 118 => ⟨S1, .f32⟩
  | 119 => ⟨S_, .f32⟩
  | 120 => ⟨S1x1, .f32⟩
  | 121 => ⟨S1x128x256, .f32⟩
  | 122 => ⟨S128x256, .f32⟩
  | 123 => ⟨S1x256, .f32⟩
  | 124 => ⟨S256, .f32⟩
  | 125 => ⟨S1x256, .f32⟩
  | 126 => ⟨S1x256x128, .f32⟩
  | 127 => ⟨S256x128, .f32⟩
  | _ => ⟨S50000x64, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S25x8x128, .f32⟩
  | 5 => ⟨S25x8x128, .f32⟩
  | 6 => ⟨S_, .f32⟩
  | 7 => ⟨S128, .f32⟩
  | 8 => ⟨S_, .f32⟩
  | 9 => ⟨S128, .f32⟩
  | 10 => ⟨S_, .f32⟩
  | 11 => ⟨S128, .f32⟩
  | 12 => ⟨S128, .f32⟩
  | 13 => ⟨S_, .f32⟩
  | 14 => ⟨S128, .f32⟩
  | 15 => ⟨S128, .f32⟩
  | 16 => ⟨S128, .f32⟩
  | 17 => ⟨S128, .f32⟩
  | 18 => ⟨S1x128, .f32⟩
  | 19 => ⟨S1x128, .f32⟩
  | 20 => ⟨S1x128, .f32⟩
  | 21 => ⟨S128, .f32⟩
  | 22 => ⟨S1x128, .f32⟩
  | 23 => ⟨S1x128, .f32⟩
  | 24 => ⟨S128, .f32⟩
  | 25 => ⟨S1x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S640000x128, .bf16⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x128, .f32⟩
  | 42 => ⟨S640000x128, .f32⟩
  | 43 => ⟨S640000x128, .f32⟩
  | 44 => ⟨S_, .f32⟩
  | 45 => ⟨S640000x128, .f32⟩
  | 46 => ⟨S640000x128, .f32⟩
  | 47 => ⟨S640000x128, .bf16⟩
  | 48 => ⟨S640000x128, .f32⟩
  | 49 => ⟨S_, .f32⟩
  | 50 => ⟨S50000x128, .f32⟩
  | 51 => ⟨S640000x1, .i32⟩
  | 52 => ⟨S50000x128, .f32⟩
  | 53 => ⟨S1, .f32⟩
  | 54 => ⟨S_, .f32⟩
  | 55 => ⟨S1x1, .f32⟩
  | 56 => ⟨S1x128x256, .f32⟩
  | 57 => ⟨S128x256, .f32⟩
  | 58 => ⟨S1x256, .f32⟩
  | 59 => ⟨S256, .f32⟩
  | 60 => ⟨S1x256, .f32⟩
  | 61 => ⟨S1x256x128, .f32⟩
  | 62 => ⟨S256x128, .f32⟩
  | 63 => ⟨S1x128, .f32⟩
  | 64 => ⟨S128, .f32⟩
  | 65 => ⟨S1x128, .f32⟩
  | 66 => ⟨S50000x128, .f32⟩
  | 67 => ⟨S25x8x128, .f32⟩
  | 68 => ⟨S25x8x128, .f32⟩
  | 69 => ⟨S_, .f32⟩
  | 70 => ⟨S128, .f32⟩
  | 71 => ⟨S_, .f32⟩
  | 72 => ⟨S128, .f32⟩
  | 73 => ⟨S_, .f32⟩
  | 74 => ⟨S128, .f32⟩
  | 75 => ⟨S128, .f32⟩
  | 76 => ⟨S_, .f32⟩
  | 77 => ⟨S128, .f32⟩
  | 78 => ⟨S128, .f32⟩
  | 79 => ⟨S128, .f32⟩
  | 80 => ⟨S128, .f32⟩
  | 81 => ⟨S1x128, .f32⟩
  | 82 => ⟨S1x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S50000x128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S640000x128, .bf16⟩
  | 96 => ⟨S_, .i32⟩
  | 97 => ⟨S640000, .i32⟩
  | 98 => ⟨S640000, .i1⟩
  | 99 => ⟨S_, .i32⟩
  | 100 => ⟨S640000, .i32⟩
  | 101 => ⟨S640000, .i32⟩
  | 102 => ⟨S640000, .i32⟩
  | 103 => ⟨S640000x1, .i32⟩
  | 104 => ⟨S640000x128, .f32⟩
  | 105 => ⟨S640000x128, .f32⟩
  | 106 => ⟨S640000x128, .f32⟩
  | 107 => ⟨S_, .f32⟩
  | 108 => ⟨S640000x128, .f32⟩
  | 109 => ⟨S640000x128, .f32⟩
  | 110 => ⟨S640000x128, .bf16⟩
  | 111 => ⟨S640000x128, .f32⟩
  | 112 => ⟨S_, .f32⟩
  | 113 => ⟨S50000x128, .f32⟩
  | 114 => ⟨S640000x1, .i32⟩
  | 115 => ⟨S50000x128, .f32⟩
  | 116 => ⟨S1, .f32⟩
  | 117 => ⟨S_, .f32⟩
  | 118 => ⟨S1x1, .f32⟩
  | 119 => ⟨S1x128x256, .f32⟩
  | 120 => ⟨S128x256, .f32⟩
  | 121 => ⟨S1x256, .f32⟩
  | 122 => ⟨S256, .f32⟩
  | 123 => ⟨S1x256, .f32⟩
  | 124 => ⟨S1x256x128, .f32⟩
  | 125 => ⟨S256x128, .f32⟩
  | 126 => ⟨S1x128, .f32⟩
  | 127 => ⟨S128, .f32⟩
  | _ => ⟨S50000x64, .f32⟩

abbrev hbmTy0_2 (i : Nat) : BufTy := match i % 128 with
  | 0 => ⟨S1x128, .f32⟩
  | 1 => ⟨S50000x128, .f32⟩
  | 2 => ⟨S25x8x128, .f32⟩
  | 3 => ⟨S25x8x128, .f32⟩
  | 4 => ⟨S_, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S_, .f32⟩
  | 12 => ⟨S128, .f32⟩
  | 13 => ⟨S128, .f32⟩
  | 14 => ⟨S128, .f32⟩
  | 15 => ⟨S128, .f32⟩
  | 16 => ⟨S1x128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S50000x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S640000x128, .bf16⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .f32⟩
  | 40 => ⟨S640000x128, .f32⟩
  | 41 => ⟨S640000x128, .f32⟩
  | 42 => ⟨S_, .f32⟩
  | 43 => ⟨S640000x128, .f32⟩
  | 44 => ⟨S640000x128, .f32⟩
  | 45 => ⟨S640000x128, .bf16⟩
  | 46 => ⟨S640000x128, .f32⟩
  | 47 => ⟨S_, .f32⟩
  | 48 => ⟨S50000x128, .f32⟩
  | 49 => ⟨S640000x1, .i32⟩
  | 50 => ⟨S50000x128, .f32⟩
  | 51 => ⟨S1, .f32⟩
  | 52 => ⟨S_, .f32⟩
  | 53 => ⟨S1x1, .f32⟩
  | 54 => ⟨S1x128x256, .f32⟩
  | 55 => ⟨S128x256, .f32⟩
  | 56 => ⟨S1x256, .f32⟩
  | 57 => ⟨S256, .f32⟩
  | 58 => ⟨S1x256, .f32⟩
  | 59 => ⟨S1x256x128, .f32⟩
  | 60 => ⟨S256x128, .f32⟩
  | 61 => ⟨S1x128, .f32⟩
  | 62 => ⟨S128, .f32⟩
  | 63 => ⟨S1x128, .f32⟩
  | 64 => ⟨S50000x128, .f32⟩
  | 65 => ⟨S25x8x128, .f32⟩
  | 66 => ⟨S25x8x128, .f32⟩
  | 67 => ⟨S_, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S128, .f32⟩
  | 79 => ⟨S1x128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S50000x128, .f32⟩
  | 88 => ⟨S_, .f32⟩
  | 89 => ⟨S50000, .f32⟩
  | 90 => ⟨S_, .f32⟩
  | 91 => ⟨S128, .f32⟩
  | 92 => ⟨S50000x1, .i32⟩
  | 93 => ⟨S128, .f32⟩
  | 94 => ⟨S_, .f32⟩
  | 95 => ⟨S128x128, .f32⟩
  | 96 => ⟨S50000x1, .i32⟩
  | 97 => ⟨S128x128, .f32⟩
  | 98 => ⟨S_, .f32⟩
  | 99 => ⟨S128, .f32⟩
  | 100 => ⟨S128, .f32⟩
  | 101 => ⟨S128x1, .f32⟩
  | 102 => ⟨S128x128, .f32⟩
  | 103 => ⟨S128x128, .f32⟩
  | 104 => ⟨S128x64, .f32⟩
  | 105 => ⟨S1x64, .f32⟩
  | 106 => ⟨S128x64, .f32⟩
  | 107 => ⟨S128x64, .f32⟩
  | 108 => ⟨S_, .f32⟩
  | 109 => ⟨S128x64, .f32⟩
  | 110 => ⟨S128x64, .f32⟩
  | 111 => ⟨S128x128, .f32⟩
  | 112 => ⟨S1x128, .f32⟩
  | 113 => ⟨S128x128, .f32⟩
  | 114 => ⟨S128x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev vmemTy0_0 (i : Nat) : BufTy := match i % 128 with
  | 0 => ⟨S2000x64, .f32⟩
  | 1 => ⟨S2000x64, .f32⟩
  | 2 => ⟨S64x128, .f32⟩
  | 3 => ⟨S1x128, .f32⟩
  | 4 => ⟨S2000x128, .f32⟩
  | 5 => ⟨S2000x128, .f32⟩
  | 6 => ⟨S10000x16, .f32⟩
  | 7 => ⟨S10000x16, .f32⟩
  | 8 => ⟨S16x128, .f32⟩
  | 9 => ⟨S1x128, .f32⟩
  | 10 => ⟨S10000x128, .bf16⟩
  | 11 => ⟨S10000x128, .bf16⟩
  | 12 => ⟨S10000x128, .bf16⟩
  | 13 => ⟨S10000x128, .bf16⟩
  | 14 => ⟨S128x128, .f32⟩
  | 15 => ⟨S1x128, .f32⟩
  | 16 => ⟨S10000x128, .bf16⟩
  | 17 => ⟨S10000x128, .bf16⟩
  | 18 => ⟨S2000x128, .f32⟩
  | 19 => ⟨S2000x128, .f32⟩
  | 20 => ⟨S2000x128, .f32⟩
  | 21 => ⟨S2000x128, .f32⟩
  | 22 => ⟨S1x1, .f32⟩
  | 23 => ⟨S128x256, .f32⟩
  | 24 => ⟨S1x256, .f32⟩
  | 25 => ⟨S256x128, .f32⟩
  | 26 => ⟨S1x128, .f32⟩
  | 27 => ⟨S2000x128, .f32⟩
  | 28 => ⟨S2000x128, .f32⟩
  | 29 => ⟨S1x8x128, .f32⟩
  | 30 => ⟨S1x8x128, .f32⟩
  | 31 => ⟨S1x8x128, .f32⟩
  | 32 => ⟨S1x8x128, .f32⟩
  | 33 => ⟨S2000x128, .f32⟩
  | 34 => ⟨S2000x128, .f32⟩
  | 35 => ⟨S2000x128, .f32⟩
  | 36 => ⟨S2000x128, .f32⟩
  | 37 => ⟨S1x128, .f32⟩
  | 38 => ⟨S1x128, .f32⟩
  | 39 => ⟨S1x128, .f32⟩
  | 40 => ⟨S1x128, .f32⟩
  | 41 => ⟨S2000x128, .f32⟩
  | 42 => ⟨S2000x128, .f32⟩
  | 43 => ⟨S10000x128, .bf16⟩
  | 44 => ⟨S10000x128, .bf16⟩
  | 45 => ⟨S128x128, .f32⟩
  | 46 => ⟨S1x128, .f32⟩
  | 47 => ⟨S10000x128, .bf16⟩
  | 48 => ⟨S10000x128, .bf16⟩
  | 49 => ⟨S2000x128, .f32⟩
  | 50 => ⟨S2000x128, .f32⟩
  | 51 => ⟨S2000x128, .f32⟩
  | 52 => ⟨S2000x128, .f32⟩
  | 53 => ⟨S1x1, .f32⟩
  | 54 => ⟨S128x256, .f32⟩
  | 55 => ⟨S1x256, .f32⟩
  | 56 => ⟨S256x128, .f32⟩
  | 57 => ⟨S1x128, .f32⟩
  | 58 => ⟨S2000x128, .f32⟩
  | 59 => ⟨S2000x128, .f32⟩
  | 60 => ⟨S1x8x128, .f32⟩
  | 61 => ⟨S1x8x128, .f32⟩
  | 62 => ⟨S1x8x128, .f32⟩
  | 63 => ⟨S1x8x128, .f32⟩
  | 64 => ⟨S2000x128, .f32⟩
  | 65 => ⟨S2000x128, .f32⟩
  | 66 => ⟨S2000x128, .f32⟩
  | 67 => ⟨S2000x128, .f32⟩
  | 68 => ⟨S1x128, .f32⟩
  | 69 => ⟨S1x128, .f32⟩
  | 70 => ⟨S1x128, .f32⟩
  | 71 => ⟨S1x128, .f32⟩
  | 72 => ⟨S2000x128, .f32⟩
  | 73 => ⟨S2000x128, .f32⟩
  | 74 => ⟨S10000x128, .bf16⟩
  | 75 => ⟨S10000x128, .bf16⟩
  | 76 => ⟨S128x128, .f32⟩
  | 77 => ⟨S1x128, .f32⟩
  | 78 => ⟨S10000x128, .bf16⟩
  | 79 => ⟨S10000x128, .bf16⟩
  | 80 => ⟨S2000x128, .f32⟩
  | 81 => ⟨S2000x128, .f32⟩
  | 82 => ⟨S2000x128, .f32⟩
  | 83 => ⟨S2000x128, .f32⟩
  | 84 => ⟨S1x1, .f32⟩
  | 85 => ⟨S128x256, .f32⟩
  | 86 => ⟨S1x256, .f32⟩
  | 87 => ⟨S256x128, .f32⟩
  | 88 => ⟨S1x128, .f32⟩
  | 89 => ⟨S2000x128, .f32⟩
  | 90 => ⟨S2000x128, .f32⟩
  | 91 => ⟨S1x8x128, .f32⟩
  | 92 => ⟨S1x8x128, .f32⟩
  | 93 => ⟨S1x8x128, .f32⟩
  | 94 => ⟨S1x8x128, .f32⟩
  | 95 => ⟨S2000x128, .f32⟩
  | 96 => ⟨S2000x128, .f32⟩
  | 97 => ⟨S2000x128, .f32⟩
  | 98 => ⟨S2000x128, .f32⟩
  | 99 => ⟨S1x128, .f32⟩
  | 100 => ⟨S1x128, .f32⟩
  | 101 => ⟨S1x128, .f32⟩
  | 102 => ⟨S1x128, .f32⟩
  | 103 => ⟨S2000x128, .f32⟩
  | 104 => ⟨S2000x128, .f32⟩
  | 105 => ⟨S10000x128, .bf16⟩
  | 106 => ⟨S10000x128, .bf16⟩
  | 107 => ⟨S128x128, .f32⟩
  | 108 => ⟨S1x128, .f32⟩
  | 109 => ⟨S10000x128, .bf16⟩
  | 110 => ⟨S10000x128, .bf16⟩
  | 111 => ⟨S2000x128, .f32⟩
  | 112 => ⟨S2000x128, .f32⟩
  | 113 => ⟨S2000x128, .f32⟩
  | 114 => ⟨S2000x128, .f32⟩
  | 115 => ⟨S1x1, .f32⟩
  | 116 => ⟨S128x256, .f32⟩
  | 117 => ⟨S1x256, .f32⟩
  | 118 => ⟨S256x128, .f32⟩
  | 119 => ⟨S1x128, .f32⟩
  | 120 => ⟨S2000x128, .f32⟩
  | 121 => ⟨S2000x128, .f32⟩
  | 122 => ⟨S1x8x128, .f32⟩
  | 123 => ⟨S1x8x128, .f32⟩
  | 124 => ⟨S1x8x128, .f32⟩
  | 125 => ⟨S1x8x128, .f32⟩
  | 126 => ⟨S2000x128, .f32⟩
  | 127 => ⟨S2000x128, .f32⟩
  | _ => ⟨S50000x64, .f32⟩

abbrev vmemTy0_1 (i : Nat) : BufTy := match i % 128 with
  | 0 => ⟨S2000x128, .f32⟩
  | 1 => ⟨S2000x128, .f32⟩
  | 2 => ⟨S1x128, .f32⟩
  | 3 => ⟨S1x128, .f32⟩
  | 4 => ⟨S1x128, .f32⟩
  | 5 => ⟨S1x128, .f32⟩
  | 6 => ⟨S2000x128, .f32⟩
  | 7 => ⟨S2000x128, .f32⟩
  | 8 => ⟨S10000x128, .bf16⟩
  | 9 => ⟨S10000x128, .bf16⟩
  | 10 => ⟨S128x128, .f32⟩
  | 11 => ⟨S1x128, .f32⟩
  | 12 => ⟨S10000x128, .bf16⟩
  | 13 => ⟨S10000x128, .bf16⟩
  | 14 => ⟨S2000x128, .f32⟩
  | 15 => ⟨S2000x128, .f32⟩
  | 16 => ⟨S2000x128, .f32⟩
  | 17 => ⟨S2000x128, .f32⟩
  | 18 => ⟨S1x1, .f32⟩
  | 19 => ⟨S128x256, .f32⟩
  | 20 => ⟨S1x256, .f32⟩
  | 21 => ⟨S256x128, .f32⟩
  | 22 => ⟨S1x128, .f32⟩
  | 23 => ⟨S2000x128, .f32⟩
  | 24 => ⟨S2000x128, .f32⟩
  | 25 => ⟨S1x8x128, .f32⟩
  | 26 => ⟨S1x8x128, .f32⟩
  | 27 => ⟨S1x8x128, .f32⟩
  | 28 => ⟨S1x8x128, .f32⟩
  | 29 => ⟨S2000x128, .f32⟩
  | 30 => ⟨S2000x128, .f32⟩
  | 31 => ⟨S2000x128, .f32⟩
  | 32 => ⟨S2000x128, .f32⟩
  | 33 => ⟨S1x128, .f32⟩
  | 34 => ⟨S1x128, .f32⟩
  | 35 => ⟨S1x128, .f32⟩
  | 36 => ⟨S1x128, .f32⟩
  | 37 => ⟨S2000x128, .f32⟩
  | 38 => ⟨S2000x128, .f32⟩
  | _ => ⟨S50000x64, .f32⟩

abbrev vmemTy (i : Nat) : BufTy := match i / 128 with
  | 0 => vmemTy0_0 i
  | 1 => vmemTy0_1 i
  | _ => ⟨S50000x64, .f32⟩

abbrev bufTy : (tb : Table) → Fin (tcTables nBuf tb) → BufTy
  | .hbm, ⟨i, _⟩ => hbmTy i
  | .local _ .vmem, ⟨i, _⟩ => vmemTy i
  | _, _ => ⟨S50000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 167 → Bool
  | ⟨i, _⟩ => dmaSemScopedAt i

abbrev sig : RefSig :=
  ofTc nBuf bufTy 0 167 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43_0 : Ref sig .tc := ⟨.hbm, 68, rfl⟩
abbrev main_v43_1 : Ref sig .tc := ⟨.hbm, 69, rfl⟩
abbrev main_v43_2 : Ref sig .tc := ⟨.hbm, 70, rfl⟩
abbrev main_cst_2 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_6 : Ref sig .tc := ⟨.hbm, 98, rfl⟩
abbrev main_v67 : Ref sig .tc := ⟨.hbm, 99, rfl⟩
abbrev main_v68 : Ref sig .tc := ⟨.hbm, 100, rfl⟩
abbrev main_c_7 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_8 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96_0 : Ref sig .tc := ⟨.hbm, 131, rfl⟩
abbrev main_v96_1 : Ref sig .tc := ⟨.hbm, 132, rfl⟩
abbrev main_v96_2 : Ref sig .tc := ⟨.hbm, 133, rfl⟩
abbrev main_cst_10 : Ref sig .tc := ⟨.hbm, 134, rfl⟩
abbrev main_v97 : Ref sig .tc := ⟨.hbm, 135, rfl⟩
abbrev main_cst_11 : Ref sig .tc := ⟨.hbm, 136, rfl⟩
abbrev main_v98 : Ref sig .tc := ⟨.hbm, 137, rfl⟩
abbrev main_cst_12 : Ref sig .tc := ⟨.hbm, 138, rfl⟩
abbrev main_v99 : Ref sig .tc := ⟨.hbm, 139, rfl⟩
abbrev main_v100 : Ref sig .tc := ⟨.hbm, 140, rfl⟩
abbrev main_cst_13 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_14 : Ref sig .tc := ⟨.hbm, 161, rfl⟩
abbrev main_v120 : Ref sig .tc := ⟨.hbm, 162, rfl⟩
abbrev main_v121 : Ref sig .tc := ⟨.hbm, 163, rfl⟩
abbrev main_c_15 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_16 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_17 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149_0 : Ref sig .tc := ⟨.hbm, 194, rfl⟩
abbrev main_v149_1 : Ref sig .tc := ⟨.hbm, 195, rfl⟩
abbrev main_v149_2 : Ref sig .tc := ⟨.hbm, 196, rfl⟩
abbrev main_cst_18 : Ref sig .tc := ⟨.hbm, 197, rfl⟩
abbrev main_v150 : Ref sig .tc := ⟨.hbm, 198, rfl⟩
abbrev main_cst_19 : Ref sig .tc := ⟨.hbm, 199, rfl⟩
abbrev main_v151 : Ref sig .tc := ⟨.hbm, 200, rfl⟩
abbrev main_cst_20 : Ref sig .tc := ⟨.hbm, 201, rfl⟩
abbrev main_v152 : Ref sig .tc := ⟨.hbm, 202, rfl⟩
abbrev main_v153 : Ref sig .tc := ⟨.hbm, 203, rfl⟩
abbrev main_cst_21 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_c_22 : Ref sig .tc := ⟨.hbm, 224, rfl⟩
abbrev main_v173 : Ref sig .tc := ⟨.hbm, 225, rfl⟩
abbrev main_v174 : Ref sig .tc := ⟨.hbm, 226, rfl⟩
abbrev main_c_23 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_cst_24 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_25 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202_0 : Ref sig .tc := ⟨.hbm, 257, rfl⟩
abbrev main_v202_1 : Ref sig .tc := ⟨.hbm, 258, rfl⟩
abbrev main_v202_2 : Ref sig .tc := ⟨.hbm, 259, rfl⟩
abbrev main_cst_26 : Ref sig .tc := ⟨.hbm, 260, rfl⟩
abbrev main_v203 : Ref sig .tc := ⟨.hbm, 261, rfl⟩
abbrev main_cst_27 : Ref sig .tc := ⟨.hbm, 262, rfl⟩
abbrev main_v204 : Ref sig .tc := ⟨.hbm, 263, rfl⟩
abbrev main_cst_28 : Ref sig .tc := ⟨.hbm, 264, rfl⟩
abbrev main_v205 : Ref sig .tc := ⟨.hbm, 265, rfl⟩
abbrev main_v206 : Ref sig .tc := ⟨.hbm, 266, rfl⟩
abbrev main_cst_29 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_c_30 : Ref sig .tc := ⟨.hbm, 287, rfl⟩
abbrev main_v226 : Ref sig .tc := ⟨.hbm, 288, rfl⟩
abbrev main_v227 : Ref sig .tc := ⟨.hbm, 289, rfl⟩
abbrev main_c_31 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_cst_32 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_cst_33 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255_0 : Ref sig .tc := ⟨.hbm, 320, rfl⟩
abbrev main_v255_1 : Ref sig .tc := ⟨.hbm, 321, rfl⟩
abbrev main_v255_2 : Ref sig .tc := ⟨.hbm, 322, rfl⟩
abbrev main_cst_34 : Ref sig .tc := ⟨.hbm, 323, rfl⟩
abbrev main_v256 : Ref sig .tc := ⟨.hbm, 324, rfl⟩
abbrev main_cst_35 : Ref sig .tc := ⟨.hbm, 325, rfl⟩
abbrev main_v257 : Ref sig .tc := ⟨.hbm, 326, rfl⟩
abbrev main_cst_36 : Ref sig .tc := ⟨.hbm, 327, rfl⟩
abbrev main_v258 : Ref sig .tc := ⟨.hbm, 328, rfl⟩
abbrev main_v259 : Ref sig .tc := ⟨.hbm, 329, rfl⟩
abbrev main_cst_37 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_cst_38 : Ref sig .tc := ⟨.hbm, 344, rfl⟩
abbrev main_v273 : Ref sig .tc := ⟨.hbm, 345, rfl⟩
abbrev main_cst_39 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_cst_40 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_cst_41 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_call0_cst : Ref sig .tc := ⟨.hbm, 364, rfl⟩
abbrev main_call0_v0 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg7_1 : Ref sig .tc := ⟨.vmem, 28, rfl⟩
abbrev cc3_stg8_0 : Ref sig .tc := ⟨.vmem, 29, rfl⟩
abbrev cc3_stg8_1 : Ref sig .tc := ⟨.vmem, 30, rfl⟩
abbrev cc3_stg9_0 : Ref sig .tc := ⟨.vmem, 31, rfl⟩
abbrev cc3_stg9_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg6_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg3_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg7_1 : Ref sig .tc := ⟨.vmem, 59, rfl⟩
abbrev cc6_stg8_0 : Ref sig .tc := ⟨.vmem, 60, rfl⟩
abbrev cc6_stg8_1 : Ref sig .tc := ⟨.vmem, 61, rfl⟩
abbrev cc6_stg9_0 : Ref sig .tc := ⟨.vmem, 62, rfl⟩
abbrev cc6_stg9_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg5_0 : Ref sig .tc := ⟨.vmem, 71, rfl⟩
abbrev cc7_stg6_0 : Ref sig .tc := ⟨.vmem, 72, rfl⟩
abbrev cc7_stg6_1 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg3_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg1_1 : Ref sig .tc := ⟨.vmem, 83, rfl⟩
abbrev cc9_stg2_0 : Ref sig .tc := ⟨.vmem, 84, rfl⟩
abbrev cc9_stg3_0 : Ref sig .tc := ⟨.vmem, 85, rfl⟩
abbrev cc9_stg4_0 : Ref sig .tc := ⟨.vmem, 86, rfl⟩
abbrev cc9_stg5_0 : Ref sig .tc := ⟨.vmem, 87, rfl⟩
abbrev cc9_stg6_0 : Ref sig .tc := ⟨.vmem, 88, rfl⟩
abbrev cc9_stg7_0 : Ref sig .tc := ⟨.vmem, 89, rfl⟩
abbrev cc9_stg7_1 : Ref sig .tc := ⟨.vmem, 90, rfl⟩
abbrev cc9_stg8_0 : Ref sig .tc := ⟨.vmem, 91, rfl⟩
abbrev cc9_stg8_1 : Ref sig .tc := ⟨.vmem, 92, rfl⟩
abbrev cc9_stg9_0 : Ref sig .tc := ⟨.vmem, 93, rfl⟩
abbrev cc9_stg9_1 : Ref sig .tc := ⟨.vmem, 94, rfl⟩
abbrev cc10_stg0_0 : Ref sig .tc := ⟨.vmem, 95, rfl⟩
abbrev cc10_stg0_1 : Ref sig .tc := ⟨.vmem, 96, rfl⟩
abbrev cc10_stg1_0 : Ref sig .tc := ⟨.vmem, 97, rfl⟩
abbrev cc10_stg1_1 : Ref sig .tc := ⟨.vmem, 98, rfl⟩
abbrev cc10_stg2_0 : Ref sig .tc := ⟨.vmem, 99, rfl⟩
abbrev cc10_stg3_0 : Ref sig .tc := ⟨.vmem, 100, rfl⟩
abbrev cc10_stg4_0 : Ref sig .tc := ⟨.vmem, 101, rfl⟩
abbrev cc10_stg5_0 : Ref sig .tc := ⟨.vmem, 102, rfl⟩
abbrev cc10_stg6_0 : Ref sig .tc := ⟨.vmem, 103, rfl⟩
abbrev cc10_stg6_1 : Ref sig .tc := ⟨.vmem, 104, rfl⟩
abbrev cc11_stg0_0 : Ref sig .tc := ⟨.vmem, 105, rfl⟩
abbrev cc11_stg0_1 : Ref sig .tc := ⟨.vmem, 106, rfl⟩
abbrev cc11_stg1_0 : Ref sig .tc := ⟨.vmem, 107, rfl⟩
abbrev cc11_stg2_0 : Ref sig .tc := ⟨.vmem, 108, rfl⟩
abbrev cc11_stg3_0 : Ref sig .tc := ⟨.vmem, 109, rfl⟩
abbrev cc11_stg3_1 : Ref sig .tc := ⟨.vmem, 110, rfl⟩
abbrev cc12_stg0_0 : Ref sig .tc := ⟨.vmem, 111, rfl⟩
abbrev cc12_stg0_1 : Ref sig .tc := ⟨.vmem, 112, rfl⟩
abbrev cc12_stg1_0 : Ref sig .tc := ⟨.vmem, 113, rfl⟩
abbrev cc12_stg1_1 : Ref sig .tc := ⟨.vmem, 114, rfl⟩
abbrev cc12_stg2_0 : Ref sig .tc := ⟨.vmem, 115, rfl⟩
abbrev cc12_stg3_0 : Ref sig .tc := ⟨.vmem, 116, rfl⟩
abbrev cc12_stg4_0 : Ref sig .tc := ⟨.vmem, 117, rfl⟩
abbrev cc12_stg5_0 : Ref sig .tc := ⟨.vmem, 118, rfl⟩
abbrev cc12_stg6_0 : Ref sig .tc := ⟨.vmem, 119, rfl⟩
abbrev cc12_stg7_0 : Ref sig .tc := ⟨.vmem, 120, rfl⟩
abbrev cc12_stg7_1 : Ref sig .tc := ⟨.vmem, 121, rfl⟩
abbrev cc12_stg8_0 : Ref sig .tc := ⟨.vmem, 122, rfl⟩
abbrev cc12_stg8_1 : Ref sig .tc := ⟨.vmem, 123, rfl⟩
abbrev cc12_stg9_0 : Ref sig .tc := ⟨.vmem, 124, rfl⟩
abbrev cc12_stg9_1 : Ref sig .tc := ⟨.vmem, 125, rfl⟩
abbrev cc13_stg0_0 : Ref sig .tc := ⟨.vmem, 126, rfl⟩
abbrev cc13_stg0_1 : Ref sig .tc := ⟨.vmem, 127, rfl⟩
abbrev cc13_stg1_0 : Ref sig .tc := ⟨.vmem, 128, rfl⟩
abbrev cc13_stg1_1 : Ref sig .tc := ⟨.vmem, 129, rfl⟩
abbrev cc13_stg2_0 : Ref sig .tc := ⟨.vmem, 130, rfl⟩
abbrev cc13_stg3_0 : Ref sig .tc := ⟨.vmem, 131, rfl⟩
abbrev cc13_stg4_0 : Ref sig .tc := ⟨.vmem, 132, rfl⟩
abbrev cc13_stg5_0 : Ref sig .tc := ⟨.vmem, 133, rfl⟩
abbrev cc13_stg6_0 : Ref sig .tc := ⟨.vmem, 134, rfl⟩
abbrev cc13_stg6_1 : Ref sig .tc := ⟨.vmem, 135, rfl⟩
abbrev cc14_stg0_0 : Ref sig .tc := ⟨.vmem, 136, rfl⟩
abbrev cc14_stg0_1 : Ref sig .tc := ⟨.vmem, 137, rfl⟩
abbrev cc14_stg1_0 : Ref sig .tc := ⟨.vmem, 138, rfl⟩
abbrev cc14_stg2_0 : Ref sig .tc := ⟨.vmem, 139, rfl⟩
abbrev cc14_stg3_0 : Ref sig .tc := ⟨.vmem, 140, rfl⟩
abbrev cc14_stg3_1 : Ref sig .tc := ⟨.vmem, 141, rfl⟩
abbrev cc15_stg0_0 : Ref sig .tc := ⟨.vmem, 142, rfl⟩
abbrev cc15_stg0_1 : Ref sig .tc := ⟨.vmem, 143, rfl⟩
abbrev cc15_stg1_0 : Ref sig .tc := ⟨.vmem, 144, rfl⟩
abbrev cc15_stg1_1 : Ref sig .tc := ⟨.vmem, 145, rfl⟩
abbrev cc15_stg2_0 : Ref sig .tc := ⟨.vmem, 146, rfl⟩
abbrev cc15_stg3_0 : Ref sig .tc := ⟨.vmem, 147, rfl⟩
abbrev cc15_stg4_0 : Ref sig .tc := ⟨.vmem, 148, rfl⟩
abbrev cc15_stg5_0 : Ref sig .tc := ⟨.vmem, 149, rfl⟩
abbrev cc15_stg6_0 : Ref sig .tc := ⟨.vmem, 150, rfl⟩
abbrev cc15_stg7_0 : Ref sig .tc := ⟨.vmem, 151, rfl⟩
abbrev cc15_stg7_1 : Ref sig .tc := ⟨.vmem, 152, rfl⟩
abbrev cc15_stg8_0 : Ref sig .tc := ⟨.vmem, 153, rfl⟩
abbrev cc15_stg8_1 : Ref sig .tc := ⟨.vmem, 154, rfl⟩
abbrev cc15_stg9_0 : Ref sig .tc := ⟨.vmem, 155, rfl⟩
abbrev cc15_stg9_1 : Ref sig .tc := ⟨.vmem, 156, rfl⟩
abbrev cc16_stg0_0 : Ref sig .tc := ⟨.vmem, 157, rfl⟩
abbrev cc16_stg0_1 : Ref sig .tc := ⟨.vmem, 158, rfl⟩
abbrev cc16_stg1_0 : Ref sig .tc := ⟨.vmem, 159, rfl⟩
abbrev cc16_stg1_1 : Ref sig .tc := ⟨.vmem, 160, rfl⟩
abbrev cc16_stg2_0 : Ref sig .tc := ⟨.vmem, 161, rfl⟩
abbrev cc16_stg3_0 : Ref sig .tc := ⟨.vmem, 162, rfl⟩
abbrev cc16_stg4_0 : Ref sig .tc := ⟨.vmem, 163, rfl⟩
abbrev cc16_stg5_0 : Ref sig .tc := ⟨.vmem, 164, rfl⟩
abbrev cc16_stg6_0 : Ref sig .tc := ⟨.vmem, 165, rfl⟩
abbrev cc16_stg6_1 : Ref sig .tc := ⟨.vmem, 166, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem7_1 : DmaSem sig := 28
abbrev cc3_sem8_0 : DmaSem sig := 29
abbrev cc3_sem8_1 : DmaSem sig := 30
abbrev cc3_sem9_0 : DmaSem sig := 31
abbrev cc3_sem9_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem6_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem3_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem7_0 : DmaSem sig := 58
abbrev cc6_sem7_1 : DmaSem sig := 59
abbrev cc6_sem8_0 : DmaSem sig := 60
abbrev cc6_sem8_1 : DmaSem sig := 61
abbrev cc6_sem9_0 : DmaSem sig := 62
abbrev cc6_sem9_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem3_0 : DmaSem sig := 69
abbrev cc7_sem4_0 : DmaSem sig := 70
abbrev cc7_sem5_0 : DmaSem sig := 71
abbrev cc7_sem6_0 : DmaSem sig := 72
abbrev cc7_sem6_1 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem3_0 : DmaSem sig := 78
abbrev cc8_sem3_1 : DmaSem sig := 79
abbrev cc9_sem0_0 : DmaSem sig := 80
abbrev cc9_sem0_1 : DmaSem sig := 81
abbrev cc9_sem1_0 : DmaSem sig := 82
abbrev cc9_sem1_1 : DmaSem sig := 83
abbrev cc9_sem2_0 : DmaSem sig := 84
abbrev cc9_sem3_0 : DmaSem sig := 85
abbrev cc9_sem4_0 : DmaSem sig := 86
abbrev cc9_sem5_0 : DmaSem sig := 87
abbrev cc9_sem6_0 : DmaSem sig := 88
abbrev cc9_sem7_0 : DmaSem sig := 89
abbrev cc9_sem7_1 : DmaSem sig := 90
abbrev cc9_sem8_0 : DmaSem sig := 91
abbrev cc9_sem8_1 : DmaSem sig := 92
abbrev cc9_sem9_0 : DmaSem sig := 93
abbrev cc9_sem9_1 : DmaSem sig := 94
abbrev cc10_sem0_0 : DmaSem sig := 95
abbrev cc10_sem0_1 : DmaSem sig := 96
abbrev cc10_sem1_0 : DmaSem sig := 97
abbrev cc10_sem1_1 : DmaSem sig := 98
abbrev cc10_sem2_0 : DmaSem sig := 99
abbrev cc10_sem3_0 : DmaSem sig := 100
abbrev cc10_sem4_0 : DmaSem sig := 101
abbrev cc10_sem5_0 : DmaSem sig := 102
abbrev cc10_sem6_0 : DmaSem sig := 103
abbrev cc10_sem6_1 : DmaSem sig := 104
abbrev cc11_sem0_0 : DmaSem sig := 105
abbrev cc11_sem0_1 : DmaSem sig := 106
abbrev cc11_sem1_0 : DmaSem sig := 107
abbrev cc11_sem2_0 : DmaSem sig := 108
abbrev cc11_sem3_0 : DmaSem sig := 109
abbrev cc11_sem3_1 : DmaSem sig := 110
abbrev cc12_sem0_0 : DmaSem sig := 111
abbrev cc12_sem0_1 : DmaSem sig := 112
abbrev cc12_sem1_0 : DmaSem sig := 113
abbrev cc12_sem1_1 : DmaSem sig := 114
abbrev cc12_sem2_0 : DmaSem sig := 115
abbrev cc12_sem3_0 : DmaSem sig := 116
abbrev cc12_sem4_0 : DmaSem sig := 117
abbrev cc12_sem5_0 : DmaSem sig := 118
abbrev cc12_sem6_0 : DmaSem sig := 119
abbrev cc12_sem7_0 : DmaSem sig := 120
abbrev cc12_sem7_1 : DmaSem sig := 121
abbrev cc12_sem8_0 : DmaSem sig := 122
abbrev cc12_sem8_1 : DmaSem sig := 123
abbrev cc12_sem9_0 : DmaSem sig := 124
abbrev cc12_sem9_1 : DmaSem sig := 125
abbrev cc13_sem0_0 : DmaSem sig := 126
abbrev cc13_sem0_1 : DmaSem sig := 127
abbrev cc13_sem1_0 : DmaSem sig := 128
abbrev cc13_sem1_1 : DmaSem sig := 129
abbrev cc13_sem2_0 : DmaSem sig := 130
abbrev cc13_sem3_0 : DmaSem sig := 131
abbrev cc13_sem4_0 : DmaSem sig := 132
abbrev cc13_sem5_0 : DmaSem sig := 133
abbrev cc13_sem6_0 : DmaSem sig := 134
abbrev cc13_sem6_1 : DmaSem sig := 135
abbrev cc14_sem0_0 : DmaSem sig := 136
abbrev cc14_sem0_1 : DmaSem sig := 137
abbrev cc14_sem1_0 : DmaSem sig := 138
abbrev cc14_sem2_0 : DmaSem sig := 139
abbrev cc14_sem3_0 : DmaSem sig := 140
abbrev cc14_sem3_1 : DmaSem sig := 141
abbrev cc15_sem0_0 : DmaSem sig := 142
abbrev cc15_sem0_1 : DmaSem sig := 143
abbrev cc15_sem1_0 : DmaSem sig := 144
abbrev cc15_sem1_1 : DmaSem sig := 145
abbrev cc15_sem2_0 : DmaSem sig := 146
abbrev cc15_sem3_0 : DmaSem sig := 147
abbrev cc15_sem4_0 : DmaSem sig := 148
abbrev cc15_sem5_0 : DmaSem sig := 149
abbrev cc15_sem6_0 : DmaSem sig := 150
abbrev cc15_sem7_0 : DmaSem sig := 151
abbrev cc15_sem7_1 : DmaSem sig := 152
abbrev cc15_sem8_0 : DmaSem sig := 153
abbrev cc15_sem8_1 : DmaSem sig := 154
abbrev cc15_sem9_0 : DmaSem sig := 155
abbrev cc15_sem9_1 : DmaSem sig := 156
abbrev cc16_sem0_0 : DmaSem sig := 157
abbrev cc16_sem0_1 : DmaSem sig := 158
abbrev cc16_sem1_0 : DmaSem sig := 159
abbrev cc16_sem1_1 : DmaSem sig := 160
abbrev cc16_sem2_0 : DmaSem sig := 161
abbrev cc16_sem3_0 : DmaSem sig := 162
abbrev cc16_sem4_0 : DmaSem sig := 163
abbrev cc16_sem5_0 : DmaSem sig := 164
abbrev cc16_sem6_0 : DmaSem sig := 165
abbrev cc16_sem6_1 : DmaSem sig := 166

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x8x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x8x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_9 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x8x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S1x8x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_9 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S2000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S1x8x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S1x8x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S2000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![64], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x128 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_9 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S256x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S2000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S1x8x128 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev stage12_9 : Fin 2 → Memref sig .tc .vmem S1x8x128 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S2000x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![64], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x128 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S10000x128 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_8 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_9 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S256x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S2000x128 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev stage15_8 : Fin 2 → Memref sig .tc .vmem S1x8x128 .f32 := fun | 0 => Memref.whole cc15_stg8_0 | 1 => Memref.whole cc15_stg8_1 | ⟨_ + 2, h⟩ => absurd h (Nat.not_lt.2 (Nat.le_add_left _ _))
abbrev sem15_8 : Fin 2 → DmaSem sig := fun | 0 => cc15_sem8_0 | 1 => cc15_sem8_1 | ⟨_ + 2, h⟩ => absurd h (Nat.not_lt.2 (Nat.le_add_left _ _))
abbrev reads15_8 : Fin grid15.rank → Bool := ![true]

abbrev stage15_9 : Fin 2 → Memref sig .tc .vmem S1x8x128 .f32 := fun | 0 => Memref.whole cc15_stg9_0 | 1 => Memref.whole cc15_stg9_1 | ⟨_ + 2, h⟩ => absurd h (Nat.not_lt.2 (Nat.le_add_left _ _))
abbrev sem15_9 : Fin 2 → DmaSem sig := fun | 0 => cc15_sem9_0 | 1 => cc15_sem9_1 | ⟨_ + 2, h⟩ => absurd h (Nat.not_lt.2 (Nat.le_add_left _ _))
abbrev reads15_9 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S2000x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S50000x128 : S_.BroadcastsInDim S50000x128 (![] : Fin 0 → Fin S50000x128.rank)
  slices_S5_S1_0 : S5.Slices ![0] S1
  shapeCasts_S1_S_ : S1.ShapeCasts S_
  shapeCasts_S_S1x1 : S_.ShapeCasts S1x1
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  shapeCasts_S256_S1x256 : S256.ShapeCasts S1x256
  slices_S5x256x128_S1x256x128_0_0_0 : S5x256x128.Slices ![0, 0, 0] S1x256x128
  shapeCasts_S1x256x128_S256x128 : S1x256x128.ShapeCasts S256x128
  shapeCasts_S2000x128_S2000x128 : S2000x128.ShapeCasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x128 : S1x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S2000x128_S128 : S2000x128.Reduces [0] S128
  iota_S8x128_d0_w32 : S8x128.Iotas .tc 32 [0]
  broadcasts_S1x128_S8x128 : S1x128.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S25x8x128_S128_d0_1 : S25x8x128.ReducesTo [0, 1] S128
  h_S_ : 0 < S_.numel
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128x128_S1x128x128_2_0_0 : S5x128x128.Slices ![2, 0, 0] S1x128x128
  slices_S5x128_S1x128_2_0 : S5x128.Slices ![2, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128x128_S1x128x128_3_0_0 : S5x128x128.Slices ![3, 0, 0] S1x128x128
  slices_S5x128_S1x128_3_0 : S5x128.Slices ![3, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128x128_S1x128x128_4_0_0 : S5x128x128.Slices ![4, 0, 0] S1x128x128
  slices_S5x128_S1x128_4_0 : S5x128.Slices ![4, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  bcast_S_S50000 : S_.BroadcastsInDim S50000 (![] : Fin 0 → Fin S50000.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  dot_S2000x64_S64x128_S2000x128_1_0_0_1_n_n_wf : DotDims.WF S2000x64 S64x128 S2000x128 [1] [0] [0] [1] [] []
  dot_S10000x16_S16x128_S10000x128_1_0_0_1_n_n_wf : DotDims.WF S10000x16 S16x128 S10000x128 [1] [0] [0] [1] [] []
  dot_S10000x128_S128x128_S10000x128_1_0_0_1_n_n_wf : DotDims.WF S10000x128 S128x128 S10000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x64_S128x64_1_0_0_1_n_n_wf : DotDims.WF S128x128 S128x64 S128x64 [1] [0] [0] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S640000x16.size a
  hwx1_0 : ∀ i : grid1.Coords, EltTy.bits .f32 = 32 ∨ (Rect.block (s := S640000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S640000x128.size a
  hwx1_3 : ∀ i : grid1.Coords, EltTy.bits .bf16 = 32 ∨ (Rect.block (s := S640000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S640000x128.size a
  hwx2_0 : ∀ i : grid2.Coords, EltTy.bits .bf16 = 32 ∨ (Rect.block (s := S640000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S640000x128.size a
  hwx2_3 : ∀ i : grid2.Coords, EltTy.bits .bf16 = 32 ∨ (Rect.block (s := S640000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x8x128.size a ≤ S25x8x128.size a
  hwx3_8 : ∀ i : grid3.Coords, EltTy.bits .f32 = 32 ∨ (Rect.block (s := S25x8x128) S1x8x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x8x128.size a ≤ S25x8x128.size a
  hwx3_9 : ∀ i : grid3.Coords, EltTy.bits .f32 = 32 ∨ (Rect.block (s := S25x8x128) S1x8x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S640000x128.size a
  hwx5_0 : ∀ i : grid5.Coords, EltTy.bits .bf16 = 32 ∨ (Rect.block (s := S640000x128) S10000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S640000x128.size a
  hwx5_3 : ∀ i : grid5.Coords, EltTy.bits .bf16 = 32 ∨ (Rect.block (s := S640000x128) S10000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S256x128.size a
  hwx6_5 : ∀ i : grid6.Coords, EltTy.bits .f32 = 32 ∨ (Rect.block (s := S256x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .f32 = 32 ∨ (Rect.block (s := S50000x128) S2000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x8x128.size a ≤ S25x8x128.size a
  hwx6_8 : ∀ i : grid6.Coords, EltTy.bits .f32 = 32 ∨ (Rect.block (s := S25x8x128) S1x8x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1x8x128.size a ≤ S25x8x128.size a
  hwx6_9 : ∀ i : grid6.Coords, EltTy.bits .f32 = 32 ∨ (Rect.block (s := S25x8x128) S1x8x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S640000x128.size a
  hwx8_0 : ∀ i : grid8.Coords, EltTy.bits .bf16 = 32 ∨ (Rect.block (s := S640000x128) S10000x128.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x128.size a ≤ S640000x128.size a
  hwx8_3 : ∀ i : grid8.Coords, EltTy.bits .bf16 = 32 ∨ (Rect.block (s := S640000x128) S10000x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x256.size a ≤ S128x256.size a
  hwx9_3 : ∀ i : grid9.Coords, EltTy.bits .f32 = 32 ∨ (Rect.block (s := S128x256) S128x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x128.size a ≤ S256x128.size a
  hwx9_5 : ∀ i : grid9.Coords, EltTy.bits .f32 = 32 ∨ (Rect.block (s := S256x128) S256x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x128.size a ≤ S50000x128.size a
  hwx9_7 : ∀ i : grid9.Coords, EltTy.bits .f32 = 32 ∨ (Rect.block (s := S50000x128) S2000x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S1x8x128.size a ≤ S25x8x128.size a
  hwx9_8 : ∀ i : grid9.Coords, EltTy.bits .f32 = 32 ∨ (Rect.block (s := S25x8x128) S1x8x128.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S1x8x128.size a ≤ S25x8x128.size a
  hwx9_9 : ∀ i : grid9.Coords, EltTy.bits .f32 = 32 ∨ (Rect.block (s := S25x8x128) S1x8x128.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S2000x128.size a ≤ S50000x128.size a
  hwx10_6 : ∀ i : grid10.Coords, EltTy.bits .f32 = 32 ∨ (Rect.block (s := S50000x128) S2000x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S640000x128.size a
  hwx11_0 : ∀ i : grid11.Coords, EltTy.bits .bf16 = 32 ∨ (Rect.block (s := S640000x128) S10000x128.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S640000x128.size a
  hwx11_3 : ∀ i : grid11.Coords, EltTy.bits .bf16 = 32 ∨ (Rect.block (s := S640000x128) S10000x128.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S50000x128.size a
  hwx12_1 : ∀ i : grid12.Coords, EltTy.bits .f32 = 32 ∨ (Rect.block (s := S50000x128) S2000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x256.size a ≤ S128x256.size a
  hwx12_3 : ∀ i : grid12.Coords, EltTy.bits .f32 = 32 ∨ (Rect.block (s := S128x256) S128x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S256x128.size a ≤ S256x128.size a
  hwx12_5 : ∀ i : grid12.Coords, EltTy.bits .f32 = 32 ∨ (Rect.block (s := S256x128) S256x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S2000x128.size a ≤ S50000x128.size a
  hwx12_7 : ∀ i : grid12.Coords, EltTy.bits .f32 = 32 ∨ (Rect.block (s := S50000x128) S2000x128.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S1x8x128.size a ≤ S25x8x128.size a
  hwx12_8 : ∀ i : grid12.Coords, EltTy.bits .f32 = 32 ∨ (Rect.block (s := S25x8x128) S1x8x128.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S1x8x128.size a ≤ S25x8x128.size a
  hwx12_9 : ∀ i : grid12.Coords, EltTy.bits .f32 = 32 ∨ (Rect.block (s := S25x8x128) S1x8x128.size (cc12_transform_9 i) (hinb12_9 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x128.size a ≤ S50000x128.size a
  hwx13_1 : ∀ i : grid13.Coords, EltTy.bits .f32 = 32 ∨ (Rect.block (s := S50000x128) S2000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S2000x128.size a ≤ S50000x128.size a
  hwx13_6 : ∀ i : grid13.Coords, EltTy.bits .f32 = 32 ∨ (Rect.block (s := S50000x128) S2000x128.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x128.size a ≤ S640000x128.size a
  hwx14_0 : ∀ i : grid14.Coords, EltTy.bits .bf16 = 32 ∨ (Rect.block (s := S640000x128) S10000x128.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S10000x128.size a ≤ S640000x128.size a
  hwx14_3 : ∀ i : grid14.Coords, EltTy.bits .bf16 = 32 ∨ (Rect.block (s := S640000x128) S10000x128.size (cc14_transform_3 i) (hinb14_3 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S50000x128.size a
  hwx15_0 : ∀ i : grid15.Coords, EltTy.bits .f32 = 32 ∨ (Rect.block (s := S50000x128) S2000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x128.size a ≤ S50000x128.size a
  hwx15_1 : ∀ i : grid15.Coords, EltTy.bits .f32 = 32 ∨ (Rect.block (s := S50000x128) S2000x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x1.size a ≤ S1x1.size a
  hwx15_2 : ∀ i : grid15.Coords, EltTy.bits .f32 = 32 ∨ (Rect.block (s := S1x1) S1x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S128x256.size a ≤ S128x256.size a
  hwx15_3 : ∀ i : grid15.Coords, EltTy.bits .f32 = 32 ∨ (Rect.block (s := S128x256) S128x256.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x256.size a ≤ S1x256.size a
  hwx15_4 : ∀ i : grid15.Coords, EltTy.bits .f32 = 32 ∨ (Rect.block (s := S1x256) S1x256.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S256x128.size a ≤ S256x128.size a
  hwx15_5 : ∀ i : grid15.Coords, EltTy.bits .f32 = 32 ∨ (Rect.block (s := S256x128) S256x128.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x128.size a ≤ S1x128.size a
  hwx15_6 : ∀ i : grid15.Coords, EltTy.bits .f32 = 32 ∨ (Rect.block (s := S1x128) S1x128.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S2000x128.size a ≤ S50000x128.size a
  hwx15_7 : ∀ i : grid15.Coords, EltTy.bits .f32 = 32 ∨ (Rect.block (s := S50000x128) S2000x128.size (cc15_transform_7 i) (hinb15_7 i)).WholeWords (EltTy.packing .f32)
  hstage15_8 : ∀ j, (stage15_8 j).IsWhole
  nbuf15_8 : grid15.bufCount reads15_8 false = 2
  hreads15_8 : ∀ i i' : grid15.Coords, (∀ a, reads15_8 a = true → i a = i' a) → cc15_transform_8 i = cc15_transform_8 i'
  hinb15_8 : ∀ (i : grid15.Coords) a, (cc15_transform_8 i a + 1) * S1x8x128.size a ≤ S25x8x128.size a
  hwx15_8 : ∀ i : grid15.Coords, EltTy.bits .f32 = 32 ∨ (Rect.block (s := S25x8x128) S1x8x128.size (cc15_transform_8 i) (hinb15_8 i)).WholeWords (EltTy.packing .f32)
  hstage15_9 : ∀ j, (stage15_9 j).IsWhole
  nbuf15_9 : grid15.bufCount reads15_9 false = 2
  hreads15_9 : ∀ i i' : grid15.Coords, (∀ a, reads15_9 a = true → i a = i' a) → cc15_transform_9 i = cc15_transform_9 i'
  hinb15_9 : ∀ (i : grid15.Coords) a, (cc15_transform_9 i a + 1) * S1x8x128.size a ≤ S25x8x128.size a
  hwx15_9 : ∀ i : grid15.Coords, EltTy.bits .f32 = 32 ∨ (Rect.block (s := S25x8x128) S1x8x128.size (cc15_transform_9 i) (hinb15_9 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x128.size a ≤ S50000x128.size a
  hwx16_0 : ∀ i : grid16.Coords, EltTy.bits .f32 = 32 ∨ (Rect.block (s := S50000x128) S2000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x128.size a ≤ S50000x128.size a
  hwx16_1 : ∀ i : grid16.Coords, EltTy.bits .f32 = 32 ∨ (Rect.block (s := S50000x128) S2000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x128.size a ≤ S1x128.size a
  hwx16_5 : ∀ i : grid16.Coords, EltTy.bits .f32 = 32 ∨ (Rect.block (s := S1x128) S1x128.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S2000x128.size a ≤ S50000x128.size a
  hwx16_6 : ∀ i : grid16.Coords, EltTy.bits .f32 = 32 ∨ (Rect.block (s := S50000x128) S2000x128.size (cc16_transform_6 i) (hinb16_6 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v43_0) S2000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v43_1) S1x8x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v43_2) S1x8x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v43_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v7) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v60) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S256x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v95) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v96_0) S2000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v96_1) S1x8x128.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v96_2) S1x8x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v96_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v105) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v106) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v112) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v113) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v7) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v119) S10000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v113) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v135) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v138) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v140) S128x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v143) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v145) S256x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v148) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v149_0) S2000x128.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v149_1) S1x8x128.size cc9_transform_8 reads9_8 true false 2 stage9_8 sem9_8
    hrank9 hreads9_8 hinb9_8 nbuf9_8 (Memref.isWhole_whole _) hwx9_8 hstage9_8

abbrev win9_9 : Pipeline.Window sig grid9 :=
  Pipeline.Window.ofSpec (Memref.whole main_v149_2) S1x8x128.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v149_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v113) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v158) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v159) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v162) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v165) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v166) S2000x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v7) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v168) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v171) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v172) S10000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v166) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v188) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v191) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v193) S128x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v196) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v198) S256x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v201) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v202_0) S2000x128.size cc12_transform_7 reads12_7 true false 2 stage12_7 sem12_7
    hrank12 hreads12_7 hinb12_7 nbuf12_7 (Memref.isWhole_whole _) hwx12_7 hstage12_7

abbrev win12_8 : Pipeline.Window sig grid12 :=
  Pipeline.Window.ofSpec (Memref.whole main_v202_1) S1x8x128.size cc12_transform_8 reads12_8 true false 2 stage12_8 sem12_8
    hrank12 hreads12_8 hinb12_8 nbuf12_8 (Memref.isWhole_whole _) hwx12_8 hstage12_8

abbrev win12_9 : Pipeline.Window sig grid12 :=
  Pipeline.Window.ofSpec (Memref.whole main_v202_2) S1x8x128.size cc12_transform_9 reads12_9 true false 2 stage12_9 sem12_9
    hrank12 hreads12_9 hinb12_9 nbuf12_9 (Memref.isWhole_whole _) hwx12_9 hstage12_9

abbrev win12 : Fin 10 → Pipeline.Window sig grid12 := fun | 0 => win12_0 | 1 => win12_1 | 2 => win12_2 | 3 => win12_3 | 4 => win12_4 | 5 => win12_5 | 6 => win12_6 | 7 => win12_7 | 8 => win12_8 | 9 => win12_9 | ⟨_ + 10, h⟩ => absurd h (Nat.not_lt.2 (Nat.le_add_left _ _))
abbrev spec12 : Fin 10 → Pipeline.WinSpec sig grid12.rank := fun w => (win12 w).toWinSpec

abbrev win13_0 : Pipeline.Window sig grid13 :=
  Pipeline.Window.ofSpec (Memref.whole main_v202_0) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v166) S2000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v211) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v212) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v215) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v218) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v219) S2000x128.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v7) S10000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v221) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v224) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v225) S10000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v219) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v241) S2000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v244) S1x1.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v246) S128x256.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v249) S1x256.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v251) S256x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v254) S1x128.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v255_0) S2000x128.size cc15_transform_7 reads15_7 true false 2 stage15_7 sem15_7
    hrank15 hreads15_7 hinb15_7 nbuf15_7 (Memref.isWhole_whole _) hwx15_7 hstage15_7

abbrev win15_8 : Pipeline.Window sig grid15 :=
  Pipeline.Window.ofSpec (Memref.whole main_v255_1) S1x8x128.size cc15_transform_8 reads15_8 true false 2 stage15_8 sem15_8
    hrank15 hreads15_8 hinb15_8 nbuf15_8 (Memref.isWhole_whole _) hwx15_8 hstage15_8

abbrev win15_9 : Pipeline.Window sig grid15 :=
  Pipeline.Window.ofSpec (Memref.whole main_v255_2) S1x8x128.size cc15_transform_9 reads15_9 true false 2 stage15_9 sem15_9
    hrank15 hreads15_9 hinb15_9 nbuf15_9 (Memref.isWhole_whole _) hwx15_9 hstage15_9

abbrev win15 : Fin 10 → Pipeline.Window sig grid15 := fun | 0 => win15_0 | 1 => win15_1 | 2 => win15_2 | 3 => win15_3 | 4 => win15_4 | 5 => win15_5 | 6 => win15_6 | 7 => win15_7 | 8 => win15_8 | 9 => win15_9 | ⟨_ + 10, h⟩ => absurd h (Nat.not_lt.2 (Nat.le_add_left _ _))
abbrev spec15 : Fin 10 → Pipeline.WinSpec sig grid15.rank := fun w => (win15 w).toWinSpec

abbrev win16_0 : Pipeline.Window sig grid16 :=
  Pipeline.Window.ofSpec (Memref.whole main_v255_0) S2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v219) S2000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v264) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v265) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v268) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v271) S1x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v272) S2000x128.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

class Facts : Prop extends Facts₀ where

variable [Facts]
-- ==== ReferenceIdeal.lean ====
abbrev S50000x64 : Shape := ⟨2, ![50000, 64]⟩
abbrev S2x640000 : Shape := ⟨2, ![2, 640000]⟩
abbrev S640000x16 : Shape := ⟨2, ![640000, 16]⟩
abbrev S50000 : Shape := ⟨1, ![50000]⟩
abbrev S64x128 : Shape := ⟨2, ![64, 128]⟩
abbrev S128 : Shape := ⟨1, ![128]⟩
abbrev S16x128 : Shape := ⟨2, ![16, 128]⟩
abbrev S5 : Shape := ⟨1, ![5]⟩
abbrev S5x128x128 : Shape := ⟨3, ![5, 128, 128]⟩
abbrev S5x128 : Shape := ⟨2, ![5, 128]⟩
abbrev S5x128x256 : Shape := ⟨3, ![5, 128, 256]⟩
abbrev S5x256 : Shape := ⟨2, ![5, 256]⟩
abbrev S5x256x128 : Shape := ⟨3, ![5, 256, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S50000x128 : Shape := ⟨2, ![50000, 128]⟩
abbrev S1x128 : Shape := ⟨2, ![1, 128]⟩
abbrev S_ : Shape := ⟨0, ![]⟩
abbrev S640000x128 : Shape := ⟨2, ![640000, 128]⟩
abbrev S640000x1 : Shape := ⟨2, ![640000, 1]⟩
abbrev S1x128x128 : Shape := ⟨3, ![1, 128, 128]⟩
abbrev S128x128 : Shape := ⟨2, ![128, 128]⟩
abbrev S1 : Shape := ⟨1, ![1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S50000x1 : Shape := ⟨2, ![50000, 1]⟩
abbrev S128x1 : Shape := ⟨2, ![128, 1]⟩
abbrev S1x64 : Shape := ⟨2, ![1, 64]⟩

abbrev nBuf : Space → Nat
  | .hbm => 578
  | .vmem => 0
  | .smem => 0
  | _ => 0

abbrev hbmTy0_0 (i : Nat) : BufTy := match i % 128 with
  | 0 => ⟨S50000x64, .f32⟩
  | 1 => ⟨S2x640000, .i32⟩
  | 2 => ⟨S640000x16, .f32⟩
  | 3 => ⟨S50000, .i32⟩
  | 4 => ⟨S64x128, .f32⟩
  | 5 => ⟨S128, .f32⟩
  | 6 => ⟨S16x128, .f32⟩
  | 7 => ⟨S128, .f32⟩
  | 8 => ⟨S5, .f32⟩
  | 9 => ⟨S5x128x128, .f32⟩
  | 10 => ⟨S5x128, .f32⟩
  | 11 => ⟨S5x128x256, .f32⟩
  | 12 => ⟨S5x256, .f32⟩
  | 13 => ⟨S5x256x128, .f32⟩
  | 14 => ⟨S5x128, .f32⟩
  | 15 => ⟨S5x128, .f32⟩
  | 16 => ⟨S5x128, .f32⟩
  | 17 => ⟨S128x64, .f32⟩
  | 18 => ⟨S64, .f32⟩
  | 19 => ⟨S64x128, .f32⟩
  | 20 => ⟨S128, .f32⟩
  | 21 => ⟨S1x640000, .i32⟩
  | 22 => ⟨S640000, .i32⟩
  | 23 => ⟨S1x640000, .i32⟩
  | 24 => ⟨S640000, .i32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S640000x128, .f32⟩
  | 33 => ⟨S1x128, .f32⟩
  | 34 => ⟨S640000x128, .f32⟩
  | 35 => ⟨S640000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S1x128x128, .f32⟩
  | 46 => ⟨S128x128, .f32⟩
  | 47 => ⟨S640000x128, .f32⟩
  | 48 => ⟨S640000x128, .f32⟩
  | 49 => ⟨S1x128, .f32⟩
  | 50 => ⟨S128, .f32⟩
  | 51 => ⟨S1x128, .f32⟩
  | 52 => ⟨S640000x128, .f32⟩
  | 53 => ⟨S640000x128, .f32⟩
  | 54 => ⟨S_, .f32⟩
  | 55 => ⟨S640000x128, .f32⟩
  | 56 => ⟨S640000x128, .f32⟩
  | 57 => ⟨S_, .f32⟩
  | 58 => ⟨S50000x128, .f32⟩
  | 59 => ⟨S640000x1, .i32⟩
  | 60 => ⟨S50000x128, .f32⟩
  | 61 => ⟨S1, .f32⟩
  | 62 => ⟨S_, .f32⟩
  | 63 => ⟨S_, .f32⟩
  | 64 => ⟨S_, .f32⟩
  | 65 => ⟨S50000x128, .f32⟩
  | 66 => ⟨S50000x128, .f32⟩
  | 67 => ⟨S50000x128, .f32⟩
  | 68 => ⟨S1x128x256, .f32⟩
  | 69 => ⟨S128x256, .f32⟩
  | 70 => ⟨S50000x256, .f32⟩
  | 71 => ⟨S1x256, .f32⟩
  | 72 => ⟨S256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S1x256x128, .f32⟩
  | 80 => ⟨S256x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x64, .f32⟩

abbrev hbmTy0_1 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S640000, .i32⟩
  | 13 => ⟨S640000, .i1⟩
  | 14 => ⟨S_, .i32⟩
  | 15 => ⟨S640000, .i32⟩
  | 16 => ⟨S640000, .i32⟩
  | 17 => ⟨S640000, .i32⟩
  | 18 => ⟨S640000x1, .i32⟩
  | 19 => ⟨S640000x128, .f32⟩
  | 20 => ⟨S1x128x128, .f32⟩
  | 21 => ⟨S128x128, .f32⟩
  | 22 => ⟨S640000x128, .f32⟩
  | 23 => ⟨S640000x128, .f32⟩
  | 24 => ⟨S1x128, .f32⟩
  | 25 => ⟨S128, .f32⟩
  | 26 => ⟨S1x128, .f32⟩
  | 27 => ⟨S640000x128, .f32⟩
  | 28 => ⟨S640000x128, .f32⟩
  | 29 => ⟨S_, .f32⟩
  | 30 => ⟨S640000x128, .f32⟩
  | 31 => ⟨S640000x128, .f32⟩
  | 32 => ⟨S_, .f32⟩
  | 33 => ⟨S50000x128, .f32⟩
  | 34 => ⟨S640000x1, .i32⟩
  | 35 => ⟨S50000x128, .f32⟩
  | 36 => ⟨S1, .f32⟩
  | 37 => ⟨S_, .f32⟩
  | 38 => ⟨S_, .f32⟩
  | 39 => ⟨S_, .f32⟩
  | 40 => ⟨S50000x128, .f32⟩
  | 41 => ⟨S50000x128, .f32⟩
  | 42 => ⟨S50000x128, .f32⟩
  | 43 => ⟨S1x128x256, .f32⟩
  | 44 => ⟨S128x256, .f32⟩
  | 45 => ⟨S50000x256, .f32⟩
  | 46 => ⟨S1x256, .f32⟩
  | 47 => ⟨S256, .f32⟩
  | 48 => ⟨S1x256, .f32⟩
  | 49 => ⟨S50000x256, .f32⟩
  | 50 => ⟨S50000x256, .f32⟩
  | 51 => ⟨S_, .f32⟩
  | 52 => ⟨S50000x256, .f32⟩
  | 53 => ⟨S50000x256, .f32⟩
  | 54 => ⟨S1x256x128, .f32⟩
  | 55 => ⟨S256x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x128, .f32⟩
  | 123 => ⟨S1x128x128, .f32⟩
  | 124 => ⟨S128x128, .f32⟩
  | 125 => ⟨S640000x128, .f32⟩
  | 126 => ⟨S640000x128, .f32⟩
  | 127 => ⟨S1x128, .f32⟩
  | _ => ⟨S50000x64, .f32⟩

abbrev hbmTy0_2 (i : Nat) : BufTy := match i % 128 with
  | 0 => ⟨S128, .f32⟩
  | 1 => ⟨S1x128, .f32⟩
  | 2 => ⟨S640000x128, .f32⟩
  | 3 => ⟨S640000x128, .f32⟩
  | 4 => ⟨S_, .f32⟩
  | 5 => ⟨S640000x128, .f32⟩
  | 6 => ⟨S640000x128, .f32⟩
  | 7 => ⟨S_, .f32⟩
  | 8 => ⟨S50000x128, .f32⟩
  | 9 => ⟨S640000x1, .i32⟩
  | 10 => ⟨S50000x128, .f32⟩
  | 11 => ⟨S1, .f32⟩
  | 12 => ⟨S_, .f32⟩
  | 13 => ⟨S_, .f32⟩
  | 14 => ⟨S_, .f32⟩
  | 15 => ⟨S50000x128, .f32⟩
  | 16 => ⟨S50000x128, .f32⟩
  | 17 => ⟨S50000x128, .f32⟩
  | 18 => ⟨S1x128x256, .f32⟩
  | 19 => ⟨S128x256, .f32⟩
  | 20 => ⟨S50000x256, .f32⟩
  | 21 => ⟨S1x256, .f32⟩
  | 22 => ⟨S256, .f32⟩
  | 23 => ⟨S1x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S1x256x128, .f32⟩
  | 30 => ⟨S256x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x128, .f32⟩
  | 98 => ⟨S1x128x128, .f32⟩
  | 99 => ⟨S128x128, .f32⟩
  | 100 => ⟨S640000x128, .f32⟩
  | 101 => ⟨S640000x128, .f32⟩
  | 102 => ⟨S1x128, .f32⟩
  | 103 => ⟨S128, .f32⟩
  | 104 => ⟨S1x128, .f32⟩
  | 105 => ⟨S640000x128, .f32⟩
  | 106 => ⟨S640000x128, .f32⟩
  | 107 => ⟨S_, .f32⟩
  | 108 => ⟨S640000x128, .f32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S1, .f32⟩
  | 115 => ⟨S_, .f32⟩
  | 116 => ⟨S_, .f32⟩
  | 117 => ⟨S_, .f32⟩
  | 118 => ⟨S50000x128, .f32⟩
  | 119 => ⟨S50000x128, .f32⟩
  | 120 => ⟨S50000x128, .f32⟩
  | 121 => ⟨S1x128x256, .f32⟩
  | 122 => ⟨S128x256, .f32⟩
  | 123 => ⟨S50000x256, .f32⟩
  | 124 => ⟨S1x256, .f32⟩
  | 125 => ⟨S256, .f32⟩
  | 126 => ⟨S1x256, .f32⟩
  | 127 => ⟨S50000x256, .f32⟩
  | _ => ⟨S50000x64, .f32⟩

abbrev hbmTy0_3 (i : Nat) : BufTy := match i % 128 with
  | 0 => ⟨S50000x256, .f32⟩
  | 1 => ⟨S_, .f32⟩
  | 2 => ⟨S50000x256, .f32⟩
  | 3 => ⟨S50000x256, .f32⟩
  | 4 => ⟨S1x256x128, .f32⟩
  | 5 => ⟨S256x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S640000x128, .f32⟩
  | 73 => ⟨S1x128x128, .f32⟩
  | 74 => ⟨S128x128, .f32⟩
  | 75 => ⟨S640000x128, .f32⟩
  | 76 => ⟨S640000x128, .f32⟩
  | 77 => ⟨S1x128, .f32⟩
  | 78 => ⟨S128, .f32⟩
  | 79 => ⟨S1x128, .f32⟩
  | 80 => ⟨S640000x128, .f32⟩
  | 81 => ⟨S640000x128, .f32⟩
  | 82 => ⟨S_, .f32⟩
  | 83 => ⟨S640000x128, .f32⟩
  | 84 => ⟨S640000x128, .f32⟩
  | 85 => ⟨S_, .f32⟩
  | 86 => ⟨S50000x128, .f32⟩
  | 87 => ⟨S640000x1, .i32⟩
  | 88 => ⟨S50000x128, .f32⟩
  | 89 => ⟨S1, .f32⟩
  | 90 => ⟨S_, .f32⟩
  | 91 => ⟨S_, .f32⟩
  | 92 => ⟨S_, .f32⟩
  | 93 => ⟨S50000x128, .f32⟩
  | 94 => ⟨S50000x128, .f32⟩
  | 95 => ⟨S50000x128, .f32⟩
  | 96 => ⟨S1x128x256, .f32⟩
  | 97 => ⟨S128x256, .f32⟩
  | 98 => ⟨S50000x256, .f32⟩
  | 99 => ⟨S1x256, .f32⟩
  | 100 => ⟨S256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S1x256x128, .f32⟩
  | 108 => ⟨S256x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x64, .f32⟩

abbrev hbmTy0_4 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S50000, .f32⟩
  | 41 => ⟨S_, .f32⟩
  | 42 => ⟨S128, .f32⟩
  | 43 => ⟨S50000x1, .i32⟩
  | 44 => ⟨S128, .f32⟩
  | 45 => ⟨S_, .f32⟩
  | 46 => ⟨S128x128, .f32⟩
  | 47 => ⟨S50000x1, .i32⟩
  | 48 => ⟨S128x128, .f32⟩
  | 49 => ⟨S_, .f32⟩
  | 50 => ⟨S128, .f32⟩
  | 51 => ⟨S128, .f32⟩
  | 52 => ⟨S128x1, .f32⟩
  | 53 => ⟨S128x128, .f32⟩
  | 54 => ⟨S128x128, .f32⟩
  | 55 => ⟨S128x64, .f32⟩
  | 56 => ⟨S1x64, .f32⟩
  | 57 => ⟨S128x64, .f32⟩
  | 58 => ⟨S128x64, .f32⟩
  | 59 => ⟨S_, .f32⟩
  | 60 => ⟨S128x64, .f32⟩
  | 61 => ⟨S128x64, .f32⟩
  | 62 => ⟨S128x128, .f32⟩
  | 63 => ⟨S1x128, .f32⟩
  | 64 => ⟨S128x128, .f32⟩
  | 65 => ⟨S128x128, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_cst : Ref sig .tc := ⟨.hbm, 29, rfl⟩
abbrev main_call0_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call1_cst : Ref sig .tc := ⟨.hbm, 54, rfl⟩
abbrev main_call1_v0 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call2_cst : Ref sig .tc := ⟨.hbm, 76, rfl⟩
abbrev main_call2_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_2 : Ref sig .tc := ⟨.hbm, 87, rfl⟩
abbrev main_v56 : Ref sig .tc := ⟨.hbm, 88, rfl⟩
abbrev main_cst_3 : Ref sig .tc := ⟨.hbm, 89, rfl⟩
abbrev main_v57 : Ref sig .tc := ⟨.hbm, 90, rfl⟩
abbrev main_v58 : Ref sig .tc := ⟨.hbm, 91, rfl⟩
abbrev main_c_4 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_cst_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_cst_1 : Ref sig .tc := ⟨.hbm, 103, rfl⟩
abbrev main_call3_v8 : Ref sig .tc := ⟨.hbm, 104, rfl⟩
abbrev main_call3_cst_2 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_cst_3 : Ref sig .tc := ⟨.hbm, 109, rfl⟩
abbrev main_call3_v12 : Ref sig .tc := ⟨.hbm, 110, rfl⟩
abbrev main_call3_cst_4 : Ref sig .tc := ⟨.hbm, 111, rfl⟩
abbrev main_call3_call0_v0 : Ref sig .tc := ⟨.hbm, 112, rfl⟩
abbrev main_call3_call0_v1 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_5 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_call4_cst : Ref sig .tc := ⟨.hbm, 136, rfl⟩
abbrev main_call4_v0 : Ref sig .tc := ⟨.hbm, 137, rfl⟩
abbrev main_v80 : Ref sig .tc := ⟨.hbm, 138, rfl⟩
abbrev main_c_6 : Ref sig .tc := ⟨.hbm, 139, rfl⟩
abbrev main_v81 : Ref sig .tc := ⟨.hbm, 140, rfl⟩
abbrev main_v82 : Ref sig .tc := ⟨.hbm, 141, rfl⟩
abbrev main_c_7 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_call5_cst : Ref sig .tc := ⟨.hbm, 157, rfl⟩
abbrev main_call5_v0 : Ref sig .tc := ⟨.hbm, 158, rfl⟩
abbrev main_v97 : Ref sig .tc := ⟨.hbm, 159, rfl⟩
abbrev main_cst_8 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_9 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_call6_cst : Ref sig .tc := ⟨.hbm, 179, rfl⟩
abbrev main_call6_v0 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_10 : Ref sig .tc := ⟨.hbm, 190, rfl⟩
abbrev main_v124 : Ref sig .tc := ⟨.hbm, 191, rfl⟩
abbrev main_cst_11 : Ref sig .tc := ⟨.hbm, 192, rfl⟩
abbrev main_v125 : Ref sig .tc := ⟨.hbm, 193, rfl⟩
abbrev main_v126 : Ref sig .tc := ⟨.hbm, 194, rfl⟩
abbrev main_c_12 : Ref sig .tc := ⟨.hbm, 195, rfl⟩
abbrev main_call7_cst : Ref sig .tc := ⟨.hbm, 196, rfl⟩
abbrev main_call7_v0 : Ref sig .tc := ⟨.hbm, 197, rfl⟩
abbrev main_call7_v1 : Ref sig .tc := ⟨.hbm, 198, rfl⟩
abbrev main_call7_cst_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_v6 : Ref sig .tc := ⟨.hbm, 204, rfl⟩
abbrev main_call7_v7 : Ref sig .tc := ⟨.hbm, 205, rfl⟩
abbrev main_call7_cst_1 : Ref sig .tc := ⟨.hbm, 206, rfl⟩
abbrev main_call7_v8 : Ref sig .tc := ⟨.hbm, 207, rfl⟩
abbrev main_call7_cst_2 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_cst_3 : Ref sig .tc := ⟨.hbm, 212, rfl⟩
abbrev main_call7_v12 : Ref sig .tc := ⟨.hbm, 213, rfl⟩
abbrev main_call7_cst_4 : Ref sig .tc := ⟨.hbm, 214, rfl⟩
abbrev main_call7_call0_v0 : Ref sig .tc := ⟨.hbm, 215, rfl⟩
abbrev main_call7_call0_v1 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_13 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_call8_cst : Ref sig .tc := ⟨.hbm, 239, rfl⟩
abbrev main_call8_v0 : Ref sig .tc := ⟨.hbm, 240, rfl⟩
abbrev main_v148 : Ref sig .tc := ⟨.hbm, 241, rfl⟩
abbrev main_c_14 : Ref sig .tc := ⟨.hbm, 242, rfl⟩
abbrev main_v149 : Ref sig .tc := ⟨.hbm, 243, rfl⟩
abbrev main_v150 : Ref sig .tc := ⟨.hbm, 244, rfl⟩
abbrev main_c_15 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_call9_cst : Ref sig .tc := ⟨.hbm, 260, rfl⟩
abbrev main_call9_v0 : Ref sig .tc := ⟨.hbm, 261, rfl⟩
abbrev main_v165 : Ref sig .tc := ⟨.hbm, 262, rfl⟩
abbrev main_cst_16 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_17 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_call10_cst : Ref sig .tc := ⟨.hbm, 282, rfl⟩
abbrev main_call10_v0 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_18 : Ref sig .tc := ⟨.hbm, 293, rfl⟩
abbrev main_v192 : Ref sig .tc := ⟨.hbm, 294, rfl⟩
abbrev main_cst_19 : Ref sig .tc := ⟨.hbm, 295, rfl⟩
abbrev main_v193 : Ref sig .tc := ⟨.hbm, 296, rfl⟩
abbrev main_v194 : Ref sig .tc := ⟨.hbm, 297, rfl⟩
abbrev main_c_20 : Ref sig .tc := ⟨.hbm, 298, rfl⟩
abbrev main_call11_cst : Ref sig .tc := ⟨.hbm, 299, rfl⟩
abbrev main_call11_v0 : Ref sig .tc := ⟨.hbm, 300, rfl⟩
abbrev main_call11_v1 : Ref sig .tc := ⟨.hbm, 301, rfl⟩
abbrev main_call11_cst_0 : Ref sig .tc := ⟨.hbm, 302, rfl⟩
abbrev main_call11_v2 : Ref sig .tc := ⟨.hbm, 303, rfl⟩
abbrev main_call11_v3 : Ref sig .tc := ⟨.hbm, 304, rfl⟩
abbrev main_call11_v4 : Ref sig .tc := ⟨.hbm, 305, rfl⟩
abbrev main_call11_v5 : Ref sig .tc := ⟨.hbm, 306, rfl⟩
abbrev main_call11_v6 : Ref sig .tc := ⟨.hbm, 307, rfl⟩
abbrev main_call11_v7 : Ref sig .tc := ⟨.hbm, 308, rfl⟩
abbrev main_call11_cst_1 : Ref sig .tc := ⟨.hbm, 309, rfl⟩
abbrev main_call11_v8 : Ref sig .tc := ⟨.hbm, 310, rfl⟩
abbrev main_call11_cst_2 : Ref sig .tc := ⟨.hbm, 311, rfl⟩
abbrev main_call11_v9 : Ref sig .tc := ⟨.hbm, 312, rfl⟩
abbrev main_call11_v10 : Ref sig .tc := ⟨.hbm, 313, rfl⟩
abbrev main_call11_v11 : Ref sig .tc := ⟨.hbm, 314, rfl⟩
abbrev main_call11_cst_3 : Ref sig .tc := ⟨.hbm, 315, rfl⟩
abbrev main_call11_v12 : Ref sig .tc := ⟨.hbm, 316, rfl⟩
abbrev main_call11_cst_4 : Ref sig .tc := ⟨.hbm, 317, rfl⟩
abbrev main_call11_call0_v0 : Ref sig .tc := ⟨.hbm, 318, rfl⟩
abbrev main_call11_call0_v1 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_cst_21 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_call12_cst : Ref sig .tc := ⟨.hbm, 342, rfl⟩
abbrev main_call12_v0 : Ref sig .tc := ⟨.hbm, 343, rfl⟩
abbrev main_v216 : Ref sig .tc := ⟨.hbm, 344, rfl⟩
abbrev main_c_22 : Ref sig .tc := ⟨.hbm, 345, rfl⟩
abbrev main_v217 : Ref sig .tc := ⟨.hbm, 346, rfl⟩
abbrev main_v218 : Ref sig .tc := ⟨.hbm, 347, rfl⟩
abbrev main_c_23 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_call13_cst : Ref sig .tc := ⟨.hbm, 363, rfl⟩
abbrev main_call13_v0 : Ref sig .tc := ⟨.hbm, 364, rfl⟩
abbrev main_v233 : Ref sig .tc := ⟨.hbm, 365, rfl⟩
abbrev main_cst_24 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_cst_25 : Ref sig .tc := ⟨.hbm, 372, rfl⟩
abbrev main_v239 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_call14_cst : Ref sig .tc := ⟨.hbm, 385, rfl⟩
abbrev main_call14_v0 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_v256 : Ref sig .tc := ⟨.hbm, 392, rfl⟩
abbrev main_v257 : Ref sig .tc := ⟨.hbm, 393, rfl⟩
abbrev main_v258 : Ref sig .tc := ⟨.hbm, 394, rfl⟩
abbrev main_v259 : Ref sig .tc := ⟨.hbm, 395, rfl⟩
abbrev main_cst_26 : Ref sig .tc := ⟨.hbm, 396, rfl⟩
abbrev main_v260 : Ref sig .tc := ⟨.hbm, 397, rfl⟩
abbrev main_cst_27 : Ref sig .tc := ⟨.hbm, 398, rfl⟩
abbrev main_v261 : Ref sig .tc := ⟨.hbm, 399, rfl⟩
abbrev main_v262 : Ref sig .tc := ⟨.hbm, 400, rfl⟩
abbrev main_c_28 : Ref sig .tc := ⟨.hbm, 401, rfl⟩
abbrev main_call15_cst : Ref sig .tc := ⟨.hbm, 402, rfl⟩
abbrev main_call15_v0 : Ref sig .tc := ⟨.hbm, 403, rfl⟩
abbrev main_call15_v1 : Ref sig .tc := ⟨.hbm, 404, rfl⟩
abbrev main_call15_cst_0 : Ref sig .tc := ⟨.hbm, 405, rfl⟩
abbrev main_call15_v2 : Ref sig .tc := ⟨.hbm, 406, rfl⟩
abbrev main_call15_v3 : Ref sig .tc := ⟨.hbm, 407, rfl⟩
abbrev main_call15_v4 : Ref sig .tc := ⟨.hbm, 408, rfl⟩
abbrev main_call15_v5 : Ref sig .tc := ⟨.hbm, 409, rfl⟩
abbrev main_call15_v6 : Ref sig .tc := ⟨.hbm, 410, rfl⟩
abbrev main_call15_v7 : Ref sig .tc := ⟨.hbm, 411, rfl⟩
abbrev main_call15_cst_1 : Ref sig .tc := ⟨.hbm, 412, rfl⟩
abbrev main_call15_v8 : Ref sig .tc := ⟨.hbm, 413, rfl⟩
abbrev main_call15_cst_2 : Ref sig .tc := ⟨.hbm, 414, rfl⟩
abbrev main_call15_v9 : Ref sig .tc := ⟨.hbm, 415, rfl⟩
abbrev main_call15_v10 : Ref sig .tc := ⟨.hbm, 416, rfl⟩
abbrev main_call15_v11 : Ref sig .tc := ⟨.hbm, 417, rfl⟩
abbrev main_call15_cst_3 : Ref sig .tc := ⟨.hbm, 418, rfl⟩
abbrev main_call15_v12 : Ref sig .tc := ⟨.hbm, 419, rfl⟩
abbrev main_call15_cst_4 : Ref sig .tc := ⟨.hbm, 420, rfl⟩
abbrev main_call15_call0_v0 : Ref sig .tc := ⟨.hbm, 421, rfl⟩
abbrev main_call15_call0_v1 : Ref sig .tc := ⟨.hbm, 422, rfl⟩
abbrev main_v263 : Ref sig .tc := ⟨.hbm, 423, rfl⟩
abbrev main_v264 : Ref sig .tc := ⟨.hbm, 424, rfl⟩
abbrev main_v265 : Ref sig .tc := ⟨.hbm, 425, rfl⟩
abbrev main_v266 : Ref sig .tc := ⟨.hbm, 426, rfl⟩
abbrev main_cst_29 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_v273 : Ref sig .tc := ⟨.hbm, 434, rfl⟩
abbrev main_v274 : Ref sig .tc := ⟨.hbm, 435, rfl⟩
abbrev main_v275 : Ref sig .tc := ⟨.hbm, 436, rfl⟩
abbrev main_v276 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_v281 : Ref sig .tc := ⟨.hbm, 442, rfl⟩
abbrev main_v282 : Ref sig .tc := ⟨.hbm, 443, rfl⟩
abbrev main_v283 : Ref sig .tc := ⟨.hbm, 444, rfl⟩
abbrev main_call16_cst : Ref sig .tc := ⟨.hbm, 445, rfl⟩
abbrev main_call16_v0 : Ref sig .tc := ⟨.hbm, 446, rfl⟩
abbrev main_v284 : Ref sig .tc := ⟨.hbm, 447, rfl⟩
abbrev main_c_30 : Ref sig .tc := ⟨.hbm, 448, rfl⟩
abbrev main_v285 : Ref sig .tc := ⟨.hbm, 449, rfl⟩
abbrev main_v286 : Ref sig .tc := ⟨.hbm, 450, rfl⟩
abbrev main_c_31 : Ref sig .tc := ⟨.hbm, 451, rfl⟩
abbrev main_v287 : Ref sig .tc := ⟨.hbm, 452, rfl⟩
abbrev main_v288 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_v292 : Ref sig .tc := ⟨.hbm, 457, rfl⟩
abbrev main_v293 : Ref sig .tc := ⟨.hbm, 458, rfl⟩
abbrev main_v294 : Ref sig .tc := ⟨.hbm, 459, rfl⟩
abbrev main_v295 : Ref sig .tc := ⟨.hbm, 460, rfl⟩
abbrev main_v296 : Ref sig .tc := ⟨.hbm, 461, rfl⟩
abbrev main_v297 : Ref sig .tc := ⟨.hbm, 462, rfl⟩
abbrev main_v298 : Ref sig .tc := ⟨.hbm, 463, rfl⟩
abbrev main_v299 : Ref sig .tc := ⟨.hbm, 464, rfl⟩
abbrev main_v300 : Ref sig .tc := ⟨.hbm, 465, rfl⟩
abbrev main_call17_cst : Ref sig .tc := ⟨.hbm, 466, rfl⟩
abbrev main_call17_v0 : Ref sig .tc := ⟨.hbm, 467, rfl⟩
abbrev main_v301 : Ref sig .tc := ⟨.hbm, 468, rfl⟩
abbrev main_cst_32 : Ref sig .tc := ⟨.hbm, 469, rfl⟩
abbrev main_v302 : Ref sig .tc := ⟨.hbm, 470, rfl⟩
abbrev main_v303 : Ref sig .tc := ⟨.hbm, 471, rfl⟩
abbrev main_v304 : Ref sig .tc := ⟨.hbm, 472, rfl⟩
abbrev main_v305 : Ref sig .tc := ⟨.hbm, 473, rfl⟩
abbrev main_v306 : Ref sig .tc := ⟨.hbm, 474, rfl⟩
abbrev main_cst_33 : Ref sig .tc := ⟨.hbm, 475, rfl⟩
abbrev main_v307 : Ref sig .tc := ⟨.hbm, 476, rfl⟩
abbrev main_v308 : Ref sig .tc := ⟨.hbm, 477, rfl⟩
abbrev main_v309 : Ref sig .tc := ⟨.hbm, 478, rfl⟩
abbrev main_v310 : Ref sig .tc := ⟨.hbm, 479, rfl⟩
abbrev main_v311 : Ref sig .tc := ⟨.hbm, 480, rfl⟩
abbrev main_v312 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_v318 : Ref sig .tc := ⟨.hbm, 487, rfl⟩
abbrev main_call18_cst : Ref sig .tc := ⟨.hbm, 488, rfl⟩
abbrev main_call18_v0 : Ref sig .tc := ⟨.hbm, 489, rfl⟩
abbrev main_v319 : Ref sig .tc := ⟨.hbm, 490, rfl⟩
abbrev main_v320 : Ref sig .tc := ⟨.hbm, 491, rfl⟩
abbrev main_v321 : Ref sig .tc := ⟨.hbm, 492, rfl⟩
abbrev main_v322 : Ref sig .tc := ⟨.hbm, 493, rfl⟩
abbrev main_v323 : Ref sig .tc := ⟨.hbm, 494, rfl⟩
abbrev main_v324 : Ref sig .tc := ⟨.hbm, 495, rfl⟩
abbrev main_v325 : Ref sig .tc := ⟨.hbm, 496, rfl⟩
abbrev main_v326 : Ref sig .tc := ⟨.hbm, 497, rfl⟩
abbrev main_v327 : Ref sig .tc := ⟨.hbm, 498, rfl⟩
abbrev main_cst_34 : Ref sig .tc := ⟨.hbm, 499, rfl⟩
abbrev main_v328 : Ref sig .tc := ⟨.hbm, 500, rfl⟩
abbrev main_cst_35 : Ref sig .tc := ⟨.hbm, 501, rfl⟩
abbrev main_v329 : Ref sig .tc := ⟨.hbm, 502, rfl⟩
abbrev main_v330 : Ref sig .tc := ⟨.hbm, 503, rfl⟩
abbrev main_c_36 : Ref sig .tc := ⟨.hbm, 504, rfl⟩
abbrev main_call19_cst : Ref sig .tc := ⟨.hbm, 505, rfl⟩
abbrev main_call19_v0 : Ref sig .tc := ⟨.hbm, 506, rfl⟩
abbrev main_call19_v1 : Ref sig .tc := ⟨.hbm, 507, rfl⟩
abbrev main_call19_cst_0 : Ref sig .tc := ⟨.hbm, 508, rfl⟩
abbrev main_call19_v2 : Ref sig .tc := ⟨.hbm, 509, rfl⟩
abbrev main_call19_v3 : Ref sig .tc := ⟨.hbm, 510, rfl⟩
abbrev main_call19_v4 : Ref sig .tc := ⟨.hbm, 511, rfl⟩
abbrev main_call19_v5 : Ref sig .tc := ⟨.hbm, 512, rfl⟩
abbrev main_call19_v6 : Ref sig .tc := ⟨.hbm, 513, rfl⟩
abbrev main_call19_v7 : Ref sig .tc := ⟨.hbm, 514, rfl⟩
abbrev main_call19_cst_1 : Ref sig .tc := ⟨.hbm, 515, rfl⟩
abbrev main_call19_v8 : Ref sig .tc := ⟨.hbm, 516, rfl⟩
abbrev main_call19_cst_2 : Ref sig .tc := ⟨.hbm, 517, rfl⟩
abbrev main_call19_v9 : Ref sig .tc := ⟨.hbm, 518, rfl⟩
abbrev main_call19_v10 : Ref sig .tc := ⟨.hbm, 519, rfl⟩
abbrev main_call19_v11 : Ref sig .tc := ⟨.hbm, 520, rfl⟩
abbrev main_call19_cst_3 : Ref sig .tc := ⟨.hbm, 521, rfl⟩
abbrev main_call19_v12 : Ref sig .tc := ⟨.hbm, 522, rfl⟩
abbrev main_call19_cst_4 : Ref sig .tc := ⟨.hbm, 523, rfl⟩
abbrev main_call19_call0_v0 : Ref sig .tc := ⟨.hbm, 524, rfl⟩
abbrev main_call19_call0_v1 : Ref sig .tc := ⟨.hbm, 525, rfl⟩
abbrev main_v331 : Ref sig .tc := ⟨.hbm, 526, rfl⟩
abbrev main_v332 : Ref sig .tc := ⟨.hbm, 527, rfl⟩
abbrev main_v333 : Ref sig .tc := ⟨.hbm, 528, rfl⟩
abbrev main_v334 : Ref sig .tc := ⟨.hbm, 529, rfl⟩
abbrev main_cst_37 : Ref sig .tc := ⟨.hbm, 530, rfl⟩
abbrev main_v335 : Ref sig .tc := ⟨.hbm, 531, rfl⟩
abbrev main_v336 : Ref sig .tc := ⟨.hbm, 532, rfl⟩
abbrev main_v337 : Ref sig .tc := ⟨.hbm, 533, rfl⟩
abbrev main_v338 : Ref sig .tc := ⟨.hbm, 534, rfl⟩
abbrev main_v339 : Ref sig .tc := ⟨.hbm, 535, rfl⟩
abbrev main_v340 : Ref sig .tc := ⟨.hbm, 536, rfl⟩
abbrev main_v341 : Ref sig .tc := ⟨.hbm, 537, rfl⟩
abbrev main_v342 : Ref sig .tc := ⟨.hbm, 538, rfl⟩
abbrev main_v343 : Ref sig .tc := ⟨.hbm, 539, rfl⟩
abbrev main_v344 : Ref sig .tc := ⟨.hbm, 540, rfl⟩
abbrev main_v345 : Ref sig .tc := ⟨.hbm, 541, rfl⟩
abbrev main_v346 : Ref sig .tc := ⟨.hbm, 542, rfl⟩
abbrev main_v347 : Ref sig .tc := ⟨.hbm, 543, rfl⟩
abbrev main_v348 : Ref sig .tc := ⟨.hbm, 544, rfl⟩
abbrev main_v349 : Ref sig .tc := ⟨.hbm, 545, rfl⟩
abbrev main_v350 : Ref sig .tc := ⟨.hbm, 546, rfl⟩
abbrev main_v351 : Ref sig .tc := ⟨.hbm, 547, rfl⟩
abbrev main_call20_cst : Ref sig .tc := ⟨.hbm, 548, rfl⟩
abbrev main_call20_v0 : Ref sig .tc := ⟨.hbm, 549, rfl⟩
abbrev main_v352 : Ref sig .tc := ⟨.hbm, 550, rfl⟩
abbrev main_cst_38 : Ref sig .tc := ⟨.hbm, 551, rfl⟩
abbrev main_v353 : Ref sig .tc := ⟨.hbm, 552, rfl⟩
abbrev main_cst_39 : Ref sig .tc := ⟨.hbm, 553, rfl⟩
abbrev main_v354 : Ref sig .tc := ⟨.hbm, 554, rfl⟩
abbrev main_v355 : Ref sig .tc := ⟨.hbm, 555, rfl⟩
abbrev main_v356 : Ref sig .tc := ⟨.hbm, 556, rfl⟩
abbrev main_cst_40 : Ref sig .tc := ⟨.hbm, 557, rfl⟩
abbrev main_v357 : Ref sig .tc := ⟨.hbm, 558, rfl⟩
abbrev main_v358 : Ref sig .tc := ⟨.hbm, 559, rfl⟩
abbrev main_v359 : Ref sig .tc := ⟨.hbm, 560, rfl⟩
abbrev main_cst_41 : Ref sig .tc := ⟨.hbm, 561, rfl⟩
abbrev main_v360 : Ref sig .tc := ⟨.hbm, 562, rfl⟩
abbrev main_v361 : Ref sig .tc := ⟨.hbm, 563, rfl⟩
abbrev main_v362 : Ref sig .tc := ⟨.hbm, 564, rfl⟩
abbrev main_v363 : Ref sig .tc := ⟨.hbm, 565, rfl⟩
abbrev main_v364 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_v368 : Ref sig .tc := ⟨.hbm, 570, rfl⟩
abbrev main_call21_cst : Ref sig .tc := ⟨.hbm, 571, rfl⟩
abbrev main_call21_v0 : Ref sig .tc := ⟨.hbm, 572, rfl⟩
abbrev main_v369 : Ref sig .tc := ⟨.hbm, 573, rfl⟩
abbrev main_v370 : Ref sig .tc := ⟨.hbm, 574, rfl⟩
abbrev main_v371 : Ref sig .tc := ⟨.hbm, 575, rfl⟩
abbrev main_v372 : Ref sig .tc := ⟨.hbm, 576, rfl⟩
abbrev main_v373 : Ref sig .tc := ⟨.hbm, 577, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S640000x128 : S_.BroadcastsInDim S640000x128 (![] : Fin 0 → Fin S640000x128.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S5x256x128_S1x256x128_0_0_0 : S5x256x128.Slices ![0, 0, 0] S1x256x128
  shapeCasts_S1x256x128_S256x128 : S1x256x128.ShapeCasts S256x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128x128_S1x128x128_2_0_0 : S5x128x128.Slices ![2, 0, 0] S1x128x128
  slices_S5x128_S1x128_2_0 : S5x128.Slices ![2, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128x128_S1x128x128_3_0_0 : S5x128x128.Slices ![3, 0, 0] S1x128x128
  slices_S5x128_S1x128_3_0 : S5x128.Slices ![3, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128x128_S1x128x128_4_0_0 : S5x128x128.Slices ![4, 0, 0] S1x128x128
  slices_S5x128_S1x128_4_0 : S5x128.Slices ![4, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  bcast_S_S50000 : S_.BroadcastsInDim S50000 (![] : Fin 0 → Fin S50000.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1x128_S128x128_0_1 : S1x128.BroadcastsInDim S128x128 (![0, 1] : Fin 2 → Fin S128x128.rank)
  dot_S50000x64_S64x128_S50000x128_1_0_0_1_n_n_wf : DotDims.WF S50000x64 S64x128 S50000x128 [1] [0] [0] [1] [] []
  dot_S640000x16_S16x128_S640000x128_1_0_0_1_n_n_wf : DotDims.WF S640000x16 S16x128 S640000x128 [1] [0] [0] [1] [] []
  gather_S50000x128_S640000x1_S640000x128_1_0_n_n_0_1_1128_wf : GatherDims.WF S50000x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x64_S128x64_1_0_0_1_n_n_wf : DotDims.WF S128x128 S128x64 S128x64 [1] [0] [0] [1] [] []
  dot_S128x64_S64x128_S128x128_1_0_0_1_n_n_wf : DotDims.WF S128x64 S64x128 S128x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

class Facts : Prop extends Facts₀ where

variable [Facts]
-- ==== Proof.RefRun.Ops.lean ====
/- The reference program's host operations, in order, as lists: a called function's operations stand in its call's
   place over the call's buffers. One list per stage of the network inside one printed window of the program, the
   buffers each list writes beside it, and the lists joined window by window. A table of the program's text. -/
import proofs.«105345_j19885698580760_2_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- stage idx, in window main_part0: 4 operations. -/
def sg_idx : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]
/-- The buffers sg_idx writes. -/
def W_idx : List (Ref sig .tc) := [main_v0, main_v1, main_v2, main_v3]

/-- stage encn, in window main_part0: 7 operations. -/
def sg_encn : List (HloOp τ sig (Elt F)) :=
  [ binary main_arg0 main_arg4 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32),
    unary main_call0_cst main_call0_v0 ((broadcastInDim S50000x128 ![] bcast_S_S50000x128) : (⟨S_, .f32⟩ : BufTy).Contents (Elt F) → (⟨S50000x128, .f32⟩ : BufTy).Contents (Elt F)),
    binary main_v7 main_call0_v0 main_v8 ((maximumf) : (⟨S50000x128, .f32⟩ : BufTy).Contents (Elt F) → (⟨S50000x128, .f32⟩ : BufTy).Contents (Elt F) → (⟨S50000x128, .f32⟩ : BufTy).Contents (Elt F)) ]
/-- The buffers sg_encn writes. -/
def W_encn : List (Ref sig .tc) := [main_v4, main_v5, main_v6, main_v7, main_call0_cst, main_call0_v0, main_v8]

/-- stage ence, in window main_part0: 4 operations. -/
def sg_ence : List (HloOp τ sig (Elt F)) :=
  [ binary main_arg2 main_arg6 main_v9 ((fun l r => Host.dotGeneral dot_S640000x16_S16x128_S640000x128_1_0_0_1_n_n none l r) : (⟨S640000x16, .f32⟩ : BufTy).Contents (Elt F) → (⟨S16x128, .f32⟩ : BufTy).Contents (Elt F) → (⟨S640000x128, .f32⟩ : BufTy).Contents (Elt F)),
    unary main_arg7 main_v10 (broadcastInDim S1x128 ![1] bcast_S128_S1x128_1 : (⟨S128, .f32⟩ : BufTy).Contents (Elt F) → (⟨S1x128, .f32⟩ : BufTy).Contents (Elt F)),
    unary main_v10 main_v11 (broadcastInDim S640000x128 ![0, 1] bcast_S1x128_S640000x128_0_1 : (⟨S1x128, .f32⟩ : BufTy).Contents (Elt F) → (⟨S640000x128, .f32⟩ : BufTy).Contents (Elt F)),
    binary main_v9 main_v11 main_v12 (addf : (⟨S640000x128, .f32⟩ : BufTy).Contents (Elt F) → (⟨S640000x128, .f32⟩ : BufTy).Contents (Elt F) → (⟨S640000x128, .f32⟩ : BufTy).Contents (Elt F)) ]
/-- The buffers sg_ence writes. -/
def W_ence : List (Ref sig .tc) := [main_v9, main_v10, main_v11, main_v12]

/-- layer 0, stage src, in window main_part0: 8 operations. -/
def sg_L0_src : List (HloOp τ sig (Elt F)) :=
  [ nullary main_c (constantI S_ 32 0#32),
    unary main_c main_v13 (broadcastInDim S640000 ![] bcast_S_S640000 : (⟨S_, .i32⟩ : BufTy).Contents (Elt F) → (⟨S640000, .i32⟩ : BufTy).Contents (Elt F)),
    binary main_v1 main_v13 main_v14 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v15 (broadcastInDim S640000 ![] bcast_S_S640000 : (⟨S_, .i32⟩ : BufTy).Contents (Elt F) → (⟨S640000, .i32⟩ : BufTy).Contents (Elt F)),
    binary main_v1 main_v15 main_v16 (addi : (⟨S640000, .i32⟩ : BufTy).Contents (Elt F) → (⟨S640000, .i32⟩ : BufTy).Contents (Elt F) → (⟨S640000, .i32⟩ : BufTy).Contents (Elt F)),
    ternary main_v14 main_v16 main_v1 main_v17 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v17 main_v18 (broadcastInDim S640000x1 ![0] bcast_S640000_S640000x1_0 : (⟨S640000, .i32⟩ : BufTy).Contents (Elt F) → (⟨S640000x1, .i32⟩ : BufTy).Contents (Elt F)) ]
/-- The buffers sg_L0_src writes. -/
def W_L0_src : List (Ref sig .tc) := [main_c, main_v13, main_v14, main_c_0, main_v15, main_v16, main_v17, main_v18]

/-- layer 0, stage msg, in window main_part0: 13 operations. -/
def sg_L0_msg : List (HloOp τ sig (Elt F)) :=
  [ binary main_v8 main_v18 main_v19 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_arg9 main_v20 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v20 main_v21 rfl shapeCasts_S1x128x128_S128x128,
    binary main_v12 main_v21 main_v22 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    binary main_v19 main_v22 main_v23 (addf : (⟨S640000x128, .f32⟩ : BufTy).Contents (Elt F) → (⟨S640000x128, .f32⟩ : BufTy).Contents (Elt F) → (⟨S640000x128, .f32⟩ : BufTy).Contents (Elt F)),
    unary main_arg10 main_v24 ((extractStridedSlice S1x128 ![0, 0] · slices_S5x128_S1x128_0_0) : (⟨S5x128, .f32⟩ : BufTy).Contents (Elt F) → (⟨S1x128, .f32⟩ : BufTy).Contents (Elt F)),
    reshape main_v24 main_v25 rfl shapeCasts_S1x128_S128,
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S640000x128 ![0, 1] bcast_S1x128_S640000x128_0_1 : (⟨S1x128, .f32⟩ : BufTy).Contents (Elt F) → (⟨S640000x128, .f32⟩ : BufTy).Contents (Elt F)),
    binary main_v23 main_v27 main_v28 (addf : (⟨S640000x128, .f32⟩ : BufTy).Contents (Elt F) → (⟨S640000x128, .f32⟩ : BufTy).Contents (Elt F) → (⟨S640000x128, .f32⟩ : BufTy).Contents (Elt F)),
    nullary main_call1_cst (constant S_ .f32 0x00000000#32),
    unary main_call1_cst main_call1_v0 ((broadcastInDim S640000x128 ![] bcast_S_S640000x128) : (⟨S_, .f32⟩ : BufTy).Contents (Elt F) → (⟨S640000x128, .f32⟩ : BufTy).Contents (Elt F)),
    binary main_v28 main_call1_v0 main_v29 ((maximumf) : (⟨S640000x128, .f32⟩ : BufTy).Contents (Elt F) → (⟨S640000x128, .f32⟩ : BufTy).Contents (Elt F) → (⟨S640000x128, .f32⟩ : BufTy).Contents (Elt F)) ]
/-- The buffers sg_L0_msg writes. -/
def W_L0_msg : List (Ref sig .tc) := [main_v19, main_v20, main_v21, main_v22, main_v23, main_v24, main_v25, main_v26, main_v27, main_v28, main_call1_cst, main_call1_v0, main_v29]

/-- layer 0, stage agg, in window main_part0: 4 operations. -/
def sg_L0_agg : List (HloOp τ sig (Elt F)) :=
  [ nullary main_cst (constant S_ .f32 0x00000000#32),
    unary main_cst main_v30 (broadcastInDim S50000x128 ![] bcast_S_S50000x128 : (⟨S_, .f32⟩ : BufTy).Contents (Elt F) → (⟨S50000x128, .f32⟩ : BufTy).Contents (Elt F)),
    unary main_v3 main_v31 (broadcastInDim S640000x1 ![0] bcast_S640000_S640000x1_0 : (⟨S640000, .i32⟩ : BufTy).Contents (Elt F) → (⟨S640000x1, .i32⟩ : BufTy).Contents (Elt F)),
    ternary main_v30 main_v31 main_v29 main_v32 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]
/-- The buffers sg_L0_agg writes. -/
def W_L0_agg : List (Ref sig .tc) := [main_cst, main_v30, main_v31, main_v32]

/-- layer 0, stage pre, in window main_part0: 7 operations. -/
def sg_L0_pre : List (HloOp τ sig (Elt F)) :=
  [ unary main_arg8 main_v33 ((extractStridedSlice S1 ![0] · slices_S5_S1_0) : (⟨S5, .f32⟩ : BufTy).Contents (Elt F) → (⟨S1, .f32⟩ : BufTy).Contents (Elt F)),
    reshape main_v33 main_v34 rfl shapeCasts_S1_S_,
    nullary main_cst_1 (constant S_ .f32 0x3F800000#32),
    binary main_cst_1 main_v34 main_v35 (addf : (⟨S_, .f32⟩ : BufTy).Contents (Elt F) → (⟨S_, .f32⟩ : BufTy).Contents (Elt F) → (⟨S_, .f32⟩ : BufTy).Contents (Elt F)),
    unary main_v35 main_v36 (broadcastInDim S50000x128 ![] bcast_S_S50000x128 : (⟨S_, .f32⟩ : BufTy).Contents (Elt F) → (⟨S50000x128, .f32⟩ : BufTy).Contents (Elt F)),
    binary main_v36 main_v8 main_v37 (mulf : (⟨S50000x128, .f32⟩ : BufTy).Contents (Elt F) → (⟨S50000x128, .f32⟩ : BufTy).Contents (Elt F) → (⟨S50000x128, .f32⟩ : BufTy).Contents (Elt F)),
    binary main_v37 main_v32 main_v38 (addf : (⟨S50000x128, .f32⟩ : BufTy).Contents (Elt F) → (⟨S50000x128, .f32⟩ : BufTy).Contents (Elt F) → (⟨S50000x128, .f32⟩ : BufTy).Contents (Elt F)) ]
/-- The buffers sg_L0_pre writes. -/
def W_L0_pre : List (Ref sig .tc) := [main_v33, main_v34, main_cst_1, main_v35, main_v36, main_v37, main_v38]

/-- layer 0, stage mlp, in window main_part0: 19 operations. -/
def sg_L0_mlp : List (HloOp τ sig (Elt F)) :=
  [ unary main_arg11 main_v39 ((extractStridedSlice S1x128x256 ![0, 0, 0] · slices_S5x128x256_S1x128x256_0_0_0) : (⟨S5x128x256, .f32⟩ : BufTy).Contents (Elt F) → (⟨S1x128x256, .f32⟩ : BufTy).Contents (Elt F)),
    reshape main_v39 main_v40 rfl shapeCasts_S1x128x256_S128x256,
    binary main_v38 main_v40 main_v41 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v42 ((extractStridedSlice S1x256 ![0, 0] · slices_S5x256_S1x256_0_0) : (⟨S5x256, .f32⟩ : BufTy).Contents (Elt F) → (⟨S1x256, .f32⟩ : BufTy).Contents (Elt F)),
    reshape main_v42 main_v43 rfl shapeCasts_S1x256_S256,
    unary main_v43 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v41 main_v45 main_v46 (addf : (⟨S50000x256, .f32⟩ : BufTy).Contents (Elt F) → (⟨S50000x256, .f32⟩ : BufTy).Contents (Elt F) → (⟨S50000x256, .f32⟩ : BufTy).Contents (Elt F)),
    nullary main_call2_cst (constant S_ .f32 0x00000000#32),
    unary main_call2_cst main_call2_v0 ((broadcastInDim S50000x256 ![] bcast_S_S50000x256) : (⟨S_, .f32⟩ : BufTy).Contents (Elt F) → (⟨S50000x256, .f32⟩ : BufTy).Contents (Elt F)),
    binary main_v46 main_call2_v0 main_v47 ((maximumf) : (⟨S50000x256, .f32⟩ : BufTy).Contents (Elt F) → (⟨S50000x256, .f32⟩ : BufTy).Contents (Elt F) → (⟨S50000x256, .f32⟩ : BufTy).Contents (Elt F)),
    unary main_arg13 main_v48 ((extractStridedSlice S1x256x128 ![0, 0, 0] · slices_S5x256x128_S1x256x128_0_0_0) : (⟨S5x256x128, .f32⟩ : BufTy).Contents (Elt F) → (⟨S1x256x128, .f32⟩ : BufTy).Contents (Elt F)),
    reshape main_v48 main_v49 rfl shapeCasts_S1x256x128_S256x128,
    binary main_v47 main_v49 main_v50 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v51 ((extractStridedSlice S1x128 ![0, 0] · slices_S5x128_S1x128_0_0) : (⟨S5x128, .f32⟩ : BufTy).Contents (Elt F) → (⟨S1x128, .f32⟩ : BufTy).Contents (Elt F)),
    reshape main_v51 main_v52 rfl shapeCasts_S1x128_S128,
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v50 main_v54 main_v55 (addf : (⟨S50000x128, .f32⟩ : BufTy).Contents (Elt F) → (⟨S50000x128, .f32⟩ : BufTy).Contents (Elt F) → (⟨S50000x128, .f32⟩ : BufTy).Contents (Elt F)) ]
/-- The buffers sg_L0_mlp writes. -/
def W_L0_mlp : List (Ref sig .tc) := [main_v39, main_v40, main_v41, main_v42, main_v43, main_v44, main_v45, main_v46, main_call2_cst, main_call2_v0, main_v47, main_v48, main_v49, main_v50, main_v51, main_v52, main_v53, main_v54, main_v55]

/-- layer 0, stage mean, in window main_part1: 5 operations. -/
def sg_L0_mean : List (HloOp τ sig (Elt F)) :=
  [ nullary main_cst_2 (constant S_ .f32 0x00000000#32),
    binary main_v55 main_cst_2 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)) ]
/-- The buffers sg_L0_mean writes. -/
def W_L0_mean : List (Ref sig .tc) := [main_cst_2, main_v56, main_cst_3, main_v57, main_v58]

/-- layer 0, stage var, in window main_part1: 23 operations. -/
def sg_L0_var : List (HloOp τ sig (Elt F)) :=
  [ nullary main_c_4 (constantI S_ 32 0#32),
    nullary main_call3_cst (constant S_ .f32 0x00000000#32),
    binary main_v55 main_call3_cst main_call3_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call3_v0 main_call3_v1 ((broadcastInDim S1x128 ![1] bcast_S128_S1x128_1) : (⟨S128, .f32⟩ : BufTy).Contents (Elt F) → (⟨S1x128, .f32⟩ : BufTy).Contents (Elt F)),
    nullary main_call3_cst_0 (constant S_ .f32 0x47435000#32),
    unary main_call3_cst_0 main_call3_v2 ((broadcastInDim S1x128 ![] bcast_S_S1x128) : (⟨S_, .f32⟩ : BufTy).Contents (Elt F) → (⟨S1x128, .f32⟩ : BufTy).Contents (Elt F)),
    binary main_call3_v1 main_call3_v2 main_call3_v3 ((Host.divf) : (⟨S1x128, .f32⟩ : BufTy).Contents (Elt F) → (⟨S1x128, .f32⟩ : BufTy).Contents (Elt F) → (⟨S1x128, .f32⟩ : BufTy).Contents (Elt F)),
    unary main_call3_v3 main_call3_v4 ((broadcastInDim S50000x128 ![0, 1] bcast_S1x128_S50000x128_0_1) : (⟨S1x128, .f32⟩ : BufTy).Contents (Elt F) → (⟨S50000x128, .f32⟩ : BufTy).Contents (Elt F)),
    binary main_v55 main_call3_v4 main_call3_v5 ((subf) : (⟨S50000x128, .f32⟩ : BufTy).Contents (Elt F) → (⟨S50000x128, .f32⟩ : BufTy).Contents (Elt F) → (⟨S50000x128, .f32⟩ : BufTy).Contents (Elt F)),
    binary main_call3_v5 main_call3_v5 main_call3_v6 ((mulf) : (⟨S50000x128, .f32⟩ : BufTy).Contents (Elt F) → (⟨S50000x128, .f32⟩ : BufTy).Contents (Elt F) → (⟨S50000x128, .f32⟩ : BufTy).Contents (Elt F)),
    unary main_c_4 main_call3_v7 ((sitofp .f32) : (⟨S_, .i32⟩ : BufTy).Contents (Elt F) → (⟨S_, .f32⟩ : BufTy).Contents (Elt F)),
    nullary main_call3_cst_1 (constant S_ .f32 0x47435000#32),
    binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    nullary main_call3_cst_2 (constant S_ .f32 0x00000000#32),
    binary main_call3_v6 main_call3_cst_2 main_call3_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call3_v8 main_call3_v10 ((broadcastInDim S128 ![] bcast_S_S128) : (⟨S_, .f32⟩ : BufTy).Contents (Elt F) → (⟨S128, .f32⟩ : BufTy).Contents (Elt F)),
    binary main_call3_v9 main_call3_v10 main_call3_v11 ((Host.divf) : (⟨S128, .f32⟩ : BufTy).Contents (Elt F) → (⟨S128, .f32⟩ : BufTy).Contents (Elt F) → (⟨S128, .f32⟩ : BufTy).Contents (Elt F)),
    nullary main_call3_cst_3 (constant S_ .f32 0x00000000#32),
    binary main_call3_v8 main_call3_cst_3 main_call3_v12 ((cmpf .ogt) : (⟨S_, .f32⟩ : BufTy).Contents (Elt F) → (⟨S_, .f32⟩ : BufTy).Contents (Elt F) → (⟨S_, .i1⟩ : BufTy).Contents (Elt F)),
    nullary main_call3_cst_4 (constant S_ .f32 0x7FC00000#32),
    unary main_call3_cst_4 main_call3_call0_v0 ((id) : (⟨S_, .f32⟩ : BufTy).Contents (Elt F) → (⟨S_, .f32⟩ : BufTy).Contents (Elt F)),
    unary main_call3_call0_v0 main_call3_call0_v1 ((broadcastInDim S128 ![] bcast_S_S128) : (⟨S_, .f32⟩ : BufTy).Contents (Elt F) → (⟨S128, .f32⟩ : BufTy).Contents (Elt F)),
    ternary main_call3_v12 main_call3_v11 main_call3_call0_v1 main_v59 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- The buffers sg_L0_var writes. -/
def W_L0_var : List (Ref sig .tc) := [main_c_4, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v59]

/-- layer 0, stage bn, in window main_part1: 24 operations. -/
def sg_L0_bn : List (HloOp τ sig (Elt F)) :=
  [ unary main_v58 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v55 main_v61 main_v62 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v62 main_v67 main_v68 (mulf : (⟨S50000x128, .f32⟩ : BufTy).Contents (Elt F) → (⟨S50000x128, .f32⟩ : BufTy).Contents (Elt F) → (⟨S50000x128, .f32⟩ : BufTy).Contents (Elt F)),
    unary main_arg15 main_v69 ((extractStridedSlice S1x128 ![0, 0] · slices_S5x128_S1x128_0_0) : (⟨S5x128, .f32⟩ : BufTy).Contents (Elt F) → (⟨S1x128, .f32⟩ : BufTy).Contents (Elt F)),
    reshape main_v69 main_v70 rfl shapeCasts_S1x128_S128,
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v68 main_v72 main_v73 (mulf : (⟨S50000x128, .f32⟩ : BufTy).Contents (Elt F) → (⟨S50000x128, .f32⟩ : BufTy).Contents (Elt F) → (⟨S50000x128, .f32⟩ : BufTy).Contents (Elt F)),
    unary main_arg16 main_v74 ((extractStridedSlice S1x128 ![0, 0] · slices_S5x128_S1x128_0_0) : (⟨S5x128, .f32⟩ : BufTy).Contents (Elt F) → (⟨S1x128, .f32⟩ : BufTy).Contents (Elt F)),
    reshape main_v74 main_v75 rfl shapeCasts_S1x128_S128,
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v73 main_v77 main_v78 (addf : (⟨S50000x128, .f32⟩ : BufTy).Contents (Elt F) → (⟨S50000x128, .f32⟩ : BufTy).Contents (Elt F) → (⟨S50000x128, .f32⟩ : BufTy).Contents (Elt F)),
    binary main_v78 main_v8 main_v79 (addf : (⟨S50000x128, .f32⟩ : BufTy).Contents (Elt F) → (⟨S50000x128, .f32⟩ : BufTy).Contents (Elt F) → (⟨S50000x128, .f32⟩ : BufTy).Contents (Elt F)),
    nullary main_call4_cst (constant S_ .f32 0x00000000#32),
    unary main_call4_cst main_call4_v0 ((broadcastInDim S50000x128 ![] bcast_S_S50000x128) : (⟨S_, .f32⟩ : BufTy).Contents (Elt F) → (⟨S50000x128, .f32⟩ : BufTy).Contents (Elt F)),
    binary main_v79 main_call4_v0 main_v80 ((maximumf) : (⟨S50000x128, .f32⟩ : BufTy).Contents (Elt F) → (⟨S50000x128, .f32⟩ : BufTy).Contents (Elt F) → (⟨S50000x128, .f32⟩ : BufTy).Contents (Elt F)) ]
/-- The buffers sg_L0_bn writes. -/
def W_L0_bn : List (Ref sig .tc) := [main_v60, main_v61, main_v62, main_cst_5, main_v63, main_v64, main_v65, main_v66, main_v67, main_v68, main_v69, main_v70, main_v71, main_v72, main_v73, main_v74, main_v75, main_v76, main_v77, main_v78, main_v79, main_call4_cst, main_call4_v0, main_v80]

/-- layer 1, stage src, in window main_part1: 8 operations. -/
def sg_L1_src : List (HloOp τ sig (Elt F)) :=
  [ nullary main_c_6 (constantI S_ 32 0#32),
    unary main_c_6 main_v81 (broadcastInDim S640000 ![] bcast_S_S640000 : (⟨S_, .i32⟩ : BufTy).Contents (Elt F) → (⟨S640000, .i32⟩ : BufTy).Contents (Elt F)),
    binary main_v1 main_v81 main_v82 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v83 (broadcastInDim S640000 ![] bcast_S_S640000 : (⟨S_, .i32⟩ : BufTy).Contents (Elt F) → (⟨S640000, .i32⟩ : BufTy).Contents (Elt F)),
    binary main_v1 main_v83 main_v84 (addi : (⟨S640000, .i32⟩ : BufTy).Contents (Elt F) → (⟨S640000, .i32⟩ : BufTy).Contents (Elt F) → (⟨S640000, .i32⟩ : BufTy).Contents (Elt F)),
    ternary main_v82 main_v84 main_v1 main_v85 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v85 main_v86 (broadcastInDim S640000x1 ![0] bcast_S640000_S640000x1_0 : (⟨S640000, .i32⟩ : BufTy).Contents (Elt F) → (⟨S640000x1, .i32⟩ : BufTy).Contents (Elt F)) ]
/-- The buffers sg_L1_src writes. -/
def W_L1_src : List (Ref sig .tc) := [main_c_6, main_v81, main_v82, main_c_7, main_v83, main_v84, main_v85, main_v86]

/-- layer 1, stage msg, in window main_part1: 13 operations. -/
def sg_L1_msg : List (HloOp τ sig (Elt F)) :=
  [ binary main_v80 main_v86 main_v87 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_arg9 main_v88 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v88 main_v89 rfl shapeCasts_S1x128x128_S128x128,
    binary main_v12 main_v89 main_v90 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    binary main_v87 main_v90 main_v91 (addf : (⟨S640000x128, .f32⟩ : BufTy).Contents (Elt F) → (⟨S640000x128, .f32⟩ : BufTy).Contents (Elt F) → (⟨S640000x128, .f32⟩ : BufTy).Contents (Elt F)),
    unary main_arg10 main_v92 ((extractStridedSlice S1x128 ![1, 0] · slices_S5x128_S1x128_1_0) : (⟨S5x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S640000x128 ![0, 1] bcast_S1x128_S640000x128_0_1 : (⟨S1x128, .f32⟩ : BufTy).Contents (Elt F) → (⟨S640000x128, .f32⟩ : BufTy).Contents (Elt F)),
    binary main_v91 main_v95 main_v96 (addf : (⟨S640000x128, .f32⟩ : BufTy).Contents (Elt F) → (⟨S640000x128, .f32⟩ : BufTy).Contents (Elt F) → (⟨S640000x128, .f32⟩ : BufTy).Contents (Elt F)),
    nullary main_call5_cst (constant S_ .f32 0x00000000#32),
    unary main_call5_cst main_call5_v0 ((broadcastInDim S640000x128 ![] bcast_S_S640000x128) : (⟨S_, .f32⟩ : BufTy).Contents (Elt F) → (⟨S640000x128, .f32⟩ : BufTy).Contents (Elt F)),
    binary main_v96 main_call5_v0 main_v97 ((maximumf) : (⟨S640000x128, .f32⟩ : BufTy).Contents (Elt F) → (⟨S640000x128, .f32⟩ : BufTy).Contents (Elt F) → (⟨S640000x128, .f32⟩ : BufTy).Contents (Elt F)) ]
/-- The buffers sg_L1_msg writes. -/
def W_L1_msg : List (Ref sig .tc) := [main_v87, main_v88, main_v89, main_v90, main_v91, main_v92, main_v93, main_v94, main_v95, main_v96, main_call5_cst, main_call5_v0, main_v97]

/-- layer 1, stage agg, in window main_part1: 4 operations. -/
def sg_L1_agg : List (HloOp τ sig (Elt F)) :=
  [ nullary main_cst_8 (constant S_ .f32 0x00000000#32),
    unary main_cst_8 main_v98 (broadcastInDim S50000x128 ![] bcast_S_S50000x128 : (⟨S_, .f32⟩ : BufTy).Contents (Elt F) → (⟨S50000x128, .f32⟩ : BufTy).Contents (Elt F)),
    unary main_v3 main_v99 (broadcastInDim S640000x1 ![0] bcast_S640000_S640000x1_0 : (⟨S640000, .i32⟩ : BufTy).Contents (Elt F) → (⟨S640000x1, .i32⟩ : BufTy).Contents (Elt F)),
    ternary main_v98 main_v99 main_v97 main_v100 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]
/-- The buffers sg_L1_agg writes. -/
def W_L1_agg : List (Ref sig .tc) := [main_cst_8, main_v98, main_v99, main_v100]

/-- layer 1, stage pre, in window main_part1: 7 operations. -/
def sg_L1_pre : List (HloOp τ sig (Elt F)) :=
  [ unary main_arg8 main_v101 ((extractStridedSlice S1 ![1] · slices_S5_S1_1) : (⟨S5, .f32⟩ : BufTy).Contents (Elt F) → (⟨S1, .f32⟩ : BufTy).Contents (Elt F)),
    reshape main_v101 main_v102 rfl shapeCasts_S1_S_,
    nullary main_cst_9 (constant S_ .f32 0x3F800000#32),
    binary main_cst_9 main_v102 main_v103 (addf : (⟨S_, .f32⟩ : BufTy).Contents (Elt F) → (⟨S_, .f32⟩ : BufTy).Contents (Elt F) → (⟨S_, .f32⟩ : BufTy).Contents (Elt F)),
    unary main_v103 main_v104 (broadcastInDim S50000x128 ![] bcast_S_S50000x128 : (⟨S_, .f32⟩ : BufTy).Contents (Elt F) → (⟨S50000x128, .f32⟩ : BufTy).Contents (Elt F)),
    binary main_v104 main_v80 main_v105 (mulf : (⟨S50000x128, .f32⟩ : BufTy).Contents (Elt F) → (⟨S50000x128, .f32⟩ : BufTy).Contents (Elt F) → (⟨S50000x128, .f32⟩ : BufTy).Contents (Elt F)),
    binary main_v105 main_v100 main_v106 (addf : (⟨S50000x128, .f32⟩ : BufTy).Contents (Elt F) → (⟨S50000x128, .f32⟩ : BufTy).Contents (Elt F) → (⟨S50000x128, .f32⟩ : BufTy).Contents (Elt F)) ]
/-- The buffers sg_L1_pre writes. -/
def W_L1_pre : List (Ref sig .tc) := [main_v101, main_v102, main_cst_9, main_v103, main_v104, main_v105, main_v106]

/-- layer 1, stage mlp, in window main_part1: 1 operations. -/
def sg_L1_mlpa : List (HloOp τ sig (Elt F)) :=
  [ unary main_arg11 main_v107 ((extractStridedSlice S1x128x256 ![1, 0, 0] · slices_S5x128x256_S1x128x256_1_0_0) : (⟨S5x128x256, .f32⟩ : BufTy).Contents (Elt F) → (⟨S1x128x256, .f32⟩ : BufTy).Contents (Elt F)) ]
/-- The buffers sg_L1_mlpa writes. -/
def W_L1_mlpa : List (Ref sig .tc) := [main_v107]

/-- layer 1, stage mlp, in window main_part2: 18 operations. -/
def sg_L1_mlpb : List (HloOp τ sig (Elt F)) :=
  [ reshape main_v107 main_v108 rfl shapeCasts_S1x128x256_S128x256,
    binary main_v106 main_v108 main_v109 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v110 ((extractStridedSlice S1x256 ![1, 0] · slices_S5x256_S1x256_1_0) : (⟨S5x256, .f32⟩ : BufTy).Contents (Elt F) → (⟨S1x256, .f32⟩ : BufTy).Contents (Elt F)),
    reshape main_v110 main_v111 rfl shapeCasts_S1x256_S256,
    unary main_v111 main_v112 (broadcastInDim S1x256 ![1] bcast_S256_S1x256_1 : (⟨S256, .f32⟩ : BufTy).Contents (Elt F) → (⟨S1x256, .f32⟩ : BufTy).Contents (Elt F)),
    unary main_v112 main_v113 (broadcastInDim S50000x256 ![0, 1] bcast_S1x256_S50000x256_0_1 : (⟨S1x256, .f32⟩ : BufTy).Contents (Elt F) → (⟨S50000x256, .f32⟩ : BufTy).Contents (Elt F)),
    binary main_v109 main_v113 main_v114 (addf : (⟨S50000x256, .f32⟩ : BufTy).Contents (Elt F) → (⟨S50000x256, .f32⟩ : BufTy).Contents (Elt F) → (⟨S50000x256, .f32⟩ : BufTy).Contents (Elt F)),
    nullary main_call6_cst (constant S_ .f32 0x00000000#32),
    unary main_call6_cst main_call6_v0 ((broadcastInDim S50000x256 ![] bcast_S_S50000x256) : (⟨S_, .f32⟩ : BufTy).Contents (Elt F) → (⟨S50000x256, .f32⟩ : BufTy).Contents (Elt F)),
    binary main_v114 main_call6_v0 main_v115 ((maximumf) : (⟨S50000x256, .f32⟩ : BufTy).Contents (Elt F) → (⟨S50000x256, .f32⟩ : BufTy).Contents (Elt F) → (⟨S50000x256, .f32⟩ : BufTy).Contents (Elt F)),
    unary main_arg13 main_v116 ((extractStridedSlice S1x256x128 ![1, 0, 0] · slices_S5x256x128_S1x256x128_1_0_0) : (⟨S5x256x128, .f32⟩ : BufTy).Contents (Elt F) → (⟨S1x256x128, .f32⟩ : BufTy).Contents (Elt F)),
    reshape main_v116 main_v117 rfl shapeCasts_S1x256x128_S256x128,
    binary main_v115 main_v117 main_v118 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v119 ((extractStridedSlice S1x128 ![1, 0] · slices_S5x128_S1x128_1_0) : (⟨S5x128, .f32⟩ : BufTy).Contents (Elt F) → (⟨S1x128, .f32⟩ : BufTy).Contents (Elt F)),
    reshape main_v119 main_v120 rfl shapeCasts_S1x128_S128,
    unary main_v120 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v118 main_v122 main_v123 (addf : (⟨S50000x128, .f32⟩ : BufTy).Contents (Elt F) → (⟨S50000x128, .f32⟩ : BufTy).Contents (Elt F) → (⟨S50000x128, .f32⟩ : BufTy).Contents (Elt F)) ]
/-- The buffers sg_L1_mlpb writes. -/
def W_L1_mlpb : List (Ref sig .tc) := [main_v108, main_v109, main_v110, main_v111, main_v112, main_v113, main_v114, main_call6_cst, main_call6_v0, main_v115, main_v116, main_v117, main_v118, main_v119, main_v120, main_v121, main_v122, main_v123]

/-- layer 1, stage mean, in window main_part2: 5 operations. -/
def sg_L1_mean : List (HloOp τ sig (Elt F)) :=
  [ nullary main_cst_10 (constant S_ .f32 0x00000000#32),
    binary main_v123 main_cst_10 main_v124 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v125 (broadcastInDim S128 ![] bcast_S_S128 : (⟨S_, .f32⟩ : BufTy).Contents (Elt F) → (⟨S128, .f32⟩ : BufTy).Contents (Elt F)),
    binary main_v124 main_v125 main_v126 (Host.divf : (⟨S128, .f32⟩ : BufTy).Contents (Elt F) → (⟨S128, .f32⟩ : BufTy).Contents (Elt F) → (⟨S128, .f32⟩ : BufTy).Contents (Elt F)) ]
/-- The buffers sg_L1_mean writes. -/
def W_L1_mean : List (Ref sig .tc) := [main_cst_10, main_v124, main_cst_11, main_v125, main_v126]

/-- layer 1, stage var, in window main_part2: 23 operations. -/
def sg_L1_var : List (HloOp τ sig (Elt F)) :=
  [ nullary main_c_12 (constantI S_ 32 0#32),
    nullary main_call7_cst (constant S_ .f32 0x00000000#32),
    binary main_v123 main_call7_cst main_call7_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call7_v0 main_call7_v1 ((broadcastInDim S1x128 ![1] bcast_S128_S1x128_1) : (⟨S128, .f32⟩ : BufTy).Contents (Elt F) → (⟨S1x128, .f32⟩ : BufTy).Contents (Elt F)),
    nullary main_call7_cst_0 (constant S_ .f32 0x47435000#32),
    unary main_call7_cst_0 main_call7_v2 ((broadcastInDim S1x128 ![] bcast_S_S1x128) : (⟨S_, .f32⟩ : BufTy).Contents (Elt F) → (⟨S1x128, .f32⟩ : BufTy).Contents (Elt F)),
    binary main_call7_v1 main_call7_v2 main_call7_v3 ((Host.divf) : (⟨S1x128, .f32⟩ : BufTy).Contents (Elt F) → (⟨S1x128, .f32⟩ : BufTy).Contents (Elt F) → (⟨S1x128, .f32⟩ : BufTy).Contents (Elt F)),
    unary main_call7_v3 main_call7_v4 ((broadcastInDim S50000x128 ![0, 1] bcast_S1x128_S50000x128_0_1) : (⟨S1x128, .f32⟩ : BufTy).Contents (Elt F) → (⟨S50000x128, .f32⟩ : BufTy).Contents (Elt F)),
    binary main_v123 main_call7_v4 main_call7_v5 ((subf) : (⟨S50000x128, .f32⟩ : BufTy).Contents (Elt F) → (⟨S50000x128, .f32⟩ : BufTy).Contents (Elt F) → (⟨S50000x128, .f32⟩ : BufTy).Contents (Elt F)),
    binary main_call7_v5 main_call7_v5 main_call7_v6 ((mulf) : (⟨S50000x128, .f32⟩ : BufTy).Contents (Elt F) → (⟨S50000x128, .f32⟩ : BufTy).Contents (Elt F) → (⟨S50000x128, .f32⟩ : BufTy).Contents (Elt F)),
    unary main_c_12 main_call7_v7 ((sitofp .f32) : (⟨S_, .i32⟩ : BufTy).Contents (Elt F) → (⟨S_, .f32⟩ : BufTy).Contents (Elt F)),
    nullary main_call7_cst_1 (constant S_ .f32 0x47435000#32),
    binary main_call7_cst_1 main_call7_v7 main_call7_v8 ((subf) : (⟨S_, .f32⟩ : BufTy).Contents (Elt F) → (⟨S_, .f32⟩ : BufTy).Contents (Elt F) → (⟨S_, .f32⟩ : BufTy).Contents (Elt F)),
    nullary main_call7_cst_2 (constant S_ .f32 0x00000000#32),
    binary main_call7_v6 main_call7_cst_2 main_call7_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call7_v8 main_call7_v10 ((broadcastInDim S128 ![] bcast_S_S128) : (⟨S_, .f32⟩ : BufTy).Contents (Elt F) → (⟨S128, .f32⟩ : BufTy).Contents (Elt F)),
    binary main_call7_v9 main_call7_v10 main_call7_v11 ((Host.divf) : (⟨S128, .f32⟩ : BufTy).Contents (Elt F) → (⟨S128, .f32⟩ : BufTy).Contents (Elt F) → (⟨S128, .f32⟩ : BufTy).Contents (Elt F)),
    nullary main_call7_cst_3 (constant S_ .f32 0x00000000#32),
    binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    nullary main_call7_cst_4 (constant S_ .f32 0x7FC00000#32),
    unary main_call7_cst_4 main_call7_call0_v0 ((id) : (⟨S_, .f32⟩ : BufTy).Contents (Elt F) → (⟨S_, .f32⟩ : BufTy).Contents (Elt F)),
    unary main_call7_call0_v0 main_call7_call0_v1 ((broadcastInDim S128 ![] bcast_S_S128) : (⟨S_, .f32⟩ : BufTy).Contents (Elt F) → (⟨S128, .f32⟩ : BufTy).Contents (Elt F)),
    ternary main_call7_v12 main_call7_v11 main_call7_call0_v1 main_v127 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- The buffers sg_L1_var writes. -/
def W_L1_var : List (Ref sig .tc) := [main_c_12, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v127]

/-- layer 1, stage bn, in window main_part2: 24 operations. -/
def sg_L1_bn : List (HloOp τ sig (Elt F)) :=
  [ unary main_v126 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v123 main_v129 main_v130 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v131 (broadcastInDim S128 ![] bcast_S_S128 : (⟨S_, .f32⟩ : BufTy).Contents (Elt F) → (⟨S128, .f32⟩ : BufTy).Contents (Elt F)),
    binary main_v127 main_v131 main_v132 (addf : (⟨S128, .f32⟩ : BufTy).Contents (Elt F) → (⟨S128, .f32⟩ : BufTy).Contents (Elt F) → (⟨S128, .f32⟩ : BufTy).Contents (Elt F)),
    unary main_v132 main_v133 (Host.rsqrt : (⟨S128, .f32⟩ : BufTy).Contents (Elt F) → (⟨S128, .f32⟩ : BufTy).Contents (Elt F)),
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v130 main_v135 main_v136 (mulf : (⟨S50000x128, .f32⟩ : BufTy).Contents (Elt F) → (⟨S50000x128, .f32⟩ : BufTy).Contents (Elt F) → (⟨S50000x128, .f32⟩ : BufTy).Contents (Elt F)),
    unary main_arg15 main_v137 ((extractStridedSlice S1x128 ![1, 0] · slices_S5x128_S1x128_1_0) : (⟨S5x128, .f32⟩ : BufTy).Contents (Elt F) → (⟨S1x128, .f32⟩ : BufTy).Contents (Elt F)),
    reshape main_v137 main_v138 rfl shapeCasts_S1x128_S128,
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v136 main_v140 main_v141 (mulf : (⟨S50000x128, .f32⟩ : BufTy).Contents (Elt F) → (⟨S50000x128, .f32⟩ : BufTy).Contents (Elt F) → (⟨S50000x128, .f32⟩ : BufTy).Contents (Elt F)),
    unary main_arg16 main_v142 ((extractStridedSlice S1x128 ![1, 0] · slices_S5x128_S1x128_1_0) : (⟨S5x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v141 main_v145 main_v146 (addf : (⟨S50000x128, .f32⟩ : BufTy).Contents (Elt F) → (⟨S50000x128, .f32⟩ : BufTy).Contents (Elt F) → (⟨S50000x128, .f32⟩ : BufTy).Contents (Elt F)),
    binary main_v146 main_v80 main_v147 (addf : (⟨S50000x128, .f32⟩ : BufTy).Contents (Elt F) → (⟨S50000x128, .f32⟩ : BufTy).Contents (Elt F) → (⟨S50000x128, .f32⟩ : BufTy).Contents (Elt F)),
    nullary main_call8_cst (constant S_ .f32 0x00000000#32),
    unary main_call8_cst main_call8_v0 ((broadcastInDim S50000x128 ![] bcast_S_S50000x128) : (⟨S_, .f32⟩ : BufTy).Contents (Elt F) → (⟨S50000x128, .f32⟩ : BufTy).Contents (Elt F)),
    binary main_v147 main_call8_v0 main_v148 ((maximumf) : (⟨S50000x128, .f32⟩ : BufTy).Contents (Elt F) → (⟨S50000x128, .f32⟩ : BufTy).Contents (Elt F) → (⟨S50000x128, .f32⟩ : BufTy).Contents (Elt F)) ]
/-- The buffers sg_L1_bn writes. -/
def W_L1_bn : List (Ref sig .tc) := [main_v128, main_v129, main_v130, main_cst_13, main_v131, main_v132, main_v133, main_v134, main_v135, main_v136, main_v137, main_v138, main_v139, main_v140, main_v141, main_v142, main_v143, main_v144, main_v145, main_v146, main_v147, main_call8_cst, main_call8_v0, main_v148]

/-- layer 2, stage src, in window main_part2: 8 operations. -/
def sg_L2_src : List (HloOp τ sig (Elt F)) :=
  [ nullary main_c_14 (constantI S_ 32 0#32),
    unary main_c_14 main_v149 (broadcastInDim S640000 ![] bcast_S_S640000 : (⟨S_, .i32⟩ : BufTy).Contents (Elt F) → (⟨S640000, .i32⟩ : BufTy).Contents (Elt F)),
    binary main_v1 main_v149 main_v150 (cmpi .slt : (⟨S640000, .i32⟩ : BufTy).Contents (Elt F) → (⟨S640000, .i32⟩ : BufTy).Contents (Elt F) → (⟨S640000, .i1⟩ : BufTy).Contents (Elt F)),
    nullary main_c_15 (constantI S_ 32 50000#32),
    unary main_c_15 main_v151 (broadcastInDim S640000 ![] bcast_S_S640000 : (⟨S_, .i32⟩ : BufTy).Contents (Elt F) → (⟨S640000, .i32⟩ : BufTy).Contents (Elt F)),
    binary main_v1 main_v151 main_v152 (addi : (⟨S640000, .i32⟩ : BufTy).Contents (Elt F) → (⟨S640000, .i32⟩ : BufTy).Contents (Elt F) → (⟨S640000, .i32⟩ : BufTy).Contents (Elt F)),
    ternary main_v150 main_v152 main_v1 main_v153 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v153 main_v154 (broadcastInDim S640000x1 ![0] bcast_S640000_S640000x1_0 : (⟨S640000, .i32⟩ : BufTy).Contents (Elt F) → (⟨S640000x1, .i32⟩ : BufTy).Contents (Elt F)) ]
/-- The buffers sg_L2_src writes. -/
def W_L2_src : List (Ref sig .tc) := [main_c_14, main_v149, main_v150, main_c_15, main_v151, main_v152, main_v153, main_v154]

/-- layer 2, stage msg, in window main_part2: 7 operations. -/
def sg_L2_msga : List (HloOp τ sig (Elt F)) :=
  [ binary main_v148 main_v154 main_v155 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_arg9 main_v156 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v156 main_v157 rfl shapeCasts_S1x128x128_S128x128,
    binary main_v12 main_v157 main_v158 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    binary main_v155 main_v158 main_v159 (addf : (⟨S640000x128, .f32⟩ : BufTy).Contents (Elt F) → (⟨S640000x128, .f32⟩ : BufTy).Contents (Elt F) → (⟨S640000x128, .f32⟩ : BufTy).Contents (Elt F)),
    unary main_arg10 main_v160 ((extractStridedSlice S1x128 ![2, 0] · slices_S5x128_S1x128_2_0) : (⟨S5x128, .f32⟩ : BufTy).Contents (Elt F) → (⟨S1x128, .f32⟩ : BufTy).Contents (Elt F)),
    reshape main_v160 main_v161 rfl shapeCasts_S1x128_S128 ]
/-- The buffers sg_L2_msga writes. -/
def W_L2_msga : List (Ref sig .tc) := [main_v155, main_v156, main_v157, main_v158, main_v159, main_v160, main_v161]

/-- layer 2, stage msg, in window main_part3: 6 operations. -/
def sg_L2_msgb : List (HloOp τ sig (Elt F)) :=
  [ unary main_v161 main_v162 (broadcastInDim S1x128 ![1] bcast_S128_S1x128_1 : (⟨S128, .f32⟩ : BufTy).Contents (Elt F) → (⟨S1x128, .f32⟩ : BufTy).Contents (Elt F)),
    unary main_v162 main_v163 (broadcastInDim S640000x128 ![0, 1] bcast_S1x128_S640000x128_0_1 : (⟨S1x128, .f32⟩ : BufTy).Contents (Elt F) → (⟨S640000x128, .f32⟩ : BufTy).Contents (Elt F)),
    binary main_v159 main_v163 main_v164 (addf : (⟨S640000x128, .f32⟩ : BufTy).Contents (Elt F) → (⟨S640000x128, .f32⟩ : BufTy).Contents (Elt F) → (⟨S640000x128, .f32⟩ : BufTy).Contents (Elt F)),
    nullary main_call9_cst (constant S_ .f32 0x00000000#32),
    unary main_call9_cst main_call9_v0 ((broadcastInDim S640000x128 ![] bcast_S_S640000x128) : (⟨S_, .f32⟩ : BufTy).Contents (Elt F) → (⟨S640000x128, .f32⟩ : BufTy).Contents (Elt F)),
    binary main_v164 main_call9_v0 main_v165 ((maximumf) : (⟨S640000x128, .f32⟩ : BufTy).Contents (Elt F) → (⟨S640000x128, .f32⟩ : BufTy).Contents (Elt F) → (⟨S640000x128, .f32⟩ : BufTy).Contents (Elt F)) ]
/-- The buffers sg_L2_msgb writes. -/
def W_L2_msgb : List (Ref sig .tc) := [main_v162, main_v163, main_v164, main_call9_cst, main_call9_v0, main_v165]

/-- layer 2, stage agg, in window main_part3: 4 operations. -/
def sg_L2_agg : List (HloOp τ sig (Elt F)) :=
  [ nullary main_cst_16 (constant S_ .f32 0x00000000#32),
    unary main_cst_16 main_v166 (broadcastInDim S50000x128 ![] bcast_S_S50000x128 : (⟨S_, .f32⟩ : BufTy).Contents (Elt F) → (⟨S50000x128, .f32⟩ : BufTy).Contents (Elt F)),
    unary main_v3 main_v167 (broadcastInDim S640000x1 ![0] bcast_S640000_S640000x1_0 : (⟨S640000, .i32⟩ : BufTy).Contents (Elt F) → (⟨S640000x1, .i32⟩ : BufTy).Contents (Elt F)),
    ternary main_v166 main_v167 main_v165 main_v168 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]
/-- The buffers sg_L2_agg writes. -/
def W_L2_agg : List (Ref sig .tc) := [main_cst_16, main_v166, main_v167, main_v168]

/-- layer 2, stage pre, in window main_part3: 7 operations. -/
def sg_L2_pre : List (HloOp τ sig (Elt F)) :=
  [ unary main_arg8 main_v169 ((extractStridedSlice S1 ![2] · slices_S5_S1_2) : (⟨S5, .f32⟩ : BufTy).Contents (Elt F) → (⟨S1, .f32⟩ : BufTy).Contents (Elt F)),
    reshape main_v169 main_v170 rfl shapeCasts_S1_S_,
    nullary main_cst_17 (constant S_ .f32 0x3F800000#32),
    binary main_cst_17 main_v170 main_v171 (addf : (⟨S_, .f32⟩ : BufTy).Contents (Elt F) → (⟨S_, .f32⟩ : BufTy).Contents (Elt F) → (⟨S_, .f32⟩ : BufTy).Contents (Elt F)),
    unary main_v171 main_v172 (broadcastInDim S50000x128 ![] bcast_S_S50000x128 : (⟨S_, .f32⟩ : BufTy).Contents (Elt F) → (⟨S50000x128, .f32⟩ : BufTy).Contents (Elt F)),
    binary main_v172 main_v148 main_v173 (mulf : (⟨S50000x128, .f32⟩ : BufTy).Contents (Elt F) → (⟨S50000x128, .f32⟩ : BufTy).Contents (Elt F) → (⟨S50000x128, .f32⟩ : BufTy).Contents (Elt F)),
    binary main_v173 main_v168 main_v174 (addf : (⟨S50000x128, .f32⟩ : BufTy).Contents (Elt F) → (⟨S50000x128, .f32⟩ : BufTy).Contents (Elt F) → (⟨S50000x128, .f32⟩ : BufTy).Contents (Elt F)) ]
/-- The buffers sg_L2_pre writes. -/
def W_L2_pre : List (Ref sig .tc) := [main_v169, main_v170, main_cst_17, main_v171, main_v172, main_v173, main_v174]

/-- layer 2, stage mlp, in window main_part3: 19 operations. -/
def sg_L2_mlp : List (HloOp τ sig (Elt F)) :=
  [ unary main_arg11 main_v175 ((extractStridedSlice S1x128x256 ![2, 0, 0] · slices_S5x128x256_S1x128x256_2_0_0) : (⟨S5x128x256, .f32⟩ : BufTy).Contents (Elt F) → (⟨S1x128x256, .f32⟩ : BufTy).Contents (Elt F)),
    reshape main_v175 main_v176 rfl shapeCasts_S1x128x256_S128x256,
    binary main_v174 main_v176 main_v177 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v178 ((extractStridedSlice S1x256 ![2, 0] · slices_S5x256_S1x256_2_0) : (⟨S5x256, .f32⟩ : BufTy).Contents (Elt F) → (⟨S1x256, .f32⟩ : BufTy).Contents (Elt F)),
    reshape main_v178 main_v179 rfl shapeCasts_S1x256_S256,
    unary main_v179 main_v180 (broadcastInDim S1x256 ![1] bcast_S256_S1x256_1 : (⟨S256, .f32⟩ : BufTy).Contents (Elt F) → (⟨S1x256, .f32⟩ : BufTy).Contents (Elt F)),
    unary main_v180 main_v181 (broadcastInDim S50000x256 ![0, 1] bcast_S1x256_S50000x256_0_1 : (⟨S1x256, .f32⟩ : BufTy).Contents (Elt F) → (⟨S50000x256, .f32⟩ : BufTy).Contents (Elt F)),
    binary main_v177 main_v181 main_v182 (addf : (⟨S50000x256, .f32⟩ : BufTy).Contents (Elt F) → (⟨S50000x256, .f32⟩ : BufTy).Contents (Elt F) → (⟨S50000x256, .f32⟩ : BufTy).Contents (Elt F)),
    nullary main_call10_cst (constant S_ .f32 0x00000000#32),
    unary main_call10_cst main_call10_v0 ((broadcastInDim S50000x256 ![] bcast_S_S50000x256) : (⟨S_, .f32⟩ : BufTy).Contents (Elt F) → (⟨S50000x256, .f32⟩ : BufTy).Contents (Elt F)),
    binary main_v182 main_call10_v0 main_v183 ((maximumf) : (⟨S50000x256, .f32⟩ : BufTy).Contents (Elt F) → (⟨S50000x256, .f32⟩ : BufTy).Contents (Elt F) → (⟨S50000x256, .f32⟩ : BufTy).Contents (Elt F)),
    unary main_arg13 main_v184 ((extractStridedSlice S1x256x128 ![2, 0, 0] · slices_S5x256x128_S1x256x128_2_0_0) : (⟨S5x256x128, .f32⟩ : BufTy).Contents (Elt F) → (⟨S1x256x128, .f32⟩ : BufTy).Contents (Elt F)),
    reshape main_v184 main_v185 rfl shapeCasts_S1x256x128_S256x128,
    binary main_v183 main_v185 main_v186 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v187 ((extractStridedSlice S1x128 ![2, 0] · slices_S5x128_S1x128_2_0) : (⟨S5x128, .f32⟩ : BufTy).Contents (Elt F) → (⟨S1x128, .f32⟩ : BufTy).Contents (Elt F)),
    reshape main_v187 main_v188 rfl shapeCasts_S1x128_S128,
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S50000x128 ![0, 1] bcast_S1x128_S50000x128_0_1 : (⟨S1x128, .f32⟩ : BufTy).Contents (Elt F) → (⟨S50000x128, .f32⟩ : BufTy).Contents (Elt F)),
    binary main_v186 main_v190 main_v191 (addf : (⟨S50000x128, .f32⟩ : BufTy).Contents (Elt F) → (⟨S50000x128, .f32⟩ : BufTy).Contents (Elt F) → (⟨S50000x128, .f32⟩ : BufTy).Contents (Elt F)) ]
/-- The buffers sg_L2_mlp writes. -/
def W_L2_mlp : List (Ref sig .tc) := [main_v175, main_v176, main_v177, main_v178, main_v179, main_v180, main_v181, main_v182, main_call10_cst, main_call10_v0, main_v183, main_v184, main_v185, main_v186, main_v187, main_v188, main_v189, main_v190, main_v191]

/-- layer 2, stage mean, in window main_part3: 5 operations. -/
def sg_L2_mean : List (HloOp τ sig (Elt F)) :=
  [ nullary main_cst_18 (constant S_ .f32 0x00000000#32),
    binary main_v191 main_cst_18 main_v192 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v193 (broadcastInDim S128 ![] bcast_S_S128 : (⟨S_, .f32⟩ : BufTy).Contents (Elt F) → (⟨S128, .f32⟩ : BufTy).Contents (Elt F)),
    binary main_v192 main_v193 main_v194 (Host.divf : (⟨S128, .f32⟩ : BufTy).Contents (Elt F) → (⟨S128, .f32⟩ : BufTy).Contents (Elt F) → (⟨S128, .f32⟩ : BufTy).Contents (Elt F)) ]
/-- The buffers sg_L2_mean writes. -/
def W_L2_mean : List (Ref sig .tc) := [main_cst_18, main_v192, main_cst_19, main_v193, main_v194]

/-- layer 2, stage var, in window main_part3: 23 operations. -/
def sg_L2_var : List (HloOp τ sig (Elt F)) :=
  [ nullary main_c_20 (constantI S_ 32 0#32),
    nullary main_call11_cst (constant S_ .f32 0x00000000#32),
    binary main_v191 main_call11_cst main_call11_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call11_v0 main_call11_v1 ((broadcastInDim S1x128 ![1] bcast_S128_S1x128_1) : (⟨S128, .f32⟩ : BufTy).Contents (Elt F) → (⟨S1x128, .f32⟩ : BufTy).Contents (Elt F)),
    nullary main_call11_cst_0 (constant S_ .f32 0x47435000#32),
    unary main_call11_cst_0 main_call11_v2 ((broadcastInDim S1x128 ![] bcast_S_S1x128) : (⟨S_, .f32⟩ : BufTy).Contents (Elt F) → (⟨S1x128, .f32⟩ : BufTy).Contents (Elt F)),
    binary main_call11_v1 main_call11_v2 main_call11_v3 ((Host.divf) : (⟨S1x128, .f32⟩ : BufTy).Contents (Elt F) → (⟨S1x128, .f32⟩ : BufTy).Contents (Elt F) → (⟨S1x128, .f32⟩ : BufTy).Contents (Elt F)),
    unary main_call11_v3 main_call11_v4 ((broadcastInDim S50000x128 ![0, 1] bcast_S1x128_S50000x128_0_1) : (⟨S1x128, .f32⟩ : BufTy).Contents (Elt F) → (⟨S50000x128, .f32⟩ : BufTy).Contents (Elt F)),
    binary main_v191 main_call11_v4 main_call11_v5 ((subf) : (⟨S50000x128, .f32⟩ : BufTy).Contents (Elt F) → (⟨S50000x128, .f32⟩ : BufTy).Contents (Elt F) → (⟨S50000x128, .f32⟩ : BufTy).Contents (Elt F)),
    binary main_call11_v5 main_call11_v5 main_call11_v6 ((mulf) : (⟨S50000x128, .f32⟩ : BufTy).Contents (Elt F) → (⟨S50000x128, .f32⟩ : BufTy).Contents (Elt F) → (⟨S50000x128, .f32⟩ : BufTy).Contents (Elt F)),
    unary main_c_20 main_call11_v7 ((sitofp .f32) : (⟨S_, .i32⟩ : BufTy).Contents (Elt F) → (⟨S_, .f32⟩ : BufTy).Contents (Elt F)),
    nullary main_call11_cst_1 (constant S_ .f32 0x47435000#32),
    binary main_call11_cst_1 main_call11_v7 main_call11_v8 ((subf) : (⟨S_, .f32⟩ : BufTy).Contents (Elt F) → (⟨S_, .f32⟩ : BufTy).Contents (Elt F) → (⟨S_, .f32⟩ : BufTy).Contents (Elt F)),
    nullary main_call11_cst_2 (constant S_ .f32 0x00000000#32),
    binary main_call11_v6 main_call11_cst_2 main_call11_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call11_v8 main_call11_v10 ((broadcastInDim S128 ![] bcast_S_S128) : (⟨S_, .f32⟩ : BufTy).Contents (Elt F) → (⟨S128, .f32⟩ : BufTy).Contents (Elt F)),
    binary main_call11_v9 main_call11_v10 main_call11_v11 ((Host.divf) : (⟨S128, .f32⟩ : BufTy).Contents (Elt F) → (⟨S128, .f32⟩ : BufTy).Contents (Elt F) → (⟨S128, .f32⟩ : BufTy).Contents (Elt F)),
    nullary main_call11_cst_3 (constant S_ .f32 0x00000000#32),
    binary main_call11_v8 main_call11_cst_3 main_call11_v12 ((cmpf .ogt) : (⟨S_, .f32⟩ : BufTy).Contents (Elt F) → (⟨S_, .f32⟩ : BufTy).Contents (Elt F) → (⟨S_, .i1⟩ : BufTy).Contents (Elt F)),
    nullary main_call11_cst_4 (constant S_ .f32 0x7FC00000#32),
    unary main_call11_cst_4 main_call11_call0_v0 ((id) : (⟨S_, .f32⟩ : BufTy).Contents (Elt F) → (⟨S_, .f32⟩ : BufTy).Contents (Elt F)),
    unary main_call11_call0_v0 main_call11_call0_v1 ((broadcastInDim S128 ![] bcast_S_S128) : (⟨S_, .f32⟩ : BufTy).Contents (Elt F) → (⟨S128, .f32⟩ : BufTy).Contents (Elt F)),
    ternary main_call11_v12 main_call11_v11 main_call11_call0_v1 main_v195 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- The buffers sg_L2_var writes. -/
def W_L2_var : List (Ref sig .tc) := [main_c_20, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v195]

/-- layer 2, stage bn, in window main_part3: 21 operations. -/
def sg_L2_bna : List (HloOp τ sig (Elt F)) :=
  [ unary main_v194 main_v196 (broadcastInDim S1x128 ![1] bcast_S128_S1x128_1 : (⟨S128, .f32⟩ : BufTy).Contents (Elt F) → (⟨S1x128, .f32⟩ : BufTy).Contents (Elt F)),
    unary main_v196 main_v197 (broadcastInDim S50000x128 ![0, 1] bcast_S1x128_S50000x128_0_1 : (⟨S1x128, .f32⟩ : BufTy).Contents (Elt F) → (⟨S50000x128, .f32⟩ : BufTy).Contents (Elt F)),
    binary main_v191 main_v197 main_v198 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v199 (broadcastInDim S128 ![] bcast_S_S128 : (⟨S_, .f32⟩ : BufTy).Contents (Elt F) → (⟨S128, .f32⟩ : BufTy).Contents (Elt F)),
    binary main_v195 main_v199 main_v200 (addf : (⟨S128, .f32⟩ : BufTy).Contents (Elt F) → (⟨S128, .f32⟩ : BufTy).Contents (Elt F) → (⟨S128, .f32⟩ : BufTy).Contents (Elt F)),
    unary main_v200 main_v201 (Host.rsqrt : (⟨S128, .f32⟩ : BufTy).Contents (Elt F) → (⟨S128, .f32⟩ : BufTy).Contents (Elt F)),
    unary main_v201 main_v202 (broadcastInDim S1x128 ![1] bcast_S128_S1x128_1 : (⟨S128, .f32⟩ : BufTy).Contents (Elt F) → (⟨S1x128, .f32⟩ : BufTy).Contents (Elt F)),
    unary main_v202 main_v203 (broadcastInDim S50000x128 ![0, 1] bcast_S1x128_S50000x128_0_1 : (⟨S1x128, .f32⟩ : BufTy).Contents (Elt F) → (⟨S50000x128, .f32⟩ : BufTy).Contents (Elt F)),
    binary main_v198 main_v203 main_v204 (mulf : (⟨S50000x128, .f32⟩ : BufTy).Contents (Elt F) → (⟨S50000x128, .f32⟩ : BufTy).Contents (Elt F) → (⟨S50000x128, .f32⟩ : BufTy).Contents (Elt F)),
    unary main_arg15 main_v205 ((extractStridedSlice S1x128 ![2, 0] · slices_S5x128_S1x128_2_0) : (⟨S5x128, .f32⟩ : BufTy).Contents (Elt F) → (⟨S1x128, .f32⟩ : BufTy).Contents (Elt F)),
    reshape main_v205 main_v206 rfl shapeCasts_S1x128_S128,
    unary main_v206 main_v207 (broadcastInDim S1x128 ![1] bcast_S128_S1x128_1 : (⟨S128, .f32⟩ : BufTy).Contents (Elt F) → (⟨S1x128, .f32⟩ : BufTy).Contents (Elt F)),
    unary main_v207 main_v208 (broadcastInDim S50000x128 ![0, 1] bcast_S1x128_S50000x128_0_1 : (⟨S1x128, .f32⟩ : BufTy).Contents (Elt F) → (⟨S50000x128, .f32⟩ : BufTy).Contents (Elt F)),
    binary main_v204 main_v208 main_v209 (mulf : (⟨S50000x128, .f32⟩ : BufTy).Contents (Elt F) → (⟨S50000x128, .f32⟩ : BufTy).Contents (Elt F) → (⟨S50000x128, .f32⟩ : BufTy).Contents (Elt F)),
    unary main_arg16 main_v210 ((extractStridedSlice S1x128 ![2, 0] · slices_S5x128_S1x128_2_0) : (⟨S5x128, .f32⟩ : BufTy).Contents (Elt F) → (⟨S1x128, .f32⟩ : BufTy).Contents (Elt F)),
    reshape main_v210 main_v211 rfl shapeCasts_S1x128_S128,
    unary main_v211 main_v212 (broadcastInDim S1x128 ![1] bcast_S128_S1x128_1 : (⟨S128, .f32⟩ : BufTy).Contents (Elt F) → (⟨S1x128, .f32⟩ : BufTy).Contents (Elt F)),
    unary main_v212 main_v213 (broadcastInDim S50000x128 ![0, 1] bcast_S1x128_S50000x128_0_1 : (⟨S1x128, .f32⟩ : BufTy).Contents (Elt F) → (⟨S50000x128, .f32⟩ : BufTy).Contents (Elt F)),
    binary main_v209 main_v213 main_v214 (addf : (⟨S50000x128, .f32⟩ : BufTy).Contents (Elt F) → (⟨S50000x128, .f32⟩ : BufTy).Contents (Elt F) → (⟨S50000x128, .f32⟩ : BufTy).Contents (Elt F)),
    binary main_v214 main_v148 main_v215 (addf : (⟨S50000x128, .f32⟩ : BufTy).Contents (Elt F) → (⟨S50000x128, .f32⟩ : BufTy).Contents (Elt F) → (⟨S50000x128, .f32⟩ : BufTy).Contents (Elt F)) ]
/-- The buffers sg_L2_bna writes. -/
def W_L2_bna : List (Ref sig .tc) := [main_v196, main_v197, main_v198, main_cst_21, main_v199, main_v200, main_v201, main_v202, main_v203, main_v204, main_v205, main_v206, main_v207, main_v208, main_v209, main_v210, main_v211, main_v212, main_v213, main_v214, main_v215]

/-- layer 2, stage bn, in window main_part4: 3 operations. -/
def sg_L2_bnb : List (HloOp τ sig (Elt F)) :=
  [ nullary main_call12_cst (constant S_ .f32 0x00000000#32),
    unary main_call12_cst main_call12_v0 ((broadcastInDim S50000x128 ![] bcast_S_S50000x128) : (⟨S_, .f32⟩ : BufTy).Contents (Elt F) → (⟨S50000x128, .f32⟩ : BufTy).Contents (Elt F)),
    binary main_v215 main_call12_v0 main_v216 ((maximumf) : (⟨S50000x128, .f32⟩ : BufTy).Contents (Elt F) → (⟨S50000x128, .f32⟩ : BufTy).Contents (Elt F) → (⟨S50000x128, .f32⟩ : BufTy).Contents (Elt F)) ]
/-- The buffers sg_L2_bnb writes. -/
def W_L2_bnb : List (Ref sig .tc) := [main_call12_cst, main_call12_v0, main_v216]

/-- layer 3, stage src, in window main_part4: 8 operations. -/
def sg_L3_src : List (HloOp τ sig (Elt F)) :=
  [ nullary main_c_22 (constantI S_ 32 0#32),
    unary main_c_22 main_v217 (broadcastInDim S640000 ![] bcast_S_S640000 : (⟨S_, .i32⟩ : BufTy).Contents (Elt F) → (⟨S640000, .i32⟩ : BufTy).Contents (Elt F)),
    binary main_v1 main_v217 main_v218 (cmpi .slt : (⟨S640000, .i32⟩ : BufTy).Contents (Elt F) → (⟨S640000, .i32⟩ : BufTy).Contents (Elt F) → (⟨S640000, .i1⟩ : BufTy).Contents (Elt F)),
    nullary main_c_23 (constantI S_ 32 50000#32),
    unary main_c_23 main_v219 (broadcastInDim S640000 ![] bcast_S_S640000 : (⟨S_, .i32⟩ : BufTy).Contents (Elt F) → (⟨S640000, .i32⟩ : BufTy).Contents (Elt F)),
    binary main_v1 main_v219 main_v220 (addi : (⟨S640000, .i32⟩ : BufTy).Contents (Elt F) → (⟨S640000, .i32⟩ : BufTy).Contents (Elt F) → (⟨S640000, .i32⟩ : BufTy).Contents (Elt F)),
    ternary main_v218 main_v220 main_v1 main_v221 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v221 main_v222 (broadcastInDim S640000x1 ![0] bcast_S640000_S640000x1_0 : (⟨S640000, .i32⟩ : BufTy).Contents (Elt F) → (⟨S640000x1, .i32⟩ : BufTy).Contents (Elt F)) ]
/-- The buffers sg_L3_src writes. -/
def W_L3_src : List (Ref sig .tc) := [main_c_22, main_v217, main_v218, main_c_23, main_v219, main_v220, main_v221, main_v222]

/-- layer 3, stage msg, in window main_part4: 13 operations. -/
def sg_L3_msg : List (HloOp τ sig (Elt F)) :=
  [ binary main_v216 main_v222 main_v223 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_arg9 main_v224 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v224 main_v225 rfl shapeCasts_S1x128x128_S128x128,
    binary main_v12 main_v225 main_v226 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    binary main_v223 main_v226 main_v227 (addf : (⟨S640000x128, .f32⟩ : BufTy).Contents (Elt F) → (⟨S640000x128, .f32⟩ : BufTy).Contents (Elt F) → (⟨S640000x128, .f32⟩ : BufTy).Contents (Elt F)),
    unary main_arg10 main_v228 ((extractStridedSlice S1x128 ![3, 0] · slices_S5x128_S1x128_3_0) : (⟨S5x128, .f32⟩ : BufTy).Contents (Elt F) → (⟨S1x128, .f32⟩ : BufTy).Contents (Elt F)),
    reshape main_v228 main_v229 rfl shapeCasts_S1x128_S128,
    unary main_v229 main_v230 (broadcastInDim S1x128 ![1] bcast_S128_S1x128_1 : (⟨S128, .f32⟩ : BufTy).Contents (Elt F) → (⟨S1x128, .f32⟩ : BufTy).Contents (Elt F)),
    unary main_v230 main_v231 (broadcastInDim S640000x128 ![0, 1] bcast_S1x128_S640000x128_0_1 : (⟨S1x128, .f32⟩ : BufTy).Contents (Elt F) → (⟨S640000x128, .f32⟩ : BufTy).Contents (Elt F)),
    binary main_v227 main_v231 main_v232 (addf : (⟨S640000x128, .f32⟩ : BufTy).Contents (Elt F) → (⟨S640000x128, .f32⟩ : BufTy).Contents (Elt F) → (⟨S640000x128, .f32⟩ : BufTy).Contents (Elt F)),
    nullary main_call13_cst (constant S_ .f32 0x00000000#32),
    unary main_call13_cst main_call13_v0 ((broadcastInDim S640000x128 ![] bcast_S_S640000x128) : (⟨S_, .f32⟩ : BufTy).Contents (Elt F) → (⟨S640000x128, .f32⟩ : BufTy).Contents (Elt F)),
    binary main_v232 main_call13_v0 main_v233 ((maximumf) : (⟨S640000x128, .f32⟩ : BufTy).Contents (Elt F) → (⟨S640000x128, .f32⟩ : BufTy).Contents (Elt F) → (⟨S640000x128, .f32⟩ : BufTy).Contents (Elt F)) ]
/-- The buffers sg_L3_msg writes. -/
def W_L3_msg : List (Ref sig .tc) := [main_v223, main_v224, main_v225, main_v226, main_v227, main_v228, main_v229, main_v230, main_v231, main_v232, main_call13_cst, main_call13_v0, main_v233]

/-- layer 3, stage agg, in window main_part4: 4 operations. -/
def sg_L3_agg : List (HloOp τ sig (Elt F)) :=
  [ nullary main_cst_24 (constant S_ .f32 0x00000000#32),
    unary main_cst_24 main_v234 (broadcastInDim S50000x128 ![] bcast_S_S50000x128 : (⟨S_, .f32⟩ : BufTy).Contents (Elt F) → (⟨S50000x128, .f32⟩ : BufTy).Contents (Elt F)),
    unary main_v3 main_v235 (broadcastInDim S640000x1 ![0] bcast_S640000_S640000x1_0 : (⟨S640000, .i32⟩ : BufTy).Contents (Elt F) → (⟨S640000x1, .i32⟩ : BufTy).Contents (Elt F)),
    ternary main_v234 main_v235 main_v233 main_v236 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]
/-- The buffers sg_L3_agg writes. -/
def W_L3_agg : List (Ref sig .tc) := [main_cst_24, main_v234, main_v235, main_v236]

/-- layer 3, stage pre, in window main_part4: 7 operations. -/
def sg_L3_pre : List (HloOp τ sig (Elt F)) :=
  [ unary main_arg8 main_v237 ((extractStridedSlice S1 ![3] · slices_S5_S1_3) : (⟨S5, .f32⟩ : BufTy).Contents (Elt F) → (⟨S1, .f32⟩ : BufTy).Contents (Elt F)),
    reshape main_v237 main_v238 rfl shapeCasts_S1_S_,
    nullary main_cst_25 (constant S_ .f32 0x3F800000#32),
    binary main_cst_25 main_v238 main_v239 (addf : (⟨S_, .f32⟩ : BufTy).Contents (Elt F) → (⟨S_, .f32⟩ : BufTy).Contents (Elt F) → (⟨S_, .f32⟩ : BufTy).Contents (Elt F)),
    unary main_v239 main_v240 (broadcastInDim S50000x128 ![] bcast_S_S50000x128 : (⟨S_, .f32⟩ : BufTy).Contents (Elt F) → (⟨S50000x128, .f32⟩ : BufTy).Contents (Elt F)),
    binary main_v240 main_v216 main_v241 (mulf : (⟨S50000x128, .f32⟩ : BufTy).Contents (Elt F) → (⟨S50000x128, .f32⟩ : BufTy).Contents (Elt F) → (⟨S50000x128, .f32⟩ : BufTy).Contents (Elt F)),
    binary main_v241 main_v236 main_v242 (addf : (⟨S50000x128, .f32⟩ : BufTy).Contents (Elt F) → (⟨S50000x128, .f32⟩ : BufTy).Contents (Elt F) → (⟨S50000x128, .f32⟩ : BufTy).Contents (Elt F)) ]
/-- The buffers sg_L3_pre writes. -/
def W_L3_pre : List (Ref sig .tc) := [main_v237, main_v238, main_cst_25, main_v239, main_v240, main_v241, main_v242]

/-- layer 3, stage mlp, in window main_part4: 19 operations. -/
def sg_L3_mlp : List (HloOp τ sig (Elt F)) :=
  [ unary main_arg11 main_v243 ((extractStridedSlice S1x128x256 ![3, 0, 0] · slices_S5x128x256_S1x128x256_3_0_0) : (⟨S5x128x256, .f32⟩ : BufTy).Contents (Elt F) → (⟨S1x128x256, .f32⟩ : BufTy).Contents (Elt F)),
    reshape main_v243 main_v244 rfl shapeCasts_S1x128x256_S128x256,
    binary main_v242 main_v244 main_v245 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v246 ((extractStridedSlice S1x256 ![3, 0] · slices_S5x256_S1x256_3_0) : (⟨S5x256, .f32⟩ : BufTy).Contents (Elt F) → (⟨S1x256, .f32⟩ : BufTy).Contents (Elt F)),
    reshape main_v246 main_v247 rfl shapeCasts_S1x256_S256,
    unary main_v247 main_v248 (broadcastInDim S1x256 ![1] bcast_S256_S1x256_1 : (⟨S256, .f32⟩ : BufTy).Contents (Elt F) → (⟨S1x256, .f32⟩ : BufTy).Contents (Elt F)),
    unary main_v248 main_v249 (broadcastInDim S50000x256 ![0, 1] bcast_S1x256_S50000x256_0_1 : (⟨S1x256, .f32⟩ : BufTy).Contents (Elt F) → (⟨S50000x256, .f32⟩ : BufTy).Contents (Elt F)),
    binary main_v245 main_v249 main_v250 (addf : (⟨S50000x256, .f32⟩ : BufTy).Contents (Elt F) → (⟨S50000x256, .f32⟩ : BufTy).Contents (Elt F) → (⟨S50000x256, .f32⟩ : BufTy).Contents (Elt F)),
    nullary main_call14_cst (constant S_ .f32 0x00000000#32),
    unary main_call14_cst main_call14_v0 ((broadcastInDim S50000x256 ![] bcast_S_S50000x256) : (⟨S_, .f32⟩ : BufTy).Contents (Elt F) → (⟨S50000x256, .f32⟩ : BufTy).Contents (Elt F)),
    binary main_v250 main_call14_v0 main_v251 ((maximumf) : (⟨S50000x256, .f32⟩ : BufTy).Contents (Elt F) → (⟨S50000x256, .f32⟩ : BufTy).Contents (Elt F) → (⟨S50000x256, .f32⟩ : BufTy).Contents (Elt F)),
    unary main_arg13 main_v252 ((extractStridedSlice S1x256x128 ![3, 0, 0] · slices_S5x256x128_S1x256x128_3_0_0) : (⟨S5x256x128, .f32⟩ : BufTy).Contents (Elt F) → (⟨S1x256x128, .f32⟩ : BufTy).Contents (Elt F)),
    reshape main_v252 main_v253 rfl shapeCasts_S1x256x128_S256x128,
    binary main_v251 main_v253 main_v254 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v255 ((extractStridedSlice S1x128 ![3, 0] · slices_S5x128_S1x128_3_0) : (⟨S5x128, .f32⟩ : BufTy).Contents (Elt F) → (⟨S1x128, .f32⟩ : BufTy).Contents (Elt F)),
    reshape main_v255 main_v256 rfl shapeCasts_S1x128_S128,
    unary main_v256 main_v257 (broadcastInDim S1x128 ![1] bcast_S128_S1x128_1 : (⟨S128, .f32⟩ : BufTy).Contents (Elt F) → (⟨S1x128, .f32⟩ : BufTy).Contents (Elt F)),
    unary main_v257 main_v258 (broadcastInDim S50000x128 ![0, 1] bcast_S1x128_S50000x128_0_1 : (⟨S1x128, .f32⟩ : BufTy).Contents (Elt F) → (⟨S50000x128, .f32⟩ : BufTy).Contents (Elt F)),
    binary main_v254 main_v258 main_v259 (addf : (⟨S50000x128, .f32⟩ : BufTy).Contents (Elt F) → (⟨S50000x128, .f32⟩ : BufTy).Contents (Elt F) → (⟨S50000x128, .f32⟩ : BufTy).Contents (Elt F)) ]
/-- The buffers sg_L3_mlp writes. -/
def W_L3_mlp : List (Ref sig .tc) := [main_v243, main_v244, main_v245, main_v246, main_v247, main_v248, main_v249, main_v250, main_call14_cst, main_call14_v0, main_v251, main_v252, main_v253, main_v254, main_v255, main_v256, main_v257, main_v258, main_v259]

/-- layer 3, stage mean, in window main_part4: 5 operations. -/
def sg_L3_mean : List (HloOp τ sig (Elt F)) :=
  [ nullary main_cst_26 (constant S_ .f32 0x00000000#32),
    binary main_v259 main_cst_26 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_27 (constant S_ .f32 0x47435000#32),
    unary main_cst_27 main_v261 (broadcastInDim S128 ![] bcast_S_S128 : (⟨S_, .f32⟩ : BufTy).Contents (Elt F) → (⟨S128, .f32⟩ : BufTy).Contents (Elt F)),
    binary main_v260 main_v261 main_v262 (Host.divf : (⟨S128, .f32⟩ : BufTy).Contents (Elt F) → (⟨S128, .f32⟩ : BufTy).Contents (Elt F) → (⟨S128, .f32⟩ : BufTy).Contents (Elt F)) ]
/-- The buffers sg_L3_mean writes. -/
def W_L3_mean : List (Ref sig .tc) := [main_cst_26, main_v260, main_cst_27, main_v261, main_v262]

/-- layer 3, stage var, in window main_part4: 23 operations. -/
def sg_L3_var : List (HloOp τ sig (Elt F)) :=
  [ nullary main_c_28 (constantI S_ 32 0#32),
    nullary main_call15_cst (constant S_ .f32 0x00000000#32),
    binary main_v259 main_call15_cst main_call15_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call15_v0 main_call15_v1 ((broadcastInDim S1x128 ![1] bcast_S128_S1x128_1) : (⟨S128, .f32⟩ : BufTy).Contents (Elt F) → (⟨S1x128, .f32⟩ : BufTy).Contents (Elt F)),
    nullary main_call15_cst_0 (constant S_ .f32 0x47435000#32),
    unary main_call15_cst_0 main_call15_v2 ((broadcastInDim S1x128 ![] bcast_S_S1x128) : (⟨S_, .f32⟩ : BufTy).Contents (Elt F) → (⟨S1x128, .f32⟩ : BufTy).Contents (Elt F)),
    binary main_call15_v1 main_call15_v2 main_call15_v3 ((Host.divf) : (⟨S1x128, .f32⟩ : BufTy).Contents (Elt F) → (⟨S1x128, .f32⟩ : BufTy).Contents (Elt F) → (⟨S1x128, .f32⟩ : BufTy).Contents (Elt F)),
    unary main_call15_v3 main_call15_v4 ((broadcastInDim S50000x128 ![0, 1] bcast_S1x128_S50000x128_0_1) : (⟨S1x128, .f32⟩ : BufTy).Contents (Elt F) → (⟨S50000x128, .f32⟩ : BufTy).Contents (Elt F)),
    binary main_v259 main_call15_v4 main_call15_v5 ((subf) : (⟨S50000x128, .f32⟩ : BufTy).Contents (Elt F) → (⟨S50000x128, .f32⟩ : BufTy).Contents (Elt F) → (⟨S50000x128, .f32⟩ : BufTy).Contents (Elt F)),
    binary main_call15_v5 main_call15_v5 main_call15_v6 ((mulf) : (⟨S50000x128, .f32⟩ : BufTy).Contents (Elt F) → (⟨S50000x128, .f32⟩ : BufTy).Contents (Elt F) → (⟨S50000x128, .f32⟩ : BufTy).Contents (Elt F)),
    unary main_c_28 main_call15_v7 ((sitofp .f32) : (⟨S_, .i32⟩ : BufTy).Contents (Elt F) → (⟨S_, .f32⟩ : BufTy).Contents (Elt F)),
    nullary main_call15_cst_1 (constant S_ .f32 0x47435000#32),
    binary main_call15_cst_1 main_call15_v7 main_call15_v8 ((subf) : (⟨S_, .f32⟩ : BufTy).Contents (Elt F) → (⟨S_, .f32⟩ : BufTy).Contents (Elt F) → (⟨S_, .f32⟩ : BufTy).Contents (Elt F)),
    nullary main_call15_cst_2 (constant S_ .f32 0x00000000#32),
    binary main_call15_v6 main_call15_cst_2 main_call15_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call15_v8 main_call15_v10 ((broadcastInDim S128 ![] bcast_S_S128) : (⟨S_, .f32⟩ : BufTy).Contents (Elt F) → (⟨S128, .f32⟩ : BufTy).Contents (Elt F)),
    binary main_call15_v9 main_call15_v10 main_call15_v11 ((Host.divf) : (⟨S128, .f32⟩ : BufTy).Contents (Elt F) → (⟨S128, .f32⟩ : BufTy).Contents (Elt F) → (⟨S128, .f32⟩ : BufTy).Contents (Elt F)),
    nullary main_call15_cst_3 (constant S_ .f32 0x00000000#32),
    binary main_call15_v8 main_call15_cst_3 main_call15_v12 ((cmpf .ogt) : (⟨S_, .f32⟩ : BufTy).Contents (Elt F) → (⟨S_, .f32⟩ : BufTy).Contents (Elt F) → (⟨S_, .i1⟩ : BufTy).Contents (Elt F)),
    nullary main_call15_cst_4 (constant S_ .f32 0x7FC00000#32),
    unary main_call15_cst_4 main_call15_call0_v0 ((id) : (⟨S_, .f32⟩ : BufTy).Contents (Elt F) → (⟨S_, .f32⟩ : BufTy).Contents (Elt F)),
    unary main_call15_call0_v0 main_call15_call0_v1 ((broadcastInDim S128 ![] bcast_S_S128) : (⟨S_, .f32⟩ : BufTy).Contents (Elt F) → (⟨S128, .f32⟩ : BufTy).Contents (Elt F)),
    ternary main_call15_v12 main_call15_v11 main_call15_call0_v1 main_v263 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- The buffers sg_L3_var writes. -/
def W_L3_var : List (Ref sig .tc) := [main_c_28, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v263]

/-- layer 3, stage bn, in window main_part4: 5 operations. -/
def sg_L3_bna : List (HloOp τ sig (Elt F)) :=
  [ unary main_v262 main_v264 (broadcastInDim S1x128 ![1] bcast_S128_S1x128_1 : (⟨S128, .f32⟩ : BufTy).Contents (Elt F) → (⟨S1x128, .f32⟩ : BufTy).Contents (Elt F)),
    unary main_v264 main_v265 (broadcastInDim S50000x128 ![0, 1] bcast_S1x128_S50000x128_0_1 : (⟨S1x128, .f32⟩ : BufTy).Contents (Elt F) → (⟨S50000x128, .f32⟩ : BufTy).Contents (Elt F)),
    binary main_v259 main_v265 main_v266 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v267 (broadcastInDim S128 ![] bcast_S_S128 : (⟨S_, .f32⟩ : BufTy).Contents (Elt F) → (⟨S128, .f32⟩ : BufTy).Contents (Elt F)) ]
/-- The buffers sg_L3_bna writes. -/
def W_L3_bna : List (Ref sig .tc) := [main_v264, main_v265, main_v266, main_cst_29, main_v267]

/-- layer 3, stage bn, in window main_part5: 19 operations. -/
def sg_L3_bnb : List (HloOp τ sig (Elt F)) :=
  [ binary main_v263 main_v267 main_v268 (addf : (⟨S128, .f32⟩ : BufTy).Contents (Elt F) → (⟨S128, .f32⟩ : BufTy).Contents (Elt F) → (⟨S128, .f32⟩ : BufTy).Contents (Elt F)),
    unary main_v268 main_v269 (Host.rsqrt : (⟨S128, .f32⟩ : BufTy).Contents (Elt F) → (⟨S128, .f32⟩ : BufTy).Contents (Elt F)),
    unary main_v269 main_v270 (broadcastInDim S1x128 ![1] bcast_S128_S1x128_1 : (⟨S128, .f32⟩ : BufTy).Contents (Elt F) → (⟨S1x128, .f32⟩ : BufTy).Contents (Elt F)),
    unary main_v270 main_v271 (broadcastInDim S50000x128 ![0, 1] bcast_S1x128_S50000x128_0_1 : (⟨S1x128, .f32⟩ : BufTy).Contents (Elt F) → (⟨S50000x128, .f32⟩ : BufTy).Contents (Elt F)),
    binary main_v266 main_v271 main_v272 (mulf : (⟨S50000x128, .f32⟩ : BufTy).Contents (Elt F) → (⟨S50000x128, .f32⟩ : BufTy).Contents (Elt F) → (⟨S50000x128, .f32⟩ : BufTy).Contents (Elt F)),
    unary main_arg15 main_v273 ((extractStridedSlice S1x128 ![3, 0] · slices_S5x128_S1x128_3_0) : (⟨S5x128, .f32⟩ : BufTy).Contents (Elt F) → (⟨S1x128, .f32⟩ : BufTy).Contents (Elt F)),
    reshape main_v273 main_v274 rfl shapeCasts_S1x128_S128,
    unary main_v274 main_v275 (broadcastInDim S1x128 ![1] bcast_S128_S1x128_1 : (⟨S128, .f32⟩ : BufTy).Contents (Elt F) → (⟨S1x128, .f32⟩ : BufTy).Contents (Elt F)),
    unary main_v275 main_v276 (broadcastInDim S50000x128 ![0, 1] bcast_S1x128_S50000x128_0_1 : (⟨S1x128, .f32⟩ : BufTy).Contents (Elt F) → (⟨S50000x128, .f32⟩ : BufTy).Contents (Elt F)),
    binary main_v272 main_v276 main_v277 (mulf : (⟨S50000x128, .f32⟩ : BufTy).Contents (Elt F) → (⟨S50000x128, .f32⟩ : BufTy).Contents (Elt F) → (⟨S50000x128, .f32⟩ : BufTy).Contents (Elt F)),
    unary main_arg16 main_v278 ((extractStridedSlice S1x128 ![3, 0] · slices_S5x128_S1x128_3_0) : (⟨S5x128, .f32⟩ : BufTy).Contents (Elt F) → (⟨S1x128, .f32⟩ : BufTy).Contents (Elt F)),
    reshape main_v278 main_v279 rfl shapeCasts_S1x128_S128,
    unary main_v279 main_v280 (broadcastInDim S1x128 ![1] bcast_S128_S1x128_1 : (⟨S128, .f32⟩ : BufTy).Contents (Elt F) → (⟨S1x128, .f32⟩ : BufTy).Contents (Elt F)),
    unary main_v280 main_v281 (broadcastInDim S50000x128 ![0, 1] bcast_S1x128_S50000x128_0_1 : (⟨S1x128, .f32⟩ : BufTy).Contents (Elt F) → (⟨S50000x128, .f32⟩ : BufTy).Contents (Elt F)),
    binary main_v277 main_v281 main_v282 (addf : (⟨S50000x128, .f32⟩ : BufTy).Contents (Elt F) → (⟨S50000x128, .f32⟩ : BufTy).Contents (Elt F) → (⟨S50000x128, .f32⟩ : BufTy).Contents (Elt F)),
    binary main_v282 main_v216 main_v283 (addf : (⟨S50000x128, .f32⟩ : BufTy).Contents (Elt F) → (⟨S50000x128, .f32⟩ : BufTy).Contents (Elt F) → (⟨S50000x128, .f32⟩ : BufTy).Contents (Elt F)),
    nullary main_call16_cst (constant S_ .f32 0x00000000#32),
    unary main_call16_cst main_call16_v0 ((broadcastInDim S50000x128 ![] bcast_S_S50000x128) : (⟨S_, .f32⟩ : BufTy).Contents (Elt F) → (⟨S50000x128, .f32⟩ : BufTy).Contents (Elt F)),
    binary main_v283 main_call16_v0 main_v284 ((maximumf) : (⟨S50000x128, .f32⟩ : BufTy).Contents (Elt F) → (⟨S50000x128, .f32⟩ : BufTy).Contents (Elt F) → (⟨S50000x128, .f32⟩ : BufTy).Contents (Elt F)) ]
/-- The buffers sg_L3_bnb writes. -/
def W_L3_bnb : List (Ref sig .tc) := [main_v268, main_v269, main_v270, main_v271, main_v272, main_v273, main_v274, main_v275, main_v276, main_v277, main_v278, main_v279, main_v280, main_v281, main_v282, main_v283, main_call16_cst, main_call16_v0, main_v284]

/-- layer 4, stage src, in window main_part5: 8 operations. -/
def sg_L4_src : List (HloOp τ sig (Elt F)) :=
  [ nullary main_c_30 (constantI S_ 32 0#32),
    unary main_c_30 main_v285 (broadcastInDim S640000 ![] bcast_S_S640000 : (⟨S_, .i32⟩ : BufTy).Contents (Elt F) → (⟨S640000, .i32⟩ : BufTy).Contents (Elt F)),
    binary main_v1 main_v285 main_v286 (cmpi .slt : (⟨S640000, .i32⟩ : BufTy).Contents (Elt F) → (⟨S640000, .i32⟩ : BufTy).Contents (Elt F) → (⟨S640000, .i1⟩ : BufTy).Contents (Elt F)),
    nullary main_c_31 (constantI S_ 32 50000#32),
    unary main_c_31 main_v287 (broadcastInDim S640000 ![] bcast_S_S640000 : (⟨S_, .i32⟩ : BufTy).Contents (Elt F) → (⟨S640000, .i32⟩ : BufTy).Contents (Elt F)),
    binary main_v1 main_v287 main_v288 (addi : (⟨S640000, .i32⟩ : BufTy).Contents (Elt F) → (⟨S640000, .i32⟩ : BufTy).Contents (Elt F) → (⟨S640000, .i32⟩ : BufTy).Contents (Elt F)),
    ternary main_v286 main_v288 main_v1 main_v289 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v289 main_v290 (broadcastInDim S640000x1 ![0] bcast_S640000_S640000x1_0 : (⟨S640000, .i32⟩ : BufTy).Contents (Elt F) → (⟨S640000x1, .i32⟩ : BufTy).Contents (Elt F)) ]
/-- The buffers sg_L4_src writes. -/
def W_L4_src : List (Ref sig .tc) := [main_c_30, main_v285, main_v286, main_c_31, main_v287, main_v288, main_v289, main_v290]

/-- layer 4, stage msg, in window main_part5: 13 operations. -/
def sg_L4_msg : List (HloOp τ sig (Elt F)) :=
  [ binary main_v284 main_v290 main_v291 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_arg9 main_v292 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v292 main_v293 rfl shapeCasts_S1x128x128_S128x128,
    binary main_v12 main_v293 main_v294 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    binary main_v291 main_v294 main_v295 (addf : (⟨S640000x128, .f32⟩ : BufTy).Contents (Elt F) → (⟨S640000x128, .f32⟩ : BufTy).Contents (Elt F) → (⟨S640000x128, .f32⟩ : BufTy).Contents (Elt F)),
    unary main_arg10 main_v296 ((extractStridedSlice S1x128 ![4, 0] · slices_S5x128_S1x128_4_0) : (⟨S5x128, .f32⟩ : BufTy).Contents (Elt F) → (⟨S1x128, .f32⟩ : BufTy).Contents (Elt F)),
    reshape main_v296 main_v297 rfl shapeCasts_S1x128_S128,
    unary main_v297 main_v298 (broadcastInDim S1x128 ![1] bcast_S128_S1x128_1 : (⟨S128, .f32⟩ : BufTy).Contents (Elt F) → (⟨S1x128, .f32⟩ : BufTy).Contents (Elt F)),
    unary main_v298 main_v299 (broadcastInDim S640000x128 ![0, 1] bcast_S1x128_S640000x128_0_1 : (⟨S1x128, .f32⟩ : BufTy).Contents (Elt F) → (⟨S640000x128, .f32⟩ : BufTy).Contents (Elt F)),
    binary main_v295 main_v299 main_v300 (addf : (⟨S640000x128, .f32⟩ : BufTy).Contents (Elt F) → (⟨S640000x128, .f32⟩ : BufTy).Contents (Elt F) → (⟨S640000x128, .f32⟩ : BufTy).Contents (Elt F)),
    nullary main_call17_cst (constant S_ .f32 0x00000000#32),
    unary main_call17_cst main_call17_v0 ((broadcastInDim S640000x128 ![] bcast_S_S640000x128) : (⟨S_, .f32⟩ : BufTy).Contents (Elt F) → (⟨S640000x128, .f32⟩ : BufTy).Contents (Elt F)),
    binary main_v300 main_call17_v0 main_v301 ((maximumf) : (⟨S640000x128, .f32⟩ : BufTy).Contents (Elt F) → (⟨S640000x128, .f32⟩ : BufTy).Contents (Elt F) → (⟨S640000x128, .f32⟩ : BufTy).Contents (Elt F)) ]
/-- The buffers sg_L4_msg writes. -/
def W_L4_msg : List (Ref sig .tc) := [main_v291, main_v292, main_v293, main_v294, main_v295, main_v296, main_v297, main_v298, main_v299, main_v300, main_call17_cst, main_call17_v0, main_v301]

/-- layer 4, stage agg, in window main_part5: 4 operations. -/
def sg_L4_agg : List (HloOp τ sig (Elt F)) :=
  [ nullary main_cst_32 (constant S_ .f32 0x00000000#32),
    unary main_cst_32 main_v302 (broadcastInDim S50000x128 ![] bcast_S_S50000x128 : (⟨S_, .f32⟩ : BufTy).Contents (Elt F) → (⟨S50000x128, .f32⟩ : BufTy).Contents (Elt F)),
    unary main_v3 main_v303 (broadcastInDim S640000x1 ![0] bcast_S640000_S640000x1_0 : (⟨S640000, .i32⟩ : BufTy).Contents (Elt F) → (⟨S640000x1, .i32⟩ : BufTy).Contents (Elt F)),
    ternary main_v302 main_v303 main_v301 main_v304 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]
/-- The buffers sg_L4_agg writes. -/
def W_L4_agg : List (Ref sig .tc) := [main_cst_32, main_v302, main_v303, main_v304]

/-- layer 4, stage pre, in window main_part5: 7 operations. -/
def sg_L4_pre : List (HloOp τ sig (Elt F)) :=
  [ unary main_arg8 main_v305 ((extractStridedSlice S1 ![4] · slices_S5_S1_4) : (⟨S5, .f32⟩ : BufTy).Contents (Elt F) → (⟨S1, .f32⟩ : BufTy).Contents (Elt F)),
    reshape main_v305 main_v306 rfl shapeCasts_S1_S_,
    nullary main_cst_33 (constant S_ .f32 0x3F800000#32),
    binary main_cst_33 main_v306 main_v307 (addf : (⟨S_, .f32⟩ : BufTy).Contents (Elt F) → (⟨S_, .f32⟩ : BufTy).Contents (Elt F) → (⟨S_, .f32⟩ : BufTy).Contents (Elt F)),
    unary main_v307 main_v308 (broadcastInDim S50000x128 ![] bcast_S_S50000x128 : (⟨S_, .f32⟩ : BufTy).Contents (Elt F) → (⟨S50000x128, .f32⟩ : BufTy).Contents (Elt F)),
    binary main_v308 main_v284 main_v309 (mulf : (⟨S50000x128, .f32⟩ : BufTy).Contents (Elt F) → (⟨S50000x128, .f32⟩ : BufTy).Contents (Elt F) → (⟨S50000x128, .f32⟩ : BufTy).Contents (Elt F)),
    binary main_v309 main_v304 main_v310 (addf : (⟨S50000x128, .f32⟩ : BufTy).Contents (Elt F) → (⟨S50000x128, .f32⟩ : BufTy).Contents (Elt F) → (⟨S50000x128, .f32⟩ : BufTy).Contents (Elt F)) ]
/-- The buffers sg_L4_pre writes. -/
def W_L4_pre : List (Ref sig .tc) := [main_v305, main_v306, main_cst_33, main_v307, main_v308, main_v309, main_v310]

/-- layer 4, stage mlp, in window main_part5: 15 operations. -/
def sg_L4_mlpa : List (HloOp τ sig (Elt F)) :=
  [ unary main_arg11 main_v311 ((extractStridedSlice S1x128x256 ![4, 0, 0] · slices_S5x128x256_S1x128x256_4_0_0) : (⟨S5x128x256, .f32⟩ : BufTy).Contents (Elt F) → (⟨S1x128x256, .f32⟩ : BufTy).Contents (Elt F)),
    reshape main_v311 main_v312 rfl shapeCasts_S1x128x256_S128x256,
    binary main_v310 main_v312 main_v313 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v314 ((extractStridedSlice S1x256 ![4, 0] · slices_S5x256_S1x256_4_0) : (⟨S5x256, .f32⟩ : BufTy).Contents (Elt F) → (⟨S1x256, .f32⟩ : BufTy).Contents (Elt F)),
    reshape main_v314 main_v315 rfl shapeCasts_S1x256_S256,
    unary main_v315 main_v316 (broadcastInDim S1x256 ![1] bcast_S256_S1x256_1 : (⟨S256, .f32⟩ : BufTy).Contents (Elt F) → (⟨S1x256, .f32⟩ : BufTy).Contents (Elt F)),
    unary main_v316 main_v317 (broadcastInDim S50000x256 ![0, 1] bcast_S1x256_S50000x256_0_1 : (⟨S1x256, .f32⟩ : BufTy).Contents (Elt F) → (⟨S50000x256, .f32⟩ : BufTy).Contents (Elt F)),
    binary main_v313 main_v317 main_v318 (addf : (⟨S50000x256, .f32⟩ : BufTy).Contents (Elt F) → (⟨S50000x256, .f32⟩ : BufTy).Contents (Elt F) → (⟨S50000x256, .f32⟩ : BufTy).Contents (Elt F)),
    nullary main_call18_cst (constant S_ .f32 0x00000000#32),
    unary main_call18_cst main_call18_v0 ((broadcastInDim S50000x256 ![] bcast_S_S50000x256) : (⟨S_, .f32⟩ : BufTy).Contents (Elt F) → (⟨S50000x256, .f32⟩ : BufTy).Contents (Elt F)),
    binary main_v318 main_call18_v0 main_v319 ((maximumf) : (⟨S50000x256, .f32⟩ : BufTy).Contents (Elt F) → (⟨S50000x256, .f32⟩ : BufTy).Contents (Elt F) → (⟨S50000x256, .f32⟩ : BufTy).Contents (Elt F)),
    unary main_arg13 main_v320 ((extractStridedSlice S1x256x128 ![4, 0, 0] · slices_S5x256x128_S1x256x128_4_0_0) : (⟨S5x256x128, .f32⟩ : BufTy).Contents (Elt F) → (⟨S1x256x128, .f32⟩ : BufTy).Contents (Elt F)),
    reshape main_v320 main_v321 rfl shapeCasts_S1x256x128_S256x128,
    binary main_v319 main_v321 main_v322 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v323 ((extractStridedSlice S1x128 ![4, 0] · slices_S5x128_S1x128_4_0) : (⟨S5x128, .f32⟩ : BufTy).Contents (Elt F) → (⟨S1x128, .f32⟩ : BufTy).Contents (Elt F)) ]
/-- The buffers sg_L4_mlpa writes. -/
def W_L4_mlpa : List (Ref sig .tc) := [main_v311, main_v312, main_v313, main_v314, main_v315, main_v316, main_v317, main_v318, main_call18_cst, main_call18_v0, main_v319, main_v320, main_v321, main_v322, main_v323]

/-- layer 4, stage mlp, in window main_part6: 4 operations. -/
def sg_L4_mlpb : List (HloOp τ sig (Elt F)) :=
  [ reshape main_v323 main_v324 rfl shapeCasts_S1x128_S128,
    unary main_v324 main_v325 (broadcastInDim S1x128 ![1] bcast_S128_S1x128_1 : (⟨S128, .f32⟩ : BufTy).Contents (Elt F) → (⟨S1x128, .f32⟩ : BufTy).Contents (Elt F)),
    unary main_v325 main_v326 (broadcastInDim S50000x128 ![0, 1] bcast_S1x128_S50000x128_0_1 : (⟨S1x128, .f32⟩ : BufTy).Contents (Elt F) → (⟨S50000x128, .f32⟩ : BufTy).Contents (Elt F)),
    binary main_v322 main_v326 main_v327 (addf : (⟨S50000x128, .f32⟩ : BufTy).Contents (Elt F) → (⟨S50000x128, .f32⟩ : BufTy).Contents (Elt F) → (⟨S50000x128, .f32⟩ : BufTy).Contents (Elt F)) ]
/-- The buffers sg_L4_mlpb writes. -/
def W_L4_mlpb : List (Ref sig .tc) := [main_v324, main_v325, main_v326, main_v327]

/-- layer 4, stage mean, in window main_part6: 5 operations. -/
def sg_L4_mean : List (HloOp τ sig (Elt F)) :=
  [ nullary main_cst_34 (constant S_ .f32 0x00000000#32),
    binary main_v327 main_cst_34 main_v328 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_35 (constant S_ .f32 0x47435000#32),
    unary main_cst_35 main_v329 (broadcastInDim S128 ![] bcast_S_S128 : (⟨S_, .f32⟩ : BufTy).Contents (Elt F) → (⟨S128, .f32⟩ : BufTy).Contents (Elt F)),
    binary main_v328 main_v329 main_v330 (Host.divf : (⟨S128, .f32⟩ : BufTy).Contents (Elt F) → (⟨S128, .f32⟩ : BufTy).Contents (Elt F) → (⟨S128, .f32⟩ : BufTy).Contents (Elt F)) ]
/-- The buffers sg_L4_mean writes. -/
def W_L4_mean : List (Ref sig .tc) := [main_cst_34, main_v328, main_cst_35, main_v329, main_v330]

/-- layer 4, stage var, in window main_part6: 23 operations. -/
def sg_L4_var : List (HloOp τ sig (Elt F)) :=
  [ nullary main_c_36 (constantI S_ 32 0#32),
    nullary main_call19_cst (constant S_ .f32 0x00000000#32),
    binary main_v327 main_call19_cst main_call19_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call19_v0 main_call19_v1 ((broadcastInDim S1x128 ![1] bcast_S128_S1x128_1) : (⟨S128, .f32⟩ : BufTy).Contents (Elt F) → (⟨S1x128, .f32⟩ : BufTy).Contents (Elt F)),
    nullary main_call19_cst_0 (constant S_ .f32 0x47435000#32),
    unary main_call19_cst_0 main_call19_v2 ((broadcastInDim S1x128 ![] bcast_S_S1x128) : (⟨S_, .f32⟩ : BufTy).Contents (Elt F) → (⟨S1x128, .f32⟩ : BufTy).Contents (Elt F)),
    binary main_call19_v1 main_call19_v2 main_call19_v3 ((Host.divf) : (⟨S1x128, .f32⟩ : BufTy).Contents (Elt F) → (⟨S1x128, .f32⟩ : BufTy).Contents (Elt F) → (⟨S1x128, .f32⟩ : BufTy).Contents (Elt F)),
    unary main_call19_v3 main_call19_v4 ((broadcastInDim S50000x128 ![0, 1] bcast_S1x128_S50000x128_0_1) : (⟨S1x128, .f32⟩ : BufTy).Contents (Elt F) → (⟨S50000x128, .f32⟩ : BufTy).Contents (Elt F)),
    binary main_v327 main_call19_v4 main_call19_v5 ((subf) : (⟨S50000x128, .f32⟩ : BufTy).Contents (Elt F) → (⟨S50000x128, .f32⟩ : BufTy).Contents (Elt F) → (⟨S50000x128, .f32⟩ : BufTy).Contents (Elt F)),
    binary main_call19_v5 main_call19_v5 main_call19_v6 ((mulf) : (⟨S50000x128, .f32⟩ : BufTy).Contents (Elt F) → (⟨S50000x128, .f32⟩ : BufTy).Contents (Elt F) → (⟨S50000x128, .f32⟩ : BufTy).Contents (Elt F)),
    unary main_c_36 main_call19_v7 ((sitofp .f32) : (⟨S_, .i32⟩ : BufTy).Contents (Elt F) → (⟨S_, .f32⟩ : BufTy).Contents (Elt F)),
    nullary main_call19_cst_1 (constant S_ .f32 0x47435000#32),
    binary main_call19_cst_1 main_call19_v7 main_call19_v8 ((subf) : (⟨S_, .f32⟩ : BufTy).Contents (Elt F) → (⟨S_, .f32⟩ : BufTy).Contents (Elt F) → (⟨S_, .f32⟩ : BufTy).Contents (Elt F)),
    nullary main_call19_cst_2 (constant S_ .f32 0x00000000#32),
    binary main_call19_v6 main_call19_cst_2 main_call19_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call19_v8 main_call19_v10 ((broadcastInDim S128 ![] bcast_S_S128) : (⟨S_, .f32⟩ : BufTy).Contents (Elt F) → (⟨S128, .f32⟩ : BufTy).Contents (Elt F)),
    binary main_call19_v9 main_call19_v10 main_call19_v11 ((Host.divf) : (⟨S128, .f32⟩ : BufTy).Contents (Elt F) → (⟨S128, .f32⟩ : BufTy).Contents (Elt F) → (⟨S128, .f32⟩ : BufTy).Contents (Elt F)),
    nullary main_call19_cst_3 (constant S_ .f32 0x00000000#32),
    binary main_call19_v8 main_call19_cst_3 main_call19_v12 ((cmpf .ogt) : (⟨S_, .f32⟩ : BufTy).Contents (Elt F) → (⟨S_, .f32⟩ : BufTy).Contents (Elt F) → (⟨S_, .i1⟩ : BufTy).Contents (Elt F)),
    nullary main_call19_cst_4 (constant S_ .f32 0x7FC00000#32),
    unary main_call19_cst_4 main_call19_call0_v0 ((id) : (⟨S_, .f32⟩ : BufTy).Contents (Elt F) → (⟨S_, .f32⟩ : BufTy).Contents (Elt F)),
    unary main_call19_call0_v0 main_call19_call0_v1 ((broadcastInDim S128 ![] bcast_S_S128) : (⟨S_, .f32⟩ : BufTy).Contents (Elt F) → (⟨S128, .f32⟩ : BufTy).Contents (Elt F)),
    ternary main_call19_v12 main_call19_v11 main_call19_call0_v1 main_v331 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]
/-- The buffers sg_L4_var writes. -/
def W_L4_var : List (Ref sig .tc) := [main_c_36, main_call19_cst, main_call19_v0, main_call19_v1, main_call19_cst_0, main_call19_v2, main_call19_v3, main_call19_v4, main_call19_v5, main_call19_v6, main_call19_v7, main_call19_cst_1, main_call19_v8, main_call19_cst_2, main_call19_v9, main_call19_v10, main_call19_v11, main_call19_cst_3, main_call19_v12, main_call19_cst_4, main_call19_call0_v0, main_call19_call0_v1, main_v331]

/-- layer 4, stage bn, in window main_part6: 24 operations. -/
def sg_L4_bn : List (HloOp τ sig (Elt F)) :=
  [ unary main_v330 main_v332 (broadcastInDim S1x128 ![1] bcast_S128_S1x128_1 : (⟨S128, .f32⟩ : BufTy).Contents (Elt F) → (⟨S1x128, .f32⟩ : BufTy).Contents (Elt F)),
    unary main_v332 main_v333 (broadcastInDim S50000x128 ![0, 1] bcast_S1x128_S50000x128_0_1 : (⟨S1x128, .f32⟩ : BufTy).Contents (Elt F) → (⟨S50000x128, .f32⟩ : BufTy).Contents (Elt F)),
    binary main_v327 main_v333 main_v334 (subf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x3727C5AC#32),
    unary main_cst_37 main_v335 (broadcastInDim S128 ![] bcast_S_S128 : (⟨S_, .f32⟩ : BufTy).Contents (Elt F) → (⟨S128, .f32⟩ : BufTy).Contents (Elt F)),
    binary main_v331 main_v335 main_v336 (addf : (⟨S128, .f32⟩ : BufTy).Contents (Elt F) → (⟨S128, .f32⟩ : BufTy).Contents (Elt F) → (⟨S128, .f32⟩ : BufTy).Contents (Elt F)),
    unary main_v336 main_v337 (Host.rsqrt : (⟨S128, .f32⟩ : BufTy).Contents (Elt F) → (⟨S128, .f32⟩ : BufTy).Contents (Elt F)),
    unary main_v337 main_v338 (broadcastInDim S1x128 ![1] bcast_S128_S1x128_1 : (⟨S128, .f32⟩ : BufTy).Contents (Elt F) → (⟨S1x128, .f32⟩ : BufTy).Contents (Elt F)),
    unary main_v338 main_v339 (broadcastInDim S50000x128 ![0, 1] bcast_S1x128_S50000x128_0_1 : (⟨S1x128, .f32⟩ : BufTy).Contents (Elt F) → (⟨S50000x128, .f32⟩ : BufTy).Contents (Elt F)),
    binary main_v334 main_v339 main_v340 (mulf : (⟨S50000x128, .f32⟩ : BufTy).Contents (Elt F) → (⟨S50000x128, .f32⟩ : BufTy).Contents (Elt F) → (⟨S50000x128, .f32⟩ : BufTy).Contents (Elt F)),
    unary main_arg15 main_v341 ((extractStridedSlice S1x128 ![4, 0] · slices_S5x128_S1x128_4_0) : (⟨S5x128, .f32⟩ : BufTy).Contents (Elt F) → (⟨S1x128, .f32⟩ : BufTy).Contents (Elt F)),
    reshape main_v341 main_v342 rfl shapeCasts_S1x128_S128,
    unary main_v342 main_v343 (broadcastInDim S1x128 ![1] bcast_S128_S1x128_1 : (⟨S128, .f32⟩ : BufTy).Contents (Elt F) → (⟨S1x128, .f32⟩ : BufTy).Contents (Elt F)),
    unary main_v343 main_v344 (broadcastInDim S50000x128 ![0, 1] bcast_S1x128_S50000x128_0_1 : (⟨S1x128, .f32⟩ : BufTy).Contents (Elt F) → (⟨S50000x128, .f32⟩ : BufTy).Contents (Elt F)),
    binary main_v340 main_v344 main_v345 (mulf : (⟨S50000x128, .f32⟩ : BufTy).Contents (Elt F) → (⟨S50000x128, .f32⟩ : BufTy).Contents (Elt F) → (⟨S50000x128, .f32⟩ : BufTy).Contents (Elt F)),
    unary main_arg16 main_v346 ((extractStridedSlice S1x128 ![4, 0] · slices_S5x128_S1x128_4_0) : (⟨S5x128, .f32⟩ : BufTy).Contents (Elt F) → (⟨S1x128, .f32⟩ : BufTy).Contents (Elt F)),
    reshape main_v346 main_v347 rfl shapeCasts_S1x128_S128,
    unary main_v347 main_v348 (broadcastInDim S1x128 ![1] bcast_S128_S1x128_1 : (⟨S128, .f32⟩ : BufTy).Contents (Elt F) → (⟨S1x128, .f32⟩ : BufTy).Contents (Elt F)),
    unary main_v348 main_v349 (broadcastInDim S50000x128 ![0, 1] bcast_S1x128_S50000x128_0_1 : (⟨S1x128, .f32⟩ : BufTy).Contents (Elt F) → (⟨S50000x128, .f32⟩ : BufTy).Contents (Elt F)),
    binary main_v345 main_v349 main_v350 (addf : (⟨S50000x128, .f32⟩ : BufTy).Contents (Elt F) → (⟨S50000x128, .f32⟩ : BufTy).Contents (Elt F) → (⟨S50000x128, .f32⟩ : BufTy).Contents (Elt F)),
    binary main_v350 main_v284 main_v351 (addf : (⟨S50000x128, .f32⟩ : BufTy).Contents (Elt F) → (⟨S50000x128, .f32⟩ : BufTy).Contents (Elt F) → (⟨S50000x128, .f32⟩ : BufTy).Contents (Elt F)),
    nullary main_call20_cst (constant S_ .f32 0x00000000#32),
    unary main_call20_cst main_call20_v0 ((broadcastInDim S50000x128 ![] bcast_S_S50000x128) : (⟨S_, .f32⟩ : BufTy).Contents (Elt F) → (⟨S50000x128, .f32⟩ : BufTy).Contents (Elt F)),
    binary main_v351 main_call20_v0 main_v352 ((maximumf) : (⟨S50000x128, .f32⟩ : BufTy).Contents (Elt F) → (⟨S50000x128, .f32⟩ : BufTy).Contents (Elt F) → (⟨S50000x128, .f32⟩ : BufTy).Contents (Elt F)) ]
/-- The buffers sg_L4_bn writes. -/
def W_L4_bn : List (Ref sig .tc) := [main_v332, main_v333, main_v334, main_cst_37, main_v335, main_v336, main_v337, main_v338, main_v339, main_v340, main_v341, main_v342, main_v343, main_v344, main_v345, main_v346, main_v347, main_v348, main_v349, main_v350, main_v351, main_call20_cst, main_call20_v0, main_v352]

/-- stage pooled, in window main_part6: 16 operations. -/
def sg_pooled : List (HloOp τ sig (Elt F)) :=
  [ nullary main_cst_38 (constant S_ .f32 0x3F800000#32),
    unary main_cst_38 main_v353 (broadcastInDim S50000 ![] bcast_S_S50000 : (⟨S_, .f32⟩ : BufTy).Contents (Elt F) → (⟨S50000, .f32⟩ : BufTy).Contents (Elt F)),
    nullary main_cst_39 (constant S_ .f32 0x00000000#32),
    unary main_cst_39 main_v354 (broadcastInDim S128 ![] bcast_S_S128 : (⟨S_, .f32⟩ : BufTy).Contents (Elt F) → (⟨S128, .f32⟩ : BufTy).Contents (Elt F)),
    unary main_arg3 main_v355 (broadcastInDim S50000x1 ![0] bcast_S50000_S50000x1_0 : (⟨S50000, .i32⟩ : BufTy).Contents (Elt F) → (⟨S50000x1, .i32⟩ : BufTy).Contents (Elt F)),
    ternary main_v354 main_v355 main_v353 main_v356 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    nullary main_cst_40 (constant S_ .f32 0x00000000#32),
    unary main_cst_40 main_v357 (broadcastInDim S128x128 ![] bcast_S_S128x128 : (⟨S_, .f32⟩ : BufTy).Contents (Elt F) → (⟨S128x128, .f32⟩ : BufTy).Contents (Elt F)),
    unary main_arg3 main_v358 (broadcastInDim S50000x1 ![0] bcast_S50000_S50000x1_0 : (⟨S50000, .i32⟩ : BufTy).Contents (Elt F) → (⟨S50000x1, .i32⟩ : BufTy).Contents (Elt F)),
    ternary main_v357 main_v358 main_v352 main_v359 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_41 (constant S_ .f32 0x3F800000#32),
    unary main_cst_41 main_v360 (broadcastInDim S128 ![] bcast_S_S128 : (⟨S_, .f32⟩ : BufTy).Contents (Elt F) → (⟨S128, .f32⟩ : BufTy).Contents (Elt F)),
    binary main_v356 main_v360 main_v361 (maximumf : (⟨S128, .f32⟩ : BufTy).Contents (Elt F) → (⟨S128, .f32⟩ : BufTy).Contents (Elt F) → (⟨S128, .f32⟩ : BufTy).Contents (Elt F)),
    unary main_v361 main_v362 (broadcastInDim S128x1 ![0] bcast_S128_S128x1_0 : (⟨S128, .f32⟩ : BufTy).Contents (Elt F) → (⟨S128x1, .f32⟩ : BufTy).Contents (Elt F)),
    unary main_v362 main_v363 (broadcastInDim S128x128 ![0, 1] bcast_S128x1_S128x128_0_1 : (⟨S128x1, .f32⟩ : BufTy).Contents (Elt F) → (⟨S128x128, .f32⟩ : BufTy).Contents (Elt F)),
    binary main_v359 main_v363 main_v364 (Host.divf : (⟨S128x128, .f32⟩ : BufTy).Contents (Elt F) → (⟨S128x128, .f32⟩ : BufTy).Contents (Elt F) → (⟨S128x128, .f32⟩ : BufTy).Contents (Elt F)) ]
/-- The buffers sg_pooled writes. -/
def W_pooled : List (Ref sig .tc) := [main_cst_38, main_v353, main_cst_39, main_v354, main_v355, main_v356, main_cst_40, main_v357, main_v358, main_v359, main_cst_41, main_v360, main_v361, main_v362, main_v363, main_v364]

/-- stage logits, in window main_part6: 11 operations. -/
def sg_logits : List (HloOp τ sig (Elt F)) :=
  [ binary main_v364 main_arg17 main_v365 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    unary main_arg18 main_v366 (broadcastInDim S1x64 ![1] bcast_S64_S1x64_1 : (⟨S64, .f32⟩ : BufTy).Contents (Elt F) → (⟨S1x64, .f32⟩ : BufTy).Contents (Elt F)),
    unary main_v366 main_v367 (broadcastInDim S128x64 ![0, 1] bcast_S1x64_S128x64_0_1 : (⟨S1x64, .f32⟩ : BufTy).Contents (Elt F) → (⟨S128x64, .f32⟩ : BufTy).Contents (Elt F)),
    binary main_v365 main_v367 main_v368 (addf : (⟨S128x64, .f32⟩ : BufTy).Contents (Elt F) → (⟨S128x64, .f32⟩ : BufTy).Contents (Elt F) → (⟨S128x64, .f32⟩ : BufTy).Contents (Elt F)),
    nullary main_call21_cst (constant S_ .f32 0x00000000#32),
    unary main_call21_cst main_call21_v0 ((broadcastInDim S128x64 ![] bcast_S_S128x64) : (⟨S_, .f32⟩ : BufTy).Contents (Elt F) → (⟨S128x64, .f32⟩ : BufTy).Contents (Elt F)),
    binary main_v368 main_call21_v0 main_v369 ((maximumf) : (⟨S128x64, .f32⟩ : BufTy).Contents (Elt F) → (⟨S128x64, .f32⟩ : BufTy).Contents (Elt F) → (⟨S128x64, .f32⟩ : BufTy).Contents (Elt F)),
    binary main_v369 main_arg19 main_v370 ((fun l r => Host.dotGeneral dot_S128x64_S64x128_S128x128_1_0_0_1_n_n none l r) : (⟨S128x64, .f32⟩ : BufTy).Contents (Elt F) → (⟨S64x128, .f32⟩ : BufTy).Contents (Elt F) → (⟨S128x128, .f32⟩ : BufTy).Contents (Elt F)),
    unary main_arg20 main_v371 (broadcastInDim S1x128 ![1] bcast_S128_S1x128_1 : (⟨S128, .f32⟩ : BufTy).Contents (Elt F) → (⟨S1x128, .f32⟩ : BufTy).Contents (Elt F)),
    unary main_v371 main_v372 (broadcastInDim S128x128 ![0, 1] bcast_S1x128_S128x128_0_1 : (⟨S1x128, .f32⟩ : BufTy).Contents (Elt F) → (⟨S128x128, .f32⟩ : BufTy).Contents (Elt F)),
    binary main_v370 main_v372 main_v373 (addf : (⟨S128x128, .f32⟩ : BufTy).Contents (Elt F) → (⟨S128x128, .f32⟩ : BufTy).Contents (Elt F) → (⟨S128x128, .f32⟩ : BufTy).Contents (Elt F)) ]
/-- The buffers sg_logits writes. -/
def W_logits : List (Ref sig .tc) := [main_v365, main_v366, main_v367, main_v368, main_call21_cst, main_call21_v0, main_v369, main_v370, main_v371, main_v372, main_v373]

/-- The operations of window main_part0. -/
def ops_part0 : List (HloOp τ sig (Elt F)) := sg_idx ++ (sg_encn ++ (sg_ence ++ (sg_L0_src ++ (sg_L0_msg ++ (sg_L0_agg ++ (sg_L0_pre ++ (sg_L0_mlp)))))))

/-- The operations of window main_part1. -/
def ops_part1 : List (HloOp τ sig (Elt F)) := sg_L0_mean ++ (sg_L0_var ++ (sg_L0_bn ++ (sg_L1_src ++ (sg_L1_msg ++ (sg_L1_agg ++ (sg_L1_pre ++ (sg_L1_mlpa)))))))

/-- The operations of window main_part2. -/
def ops_part2 : List (HloOp τ sig (Elt F)) := sg_L1_mlpb ++ (sg_L1_mean ++ (sg_L1_var ++ (sg_L1_bn ++ (sg_L2_src ++ (sg_L2_msga)))))

/-- The operations of window main_part3. -/
def ops_part3 : List (HloOp τ sig (Elt F)) := sg_L2_msgb ++ (sg_L2_agg ++ (sg_L2_pre ++ (sg_L2_mlp ++ (sg_L2_mean ++ (sg_L2_var ++ (sg_L2_bna))))))

/-- The operations of window main_part4. -/
def ops_part4 : List (HloOp τ sig (Elt F)) := sg_L2_bnb ++ (sg_L3_src ++ (sg_L3_msg ++ (sg_L3_agg ++ (sg_L3_pre ++ (sg_L3_mlp ++ (sg_L3_mean ++ (sg_L3_var ++ (sg_L3_bna))))))))

/-- The operations of window main_part5. -/
def ops_part5 : List (HloOp τ sig (Elt F)) := sg_L3_bnb ++ (sg_L4_src ++ (sg_L4_msg ++ (sg_L4_agg ++ (sg_L4_pre ++ (sg_L4_mlpa)))))

/-- The operations of window main_part6. -/
def ops_part6 : List (HloOp τ sig (Elt F)) := sg_L4_mlpb ++ (sg_L4_mean ++ (sg_L4_var ++ (sg_L4_bn ++ (sg_pooled ++ (sg_logits)))))

/-- All 557 operations, in order. -/
def ops : List (HloOp τ sig (Elt F)) := ops_part0 ++ (ops_part1 ++ (ops_part2 ++ (ops_part3 ++ (ops_part4 ++ (ops_part5 ++ (ops_part6))))))

end Cert.ReferenceIdeal.RefRun

end
-- ==== Proof.RefRun.MainEq.lean ====
import proofs.«105345_j19885698580760_2_alg».proof.Proof.RefRun.Ops

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! The program is the straight line of its operations: window by window (the called functions' definitions unfold
    at their calls, the call records at their fields, the typed references' transports are the identity at these
    literal references), then the windows joined. -/

set_option maxRecDepth 8192 in
set_option maxHeartbeats 4000000 in
theorem main_part0_eq (c : Dev nD) : main_part0 (F := F) c = seq ops_part0 := rfl

set_option maxRecDepth 8192 in
set_option maxHeartbeats 4000000 in
theorem main_part1_eq (c : Dev nD) : main_part1 (F := F) c = seq ops_part1 := rfl

set_option maxRecDepth 8192 in
set_option maxHeartbeats 4000000 in
theorem main_part2_eq (c : Dev nD) : main_part2 (F := F) c = seq ops_part2 := rfl

set_option maxRecDepth 8192 in
set_option maxHeartbeats 4000000 in
theorem main_part3_eq (c : Dev nD) : main_part3 (F := F) c = seq ops_part3 := rfl

set_option maxRecDepth 8192 in
set_option maxHeartbeats 4000000 in
theorem main_part4_eq (c : Dev nD) : main_part4 (F := F) c = seq ops_part4 := rfl

set_option maxRecDepth 8192 in
set_option maxHeartbeats 4000000 in
theorem main_part5_eq (c : Dev nD) : main_part5 (F := F) c = seq ops_part5 := rfl

set_option maxRecDepth 8192 in
set_option maxHeartbeats 4000000 in
theorem main_part6_eq (c : Dev nD) : main_part6 (F := F) c = seq ops_part6 := rfl

set_option maxRecDepth 8192 in
theorem main_eq (c : Dev nD) : main (F := F) c = seq ops := by
  simp only [ops, seq_append, ← main_part0_eq c, ← main_part1_eq c, ← main_part2_eq c, ← main_part3_eq c, ← main_part4_eq c,
    ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRun.SegFacts.lean ====
import proofs.«105345_j19885698580760_2_alg».proof.Proof.RefRun.Ops
import Idealize.ShloMosaic.Lib.Pipeline.Frame

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! The side conditions of the operation lists: every operation touches TensorCore references only and determines
    its results, and each list writes only the buffers listed beside it. Stated per list, then joined along the
    concatenations. -/

theorem fa {α : Type} {p : α → Prop} {l₁ l₂ : List α} (h₁ : ∀ x ∈ l₁, p x) (h₂ : ∀ x ∈ l₂, p x) :
    ∀ x ∈ l₁ ++ l₂, p x := List.forall_mem_append.mpr ⟨h₁, h₂⟩

/-- The operations of `l` write only buffers of the list `W`. -/
def KeepsOf (l : List (HloOp τ sig (Elt F))) (W : List (Ref sig .tc)) : Prop :=
  ∀ op ∈ l, op.writes ⊆ (W.map (Proc.devRef (τ := τ) .tc)).toFinset

theorem KeepsOf.append {l₁ l₂ : List (HloOp τ sig (Elt F))} {W₁ W₂ : List (Ref sig .tc)} (h₁ : KeepsOf l₁ W₁)
    (h₂ : KeepsOf l₂ W₂) : KeepsOf (l₁ ++ l₂) (W₁ ++ W₂) := by
  intro op hop x hx
  rw [List.map_append, List.toFinset_append, Finset.mem_union]
  rcases List.mem_append.mp hop with h | h
  · exact Or.inl (h₁ op h hx)
  · exact Or.inr (h₂ op h hx)

/-- A buffer outside the list keeps its contents through the operations. -/
theorem KeepsOf.keep {l : List (HloOp τ sig (Elt F))} {W : List (Ref sig .tc)} (h : KeepsOf l W) (V : Valuation τ sig (Elt F))
    {r : Ref sig .tc} (hr : r ∉ W) : after l V (Proc.devRef .tc r) = V (Proc.devRef .tc r) :=
  after_of_writes_sub l V (List.forall_iff_forall_mem.mpr h) hr

set_option hygiene false in
/-- The three facts of one literal list: its operations touch TensorCore references only (each builder's
    `_bufs_sub`), determine their results, and write only the listed buffers (each builder's `_writes`). -/
macro "seg_facts " s:ident w:ident : command => do
  let sub := Lean.mkIdent (s.getId.appendAfter "_sub")
  let fresh := Lean.mkIdent (s.getId.appendAfter "_fresh")
  let writes := Lean.mkIdent (s.getId.appendAfter "_writes")
  `(theorem $sub : ∀ op ∈ ($s : List (HloOp τ sig (Elt F))), op.bufs ⊆ tcRefs τ sig :=
      List.forall_iff_forall_mem.mp (by
        unfold $s
        simp only [List.Forall, nullary_bufs_sub, unary_bufs_sub, binary_bufs_sub, ternary_bufs_sub, reshape_bufs_sub, and_self])
    theorem $fresh : ∀ op ∈ ($s : List (HloOp τ sig (Elt F))), op.fresh = ∅ :=
      List.forall_iff_forall_mem.mp (by
        unfold $s
        simp only [List.Forall]
        repeat' apply And.intro
        all_goals rfl)
    theorem $writes : KeepsOf ($s : List (HloOp τ sig (Elt F))) $w :=
      List.forall_iff_forall_mem.mp (by
        unfold $s $w
        simp only [List.Forall, nullary_writes, unary_writes, binary_writes, ternary_writes, reshape_writes,
          Finset.singleton_subset_iff, List.mem_toFinset]
        repeat' apply And.intro
        all_goals exact List.mem_map_of_mem (by decide)))

seg_facts sg_idx W_idx
seg_facts sg_encn W_encn
seg_facts sg_ence W_ence
seg_facts sg_L0_src W_L0_src
seg_facts sg_L0_msg W_L0_msg
seg_facts sg_L0_agg W_L0_agg
seg_facts sg_L0_pre W_L0_pre
seg_facts sg_L0_mlp W_L0_mlp
seg_facts sg_L0_mean W_L0_mean
seg_facts sg_L0_var W_L0_var
seg_facts sg_L0_bn W_L0_bn
seg_facts sg_L1_src W_L1_src
seg_facts sg_L1_msg W_L1_msg
seg_facts sg_L1_agg W_L1_agg
seg_facts sg_L1_pre W_L1_pre
seg_facts sg_L1_mlpa W_L1_mlpa
seg_facts sg_L1_mlpb W_L1_mlpb
seg_facts sg_L1_mean W_L1_mean
seg_facts sg_L1_var W_L1_var
seg_facts sg_L1_bn W_L1_bn
seg_facts sg_L2_src W_L2_src
seg_facts sg_L2_msga W_L2_msga
seg_facts sg_L2_msgb W_L2_msgb
seg_facts sg_L2_agg W_L2_agg
seg_facts sg_L2_pre W_L2_pre
seg_facts sg_L2_mlp W_L2_mlp
seg_facts sg_L2_mean W_L2_mean
seg_facts sg_L2_var W_L2_var
seg_facts sg_L2_bna W_L2_bna
seg_facts sg_L2_bnb W_L2_bnb
seg_facts sg_L3_src W_L3_src
seg_facts sg_L3_msg W_L3_msg
seg_facts sg_L3_agg W_L3_agg
seg_facts sg_L3_pre W_L3_pre
seg_facts sg_L3_mlp W_L3_mlp
seg_facts sg_L3_mean W_L3_mean
seg_facts sg_L3_var W_L3_var
seg_facts sg_L3_bna W_L3_bna
seg_facts sg_L3_bnb W_L3_bnb
seg_facts sg_L4_src W_L4_src
seg_facts sg_L4_msg W_L4_msg
seg_facts sg_L4_agg W_L4_agg
seg_facts sg_L4_pre W_L4_pre
seg_facts sg_L4_mlpa W_L4_mlpa
seg_facts sg_L4_mlpb W_L4_mlpb
seg_facts sg_L4_mean W_L4_mean
seg_facts sg_L4_var W_L4_var
seg_facts sg_L4_bn W_L4_bn
seg_facts sg_pooled W_pooled
seg_facts sg_logits W_logits

/-! ## Window by window -/

def W_part0 : List (Ref sig .tc) := W_idx ++ (W_encn ++ (W_ence ++ (W_L0_src ++ (W_L0_msg ++ (W_L0_agg ++ (W_L0_pre ++ (W_L0_mlp)))))))
theorem ops_part0_sub : ∀ op ∈ (ops_part0 : List (HloOp τ sig (Elt F))), op.bufs ⊆ tcRefs τ sig := by
  unfold ops_part0; exact fa sg_idx_sub (fa sg_encn_sub (fa sg_ence_sub (fa sg_L0_src_sub (fa sg_L0_msg_sub (fa sg_L0_agg_sub (fa sg_L0_pre_sub (sg_L0_mlp_sub)))))))
theorem ops_part0_fresh : ∀ op ∈ (ops_part0 : List (HloOp τ sig (Elt F))), op.fresh = ∅ := by
  unfold ops_part0; exact fa sg_idx_fresh (fa sg_encn_fresh (fa sg_ence_fresh (fa sg_L0_src_fresh (fa sg_L0_msg_fresh (fa sg_L0_agg_fresh (fa sg_L0_pre_fresh (sg_L0_mlp_fresh)))))))
theorem ops_part0_writes : KeepsOf (ops_part0 : List (HloOp τ sig (Elt F))) W_part0 := by
  unfold ops_part0 W_part0; exact KeepsOf.append sg_idx_writes (KeepsOf.append sg_encn_writes (KeepsOf.append sg_ence_writes (KeepsOf.append sg_L0_src_writes (KeepsOf.append sg_L0_msg_writes (KeepsOf.append sg_L0_agg_writes (KeepsOf.append sg_L0_pre_writes (sg_L0_mlp_writes)))))))

def W_part1 : List (Ref sig .tc) := W_L0_mean ++ (W_L0_var ++ (W_L0_bn ++ (W_L1_src ++ (W_L1_msg ++ (W_L1_agg ++ (W_L1_pre ++ (W_L1_mlpa)))))))
theorem ops_part1_sub : ∀ op ∈ (ops_part1 : List (HloOp τ sig (Elt F))), op.bufs ⊆ tcRefs τ sig := by
  unfold ops_part1; exact fa sg_L0_mean_sub (fa sg_L0_var_sub (fa sg_L0_bn_sub (fa sg_L1_src_sub (fa sg_L1_msg_sub (fa sg_L1_agg_sub (fa sg_L1_pre_sub (sg_L1_mlpa_sub)))))))
theorem ops_part1_fresh : ∀ op ∈ (ops_part1 : List (HloOp τ sig (Elt F))), op.fresh = ∅ := by
  unfold ops_part1; exact fa sg_L0_mean_fresh (fa sg_L0_var_fresh (fa sg_L0_bn_fresh (fa sg_L1_src_fresh (fa sg_L1_msg_fresh (fa sg_L1_agg_fresh (fa sg_L1_pre_fresh (sg_L1_mlpa_fresh)))))))
theorem ops_part1_writes : KeepsOf (ops_part1 : List (HloOp τ sig (Elt F))) W_part1 := by
  unfold ops_part1 W_part1; exact KeepsOf.append sg_L0_mean_writes (KeepsOf.append sg_L0_var_writes (KeepsOf.append sg_L0_bn_writes (KeepsOf.append sg_L1_src_writes (KeepsOf.append sg_L1_msg_writes (KeepsOf.append sg_L1_agg_writes (KeepsOf.append sg_L1_pre_writes (sg_L1_mlpa_writes)))))))

def W_part2 : List (Ref sig .tc) := W_L1_mlpb ++ (W_L1_mean ++ (W_L1_var ++ (W_L1_bn ++ (W_L2_src ++ (W_L2_msga)))))
theorem ops_part2_sub : ∀ op ∈ (ops_part2 : List (HloOp τ sig (Elt F))), op.bufs ⊆ tcRefs τ sig := by
  unfold ops_part2; exact fa sg_L1_mlpb_sub (fa sg_L1_mean_sub (fa sg_L1_var_sub (fa sg_L1_bn_sub (fa sg_L2_src_sub (sg_L2_msga_sub)))))
theorem ops_part2_fresh : ∀ op ∈ (ops_part2 : List (HloOp τ sig (Elt F))), op.fresh = ∅ := by
  unfold ops_part2; exact fa sg_L1_mlpb_fresh (fa sg_L1_mean_fresh (fa sg_L1_var_fresh (fa sg_L1_bn_fresh (fa sg_L2_src_fresh (sg_L2_msga_fresh)))))
theorem ops_part2_writes : KeepsOf (ops_part2 : List (HloOp τ sig (Elt F))) W_part2 := by
  unfold ops_part2 W_part2; exact KeepsOf.append sg_L1_mlpb_writes (KeepsOf.append sg_L1_mean_writes (KeepsOf.append sg_L1_var_writes (KeepsOf.append sg_L1_bn_writes (KeepsOf.append sg_L2_src_writes (sg_L2_msga_writes)))))

def W_part3 : List (Ref sig .tc) := W_L2_msgb ++ (W_L2_agg ++ (W_L2_pre ++ (W_L2_mlp ++ (W_L2_mean ++ (W_L2_var ++ (W_L2_bna))))))
theorem ops_part3_sub : ∀ op ∈ (ops_part3 : List (HloOp τ sig (Elt F))), op.bufs ⊆ tcRefs τ sig := by
  unfold ops_part3; exact fa sg_L2_msgb_sub (fa sg_L2_agg_sub (fa sg_L2_pre_sub (fa sg_L2_mlp_sub (fa sg_L2_mean_sub (fa sg_L2_var_sub (sg_L2_bna_sub))))))
theorem ops_part3_fresh : ∀ op ∈ (ops_part3 : List (HloOp τ sig (Elt F))), op.fresh = ∅ := by
  unfold ops_part3; exact fa sg_L2_msgb_fresh (fa sg_L2_agg_fresh (fa sg_L2_pre_fresh (fa sg_L2_mlp_fresh (fa sg_L2_mean_fresh (fa sg_L2_var_fresh (sg_L2_bna_fresh))))))
theorem ops_part3_writes : KeepsOf (ops_part3 : List (HloOp τ sig (Elt F))) W_part3 := by
  unfold ops_part3 W_part3; exact KeepsOf.append sg_L2_msgb_writes (KeepsOf.append sg_L2_agg_writes (KeepsOf.append sg_L2_pre_writes (KeepsOf.append sg_L2_mlp_writes (KeepsOf.append sg_L2_mean_writes (KeepsOf.append sg_L2_var_writes (sg_L2_bna_writes))))))

def W_part4 : List (Ref sig .tc) := W_L2_bnb ++ (W_L3_src ++ (W_L3_msg ++ (W_L3_agg ++ (W_L3_pre ++ (W_L3_mlp ++ (W_L3_mean ++ (W_L3_var ++ (W_L3_bna))))))))
theorem ops_part4_sub : ∀ op ∈ (ops_part4 : List (HloOp τ sig (Elt F))), op.bufs ⊆ tcRefs τ sig := by
  unfold ops_part4; exact fa sg_L2_bnb_sub (fa sg_L3_src_sub (fa sg_L3_msg_sub (fa sg_L3_agg_sub (fa sg_L3_pre_sub (fa sg_L3_mlp_sub (fa sg_L3_mean_sub (fa sg_L3_var_sub (sg_L3_bna_sub))))))))
theorem ops_part4_fresh : ∀ op ∈ (ops_part4 : List (HloOp τ sig (Elt F))), op.fresh = ∅ := by
  unfold ops_part4; exact fa sg_L2_bnb_fresh (fa sg_L3_src_fresh (fa sg_L3_msg_fresh (fa sg_L3_agg_fresh (fa sg_L3_pre_fresh (fa sg_L3_mlp_fresh (fa sg_L3_mean_fresh (fa sg_L3_var_fresh (sg_L3_bna_fresh))))))))
theorem ops_part4_writes : KeepsOf (ops_part4 : List (HloOp τ sig (Elt F))) W_part4 := by
  unfold ops_part4 W_part4; exact KeepsOf.append sg_L2_bnb_writes (KeepsOf.append sg_L3_src_writes (KeepsOf.append sg_L3_msg_writes (KeepsOf.append sg_L3_agg_writes (KeepsOf.append sg_L3_pre_writes (KeepsOf.append sg_L3_mlp_writes (KeepsOf.append sg_L3_mean_writes (KeepsOf.append sg_L3_var_writes (sg_L3_bna_writes))))))))

def W_part5 : List (Ref sig .tc) := W_L3_bnb ++ (W_L4_src ++ (W_L4_msg ++ (W_L4_agg ++ (W_L4_pre ++ (W_L4_mlpa)))))
theorem ops_part5_sub : ∀ op ∈ (ops_part5 : List (HloOp τ sig (Elt F))), op.bufs ⊆ tcRefs τ sig := by
  unfold ops_part5; exact fa sg_L3_bnb_sub (fa sg_L4_src_sub (fa sg_L4_msg_sub (fa sg_L4_agg_sub (fa sg_L4_pre_sub (sg_L4_mlpa_sub)))))
theorem ops_part5_fresh : ∀ op ∈ (ops_part5 : List (HloOp τ sig (Elt F))), op.fresh = ∅ := by
  unfold ops_part5; exact fa sg_L3_bnb_fresh (fa sg_L4_src_fresh (fa sg_L4_msg_fresh (fa sg_L4_agg_fresh (fa sg_L4_pre_fresh (sg_L4_mlpa_fresh)))))
theorem ops_part5_writes : KeepsOf (ops_part5 : List (HloOp τ sig (Elt F))) W_part5 := by
  unfold ops_part5 W_part5; exact KeepsOf.append sg_L3_bnb_writes (KeepsOf.append sg_L4_src_writes (KeepsOf.append sg_L4_msg_writes (KeepsOf.append sg_L4_agg_writes (KeepsOf.append sg_L4_pre_writes (sg_L4_mlpa_writes)))))

def W_part6 : List (Ref sig .tc) := W_L4_mlpb ++ (W_L4_mean ++ (W_L4_var ++ (W_L4_bn ++ (W_pooled ++ (W_logits)))))
theorem ops_part6_sub : ∀ op ∈ (ops_part6 : List (HloOp τ sig (Elt F))), op.bufs ⊆ tcRefs τ sig := by
  unfold ops_part6; exact fa sg_L4_mlpb_sub (fa sg_L4_mean_sub (fa sg_L4_var_sub (fa sg_L4_bn_sub (fa sg_pooled_sub (sg_logits_sub)))))
theorem ops_part6_fresh : ∀ op ∈ (ops_part6 : List (HloOp τ sig (Elt F))), op.fresh = ∅ := by
  unfold ops_part6; exact fa sg_L4_mlpb_fresh (fa sg_L4_mean_fresh (fa sg_L4_var_fresh (fa sg_L4_bn_fresh (fa sg_pooled_fresh (sg_logits_fresh)))))
theorem ops_part6_writes : KeepsOf (ops_part6 : List (HloOp τ sig (Elt F))) W_part6 := by
  unfold ops_part6 W_part6; exact KeepsOf.append sg_L4_mlpb_writes (KeepsOf.append sg_L4_mean_writes (KeepsOf.append sg_L4_var_writes (KeepsOf.append sg_L4_bn_writes (KeepsOf.append sg_pooled_writes (sg_logits_writes)))))

/-! ## The whole program -/

/-- Every buffer the program writes. -/
def W_all : List (Ref sig .tc) := W_part0 ++ (W_part1 ++ (W_part2 ++ (W_part3 ++ (W_part4 ++ (W_part5 ++ (W_part6))))))

theorem ops_sub : (ops : List (HloOp τ sig (Elt F))).Forall fun op => op.bufs ⊆ tcRefs τ sig :=
  List.forall_iff_forall_mem.mpr (by unfold ops; exact fa ops_part0_sub (fa ops_part1_sub (fa ops_part2_sub (fa ops_part3_sub (fa ops_part4_sub (fa ops_part5_sub (ops_part6_sub)))))))
theorem ops_fresh : ∀ op ∈ (ops : List (HloOp τ sig (Elt F))), op.fresh = ∅ := by
  unfold ops; exact fa ops_part0_fresh (fa ops_part1_fresh (fa ops_part2_fresh (fa ops_part3_fresh (fa ops_part4_fresh (fa ops_part5_fresh (ops_part6_fresh))))))
theorem ops_writes : KeepsOf (ops : List (HloOp τ sig (Elt F))) W_all := by
  unfold ops W_all; exact KeepsOf.append ops_part0_writes (KeepsOf.append ops_part1_writes (KeepsOf.append ops_part2_writes (KeepsOf.append ops_part3_writes (KeepsOf.append ops_part4_writes (KeepsOf.append ops_part5_writes (ops_part6_writes))))))

end Cert.ReferenceIdeal.RefRun

end
-- ==== Proof.RefRun.Frame.lean ====
import proofs.«105345_j19885698580760_2_alg».proof.Proof.RefRun.MainEq
import proofs.«105345_j19885698580760_2_alg».proof.Proof.RefRun.SegFacts

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! The run of the whole program, and the argument arrays unchanged by it. -/

/-- From any memory with zero counters every weakly fair execution of the program terminates, and every buffer of
    every device ends at the fold of the operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer the program never writes keeps its contents. -/
theorem ops_keep (V : Valuation τ sig (Elt F)) {r : Ref sig .tc} (h : r ∉ W_all) :
    after ops V (Proc.devRef .tc r) = V (Proc.devRef .tc r) := ops_writes.keep V h

set_option maxRecDepth 16384 in
theorem main_arg0_not_written : main_arg0 ∉ W_all := by decide
set_option maxRecDepth 16384 in
theorem main_arg1_not_written : main_arg1 ∉ W_all := by decide
set_option maxRecDepth 16384 in
theorem main_arg2_not_written : main_arg2 ∉ W_all := by decide
set_option maxRecDepth 16384 in
theorem main_arg3_not_written : main_arg3 ∉ W_all := by decide
set_option maxRecDepth 16384 in
theorem main_arg4_not_written : main_arg4 ∉ W_all := by decide
set_option maxRecDepth 16384 in
theorem main_arg5_not_written : main_arg5 ∉ W_all := by decide
set_option maxRecDepth 16384 in
theorem main_arg6_not_written : main_arg6 ∉ W_all := by decide
set_option maxRecDepth 16384 in
theorem main_arg7_not_written : main_arg7 ∉ W_all := by decide
set_option maxRecDepth 16384 in
theorem main_arg8_not_written : main_arg8 ∉ W_all := by decide
set_option maxRecDepth 16384 in
theorem main_arg9_not_written : main_arg9 ∉ W_all := by decide
set_option maxRecDepth 16384 in
theorem main_arg10_not_written : main_arg10 ∉ W_all := by decide
set_option maxRecDepth 16384 in
theorem main_arg11_not_written : main_arg11 ∉ W_all := by decide
set_option maxRecDepth 16384 in
theorem main_arg12_not_written : main_arg12 ∉ W_all := by decide
set_option maxRecDepth 16384 in
theorem main_arg13_not_written : main_arg13 ∉ W_all := by decide
set_option maxRecDepth 16384 in
theorem main_arg14_not_written : main_arg14 ∉ W_all := by decide
set_option maxRecDepth 16384 in
theorem main_arg15_not_written : main_arg15 ∉ W_all := by decide
set_option maxRecDepth 16384 in
theorem main_arg16_not_written : main_arg16 ∉ W_all := by decide
set_option maxRecDepth 16384 in
theorem main_arg17_not_written : main_arg17 ∉ W_all := by decide
set_option maxRecDepth 16384 in
theorem main_arg18_not_written : main_arg18 ∉ W_all := by decide
set_option maxRecDepth 16384 in
theorem main_arg19_not_written : main_arg19 ∉ W_all := by decide
set_option maxRecDepth 16384 in
theorem main_arg20_not_written : main_arg20 ∉ W_all := by decide

/-- The program terminates and leaves its 21 argument arrays as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_arg0).trans (ops_keep _ main_arg0_not_written),
      (h c main_arg1).trans (ops_keep _ main_arg1_not_written),
      (h c main_arg2).trans (ops_keep _ main_arg2_not_written),
      (h c main_arg3).trans (ops_keep _ main_arg3_not_written),
      (h c main_arg4).trans (ops_keep _ main_arg4_not_written),
      (h c main_arg5).trans (ops_keep _ main_arg5_not_written),
      (h c main_arg6).trans (ops_keep _ main_arg6_not_written),
      (h c main_arg7).trans (ops_keep _ main_arg7_not_written),
      (h c main_arg8).trans (ops_keep _ main_arg8_not_written),
      (h c main_arg9).trans (ops_keep _ main_arg9_not_written),
      (h c main_arg10).trans (ops_keep _ main_arg10_not_written),
      (h c main_arg11).trans (ops_keep _ main_arg11_not_written),
      (h c main_arg12).trans (ops_keep _ main_arg12_not_written),
      (h c main_arg13).trans (ops_keep _ main_arg13_not_written),
      (h c main_arg14).trans (ops_keep _ main_arg14_not_written),
      (h c main_arg15).trans (ops_keep _ main_arg15_not_written),
      (h c main_arg16).trans (ops_keep _ main_arg16_not_written),
      (h c main_arg17).trans (ops_keep _ main_arg17_not_written),
      (h c main_arg18).trans (ops_keep _ main_arg18_not_written),
      (h c main_arg19).trans (ops_keep _ main_arg19_not_written),
      (h c main_arg20).trans (ops_keep _ main_arg20_not_written)⟩)
    (run_all m ρ)

end Cert.ReferenceIdeal.RefRun

end
-- ==== Proof.RefRun.Stages.lean ====
/- The stages of the reference program, each the printed operations composed over exactly the arrays it reads.
   The five layers run the same stages; they differ only in which slice of the stacked parameters they read. -/
import proofs.«105345_j19885698580760_2_alg».proof.ReferenceIdeal

noncomputable section

namespace Cert.ReferenceIdeal.RefRun

open Cert.ReferenceIdeal Cert.ReferenceIdeal.Facts₀ Cert.ReferenceIdeal.Facts Idealize.ShloMosaic Idealize.SL.Sem

variable {F : FTy → Type} [FloatOps F] [Facts]

/-- The contents of an f32 tensor of shape `s`. -/
abbrev Tf (F : FTy → Type) (s : Shape) : Type := (⟨s, .f32⟩ : BufTy).Contents (Elt F)
/-- The contents of an i32 tensor of shape `s`. -/
abbrev Ti (F : FTy → Type) (s : Shape) : Type := (⟨s, .i32⟩ : BufTy).Contents (Elt F)

/-! ## Encoders -/

/-- Node encoder: `relu (x · W + b)`. -/
def enc_node (x : Tf F S50000x64) (w : Tf F S64x128) (b : Tf F S128) : Tf F S50000x128 :=
  maximumf
    (addf (Host.dotGeneral dot_S50000x64_S64x128_S50000x128_1_0_0_1_n_n none x w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- Edge encoder: `a · W + b`. -/
def enc_edge (a : Tf F S640000x16) (w : Tf F S16x128) (b : Tf F S128) : Tf F S640000x128 :=
  addf (Host.dotGeneral dot_S640000x16_S16x128_S640000x128_1_0_0_1_n_n none a w)
    (broadcastInDim S640000x128 ![0, 1] bcast_S1x128_S640000x128_0_1 (broadcastInDim S1x128 ![1] bcast_S128_S1x128_1 b))

/-! ## The edge list -/

/-- Row 0 of the edge list: the source node of every edge. -/
def src_row (ei : Ti F S2x640000) : Ti F S640000 :=
  shapeCast S640000 (extractStridedSlice S1x640000 ![0, 0] ei slices_S2x640000_S1x640000_0_0) shapeCasts_S1x640000_S640000

/-- Row 1 of the edge list: the destination node of every edge. -/
def dst_row (ei : Ti F S2x640000) : Ti F S640000 :=
  shapeCast S640000 (extractStridedSlice S1x640000 ![1, 0] ei slices_S2x640000_S1x640000_1_0) shapeCasts_S1x640000_S640000

/-- A negative index counts from the end (50000 is added to it); then a column of indices. -/
def src_wrap (s : Ti F S640000) : Ti F S640000x1 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- The destinations as a column of indices. -/
def dst_col (d : Ti F S640000) : Ti F S640000x1 :=
  broadcastInDim S640000x1 ![0] bcast_S640000_S640000x1_0 d

/-- The gather's index column, from the edge list. -/
def src_of (ei : Ti F S2x640000) : Ti F S640000x1 := src_wrap (src_row ei)
/-- The scatter's index column, from the edge list. -/
def dst_of (ei : Ti F S2x640000) : Ti F S640000x1 := dst_col (dst_row ei)

/-! ## Layer `l`'s slice of a stacked parameter -/

theorem slices_5x128x128 (l : Fin 5) : S5x128x128.Slices ![(l : ℕ), 0, 0] S1x128x128 := by
  fin_cases l
  exacts [slices_S5x128x128_S1x128x128_0_0_0, slices_S5x128x128_S1x128x128_1_0_0, slices_S5x128x128_S1x128x128_2_0_0,
    slices_S5x128x128_S1x128x128_3_0_0, slices_S5x128x128_S1x128x128_4_0_0]
theorem slices_5x128 (l : Fin 5) : S5x128.Slices ![(l : ℕ), 0] S1x128 := by
  fin_cases l
  exacts [slices_S5x128_S1x128_0_0, slices_S5x128_S1x128_1_0, slices_S5x128_S1x128_2_0, slices_S5x128_S1x128_3_0,
    slices_S5x128_S1x128_4_0]
theorem slices_5 (l : Fin 5) : S5.Slices ![(l : ℕ)] S1 := by
  fin_cases l
  exacts [slices_S5_S1_0, slices_S5_S1_1, slices_S5_S1_2, slices_S5_S1_3, slices_S5_S1_4]
theorem slices_5x128x256 (l : Fin 5) : S5x128x256.Slices ![(l : ℕ), 0, 0] S1x128x256 := by
  fin_cases l
  exacts [slices_S5x128x256_S1x128x256_0_0_0, slices_S5x128x256_S1x128x256_1_0_0, slices_S5x128x256_S1x128x256_2_0_0,
    slices_S5x128x256_S1x128x256_3_0_0, slices_S5x128x256_S1x128x256_4_0_0]
theorem slices_5x256 (l : Fin 5) : S5x256.Slices ![(l : ℕ), 0] S1x256 := by
  fin_cases l
  exacts [slices_S5x256_S1x256_0_0, slices_S5x256_S1x256_1_0, slices_S5x256_S1x256_2_0, slices_S5x256_S1x256_3_0,
    slices_S5x256_S1x256_4_0]
theorem slices_5x256x128 (l : Fin 5) : S5x256x128.Slices ![(l : ℕ), 0, 0] S1x256x128 := by
  fin_cases l
  exacts [slices_S5x256x128_S1x256x128_0_0_0, slices_S5x256x128_S1x256x128_1_0_0, slices_S5x256x128_S1x256x128_2_0_0,
    slices_S5x256x128_S1x256x128_3_0_0, slices_S5x256x128_S1x256x128_4_0_0]

/-- Matrix `l` of a stack of five 128×128 matrices (the message's edge weights, argument 9). -/
def par_lin_w (l : Fin 5) (a : Tf F S5x128x128) : Tf F S128x128 :=
  shapeCast S128x128 (extractStridedSlice S1x128x128 ![(l : ℕ), 0, 0] a (slices_5x128x128 l)) shapeCasts_S1x128x128_S128x128
/-- Row `l` of a stack of five 128-vectors (arguments 10, 14, 15, 16). -/
def par_row128 (l : Fin 5) (a : Tf F S5x128) : Tf F S128 :=
  shapeCast S128 (extractStridedSlice S1x128 ![(l : ℕ), 0] a (slices_5x128 l)) shapeCasts_S1x128_S128
/-- The message's bias (argument 10). -/
abbrev par_lin_b (l : Fin 5) (a : Tf F S5x128) : Tf F S128 := par_row128 l a
/-- The second MLP bias (argument 14). -/
abbrev par_b2 (l : Fin 5) (a : Tf F S5x128) : Tf F S128 := par_row128 l a
/-- The normalization's scale (argument 15). -/
abbrev par_g (l : Fin 5) (a : Tf F S5x128) : Tf F S128 := par_row128 l a
/-- The normalization's shift (argument 16). -/
abbrev par_b (l : Fin 5) (a : Tf F S5x128) : Tf F S128 := par_row128 l a
/-- Entry `l` of the five self-loop weights (argument 8). -/
def par_eps (l : Fin 5) (a : Tf F S5) : Tf F S_ :=
  shapeCast S_ (extractStridedSlice S1 ![(l : ℕ)] a (slices_5 l)) shapeCasts_S1_S_
/-- Matrix `l` of a stack of five 128×256 matrices (argument 11). -/
def par_w1 (l : Fin 5) (a : Tf F S5x128x256) : Tf F S128x256 :=
  shapeCast S128x256 (extractStridedSlice S1x128x256 ![(l : ℕ), 0, 0] a (slices_5x128x256 l)) shapeCasts_S1x128x256_S128x256
/-- Row `l` of a stack of five 256-vectors (argument 12). -/
def par_b1 (l : Fin 5) (a : Tf F S5x256) : Tf F S256 :=
  shapeCast S256 (extractStridedSlice S1x256 ![(l : ℕ), 0] a (slices_5x256 l)) shapeCasts_S1x256_S256
/-- Matrix `l` of a stack of five 256×128 matrices (argument 13). -/
def par_w2 (l : Fin 5) (a : Tf F S5x256x128) : Tf F S256x128 :=
  shapeCast S256x128 (extractStridedSlice S1x256x128 ![(l : ℕ), 0, 0] a (slices_5x256x128 l)) shapeCasts_S1x256x128_S256x128

/-! ## One layer -/

/-- The messages: `relu (h[src] + e · W + b)`, one row per edge. -/
def lyr_msg (h : Tf F S50000x128) (e : Tf F S640000x128) (src : Ti F S640000x1) (lw : Tf F S128x128) (lb : Tf F S128) :
    Tf F S640000x128 :=
  maximumf
    (addf
      (addf (Host.gather gather_S50000x128_S640000x1_S640000x128_1_0_n_n_0_1_1128 h src)
        (Host.dotGeneral dot_S640000x128_S128x128_S640000x128_1_0_0_1_n_n none e lw))
      (broadcastInDim S640000x128 ![0, 1] bcast_S1x128_S640000x128_0_1 (broadcastInDim S1x128 ![1] bcast_S128_S1x128_1 lb)))
    (broadcastInDim S640000x128 ![] bcast_S_S640000x128 (constant S_ .f32 0x00000000#32))

/-- The messages summed into their destination rows, from zero. -/
def lyr_agg (m : Tf F S640000x128) (dst : Ti F S640000x1) : Tf F S50000x128 :=
  Host.scatterAdd scatter_S50000x128_S640000x1_S640000x128_1_0_0_1
    (broadcastInDim S50000x128 ![] bcast_S_S50000x128 (constant S_ .f32 0x00000000#32)) dst m

/-- `(1 + ε) · h + agg`. -/
def lyr_pre (eps : Tf F S_) (h agg : Tf F S50000x128) : Tf F S50000x128 :=
  addf (mulf (broadcastInDim S50000x128 ![] bcast_S_S50000x128 (addf (constant S_ .f32 0x3F800000#32) eps)) h) agg

/-- The two-layer perceptron: `relu (pre · W₁ + b₁) · W₂ + b₂`. -/
def lyr_mlp (pre : Tf F S50000x128) (w1 : Tf F S128x256) (b1 : Tf F S256) (w2 : Tf F S256x128) (b2 : Tf F S128) :
    Tf F S50000x128 :=
  addf
    (Host.dotGeneral dot_S50000x256_S256x128_S50000x128_1_0_0_1_n_n none
      (maximumf
        (addf (Host.dotGeneral dot_S50000x128_S128x256_S50000x256_1_0_0_1_n_n none pre w1)
          (broadcastInDim S50000x256 ![0, 1] bcast_S1x256_S50000x256_0_1 (broadcastInDim S1x256 ![1] bcast_S256_S1x256_1 b1)))
        (broadcastInDim S50000x256 ![] bcast_S_S50000x256 (constant S_ .f32 0x00000000#32)))
      w2)
    (broadcastInDim S50000x128 ![0, 1] bcast_S1x128_S50000x128_0_1 (broadcastInDim S1x128 ![1] bcast_S128_S1x128_1 b2))

/-- The column means: the column sums divided by 50000. -/
def lyr_mean (z : Tf F S50000x128) : Tf F S128 :=
  Host.divf (Host.reduceAdd z (constant S_ .f32 0x00000000#32) reducesTo_S50000x128_S128_d0 h_S_)
    (broadcastInDim S128 ![] bcast_S_S128 (constant S_ .f32 0x47435000#32))

/-- The variance's divisor: 50000 minus the correction 0, as a float. -/
def var_cnt : Tf F S_ :=
  subf (constant S_ .f32 0x47435000#32) (sitofp .f32 (constantI S_ 32 0#32))

/-- The variance's centred operand: `z` minus its column means (the means computed as a 1×128 row here). -/
def var_centered (z : Tf F S50000x128) : Tf F S50000x128 :=
  subf z
    (broadcastInDim S50000x128 ![0, 1] bcast_S1x128_S50000x128_0_1
      (Host.divf
        (broadcastInDim S1x128 ![1] bcast_S128_S1x128_1
          (Host.reduceAdd z (constant S_ .f32 0x00000000#32) reducesTo_S50000x128_S128_d0 h_S_))
        (broadcastInDim S1x128 ![] bcast_S_S1x128 (constant S_ .f32 0x47435000#32))))

/-- The column variances: the column sums of the squared centred operand over the divisor where the divisor is
    positive, NaN elsewhere. -/
def lyr_var (z : Tf F S50000x128) : Tf F S128 :=
  select (broadcastInDim S128 ![] bcast_S_S128 (cmpf .ogt (var_cnt (F := F)) (constant S_ .f32 0x00000000#32)))
    (Host.divf
      (Host.reduceAdd (mulf (var_centered z) (var_centered z)) (constant S_ .f32 0x00000000#32)
        reducesTo_S50000x128_S128_d0 h_S_)
      (broadcastInDim S128 ![] bcast_S_S128 (var_cnt (F := F))))
    (broadcastInDim S128 ![] bcast_S_S128 (id (constant S_ .f32 0x7FC00000#32)))

/-- Normalization, scale and shift, the residual and the relu: the next layer's node features. -/
def lyr_bn (z : Tf F S50000x128) (mean var g b : Tf F S128) (h : Tf F S50000x128) : Tf F S50000x128 :=
  maximumf
    (addf
      (addf
        (mulf
          (mulf
            (subf z
              (broadcastInDim S50000x128 ![0, 1] bcast_S1x128_S50000x128_0_1 (broadcastInDim S1x128 ![1] bcast_S128_S1x128_1 mean)))
            (broadcastInDim S50000x128 ![0, 1] bcast_S1x128_S50000x128_0_1
              (broadcastInDim S1x128 ![1] bcast_S128_S1x128_1
                (Host.rsqrt (addf var (broadcastInDim S128 ![] bcast_S_S128 (constant S_ .f32 0x3727C5AC#32)))))))
          (broadcastInDim S50000x128 ![0, 1] bcast_S1x128_S50000x128_0_1 (broadcastInDim S1x128 ![1] bcast_S128_S1x128_1 g)))
        (broadcastInDim S50000x128 ![0, 1] bcast_S1x128_S50000x128_0_1 (broadcastInDim S1x128 ![1] bcast_S128_S1x128_1 b)))
      h)
    (broadcastInDim S50000x128 ![] bcast_S_S50000x128 (constant S_ .f32 0x00000000#32))

/-! ## After the fifth layer -/

/-- Mean pooling over the graphs: the per-graph sums of the node features over the per-graph node counts
    (at least 1). -/
def tail_pooled (h : Tf F S50000x128) (batch : Ti F S50000) : Tf F S128x128 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch) h)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 batch)
            (broadcastInDim S50000 ![] bcast_S_S50000 (constant S_ .f32 0x3F800000#32)))
          (broadcastInDim S128 ![] bcast_S_S128 (constant S_ .f32 0x3F800000#32)))))

/-- The output head: `relu (pooled · W₁ + b₁) · W₂ + b₂`. -/
def tail_logits (pooled : Tf F S128x128) (w1 : Tf F S128x64) (b1 : Tf F S64) (w2 : Tf F S64x128) (b2 : Tf F S128) :
    Tf F S128x128 :=
  addf
    (Host.dotGeneral dot_S128x64_S64x128_S128x128_1_0_0_1_n_n none
      (maximumf
        (addf (Host.dotGeneral dot_S128x128_S128x64_S128x64_1_0_0_1_n_n none pooled w1)
          (broadcastInDim S128x64 ![0, 1] bcast_S1x64_S128x64_0_1 (broadcastInDim S1x64 ![1] bcast_S64_S1x64_1 b1)))
        (broadcastInDim S128x64 ![] bcast_S_S128x64 (constant S_ .f32 0x00000000#32)))
      w2)
    (broadcastInDim S128x128 ![0, 1] bcast_S1x128_S128x128_0_1 (broadcastInDim S1x128 ![1] bcast_S128_S1x128_1 b2))

end Cert.ReferenceIdeal.RefRun

end
-- ==== Proof.RefRun.Step.lean ====
/- One layer as a function of the contents it reads: the stages composed. -/
import proofs.«105345_j19885698580760_2_alg».proof.Proof.RefRun.Stages

noncomputable section

namespace Cert.ReferenceIdeal.RefRun

open Cert.ReferenceIdeal Cert.ReferenceIdeal.Facts₀ Cert.ReferenceIdeal.Facts Idealize.ShloMosaic Idealize.SL.Sem

variable {F : FTy → Type} [FloatOps F] [Facts]

/-- Layer `l`'s perceptron output, from the node features, the encoded edge features, the two rows of the edge list
    and the stacked parameters. -/
def layerZ (l : Fin 5) (h : Tf F S50000x128) (e : Tf F S640000x128) (s d : Ti F S640000) (eps : Tf F S5)
    (lw : Tf F S5x128x128) (lb : Tf F S5x128) (w1 : Tf F S5x128x256) (b1 : Tf F S5x256) (w2 : Tf F S5x256x128)
    (b2 : Tf F S5x128) : Tf F S50000x128 :=
  lyr_mlp
    (lyr_pre (par_eps l eps) h
      (lyr_agg (lyr_msg h e (src_wrap s) (par_lin_w l lw) (par_lin_b l lb)) (dst_col d)))
    (par_w1 l w1) (par_b1 l b1) (par_w2 l w2) (par_b2 l b2)

/-- Layer `l`'s output: the next node features. -/
def layerOut (l : Fin 5) (h : Tf F S50000x128) (e : Tf F S640000x128) (s d : Ti F S640000) (eps : Tf F S5)
    (lw : Tf F S5x128x128) (lb : Tf F S5x128) (w1 : Tf F S5x128x256) (b1 : Tf F S5x256) (w2 : Tf F S5x256x128)
    (b2 g b : Tf F S5x128) : Tf F S50000x128 :=
  lyr_bn (layerZ l h e s d eps lw lb w1 b1 w2 b2) (lyr_mean (layerZ l h e s d eps lw lb w1 b1 w2 b2))
    (lyr_var (layerZ l h e s d eps lw lb w1 b1 w2 b2)) (par_g l g) (par_b l b) h

end Cert.ReferenceIdeal.RefRun

end
-- ==== Proof.RefRun.Lay0.lean ====
import proofs.«105345_j19885698580760_2_alg».proof.Proof.RefRun.SegFacts
import proofs.«105345_j19885698580760_2_alg».proof.Proof.RefRun.Step

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! Layer 0: what each stage's operations leave at the stage's result buffer, from any contents; then the layer
    as one list. -/

theorem sg_L0_src_keep (V : Valuation τ sig (Elt F)) {r : Ref sig .tc} (h : r ∉ W_L0_src) :
    after sg_L0_src V (no_index (Proc.devRef .tc r)) = V (Proc.devRef .tc r) := sg_L0_src_writes.keep V h
theorem sg_L0_msg_keep (V : Valuation τ sig (Elt F)) {r : Ref sig .tc} (h : r ∉ W_L0_msg) :
    after sg_L0_msg V (no_index (Proc.devRef .tc r)) = V (Proc.devRef .tc r) := sg_L0_msg_writes.keep V h
theorem sg_L0_agg_keep (V : Valuation τ sig (Elt F)) {r : Ref sig .tc} (h : r ∉ W_L0_agg) :
    after sg_L0_agg V (no_index (Proc.devRef .tc r)) = V (Proc.devRef .tc r) := sg_L0_agg_writes.keep V h
theorem sg_L0_pre_keep (V : Valuation τ sig (Elt F)) {r : Ref sig .tc} (h : r ∉ W_L0_pre) :
    after sg_L0_pre V (no_index (Proc.devRef .tc r)) = V (Proc.devRef .tc r) := sg_L0_pre_writes.keep V h
theorem sg_L0_mlp_keep (V : Valuation τ sig (Elt F)) {r : Ref sig .tc} (h : r ∉ W_L0_mlp) :
    after sg_L0_mlp V (no_index (Proc.devRef .tc r)) = V (Proc.devRef .tc r) := sg_L0_mlp_writes.keep V h
theorem sg_L0_mean_keep (V : Valuation τ sig (Elt F)) {r : Ref sig .tc} (h : r ∉ W_L0_mean) :
    after sg_L0_mean V (no_index (Proc.devRef .tc r)) = V (Proc.devRef .tc r) := sg_L0_mean_writes.keep V h
theorem sg_L0_var_keep (V : Valuation τ sig (Elt F)) {r : Ref sig .tc} (h : r ∉ W_L0_var) :
    after sg_L0_var V (no_index (Proc.devRef .tc r)) = V (Proc.devRef .tc r) := sg_L0_var_writes.keep V h
theorem sg_L0_bn_keep (V : Valuation τ sig (Elt F)) {r : Ref sig .tc} (h : r ∉ W_L0_bn) :
    after sg_L0_bn V (no_index (Proc.devRef .tc r)) = V (Proc.devRef .tc r) := sg_L0_bn_writes.keep V h

theorem L0_src_res (V : Valuation τ sig (Elt F)) :
    after sg_L0_src V (no_index (Proc.devRef .tc main_v18))
      = src_wrap (V (Proc.devRef .tc main_v1)) := by
  unfold sg_L0_src
  after_results_simp <;> rfl

set_option maxHeartbeats 1000000 in
theorem L0_msg_res (V : Valuation τ sig (Elt F)) :
    after sg_L0_msg V (no_index (Proc.devRef .tc main_v29))
      = lyr_msg (V (Proc.devRef .tc main_v8)) (V (Proc.devRef .tc main_v12)) (V (Proc.devRef .tc main_v18)) (par_lin_w 0 (V (Proc.devRef .tc main_arg9))) (par_lin_b 0 (V (Proc.devRef .tc main_arg10))) := by
  unfold sg_L0_msg
  after_results_simp <;> rfl

theorem L0_agg_res (V : Valuation τ sig (Elt F)) :
    after sg_L0_agg V (no_index (Proc.devRef .tc main_v32))
      = lyr_agg (V (Proc.devRef .tc main_v29)) (dst_col (V (Proc.devRef .tc main_v3))) := by
  unfold sg_L0_agg
  after_results_simp <;> rfl

theorem L0_pre_res (V : Valuation τ sig (Elt F)) :
    after sg_L0_pre V (no_index (Proc.devRef .tc main_v38))
      = lyr_pre (par_eps 0 (V (Proc.devRef .tc main_arg8))) (V (Proc.devRef .tc main_v8)) (V (Proc.devRef .tc main_v32)) := by
  unfold sg_L0_pre
  after_results_simp <;> rfl

set_option maxHeartbeats 2000000 in
theorem L0_mlp_res (V : Valuation τ sig (Elt F)) :
    after sg_L0_mlp V (no_index (Proc.devRef .tc main_v55))
      = lyr_mlp (V (Proc.devRef .tc main_v38)) (par_w1 0 (V (Proc.devRef .tc main_arg11))) (par_b1 0 (V (Proc.devRef .tc main_arg12))) (par_w2 0 (V (Proc.devRef .tc main_arg13))) (par_b2 0 (V (Proc.devRef .tc main_arg14))) := by
  unfold sg_L0_mlp
  after_results_simp <;> rfl

theorem L0_mean_res (V : Valuation τ sig (Elt F)) :
    after sg_L0_mean V (no_index (Proc.devRef .tc main_v58))
      = lyr_mean (V (Proc.devRef .tc main_v55)) := by
  unfold sg_L0_mean
  after_results_simp <;> rfl

set_option maxHeartbeats 4000000 in
theorem L0_var_res (V : Valuation τ sig (Elt F)) :
    after sg_L0_var V (no_index (Proc.devRef .tc main_v59))
      = lyr_var (V (Proc.devRef .tc main_v55)) := by
  unfold sg_L0_var
  after_results_simp <;> rfl

set_option maxHeartbeats 4000000 in
theorem L0_bn_res (V : Valuation τ sig (Elt F)) :
    after sg_L0_bn V (no_index (Proc.devRef .tc main_v80))
      = lyr_bn (V (Proc.devRef .tc main_v55)) (V (Proc.devRef .tc main_v58)) (V (Proc.devRef .tc main_v59)) (par_g 0 (V (Proc.devRef .tc main_arg15))) (par_b 0 (V (Proc.devRef .tc main_arg16))) (V (Proc.devRef .tc main_v8)) := by
  unfold sg_L0_bn
  after_results_simp <;> rfl

/-- Layer 0's operations. -/
def lay0 : List (HloOp τ sig (Elt F)) := sg_L0_src ++ (sg_L0_msg ++ (sg_L0_agg ++ (sg_L0_pre ++ (sg_L0_mlp ++ (sg_L0_mean ++ (sg_L0_var ++ (sg_L0_bn)))))))
/-- The buffers layer 0 writes. -/
def W_lay0 : List (Ref sig .tc) := W_L0_src ++ (W_L0_msg ++ (W_L0_agg ++ (W_L0_pre ++ (W_L0_mlp ++ (W_L0_mean ++ (W_L0_var ++ (W_L0_bn)))))))

theorem lay0_writes : KeepsOf (lay0 : List (HloOp τ sig (Elt F))) W_lay0 := by
  unfold lay0 W_lay0; exact KeepsOf.append sg_L0_src_writes (KeepsOf.append sg_L0_msg_writes (KeepsOf.append sg_L0_agg_writes (KeepsOf.append sg_L0_pre_writes (KeepsOf.append sg_L0_mlp_writes (KeepsOf.append sg_L0_mean_writes (KeepsOf.append sg_L0_var_writes (sg_L0_bn_writes)))))))

theorem lay0_keep (V : Valuation τ sig (Elt F)) {r : Ref sig .tc} (h : r ∉ W_lay0) :
    after lay0 V (no_index (Proc.devRef .tc r)) = V (Proc.devRef .tc r) := lay0_writes.keep V h

set_option maxHeartbeats 4000000 in
set_option maxRecDepth 8192 in
/-- Through layer 0: the next node features are the layer's function of what the layer reads. -/
theorem lay0_res (V : Valuation τ sig (Elt F)) :
    after lay0 V (no_index (Proc.devRef .tc main_v80))
      = layerOut 0 (V (Proc.devRef .tc main_v8)) (V (Proc.devRef .tc main_v12)) (V (Proc.devRef .tc main_v1)) (V (Proc.devRef .tc main_v3)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold lay0
  simp only [after_append]
  simp (disch := decide) only [L0_bn_res, L0_var_res, L0_mean_res, L0_mlp_res, L0_pre_res, L0_agg_res, L0_msg_res, L0_src_res,
    sg_L0_src_keep, sg_L0_msg_keep, sg_L0_agg_keep, sg_L0_pre_keep, sg_L0_mlp_keep, sg_L0_mean_keep, sg_L0_var_keep, sg_L0_bn_keep]
  rfl

end Cert.ReferenceIdeal.RefRun

end
-- ==== Proof.RefRun.Lay1.lean ====
import proofs.«105345_j19885698580760_2_alg».proof.Proof.RefRun.SegFacts
import proofs.«105345_j19885698580760_2_alg».proof.Proof.RefRun.Step

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! Layer 1: what each stage's operations leave at the stage's result buffer, from any contents; then the layer
    as one list. -/

theorem sg_L1_src_keep (V : Valuation τ sig (Elt F)) {r : Ref sig .tc} (h : r ∉ W_L1_src) :
    after sg_L1_src V (no_index (Proc.devRef .tc r)) = V (Proc.devRef .tc r) := sg_L1_src_writes.keep V h
theorem sg_L1_msg_keep (V : Valuation τ sig (Elt F)) {r : Ref sig .tc} (h : r ∉ W_L1_msg) :
    after sg_L1_msg V (no_index (Proc.devRef .tc r)) = V (Proc.devRef .tc r) := sg_L1_msg_writes.keep V h
theorem sg_L1_agg_keep (V : Valuation τ sig (Elt F)) {r : Ref sig .tc} (h : r ∉ W_L1_agg) :
    after sg_L1_agg V (no_index (Proc.devRef .tc r)) = V (Proc.devRef .tc r) := sg_L1_agg_writes.keep V h
theorem sg_L1_pre_keep (V : Valuation τ sig (Elt F)) {r : Ref sig .tc} (h : r ∉ W_L1_pre) :
    after sg_L1_pre V (no_index (Proc.devRef .tc r)) = V (Proc.devRef .tc r) := sg_L1_pre_writes.keep V h
theorem sg_L1_mlpa_keep (V : Valuation τ sig (Elt F)) {r : Ref sig .tc} (h : r ∉ W_L1_mlpa) :
    after sg_L1_mlpa V (no_index (Proc.devRef .tc r)) = V (Proc.devRef .tc r) := sg_L1_mlpa_writes.keep V h
theorem sg_L1_mlpb_keep (V : Valuation τ sig (Elt F)) {r : Ref sig .tc} (h : r ∉ W_L1_mlpb) :
    after sg_L1_mlpb V (no_index (Proc.devRef .tc r)) = V (Proc.devRef .tc r) := sg_L1_mlpb_writes.keep V h
theorem sg_L1_mean_keep (V : Valuation τ sig (Elt F)) {r : Ref sig .tc} (h : r ∉ W_L1_mean) :
    after sg_L1_mean V (no_index (Proc.devRef .tc r)) = V (Proc.devRef .tc r) := sg_L1_mean_writes.keep V h
theorem sg_L1_var_keep (V : Valuation τ sig (Elt F)) {r : Ref sig .tc} (h : r ∉ W_L1_var) :
    after sg_L1_var V (no_index (Proc.devRef .tc r)) = V (Proc.devRef .tc r) := sg_L1_var_writes.keep V h
theorem sg_L1_bn_keep (V : Valuation τ sig (Elt F)) {r : Ref sig .tc} (h : r ∉ W_L1_bn) :
    after sg_L1_bn V (no_index (Proc.devRef .tc r)) = V (Proc.devRef .tc r) := sg_L1_bn_writes.keep V h

theorem L1_src_res (V : Valuation τ sig (Elt F)) :
    after sg_L1_src V (no_index (Proc.devRef .tc main_v86))
      = src_wrap (V (Proc.devRef .tc main_v1)) := by
  unfold sg_L1_src
  after_results_simp <;> rfl

set_option maxHeartbeats 1000000 in
theorem L1_msg_res (V : Valuation τ sig (Elt F)) :
    after sg_L1_msg V (no_index (Proc.devRef .tc main_v97))
      = lyr_msg (V (Proc.devRef .tc main_v80)) (V (Proc.devRef .tc main_v12)) (V (Proc.devRef .tc main_v86)) (par_lin_w 1 (V (Proc.devRef .tc main_arg9))) (par_lin_b 1 (V (Proc.devRef .tc main_arg10))) := by
  unfold sg_L1_msg
  after_results_simp <;> rfl

theorem L1_agg_res (V : Valuation τ sig (Elt F)) :
    after sg_L1_agg V (no_index (Proc.devRef .tc main_v100))
      = lyr_agg (V (Proc.devRef .tc main_v97)) (dst_col (V (Proc.devRef .tc main_v3))) := by
  unfold sg_L1_agg
  after_results_simp <;> rfl

theorem L1_pre_res (V : Valuation τ sig (Elt F)) :
    after sg_L1_pre V (no_index (Proc.devRef .tc main_v106))
      = lyr_pre (par_eps 1 (V (Proc.devRef .tc main_arg8))) (V (Proc.devRef .tc main_v80)) (V (Proc.devRef .tc main_v100)) := by
  unfold sg_L1_pre
  after_results_simp <;> rfl

set_option maxHeartbeats 2000000 in
theorem L1_mlp_res (V : Valuation τ sig (Elt F)) :
    after sg_L1_mlpb (after sg_L1_mlpa V) (no_index (Proc.devRef .tc main_v123))
      = lyr_mlp (V (Proc.devRef .tc main_v106)) (par_w1 1 (V (Proc.devRef .tc main_arg11))) (par_b1 1 (V (Proc.devRef .tc main_arg12))) (par_w2 1 (V (Proc.devRef .tc main_arg13))) (par_b2 1 (V (Proc.devRef .tc main_arg14))) := by
  unfold sg_L1_mlpa sg_L1_mlpb
  after_results_simp <;> rfl

theorem L1_mean_res (V : Valuation τ sig (Elt F)) :
    after sg_L1_mean V (no_index (Proc.devRef .tc main_v126))
      = lyr_mean (V (Proc.devRef .tc main_v123)) := by
  unfold sg_L1_mean
  after_results_simp <;> rfl

set_option maxHeartbeats 4000000 in
theorem L1_var_res (V : Valuation τ sig (Elt F)) :
    after sg_L1_var V (no_index (Proc.devRef .tc main_v127))
      = lyr_var (V (Proc.devRef .tc main_v123)) := by
  unfold sg_L1_var
  after_results_simp <;> rfl

set_option maxHeartbeats 4000000 in
theorem L1_bn_res (V : Valuation τ sig (Elt F)) :
    after sg_L1_bn V (no_index (Proc.devRef .tc main_v148))
      = lyr_bn (V (Proc.devRef .tc main_v123)) (V (Proc.devRef .tc main_v126)) (V (Proc.devRef .tc main_v127)) (par_g 1 (V (Proc.devRef .tc main_arg15))) (par_b 1 (V (Proc.devRef .tc main_arg16))) (V (Proc.devRef .tc main_v80)) := by
  unfold sg_L1_bn
  after_results_simp <;> rfl

/-- Layer 1's operations. -/
def lay1 : List (HloOp τ sig (Elt F)) := sg_L1_src ++ (sg_L1_msg ++ (sg_L1_agg ++ (sg_L1_pre ++ (sg_L1_mlpa ++ (sg_L1_mlpb ++ (sg_L1_mean ++ (sg_L1_var ++ (sg_L1_bn))))))))
/-- The buffers layer 1 writes. -/
def W_lay1 : List (Ref sig .tc) := W_L1_src ++ (W_L1_msg ++ (W_L1_agg ++ (W_L1_pre ++ (W_L1_mlpa ++ (W_L1_mlpb ++ (W_L1_mean ++ (W_L1_var ++ (W_L1_bn))))))))

theorem lay1_writes : KeepsOf (lay1 : List (HloOp τ sig (Elt F))) W_lay1 := by
  unfold lay1 W_lay1; exact KeepsOf.append sg_L1_src_writes (KeepsOf.append sg_L1_msg_writes (KeepsOf.append sg_L1_agg_writes (KeepsOf.append sg_L1_pre_writes (KeepsOf.append sg_L1_mlpa_writes (KeepsOf.append sg_L1_mlpb_writes (KeepsOf.append sg_L1_mean_writes (KeepsOf.append sg_L1_var_writes (sg_L1_bn_writes))))))))

theorem lay1_keep (V : Valuation τ sig (Elt F)) {r : Ref sig .tc} (h : r ∉ W_lay1) :
    after lay1 V (no_index (Proc.devRef .tc r)) = V (Proc.devRef .tc r) := lay1_writes.keep V h

set_option maxHeartbeats 4000000 in
set_option maxRecDepth 8192 in
/-- Through layer 1: the next node features are the layer's function of what the layer reads. -/
theorem lay1_res (V : Valuation τ sig (Elt F)) :
    after lay1 V (no_index (Proc.devRef .tc main_v148))
      = layerOut 1 (V (Proc.devRef .tc main_v80)) (V (Proc.devRef .tc main_v12)) (V (Proc.devRef .tc main_v1)) (V (Proc.devRef .tc main_v3)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold lay1
  simp only [after_append]
  simp (disch := decide) only [L1_bn_res, L1_var_res, L1_mean_res, L1_mlp_res, L1_pre_res, L1_agg_res, L1_msg_res, L1_src_res,
    sg_L1_src_keep, sg_L1_msg_keep, sg_L1_agg_keep, sg_L1_pre_keep, sg_L1_mlpa_keep, sg_L1_mlpb_keep, sg_L1_mean_keep, sg_L1_var_keep, sg_L1_bn_keep]
  rfl

end Cert.ReferenceIdeal.RefRun

end
-- ==== Proof.RefRun.Lay2.lean ====
import proofs.«105345_j19885698580760_2_alg».proof.Proof.RefRun.SegFacts
import proofs.«105345_j19885698580760_2_alg».proof.Proof.RefRun.Step

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! Layer 2: what each stage's operations leave at the stage's result buffer, from any contents; then the layer
    as one list. -/

theorem sg_L2_src_keep (V : Valuation τ sig (Elt F)) {r : Ref sig .tc} (h : r ∉ W_L2_src) :
    after sg_L2_src V (no_index (Proc.devRef .tc r)) = V (Proc.devRef .tc r) := sg_L2_src_writes.keep V h
theorem sg_L2_msga_keep (V : Valuation τ sig (Elt F)) {r : Ref sig .tc} (h : r ∉ W_L2_msga) :
    after sg_L2_msga V (no_index (Proc.devRef .tc r)) = V (Proc.devRef .tc r) := sg_L2_msga_writes.keep V h
theorem sg_L2_msgb_keep (V : Valuation τ sig (Elt F)) {r : Ref sig .tc} (h : r ∉ W_L2_msgb) :
    after sg_L2_msgb V (no_index (Proc.devRef .tc r)) = V (Proc.devRef .tc r) := sg_L2_msgb_writes.keep V h
theorem sg_L2_agg_keep (V : Valuation τ sig (Elt F)) {r : Ref sig .tc} (h : r ∉ W_L2_agg) :
    after sg_L2_agg V (no_index (Proc.devRef .tc r)) = V (Proc.devRef .tc r) := sg_L2_agg_writes.keep V h
theorem sg_L2_pre_keep (V : Valuation τ sig (Elt F)) {r : Ref sig .tc} (h : r ∉ W_L2_pre) :
    after sg_L2_pre V (no_index (Proc.devRef .tc r)) = V (Proc.devRef .tc r) := sg_L2_pre_writes.keep V h
theorem sg_L2_mlp_keep (V : Valuation τ sig (Elt F)) {r : Ref sig .tc} (h : r ∉ W_L2_mlp) :
    after sg_L2_mlp V (no_index (Proc.devRef .tc r)) = V (Proc.devRef .tc r) := sg_L2_mlp_writes.keep V h
theorem sg_L2_mean_keep (V : Valuation τ sig (Elt F)) {r : Ref sig .tc} (h : r ∉ W_L2_mean) :
    after sg_L2_mean V (no_index (Proc.devRef .tc r)) = V (Proc.devRef .tc r) := sg_L2_mean_writes.keep V h
theorem sg_L2_var_keep (V : Valuation τ sig (Elt F)) {r : Ref sig .tc} (h : r ∉ W_L2_var) :
    after sg_L2_var V (no_index (Proc.devRef .tc r)) = V (Proc.devRef .tc r) := sg_L2_var_writes.keep V h
theorem sg_L2_bna_keep (V : Valuation τ sig (Elt F)) {r : Ref sig .tc} (h : r ∉ W_L2_bna) :
    after sg_L2_bna V (no_index (Proc.devRef .tc r)) = V (Proc.devRef .tc r) := sg_L2_bna_writes.keep V h
theorem sg_L2_bnb_keep (V : Valuation τ sig (Elt F)) {r : Ref sig .tc} (h : r ∉ W_L2_bnb) :
    after sg_L2_bnb V (no_index (Proc.devRef .tc r)) = V (Proc.devRef .tc r) := sg_L2_bnb_writes.keep V h

theorem L2_src_res (V : Valuation τ sig (Elt F)) :
    after sg_L2_src V (no_index (Proc.devRef .tc main_v154))
      = src_wrap (V (Proc.devRef .tc main_v1)) := by
  unfold sg_L2_src
  after_results_simp <;> rfl

set_option maxHeartbeats 1000000 in
theorem L2_msg_res (V : Valuation τ sig (Elt F)) :
    after sg_L2_msgb (after sg_L2_msga V) (no_index (Proc.devRef .tc main_v165))
      = lyr_msg (V (Proc.devRef .tc main_v148)) (V (Proc.devRef .tc main_v12)) (V (Proc.devRef .tc main_v154)) (par_lin_w 2 (V (Proc.devRef .tc main_arg9))) (par_lin_b 2 (V (Proc.devRef .tc main_arg10))) := by
  unfold sg_L2_msga sg_L2_msgb
  after_results_simp <;> rfl

theorem L2_agg_res (V : Valuation τ sig (Elt F)) :
    after sg_L2_agg V (no_index (Proc.devRef .tc main_v168))
      = lyr_agg (V (Proc.devRef .tc main_v165)) (dst_col (V (Proc.devRef .tc main_v3))) := by
  unfold sg_L2_agg
  after_results_simp <;> rfl

theorem L2_pre_res (V : Valuation τ sig (Elt F)) :
    after sg_L2_pre V (no_index (Proc.devRef .tc main_v174))
      = lyr_pre (par_eps 2 (V (Proc.devRef .tc main_arg8))) (V (Proc.devRef .tc main_v148)) (V (Proc.devRef .tc main_v168)) := by
  unfold sg_L2_pre
  after_results_simp <;> rfl

set_option maxHeartbeats 2000000 in
theorem L2_mlp_res (V : Valuation τ sig (Elt F)) :
    after sg_L2_mlp V (no_index (Proc.devRef .tc main_v191))
      = lyr_mlp (V (Proc.devRef .tc main_v174)) (par_w1 2 (V (Proc.devRef .tc main_arg11))) (par_b1 2 (V (Proc.devRef .tc main_arg12))) (par_w2 2 (V (Proc.devRef .tc main_arg13))) (par_b2 2 (V (Proc.devRef .tc main_arg14))) := by
  unfold sg_L2_mlp
  after_results_simp <;> rfl

theorem L2_mean_res (V : Valuation τ sig (Elt F)) :
    after sg_L2_mean V (no_index (Proc.devRef .tc main_v194))
      = lyr_mean (V (Proc.devRef .tc main_v191)) := by
  unfold sg_L2_mean
  after_results_simp <;> rfl

set_option maxHeartbeats 4000000 in
theorem L2_var_res (V : Valuation τ sig (Elt F)) :
    after sg_L2_var V (no_index (Proc.devRef .tc main_v195))
      = lyr_var (V (Proc.devRef .tc main_v191)) := by
  unfold sg_L2_var
  after_results_simp <;> rfl

set_option maxHeartbeats 4000000 in
theorem L2_bn_res (V : Valuation τ sig (Elt F)) :
    after sg_L2_bnb (after sg_L2_bna V) (no_index (Proc.devRef .tc main_v216))
      = lyr_bn (V (Proc.devRef .tc main_v191)) (V (Proc.devRef .tc main_v194)) (V (Proc.devRef .tc main_v195)) (par_g 2 (V (Proc.devRef .tc main_arg15))) (par_b 2 (V (Proc.devRef .tc main_arg16))) (V (Proc.devRef .tc main_v148)) := by
  unfold sg_L2_bna sg_L2_bnb
  after_results_simp <;> rfl

/-- Layer 2's operations. -/
def lay2 : List (HloOp τ sig (Elt F)) := sg_L2_src ++ (sg_L2_msga ++ (sg_L2_msgb ++ (sg_L2_agg ++ (sg_L2_pre ++ (sg_L2_mlp ++ (sg_L2_mean ++ (sg_L2_var ++ (sg_L2_bna ++ (sg_L2_bnb)))))))))
/-- The buffers layer 2 writes. -/
def W_lay2 : List (Ref sig .tc) := W_L2_src ++ (W_L2_msga ++ (W_L2_msgb ++ (W_L2_agg ++ (W_L2_pre ++ (W_L2_mlp ++ (W_L2_mean ++ (W_L2_var ++ (W_L2_bna ++ (W_L2_bnb)))))))))

theorem lay2_writes : KeepsOf (lay2 : List (HloOp τ sig (Elt F))) W_lay2 := by
  unfold lay2 W_lay2; exact KeepsOf.append sg_L2_src_writes (KeepsOf.append sg_L2_msga_writes (KeepsOf.append sg_L2_msgb_writes (KeepsOf.append sg_L2_agg_writes (KeepsOf.append sg_L2_pre_writes (KeepsOf.append sg_L2_mlp_writes (KeepsOf.append sg_L2_mean_writes (KeepsOf.append sg_L2_var_writes (KeepsOf.append sg_L2_bna_writes (sg_L2_bnb_writes)))))))))

theorem lay2_keep (V : Valuation τ sig (Elt F)) {r : Ref sig .tc} (h : r ∉ W_lay2) :
    after lay2 V (no_index (Proc.devRef .tc r)) = V (Proc.devRef .tc r) := lay2_writes.keep V h

set_option maxHeartbeats 4000000 in
set_option maxRecDepth 8192 in
/-- Through layer 2: the next node features are the layer's function of what the layer reads. -/
theorem lay2_res (V : Valuation τ sig (Elt F)) :
    after lay2 V (no_index (Proc.devRef .tc main_v216))
      = layerOut 2 (V (Proc.devRef .tc main_v148)) (V (Proc.devRef .tc main_v12)) (V (Proc.devRef .tc main_v1)) (V (Proc.devRef .tc main_v3)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold lay2
  simp only [after_append]
  simp (disch := decide) only [L2_bn_res, L2_var_res, L2_mean_res, L2_mlp_res, L2_pre_res, L2_agg_res, L2_msg_res, L2_src_res,
    sg_L2_src_keep, sg_L2_msga_keep, sg_L2_msgb_keep, sg_L2_agg_keep, sg_L2_pre_keep, sg_L2_mlp_keep, sg_L2_mean_keep, sg_L2_var_keep, sg_L2_bna_keep, sg_L2_bnb_keep]
  rfl

end Cert.ReferenceIdeal.RefRun

end
-- ==== Proof.RefRun.Lay3.lean ====
import proofs.«105345_j19885698580760_2_alg».proof.Proof.RefRun.SegFacts
import proofs.«105345_j19885698580760_2_alg».proof.Proof.RefRun.Step

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! Layer 3: what each stage's operations leave at the stage's result buffer, from any contents; then the layer
    as one list. -/

theorem sg_L3_src_keep (V : Valuation τ sig (Elt F)) {r : Ref sig .tc} (h : r ∉ W_L3_src) :
    after sg_L3_src V (no_index (Proc.devRef .tc r)) = V (Proc.devRef .tc r) := sg_L3_src_writes.keep V h
theorem sg_L3_msg_keep (V : Valuation τ sig (Elt F)) {r : Ref sig .tc} (h : r ∉ W_L3_msg) :
    after sg_L3_msg V (no_index (Proc.devRef .tc r)) = V (Proc.devRef .tc r) := sg_L3_msg_writes.keep V h
theorem sg_L3_agg_keep (V : Valuation τ sig (Elt F)) {r : Ref sig .tc} (h : r ∉ W_L3_agg) :
    after sg_L3_agg V (no_index (Proc.devRef .tc r)) = V (Proc.devRef .tc r) := sg_L3_agg_writes.keep V h
theorem sg_L3_pre_keep (V : Valuation τ sig (Elt F)) {r : Ref sig .tc} (h : r ∉ W_L3_pre) :
    after sg_L3_pre V (no_index (Proc.devRef .tc r)) = V (Proc.devRef .tc r) := sg_L3_pre_writes.keep V h
theorem sg_L3_mlp_keep (V : Valuation τ sig (Elt F)) {r : Ref sig .tc} (h : r ∉ W_L3_mlp) :
    after sg_L3_mlp V (no_index (Proc.devRef .tc r)) = V (Proc.devRef .tc r) := sg_L3_mlp_writes.keep V h
theorem sg_L3_mean_keep (V : Valuation τ sig (Elt F)) {r : Ref sig .tc} (h : r ∉ W_L3_mean) :
    after sg_L3_mean V (no_index (Proc.devRef .tc r)) = V (Proc.devRef .tc r) := sg_L3_mean_writes.keep V h
theorem sg_L3_var_keep (V : Valuation τ sig (Elt F)) {r : Ref sig .tc} (h : r ∉ W_L3_var) :
    after sg_L3_var V (no_index (Proc.devRef .tc r)) = V (Proc.devRef .tc r) := sg_L3_var_writes.keep V h
theorem sg_L3_bna_keep (V : Valuation τ sig (Elt F)) {r : Ref sig .tc} (h : r ∉ W_L3_bna) :
    after sg_L3_bna V (no_index (Proc.devRef .tc r)) = V (Proc.devRef .tc r) := sg_L3_bna_writes.keep V h
theorem sg_L3_bnb_keep (V : Valuation τ sig (Elt F)) {r : Ref sig .tc} (h : r ∉ W_L3_bnb) :
    after sg_L3_bnb V (no_index (Proc.devRef .tc r)) = V (Proc.devRef .tc r) := sg_L3_bnb_writes.keep V h

theorem L3_src_res (V : Valuation τ sig (Elt F)) :
    after sg_L3_src V (no_index (Proc.devRef .tc main_v222))
      = src_wrap (V (Proc.devRef .tc main_v1)) := by
  unfold sg_L3_src
  after_results_simp <;> rfl

set_option maxHeartbeats 1000000 in
theorem L3_msg_res (V : Valuation τ sig (Elt F)) :
    after sg_L3_msg V (no_index (Proc.devRef .tc main_v233))
      = lyr_msg (V (Proc.devRef .tc main_v216)) (V (Proc.devRef .tc main_v12)) (V (Proc.devRef .tc main_v222)) (par_lin_w 3 (V (Proc.devRef .tc main_arg9))) (par_lin_b 3 (V (Proc.devRef .tc main_arg10))) := by
  unfold sg_L3_msg
  after_results_simp <;> rfl

theorem L3_agg_res (V : Valuation τ sig (Elt F)) :
    after sg_L3_agg V (no_index (Proc.devRef .tc main_v236))
      = lyr_agg (V (Proc.devRef .tc main_v233)) (dst_col (V (Proc.devRef .tc main_v3))) := by
  unfold sg_L3_agg
  after_results_simp <;> rfl

theorem L3_pre_res (V : Valuation τ sig (Elt F)) :
    after sg_L3_pre V (no_index (Proc.devRef .tc main_v242))
      = lyr_pre (par_eps 3 (V (Proc.devRef .tc main_arg8))) (V (Proc.devRef .tc main_v216)) (V (Proc.devRef .tc main_v236)) := by
  unfold sg_L3_pre
  after_results_simp <;> rfl

set_option maxHeartbeats 2000000 in
theorem L3_mlp_res (V : Valuation τ sig (Elt F)) :
    after sg_L3_mlp V (no_index (Proc.devRef .tc main_v259))
      = lyr_mlp (V (Proc.devRef .tc main_v242)) (par_w1 3 (V (Proc.devRef .tc main_arg11))) (par_b1 3 (V (Proc.devRef .tc main_arg12))) (par_w2 3 (V (Proc.devRef .tc main_arg13))) (par_b2 3 (V (Proc.devRef .tc main_arg14))) := by
  unfold sg_L3_mlp
  after_results_simp <;> rfl

theorem L3_mean_res (V : Valuation τ sig (Elt F)) :
    after sg_L3_mean V (no_index (Proc.devRef .tc main_v262))
      = lyr_mean (V (Proc.devRef .tc main_v259)) := by
  unfold sg_L3_mean
  after_results_simp <;> rfl

set_option maxHeartbeats 4000000 in
theorem L3_var_res (V : Valuation τ sig (Elt F)) :
    after sg_L3_var V (no_index (Proc.devRef .tc main_v263))
      = lyr_var (V (Proc.devRef .tc main_v259)) := by
  unfold sg_L3_var
  after_results_simp <;> rfl

set_option maxHeartbeats 4000000 in
theorem L3_bn_res (V : Valuation τ sig (Elt F)) :
    after sg_L3_bnb (after sg_L3_bna V) (no_index (Proc.devRef .tc main_v284))
      = lyr_bn (V (Proc.devRef .tc main_v259)) (V (Proc.devRef .tc main_v262)) (V (Proc.devRef .tc main_v263)) (par_g 3 (V (Proc.devRef .tc main_arg15))) (par_b 3 (V (Proc.devRef .tc main_arg16))) (V (Proc.devRef .tc main_v216)) := by
  unfold sg_L3_bna sg_L3_bnb
  after_results_simp <;> rfl

/-- Layer 3's operations. -/
def lay3 : List (HloOp τ sig (Elt F)) := sg_L3_src ++ (sg_L3_msg ++ (sg_L3_agg ++ (sg_L3_pre ++ (sg_L3_mlp ++ (sg_L3_mean ++ (sg_L3_var ++ (sg_L3_bna ++ (sg_L3_bnb))))))))
/-- The buffers layer 3 writes. -/
def W_lay3 : List (Ref sig .tc) := W_L3_src ++ (W_L3_msg ++ (W_L3_agg ++ (W_L3_pre ++ (W_L3_mlp ++ (W_L3_mean ++ (W_L3_var ++ (W_L3_bna ++ (W_L3_bnb))))))))

theorem lay3_writes : KeepsOf (lay3 : List (HloOp τ sig (Elt F))) W_lay3 := by
  unfold lay3 W_lay3; exact KeepsOf.append sg_L3_src_writes (KeepsOf.append sg_L3_msg_writes (KeepsOf.append sg_L3_agg_writes (KeepsOf.append sg_L3_pre_writes (KeepsOf.append sg_L3_mlp_writes (KeepsOf.append sg_L3_mean_writes (KeepsOf.append sg_L3_var_writes (KeepsOf.append sg_L3_bna_writes (sg_L3_bnb_writes))))))))

theorem lay3_keep (V : Valuation τ sig (Elt F)) {r : Ref sig .tc} (h : r ∉ W_lay3) :
    after lay3 V (no_index (Proc.devRef .tc r)) = V (Proc.devRef .tc r) := lay3_writes.keep V h

set_option maxHeartbeats 4000000 in
set_option maxRecDepth 8192 in
/-- Through layer 3: the next node features are the layer's function of what the layer reads. -/
theorem lay3_res (V : Valuation τ sig (Elt F)) :
    after lay3 V (no_index (Proc.devRef .tc main_v284))
      = layerOut 3 (V (Proc.devRef .tc main_v216)) (V (Proc.devRef .tc main_v12)) (V (Proc.devRef .tc main_v1)) (V (Proc.devRef .tc main_v3)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold lay3
  simp only [after_append]
  simp (disch := decide) only [L3_bn_res, L3_var_res, L3_mean_res, L3_mlp_res, L3_pre_res, L3_agg_res, L3_msg_res, L3_src_res,
    sg_L3_src_keep, sg_L3_msg_keep, sg_L3_agg_keep, sg_L3_pre_keep, sg_L3_mlp_keep, sg_L3_mean_keep, sg_L3_var_keep, sg_L3_bna_keep, sg_L3_bnb_keep]
  rfl

end Cert.ReferenceIdeal.RefRun

end
-- ==== Proof.RefRun.Lay4.lean ====
import proofs.«105345_j19885698580760_2_alg».proof.Proof.RefRun.SegFacts
import proofs.«105345_j19885698580760_2_alg».proof.Proof.RefRun.Step

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! Layer 4: what each stage's operations leave at the stage's result buffer, from any contents; then the layer
    as one list. -/

theorem sg_L4_src_keep (V : Valuation τ sig (Elt F)) {r : Ref sig .tc} (h : r ∉ W_L4_src) :
    after sg_L4_src V (no_index (Proc.devRef .tc r)) = V (Proc.devRef .tc r) := sg_L4_src_writes.keep V h
theorem sg_L4_msg_keep (V : Valuation τ sig (Elt F)) {r : Ref sig .tc} (h : r ∉ W_L4_msg) :
    after sg_L4_msg V (no_index (Proc.devRef .tc r)) = V (Proc.devRef .tc r) := sg_L4_msg_writes.keep V h
theorem sg_L4_agg_keep (V : Valuation τ sig (Elt F)) {r : Ref sig .tc} (h : r ∉ W_L4_agg) :
    after sg_L4_agg V (no_index (Proc.devRef .tc r)) = V (Proc.devRef .tc r) := sg_L4_agg_writes.keep V h
theorem sg_L4_pre_keep (V : Valuation τ sig (Elt F)) {r : Ref sig .tc} (h : r ∉ W_L4_pre) :
    after sg_L4_pre V (no_index (Proc.devRef .tc r)) = V (Proc.devRef .tc r) := sg_L4_pre_writes.keep V h
theorem sg_L4_mlpa_keep (V : Valuation τ sig (Elt F)) {r : Ref sig .tc} (h : r ∉ W_L4_mlpa) :
    after sg_L4_mlpa V (no_index (Proc.devRef .tc r)) = V (Proc.devRef .tc r) := sg_L4_mlpa_writes.keep V h
theorem sg_L4_mlpb_keep (V : Valuation τ sig (Elt F)) {r : Ref sig .tc} (h : r ∉ W_L4_mlpb) :
    after sg_L4_mlpb V (no_index (Proc.devRef .tc r)) = V (Proc.devRef .tc r) := sg_L4_mlpb_writes.keep V h
theorem sg_L4_mean_keep (V : Valuation τ sig (Elt F)) {r : Ref sig .tc} (h : r ∉ W_L4_mean) :
    after sg_L4_mean V (no_index (Proc.devRef .tc r)) = V (Proc.devRef .tc r) := sg_L4_mean_writes.keep V h
theorem sg_L4_var_keep (V : Valuation τ sig (Elt F)) {r : Ref sig .tc} (h : r ∉ W_L4_var) :
    after sg_L4_var V (no_index (Proc.devRef .tc r)) = V (Proc.devRef .tc r) := sg_L4_var_writes.keep V h
theorem sg_L4_bn_keep (V : Valuation τ sig (Elt F)) {r : Ref sig .tc} (h : r ∉ W_L4_bn) :
    after sg_L4_bn V (no_index (Proc.devRef .tc r)) = V (Proc.devRef .tc r) := sg_L4_bn_writes.keep V h

theorem L4_src_res (V : Valuation τ sig (Elt F)) :
    after sg_L4_src V (no_index (Proc.devRef .tc main_v290))
      = src_wrap (V (Proc.devRef .tc main_v1)) := by
  unfold sg_L4_src
  after_results_simp <;> rfl

set_option maxHeartbeats 1000000 in
theorem L4_msg_res (V : Valuation τ sig (Elt F)) :
    after sg_L4_msg V (no_index (Proc.devRef .tc main_v301))
      = lyr_msg (V (Proc.devRef .tc main_v284)) (V (Proc.devRef .tc main_v12)) (V (Proc.devRef .tc main_v290)) (par_lin_w 4 (V (Proc.devRef .tc main_arg9))) (par_lin_b 4 (V (Proc.devRef .tc main_arg10))) := by
  unfold sg_L4_msg
  after_results_simp <;> rfl

theorem L4_agg_res (V : Valuation τ sig (Elt F)) :
    after sg_L4_agg V (no_index (Proc.devRef .tc main_v304))
      = lyr_agg (V (Proc.devRef .tc main_v301)) (dst_col (V (Proc.devRef .tc main_v3))) := by
  unfold sg_L4_agg
  after_results_simp <;> rfl

theorem L4_pre_res (V : Valuation τ sig (Elt F)) :
    after sg_L4_pre V (no_index (Proc.devRef .tc main_v310))
      = lyr_pre (par_eps 4 (V (Proc.devRef .tc main_arg8))) (V (Proc.devRef .tc main_v284)) (V (Proc.devRef .tc main_v304)) := by
  unfold sg_L4_pre
  after_results_simp <;> rfl

set_option maxHeartbeats 2000000 in
theorem L4_mlp_res (V : Valuation τ sig (Elt F)) :
    after sg_L4_mlpb (after sg_L4_mlpa V) (no_index (Proc.devRef .tc main_v327))
      = lyr_mlp (V (Proc.devRef .tc main_v310)) (par_w1 4 (V (Proc.devRef .tc main_arg11))) (par_b1 4 (V (Proc.devRef .tc main_arg12))) (par_w2 4 (V (Proc.devRef .tc main_arg13))) (par_b2 4 (V (Proc.devRef .tc main_arg14))) := by
  unfold sg_L4_mlpa sg_L4_mlpb
  after_results_simp <;> rfl

theorem L4_mean_res (V : Valuation τ sig (Elt F)) :
    after sg_L4_mean V (no_index (Proc.devRef .tc main_v330))
      = lyr_mean (V (Proc.devRef .tc main_v327)) := by
  unfold sg_L4_mean
  after_results_simp <;> rfl

set_option maxHeartbeats 4000000 in
theorem L4_var_res (V : Valuation τ sig (Elt F)) :
    after sg_L4_var V (no_index (Proc.devRef .tc main_v331))
      = lyr_var (V (Proc.devRef .tc main_v327)) := by
  unfold sg_L4_var
  after_results_simp <;> rfl

set_option maxHeartbeats 4000000 in
theorem L4_bn_res (V : Valuation τ sig (Elt F)) :
    after sg_L4_bn V (no_index (Proc.devRef .tc main_v352))
      = lyr_bn (V (Proc.devRef .tc main_v327)) (V (Proc.devRef .tc main_v330)) (V (Proc.devRef .tc main_v331)) (par_g 4 (V (Proc.devRef .tc main_arg15))) (par_b 4 (V (Proc.devRef .tc main_arg16))) (V (Proc.devRef .tc main_v284)) := by
  unfold sg_L4_bn
  after_results_simp <;> rfl

/-- Layer 4's operations. -/
def lay4 : List (HloOp τ sig (Elt F)) := sg_L4_src ++ (sg_L4_msg ++ (sg_L4_agg ++ (sg_L4_pre ++ (sg_L4_mlpa ++ (sg_L4_mlpb ++ (sg_L4_mean ++ (sg_L4_var ++ (sg_L4_bn))))))))
/-- The buffers layer 4 writes. -/
def W_lay4 : List (Ref sig .tc) := W_L4_src ++ (W_L4_msg ++ (W_L4_agg ++ (W_L4_pre ++ (W_L4_mlpa ++ (W_L4_mlpb ++ (W_L4_mean ++ (W_L4_var ++ (W_L4_bn))))))))

theorem lay4_writes : KeepsOf (lay4 : List (HloOp τ sig (Elt F))) W_lay4 := by
  unfold lay4 W_lay4; exact KeepsOf.append sg_L4_src_writes (KeepsOf.append sg_L4_msg_writes (KeepsOf.append sg_L4_agg_writes (KeepsOf.append sg_L4_pre_writes (KeepsOf.append sg_L4_mlpa_writes (KeepsOf.append sg_L4_mlpb_writes (KeepsOf.append sg_L4_mean_writes (KeepsOf.append sg_L4_var_writes (sg_L4_bn_writes))))))))

theorem lay4_keep (V : Valuation τ sig (Elt F)) {r : Ref sig .tc} (h : r ∉ W_lay4) :
    after lay4 V (no_index (Proc.devRef .tc r)) = V (Proc.devRef .tc r) := lay4_writes.keep V h

set_option maxHeartbeats 4000000 in
set_option maxRecDepth 8192 in
/-- Through layer 4: the next node features are the layer's function of what the layer reads. -/
theorem lay4_res (V : Valuation τ sig (Elt F)) :
    after lay4 V (no_index (Proc.devRef .tc main_v352))
      = layerOut 4 (V (Proc.devRef .tc main_v284)) (V (Proc.devRef .tc main_v12)) (V (Proc.devRef .tc main_v1)) (V (Proc.devRef .tc main_v3)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold lay4
  simp only [after_append]
  simp (disch := decide) only [L4_bn_res, L4_var_res, L4_mean_res, L4_mlp_res, L4_pre_res, L4_agg_res, L4_msg_res, L4_src_res,
    sg_L4_src_keep, sg_L4_msg_keep, sg_L4_agg_keep, sg_L4_pre_keep, sg_L4_mlpa_keep, sg_L4_mlpb_keep, sg_L4_mean_keep, sg_L4_var_keep, sg_L4_bn_keep]
  rfl

end Cert.ReferenceIdeal.RefRun

end
-- ==== Proof.RefRun.Ends.lean ====
import proofs.«105345_j19885698580760_2_alg».proof.Proof.RefRun.SegFacts
import proofs.«105345_j19885698580760_2_alg».proof.Proof.RefRun.Stages

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! Before the first layer and after the fifth: what the operations leave at the result buffers, from any contents. -/

theorem sg_idx_keep (V : Valuation τ sig (Elt F)) {r : Ref sig .tc} (h : r ∉ W_idx) :
    after sg_idx V (no_index (Proc.devRef .tc r)) = V (Proc.devRef .tc r) := sg_idx_writes.keep V h
theorem sg_encn_keep (V : Valuation τ sig (Elt F)) {r : Ref sig .tc} (h : r ∉ W_encn) :
    after sg_encn V (no_index (Proc.devRef .tc r)) = V (Proc.devRef .tc r) := sg_encn_writes.keep V h
theorem sg_ence_keep (V : Valuation τ sig (Elt F)) {r : Ref sig .tc} (h : r ∉ W_ence) :
    after sg_ence V (no_index (Proc.devRef .tc r)) = V (Proc.devRef .tc r) := sg_ence_writes.keep V h
theorem sg_pooled_keep (V : Valuation τ sig (Elt F)) {r : Ref sig .tc} (h : r ∉ W_pooled) :
    after sg_pooled V (no_index (Proc.devRef .tc r)) = V (Proc.devRef .tc r) := sg_pooled_writes.keep V h
theorem sg_logits_keep (V : Valuation τ sig (Elt F)) {r : Ref sig .tc} (h : r ∉ W_logits) :
    after sg_logits V (no_index (Proc.devRef .tc r)) = V (Proc.devRef .tc r) := sg_logits_writes.keep V h

theorem idx_src_res (V : Valuation τ sig (Elt F)) :
    after sg_idx V (no_index (Proc.devRef .tc main_v1))
      = src_row (V (Proc.devRef .tc main_arg1)) := by
  unfold sg_idx
  after_results_simp <;> rfl

theorem idx_dst_res (V : Valuation τ sig (Elt F)) :
    after sg_idx V (no_index (Proc.devRef .tc main_v3))
      = dst_row (V (Proc.devRef .tc main_arg1)) := by
  unfold sg_idx
  after_results_simp <;> rfl

theorem encn_res (V : Valuation τ sig (Elt F)) :
    after sg_encn V (no_index (Proc.devRef .tc main_v8))
      = enc_node (V (Proc.devRef .tc main_arg0)) (V (Proc.devRef .tc main_arg4)) (V (Proc.devRef .tc main_arg5)) := by
  unfold sg_encn
  after_results_simp <;> rfl

theorem ence_res (V : Valuation τ sig (Elt F)) :
    after sg_ence V (no_index (Proc.devRef .tc main_v12))
      = enc_edge (V (Proc.devRef .tc main_arg2)) (V (Proc.devRef .tc main_arg6)) (V (Proc.devRef .tc main_arg7)) := by
  unfold sg_ence
  after_results_simp <;> rfl

set_option maxHeartbeats 2000000 in
theorem pooled_res (V : Valuation τ sig (Elt F)) :
    after sg_pooled V (no_index (Proc.devRef .tc main_v364))
      = tail_pooled (V (Proc.devRef .tc main_v352)) (V (Proc.devRef .tc main_arg3)) := by
  unfold sg_pooled
  after_results_simp <;> rfl

set_option maxHeartbeats 1000000 in
theorem logits_res (V : Valuation τ sig (Elt F)) :
    after sg_logits V (no_index (Proc.devRef .tc main_v373))
      = tail_logits (V (Proc.devRef .tc main_v364)) (V (Proc.devRef .tc main_arg17)) (V (Proc.devRef .tc main_arg18)) (V (Proc.devRef .tc main_arg19)) (V (Proc.devRef .tc main_arg20)) := by
  unfold sg_logits
  after_results_simp <;> rfl

/-- The operations before the first layer. -/
def prel : List (HloOp τ sig (Elt F)) := sg_idx ++ (sg_encn ++ sg_ence)
/-- The buffers they write. -/
def W_prel : List (Ref sig .tc) := W_idx ++ (W_encn ++ W_ence)
theorem prel_writes : KeepsOf (prel : List (HloOp τ sig (Elt F))) W_prel := by
  unfold prel W_prel; exact KeepsOf.append sg_idx_writes (KeepsOf.append sg_encn_writes sg_ence_writes)
theorem prel_keep (V : Valuation τ sig (Elt F)) {r : Ref sig .tc} (h : r ∉ W_prel) :
    after prel V (no_index (Proc.devRef .tc r)) = V (Proc.devRef .tc r) := prel_writes.keep V h

theorem prel_h0 (V : Valuation τ sig (Elt F)) :
    after prel V (no_index (Proc.devRef .tc main_v8)) = enc_node (V (Proc.devRef .tc main_arg0)) (V (Proc.devRef .tc main_arg4)) (V (Proc.devRef .tc main_arg5)) := by
  unfold prel
  simp only [after_append]
  simp (disch := decide) only [encn_res, sg_idx_keep, sg_encn_keep, sg_ence_keep]
theorem prel_e (V : Valuation τ sig (Elt F)) :
    after prel V (no_index (Proc.devRef .tc main_v12)) = enc_edge (V (Proc.devRef .tc main_arg2)) (V (Proc.devRef .tc main_arg6)) (V (Proc.devRef .tc main_arg7)) := by
  unfold prel
  simp only [after_append]
  simp (disch := decide) only [ence_res, sg_idx_keep, sg_encn_keep, sg_ence_keep]
theorem prel_src (V : Valuation τ sig (Elt F)) :
    after prel V (no_index (Proc.devRef .tc main_v1)) = src_row (V (Proc.devRef .tc main_arg1)) := by
  unfold prel
  simp only [after_append]
  simp (disch := decide) only [idx_src_res, sg_idx_keep, sg_encn_keep, sg_ence_keep]
theorem prel_dst (V : Valuation τ sig (Elt F)) :
    after prel V (no_index (Proc.devRef .tc main_v3)) = dst_row (V (Proc.devRef .tc main_arg1)) := by
  unfold prel
  simp only [after_append]
  simp (disch := decide) only [idx_dst_res, sg_idx_keep, sg_encn_keep, sg_ence_keep]

/-- The operations after the fifth layer. -/
def tl : List (HloOp τ sig (Elt F)) := sg_pooled ++ sg_logits
/-- The buffers they write. -/
def W_tl : List (Ref sig .tc) := W_pooled ++ W_logits
theorem tl_writes : KeepsOf (tl : List (HloOp τ sig (Elt F))) W_tl := by
  unfold tl W_tl; exact KeepsOf.append sg_pooled_writes sg_logits_writes
theorem tl_keep (V : Valuation τ sig (Elt F)) {r : Ref sig .tc} (h : r ∉ W_tl) :
    after tl V (no_index (Proc.devRef .tc r)) = V (Proc.devRef .tc r) := tl_writes.keep V h

theorem tl_pooled (V : Valuation τ sig (Elt F)) :
    after tl V (no_index (Proc.devRef .tc main_v364)) = tail_pooled (V (Proc.devRef .tc main_v352)) (V (Proc.devRef .tc main_arg3)) := by
  unfold tl
  simp only [after_append]
  simp (disch := decide) only [pooled_res, sg_pooled_keep, sg_logits_keep]
theorem tl_logits (V : Valuation τ sig (Elt F)) :
    after tl V (no_index (Proc.devRef .tc main_v373))
      = tail_logits (tail_pooled (V (Proc.devRef .tc main_v352)) (V (Proc.devRef .tc main_arg3))) (V (Proc.devRef .tc main_arg17)) (V (Proc.devRef .tc main_arg18)) (V (Proc.devRef .tc main_arg19)) (V (Proc.devRef .tc main_arg20)) := by
  unfold tl
  simp only [after_append]
  simp (disch := decide) only [logits_res, pooled_res, sg_pooled_keep, sg_logits_keep]

end Cert.ReferenceIdeal.RefRun

end
-- ==== Proof.R.Values.lean ====
/-
  The values the reference program computes, named: the node features after each layer as functions of the argument
  arrays, each layer the same step — the messages (gathered source features plus the projected edge features),
  summed into their destinations, the perceptron, the column means and variances, and the normalization with the
  residual.
-/
import proofs.«105345_j19885698580760_2_alg».proof.Proof.RefRun.Stages
import Idealize.ShloMosaic.PureOps.Ideal

noncomputable section

namespace Cert.ReferenceIdeal.RVal

open Cert.ReferenceIdeal Cert.ReferenceIdeal.RefRun Cert.ReferenceIdeal.Facts₀ Cert.ReferenceIdeal.Facts Idealize.ShloMosaic Idealize.SL.Sem

variable [Facts]

/-- The argument arrays, as one device's launch memory holds them. -/
structure Args where
  x : Tf Ideal S50000x64
  ei : Ti Ideal S2x640000
  ea : Tf Ideal S640000x16
  batch : Ti Ideal S50000
  node_w : Tf Ideal S64x128
  node_b : Tf Ideal S128
  edge_w : Tf Ideal S16x128
  edge_b : Tf Ideal S128
  eps : Tf Ideal S5
  lin_w : Tf Ideal S5x128x128
  lin_b : Tf Ideal S5x128
  w1 : Tf Ideal S5x128x256
  b1 : Tf Ideal S5x256
  w2 : Tf Ideal S5x256x128
  b2 : Tf Ideal S5x128
  g : Tf Ideal S5x128
  b : Tf Ideal S5x128
  ow1 : Tf Ideal S128x64
  ob1 : Tf Ideal S64
  ow2 : Tf Ideal S64x128
  ob2 : Tf Ideal S128

variable (a : Args)

/-- The encoded node features. -/
def h0 : Tf Ideal S50000x128 := enc_node a.x a.node_w a.node_b
/-- The encoded edge features. -/
def e : Tf Ideal S640000x128 := enc_edge a.ea a.edge_w a.edge_b
/-- Layer `l`'s aggregated messages, from the node features `h`. -/
def aggOf (l : Fin 5) (h : Tf Ideal S50000x128) : Tf Ideal S50000x128 :=
  lyr_agg (lyr_msg h (e a) (src_of a.ei) (par_lin_w l a.lin_w) (par_lin_b l a.lin_b)) (dst_of a.ei)
/-- Layer `l`'s perceptron output. -/
def zOf (l : Fin 5) (h : Tf Ideal S50000x128) : Tf Ideal S50000x128 :=
  lyr_mlp (lyr_pre (par_eps l a.eps) h (aggOf a l h)) (par_w1 l a.w1) (par_b1 l a.b1) (par_w2 l a.w2) (par_b2 l a.b2)
/-- One layer: the next node features. -/
def step (l : Fin 5) (h : Tf Ideal S50000x128) : Tf Ideal S50000x128 :=
  lyr_bn (zOf a l h) (lyr_mean (zOf a l h)) (lyr_var (zOf a l h)) (par_g l a.g) (par_b l a.b) h

def h1 : Tf Ideal S50000x128 := step a 0 (h0 a)
def h2 : Tf Ideal S50000x128 := step a 1 (h1 a)
def h3 : Tf Ideal S50000x128 := step a 2 (h2 a)
def h4 : Tf Ideal S50000x128 := step a 3 (h3 a)
def h5 : Tf Ideal S50000x128 := step a 4 (h4 a)

/-- The pooled graph features: the second result. -/
def pooledV : Tf Ideal S128x128 := tail_pooled (h5 a) a.batch
/-- The logits: the first result. -/
def logitsV : Tf Ideal S128x128 := tail_logits (pooledV a) a.ow1 a.ob1 a.ow2 a.ob2

end Cert.ReferenceIdeal.RVal

end
-- ==== Proof.RefRun.lean ====
import proofs.«105345_j19885698580760_2_alg».proof.Proof.RefRun.Frame
import proofs.«105345_j19885698580760_2_alg».proof.Proof.RefRun.Lay0
import proofs.«105345_j19885698580760_2_alg».proof.Proof.RefRun.Lay1
import proofs.«105345_j19885698580760_2_alg».proof.Proof.RefRun.Lay2
import proofs.«105345_j19885698580760_2_alg».proof.Proof.RefRun.Lay3
import proofs.«105345_j19885698580760_2_alg».proof.Proof.RefRun.Lay4
import proofs.«105345_j19885698580760_2_alg».proof.Proof.RefRun.Ends
import proofs.«105345_j19885698580760_2_alg».proof.Proof.R.Values

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! The run of the reference program read back: the two results as the stage functions applied in order to the
    launch contents of the argument arrays, the argument arrays unchanged. -/

/-- The operations regrouped: before the first layer, the five layers, after the fifth. -/
theorem after_ops (V : Valuation τ sig (Elt F)) :
    after ops V = after tl (after lay4 (after lay3 (after lay2 (after lay1 (after lay0 (after prel V)))))) := by
  simp only [ops, ops_part0, ops_part1, ops_part2, ops_part3, ops_part4, ops_part5, ops_part6, prel, lay0, lay1, lay2, lay3,
    lay4, tl, after_append]

open Cert.ReferenceIdeal.RVal in
/-- The argument arrays as a device's buffer contents hold them. -/
def argsAt (V : Valuation τ sig (Elt Ideal)) : RVal.Args :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20)⟩

/-- The argument arrays at launch on device `c`. -/
def argsOf (m : (ℓ : Loc nD τ sig) → Buf (Elt Ideal) ℓ) (c : Dev nD) : RVal.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20)⟩

theorem argsAt_launch (m : (ℓ : Loc nD τ sig) → Buf (Elt Ideal) ℓ) (c : Dev nD) :
    argsAt (launchContents m c) = argsOf m c := rfl

section Chain

variable (V : Valuation τ sig (Elt Ideal))

/-- The contents before the first layer, and after each layer. -/
def S0 : Valuation τ sig (Elt Ideal) := after prel V
def S1 : Valuation τ sig (Elt Ideal) := after lay0 (S0 V)
def S2 : Valuation τ sig (Elt Ideal) := after lay1 (S1 V)
def S3 : Valuation τ sig (Elt Ideal) := after lay2 (S2 V)
def S4 : Valuation τ sig (Elt Ideal) := after lay3 (S3 V)
def S5 : Valuation τ sig (Elt Ideal) := after lay4 (S4 V)

set_option maxRecDepth 8192 in
theorem S1_h : S1 V (Proc.devRef .tc main_v80) = RVal.h1 (argsAt V) := by
  unfold S1
  rw [lay0_res]
  simp (disch := decide) only [S0, prel_h0, prel_e, prel_src, prel_dst, prel_keep]
  rfl

set_option maxRecDepth 8192 in
theorem S2_h : S2 V (Proc.devRef .tc main_v148) = RVal.h2 (argsAt V) := by
  unfold S2
  rw [lay1_res, S1_h V]
  simp (disch := decide) only [S1, S0, lay0_keep, prel_e, prel_src, prel_dst, prel_keep]
  rfl

set_option maxRecDepth 8192 in
theorem S3_h : S3 V (Proc.devRef .tc main_v216) = RVal.h3 (argsAt V) := by
  unfold S3
  rw [lay2_res, S2_h V]
  simp (disch := decide) only [S2, S1, S0, lay1_keep, lay0_keep, prel_e, prel_src, prel_dst, prel_keep]
  rfl

set_option maxRecDepth 8192 in
theorem S4_h : S4 V (Proc.devRef .tc main_v284) = RVal.h4 (argsAt V) := by
  unfold S4
  rw [lay3_res, S3_h V]
  simp (disch := decide) only [S3, S2, S1, S0, lay2_keep, lay1_keep, lay0_keep, prel_e, prel_src, prel_dst, prel_keep]
  rfl

set_option maxRecDepth 8192 in
theorem S5_h : S5 V (Proc.devRef .tc main_v352) = RVal.h5 (argsAt V) := by
  unfold S5
  rw [lay4_res, S4_h V]
  simp (disch := decide) only [S4, S3, S2, S1, S0, lay3_keep, lay2_keep, lay1_keep, lay0_keep, prel_e, prel_src, prel_dst, prel_keep]
  rfl

set_option maxRecDepth 8192 in
theorem pooled_eq : after ops V (Proc.devRef .tc main_v364) = RVal.pooledV (argsAt V) := by
  rw [after_ops]
  change after tl (S5 V) (Proc.devRef .tc main_v364) = _
  rw [tl_pooled, S5_h V]
  simp (disch := decide) only [S5, S4, S3, S2, S1, S0, lay4_keep, lay3_keep, lay2_keep, lay1_keep, lay0_keep, prel_keep]
  rfl

set_option maxRecDepth 8192 in
theorem logits_eq : after ops V (Proc.devRef .tc main_v373) = RVal.logitsV (argsAt V) := by
  rw [after_ops]
  change after tl (S5 V) (Proc.devRef .tc main_v373) = _
  rw [tl_logits, S5_h V]
  simp (disch := decide) only [S5, S4, S3, S2, S1, S0, lay4_keep, lay3_keep, lay2_keep, lay1_keep, lay0_keep, prel_keep]
  rfl

end Chain

/-- From any memory with zero counters every weakly fair execution of the reference program terminates with the
    logits and the pooled features at the stage functions applied in order to the launch contents of the argument
    arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v373) = RVal.logitsV (argsOf m c)
      ∧ r.2.mem ((c.tc : Thread nD τ).loc main_v364) = RVal.pooledV (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v373).trans (logits_eq (launchContents m c)),
      (h c main_v364).trans (pooled_eq (launchContents m c)),
      (h c main_arg0).trans (ops_keep _ main_arg0_not_written),
      (h c main_arg1).trans (ops_keep _ main_arg1_not_written),
      (h c main_arg2).trans (ops_keep _ main_arg2_not_written),
      (h c main_arg3).trans (ops_keep _ main_arg3_not_written),
      (h c main_arg4).trans (ops_keep _ main_arg4_not_written),
      (h c main_arg5).trans (ops_keep _ main_arg5_not_written),
      (h c main_arg6).trans (ops_keep _ main_arg6_not_written),
      (h c main_arg7).trans (ops_keep _ main_arg7_not_written),
      (h c main_arg8).trans (ops_keep _ main_arg8_not_written),
      (h c main_arg9).trans (ops_keep _ main_arg9_not_written),
      (h c main_arg10).trans (ops_keep _ main_arg10_not_written),
      (h c main_arg11).trans (ops_keep _ main_arg11_not_written),
      (h c main_arg12).trans (ops_keep _ main_arg12_not_written),
      (h c main_arg13).trans (ops_keep _ main_arg13_not_written),
      (h c main_arg14).trans (ops_keep _ main_arg14_not_written),
      (h c main_arg15).trans (ops_keep _ main_arg15_not_written),
      (h c main_arg16).trans (ops_keep _ main_arg16_not_written),
      (h c main_arg17).trans (ops_keep _ main_arg17_not_written),
      (h c main_arg18).trans (ops_keep _ main_arg18_not_written),
      (h c main_arg19).trans (ops_keep _ main_arg19_not_written),
      (h c main_arg20).trans (ops_keep _ main_arg20_not_written)⟩)
    (run_all m ρ)

end Cert.ReferenceIdeal.RefRun

end
-- ==== Proof.Spec.Finite.lean ====
/-
  Real-valued extended reals.  The argument joins the two programs by laws that hold for real numbers and fail at the
  infinities, so it carries along the fact that every intermediate value is a real number: sums, products,
  differences and maxima of reals are real, a quotient by a nonzero real is real, and the reciprocal square root of
  a positive real is real.
-/
import Idealize.ShloMosaic.PureOps.Ideal

noncomputable section

namespace Cert.Spec

open Idealize.ShloMosaic

/-- An extended real that is a real number. -/
def IsReal (x : EReal) : Prop := ∃ r : ℝ, x = (r : EReal)

/-- Every entry of an array is a real number. -/
def AllReal {ι : Type*} (a : ι → EReal) : Prop := ∀ i, IsReal (a i)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real is real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is real. -/
theorem isReal_rsqrt_pos {r : ℝ} (hr : 0 < r) : IsReal (Ideal.rsqrt (r : EReal)) := by
  rw [Ideal.rsqrt_coe, if_neg (not_lt.mpr hr.le), if_neg hr.ne']
  exact isReal_coe _

end Cert.Spec

end
-- ==== Proof.PreReal.lean ====
/-
  The precondition decoded.  The claim's precondition evaluates, on every device, a printed predicate over the
  program's twenty-one argument arrays and asks that it answer 1.  The predicate is the conjunction, over the nineteen
  float arrays (arguments 0, 2 and 4 to 20; arguments 1 and 3 are integer arrays and are not constrained), of
  "the reduction by 'and' over all axes of the elementwise comparison |x| < +∞ is 1", where +∞ is written as the
  single-precision word 0x7F800000.  Over the extended reals |x| is max x (-x), which is +∞ at both infinities, so
  the comparison holds exactly when x is a real number.  Hence, under the precondition, every entry of every float
  argument array is a real number.

  The statement is proved first for the predicate as a function of ANY twenty-one arrays (allReal_of_fn), one conjunct
  at a time through a lemma generic in the array's shape (allReal_of_all) over an element fact (isReal_of_cmp); the
  statement about the program's memory (allReal_of_pre) is its instance at the arrays the memory holds.
-/
import proofs.«105345_j19885698580760_2_alg».proof.Defs
import proofs.«105345_j19885698580760_2_alg».proof.Proof.Spec.Finite
import Idealize.ShloMosaic.Lib.ReduceAll
import Idealize.ShloMosaic.Lib.ValueIdx
import Idealize.ShloMosaic.PureOps.Ideal

noncomputable section

namespace Cert.PreReal

open Idealize.ShloMosaic Idealize.SL.Sem Cert.Spec

/-- The single-precision word 0x7F800000 (sign clear, exponent all ones, fraction zero) denotes +∞. -/
theorem ofBits_inf : Ideal.ofBits .f32 0x7F800000#32 = (⊤ : EReal) := by
  simp [Ideal.ofBits, Ideal.ieee]

/-- An extended real whose absolute value max x (-x) lies below +∞ is a real number: at x = +∞ the maximum is +∞
    itself, and at x = -∞ the negation is +∞. -/
theorem isReal_of_abs_lt_top (x : EReal) (h : max x (-x) < ⊤) : IsReal x := by
  induction x using EReal.rec with
  | bot => simp at h
  | coe r => exact ⟨r, rfl⟩
  | top => simp at h

/-- The element fact as the predicate computes it: the ordered comparison |x| < (the word of +∞) answers 1. -/
theorem isReal_of_cmp (x : EReal)
    (h : FloatOps.cmpf (F := Ideal) (φ := .f32) .olt (FloatOps.hostAbsf (F := Ideal) (φ := .f32) x)
          (FloatOps.ofBits (F := Ideal) .f32 0x7F800000#32) = 1#1) : IsReal x := by
  have h' : BitVec.ofBool (decide (max x (-x) < Ideal.ofBits .f32 0x7F800000#32)) = 1#1 := h
  rw [ofBits_inf] at h'
  refine isReal_of_abs_lt_top x ?_
  by_contra hn
  rw [decide_eq_false hn] at h'
  exact absurd h' (by decide)

/-- The result shape of a reduction over every axis has exactly one index. -/
instance : Subsingleton Cert.Pre_finite_inputs.S_.Idx := ⟨fun a b => funext fun d => d.elim0⟩

/-- One conjunct of the predicate, for an array of any shape: if the reduction by "and" over all axes of the
    elementwise comparison |a| < +∞ is 1, then every entry of a is a real number. -/
theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a) (broadcastInDim s ![] hb (constant (F := Ideal) Cert.Pre_finite_inputs.S_ .f32 0x7F800000#32)))
          init hr hu j = 1#1) : AllReal a := by
  intro i
  exact isReal_of_cmp (a i) (Host.reduce_andi_all _ init hr hu j e i)

open Cert.Pre_finite_inputs in
/-- The predicate decoded, for ANY twenty-one argument arrays: it is the conjunction, over the nineteen float arrays,
    of "every entry has absolute value below +∞"; so where it holds every entry of every float array is a real
    number. The two integer arrays (arguments 1 and 3) are not constrained. -/
theorem allReal_of_fn [Cert.Pre_finite_inputs.Facts]
    (a0 : FVec Ideal S50000x64 .f32) (a1 : IVec S2x640000 32) (a2 : FVec Ideal S640000x16 .f32) (a3 : IVec S50000 32)
    (a4 : FVec Ideal S64x128 .f32) (a5 : FVec Ideal S128 .f32) (a6 : FVec Ideal S16x128 .f32) (a7 : FVec Ideal S128 .f32)
    (a8 : FVec Ideal S5 .f32) (a9 : FVec Ideal S5x128x128 .f32) (a10 : FVec Ideal S5x128 .f32) (a11 : FVec Ideal S5x128x256 .f32)
    (a12 : FVec Ideal S5x256 .f32) (a13 : FVec Ideal S5x256x128 .f32) (a14 : FVec Ideal S5x128 .f32) (a15 : FVec Ideal S5x128 .f32)
    (a16 : FVec Ideal S5x128 .f32) (a17 : FVec Ideal S128x64 .f32) (a18 : FVec Ideal S64 .f32) (a19 : FVec Ideal S64x128 .f32)
    (a20 : FVec Ideal S128 .f32)
    (h : fn (F := Ideal) a0 a1 a2 a3 a4 a5 a6 a7 a8 a9 a10 a11 a12 a13 a14 a15 a16 a17 a18 a19 a20 = (fun _ => 1#1)) :
    AllReal a0 ∧ AllReal a2 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 := by
  have e := congrFun h ValueIdx.ix0
  dsimp only [fn, fn_part1, fn_part2, fn_part3, fn_part4, fn_part5, andi] at e
  simp only [IntOp.andi_eq_one] at e
  obtain ⟨⟨⟨⟨⟨⟨⟨⟨⟨⟨⟨⟨⟨⟨⟨⟨⟨⟨e0, e2⟩, e4⟩, e5⟩, e6⟩, e7⟩, e8⟩, e9⟩, e10⟩, e11⟩, e12⟩, e13⟩, e14⟩, e15⟩, e16⟩, e17⟩, e18⟩, e19⟩, e20⟩ := e
  exact ⟨
    allReal_of_all a0 _ _ _ _ _ e0, allReal_of_all a2 _ _ _ _ _ e2, allReal_of_all a4 _ _ _ _ _ e4,
    allReal_of_all a5 _ _ _ _ _ e5, allReal_of_all a6 _ _ _ _ _ e6, allReal_of_all a7 _ _ _ _ _ e7,
    allReal_of_all a8 _ _ _ _ _ e8, allReal_of_all a9 _ _ _ _ _ e9, allReal_of_all a10 _ _ _ _ _ e10,
    allReal_of_all a11 _ _ _ _ _ e11, allReal_of_all a12 _ _ _ _ _ e12, allReal_of_all a13 _ _ _ _ _ e13,
    allReal_of_all a14 _ _ _ _ _ e14, allReal_of_all a15 _ _ _ _ _ e15, allReal_of_all a16 _ _ _ _ _ e16,
    allReal_of_all a17 _ _ _ _ _ e17, allReal_of_all a18 _ _ _ _ _ e18, allReal_of_all a19 _ _ _ _ _ e19,
    allReal_of_all a20 _ _ _ _ _ e20⟩

/-- Under the precondition of the idealized kernel program, on every device every entry of each of the nineteen float
    argument arrays the memory holds is a real number. -/
theorem allReal_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      AllReal (m ((c.tc : Thread Cert.KernelIdeal.nD Cert.KernelIdeal.τ).loc Cert.KernelIdeal.main_arg0)) ∧
      AllReal (m ((c.tc : Thread Cert.KernelIdeal.nD Cert.KernelIdeal.τ).loc Cert.KernelIdeal.main_arg2)) ∧
      AllReal (m ((c.tc : Thread Cert.KernelIdeal.nD Cert.KernelIdeal.τ).loc Cert.KernelIdeal.main_arg4)) ∧
      AllReal (m ((c.tc : Thread Cert.KernelIdeal.nD Cert.KernelIdeal.τ).loc Cert.KernelIdeal.main_arg5)) ∧
      AllReal (m ((c.tc : Thread Cert.KernelIdeal.nD Cert.KernelIdeal.τ).loc Cert.KernelIdeal.main_arg6)) ∧
      AllReal (m ((c.tc : Thread Cert.KernelIdeal.nD Cert.KernelIdeal.τ).loc Cert.KernelIdeal.main_arg7)) ∧
      AllReal (m ((c.tc : Thread Cert.KernelIdeal.nD Cert.KernelIdeal.τ).loc Cert.KernelIdeal.main_arg8)) ∧
      AllReal (m ((c.tc : Thread Cert.KernelIdeal.nD Cert.KernelIdeal.τ).loc Cert.KernelIdeal.main_arg9)) ∧
      AllReal (m ((c.tc : Thread Cert.KernelIdeal.nD Cert.KernelIdeal.τ).loc Cert.KernelIdeal.main_arg10)) ∧
      AllReal (m ((c.tc : Thread Cert.KernelIdeal.nD Cert.KernelIdeal.τ).loc Cert.KernelIdeal.main_arg11)) ∧
      AllReal (m ((c.tc : Thread Cert.KernelIdeal.nD Cert.KernelIdeal.τ).loc Cert.KernelIdeal.main_arg12)) ∧
      AllReal (m ((c.tc : Thread Cert.KernelIdeal.nD Cert.KernelIdeal.τ).loc Cert.KernelIdeal.main_arg13)) ∧
      AllReal (m ((c.tc : Thread Cert.KernelIdeal.nD Cert.KernelIdeal.τ).loc Cert.KernelIdeal.main_arg14)) ∧
      AllReal (m ((c.tc : Thread Cert.KernelIdeal.nD Cert.KernelIdeal.τ).loc Cert.KernelIdeal.main_arg15)) ∧
      AllReal (m ((c.tc : Thread Cert.KernelIdeal.nD Cert.KernelIdeal.τ).loc Cert.KernelIdeal.main_arg16)) ∧
      AllReal (m ((c.tc : Thread Cert.KernelIdeal.nD Cert.KernelIdeal.τ).loc Cert.KernelIdeal.main_arg17)) ∧
      AllReal (m ((c.tc : Thread Cert.KernelIdeal.nD Cert.KernelIdeal.τ).loc Cert.KernelIdeal.main_arg18)) ∧
      AllReal (m ((c.tc : Thread Cert.KernelIdeal.nD Cert.KernelIdeal.τ).loc Cert.KernelIdeal.main_arg19)) ∧
      AllReal (m ((c.tc : Thread Cert.KernelIdeal.nD Cert.KernelIdeal.τ).loc Cert.KernelIdeal.main_arg20)) :=
  allReal_of_fn _ _ _ _ _ _ _ _ _ _ _ _ _ _ _ _ _ _ _ _ _ (h c)

end Cert.PreReal

end
-- ==== Proof.KRun.lean ====
/-
  The idealized kernel program's run with its two RESULT arrays read: every weakly fair execution of @main terminates,
  nothing faulting, and in every final state the two result buffers hold what the last boundary's contents `W37` give
  them — the fold of the host operations and of the seventeen regions' write-backs from the launch memory — and the
  argument arrays are as launched.  It is the frame theorem's argument with two more buffers read off the last thread
  state.
-/
import proofs.«105345_j19885698580760_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the results at the last boundary's contents. -/
theorem run_results : θ_run defs (onTc (τ := τ) (main (F := F))) ⟨m, fun _ => 0, ρ⟩ (fun r => ∀ c : Dev nD,
      r.2.mem ((c.tc : Thread nD τ).loc main_v293) = W37 m ρ c (Proc.devRef .tc main_v293)
      ∧ r.2.mem ((c.tc : Thread nD τ).loc main_v284) = W37 m ρ c (Proc.devRef .tc main_v284)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h c =>
      ⟨h c _ (mem_uc main_v293 (by decide)),
       h c _ (mem_uc main_v284 (by decide)),
       (h c _ (mem_uc main_arg0 (by decide))).trans (W37_main_arg0 m ρ c),
       (h c _ (mem_uc main_arg1 (by decide))).trans (W37_main_arg1 m ρ c),
       (h c _ (mem_uc main_arg2 (by decide))).trans (W37_main_arg2 m ρ c),
       (h c _ (mem_uc main_arg3 (by decide))).trans (W37_main_arg3 m ρ c),
       (h c _ (mem_uc main_arg4 (by decide))).trans (W37_main_arg4 m ρ c),
       (h c _ (mem_uc main_arg5 (by decide))).trans (W37_main_arg5 m ρ c),
       (h c _ (mem_uc main_arg6 (by decide))).trans (W37_main_arg6 m ρ c),
       (h c _ (mem_uc main_arg7 (by decide))).trans (W37_main_arg7 m ρ c),
       (h c _ (mem_uc main_arg8 (by decide))).trans (W37_main_arg8 m ρ c),
       (h c _ (mem_uc main_arg9 (by decide))).trans (W37_main_arg9 m ρ c),
       (h c _ (mem_uc main_arg10 (by decide))).trans (W37_main_arg10 m ρ c),
       (h c _ (mem_uc main_arg11 (by decide))).trans (W37_main_arg11 m ρ c),
       (h c _ (mem_uc main_arg12 (by decide))).trans (W37_main_arg12 m ρ c),
       (h c _ (mem_uc main_arg13 (by decide))).trans (W37_main_arg13 m ρ c),
       (h c _ (mem_uc main_arg14 (by decide))).trans (W37_main_arg14 m ρ c),
       (h c _ (mem_uc main_arg15 (by decide))).trans (W37_main_arg15 m ρ c),
       (h c _ (mem_uc main_arg16 (by decide))).trans (W37_main_arg16 m ρ c),
       (h c _ (mem_uc main_arg17 (by decide))).trans (W37_main_arg17 m ρ c),
       (h c _ (mem_uc main_arg18 (by decide))).trans (W37_main_arg18 m ρ c),
       (h c _ (mem_uc main_arg19 (by decide))).trans (W37_main_arg19 m ρ c),
       (h c _ (mem_uc main_arg20 (by decide))).trans (W37_main_arg20 m ρ c)⟩)

end Cert.KernelIdeal.KRun

end
-- ==== Proof.K.Stages.lean ====
/-
  The host operations of the kernel program between its regions, composed stage by stage over exactly the arrays each
  stage reads.  The five layers run the same stages and differ only in which slice of the stacked parameters they
  read.  A bias or a statistic that a region reads as a 1×N row is the N-vector recast; the per-layer scalar ε is
  recast to a 1×1 array.
-/
import proofs.«105345_j19885698580760_2_alg».proof.KernelIdeal

noncomputable section

namespace Cert.KernelIdeal.KStages

open Cert.KernelIdeal Cert.KernelIdeal.Facts₀ Cert.KernelIdeal.Facts Idealize.ShloMosaic Idealize.SL.Sem

variable {F : FTy → Type} [FloatOps F] [Facts]

/-- The contents of an f32 tensor of shape `s`. -/
abbrev Tf (F : FTy → Type) (s : Shape) : Type := (⟨s, .f32⟩ : BufTy).Contents (Elt F)
/-- The contents of a bf16 tensor of shape `s`. -/
abbrev Tb (F : FTy → Type) (s : Shape) : Type := (⟨s, .bf16⟩ : BufTy).Contents (Elt F)
/-- The contents of an i32 tensor of shape `s`. -/
abbrev Ti (F : FTy → Type) (s : Shape) : Type := (⟨s, .i32⟩ : BufTy).Contents (Elt F)

/-! ## The edge list and the encoders' biases -/

/-- Row 0 of the edge list: the source node of every edge. -/
def src_row (ei : Ti F S2x640000) : Ti F S640000 :=
  shapeCast S640000 (extractStridedSlice S1x640000 ![0, 0] ei slices_S2x640000_S1x640000_0_0) shapeCasts_S1x640000_S640000

/-- Row 1 of the edge list: the destination node of every edge. -/
def dst_row (ei : Ti F S2x640000) : Ti F S640000 :=
  shapeCast S640000 (extractStridedSlice S1x640000 ![1, 0] ei slices_S2x640000_S1x640000_1_0) shapeCasts_S1x640000_S640000

/-- A 128-vector as a 1×128 row. -/
def row128 (b : Tf F S128) : Tf F S1x128 := shapeCast S1x128 b shapeCasts_S128_S1x128

/-! ## Layer `l`'s slice of a stacked parameter -/

theorem slices_5x128x128 (l : Fin 5) : S5x128x128.Slices ![(l : ℕ), 0, 0] S1x128x128 := by
  fin_cases l
  exacts [slices_S5x128x128_S1x128x128_0_0_0, slices_S5x128x128_S1x128x128_1_0_0, slices_S5x128x128_S1x128x128_2_0_0,
    slices_S5x128x128_S1x128x128_3_0_0, slices_S5x128x128_S1x128x128_4_0_0]
theorem slices_5x128 (l : Fin 5) : S5x128.Slices ![(l : ℕ), 0] S1x128 := by
  fin_cases l
  exacts [slices_S5x128_S1x128_0_0, slices_S5x128_S1x128_1_0, slices_S5x128_S1x128_2_0, slices_S5x128_S1x128_3_0,
    slices_S5x128_S1x128_4_0]
theorem slices_5 (l : Fin 5) : S5.Slices ![(l : ℕ)] S1 := by
  fin_cases l
  exacts [slices_S5_S1_0, slices_S5_S1_1, slices_S5_S1_2, slices_S5_S1_3, slices_S5_S1_4]
theorem slices_5x128x256 (l : Fin 5) : S5x128x256.Slices ![(l : ℕ), 0, 0] S1x128x256 := by
  fin_cases l
  exacts [slices_S5x128x256_S1x128x256_0_0_0, slices_S5x128x256_S1x128x256_1_0_0, slices_S5x128x256_S1x128x256_2_0_0,
    slices_S5x128x256_S1x128x256_3_0_0, slices_S5x128x256_S1x128x256_4_0_0]
theorem slices_5x256 (l : Fin 5) : S5x256.Slices ![(l : ℕ), 0] S1x256 := by
  fin_cases l
  exacts [slices_S5x256_S1x256_0_0, slices_S5x256_S1x256_1_0, slices_S5x256_S1x256_2_0, slices_S5x256_S1x256_3_0,
    slices_S5x256_S1x256_4_0]
theorem slices_5x256x128 (l : Fin 5) : S5x256x128.Slices ![(l : ℕ), 0, 0] S1x256x128 := by
  fin_cases l
  exacts [slices_S5x256x128_S1x256x128_0_0_0, slices_S5x256x128_S1x256x128_1_0_0, slices_S5x256x128_S1x256x128_2_0_0,
    slices_S5x256x128_S1x256x128_3_0_0, slices_S5x256x128_S1x256x128_4_0_0]

/-- Matrix `l` of a stack of five 128×128 matrices (argument 9). -/
def par_lin_w (l : Fin 5) (a : Tf F S5x128x128) : Tf F S128x128 :=
  shapeCast S128x128 (extractStridedSlice S1x128x128 ![(l : ℕ), 0, 0] a (slices_5x128x128 l)) shapeCasts_S1x128x128_S128x128
/-- Row `l` of a stack of five 128-vectors, as a 1×128 row (arguments 10, 14, 15, 16). -/
def par_row128 (l : Fin 5) (a : Tf F S5x128) : Tf F S1x128 :=
  row128 (shapeCast S128 (extractStridedSlice S1x128 ![(l : ℕ), 0] a (slices_5x128 l)) shapeCasts_S1x128_S128)
/-- Entry `l` of the five self-loop weights, as a 1×1 array (argument 8). -/
def par_eps (l : Fin 5) (a : Tf F S5) : Tf F S1x1 :=
  shapeCast S1x1 (shapeCast S_ (extractStridedSlice S1 ![(l : ℕ)] a (slices_5 l)) shapeCasts_S1_S_) shapeCasts_S_S1x1
/-- Matrix `l` of a stack of five 128×256 matrices (argument 11). -/
def par_w1 (l : Fin 5) (a : Tf F S5x128x256) : Tf F S128x256 :=
  shapeCast S128x256 (extractStridedSlice S1x128x256 ![(l : ℕ), 0, 0] a (slices_5x128x256 l)) shapeCasts_S1x128x256_S128x256
/-- Row `l` of a stack of five 256-vectors, as a 1×256 row (argument 12). -/
def par_b1 (l : Fin 5) (a : Tf F S5x256) : Tf F S1x256 :=
  shapeCast S1x256 (shapeCast S256 (extractStridedSlice S1x256 ![(l : ℕ), 0] a (slices_5x256 l)) shapeCasts_S1x256_S256) shapeCasts_S256_S1x256
/-- Matrix `l` of a stack of five 256×128 matrices (argument 13). -/
def par_w2 (l : Fin 5) (a : Tf F S5x256x128) : Tf F S256x128 :=
  shapeCast S256x128 (extractStridedSlice S1x256x128 ![(l : ℕ), 0, 0] a (slices_5x256x128 l)) shapeCasts_S1x256x128_S256x128

/-! ## One layer's host operations -/

/-- The messages: `relu (h[src] + el)` with `el` the edge projection a region has computed, one row per edge; a
    negative source index counts from the end. -/
def msg (h : Tf F S50000x128) (el : Tb F S640000x128) (src : Ti F S640000) : Tf F S640000x128 :=
  extf .f32
    (truncf .bf16
      (maximumf
        (addf
          (Host.gather gather_S50000x128_S640000x1_S640000x128_1_0_n_n_0_1_1128 h
            (broadcastInDim S640000x1 ![0] bcast_S640000_S640000x1_0
              (select (cmpi .slt src (broadcastInDim S640000 ![] bcast_S_S640000 (constantI S_ 32 0#32)))
                (addi src (broadcastInDim S640000 ![] bcast_S_S640000 (constantI S_ 32 50000#32))) src)))
          (extf .f32 el bitsLt_bf16_f32))
        (broadcastInDim S640000x128 ![] bcast_S_S640000x128 (constant S_ .f32 0x00000000#32)))
      bitsLt_bf16_f32)
    bitsLt_bf16_f32

/-- The messages summed into their destination rows, from zero. -/
def agg (m : Tf F S640000x128) (dst : Ti F S640000) : Tf F S50000x128 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst) m

/-- A column statistic from its per-block partial sums: the sum over blocks and slab rows, over 50000. -/
def meanOf (parts : Tf F S25x8x128) : Tf F S128 :=
  Host.divf (Host.reduceAdd parts (constant S_ .f32 0x00000000#32) reducesTo_S25x8x128_S128_d0_1 h_S_)
    (broadcastInDim S128 ![] bcast_S_S128 (constant S_ .f32 0x47435000#32))

/-- The column variances: the mean of the squares less the square of the mean. -/
def varOf (sums sqsums : Tf F S25x8x128) : Tf F S128 :=
  subf (meanOf sqsums) (mulf (meanOf sums) (meanOf sums))

/-! ## After the fifth layer -/

/-- Mean pooling over the graphs. -/
def pooled (h : Tf F S50000x128) (batch : Ti F S50000) : Tf F S128x128 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch) h)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 batch)
            (broadcastInDim S50000 ![] bcast_S_S50000 (constant S_ .f32 0x3F800000#32)))
          (broadcastInDim S128 ![] bcast_S_S128 (constant S_ .f32 0x3F800000#32)))))

/-- The output head's first layer before its relu: `pooled · W₁ + b₁`. -/
def head1 (p : Tf F S128x128) (w1 : Tf F S128x64) (b1 : Tf F S64) : Tf F S128x64 :=
  addf (Host.dotGeneral dot_S128x128_S128x64_S128x64_1_0_0_1_n_n none p w1)
    (broadcastInDim S128x64 ![0, 1] bcast_S1x64_S128x64_0_1 (broadcastInDim S1x64 ![1] bcast_S64_S1x64_1 b1))

/-- The relu on the 128×64 hidden layer. -/
def relu64 (x : Tf F S128x64) : Tf F S128x64 :=
  maximumf x (broadcastInDim S128x64 ![] bcast_S_S128x64 (constant S_ .f32 0x00000000#32))

/-- The output head's second layer: `hidden · W₂ + b₂`. -/
def head2 (x : Tf F S128x64) (w2 : Tf F S64x128) (b2 : Tf F S128) : Tf F S128x128 :=
  addf (Host.dotGeneral dot_S128x64_S64x128_S128x128_1_0_0_1_n_n none x w2)
    (broadcastInDim S128x128 ![0, 1] bcast_S1x128_S128x128_0_1 (broadcastInDim S1x128 ![1] bcast_S128_S1x128_1 b2))

/-- The output head: `relu (pooled · W₁ + b₁) · W₂ + b₂`. -/
def logits (p : Tf F S128x128) (w1 : Tf F S128x64) (b1 : Tf F S64) (w2 : Tf F S64x128) (b2 : Tf F S128) : Tf F S128x128 :=
  head2 (relu64 (head1 p w1 b1)) w2 b2

end Cert.KernelIdeal.KStages

end
-- ==== Proof.K.Host.lean ====
/-
  What each stretch of host operations of the kernel program leaves in the buffers the next region (or the result)
  reads, from ANY buffer contents `V` before the stretch: the stage functions applied to `V`'s contents at the buffers
  the stretch reads.  (One statement per written buffer; the layer sections are one text instantiated for the five
  layers from the table of each stretch's buffers.)
-/
import proofs.«105345_j19885698580760_2_alg».proof.Proof.Gen.KernelIdeal.Launch
import proofs.«105345_j19885698580760_2_alg».proof.Proof.K.Stages
import Idealize.ShloMosaic.Lib.StableHlo.Run

noncomputable section

namespace Cert.KernelIdeal.KHost

open Cert.KernelIdeal Cert.KernelIdeal.Gen Cert.KernelIdeal.KStages Idealize.ShloMosaic Idealize.ShloMosaic.TcCoe Idealize.SL.Sem Idealize.ShloMosaic.StableHlo

variable {F : FTy → Type} [FloatOps F]

variable (V : Valuation τ sig (Elt F))

/-! ## Before the encoders -/

theorem s0_v1 : after hostOps0 V (Proc.devRef .tc main_v1) = src_row (V (Proc.devRef .tc main_arg1)) := by
  after_results; rfl
theorem s0_v3 : after hostOps0 V (Proc.devRef .tc main_v3) = dst_row (V (Proc.devRef .tc main_arg1)) := by
  after_results; rfl
theorem s0_v4 : after hostOps0 V (Proc.devRef .tc main_v4) = row128 (V (Proc.devRef .tc main_arg5)) := by
  after_results; rfl
theorem s1_v6 : after hostOps1 V (Proc.devRef .tc main_v6) = row128 (V (Proc.devRef .tc main_arg7)) := by
  after_results; rfl

/-! ## Layer 0 -/

theorem s2_v9 : after hostOps2 V (Proc.devRef .tc main_v9) = par_lin_w 0 (V (Proc.devRef .tc main_arg9)) := by
  after_results; rfl
theorem s2_v12 : after hostOps2 V (Proc.devRef .tc main_v12) = par_row128 0 (V (Proc.devRef .tc main_arg10)) := by
  after_results; rfl
theorem s3_v29 : after hostOps3 V (Proc.devRef .tc main_v29)
    = agg (msg (V (Proc.devRef .tc main_v5)) (V (Proc.devRef .tc main_v13)) (V (Proc.devRef .tc main_v1))) (V (Proc.devRef .tc main_v3)) := by
  after_results_simp; rfl
theorem s3_v32 : after hostOps3 V (Proc.devRef .tc main_v32) = par_eps 0 (V (Proc.devRef .tc main_arg8)) := by
  after_results_simp; rfl
theorem s3_v34 : after hostOps3 V (Proc.devRef .tc main_v34) = par_w1 0 (V (Proc.devRef .tc main_arg11)) := by
  after_results_simp; rfl
theorem s3_v37 : after hostOps3 V (Proc.devRef .tc main_v37) = par_b1 0 (V (Proc.devRef .tc main_arg12)) := by
  after_results_simp; rfl
theorem s3_v39 : after hostOps3 V (Proc.devRef .tc main_v39) = par_w2 0 (V (Proc.devRef .tc main_arg13)) := by
  after_results_simp; rfl
theorem s3_v42 : after hostOps3 V (Proc.devRef .tc main_v42) = par_row128 0 (V (Proc.devRef .tc main_arg14)) := by
  after_results_simp; rfl
theorem s4_v52 : after hostOps4 V (Proc.devRef .tc main_v52) = row128 (meanOf (V (Proc.devRef .tc main_v43_1))) := by
  after_results_simp; rfl
theorem s4_v53 : after hostOps4 V (Proc.devRef .tc main_v53) = row128 (varOf (V (Proc.devRef .tc main_v43_1)) (V (Proc.devRef .tc main_v43_2))) := by
  after_results_simp; rfl
theorem s4_v56 : after hostOps4 V (Proc.devRef .tc main_v56) = par_row128 0 (V (Proc.devRef .tc main_arg15)) := by
  after_results_simp; rfl
theorem s4_v59 : after hostOps4 V (Proc.devRef .tc main_v59) = par_row128 0 (V (Proc.devRef .tc main_arg16)) := by
  after_results_simp; rfl

/-! ## Layer 1 -/

theorem s5_v62 : after hostOps5 V (Proc.devRef .tc main_v62) = par_lin_w 1 (V (Proc.devRef .tc main_arg9)) := by
  after_results; rfl
theorem s5_v65 : after hostOps5 V (Proc.devRef .tc main_v65) = par_row128 1 (V (Proc.devRef .tc main_arg10)) := by
  after_results; rfl
theorem s6_v82 : after hostOps6 V (Proc.devRef .tc main_v82)
    = agg (msg (V (Proc.devRef .tc main_v60)) (V (Proc.devRef .tc main_v66)) (V (Proc.devRef .tc main_v1))) (V (Proc.devRef .tc main_v3)) := by
  after_results_simp; rfl
theorem s6_v85 : after hostOps6 V (Proc.devRef .tc main_v85) = par_eps 1 (V (Proc.devRef .tc main_arg8)) := by
  after_results_simp; rfl
theorem s6_v87 : after hostOps6 V (Proc.devRef .tc main_v87) = par_w1 1 (V (Proc.devRef .tc main_arg11)) := by
  after_results_simp; rfl
theorem s6_v90 : after hostOps6 V (Proc.devRef .tc main_v90) = par_b1 1 (V (Proc.devRef .tc main_arg12)) := by
  after_results_simp; rfl
theorem s6_v92 : after hostOps6 V (Proc.devRef .tc main_v92) = par_w2 1 (V (Proc.devRef .tc main_arg13)) := by
  after_results_simp; rfl
theorem s6_v95 : after hostOps6 V (Proc.devRef .tc main_v95) = par_row128 1 (V (Proc.devRef .tc main_arg14)) := by
  after_results_simp; rfl
theorem s7_v105 : after hostOps7 V (Proc.devRef .tc main_v105) = row128 (meanOf (V (Proc.devRef .tc main_v96_1))) := by
  after_results_simp; rfl
theorem s7_v106 : after hostOps7 V (Proc.devRef .tc main_v106) = row128 (varOf (V (Proc.devRef .tc main_v96_1)) (V (Proc.devRef .tc main_v96_2))) := by
  after_results_simp; rfl
theorem s7_v109 : after hostOps7 V (Proc.devRef .tc main_v109) = par_row128 1 (V (Proc.devRef .tc main_arg15)) := by
  after_results_simp; rfl
theorem s7_v112 : after hostOps7 V (Proc.devRef .tc main_v112) = par_row128 1 (V (Proc.devRef .tc main_arg16)) := by
  after_results_simp; rfl

/-! ## Layer 2 -/

theorem s8_v115 : after hostOps8 V (Proc.devRef .tc main_v115) = par_lin_w 2 (V (Proc.devRef .tc main_arg9)) := by
  after_results; rfl
theorem s8_v118 : after hostOps8 V (Proc.devRef .tc main_v118) = par_row128 2 (V (Proc.devRef .tc main_arg10)) := by
  after_results; rfl
theorem s9_v135 : after hostOps9 V (Proc.devRef .tc main_v135)
    = agg (msg (V (Proc.devRef .tc main_v113)) (V (Proc.devRef .tc main_v119)) (V (Proc.devRef .tc main_v1))) (V (Proc.devRef .tc main_v3)) := by
  after_results_simp; rfl
theorem s9_v138 : after hostOps9 V (Proc.devRef .tc main_v138) = par_eps 2 (V (Proc.devRef .tc main_arg8)) := by
  after_results_simp; rfl
theorem s9_v140 : after hostOps9 V (Proc.devRef .tc main_v140) = par_w1 2 (V (Proc.devRef .tc main_arg11)) := by
  after_results_simp; rfl
theorem s9_v143 : after hostOps9 V (Proc.devRef .tc main_v143) = par_b1 2 (V (Proc.devRef .tc main_arg12)) := by
  after_results_simp; rfl
theorem s9_v145 : after hostOps9 V (Proc.devRef .tc main_v145) = par_w2 2 (V (Proc.devRef .tc main_arg13)) := by
  after_results_simp; rfl
theorem s9_v148 : after hostOps9 V (Proc.devRef .tc main_v148) = par_row128 2 (V (Proc.devRef .tc main_arg14)) := by
  after_results_simp; rfl
theorem s10_v158 : after hostOps10 V (Proc.devRef .tc main_v158) = row128 (meanOf (V (Proc.devRef .tc main_v149_1))) := by
  after_results_simp; rfl
theorem s10_v159 : after hostOps10 V (Proc.devRef .tc main_v159) = row128 (varOf (V (Proc.devRef .tc main_v149_1)) (V (Proc.devRef .tc main_v149_2))) := by
  after_results_simp; rfl
theorem s10_v162 : after hostOps10 V (Proc.devRef .tc main_v162) = par_row128 2 (V (Proc.devRef .tc main_arg15)) := by
  after_results_simp; rfl
theorem s10_v165 : after hostOps10 V (Proc.devRef .tc main_v165) = par_row128 2 (V (Proc.devRef .tc main_arg16)) := by
  after_results_simp; rfl

/-! ## Layer 3 -/

theorem s11_v168 : after hostOps11 V (Proc.devRef .tc main_v168) = par_lin_w 3 (V (Proc.devRef .tc main_arg9)) := by
  after_results; rfl
theorem s11_v171 : after hostOps11 V (Proc.devRef .tc main_v171) = par_row128 3 (V (Proc.devRef .tc main_arg10)) := by
  after_results; rfl
theorem s12_v188 : after hostOps12 V (Proc.devRef .tc main_v188)
    = agg (msg (V (Proc.devRef .tc main_v166)) (V (Proc.devRef .tc main_v172)) (V (Proc.devRef .tc main_v1))) (V (Proc.devRef .tc main_v3)) := by
  after_results_simp; rfl
theorem s12_v191 : after hostOps12 V (Proc.devRef .tc main_v191) = par_eps 3 (V (Proc.devRef .tc main_arg8)) := by
  after_results_simp; rfl
theorem s12_v193 : after hostOps12 V (Proc.devRef .tc main_v193) = par_w1 3 (V (Proc.devRef .tc main_arg11)) := by
  after_results_simp; rfl
theorem s12_v196 : after hostOps12 V (Proc.devRef .tc main_v196) = par_b1 3 (V (Proc.devRef .tc main_arg12)) := by
  after_results_simp; rfl
theorem s12_v198 : after hostOps12 V (Proc.devRef .tc main_v198) = par_w2 3 (V (Proc.devRef .tc main_arg13)) := by
  after_results_simp; rfl
theorem s12_v201 : after hostOps12 V (Proc.devRef .tc main_v201) = par_row128 3 (V (Proc.devRef .tc main_arg14)) := by
  after_results_simp; rfl
theorem s13_v211 : after hostOps13 V (Proc.devRef .tc main_v211) = row128 (meanOf (V (Proc.devRef .tc main_v202_1))) := by
  after_results_simp; rfl
theorem s13_v212 : after hostOps13 V (Proc.devRef .tc main_v212) = row128 (varOf (V (Proc.devRef .tc main_v202_1)) (V (Proc.devRef .tc main_v202_2))) := by
  after_results_simp; rfl
theorem s13_v215 : after hostOps13 V (Proc.devRef .tc main_v215) = par_row128 3 (V (Proc.devRef .tc main_arg15)) := by
  after_results_simp; rfl
theorem s13_v218 : after hostOps13 V (Proc.devRef .tc main_v218) = par_row128 3 (V (Proc.devRef .tc main_arg16)) := by
  after_results_simp; rfl

/-! ## Layer 4 -/

theorem s14_v221 : after hostOps14 V (Proc.devRef .tc main_v221) = par_lin_w 4 (V (Proc.devRef .tc main_arg9)) := by
  after_results; rfl
theorem s14_v224 : after hostOps14 V (Proc.devRef .tc main_v224) = par_row128 4 (V (Proc.devRef .tc main_arg10)) := by
  after_results; rfl
theorem s15_v241 : after hostOps15 V (Proc.devRef .tc main_v241)
    = agg (msg (V (Proc.devRef .tc main_v219)) (V (Proc.devRef .tc main_v225)) (V (Proc.devRef .tc main_v1))) (V (Proc.devRef .tc main_v3)) := by
  after_results_simp; rfl
theorem s15_v244 : after hostOps15 V (Proc.devRef .tc main_v244) = par_eps 4 (V (Proc.devRef .tc main_arg8)) := by
  after_results_simp; rfl
theorem s15_v246 : after hostOps15 V (Proc.devRef .tc main_v246) = par_w1 4 (V (Proc.devRef .tc main_arg11)) := by
  after_results_simp; rfl
theorem s15_v249 : after hostOps15 V (Proc.devRef .tc main_v249) = par_b1 4 (V (Proc.devRef .tc main_arg12)) := by
  after_results_simp; rfl
theorem s15_v251 : after hostOps15 V (Proc.devRef .tc main_v251) = par_w2 4 (V (Proc.devRef .tc main_arg13)) := by
  after_results_simp; rfl
theorem s15_v254 : after hostOps15 V (Proc.devRef .tc main_v254) = par_row128 4 (V (Proc.devRef .tc main_arg14)) := by
  after_results_simp; rfl
theorem s16_v264 : after hostOps16 V (Proc.devRef .tc main_v264) = row128 (meanOf (V (Proc.devRef .tc main_v255_1))) := by
  after_results_simp; rfl
theorem s16_v265 : after hostOps16 V (Proc.devRef .tc main_v265) = row128 (varOf (V (Proc.devRef .tc main_v255_1)) (V (Proc.devRef .tc main_v255_2))) := by
  after_results_simp; rfl
theorem s16_v268 : after hostOps16 V (Proc.devRef .tc main_v268) = par_row128 4 (V (Proc.devRef .tc main_arg15)) := by
  after_results_simp; rfl
theorem s16_v271 : after hostOps16 V (Proc.devRef .tc main_v271) = par_row128 4 (V (Proc.devRef .tc main_arg16)) := by
  after_results_simp; rfl

/-! ## After the fifth layer -/

theorem s17_v284 : after hostOps17 V (Proc.devRef .tc main_v284) = pooled (V (Proc.devRef .tc main_v272)) (V (Proc.devRef .tc main_arg3)) := by
  after_results_simp; rfl
theorem s17_v288 : after hostOps17 V (Proc.devRef .tc main_v288) = head1 (pooled (V (Proc.devRef .tc main_v272)) (V (Proc.devRef .tc main_arg3))) (V (Proc.devRef .tc main_arg17)) (V (Proc.devRef .tc main_arg18)) := by
  after_results_simp; rfl
theorem s17_1_v289 : after hostOps17_1 V (Proc.devRef .tc main_v289) = relu64 (V (Proc.devRef .tc main_v288)) := by
  after_results; rfl
theorem s17_2_v293 : after hostOps17_2 V (Proc.devRef .tc main_v293) = head2 (V (Proc.devRef .tc main_v289)) (V (Proc.devRef .tc main_arg19)) (V (Proc.devRef .tc main_arg20)) := by
  after_results; rfl

end Cert.KernelIdeal.KHost

end
-- ==== Proof.Spec.Affine.lean ====
/-
  The affine map of a row-major matrix: every output entry is the inner product of one row of `x` with one column
  of `w`, plus the bias of that column — `(x · w + b) (r, c) = ∑ k, x (r, k) * w (k, c) + b (0, c)`, over the
  extended reals, the bias a one-row matrix added to every row. `affineRelu` is the same followed by the positive
  part `max · 0`. Both are stated for any extents, index by index, so that a row block of the result is the same
  formula read at the block's rows.
-/
import Idealize.ShloMosaic.PureOps.Ideal
import Idealize.ShloMosaic.Lib.ValueIdx

noncomputable section

open scoped BigOperators

namespace Cert.Spec

open Idealize.ShloMosaic

/-- `x · w + b`: entry `(r, c)` is `∑ k, x (r, k) * w (k, c)` plus `b (0, c)`. -/
def affine {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ValueIdx.ix2 (i 0) k) * w (ValueIdx.ix2 k (i 1))) + b (ValueIdx.ix2 0 (i 1))

/-- The positive part of `x · w + b`, entry by entry. -/
def affineRelu {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (affine x w b i) 0

/-- `affine` at an index given by its two coordinates. -/
theorem affine_ix2 {M K N : Nat} (x : (⟨2, ![M, K]⟩ : Shape).Idx → EReal) (w : (⟨2, ![K, N]⟩ : Shape).Idx → EReal)
    (b : (⟨2, ![1, N]⟩ : Shape).Idx → EReal) (r : Fin M) (c : Fin N) :
    affine x w b (ValueIdx.ix2 r c) = (∑ k : Fin K, x (ValueIdx.ix2 r k) * w (ValueIdx.ix2 k c)) + b (ValueIdx.ix2 0 c) := rfl

/-- `affineRelu` at an index given by its two coordinates. -/
theorem affineRelu_ix2 {M K N : Nat} (x : (⟨2, ![M, K]⟩ : Shape).Idx → EReal) (w : (⟨2, ![K, N]⟩ : Shape).Idx → EReal)
    (b : (⟨2, ![1, N]⟩ : Shape).Idx → EReal) (r : Fin M) (c : Fin N) :
    affineRelu x w b (ValueIdx.ix2 r c)
      = max ((∑ k : Fin K, x (ValueIdx.ix2 r k) * w (ValueIdx.ix2 k c)) + b (ValueIdx.ix2 0 c)) 0 := rfl

/-- An entry of an affine map depends only on one row of `x`, one column of `w` and one bias entry: two affine
    maps whose operands agree there agree at that entry. This is what makes a row block of the result the affine
    map of the row block of `x`. -/
theorem affine_congr {M M' K N : Nat} (x : (⟨2, ![M', K]⟩ : Shape).Idx → EReal) (w : (⟨2, ![K, N]⟩ : Shape).Idx → EReal)
    (b : (⟨2, ![1, N]⟩ : Shape).Idx → EReal) (X : (⟨2, ![M, K]⟩ : Shape).Idx → EReal) (W : (⟨2, ![K, N]⟩ : Shape).Idx → EReal)
    (B : (⟨2, ![1, N]⟩ : Shape).Idx → EReal) (r : Fin M') (c : Fin N) (R : Fin M) (C : Fin N)
    (hx : ∀ k : Fin K, x (ValueIdx.ix2 r k) = X (ValueIdx.ix2 R k))
    (hw : ∀ k : Fin K, w (ValueIdx.ix2 k c) = W (ValueIdx.ix2 k C))
    (hb : b (ValueIdx.ix2 0 c) = B (ValueIdx.ix2 0 C)) :
    affine x w b (ValueIdx.ix2 r c) = affine X W B (ValueIdx.ix2 R C) := by
  rw [affine_ix2, affine_ix2, hb]
  exact congrArg (· + B (ValueIdx.ix2 0 C)) (Finset.sum_congr rfl fun k _ => by rw [hx k, hw k])

/-- The same for the positive part. -/
theorem affineRelu_congr {M M' K N : Nat} (x : (⟨2, ![M', K]⟩ : Shape).Idx → EReal) (w : (⟨2, ![K, N]⟩ : Shape).Idx → EReal)
    (b : (⟨2, ![1, N]⟩ : Shape).Idx → EReal) (X : (⟨2, ![M, K]⟩ : Shape).Idx → EReal) (W : (⟨2, ![K, N]⟩ : Shape).Idx → EReal)
    (B : (⟨2, ![1, N]⟩ : Shape).Idx → EReal) (r : Fin M') (c : Fin N) (R : Fin M) (C : Fin N)
    (hx : ∀ k : Fin K, x (ValueIdx.ix2 r k) = X (ValueIdx.ix2 R k))
    (hw : ∀ k : Fin K, w (ValueIdx.ix2 k c) = W (ValueIdx.ix2 k C))
    (hb : b (ValueIdx.ix2 0 c) = B (ValueIdx.ix2 0 C)) :
    affineRelu x w b (ValueIdx.ix2 r c) = affineRelu X W B (ValueIdx.ix2 R C) :=
  congrArg (max · 0) (affine_congr x w b X W B r c R C hx hw hb)

end Cert.Spec

end
-- ==== Proof.Spec.Mlp.lean ====
/-
  The value of one application of the two-layer perceptron that closes a GINE layer, as functions of whole arrays,
  index by index over the extended reals:

    pre  = h * (1 + eps) + agg                       (the node features rescaled, plus the aggregated messages)
    hid  = max (pre · w1 + b1) 0                     (first dense layer, rectified)
    z    = hid · w2 + b2                             (second dense layer)

  and the two partial statistics the batch normalisation that follows needs, taken over blocks of 2000 consecutive
  rows of `z`: for block `t` and column `c`, the sum of the block's entries in that column and the sum of their squares,
  each held in row 0 of an 8-row slab whose other rows are zero.

  The number 1 is kept as the word that spells it (0x3F800000), never evaluated: both sides of a comparison carry the
  same word. The order of every product and sum is the order in which the operations are applied.
-/
import Idealize.ShloMosaic.PureOps.Ideal
import Idealize.ShloMosaic.Lib.ValueIdx

noncomputable section

open scoped BigOperators

namespace Cert.Spec

open Idealize.ShloMosaic Idealize.ShloMosaic.ValueIdx

/-- The rescaled features plus the aggregated messages: `h * (1 + eps) + agg`, entry by entry; `eps` is one number. -/
def mlpPre (h agg : (⟨2, ![50000, 128]⟩ : Shape).Idx → EReal) (eps : (⟨2, ![1, 1]⟩ : Shape).Idx → EReal) :
    (⟨2, ![50000, 128]⟩ : Shape).Idx → EReal :=
  fun i => h i * (Ideal.ofBits .f32 0x3F800000#32 + eps (ix2 (0 : Fin 1) (0 : Fin 1))) + agg i

/-- The first dense layer, rectified: entry (r, c) is `max (∑ₖ pre (r, k) * w1 (k, c) + b1 c) 0`. -/
def mlpHid (pre : (⟨2, ![50000, 128]⟩ : Shape).Idx → EReal) (w1 : (⟨2, ![128, 256]⟩ : Shape).Idx → EReal)
    (b1 : (⟨2, ![1, 256]⟩ : Shape).Idx → EReal) : (⟨2, ![50000, 256]⟩ : Shape).Idx → EReal :=
  fun i => max ((∑ k : Fin 128, pre (ix2 (i 0) k) * w1 (ix2 k (i 1))) + b1 (ix2 (0 : Fin 1) (i 1))) 0

/-- The second dense layer: entry (r, c) is `∑ₖ hid (r, k) * w2 (k, c) + b2 c`. -/
def mlpOut (hid : (⟨2, ![50000, 256]⟩ : Shape).Idx → EReal) (w2 : (⟨2, ![256, 128]⟩ : Shape).Idx → EReal)
    (b2 : (⟨2, ![1, 128]⟩ : Shape).Idx → EReal) : (⟨2, ![50000, 128]⟩ : Shape).Idx → EReal :=
  fun i => (∑ k : Fin 256, hid (ix2 (i 0) k) * w2 (ix2 k (i 1))) + b2 (ix2 (0 : Fin 1) (i 1))

/-- The perceptron's output as one function of its seven arrays. -/
def mlpZ (h agg : (⟨2, ![50000, 128]⟩ : Shape).Idx → EReal) (eps : (⟨2, ![1, 1]⟩ : Shape).Idx → EReal)
    (w1 : (⟨2, ![128, 256]⟩ : Shape).Idx → EReal) (b1 : (⟨2, ![1, 256]⟩ : Shape).Idx → EReal)
    (w2 : (⟨2, ![256, 128]⟩ : Shape).Idx → EReal) (b2 : (⟨2, ![1, 128]⟩ : Shape).Idx → EReal) :
    (⟨2, ![50000, 128]⟩ : Shape).Idx → EReal :=
  mlpOut (mlpHid (mlpPre h agg eps) w1 b1) w2 b2

/-- Row `r` of the `t`-th block of 2000 rows is a row of the 50000-row array. -/
theorem mlpBlockRow_lt (t : Fin 25) (r : Fin 2000) : 2000 * t.val + r.val < 50000 := by
  have ht := t.isLt
  have hr := r.isLt
  omega

/-- Row `r` of the `t`-th block of 2000 rows, as a row of the whole array. -/
abbrev mlpBlockRow (t : Fin 25) (r : Fin 2000) : Fin 50000 := ⟨2000 * t.val + r.val, mlpBlockRow_lt t r⟩

/-- The column sums of each block of 2000 rows: slab `t` holds, in its row 0, the sum over the block's rows of each
    column of `z`; its rows 1 to 7 hold zero. -/
def blockSums (z : (⟨2, ![50000, 128]⟩ : Shape).Idx → EReal) : (⟨3, ![25, 8, 128]⟩ : Shape).Idx → EReal :=
  fun i => if (i 1).val = 0 then ∑ r : Fin 2000, z (ix2 (mlpBlockRow (i 0) r) (i 2)) else 0

/-- The column sums of squares of each block of 2000 rows, laid out as `blockSums`. -/
def blockSqSums (z : (⟨2, ![50000, 128]⟩ : Shape).Idx → EReal) : (⟨3, ![25, 8, 128]⟩ : Shape).Idx → EReal :=
  fun i => if (i 1).val = 0 then
      ∑ r : Fin 2000, z (ix2 (mlpBlockRow (i 0) r) (i 2)) * z (ix2 (mlpBlockRow (i 0) r) (i 2))
    else 0

/-! ## The functions at an index given by its coordinates -/

theorem mlpPre_apply (h agg : (⟨2, ![50000, 128]⟩ : Shape).Idx → EReal) (eps : (⟨2, ![1, 1]⟩ : Shape).Idx → EReal)
    (r : Fin 50000) (c : Fin 128) :
    mlpPre h agg eps (ix2 r c)
      = h (ix2 r c) * (Ideal.ofBits .f32 0x3F800000#32 + eps (ix2 (0 : Fin 1) (0 : Fin 1))) + agg (ix2 r c) := rfl

theorem mlpHid_apply (pre : (⟨2, ![50000, 128]⟩ : Shape).Idx → EReal) (w1 : (⟨2, ![128, 256]⟩ : Shape).Idx → EReal)
    (b1 : (⟨2, ![1, 256]⟩ : Shape).Idx → EReal) (r : Fin 50000) (c : Fin 256) :
    mlpHid pre w1 b1 (ix2 r c)
      = max ((∑ k : Fin 128, pre (ix2 r k) * w1 (ix2 k c)) + b1 (ix2 (0 : Fin 1) c)) 0 := rfl

theorem mlpOut_apply (hid : (⟨2, ![50000, 256]⟩ : Shape).Idx → EReal) (w2 : (⟨2, ![256, 128]⟩ : Shape).Idx → EReal)
    (b2 : (⟨2, ![1, 128]⟩ : Shape).Idx → EReal) (r : Fin 50000) (c : Fin 128) :
    mlpOut hid w2 b2 (ix2 r c) = (∑ k : Fin 256, hid (ix2 r k) * w2 (ix2 k c)) + b2 (ix2 (0 : Fin 1) c) := rfl

theorem blockSums_apply (z : (⟨2, ![50000, 128]⟩ : Shape).Idx → EReal) (t : Fin 25) (s : Fin 8) (c : Fin 128) :
    blockSums z (ix3 t s c) = if s.val = 0 then ∑ r : Fin 2000, z (ix2 (mlpBlockRow t r) c) else 0 := rfl

theorem blockSqSums_apply (z : (⟨2, ![50000, 128]⟩ : Shape).Idx → EReal) (t : Fin 25) (s : Fin 8) (c : Fin 128) :
    blockSqSums z (ix3 t s c)
      = if s.val = 0 then ∑ r : Fin 2000, z (ix2 (mlpBlockRow t r) c) * z (ix2 (mlpBlockRow t r) c) else 0 := rfl

end Cert.Spec

end
-- ==== Proof.Spec.NormRes.lean ====
/-
  Normalisation by given statistics, with a residual, then a rectifier — as ONE function of whole arrays.

  For a node array `z` of 50000 rows and 128 channels, a residual array `h` of the same shape, and four
  per-channel rows (`mean`, `var`, `g`, `b`, each 1 × 128), the entry at row `r`, channel `k` is

      max (((z r k − mean k) · rsqrt (var k + ε)) · g k + b k + h r k) 0 ,

  where ε is the single-precision word 0x3727C5AC read as an extended real (it is never evaluated: both sides
  of every equation below carry the same word). The grouping is the one written: the centred entry is scaled
  by the reciprocal root first, then by the gain; the shift is added, then the residual; the maximum with zero
  is last. Each per-channel row is read at its only row, 0, and at the entry's own channel: the rows are
  constant along the 50000 axis. Arithmetic is the extended reals' (`+`, `−`, `·`, `max`), and `rsqrt`
  is the extended reals' reciprocal square root `Ideal.rsqrt`.
-/
import Idealize.ShloMosaic.PureOps.Ideal
import Idealize.ShloMosaic.Lib.ValueIdx

noncomputable section

namespace Cert.Spec

open Idealize.ShloMosaic Idealize.ShloMosaic.ValueIdx

/-- The normalised, shifted, residual-added and rectified array, entry by entry: row `i 0`, channel `i 1`. -/
def normRes (z h : (⟨2, ![50000, 128]⟩ : Shape).Idx → EReal)
    (mean var g b : (⟨2, ![1, 128]⟩ : Shape).Idx → EReal) :
    (⟨2, ![50000, 128]⟩ : Shape).Idx → EReal :=
  fun i => max ((z i - mean (ix2 (0 : Fin 1) (i 1))) * Ideal.rsqrt (var (ix2 (0 : Fin 1) (i 1)) + Ideal.ofBits .f32 0x3727C5AC#32)
                  * g (ix2 (0 : Fin 1) (i 1)) + b (ix2 (0 : Fin 1) (i 1)) + h i) 0

/-- The same entry with the index given by its two coordinates: row `r`, channel `k`. -/
theorem normRes_ix2 (z h : (⟨2, ![50000, 128]⟩ : Shape).Idx → EReal)
    (mean var g b : (⟨2, ![1, 128]⟩ : Shape).Idx → EReal) (r : Fin 50000) (k : Fin 128) :
    normRes z h mean var g b (ix2 r k)
      = max ((z (ix2 r k) - mean (ix2 (0 : Fin 1) k)) * Ideal.rsqrt (var (ix2 (0 : Fin 1) k) + Ideal.ofBits .f32 0x3727C5AC#32)
                * g (ix2 (0 : Fin 1) k) + b (ix2 (0 : Fin 1) k) + h (ix2 r k)) 0 := rfl

end Cert.Spec

end
-- ==== Proof.K.Values.lean ====
/-
  The values the kernel program computes, named: the node features after each layer as functions of the argument
  arrays, each layer the same step — the edge projection, the messages summed into their destinations, the perceptron,
  the column statistics from the per-block partial sums, and the normalization with the residual.
-/
import proofs.«105345_j19885698580760_2_alg».proof.Proof.K.Stages
import proofs.«105345_j19885698580760_2_alg».proof.Proof.Spec.Affine
import proofs.«105345_j19885698580760_2_alg».proof.Proof.Spec.Mlp
import proofs.«105345_j19885698580760_2_alg».proof.Proof.Spec.NormRes

noncomputable section

namespace Cert.KernelIdeal.KVal

open Cert.KernelIdeal Cert.KernelIdeal.KStages Cert.KernelIdeal.Facts₀ Cert.KernelIdeal.Facts Idealize.ShloMosaic Idealize.ShloMosaic.TcCoe Idealize.SL.Sem Idealize.ShloMosaic.StableHlo

variable [Facts]

/-- The argument arrays, as one device's launch memory holds them. -/
structure Args where
  x : Tf Ideal S50000x64
  ei : Ti Ideal S2x640000
  ea : Tf Ideal S640000x16
  batch : Ti Ideal S50000
  node_w : Tf Ideal S64x128
  node_b : Tf Ideal S128
  edge_w : Tf Ideal S16x128
  edge_b : Tf Ideal S128
  eps : Tf Ideal S5
  lin_w : Tf Ideal S5x128x128
  lin_b : Tf Ideal S5x128
  w1 : Tf Ideal S5x128x256
  b1 : Tf Ideal S5x256
  w2 : Tf Ideal S5x256x128
  b2 : Tf Ideal S5x128
  g : Tf Ideal S5x128
  b : Tf Ideal S5x128
  ow1 : Tf Ideal S128x64
  ob1 : Tf Ideal S64
  ow2 : Tf Ideal S64x128
  ob2 : Tf Ideal S128

variable (a : Args)

/-- The encoded node features. -/
def h0 : Tf Ideal S50000x128 := Cert.Spec.affineRelu a.x a.node_w (row128 a.node_b)
/-- The encoded edge features. -/
def e : Tb Ideal S640000x128 := Cert.Spec.affine a.ea a.edge_w (row128 a.edge_b)
/-- Layer `l`'s edge projection. -/
def el (l : Fin 5) : Tb Ideal S640000x128 := Cert.Spec.affine (e a) (par_lin_w l a.lin_w) (par_row128 l a.lin_b)
/-- Layer `l`'s aggregated messages, from the node features `h`. -/
def aggOf (l : Fin 5) (h : Tf Ideal S50000x128) : Tf Ideal S50000x128 :=
  agg (msg h (el a l) (src_row a.ei)) (dst_row a.ei)
/-- Layer `l`'s perceptron output. -/
def zOf (l : Fin 5) (h : Tf Ideal S50000x128) : Tf Ideal S50000x128 :=
  Cert.Spec.mlpZ h (aggOf a l h) (par_eps l a.eps) (par_w1 l a.w1) (par_b1 l a.b1) (par_w2 l a.w2) (par_row128 l a.b2)
/-- Layer `l`'s column means, as a row. -/
def meanRow (l : Fin 5) (h : Tf Ideal S50000x128) : Tf Ideal S1x128 := row128 (meanOf (Cert.Spec.blockSums (zOf a l h)))
/-- Layer `l`'s column variances, as a row. -/
def varRow (l : Fin 5) (h : Tf Ideal S50000x128) : Tf Ideal S1x128 :=
  row128 (varOf (Cert.Spec.blockSums (zOf a l h)) (Cert.Spec.blockSqSums (zOf a l h)))
/-- One layer: the next node features. -/
def step (l : Fin 5) (h : Tf Ideal S50000x128) : Tf Ideal S50000x128 :=
  Cert.Spec.normRes (zOf a l h) h (meanRow a l h) (varRow a l h) (par_row128 l a.g) (par_row128 l a.b)

def h1 : Tf Ideal S50000x128 := step a 0 (h0 a)
def h2 : Tf Ideal S50000x128 := step a 1 (h1 a)
def h3 : Tf Ideal S50000x128 := step a 2 (h2 a)
def h4 : Tf Ideal S50000x128 := step a 3 (h3 a)
def h5 : Tf Ideal S50000x128 := step a 4 (h4 a)

/-- The pooled graph features: the second result. -/
def pooledV : Tf Ideal S128x128 := pooled (h5 a) a.batch
/-- The logits: the first result. -/
def logitsV : Tf Ideal S128x128 := logits (pooledV a) a.ow1 a.ob1 a.ow2 a.ob2

end Cert.KernelIdeal.KVal

end
-- ==== Proof.K.ChainBase.lean ====
/-
  The boundaries of the kernel program's run — the buffer contents `Wk` between its host stretches and regions — read
  at the launch memory's argument arrays: the arguments as one record, and the tactic that shows a stretch of host
  operations leaves a buffer it does not write as it was.
-/
import proofs.«105345_j19885698580760_2_alg».proof.Proof.Gen.KernelIdeal.Frame
import proofs.«105345_j19885698580760_2_alg».proof.Proof.K.Host
import proofs.«105345_j19885698580760_2_alg».proof.Proof.K.Values

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

/-- A stretch of host operations leaves a buffer none of them writes as it found it. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- The argument arrays as device `c`'s launch memory holds them. -/
def argsOf : KVal.Args where
  x := m ((c : Thread nD τ).loc main_arg0)
  ei := m ((c : Thread nD τ).loc main_arg1)
  ea := m ((c : Thread nD τ).loc main_arg2)
  batch := m ((c : Thread nD τ).loc main_arg3)
  node_w := m ((c : Thread nD τ).loc main_arg4)
  node_b := m ((c : Thread nD τ).loc main_arg5)
  edge_w := m ((c : Thread nD τ).loc main_arg6)
  edge_b := m ((c : Thread nD τ).loc main_arg7)
  eps := m ((c : Thread nD τ).loc main_arg8)
  lin_w := m ((c : Thread nD τ).loc main_arg9)
  lin_b := m ((c : Thread nD τ).loc main_arg10)
  w1 := m ((c : Thread nD τ).loc main_arg11)
  b1 := m ((c : Thread nD τ).loc main_arg12)
  w2 := m ((c : Thread nD τ).loc main_arg13)
  b2 := m ((c : Thread nD τ).loc main_arg14)
  g := m ((c : Thread nD τ).loc main_arg15)
  b := m ((c : Thread nD τ).loc main_arg16)
  ow1 := m ((c : Thread nD τ).loc main_arg17)
  ob1 := m ((c : Thread nD τ).loc main_arg18)
  ow2 := m ((c : Thread nD τ).loc main_arg19)
  ob2 := m ((c : Thread nD τ).loc main_arg20)

end Cert.KernelIdeal.KChain

end
-- ==== Proof.K.Keep1.lean ====
/-
  Buffers carried unchanged across the boundaries W0 … W4 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_arg0_1_0 : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

theorem keep_arg4_1_0 : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl

theorem keep_v5_4_2 : W4 m ρ c (Proc.devRef .tc main_v5) = W2 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by host_keeps hostOps1

theorem keep_arg2_3_0 : W3 m ρ c (Proc.devRef .tc main_arg2) = m ((c : Thread nD τ).loc main_arg2) :=
  calc W3 m ρ c (Proc.devRef .tc main_arg2)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

theorem keep_arg6_3_0 : W3 m ρ c (Proc.devRef .tc main_arg6) = m ((c : Thread nD τ).loc main_arg6) :=
  calc W3 m ρ c (Proc.devRef .tc main_arg6)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem keep_arg7_2_0 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

theorem keep_arg9_4_0 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem keep_arg10_4_0 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

theorem keep_v1_4_1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_of_ne m ρ c main_v1 (by decide)

theorem keep_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)

theorem keep_arg8_4_0 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

theorem keep_arg11_4_0 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

theorem keep_arg12_4_0 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

theorem keep_arg13_4_0 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

theorem keep_arg14_4_0 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

theorem keep_arg15_4_0 : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

theorem keep_arg16_4_0 : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl

theorem keep_arg3_4_0 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem keep_arg17_4_0 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl

theorem keep_arg18_4_0 : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by host_keeps hostOps1
    _ = W1 m ρ c (Proc.devRef .tc main_arg18) := W2_of_ne m ρ c main_arg18 (by decide)
    _ = W0 m ρ c (Proc.devRef .tc main_arg18) := by host_keeps hostOps0
    _ = m ((c : Thread nD τ).loc main_arg18) := rfl

theorem keep_arg19_4_0 : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := by host_keeps hostOps1
    _ = W1 m ρ c (Proc.devRef .tc main_arg19) := W2_of_ne m ρ c main_arg19 (by decide)
    _ = W0 m ρ c (Proc.devRef .tc main_arg19) := by host_keeps hostOps0
    _ = m ((c : Thread nD τ).loc main_arg19) := rfl

theorem keep_arg20_4_0 : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := by host_keeps hostOps1
    _ = W1 m ρ c (Proc.devRef .tc main_arg20) := W2_of_ne m ρ c main_arg20 (by decide)
    _ = W0 m ρ c (Proc.devRef .tc main_arg20) := by host_keeps hostOps0
    _ = m ((c : Thread nD τ).loc main_arg20) := rfl

end Cert.KernelIdeal.KChain

end
-- ==== Proof.K.Keep2.lean ====
/-
  Buffers carried unchanged across the boundaries W4 … W10 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_v5_7_4 : W7 m ρ c (Proc.devRef .tc main_v5) = W4 m ρ c (Proc.devRef .tc main_v5) :=
  calc W7 m ρ c (Proc.devRef .tc main_v5)
    _ = W6 m ρ c (Proc.devRef .tc main_v5) := by host_keeps hostOps3
    _ = W5 m ρ c (Proc.devRef .tc main_v5) := W6_of_ne m ρ c main_v5 (by decide)
    _ = W4 m ρ c (Proc.devRef .tc main_v5) := by host_keeps hostOps2

theorem keep_v5_6_4 : W6 m ρ c (Proc.devRef .tc main_v5) = W4 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by host_keeps hostOps2

theorem keep_v7_5_4 : W5 m ρ c (Proc.devRef .tc main_v7) = W4 m ρ c (Proc.devRef .tc main_v7) :=
  calc W5 m ρ c (Proc.devRef .tc main_v7)
    _ = W4 m ρ c (Proc.devRef .tc main_v7) := by host_keeps hostOps2

theorem keep_v1_6_4 : W6 m ρ c (Proc.devRef .tc main_v1) = W4 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by host_keeps hostOps2

theorem keep_v3_6_4 : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keeps hostOps2

theorem keep_arg8_6_4 : W6 m ρ c (Proc.devRef .tc main_arg8) = W4 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_keeps hostOps2

theorem keep_arg11_6_4 : W6 m ρ c (Proc.devRef .tc main_arg11) = W4 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keeps hostOps2

theorem keep_arg12_6_4 : W6 m ρ c (Proc.devRef .tc main_arg12) = W4 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keeps hostOps2

theorem keep_arg13_6_4 : W6 m ρ c (Proc.devRef .tc main_arg13) = W4 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := by host_keeps hostOps2

theorem keep_arg14_6_4 : W6 m ρ c (Proc.devRef .tc main_arg14) = W4 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := by host_keeps hostOps2

theorem keep_v43_0_9_8 : W9 m ρ c (Proc.devRef .tc main_v43_0) = W8 m ρ c (Proc.devRef .tc main_v43_0) :=
  calc W9 m ρ c (Proc.devRef .tc main_v43_0)
    _ = W8 m ρ c (Proc.devRef .tc main_v43_0) := by host_keeps hostOps4

theorem keep_v5_9_4 : W9 m ρ c (Proc.devRef .tc main_v5) = W4 m ρ c (Proc.devRef .tc main_v5) :=
  calc W9 m ρ c (Proc.devRef .tc main_v5)
    _ = W8 m ρ c (Proc.devRef .tc main_v5) := by host_keeps hostOps4
    _ = W7 m ρ c (Proc.devRef .tc main_v5) := (W8_arr m ρ c 0).trans (((dat3 (V7 m ρ) c).arrAt_in 0 rfl _).trans (A_eq3 (V7 m ρ) c 0))
    _ = W6 m ρ c (Proc.devRef .tc main_v5) := by host_keeps hostOps3
    _ = W5 m ρ c (Proc.devRef .tc main_v5) := W6_of_ne m ρ c main_v5 (by decide)
    _ = W4 m ρ c (Proc.devRef .tc main_v5) := by host_keeps hostOps2

theorem keep_arg15_8_4 : W8 m ρ c (Proc.devRef .tc main_arg15) = W4 m ρ c (Proc.devRef .tc main_arg15) :=
  calc W8 m ρ c (Proc.devRef .tc main_arg15)
    _ = W7 m ρ c (Proc.devRef .tc main_arg15) := W8_of_ne m ρ c main_arg15 (by decide)
    _ = W6 m ρ c (Proc.devRef .tc main_arg15) := by host_keeps hostOps3
    _ = W5 m ρ c (Proc.devRef .tc main_arg15) := W6_of_ne m ρ c main_arg15 (by decide)
    _ = W4 m ρ c (Proc.devRef .tc main_arg15) := by host_keeps hostOps2

theorem keep_arg16_8_4 : W8 m ρ c (Proc.devRef .tc main_arg16) = W4 m ρ c (Proc.devRef .tc main_arg16) :=
  calc W8 m ρ c (Proc.devRef .tc main_arg16)
    _ = W7 m ρ c (Proc.devRef .tc main_arg16) := W8_of_ne m ρ c main_arg16 (by decide)
    _ = W6 m ρ c (Proc.devRef .tc main_arg16) := by host_keeps hostOps3
    _ = W5 m ρ c (Proc.devRef .tc main_arg16) := W6_of_ne m ρ c main_arg16 (by decide)
    _ = W4 m ρ c (Proc.devRef .tc main_arg16) := by host_keeps hostOps2

theorem keep_v7_10_4 : W10 m ρ c (Proc.devRef .tc main_v7) = W4 m ρ c (Proc.devRef .tc main_v7) :=
  calc W10 m ρ c (Proc.devRef .tc main_v7)
    _ = W9 m ρ c (Proc.devRef .tc main_v7) := W10_of_ne m ρ c main_v7 (by decide)
    _ = W8 m ρ c (Proc.devRef .tc main_v7) := by host_keeps hostOps4
    _ = W7 m ρ c (Proc.devRef .tc main_v7) := W8_of_ne m ρ c main_v7 (by decide)
    _ = W6 m ρ c (Proc.devRef .tc main_v7) := by host_keeps hostOps3
    _ = W5 m ρ c (Proc.devRef .tc main_v7) := (W6_arr m ρ c 0).trans (((dat2 (V5 m ρ) c).arrAt_in 0 rfl _).trans (A_eq2 (V5 m ρ) c 0))
    _ = W4 m ρ c (Proc.devRef .tc main_v7) := by host_keeps hostOps2

theorem keep_arg9_10_4 : W10 m ρ c (Proc.devRef .tc main_arg9) = W4 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := by host_keeps hostOps4
    _ = W7 m ρ c (Proc.devRef .tc main_arg9) := W8_of_ne m ρ c main_arg9 (by decide)
    _ = W6 m ρ c (Proc.devRef .tc main_arg9) := by host_keeps hostOps3
    _ = W5 m ρ c (Proc.devRef .tc main_arg9) := W6_of_ne m ρ c main_arg9 (by decide)
    _ = W4 m ρ c (Proc.devRef .tc main_arg9) := by host_keeps hostOps2

theorem keep_arg10_10_4 : W10 m ρ c (Proc.devRef .tc main_arg10) = W4 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := by host_keeps hostOps4
    _ = W7 m ρ c (Proc.devRef .tc main_arg10) := W8_of_ne m ρ c main_arg10 (by decide)
    _ = W6 m ρ c (Proc.devRef .tc main_arg10) := by host_keeps hostOps3
    _ = W5 m ρ c (Proc.devRef .tc main_arg10) := W6_of_ne m ρ c main_arg10 (by decide)
    _ = W4 m ρ c (Proc.devRef .tc main_arg10) := by host_keeps hostOps2

theorem keep_v1_10_4 : W10 m ρ c (Proc.devRef .tc main_v1) = W4 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keeps hostOps4
    _ = W7 m ρ c (Proc.devRef .tc main_v1) := W8_of_ne m ρ c main_v1 (by decide)
    _ = W6 m ρ c (Proc.devRef .tc main_v1) := by host_keeps hostOps3
    _ = W5 m ρ c (Proc.devRef .tc main_v1) := W6_of_ne m ρ c main_v1 (by decide)
    _ = W4 m ρ c (Proc.devRef .tc main_v1) := by host_keeps hostOps2

theorem keep_v3_10_4 : W10 m ρ c (Proc.devRef .tc main_v3) = W4 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keeps hostOps4
    _ = W7 m ρ c (Proc.devRef .tc main_v3) := W8_of_ne m ρ c main_v3 (by decide)
    _ = W6 m ρ c (Proc.devRef .tc main_v3) := by host_keeps hostOps3
    _ = W5 m ρ c (Proc.devRef .tc main_v3) := W6_of_ne m ρ c main_v3 (by decide)
    _ = W4 m ρ c (Proc.devRef .tc main_v3) := by host_keeps hostOps2

theorem keep_arg8_10_4 : W10 m ρ c (Proc.devRef .tc main_arg8) = W4 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := by host_keeps hostOps4
    _ = W7 m ρ c (Proc.devRef .tc main_arg8) := W8_of_ne m ρ c main_arg8 (by decide)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := by host_keeps hostOps2

theorem keep_arg11_10_4 : W10 m ρ c (Proc.devRef .tc main_arg11) = W4 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := by host_keeps hostOps4
    _ = W7 m ρ c (Proc.devRef .tc main_arg11) := W8_of_ne m ρ c main_arg11 (by decide)
    _ = W6 m ρ c (Proc.devRef .tc main_arg11) := by host_keeps hostOps3
    _ = W5 m ρ c (Proc.devRef .tc main_arg11) := W6_of_ne m ρ c main_arg11 (by decide)
    _ = W4 m ρ c (Proc.devRef .tc main_arg11) := by host_keeps hostOps2

theorem keep_arg12_10_4 : W10 m ρ c (Proc.devRef .tc main_arg12) = W4 m ρ c (Proc.devRef .tc main_arg12) :=
  calc W10 m ρ c (Proc.devRef .tc main_arg12)
    _ = W9 m ρ c (Proc.devRef .tc main_arg12) := W10_of_ne m ρ c main_arg12 (by decide)
    _ = W8 m ρ c (Proc.devRef .tc main_arg12) := by host_keeps hostOps4
    _ = W7 m ρ c (Proc.devRef .tc main_arg12) := W8_of_ne m ρ c main_arg12 (by decide)
    _ = W6 m ρ c (Proc.devRef .tc main_arg12) := by host_keeps hostOps3
    _ = W5 m ρ c (Proc.devRef .tc main_arg12) := W6_of_ne m ρ c main_arg12 (by decide)
    _ = W4 m ρ c (Proc.devRef .tc main_arg12) := by host_keeps hostOps2

theorem keep_arg13_10_4 : W10 m ρ c (Proc.devRef .tc main_arg13) = W4 m ρ c (Proc.devRef .tc main_arg13) :=
  calc W10 m ρ c (Proc.devRef .tc main_arg13)
    _ = W9 m ρ c (Proc.devRef .tc main_arg13) := W10_of_ne m ρ c main_arg13 (by decide)
    _ = W8 m ρ c (Proc.devRef .tc main_arg13) := by host_keeps hostOps4
    _ = W7 m ρ c (Proc.devRef .tc main_arg13) := W8_of_ne m ρ c main_arg13 (by decide)
    _ = W6 m ρ c (Proc.devRef .tc main_arg13) := by host_keeps hostOps3
    _ = W5 m ρ c (Proc.devRef .tc main_arg13) := W6_of_ne m ρ c main_arg13 (by decide)
    _ = W4 m ρ c (Proc.devRef .tc main_arg13) := by host_keeps hostOps2

theorem keep_arg14_10_4 : W10 m ρ c (Proc.devRef .tc main_arg14) = W4 m ρ c (Proc.devRef .tc main_arg14) :=
  calc W10 m ρ c (Proc.devRef .tc main_arg14)
    _ = W9 m ρ c (Proc.devRef .tc main_arg14) := W10_of_ne m ρ c main_arg14 (by decide)
    _ = W8 m ρ c (Proc.devRef .tc main_arg14) := by host_keeps hostOps4
    _ = W7 m ρ c (Proc.devRef .tc main_arg14) := W8_of_ne m ρ c main_arg14 (by decide)
    _ = W6 m ρ c (Proc.devRef .tc main_arg14) := by host_keeps hostOps3
    _ = W5 m ρ c (Proc.devRef .tc main_arg14) := W6_of_ne m ρ c main_arg14 (by decide)
    _ = W4 m ρ c (Proc.devRef .tc main_arg14) := by host_keeps hostOps2

theorem keep_arg15_10_4 : W10 m ρ c (Proc.devRef .tc main_arg15) = W4 m ρ c (Proc.devRef .tc main_arg15) :=
  calc W10 m ρ c (Proc.devRef .tc main_arg15)
    _ = W9 m ρ c (Proc.devRef .tc main_arg15) := W10_of_ne m ρ c main_arg15 (by decide)
    _ = W8 m ρ c (Proc.devRef .tc main_arg15) := by host_keeps hostOps4
    _ = W7 m ρ c (Proc.devRef .tc main_arg15) := W8_of_ne m ρ c main_arg15 (by decide)
    _ = W6 m ρ c (Proc.devRef .tc main_arg15) := by host_keeps hostOps3
    _ = W5 m ρ c (Proc.devRef .tc main_arg15) := W6_of_ne m ρ c main_arg15 (by decide)
    _ = W4 m ρ c (Proc.devRef .tc main_arg15) := by host_keeps hostOps2

theorem keep_arg16_10_4 : W10 m ρ c (Proc.devRef .tc main_arg16) = W4 m ρ c (Proc.devRef .tc main_arg16) :=
  calc W10 m ρ c (Proc.devRef .tc main_arg16)
    _ = W9 m ρ c (Proc.devRef .tc main_arg16) := W10_of_ne m ρ c main_arg16 (by decide)
    _ = W8 m ρ c (Proc.devRef .tc main_arg16) := by host_keeps hostOps4
    _ = W7 m ρ c (Proc.devRef .tc main_arg16) := W8_of_ne m ρ c main_arg16 (by decide)
    _ = W6 m ρ c (Proc.devRef .tc main_arg16) := by host_keeps hostOps3
    _ = W5 m ρ c (Proc.devRef .tc main_arg16) := W6_of_ne m ρ c main_arg16 (by decide)
    _ = W4 m ρ c (Proc.devRef .tc main_arg16) := by host_keeps hostOps2

theorem keep_arg3_10_4 : W10 m ρ c (Proc.devRef .tc main_arg3) = W4 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := by host_keeps hostOps4
    _ = W7 m ρ c (Proc.devRef .tc main_arg3) := W8_of_ne m ρ c main_arg3 (by decide)
    _ = W6 m ρ c (Proc.devRef .tc main_arg3) := by host_keeps hostOps3
    _ = W5 m ρ c (Proc.devRef .tc main_arg3) := W6_of_ne m ρ c main_arg3 (by decide)
    _ = W4 m ρ c (Proc.devRef .tc main_arg3) := by host_keeps hostOps2

theorem keep_arg17_10_4 : W10 m ρ c (Proc.devRef .tc main_arg17) = W4 m ρ c (Proc.devRef .tc main_arg17) :=
  calc W10 m ρ c (Proc.devRef .tc main_arg17)
    _ = W9 m ρ c (Proc.devRef .tc main_arg17) := W10_of_ne m ρ c main_arg17 (by decide)
    _ = W8 m ρ c (Proc.devRef .tc main_arg17) := by host_keeps hostOps4
    _ = W7 m ρ c (Proc.devRef .tc main_arg17) := W8_of_ne m ρ c main_arg17 (by decide)
    _ = W6 m ρ c (Proc.devRef .tc main_arg17) := by host_keeps hostOps3
    _ = W5 m ρ c (Proc.devRef .tc main_arg17) := W6_of_ne m ρ c main_arg17 (by decide)
    _ = W4 m ρ c (Proc.devRef .tc main_arg17) := by host_keeps hostOps2

theorem keep_arg18_10_4 : W10 m ρ c (Proc.devRef .tc main_arg18) = W4 m ρ c (Proc.devRef .tc main_arg18) :=
  calc W10 m ρ c (Proc.devRef .tc main_arg18)
    _ = W9 m ρ c (Proc.devRef .tc main_arg18) := W10_of_ne m ρ c main_arg18 (by decide)
    _ = W8 m ρ c (Proc.devRef .tc main_arg18) := by host_keeps hostOps4
    _ = W7 m ρ c (Proc.devRef .tc main_arg18) := W8_of_ne m ρ c main_arg18 (by decide)
    _ = W6 m ρ c (Proc.devRef .tc main_arg18) := by host_keeps hostOps3
    _ = W5 m ρ c (Proc.devRef .tc main_arg18) := W6_of_ne m ρ c main_arg18 (by decide)
    _ = W4 m ρ c (Proc.devRef .tc main_arg18) := by host_keeps hostOps2

theorem keep_arg19_10_4 : W10 m ρ c (Proc.devRef .tc main_arg19) = W4 m ρ c (Proc.devRef .tc main_arg19) :=
  calc W10 m ρ c (Proc.devRef .tc main_arg19)
    _ = W9 m ρ c (Proc.devRef .tc main_arg19) := W10_of_ne m ρ c main_arg19 (by decide)
    _ = W8 m ρ c (Proc.devRef .tc main_arg19) := by host_keeps hostOps4
    _ = W7 m ρ c (Proc.devRef .tc main_arg19) := W8_of_ne m ρ c main_arg19 (by decide)
    _ = W6 m ρ c (Proc.devRef .tc main_arg19) := by host_keeps hostOps3
    _ = W5 m ρ c (Proc.devRef .tc main_arg19) := W6_of_ne m ρ c main_arg19 (by decide)
    _ = W4 m ρ c (Proc.devRef .tc main_arg19) := by host_keeps hostOps2

theorem keep_arg20_10_4 : W10 m ρ c (Proc.devRef .tc main_arg20) = W4 m ρ c (Proc.devRef .tc main_arg20) :=
  calc W10 m ρ c (Proc.devRef .tc main_arg20)
    _ = W9 m ρ c (Proc.devRef .tc main_arg20) := W10_of_ne m ρ c main_arg20 (by decide)
    _ = W8 m ρ c (Proc.devRef .tc main_arg20) := by host_keeps hostOps4
    _ = W7 m ρ c (Proc.devRef .tc main_arg20) := W8_of_ne m ρ c main_arg20 (by decide)
    _ = W6 m ρ c (Proc.devRef .tc main_arg20) := by host_keeps hostOps3
    _ = W5 m ρ c (Proc.devRef .tc main_arg20) := W6_of_ne m ρ c main_arg20 (by decide)
    _ = W4 m ρ c (Proc.devRef .tc main_arg20) := by host_keeps hostOps2

end Cert.KernelIdeal.KChain

end
-- ==== Proof.K.Keep3.lean ====
/-
  Buffers carried unchanged across the boundaries W10 … W16 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_v60_13_10 : W13 m ρ c (Proc.devRef .tc main_v60) = W10 m ρ c (Proc.devRef .tc main_v60) :=
  calc W13 m ρ c (Proc.devRef .tc main_v60)
    _ = W12 m ρ c (Proc.devRef .tc main_v60) := by host_keeps hostOps6
    _ = W11 m ρ c (Proc.devRef .tc main_v60) := W12_of_ne m ρ c main_v60 (by decide)
    _ = W10 m ρ c (Proc.devRef .tc main_v60) := by host_keeps hostOps5

theorem keep_v60_12_10 : W12 m ρ c (Proc.devRef .tc main_v60) = W10 m ρ c (Proc.devRef .tc main_v60) :=
  calc W12 m ρ c (Proc.devRef .tc main_v60)
    _ = W11 m ρ c (Proc.devRef .tc main_v60) := W12_of_ne m ρ c main_v60 (by decide)
    _ = W10 m ρ c (Proc.devRef .tc main_v60) := by host_keeps hostOps5

theorem keep_v7_11_10 : W11 m ρ c (Proc.devRef .tc main_v7) = W10 m ρ c (Proc.devRef .tc main_v7) :=
  calc W11 m ρ c (Proc.devRef .tc main_v7)
    _ = W10 m ρ c (Proc.devRef .tc main_v7) := by host_keeps hostOps5

theorem keep_v1_12_10 : W12 m ρ c (Proc.devRef .tc main_v1) = W10 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by host_keeps hostOps5

theorem keep_v3_12_10 : W12 m ρ c (Proc.devRef .tc main_v3) = W10 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by host_keeps hostOps5

theorem keep_arg8_12_10 : W12 m ρ c (Proc.devRef .tc main_arg8) = W10 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keeps hostOps5

theorem keep_arg11_12_10 : W12 m ρ c (Proc.devRef .tc main_arg11) = W10 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := by host_keeps hostOps5

theorem keep_arg12_12_10 : W12 m ρ c (Proc.devRef .tc main_arg12) = W10 m ρ c (Proc.devRef .tc main_arg12) :=
  calc W12 m ρ c (Proc.devRef .tc main_arg12)
    _ = W11 m ρ c (Proc.devRef .tc main_arg12) := W12_of_ne m ρ c main_arg12 (by decide)
    _ = W10 m ρ c (Proc.devRef .tc main_arg12) := by host_keeps hostOps5

theorem keep_arg13_12_10 : W12 m ρ c (Proc.devRef .tc main_arg13) = W10 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := by host_keeps hostOps5

theorem keep_arg14_12_10 : W12 m ρ c (Proc.devRef .tc main_arg14) = W10 m ρ c (Proc.devRef .tc main_arg14) :=
  calc W12 m ρ c (Proc.devRef .tc main_arg14)
    _ = W11 m ρ c (Proc.devRef .tc main_arg14) := W12_of_ne m ρ c main_arg14 (by decide)
    _ = W10 m ρ c (Proc.devRef .tc main_arg14) := by host_keeps hostOps5

theorem keep_v96_0_15_14 : W15 m ρ c (Proc.devRef .tc main_v96_0) = W14 m ρ c (Proc.devRef .tc main_v96_0) :=
  calc W15 m ρ c (Proc.devRef .tc main_v96_0)
    _ = W14 m ρ c (Proc.devRef .tc main_v96_0) := by host_keeps hostOps7

theorem keep_v60_15_10 : W15 m ρ c (Proc.devRef .tc main_v60) = W10 m ρ c (Proc.devRef .tc main_v60) :=
  calc W15 m ρ c (Proc.devRef .tc main_v60)
    _ = W14 m ρ c (Proc.devRef .tc main_v60) := by host_keeps hostOps7
    _ = W13 m ρ c (Proc.devRef .tc main_v60) := (W14_arr m ρ c 0).trans (((dat6 (V13 m ρ) c).arrAt_in 0 rfl _).trans (A_eq6 (V13 m ρ) c 0))
    _ = W12 m ρ c (Proc.devRef .tc main_v60) := by host_keeps hostOps6
    _ = W11 m ρ c (Proc.devRef .tc main_v60) := W12_of_ne m ρ c main_v60 (by decide)
    _ = W10 m ρ c (Proc.devRef .tc main_v60) := by host_keeps hostOps5

theorem keep_arg15_14_10 : W14 m ρ c (Proc.devRef .tc main_arg15) = W10 m ρ c (Proc.devRef .tc main_arg15) :=
  calc W14 m ρ c (Proc.devRef .tc main_arg15)
    _ = W13 m ρ c (Proc.devRef .tc main_arg15) := W14_of_ne m ρ c main_arg15 (by decide)
    _ = W12 m ρ c (Proc.devRef .tc main_arg15) := by host_keeps hostOps6
    _ = W11 m ρ c (Proc.devRef .tc main_arg15) := W12_of_ne m ρ c main_arg15 (by decide)
    _ = W10 m ρ c (Proc.devRef .tc main_arg15) := by host_keeps hostOps5

theorem keep_arg16_14_10 : W14 m ρ c (Proc.devRef .tc main_arg16) = W10 m ρ c (Proc.devRef .tc main_arg16) :=
  calc W14 m ρ c (Proc.devRef .tc main_arg16)
    _ = W13 m ρ c (Proc.devRef .tc main_arg16) := W14_of_ne m ρ c main_arg16 (by decide)
    _ = W12 m ρ c (Proc.devRef .tc main_arg16) := by host_keeps hostOps6
    _ = W11 m ρ c (Proc.devRef .tc main_arg16) := W12_of_ne m ρ c main_arg16 (by decide)
    _ = W10 m ρ c (Proc.devRef .tc main_arg16) := by host_keeps hostOps5

theorem keep_v7_16_10 : W16 m ρ c (Proc.devRef .tc main_v7) = W10 m ρ c (Proc.devRef .tc main_v7) :=
  calc W16 m ρ c (Proc.devRef .tc main_v7)
    _ = W15 m ρ c (Proc.devRef .tc main_v7) := W16_of_ne m ρ c main_v7 (by decide)
    _ = W14 m ρ c (Proc.devRef .tc main_v7) := by host_keeps hostOps7
    _ = W13 m ρ c (Proc.devRef .tc main_v7) := W14_of_ne m ρ c main_v7 (by decide)
    _ = W12 m ρ c (Proc.devRef .tc main_v7) := by host_keeps hostOps6
    _ = W11 m ρ c (Proc.devRef .tc main_v7) := (W12_arr m ρ c 0).trans (((dat5 (V11 m ρ) c).arrAt_in 0 rfl _).trans (A_eq5 (V11 m ρ) c 0))
    _ = W10 m ρ c (Proc.devRef .tc main_v7) := by host_keeps hostOps5

theorem keep_arg9_16_10 : W16 m ρ c (Proc.devRef .tc main_arg9) = W10 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := by host_keeps hostOps7
    _ = W13 m ρ c (Proc.devRef .tc main_arg9) := W14_of_ne m ρ c main_arg9 (by decide)
    _ = W12 m ρ c (Proc.devRef .tc main_arg9) := by host_keeps hostOps6
    _ = W11 m ρ c (Proc.devRef .tc main_arg9) := W12_of_ne m ρ c main_arg9 (by decide)
    _ = W10 m ρ c (Proc.devRef .tc main_arg9) := by host_keeps hostOps5

theorem keep_arg10_16_10 : W16 m ρ c (Proc.devRef .tc main_arg10) = W10 m ρ c (Proc.devRef .tc main_arg10) :=
  calc W16 m ρ c (Proc.devRef .tc main_arg10)
    _ = W15 m ρ c (Proc.devRef .tc main_arg10) := W16_of_ne m ρ c main_arg10 (by decide)
    _ = W14 m ρ c (Proc.devRef .tc main_arg10) := by host_keeps hostOps7
    _ = W13 m ρ c (Proc.devRef .tc main_arg10) := W14_of_ne m ρ c main_arg10 (by decide)
    _ = W12 m ρ c (Proc.devRef .tc main_arg10) := by host_keeps hostOps6
    _ = W11 m ρ c (Proc.devRef .tc main_arg10) := W12_of_ne m ρ c main_arg10 (by decide)
    _ = W10 m ρ c (Proc.devRef .tc main_arg10) := by host_keeps hostOps5

theorem keep_v1_16_10 : W16 m ρ c (Proc.devRef .tc main_v1) = W10 m ρ c (Proc.devRef .tc main_v1) :=
  calc W16 m ρ c (Proc.devRef .tc main_v1)
    _ = W15 m ρ c (Proc.devRef .tc main_v1) := W16_of_ne m ρ c main_v1 (by decide)
    _ = W14 m ρ c (Proc.devRef .tc main_v1) := by host_keeps hostOps7
    _ = W13 m ρ c (Proc.devRef .tc main_v1) := W14_of_ne m ρ c main_v1 (by decide)
    _ = W12 m ρ c (Proc.devRef .tc main_v1) := by host_keeps hostOps6
    _ = W11 m ρ c (Proc.devRef .tc main_v1) := W12_of_ne m ρ c main_v1 (by decide)
    _ = W10 m ρ c (Proc.devRef .tc main_v1) := by host_keeps hostOps5

theorem keep_v3_16_10 : W16 m ρ c (Proc.devRef .tc main_v3) = W10 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by host_keeps hostOps7
    _ = W13 m ρ c (Proc.devRef .tc main_v3) := W14_of_ne m ρ c main_v3 (by decide)
    _ = W12 m ρ c (Proc.devRef .tc main_v3) := by host_keeps hostOps6
    _ = W11 m ρ c (Proc.devRef .tc main_v3) := W12_of_ne m ρ c main_v3 (by decide)
    _ = W10 m ρ c (Proc.devRef .tc main_v3) := by host_keeps hostOps5

theorem keep_arg8_16_10 : W16 m ρ c (Proc.devRef .tc main_arg8) = W10 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := by host_keeps hostOps7
    _ = W13 m ρ c (Proc.devRef .tc main_arg8) := W14_of_ne m ρ c main_arg8 (by decide)
    _ = W12 m ρ c (Proc.devRef .tc main_arg8) := by host_keeps hostOps6
    _ = W11 m ρ c (Proc.devRef .tc main_arg8) := W12_of_ne m ρ c main_arg8 (by decide)
    _ = W10 m ρ c (Proc.devRef .tc main_arg8) := by host_keeps hostOps5

theorem keep_arg11_16_10 : W16 m ρ c (Proc.devRef .tc main_arg11) = W10 m ρ c (Proc.devRef .tc main_arg11) :=
  calc W16 m ρ c (Proc.devRef .tc main_arg11)
    _ = W15 m ρ c (Proc.devRef .tc main_arg11) := W16_of_ne m ρ c main_arg11 (by decide)
    _ = W14 m ρ c (Proc.devRef .tc main_arg11) := by host_keeps hostOps7
    _ = W13 m ρ c (Proc.devRef .tc main_arg11) := W14_of_ne m ρ c main_arg11 (by decide)
    _ = W12 m ρ c (Proc.devRef .tc main_arg11) := by host_keeps hostOps6
    _ = W11 m ρ c (Proc.devRef .tc main_arg11) := W12_of_ne m ρ c main_arg11 (by decide)
    _ = W10 m ρ c (Proc.devRef .tc main_arg11) := by host_keeps hostOps5

theorem keep_arg12_16_10 : W16 m ρ c (Proc.devRef .tc main_arg12) = W10 m ρ c (Proc.devRef .tc main_arg12) :=
  calc W16 m ρ c (Proc.devRef .tc main_arg12)
    _ = W15 m ρ c (Proc.devRef .tc main_arg12) := W16_of_ne m ρ c main_arg12 (by decide)
    _ = W14 m ρ c (Proc.devRef .tc main_arg12) := by host_keeps hostOps7
    _ = W13 m ρ c (Proc.devRef .tc main_arg12) := W14_of_ne m ρ c main_arg12 (by decide)
    _ = W12 m ρ c (Proc.devRef .tc main_arg12) := by host_keeps hostOps6
    _ = W11 m ρ c (Proc.devRef .tc main_arg12) := W12_of_ne m ρ c main_arg12 (by decide)
    _ = W10 m ρ c (Proc.devRef .tc main_arg12) := by host_keeps hostOps5

theorem keep_arg13_16_10 : W16 m ρ c (Proc.devRef .tc main_arg13) = W10 m ρ c (Proc.devRef .tc main_arg13) :=
  calc W16 m ρ c (Proc.devRef .tc main_arg13)
    _ = W15 m ρ c (Proc.devRef .tc main_arg13) := W16_of_ne m ρ c main_arg13 (by decide)
    _ = W14 m ρ c (Proc.devRef .tc main_arg13) := by host_keeps hostOps7
    _ = W13 m ρ c (Proc.devRef .tc main_arg13) := W14_of_ne m ρ c main_arg13 (by decide)
    _ = W12 m ρ c (Proc.devRef .tc main_arg13) := by host_keeps hostOps6
    _ = W11 m ρ c (Proc.devRef .tc main_arg13) := W12_of_ne m ρ c main_arg13 (by decide)
    _ = W10 m ρ c (Proc.devRef .tc main_arg13) := by host_keeps hostOps5

theorem keep_arg14_16_10 : W16 m ρ c (Proc.devRef .tc main_arg14) = W10 m ρ c (Proc.devRef .tc main_arg14) :=
  calc W16 m ρ c (Proc.devRef .tc main_arg14)
    _ = W15 m ρ c (Proc.devRef .tc main_arg14) := W16_of_ne m ρ c main_arg14 (by decide)
    _ = W14 m ρ c (Proc.devRef .tc main_arg14) := by host_keeps hostOps7
    _ = W13 m ρ c (Proc.devRef .tc main_arg14) := W14_of_ne m ρ c main_arg14 (by decide)
    _ = W12 m ρ c (Proc.devRef .tc main_arg14) := by host_keeps hostOps6
    _ = W11 m ρ c (Proc.devRef .tc main_arg14) := W12_of_ne m ρ c main_arg14 (by decide)
    _ = W10 m ρ c (Proc.devRef .tc main_arg14) := by host_keeps hostOps5

theorem keep_arg15_16_10 : W16 m ρ c (Proc.devRef .tc main_arg15) = W10 m ρ c (Proc.devRef .tc main_arg15) :=
  calc W16 m ρ c (Proc.devRef .tc main_arg15)
    _ = W15 m ρ c (Proc.devRef .tc main_arg15) := W16_of_ne m ρ c main_arg15 (by decide)
    _ = W14 m ρ c (Proc.devRef .tc main_arg15) := by host_keeps hostOps7
    _ = W13 m ρ c (Proc.devRef .tc main_arg15) := W14_of_ne m ρ c main_arg15 (by decide)
    _ = W12 m ρ c (Proc.devRef .tc main_arg15) := by host_keeps hostOps6
    _ = W11 m ρ c (Proc.devRef .tc main_arg15) := W12_of_ne m ρ c main_arg15 (by decide)
    _ = W10 m ρ c (Proc.devRef .tc main_arg15) := by host_keeps hostOps5

theorem keep_arg16_16_10 : W16 m ρ c (Proc.devRef .tc main_arg16) = W10 m ρ c (Proc.devRef .tc main_arg16) :=
  calc W16 m ρ c (Proc.devRef .tc main_arg16)
    _ = W15 m ρ c (Proc.devRef .tc main_arg16) := W16_of_ne m ρ c main_arg16 (by decide)
    _ = W14 m ρ c (Proc.devRef .tc main_arg16) := by host_keeps hostOps7
    _ = W13 m ρ c (Proc.devRef .tc main_arg16) := W14_of_ne m ρ c main_arg16 (by decide)
    _ = W12 m ρ c (Proc.devRef .tc main_arg16) := by host_keeps hostOps6
    _ = W11 m ρ c (Proc.devRef .tc main_arg16) := W12_of_ne m ρ c main_arg16 (by decide)
    _ = W10 m ρ c (Proc.devRef .tc main_arg16) := by host_keeps hostOps5

theorem keep_arg3_16_10 : W16 m ρ c (Proc.devRef .tc main_arg3) = W10 m ρ c (Proc.devRef .tc main_arg3) :=
  calc W16 m ρ c (Proc.devRef .tc main_arg3)
    _ = W15 m ρ c (Proc.devRef .tc main_arg3) := W16_of_ne m ρ c main_arg3 (by decide)
    _ = W14 m ρ c (Proc.devRef .tc main_arg3) := by host_keeps hostOps7
    _ = W13 m ρ c (Proc.devRef .tc main_arg3) := W14_of_ne m ρ c main_arg3 (by decide)
    _ = W12 m ρ c (Proc.devRef .tc main_arg3) := by host_keeps hostOps6
    _ = W11 m ρ c (Proc.devRef .tc main_arg3) := W12_of_ne m ρ c main_arg3 (by decide)
    _ = W10 m ρ c (Proc.devRef .tc main_arg3) := by host_keeps hostOps5

theorem keep_arg17_16_10 : W16 m ρ c (Proc.devRef .tc main_arg17) = W10 m ρ c (Proc.devRef .tc main_arg17) :=
  calc W16 m ρ c (Proc.devRef .tc main_arg17)
    _ = W15 m ρ c (Proc.devRef .tc main_arg17) := W16_of_ne m ρ c main_arg17 (by decide)
    _ = W14 m ρ c (Proc.devRef .tc main_arg17) := by host_keeps hostOps7
    _ = W13 m ρ c (Proc.devRef .tc main_arg17) := W14_of_ne m ρ c main_arg17 (by decide)
    _ = W12 m ρ c (Proc.devRef .tc main_arg17) := by host_keeps hostOps6
    _ = W11 m ρ c (Proc.devRef .tc main_arg17) := W12_of_ne m ρ c main_arg17 (by decide)
    _ = W10 m ρ c (Proc.devRef .tc main_arg17) := by host_keeps hostOps5

theorem keep_arg18_16_10 : W16 m ρ c (Proc.devRef .tc main_arg18) = W10 m ρ c (Proc.devRef .tc main_arg18) :=
  calc W16 m ρ c (Proc.devRef .tc main_arg18)
    _ = W15 m ρ c (Proc.devRef .tc main_arg18) := W16_of_ne m ρ c main_arg18 (by decide)
    _ = W14 m ρ c (Proc.devRef .tc main_arg18) := by host_keeps hostOps7
    _ = W13 m ρ c (Proc.devRef .tc main_arg18) := W14_of_ne m ρ c main_arg18 (by decide)
    _ = W12 m ρ c (Proc.devRef .tc main_arg18) := by host_keeps hostOps6
    _ = W11 m ρ c (Proc.devRef .tc main_arg18) := W12_of_ne m ρ c main_arg18 (by decide)
    _ = W10 m ρ c (Proc.devRef .tc main_arg18) := by host_keeps hostOps5

theorem keep_arg19_16_10 : W16 m ρ c (Proc.devRef .tc main_arg19) = W10 m ρ c (Proc.devRef .tc main_arg19) :=
  calc W16 m ρ c (Proc.devRef .tc main_arg19)
    _ = W15 m ρ c (Proc.devRef .tc main_arg19) := W16_of_ne m ρ c main_arg19 (by decide)
    _ = W14 m ρ c (Proc.devRef .tc main_arg19) := by host_keeps hostOps7
    _ = W13 m ρ c (Proc.devRef .tc main_arg19) := W14_of_ne m ρ c main_arg19 (by decide)
    _ = W12 m ρ c (Proc.devRef .tc main_arg19) := by host_keeps hostOps6
    _ = W11 m ρ c (Proc.devRef .tc main_arg19) := W12_of_ne m ρ c main_arg19 (by decide)
    _ = W10 m ρ c (Proc.devRef .tc main_arg19) := by host_keeps hostOps5

theorem keep_arg20_16_10 : W16 m ρ c (Proc.devRef .tc main_arg20) = W10 m ρ c (Proc.devRef .tc main_arg20) :=
  calc W16 m ρ c (Proc.devRef .tc main_arg20)
    _ = W15 m ρ c (Proc.devRef .tc main_arg20) := W16_of_ne m ρ c main_arg20 (by decide)
    _ = W14 m ρ c (Proc.devRef .tc main_arg20) := by host_keeps hostOps7
    _ = W13 m ρ c (Proc.devRef .tc main_arg20) := W14_of_ne m ρ c main_arg20 (by decide)
    _ = W12 m ρ c (Proc.devRef .tc main_arg20) := by host_keeps hostOps6
    _ = W11 m ρ c (Proc.devRef .tc main_arg20) := W12_of_ne m ρ c main_arg20 (by decide)
    _ = W10 m ρ c (Proc.devRef .tc main_arg20) := by host_keeps hostOps5

end Cert.KernelIdeal.KChain

end
-- ==== Proof.K.Keep4.lean ====
/-
  Buffers carried unchanged across the boundaries W16 … W22 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_v113_19_16 : W19 m ρ c (Proc.devRef .tc main_v113) = W16 m ρ c (Proc.devRef .tc main_v113) :=
  calc W19 m ρ c (Proc.devRef .tc main_v113)
    _ = W18 m ρ c (Proc.devRef .tc main_v113) := by host_keeps hostOps9
    _ = W17 m ρ c (Proc.devRef .tc main_v113) := W18_of_ne m ρ c main_v113 (by decide)
    _ = W16 m ρ c (Proc.devRef .tc main_v113) := by host_keeps hostOps8

theorem keep_v113_18_16 : W18 m ρ c (Proc.devRef .tc main_v113) = W16 m ρ c (Proc.devRef .tc main_v113) :=
  calc W18 m ρ c (Proc.devRef .tc main_v113)
    _ = W17 m ρ c (Proc.devRef .tc main_v113) := W18_of_ne m ρ c main_v113 (by decide)
    _ = W16 m ρ c (Proc.devRef .tc main_v113) := by host_keeps hostOps8

theorem keep_v7_17_16 : W17 m ρ c (Proc.devRef .tc main_v7) = W16 m ρ c (Proc.devRef .tc main_v7) :=
  calc W17 m ρ c (Proc.devRef .tc main_v7)
    _ = W16 m ρ c (Proc.devRef .tc main_v7) := by host_keeps hostOps8

theorem keep_v1_18_16 : W18 m ρ c (Proc.devRef .tc main_v1) = W16 m ρ c (Proc.devRef .tc main_v1) :=
  calc W18 m ρ c (Proc.devRef .tc main_v1)
    _ = W17 m ρ c (Proc.devRef .tc main_v1) := W18_of_ne m ρ c main_v1 (by decide)
    _ = W16 m ρ c (Proc.devRef .tc main_v1) := by host_keeps hostOps8

theorem keep_v3_18_16 : W18 m ρ c (Proc.devRef .tc main_v3) = W16 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := by host_keeps hostOps8

theorem keep_arg8_18_16 : W18 m ρ c (Proc.devRef .tc main_arg8) = W16 m ρ c (Proc.devRef .tc main_arg8) :=
  calc W18 m ρ c (Proc.devRef .tc main_arg8)
    _ = W17 m ρ c (Proc.devRef .tc main_arg8) := W18_of_ne m ρ c main_arg8 (by decide)
    _ = W16 m ρ c (Proc.devRef .tc main_arg8) := by host_keeps hostOps8

theorem keep_arg11_18_16 : W18 m ρ c (Proc.devRef .tc main_arg11) = W16 m ρ c (Proc.devRef .tc main_arg11) :=
  calc W18 m ρ c (Proc.devRef .tc main_arg11)
    _ = W17 m ρ c (Proc.devRef .tc main_arg11) := W18_of_ne m ρ c main_arg11 (by decide)
    _ = W16 m ρ c (Proc.devRef .tc main_arg11) := by host_keeps hostOps8

theorem keep_arg12_18_16 : W18 m ρ c (Proc.devRef .tc main_arg12) = W16 m ρ c (Proc.devRef .tc main_arg12) :=
  calc W18 m ρ c (Proc.devRef .tc main_arg12)
    _ = W17 m ρ c (Proc.devRef .tc main_arg12) := W18_of_ne m ρ c main_arg12 (by decide)
    _ = W16 m ρ c (Proc.devRef .tc main_arg12) := by host_keeps hostOps8

theorem keep_arg13_18_16 : W18 m ρ c (Proc.devRef .tc main_arg13) = W16 m ρ c (Proc.devRef .tc main_arg13) :=
  calc W18 m ρ c (Proc.devRef .tc main_arg13)
    _ = W17 m ρ c (Proc.devRef .tc main_arg13) := W18_of_ne m ρ c main_arg13 (by decide)
    _ = W16 m ρ c (Proc.devRef .tc main_arg13) := by host_keeps hostOps8

theorem keep_arg14_18_16 : W18 m ρ c (Proc.devRef .tc main_arg14) = W16 m ρ c (Proc.devRef .tc main_arg14) :=
  calc W18 m ρ c (Proc.devRef .tc main_arg14)
    _ = W17 m ρ c (Proc.devRef .tc main_arg14) := W18_of_ne m ρ c main_arg14 (by decide)
    _ = W16 m ρ c (Proc.devRef .tc main_arg14) := by host_keeps hostOps8

theorem keep_v149_0_21_20 : W21 m ρ c (Proc.devRef .tc main_v149_0) = W20 m ρ c (Proc.devRef .tc main_v149_0) :=
  calc W21 m ρ c (Proc.devRef .tc main_v149_0)
    _ = W20 m ρ c (Proc.devRef .tc main_v149_0) := by host_keeps hostOps10

theorem keep_v113_21_16 : W21 m ρ c (Proc.devRef .tc main_v113) = W16 m ρ c (Proc.devRef .tc main_v113) :=
  calc W21 m ρ c (Proc.devRef .tc main_v113)
    _ = W20 m ρ c (Proc.devRef .tc main_v113) := by host_keeps hostOps10
    _ = W19 m ρ c (Proc.devRef .tc main_v113) := (W20_arr m ρ c 0).trans (((dat9 (V19 m ρ) c).arrAt_in 0 rfl _).trans (A_eq9 (V19 m ρ) c 0))
    _ = W18 m ρ c (Proc.devRef .tc main_v113) := by host_keeps hostOps9
    _ = W17 m ρ c (Proc.devRef .tc main_v113) := W18_of_ne m ρ c main_v113 (by decide)
    _ = W16 m ρ c (Proc.devRef .tc main_v113) := by host_keeps hostOps8

theorem keep_arg15_20_16 : W20 m ρ c (Proc.devRef .tc main_arg15) = W16 m ρ c (Proc.devRef .tc main_arg15) :=
  calc W20 m ρ c (Proc.devRef .tc main_arg15)
    _ = W19 m ρ c (Proc.devRef .tc main_arg15) := W20_of_ne m ρ c main_arg15 (by decide)
    _ = W18 m ρ c (Proc.devRef .tc main_arg15) := by host_keeps hostOps9
    _ = W17 m ρ c (Proc.devRef .tc main_arg15) := W18_of_ne m ρ c main_arg15 (by decide)
    _ = W16 m ρ c (Proc.devRef .tc main_arg15) := by host_keeps hostOps8

theorem keep_arg16_20_16 : W20 m ρ c (Proc.devRef .tc main_arg16) = W16 m ρ c (Proc.devRef .tc main_arg16) :=
  calc W20 m ρ c (Proc.devRef .tc main_arg16)
    _ = W19 m ρ c (Proc.devRef .tc main_arg16) := W20_of_ne m ρ c main_arg16 (by decide)
    _ = W18 m ρ c (Proc.devRef .tc main_arg16) := by host_keeps hostOps9
    _ = W17 m ρ c (Proc.devRef .tc main_arg16) := W18_of_ne m ρ c main_arg16 (by decide)
    _ = W16 m ρ c (Proc.devRef .tc main_arg16) := by host_keeps hostOps8

theorem keep_v7_22_16 : W22 m ρ c (Proc.devRef .tc main_v7) = W16 m ρ c (Proc.devRef .tc main_v7) :=
  calc W22 m ρ c (Proc.devRef .tc main_v7)
    _ = W21 m ρ c (Proc.devRef .tc main_v7) := W22_of_ne m ρ c main_v7 (by decide)
    _ = W20 m ρ c (Proc.devRef .tc main_v7) := by host_keeps hostOps10
    _ = W19 m ρ c (Proc.devRef .tc main_v7) := W20_of_ne m ρ c main_v7 (by decide)
    _ = W18 m ρ c (Proc.devRef .tc main_v7) := by host_keeps hostOps9
    _ = W17 m ρ c (Proc.devRef .tc main_v7) := (W18_arr m ρ c 0).trans (((dat8 (V17 m ρ) c).arrAt_in 0 rfl _).trans (A_eq8 (V17 m ρ) c 0))
    _ = W16 m ρ c (Proc.devRef .tc main_v7) := by host_keeps hostOps8

theorem keep_arg9_22_16 : W22 m ρ c (Proc.devRef .tc main_arg9) = W16 m ρ c (Proc.devRef .tc main_arg9) :=
  calc W22 m ρ c (Proc.devRef .tc main_arg9)
    _ = W21 m ρ c (Proc.devRef .tc main_arg9) := W22_of_ne m ρ c main_arg9 (by decide)
    _ = W20 m ρ c (Proc.devRef .tc main_arg9) := by host_keeps hostOps10
    _ = W19 m ρ c (Proc.devRef .tc main_arg9) := W20_of_ne m ρ c main_arg9 (by decide)
    _ = W18 m ρ c (Proc.devRef .tc main_arg9) := by host_keeps hostOps9
    _ = W17 m ρ c (Proc.devRef .tc main_arg9) := W18_of_ne m ρ c main_arg9 (by decide)
    _ = W16 m ρ c (Proc.devRef .tc main_arg9) := by host_keeps hostOps8

theorem keep_arg10_22_16 : W22 m ρ c (Proc.devRef .tc main_arg10) = W16 m ρ c (Proc.devRef .tc main_arg10) :=
  calc W22 m ρ c (Proc.devRef .tc main_arg10)
    _ = W21 m ρ c (Proc.devRef .tc main_arg10) := W22_of_ne m ρ c main_arg10 (by decide)
    _ = W20 m ρ c (Proc.devRef .tc main_arg10) := by host_keeps hostOps10
    _ = W19 m ρ c (Proc.devRef .tc main_arg10) := W20_of_ne m ρ c main_arg10 (by decide)
    _ = W18 m ρ c (Proc.devRef .tc main_arg10) := by host_keeps hostOps9
    _ = W17 m ρ c (Proc.devRef .tc main_arg10) := W18_of_ne m ρ c main_arg10 (by decide)
    _ = W16 m ρ c (Proc.devRef .tc main_arg10) := by host_keeps hostOps8

theorem keep_v1_22_16 : W22 m ρ c (Proc.devRef .tc main_v1) = W16 m ρ c (Proc.devRef .tc main_v1) :=
  calc W22 m ρ c (Proc.devRef .tc main_v1)
    _ = W21 m ρ c (Proc.devRef .tc main_v1) := W22_of_ne m ρ c main_v1 (by decide)
    _ = W20 m ρ c (Proc.devRef .tc main_v1) := by host_keeps hostOps10
    _ = W19 m ρ c (Proc.devRef .tc main_v1) := W20_of_ne m ρ c main_v1 (by decide)
    _ = W18 m ρ c (Proc.devRef .tc main_v1) := by host_keeps hostOps9
    _ = W17 m ρ c (Proc.devRef .tc main_v1) := W18_of_ne m ρ c main_v1 (by decide)
    _ = W16 m ρ c (Proc.devRef .tc main_v1) := by host_keeps hostOps8

theorem keep_v3_22_16 : W22 m ρ c (Proc.devRef .tc main_v3) = W16 m ρ c (Proc.devRef .tc main_v3) :=
  calc W22 m ρ c (Proc.devRef .tc main_v3)
    _ = W21 m ρ c (Proc.devRef .tc main_v3) := W22_of_ne m ρ c main_v3 (by decide)
    _ = W20 m ρ c (Proc.devRef .tc main_v3) := by host_keeps hostOps10
    _ = W19 m ρ c (Proc.devRef .tc main_v3) := W20_of_ne m ρ c main_v3 (by decide)
    _ = W18 m ρ c (Proc.devRef .tc main_v3) := by host_keeps hostOps9
    _ = W17 m ρ c (Proc.devRef .tc main_v3) := W18_of_ne m ρ c main_v3 (by decide)
    _ = W16 m ρ c (Proc.devRef .tc main_v3) := by host_keeps hostOps8

theorem keep_arg8_22_16 : W22 m ρ c (Proc.devRef .tc main_arg8) = W16 m ρ c (Proc.devRef .tc main_arg8) :=
  calc W22 m ρ c (Proc.devRef .tc main_arg8)
    _ = W21 m ρ c (Proc.devRef .tc main_arg8) := W22_of_ne m ρ c main_arg8 (by decide)
    _ = W20 m ρ c (Proc.devRef .tc main_arg8) := by host_keeps hostOps10
    _ = W19 m ρ c (Proc.devRef .tc main_arg8) := W20_of_ne m ρ c main_arg8 (by decide)
    _ = W18 m ρ c (Proc.devRef .tc main_arg8) := by host_keeps hostOps9
    _ = W17 m ρ c (Proc.devRef .tc main_arg8) := W18_of_ne m ρ c main_arg8 (by decide)
    _ = W16 m ρ c (Proc.devRef .tc main_arg8) := by host_keeps hostOps8

theorem keep_arg11_22_16 : W22 m ρ c (Proc.devRef .tc main_arg11) = W16 m ρ c (Proc.devRef .tc main_arg11) :=
  calc W22 m ρ c (Proc.devRef .tc main_arg11)
    _ = W21 m ρ c (Proc.devRef .tc main_arg11) := W22_of_ne m ρ c main_arg11 (by decide)
    _ = W20 m ρ c (Proc.devRef .tc main_arg11) := by host_keeps hostOps10
    _ = W19 m ρ c (Proc.devRef .tc main_arg11) := W20_of_ne m ρ c main_arg11 (by decide)
    _ = W18 m ρ c (Proc.devRef .tc main_arg11) := by host_keeps hostOps9
    _ = W17 m ρ c (Proc.devRef .tc main_arg11) := W18_of_ne m ρ c main_arg11 (by decide)
    _ = W16 m ρ c (Proc.devRef .tc main_arg11) := by host_keeps hostOps8

theorem keep_arg12_22_16 : W22 m ρ c (Proc.devRef .tc main_arg12) = W16 m ρ c (Proc.devRef .tc main_arg12) :=
  calc W22 m ρ c (Proc.devRef .tc main_arg12)
    _ = W21 m ρ c (Proc.devRef .tc main_arg12) := W22_of_ne m ρ c main_arg12 (by decide)
    _ = W20 m ρ c (Proc.devRef .tc main_arg12) := by host_keeps hostOps10
    _ = W19 m ρ c (Proc.devRef .tc main_arg12) := W20_of_ne m ρ c main_arg12 (by decide)
    _ = W18 m ρ c (Proc.devRef .tc main_arg12) := by host_keeps hostOps9
    _ = W17 m ρ c (Proc.devRef .tc main_arg12) := W18_of_ne m ρ c main_arg12 (by decide)
    _ = W16 m ρ c (Proc.devRef .tc main_arg12) := by host_keeps hostOps8

theorem keep_arg13_22_16 : W22 m ρ c (Proc.devRef .tc main_arg13) = W16 m ρ c (Proc.devRef .tc main_arg13) :=
  calc W22 m ρ c (Proc.devRef .tc main_arg13)
    _ = W21 m ρ c (Proc.devRef .tc main_arg13) := W22_of_ne m ρ c main_arg13 (by decide)
    _ = W20 m ρ c (Proc.devRef .tc main_arg13) := by host_keeps hostOps10
    _ = W19 m ρ c (Proc.devRef .tc main_arg13) := W20_of_ne m ρ c main_arg13 (by decide)
    _ = W18 m ρ c (Proc.devRef .tc main_arg13) := by host_keeps hostOps9
    _ = W17 m ρ c (Proc.devRef .tc main_arg13) := W18_of_ne m ρ c main_arg13 (by decide)
    _ = W16 m ρ c (Proc.devRef .tc main_arg13) := by host_keeps hostOps8

theorem keep_arg14_22_16 : W22 m ρ c (Proc.devRef .tc main_arg14) = W16 m ρ c (Proc.devRef .tc main_arg14) :=
  calc W22 m ρ c (Proc.devRef .tc main_arg14)
    _ = W21 m ρ c (Proc.devRef .tc main_arg14) := W22_of_ne m ρ c main_arg14 (by decide)
    _ = W20 m ρ c (Proc.devRef .tc main_arg14) := by host_keeps hostOps10
    _ = W19 m ρ c (Proc.devRef .tc main_arg14) := W20_of_ne m ρ c main_arg14 (by decide)
    _ = W18 m ρ c (Proc.devRef .tc main_arg14) := by host_keeps hostOps9
    _ = W17 m ρ c (Proc.devRef .tc main_arg14) := W18_of_ne m ρ c main_arg14 (by decide)
    _ = W16 m ρ c (Proc.devRef .tc main_arg14) := by host_keeps hostOps8

theorem keep_arg15_22_16 : W22 m ρ c (Proc.devRef .tc main_arg15) = W16 m ρ c (Proc.devRef .tc main_arg15) :=
  calc W22 m ρ c (Proc.devRef .tc main_arg15)
    _ = W21 m ρ c (Proc.devRef .tc main_arg15) := W22_of_ne m ρ c main_arg15 (by decide)
    _ = W20 m ρ c (Proc.devRef .tc main_arg15) := by host_keeps hostOps10
    _ = W19 m ρ c (Proc.devRef .tc main_arg15) := W20_of_ne m ρ c main_arg15 (by decide)
    _ = W18 m ρ c (Proc.devRef .tc main_arg15) := by host_keeps hostOps9
    _ = W17 m ρ c (Proc.devRef .tc main_arg15) := W18_of_ne m ρ c main_arg15 (by decide)
    _ = W16 m ρ c (Proc.devRef .tc main_arg15) := by host_keeps hostOps8

theorem keep_arg16_22_16 : W22 m ρ c (Proc.devRef .tc main_arg16) = W16 m ρ c (Proc.devRef .tc main_arg16) :=
  calc W22 m ρ c (Proc.devRef .tc main_arg16)
    _ = W21 m ρ c (Proc.devRef .tc main_arg16) := W22_of_ne m ρ c main_arg16 (by decide)
    _ = W20 m ρ c (Proc.devRef .tc main_arg16) := by host_keeps hostOps10
    _ = W19 m ρ c (Proc.devRef .tc main_arg16) := W20_of_ne m ρ c main_arg16 (by decide)
    _ = W18 m ρ c (Proc.devRef .tc main_arg16) := by host_keeps hostOps9
    _ = W17 m ρ c (Proc.devRef .tc main_arg16) := W18_of_ne m ρ c main_arg16 (by decide)
    _ = W16 m ρ c (Proc.devRef .tc main_arg16) := by host_keeps hostOps8

theorem keep_arg3_22_16 : W22 m ρ c (Proc.devRef .tc main_arg3) = W16 m ρ c (Proc.devRef .tc main_arg3) :=
  calc W22 m ρ c (Proc.devRef .tc main_arg3)
    _ = W21 m ρ c (Proc.devRef .tc main_arg3) := W22_of_ne m ρ c main_arg3 (by decide)
    _ = W20 m ρ c (Proc.devRef .tc main_arg3) := by host_keeps hostOps10
    _ = W19 m ρ c (Proc.devRef .tc main_arg3) := W20_of_ne m ρ c main_arg3 (by decide)
    _ = W18 m ρ c (Proc.devRef .tc main_arg3) := by host_keeps hostOps9
    _ = W17 m ρ c (Proc.devRef .tc main_arg3) := W18_of_ne m ρ c main_arg3 (by decide)
    _ = W16 m ρ c (Proc.devRef .tc main_arg3) := by host_keeps hostOps8

theorem keep_arg17_22_16 : W22 m ρ c (Proc.devRef .tc main_arg17) = W16 m ρ c (Proc.devRef .tc main_arg17) :=
  calc W22 m ρ c (Proc.devRef .tc main_arg17)
    _ = W21 m ρ c (Proc.devRef .tc main_arg17) := W22_of_ne m ρ c main_arg17 (by decide)
    _ = W20 m ρ c (Proc.devRef .tc main_arg17) := by host_keeps hostOps10
    _ = W19 m ρ c (Proc.devRef .tc main_arg17) := W20_of_ne m ρ c main_arg17 (by decide)
    _ = W18 m ρ c (Proc.devRef .tc main_arg17) := by host_keeps hostOps9
    _ = W17 m ρ c (Proc.devRef .tc main_arg17) := W18_of_ne m ρ c main_arg17 (by decide)
    _ = W16 m ρ c (Proc.devRef .tc main_arg17) := by host_keeps hostOps8

theorem keep_arg18_22_16 : W22 m ρ c (Proc.devRef .tc main_arg18) = W16 m ρ c (Proc.devRef .tc main_arg18) :=
  calc W22 m ρ c (Proc.devRef .tc main_arg18)
    _ = W21 m ρ c (Proc.devRef .tc main_arg18) := W22_of_ne m ρ c main_arg18 (by decide)
    _ = W20 m ρ c (Proc.devRef .tc main_arg18) := by host_keeps hostOps10
    _ = W19 m ρ c (Proc.devRef .tc main_arg18) := W20_of_ne m ρ c main_arg18 (by decide)
    _ = W18 m ρ c (Proc.devRef .tc main_arg18) := by host_keeps hostOps9
    _ = W17 m ρ c (Proc.devRef .tc main_arg18) := W18_of_ne m ρ c main_arg18 (by decide)
    _ = W16 m ρ c (Proc.devRef .tc main_arg18) := by host_keeps hostOps8

theorem keep_arg19_22_16 : W22 m ρ c (Proc.devRef .tc main_arg19) = W16 m ρ c (Proc.devRef .tc main_arg19) :=
  calc W22 m ρ c (Proc.devRef .tc main_arg19)
    _ = W21 m ρ c (Proc.devRef .tc main_arg19) := W22_of_ne m ρ c main_arg19 (by decide)
    _ = W20 m ρ c (Proc.devRef .tc main_arg19) := by host_keeps hostOps10
    _ = W19 m ρ c (Proc.devRef .tc main_arg19) := W20_of_ne m ρ c main_arg19 (by decide)
    _ = W18 m ρ c (Proc.devRef .tc main_arg19) := by host_keeps hostOps9
    _ = W17 m ρ c (Proc.devRef .tc main_arg19) := W18_of_ne m ρ c main_arg19 (by decide)
    _ = W16 m ρ c (Proc.devRef .tc main_arg19) := by host_keeps hostOps8

theorem keep_arg20_22_16 : W22 m ρ c (Proc.devRef .tc main_arg20) = W16 m ρ c (Proc.devRef .tc main_arg20) :=
  calc W22 m ρ c (Proc.devRef .tc main_arg20)
    _ = W21 m ρ c (Proc.devRef .tc main_arg20) := W22_of_ne m ρ c main_arg20 (by decide)
    _ = W20 m ρ c (Proc.devRef .tc main_arg20) := by host_keeps hostOps10
    _ = W19 m ρ c (Proc.devRef .tc main_arg20) := W20_of_ne m ρ c main_arg20 (by decide)
    _ = W18 m ρ c (Proc.devRef .tc main_arg20) := by host_keeps hostOps9
    _ = W17 m ρ c (Proc.devRef .tc main_arg20) := W18_of_ne m ρ c main_arg20 (by decide)
    _ = W16 m ρ c (Proc.devRef .tc main_arg20) := by host_keeps hostOps8

end Cert.KernelIdeal.KChain

end
-- ==== Proof.K.Keep5.lean ====
/-
  Buffers carried unchanged across the boundaries W22 … W28 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_v166_25_22 : W25 m ρ c (Proc.devRef .tc main_v166) = W22 m ρ c (Proc.devRef .tc main_v166) :=
  calc W25 m ρ c (Proc.devRef .tc main_v166)
    _ = W24 m ρ c (Proc.devRef .tc main_v166) := by host_keeps hostOps12
    _ = W23 m ρ c (Proc.devRef .tc main_v166) := W24_of_ne m ρ c main_v166 (by decide)
    _ = W22 m ρ c (Proc.devRef .tc main_v166) := by host_keeps hostOps11

theorem keep_v166_24_22 : W24 m ρ c (Proc.devRef .tc main_v166) = W22 m ρ c (Proc.devRef .tc main_v166) :=
  calc W24 m ρ c (Proc.devRef .tc main_v166)
    _ = W23 m ρ c (Proc.devRef .tc main_v166) := W24_of_ne m ρ c main_v166 (by decide)
    _ = W22 m ρ c (Proc.devRef .tc main_v166) := by host_keeps hostOps11

theorem keep_v7_23_22 : W23 m ρ c (Proc.devRef .tc main_v7) = W22 m ρ c (Proc.devRef .tc main_v7) :=
  calc W23 m ρ c (Proc.devRef .tc main_v7)
    _ = W22 m ρ c (Proc.devRef .tc main_v7) := by host_keeps hostOps11

theorem keep_v1_24_22 : W24 m ρ c (Proc.devRef .tc main_v1) = W22 m ρ c (Proc.devRef .tc main_v1) :=
  calc W24 m ρ c (Proc.devRef .tc main_v1)
    _ = W23 m ρ c (Proc.devRef .tc main_v1) := W24_of_ne m ρ c main_v1 (by decide)
    _ = W22 m ρ c (Proc.devRef .tc main_v1) := by host_keeps hostOps11

theorem keep_v3_24_22 : W24 m ρ c (Proc.devRef .tc main_v3) = W22 m ρ c (Proc.devRef .tc main_v3) :=
  calc W24 m ρ c (Proc.devRef .tc main_v3)
    _ = W23 m ρ c (Proc.devRef .tc main_v3) := W24_of_ne m ρ c main_v3 (by decide)
    _ = W22 m ρ c (Proc.devRef .tc main_v3) := by host_keeps hostOps11

theorem keep_arg8_24_22 : W24 m ρ c (Proc.devRef .tc main_arg8) = W22 m ρ c (Proc.devRef .tc main_arg8) :=
  calc W24 m ρ c (Proc.devRef .tc main_arg8)
    _ = W23 m ρ c (Proc.devRef .tc main_arg8) := W24_of_ne m ρ c main_arg8 (by decide)
    _ = W22 m ρ c (Proc.devRef .tc main_arg8) := by host_keeps hostOps11

theorem keep_arg11_24_22 : W24 m ρ c (Proc.devRef .tc main_arg11) = W22 m ρ c (Proc.devRef .tc main_arg11) :=
  calc W24 m ρ c (Proc.devRef .tc main_arg11)
    _ = W23 m ρ c (Proc.devRef .tc main_arg11) := W24_of_ne m ρ c main_arg11 (by decide)
    _ = W22 m ρ c (Proc.devRef .tc main_arg11) := by host_keeps hostOps11

theorem keep_arg12_24_22 : W24 m ρ c (Proc.devRef .tc main_arg12) = W22 m ρ c (Proc.devRef .tc main_arg12) :=
  calc W24 m ρ c (Proc.devRef .tc main_arg12)
    _ = W23 m ρ c (Proc.devRef .tc main_arg12) := W24_of_ne m ρ c main_arg12 (by decide)
    _ = W22 m ρ c (Proc.devRef .tc main_arg12) := by host_keeps hostOps11

theorem keep_arg13_24_22 : W24 m ρ c (Proc.devRef .tc main_arg13) = W22 m ρ c (Proc.devRef .tc main_arg13) :=
  calc W24 m ρ c (Proc.devRef .tc main_arg13)
    _ = W23 m ρ c (Proc.devRef .tc main_arg13) := W24_of_ne m ρ c main_arg13 (by decide)
    _ = W22 m ρ c (Proc.devRef .tc main_arg13) := by host_keeps hostOps11

theorem keep_arg14_24_22 : W24 m ρ c (Proc.devRef .tc main_arg14) = W22 m ρ c (Proc.devRef .tc main_arg14) :=
  calc W24 m ρ c (Proc.devRef .tc main_arg14)
    _ = W23 m ρ c (Proc.devRef .tc main_arg14) := W24_of_ne m ρ c main_arg14 (by decide)
    _ = W22 m ρ c (Proc.devRef .tc main_arg14) := by host_keeps hostOps11

theorem keep_v202_0_27_26 : W27 m ρ c (Proc.devRef .tc main_v202_0) = W26 m ρ c (Proc.devRef .tc main_v202_0) :=
  calc W27 m ρ c (Proc.devRef .tc main_v202_0)
    _ = W26 m ρ c (Proc.devRef .tc main_v202_0) := by host_keeps hostOps13

theorem keep_v166_27_22 : W27 m ρ c (Proc.devRef .tc main_v166) = W22 m ρ c (Proc.devRef .tc main_v166) :=
  calc W27 m ρ c (Proc.devRef .tc main_v166)
    _ = W26 m ρ c (Proc.devRef .tc main_v166) := by host_keeps hostOps13
    _ = W25 m ρ c (Proc.devRef .tc main_v166) := (W26_arr m ρ c 0).trans (((dat12 (V25 m ρ) c).arrAt_in 0 rfl _).trans (A_eq12 (V25 m ρ) c 0))
    _ = W24 m ρ c (Proc.devRef .tc main_v166) := by host_keeps hostOps12
    _ = W23 m ρ c (Proc.devRef .tc main_v166) := W24_of_ne m ρ c main_v166 (by decide)
    _ = W22 m ρ c (Proc.devRef .tc main_v166) := by host_keeps hostOps11

theorem keep_arg15_26_22 : W26 m ρ c (Proc.devRef .tc main_arg15) = W22 m ρ c (Proc.devRef .tc main_arg15) :=
  calc W26 m ρ c (Proc.devRef .tc main_arg15)
    _ = W25 m ρ c (Proc.devRef .tc main_arg15) := W26_of_ne m ρ c main_arg15 (by decide)
    _ = W24 m ρ c (Proc.devRef .tc main_arg15) := by host_keeps hostOps12
    _ = W23 m ρ c (Proc.devRef .tc main_arg15) := W24_of_ne m ρ c main_arg15 (by decide)
    _ = W22 m ρ c (Proc.devRef .tc main_arg15) := by host_keeps hostOps11

theorem keep_arg16_26_22 : W26 m ρ c (Proc.devRef .tc main_arg16) = W22 m ρ c (Proc.devRef .tc main_arg16) :=
  calc W26 m ρ c (Proc.devRef .tc main_arg16)
    _ = W25 m ρ c (Proc.devRef .tc main_arg16) := W26_of_ne m ρ c main_arg16 (by decide)
    _ = W24 m ρ c (Proc.devRef .tc main_arg16) := by host_keeps hostOps12
    _ = W23 m ρ c (Proc.devRef .tc main_arg16) := W24_of_ne m ρ c main_arg16 (by decide)
    _ = W22 m ρ c (Proc.devRef .tc main_arg16) := by host_keeps hostOps11

theorem keep_v7_28_22 : W28 m ρ c (Proc.devRef .tc main_v7) = W22 m ρ c (Proc.devRef .tc main_v7) :=
  calc W28 m ρ c (Proc.devRef .tc main_v7)
    _ = W27 m ρ c (Proc.devRef .tc main_v7) := W28_of_ne m ρ c main_v7 (by decide)
    _ = W26 m ρ c (Proc.devRef .tc main_v7) := by host_keeps hostOps13
    _ = W25 m ρ c (Proc.devRef .tc main_v7) := W26_of_ne m ρ c main_v7 (by decide)
    _ = W24 m ρ c (Proc.devRef .tc main_v7) := by host_keeps hostOps12
    _ = W23 m ρ c (Proc.devRef .tc main_v7) := (W24_arr m ρ c 0).trans (((dat11 (V23 m ρ) c).arrAt_in 0 rfl _).trans (A_eq11 (V23 m ρ) c 0))
    _ = W22 m ρ c (Proc.devRef .tc main_v7) := by host_keeps hostOps11

theorem keep_arg9_28_22 : W28 m ρ c (Proc.devRef .tc main_arg9) = W22 m ρ c (Proc.devRef .tc main_arg9) :=
  calc W28 m ρ c (Proc.devRef .tc main_arg9)
    _ = W27 m ρ c (Proc.devRef .tc main_arg9) := W28_of_ne m ρ c main_arg9 (by decide)
    _ = W26 m ρ c (Proc.devRef .tc main_arg9) := by host_keeps hostOps13
    _ = W25 m ρ c (Proc.devRef .tc main_arg9) := W26_of_ne m ρ c main_arg9 (by decide)
    _ = W24 m ρ c (Proc.devRef .tc main_arg9) := by host_keeps hostOps12
    _ = W23 m ρ c (Proc.devRef .tc main_arg9) := W24_of_ne m ρ c main_arg9 (by decide)
    _ = W22 m ρ c (Proc.devRef .tc main_arg9) := by host_keeps hostOps11

theorem keep_arg10_28_22 : W28 m ρ c (Proc.devRef .tc main_arg10) = W22 m ρ c (Proc.devRef .tc main_arg10) :=
  calc W28 m ρ c (Proc.devRef .tc main_arg10)
    _ = W27 m ρ c (Proc.devRef .tc main_arg10) := W28_of_ne m ρ c main_arg10 (by decide)
    _ = W26 m ρ c (Proc.devRef .tc main_arg10) := by host_keeps hostOps13
    _ = W25 m ρ c (Proc.devRef .tc main_arg10) := W26_of_ne m ρ c main_arg10 (by decide)
    _ = W24 m ρ c (Proc.devRef .tc main_arg10) := by host_keeps hostOps12
    _ = W23 m ρ c (Proc.devRef .tc main_arg10) := W24_of_ne m ρ c main_arg10 (by decide)
    _ = W22 m ρ c (Proc.devRef .tc main_arg10) := by host_keeps hostOps11

theorem keep_v1_28_22 : W28 m ρ c (Proc.devRef .tc main_v1) = W22 m ρ c (Proc.devRef .tc main_v1) :=
  calc W28 m ρ c (Proc.devRef .tc main_v1)
    _ = W27 m ρ c (Proc.devRef .tc main_v1) := W28_of_ne m ρ c main_v1 (by decide)
    _ = W26 m ρ c (Proc.devRef .tc main_v1) := by host_keeps hostOps13
    _ = W25 m ρ c (Proc.devRef .tc main_v1) := W26_of_ne m ρ c main_v1 (by decide)
    _ = W24 m ρ c (Proc.devRef .tc main_v1) := by host_keeps hostOps12
    _ = W23 m ρ c (Proc.devRef .tc main_v1) := W24_of_ne m ρ c main_v1 (by decide)
    _ = W22 m ρ c (Proc.devRef .tc main_v1) := by host_keeps hostOps11

theorem keep_v3_28_22 : W28 m ρ c (Proc.devRef .tc main_v3) = W22 m ρ c (Proc.devRef .tc main_v3) :=
  calc W28 m ρ c (Proc.devRef .tc main_v3)
    _ = W27 m ρ c (Proc.devRef .tc main_v3) := W28_of_ne m ρ c main_v3 (by decide)
    _ = W26 m ρ c (Proc.devRef .tc main_v3) := by host_keeps hostOps13
    _ = W25 m ρ c (Proc.devRef .tc main_v3) := W26_of_ne m ρ c main_v3 (by decide)
    _ = W24 m ρ c (Proc.devRef .tc main_v3) := by host_keeps hostOps12
    _ = W23 m ρ c (Proc.devRef .tc main_v3) := W24_of_ne m ρ c main_v3 (by decide)
    _ = W22 m ρ c (Proc.devRef .tc main_v3) := by host_keeps hostOps11

theorem keep_arg8_28_22 : W28 m ρ c (Proc.devRef .tc main_arg8) = W22 m ρ c (Proc.devRef .tc main_arg8) :=
  calc W28 m ρ c (Proc.devRef .tc main_arg8)
    _ = W27 m ρ c (Proc.devRef .tc main_arg8) := W28_of_ne m ρ c main_arg8 (by decide)
    _ = W26 m ρ c (Proc.devRef .tc main_arg8) := by host_keeps hostOps13
    _ = W25 m ρ c (Proc.devRef .tc main_arg8) := W26_of_ne m ρ c main_arg8 (by decide)
    _ = W24 m ρ c (Proc.devRef .tc main_arg8) := by host_keeps hostOps12
    _ = W23 m ρ c (Proc.devRef .tc main_arg8) := W24_of_ne m ρ c main_arg8 (by decide)
    _ = W22 m ρ c (Proc.devRef .tc main_arg8) := by host_keeps hostOps11

theorem keep_arg11_28_22 : W28 m ρ c (Proc.devRef .tc main_arg11) = W22 m ρ c (Proc.devRef .tc main_arg11) :=
  calc W28 m ρ c (Proc.devRef .tc main_arg11)
    _ = W27 m ρ c (Proc.devRef .tc main_arg11) := W28_of_ne m ρ c main_arg11 (by decide)
    _ = W26 m ρ c (Proc.devRef .tc main_arg11) := by host_keeps hostOps13
    _ = W25 m ρ c (Proc.devRef .tc main_arg11) := W26_of_ne m ρ c main_arg11 (by decide)
    _ = W24 m ρ c (Proc.devRef .tc main_arg11) := by host_keeps hostOps12
    _ = W23 m ρ c (Proc.devRef .tc main_arg11) := W24_of_ne m ρ c main_arg11 (by decide)
    _ = W22 m ρ c (Proc.devRef .tc main_arg11) := by host_keeps hostOps11

theorem keep_arg12_28_22 : W28 m ρ c (Proc.devRef .tc main_arg12) = W22 m ρ c (Proc.devRef .tc main_arg12) :=
  calc W28 m ρ c (Proc.devRef .tc main_arg12)
    _ = W27 m ρ c (Proc.devRef .tc main_arg12) := W28_of_ne m ρ c main_arg12 (by decide)
    _ = W26 m ρ c (Proc.devRef .tc main_arg12) := by host_keeps hostOps13
    _ = W25 m ρ c (Proc.devRef .tc main_arg12) := W26_of_ne m ρ c main_arg12 (by decide)
    _ = W24 m ρ c (Proc.devRef .tc main_arg12) := by host_keeps hostOps12
    _ = W23 m ρ c (Proc.devRef .tc main_arg12) := W24_of_ne m ρ c main_arg12 (by decide)
    _ = W22 m ρ c (Proc.devRef .tc main_arg12) := by host_keeps hostOps11

theorem keep_arg13_28_22 : W28 m ρ c (Proc.devRef .tc main_arg13) = W22 m ρ c (Proc.devRef .tc main_arg13) :=
  calc W28 m ρ c (Proc.devRef .tc main_arg13)
    _ = W27 m ρ c (Proc.devRef .tc main_arg13) := W28_of_ne m ρ c main_arg13 (by decide)
    _ = W26 m ρ c (Proc.devRef .tc main_arg13) := by host_keeps hostOps13
    _ = W25 m ρ c (Proc.devRef .tc main_arg13) := W26_of_ne m ρ c main_arg13 (by decide)
    _ = W24 m ρ c (Proc.devRef .tc main_arg13) := by host_keeps hostOps12
    _ = W23 m ρ c (Proc.devRef .tc main_arg13) := W24_of_ne m ρ c main_arg13 (by decide)
    _ = W22 m ρ c (Proc.devRef .tc main_arg13) := by host_keeps hostOps11

theorem keep_arg14_28_22 : W28 m ρ c (Proc.devRef .tc main_arg14) = W22 m ρ c (Proc.devRef .tc main_arg14) :=
  calc W28 m ρ c (Proc.devRef .tc main_arg14)
    _ = W27 m ρ c (Proc.devRef .tc main_arg14) := W28_of_ne m ρ c main_arg14 (by decide)
    _ = W26 m ρ c (Proc.devRef .tc main_arg14) := by host_keeps hostOps13
    _ = W25 m ρ c (Proc.devRef .tc main_arg14) := W26_of_ne m ρ c main_arg14 (by decide)
    _ = W24 m ρ c (Proc.devRef .tc main_arg14) := by host_keeps hostOps12
    _ = W23 m ρ c (Proc.devRef .tc main_arg14) := W24_of_ne m ρ c main_arg14 (by decide)
    _ = W22 m ρ c (Proc.devRef .tc main_arg14) := by host_keeps hostOps11

theorem keep_arg15_28_22 : W28 m ρ c (Proc.devRef .tc main_arg15) = W22 m ρ c (Proc.devRef .tc main_arg15) :=
  calc W28 m ρ c (Proc.devRef .tc main_arg15)
    _ = W27 m ρ c (Proc.devRef .tc main_arg15) := W28_of_ne m ρ c main_arg15 (by decide)
    _ = W26 m ρ c (Proc.devRef .tc main_arg15) := by host_keeps hostOps13
    _ = W25 m ρ c (Proc.devRef .tc main_arg15) := W26_of_ne m ρ c main_arg15 (by decide)
    _ = W24 m ρ c (Proc.devRef .tc main_arg15) := by host_keeps hostOps12
    _ = W23 m ρ c (Proc.devRef .tc main_arg15) := W24_of_ne m ρ c main_arg15 (by decide)
    _ = W22 m ρ c (Proc.devRef .tc main_arg15) := by host_keeps hostOps11

theorem keep_arg16_28_22 : W28 m ρ c (Proc.devRef .tc main_arg16) = W22 m ρ c (Proc.devRef .tc main_arg16) :=
  calc W28 m ρ c (Proc.devRef .tc main_arg16)
    _ = W27 m ρ c (Proc.devRef .tc main_arg16) := W28_of_ne m ρ c main_arg16 (by decide)
    _ = W26 m ρ c (Proc.devRef .tc main_arg16) := by host_keeps hostOps13
    _ = W25 m ρ c (Proc.devRef .tc main_arg16) := W26_of_ne m ρ c main_arg16 (by decide)
    _ = W24 m ρ c (Proc.devRef .tc main_arg16) := by host_keeps hostOps12
    _ = W23 m ρ c (Proc.devRef .tc main_arg16) := W24_of_ne m ρ c main_arg16 (by decide)
    _ = W22 m ρ c (Proc.devRef .tc main_arg16) := by host_keeps hostOps11

theorem keep_arg3_28_22 : W28 m ρ c (Proc.devRef .tc main_arg3) = W22 m ρ c (Proc.devRef .tc main_arg3) :=
  calc W28 m ρ c (Proc.devRef .tc main_arg3)
    _ = W27 m ρ c (Proc.devRef .tc main_arg3) := W28_of_ne m ρ c main_arg3 (by decide)
    _ = W26 m ρ c (Proc.devRef .tc main_arg3) := by host_keeps hostOps13
    _ = W25 m ρ c (Proc.devRef .tc main_arg3) := W26_of_ne m ρ c main_arg3 (by decide)
    _ = W24 m ρ c (Proc.devRef .tc main_arg3) := by host_keeps hostOps12
    _ = W23 m ρ c (Proc.devRef .tc main_arg3) := W24_of_ne m ρ c main_arg3 (by decide)
    _ = W22 m ρ c (Proc.devRef .tc main_arg3) := by host_keeps hostOps11

theorem keep_arg17_28_22 : W28 m ρ c (Proc.devRef .tc main_arg17) = W22 m ρ c (Proc.devRef .tc main_arg17) :=
  calc W28 m ρ c (Proc.devRef .tc main_arg17)
    _ = W27 m ρ c (Proc.devRef .tc main_arg17) := W28_of_ne m ρ c main_arg17 (by decide)
    _ = W26 m ρ c (Proc.devRef .tc main_arg17) := by host_keeps hostOps13
    _ = W25 m ρ c (Proc.devRef .tc main_arg17) := W26_of_ne m ρ c main_arg17 (by decide)
    _ = W24 m ρ c (Proc.devRef .tc main_arg17) := by host_keeps hostOps12
    _ = W23 m ρ c (Proc.devRef .tc main_arg17) := W24_of_ne m ρ c main_arg17 (by decide)
    _ = W22 m ρ c (Proc.devRef .tc main_arg17) := by host_keeps hostOps11

theorem keep_arg18_28_22 : W28 m ρ c (Proc.devRef .tc main_arg18) = W22 m ρ c (Proc.devRef .tc main_arg18) :=
  calc W28 m ρ c (Proc.devRef .tc main_arg18)
    _ = W27 m ρ c (Proc.devRef .tc main_arg18) := W28_of_ne m ρ c main_arg18 (by decide)
    _ = W26 m ρ c (Proc.devRef .tc main_arg18) := by host_keeps hostOps13
    _ = W25 m ρ c (Proc.devRef .tc main_arg18) := W26_of_ne m ρ c main_arg18 (by decide)
    _ = W24 m ρ c (Proc.devRef .tc main_arg18) := by host_keeps hostOps12
    _ = W23 m ρ c (Proc.devRef .tc main_arg18) := W24_of_ne m ρ c main_arg18 (by decide)
    _ = W22 m ρ c (Proc.devRef .tc main_arg18) := by host_keeps hostOps11

theorem keep_arg19_28_22 : W28 m ρ c (Proc.devRef .tc main_arg19) = W22 m ρ c (Proc.devRef .tc main_arg19) :=
  calc W28 m ρ c (Proc.devRef .tc main_arg19)
    _ = W27 m ρ c (Proc.devRef .tc main_arg19) := W28_of_ne m ρ c main_arg19 (by decide)
    _ = W26 m ρ c (Proc.devRef .tc main_arg19) := by host_keeps hostOps13
    _ = W25 m ρ c (Proc.devRef .tc main_arg19) := W26_of_ne m ρ c main_arg19 (by decide)
    _ = W24 m ρ c (Proc.devRef .tc main_arg19) := by host_keeps hostOps12
    _ = W23 m ρ c (Proc.devRef .tc main_arg19) := W24_of_ne m ρ c main_arg19 (by decide)
    _ = W22 m ρ c (Proc.devRef .tc main_arg19) := by host_keeps hostOps11

theorem keep_arg20_28_22 : W28 m ρ c (Proc.devRef .tc main_arg20) = W22 m ρ c (Proc.devRef .tc main_arg20) :=
  calc W28 m ρ c (Proc.devRef .tc main_arg20)
    _ = W27 m ρ c (Proc.devRef .tc main_arg20) := W28_of_ne m ρ c main_arg20 (by decide)
    _ = W26 m ρ c (Proc.devRef .tc main_arg20) := by host_keeps hostOps13
    _ = W25 m ρ c (Proc.devRef .tc main_arg20) := W26_of_ne m ρ c main_arg20 (by decide)
    _ = W24 m ρ c (Proc.devRef .tc main_arg20) := by host_keeps hostOps12
    _ = W23 m ρ c (Proc.devRef .tc main_arg20) := W24_of_ne m ρ c main_arg20 (by decide)
    _ = W22 m ρ c (Proc.devRef .tc main_arg20) := by host_keeps hostOps11

end Cert.KernelIdeal.KChain

end
-- ==== Proof.K.Keep6.lean ====
/-
  Buffers carried unchanged across the boundaries W28 … W34 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_v219_31_28 : W31 m ρ c (Proc.devRef .tc main_v219) = W28 m ρ c (Proc.devRef .tc main_v219) :=
  calc W31 m ρ c (Proc.devRef .tc main_v219)
    _ = W30 m ρ c (Proc.devRef .tc main_v219) := by host_keeps hostOps15
    _ = W29 m ρ c (Proc.devRef .tc main_v219) := W30_of_ne m ρ c main_v219 (by decide)
    _ = W28 m ρ c (Proc.devRef .tc main_v219) := by host_keeps hostOps14

theorem keep_v219_30_28 : W30 m ρ c (Proc.devRef .tc main_v219) = W28 m ρ c (Proc.devRef .tc main_v219) :=
  calc W30 m ρ c (Proc.devRef .tc main_v219)
    _ = W29 m ρ c (Proc.devRef .tc main_v219) := W30_of_ne m ρ c main_v219 (by decide)
    _ = W28 m ρ c (Proc.devRef .tc main_v219) := by host_keeps hostOps14

theorem keep_v7_29_28 : W29 m ρ c (Proc.devRef .tc main_v7) = W28 m ρ c (Proc.devRef .tc main_v7) :=
  calc W29 m ρ c (Proc.devRef .tc main_v7)
    _ = W28 m ρ c (Proc.devRef .tc main_v7) := by host_keeps hostOps14

theorem keep_v1_30_28 : W30 m ρ c (Proc.devRef .tc main_v1) = W28 m ρ c (Proc.devRef .tc main_v1) :=
  calc W30 m ρ c (Proc.devRef .tc main_v1)
    _ = W29 m ρ c (Proc.devRef .tc main_v1) := W30_of_ne m ρ c main_v1 (by decide)
    _ = W28 m ρ c (Proc.devRef .tc main_v1) := by host_keeps hostOps14

theorem keep_v3_30_28 : W30 m ρ c (Proc.devRef .tc main_v3) = W28 m ρ c (Proc.devRef .tc main_v3) :=
  calc W30 m ρ c (Proc.devRef .tc main_v3)
    _ = W29 m ρ c (Proc.devRef .tc main_v3) := W30_of_ne m ρ c main_v3 (by decide)
    _ = W28 m ρ c (Proc.devRef .tc main_v3) := by host_keeps hostOps14

theorem keep_arg8_30_28 : W30 m ρ c (Proc.devRef .tc main_arg8) = W28 m ρ c (Proc.devRef .tc main_arg8) :=
  calc W30 m ρ c (Proc.devRef .tc main_arg8)
    _ = W29 m ρ c (Proc.devRef .tc main_arg8) := W30_of_ne m ρ c main_arg8 (by decide)
    _ = W28 m ρ c (Proc.devRef .tc main_arg8) := by host_keeps hostOps14

theorem keep_arg11_30_28 : W30 m ρ c (Proc.devRef .tc main_arg11) = W28 m ρ c (Proc.devRef .tc main_arg11) :=
  calc W30 m ρ c (Proc.devRef .tc main_arg11)
    _ = W29 m ρ c (Proc.devRef .tc main_arg11) := W30_of_ne m ρ c main_arg11 (by decide)
    _ = W28 m ρ c (Proc.devRef .tc main_arg11) := by host_keeps hostOps14

theorem keep_arg12_30_28 : W30 m ρ c (Proc.devRef .tc main_arg12) = W28 m ρ c (Proc.devRef .tc main_arg12) :=
  calc W30 m ρ c (Proc.devRef .tc main_arg12)
    _ = W29 m ρ c (Proc.devRef .tc main_arg12) := W30_of_ne m ρ c main_arg12 (by decide)
    _ = W28 m ρ c (Proc.devRef .tc main_arg12) := by host_keeps hostOps14

theorem keep_arg13_30_28 : W30 m ρ c (Proc.devRef .tc main_arg13) = W28 m ρ c (Proc.devRef .tc main_arg13) :=
  calc W30 m ρ c (Proc.devRef .tc main_arg13)
    _ = W29 m ρ c (Proc.devRef .tc main_arg13) := W30_of_ne m ρ c main_arg13 (by decide)
    _ = W28 m ρ c (Proc.devRef .tc main_arg13) := by host_keeps hostOps14

theorem keep_arg14_30_28 : W30 m ρ c (Proc.devRef .tc main_arg14) = W28 m ρ c (Proc.devRef .tc main_arg14) :=
  calc W30 m ρ c (Proc.devRef .tc main_arg14)
    _ = W29 m ρ c (Proc.devRef .tc main_arg14) := W30_of_ne m ρ c main_arg14 (by decide)
    _ = W28 m ρ c (Proc.devRef .tc main_arg14) := by host_keeps hostOps14

theorem keep_v255_0_33_32 : W33 m ρ c (Proc.devRef .tc main_v255_0) = W32 m ρ c (Proc.devRef .tc main_v255_0) :=
  calc W33 m ρ c (Proc.devRef .tc main_v255_0)
    _ = W32 m ρ c (Proc.devRef .tc main_v255_0) := by host_keeps hostOps16

theorem keep_v219_33_28 : W33 m ρ c (Proc.devRef .tc main_v219) = W28 m ρ c (Proc.devRef .tc main_v219) :=
  calc W33 m ρ c (Proc.devRef .tc main_v219)
    _ = W32 m ρ c (Proc.devRef .tc main_v219) := by host_keeps hostOps16
    _ = W31 m ρ c (Proc.devRef .tc main_v219) := (W32_arr m ρ c 0).trans (((dat15 (V31 m ρ) c).arrAt_in 0 rfl _).trans (A_eq15 (V31 m ρ) c 0))
    _ = W30 m ρ c (Proc.devRef .tc main_v219) := by host_keeps hostOps15
    _ = W29 m ρ c (Proc.devRef .tc main_v219) := W30_of_ne m ρ c main_v219 (by decide)
    _ = W28 m ρ c (Proc.devRef .tc main_v219) := by host_keeps hostOps14

theorem keep_arg15_32_28 : W32 m ρ c (Proc.devRef .tc main_arg15) = W28 m ρ c (Proc.devRef .tc main_arg15) :=
  calc W32 m ρ c (Proc.devRef .tc main_arg15)
    _ = W31 m ρ c (Proc.devRef .tc main_arg15) := W32_of_ne m ρ c main_arg15 (by decide)
    _ = W30 m ρ c (Proc.devRef .tc main_arg15) := by host_keeps hostOps15
    _ = W29 m ρ c (Proc.devRef .tc main_arg15) := W30_of_ne m ρ c main_arg15 (by decide)
    _ = W28 m ρ c (Proc.devRef .tc main_arg15) := by host_keeps hostOps14

theorem keep_arg16_32_28 : W32 m ρ c (Proc.devRef .tc main_arg16) = W28 m ρ c (Proc.devRef .tc main_arg16) :=
  calc W32 m ρ c (Proc.devRef .tc main_arg16)
    _ = W31 m ρ c (Proc.devRef .tc main_arg16) := W32_of_ne m ρ c main_arg16 (by decide)
    _ = W30 m ρ c (Proc.devRef .tc main_arg16) := by host_keeps hostOps15
    _ = W29 m ρ c (Proc.devRef .tc main_arg16) := W30_of_ne m ρ c main_arg16 (by decide)
    _ = W28 m ρ c (Proc.devRef .tc main_arg16) := by host_keeps hostOps14

theorem keep_arg3_34_28 : W34 m ρ c (Proc.devRef .tc main_arg3) = W28 m ρ c (Proc.devRef .tc main_arg3) :=
  calc W34 m ρ c (Proc.devRef .tc main_arg3)
    _ = W33 m ρ c (Proc.devRef .tc main_arg3) := W34_of_ne m ρ c main_arg3 (by decide)
    _ = W32 m ρ c (Proc.devRef .tc main_arg3) := by host_keeps hostOps16
    _ = W31 m ρ c (Proc.devRef .tc main_arg3) := W32_of_ne m ρ c main_arg3 (by decide)
    _ = W30 m ρ c (Proc.devRef .tc main_arg3) := by host_keeps hostOps15
    _ = W29 m ρ c (Proc.devRef .tc main_arg3) := W30_of_ne m ρ c main_arg3 (by decide)
    _ = W28 m ρ c (Proc.devRef .tc main_arg3) := by host_keeps hostOps14

theorem keep_arg17_34_28 : W34 m ρ c (Proc.devRef .tc main_arg17) = W28 m ρ c (Proc.devRef .tc main_arg17) :=
  calc W34 m ρ c (Proc.devRef .tc main_arg17)
    _ = W33 m ρ c (Proc.devRef .tc main_arg17) := W34_of_ne m ρ c main_arg17 (by decide)
    _ = W32 m ρ c (Proc.devRef .tc main_arg17) := by host_keeps hostOps16
    _ = W31 m ρ c (Proc.devRef .tc main_arg17) := W32_of_ne m ρ c main_arg17 (by decide)
    _ = W30 m ρ c (Proc.devRef .tc main_arg17) := by host_keeps hostOps15
    _ = W29 m ρ c (Proc.devRef .tc main_arg17) := W30_of_ne m ρ c main_arg17 (by decide)
    _ = W28 m ρ c (Proc.devRef .tc main_arg17) := by host_keeps hostOps14

theorem keep_arg18_34_28 : W34 m ρ c (Proc.devRef .tc main_arg18) = W28 m ρ c (Proc.devRef .tc main_arg18) :=
  calc W34 m ρ c (Proc.devRef .tc main_arg18)
    _ = W33 m ρ c (Proc.devRef .tc main_arg18) := W34_of_ne m ρ c main_arg18 (by decide)
    _ = W32 m ρ c (Proc.devRef .tc main_arg18) := by host_keeps hostOps16
    _ = W31 m ρ c (Proc.devRef .tc main_arg18) := W32_of_ne m ρ c main_arg18 (by decide)
    _ = W30 m ρ c (Proc.devRef .tc main_arg18) := by host_keeps hostOps15
    _ = W29 m ρ c (Proc.devRef .tc main_arg18) := W30_of_ne m ρ c main_arg18 (by decide)
    _ = W28 m ρ c (Proc.devRef .tc main_arg18) := by host_keeps hostOps14

theorem keep_arg19_34_28 : W34 m ρ c (Proc.devRef .tc main_arg19) = W28 m ρ c (Proc.devRef .tc main_arg19) :=
  calc W34 m ρ c (Proc.devRef .tc main_arg19)
    _ = W33 m ρ c (Proc.devRef .tc main_arg19) := W34_of_ne m ρ c main_arg19 (by decide)
    _ = W32 m ρ c (Proc.devRef .tc main_arg19) := by host_keeps hostOps16
    _ = W31 m ρ c (Proc.devRef .tc main_arg19) := W32_of_ne m ρ c main_arg19 (by decide)
    _ = W30 m ρ c (Proc.devRef .tc main_arg19) := by host_keeps hostOps15
    _ = W29 m ρ c (Proc.devRef .tc main_arg19) := W30_of_ne m ρ c main_arg19 (by decide)
    _ = W28 m ρ c (Proc.devRef .tc main_arg19) := by host_keeps hostOps14

theorem keep_arg20_34_28 : W34 m ρ c (Proc.devRef .tc main_arg20) = W28 m ρ c (Proc.devRef .tc main_arg20) :=
  calc W34 m ρ c (Proc.devRef .tc main_arg20)
    _ = W33 m ρ c (Proc.devRef .tc main_arg20) := W34_of_ne m ρ c main_arg20 (by decide)
    _ = W32 m ρ c (Proc.devRef .tc main_arg20) := by host_keeps hostOps16
    _ = W31 m ρ c (Proc.devRef .tc main_arg20) := W32_of_ne m ρ c main_arg20 (by decide)
    _ = W30 m ρ c (Proc.devRef .tc main_arg20) := by host_keeps hostOps15
    _ = W29 m ρ c (Proc.devRef .tc main_arg20) := W30_of_ne m ρ c main_arg20 (by decide)
    _ = W28 m ρ c (Proc.devRef .tc main_arg20) := by host_keeps hostOps14

end Cert.KernelIdeal.KChain

end
-- ==== Proof.K.Keep7.lean ====
/-
  Buffers carried unchanged across the boundaries W34 … W37 of the kernel program's run: a stretch of host
  operations leaves a buffer it does not write; a region leaves a buffer that is none of its arrays, and leaves its
  INPUT arrays as it found them.  (One statement per buffer and stretch of boundaries, from the table of which stretch
  or region touches which buffer.)
-/
import proofs.«105345_j19885698580760_2_alg».proof.Proof.K.ChainBase

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem keep_arg19_36_34 : W36 m ρ c (Proc.devRef .tc main_arg19) = W34 m ρ c (Proc.devRef .tc main_arg19) :=
  calc W36 m ρ c (Proc.devRef .tc main_arg19)
    _ = W35 m ρ c (Proc.devRef .tc main_arg19) := by host_keeps hostOps17_1
    _ = W34 m ρ c (Proc.devRef .tc main_arg19) := by host_keeps hostOps17

theorem keep_arg20_36_34 : W36 m ρ c (Proc.devRef .tc main_arg20) = W34 m ρ c (Proc.devRef .tc main_arg20) :=
  calc W36 m ρ c (Proc.devRef .tc main_arg20)
    _ = W35 m ρ c (Proc.devRef .tc main_arg20) := by host_keeps hostOps17_1
    _ = W34 m ρ c (Proc.devRef .tc main_arg20) := by host_keeps hostOps17

theorem keep_v284_37_35 : W37 m ρ c (Proc.devRef .tc main_v284) = W35 m ρ c (Proc.devRef .tc main_v284) :=
  calc W37 m ρ c (Proc.devRef .tc main_v284)
    _ = W36 m ρ c (Proc.devRef .tc main_v284) := by host_keeps hostOps17_2
    _ = W35 m ρ c (Proc.devRef .tc main_v284) := by host_keeps hostOps17_1

end Cert.KernelIdeal.KChain

end
-- ==== Proof.Spec.AffineBody.lean ====
/-
  One row block of an affine map, read at an entry. A block product `x · w` accumulated from zero, with the
  contraction over the columns of `x` and the rows of `w`, has at entry `(r, c)` the inner product
  `∑ k, x (r, k) * w (k, c)`; adding a one-row bias broadcast over the rows adds `b (0, c)`. Changes of float
  format are the identity on extended reals, so a row block of an affine map is the affine map of the row block,
  entry by entry, whatever the extents. This module has the product's half: the index maps of a plain matrix
  product and the product read at an entry.
-/
import Idealize.ShloMosaic.Lib.ValueLayout
import Idealize.ShloMosaic.Lib.ValueIdx
import Idealize.ShloMosaic.PureOps.Ideal.Laws

noncomputable section

open scoped BigOperators

namespace Cert.Spec

open Idealize.ShloMosaic Idealize.ShloMosaic.ValueIdx

/-- The dimension numbers of a plain matrix product: rows of the left operand by columns of the right one,
    contracting the left operand's columns with the right operand's rows, no batch axis. -/
structure PlainDot {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

namespace PlainDot

variable {M K N : Nat} {D : DotDims ⟨2, ![M, K]⟩ ⟨2, ![K, N]⟩ ⟨2, ![M, N]⟩} (h : PlainDot D)
include h

theorem contr_rank : D.contr.rank = 1 := by rw [D.rank_contr, h.lc]; rfl

theorem contr_size : D.contr.size ⟨0, by rw [h.contr_rank]; exact Nat.one_pos⟩ = K := by
  simp [DotDims.contr, h.lc, Shape.ofList]

/-- The left operand's row is the output's row. -/
theorem lhsIdx_row (j : (⟨2, ![M, N]⟩ : Shape).Idx) (q : D.contr.Idx) : (D.lhsIdx j q 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ _ _ _ (by simp [h.lb, h.ln])

/-- The right operand's column is the output's column. -/
theorem rhsIdx_col (j : (⟨2, ![M, N]⟩ : Shape).Idx) (q : D.contr.Idx) : (D.rhsIdx j q 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ _ _ _ (by simp [h.lb, h.ln, h.rn])

/-- At contraction position `k` the left operand is read at `(r, k)`. -/
theorem lhsIdx_eq (r : Fin M) (c : Fin N) (k : Fin K) :
    D.lhsIdx (ix2 r c) ((contrEquiv1 D K h.contr_rank h.contr_size).symm k) = ix2 r k := by
  funext a; apply Fin.ext
  match a with
  | ⟨0, _⟩ => exact h.lhsIdx_row (ix2 r c) _
  | ⟨1, _⟩ =>
    exact (D.lhsIdx_val_of_single h.lc (ix2 r c) _).trans (contrEquiv1_symm_val D K h.contr_rank h.contr_size k)

/-- At contraction position `k` the right operand is read at `(k, c)`. -/
theorem rhsIdx_eq (r : Fin M) (c : Fin N) (k : Fin K) :
    D.rhsIdx (ix2 r c) ((contrEquiv1 D K h.contr_rank h.contr_size).symm k) = ix2 k c := by
  funext a; apply Fin.ext
  match a with
  | ⟨0, _⟩ =>
    exact (D.rhsIdx_val_of_single h.rc (ix2 r c) _).trans (contrEquiv1_symm_val D K h.contr_rank h.contr_size k)
  | ⟨1, _⟩ => exact h.rhsIdx_col (ix2 r c) _

/-- A block product accumulated from zero, at entry `(r, c)`: the inner product of row `r` and column `c`. -/
theorem matmul_zero_apply {φ₁ φ₂ : FTy} (prec : Option ContractPrecision) (x : FVec Ideal ⟨2, ![M, K]⟩ φ₁)
    (w : FVec Ideal ⟨2, ![K, N]⟩ φ₂) (r : Fin M) (c : Fin N) :
    FloatOps.matmul D prec x w (constant (F := Ideal) ⟨2, ![M, N]⟩ .f32 0x00000000#32) (ix2 r c)
      = ∑ k : Fin K, x (ix2 r k) * w (ix2 k c) := by
  rw [Ideal.matmul_constant_zero_apply]
  rw [← Equiv.sum_comp (contrEquiv1 D K h.contr_rank h.contr_size).symm]
  refine Finset.sum_congr rfl fun k _ => ?_
  rw [h.lhsIdx_eq r c k, h.rhsIdx_eq r c k]

end PlainDot

end Cert.Spec

end
-- ==== Proof.Region.R0.lean ====
/-
  The value of kernel region 0: the node encoder, `relu (x · node_w + node_b)` on the 50000 × 64 node features.

  The region walks the 50000 rows of `x` in 25 blocks of 2000 rows; the weight matrix and the one-row bias are
  staged whole at every point. At a point the body leaves in the output block the block product of the `x` block
  with `w`, accumulated from zero, plus the bias row added to every row, and then the positive part (changes of
  float format are the identity on extended reals). Entry `(r, c)` of that block is therefore
  `max (∑ k, x (2000 t + r, k) * w (k, c) + b (0, c)) 0`, which is entry `(2000 t + r, c)` of `Spec.affineRelu x w b`: an entry of
  an affine map depends on one row of `x` only, so a row block of the result is the affine map of the row block.
  The 25 blocks tile the rows (row `R` lies in block `R / 2000`), so the array the region leaves is
  `Spec.affineRelu x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R0

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S2000x64_S64x128_S2000x128_1_0_0_1_n_n := ⟨rfl, rfl, rfl, rfl, rfl, rfl⟩

/-- The body's stored value at entry `(r, c)` of the block, from the three loaded blocks. -/
theorem pay_apply (x0 : Vec Ideal S2000x64 .f32) (x1 : Vec Ideal S64x128 .f32) (x2 : Vec Ideal S1x128 .f32)
    (r : Fin 2000) (c : Fin 128) :
    k0_pay1 (F := Ideal) x0 x1 x2 (ix2 r c) = Spec.affineRelu x0 x1 x2 (ix2 r c) := by
  unfold k0_pay1
  show max ((matmul (F := Ideal) dot_S2000x64_S64x128_S2000x128_1_0_0_1_n_n none (truncf (F := Ideal) .bf16 x0 bitsLt_bf16_f32)
      (truncf (F := Ideal) .bf16 x1 bitsLt_bf16_f32) (constant (F := Ideal) S2000x128 .f32 0x00000000#32)) (ix2 r c)
      + broadcastTo S2000x128 (shapeCast S1x128 x2 shapeCasts_S1x128_S1x128) broadcasts_S1x128_S2000x128 (ix2 r c))
      (Ideal.ofBits .f32 0x00000000#32) = _
  rw [Ideal.ofBits_zero_f32, shapeCast_self]
  refine congrArg (max · 0) ?_
  refine congrArg₂ (· + ·) ?_ ?_
  · exact plainDot.matmul_zero_apply none _ _ r c
  · exact broadcastTo_1b_ab_apply x2 broadcasts_S1x128_S2000x128 r c

/-- The windows' index maps over the grid: `x` and the output move one row block per point, the weights and the
    bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Every entry of the output array is in the block of the point its row names: row `R` is in block `R / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The `x` block at point `t` is rows `2000 t … 2000 t + 1999` of the array. -/
theorem xblk_apply (c : Dev nD) (t : Fin cfg0.N) (r : Fin 2000) (k : Fin 64) (R : Fin 50000) (hR : R.val = t.val * 2000 + r.val) :
    (iblk0 V c 0 t : Vec Ideal S2000x64 .f32) (ix2 r k) = (V c main_arg0 : S50000x64.Idx → EReal) (ix2 R k) := by
  obtain ⟨e0, e1, -⟩ := idx_facts t
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 2000 + 1 * r.val = R.val; omega
  | ⟨1, _⟩ => show win0_0.index t (1 : Fin 2) * 64 + 1 * k.val = k.val; omega

/-- The weight block at every point is the whole matrix. -/
theorem wblk_apply (c : Dev nD) (t : Fin cfg0.N) (k : Fin 64) (cc : Fin 128) :
    (iblk0 V c 1 t : Vec Ideal S64x128 .f32) (ix2 k cc) = (V c main_arg4 : S64x128.Idx → EReal) (ix2 k cc) := by
  obtain ⟨-, -, e2, e3, -⟩ := idx_facts t
  show V c main_arg4 (((cfg0.win 1).blk t).view.emb (ix2 k cc)) = V c main_arg4 (ix2 k cc)
  refine congrArg (V c main_arg4) (funext fun a => Fin.ext ?_)
  match a with
  | ⟨0, _⟩ => show win0_1.index t (0 : Fin 2) * 64 + 1 * k.val = k.val; omega
  | ⟨1, _⟩ => show win0_1.index t (1 : Fin 2) * 128 + 1 * cc.val = cc.val; omega

/-- The bias block at every point is the whole one-row array. -/
theorem bblk_apply (c : Dev nD) (t : Fin cfg0.N) (cc : Fin 128) :
    (iblk0 V c 2 t : Vec Ideal S1x128 .f32) (ix2 0 cc) = (V c main_v4 : S1x128.Idx → EReal) (ix2 0 cc) := by
  obtain ⟨-, -, -, -, e4, e5, -⟩ := idx_facts t
  show V c main_v4 (((cfg0.win 2).blk t).view.emb (ix2 0 cc)) = V c main_v4 (ix2 0 cc)
  refine congrArg (V c main_v4) (funext fun a => Fin.ext ?_)
  match a with
  | ⟨0, _⟩ => show win0_2.index t (0 : Fin 2) * 1 + 1 * (0 : Fin 1).val = (0 : Fin 1).val; rw [e4]; rfl
  | ⟨1, _⟩ => show win0_2.index t (1 : Fin 2) * 128 + 1 * cc.val = cc.val; omega

/-- Entry `(r, c)` of the output block at point `t` sits at row `2000 t + r`, column `c` of the array. -/
theorem oblk_emb (t : Fin cfg0.N) (r : Fin 2000) (cc : Fin 128) :
    ∃ R : Fin 50000, R.val = t.val * 2000 + r.val ∧ ((cfg0.win 3).blk t).view.emb (ix2 r cc) = (ix2 R cc : S50000x128.Idx) := by
  obtain ⟨-, -, -, -, -, -, e6, e7⟩ := idx_facts t
  have hN : cfg0.N = 25 := N_0
  have ht : t.val < 25 := hN ▸ t.isLt
  refine ⟨⟨t.val * 2000 + r.val, by have := r.isLt; omega⟩, rfl, funext fun a => Fin.ext ?_⟩
  match a with
  | ⟨0, _⟩ => show win0_3.index t (0 : Fin 2) * 2000 + 1 * r.val = t.val * 2000 + r.val; omega
  | ⟨1, _⟩ => show win0_3.index t (1 : Fin 2) * 128 + 1 * cc.val = cc.val; omega

/-- One entry of what point `t` leaves in the output block is the same entry of the whole affine map. -/
theorem point_eq (c : Dev nD) (t : Fin cfg0.N) (j : S2000x128.Idx) :
    k0_pay1 (F := Ideal) (iblk0 V c 0 t) (iblk0 V c 1 t) (iblk0 V c 2 t) j
      = Spec.affineRelu (V c main_arg0) (V c main_arg4) (V c main_v4) (((cfg0.win 3).blk t).view.emb j) := by
  obtain ⟨r, cc, rfl⟩ : ∃ (r : Fin 2000) (cc : Fin 128), j = ix2 r cc := ⟨j 0, j 1, eq_ix2 j⟩
  obtain ⟨R, hR, hemb⟩ := oblk_emb t r cc
  refine ((pay_apply _ _ _ r cc).trans ?_).trans (congrArg (Spec.affineRelu (V c main_arg0) (V c main_arg4) (V c main_v4)) hemb.symm)
  exact Spec.affineRelu_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg0.N) :
    (dat0 (F := Ideal) V c).flushed 3 t
      = ((cfg0.win 3).blk t).view.read (Elt Ideal) (Spec.affineRelu (V c main_arg0) (V c main_arg4) (V c main_v4)) := by
  show (cfg0.win 3).cut (grid0.coords t) ((dat0 V c).after 3 t) = _
  rw [after0_3]
  unfold out0_3
  rw [View.canon_unit_zero hz]
  simp only [View.ld_unit_zero (S := S2000x64) hz, View.ld_unit_zero (S := S64x128) hz, View.ld_unit_zero (S := S1x128) hz]
  funext j
  exact point_eq V c t j

end R0

/-- The array region 0 leaves: the positive part of `x · w + b` of the three arrays it is entered with, whole. -/
theorem final0_3 (V : (c : Dev nD) → (b : Ref sig .tc) → Buf (Elt Ideal) ((c : Thread nD τ).loc b)) (c : Dev nD) :
    (dat0 (F := Ideal) V c).arrAt 3 cfg0.N = Spec.affineRelu (V c main_arg0) (V c main_arg4) (V c main_v4) :=
  (dat0 (F := Ideal) V c).arrAt_eq_of_cover 3 (Spec.affineRelu (V c main_arg0) (V c main_arg4) (V c main_v4))
    (fun t _ => R0.flushed_eq V c t) R0.cover

end Cert.KernelIdeal.Region

end
-- ==== Proof.Region.R1.lean ====
/-
  The value of kernel region 1: the edge encoder, `edge_attr · edge_w + edge_b` on the 640000 × 16 edge features.

  The region walks the 640000 rows of `x` in 64 blocks of 10000 rows; the weight matrix and the one-row bias are
  staged whole at every point. At a point the body leaves in the output block the block product of the `x` block
  with `w`, accumulated from zero, plus the bias row added to every row (changes of float format, on the way in and
  on the way out, are the identity on extended reals). Entry `(r, c)` of that block is therefore
  `∑ k, x (10000 t + r, k) * w (k, c) + b (0, c)`, which is entry `(10000 t + r, c)` of `Spec.affine x w b`: an entry of
  an affine map depends on one row of `x` only, so a row block of the result is the affine map of the row block.
  The 64 blocks tile the rows (row `R` lies in block `R / 10000`), so the array the region leaves is
  `Spec.affine x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R1

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S10000x16_S16x128_S10000x128_1_0_0_1_n_n := ⟨rfl, rfl, rfl, rfl, rfl, rfl⟩

/-- The body's stored value at entry `(r, c)` of the block, from the three loaded blocks. -/
theorem pay_apply (x0 : Vec Ideal S10000x16 .f32) (x1 : Vec Ideal S16x128 .f32) (x2 : Vec Ideal S1x128 .f32)
    (r : Fin 10000) (c : Fin 128) :
    k1_pay1 (F := Ideal) x0 x1 x2 (ix2 r c) = Spec.affine x0 x1 x2 (ix2 r c) := by
  unfold k1_pay1
  show (matmul (F := Ideal) dot_S10000x16_S16x128_S10000x128_1_0_0_1_n_n none (truncf (F := Ideal) .bf16 x0 bitsLt_bf16_f32)
      (truncf (F := Ideal) .bf16 x1 bitsLt_bf16_f32) (constant (F := Ideal) S10000x128 .f32 0x00000000#32)) (ix2 r c)
      + broadcastTo S10000x128 (shapeCast S1x128 x2 shapeCasts_S1x128_S1x128) broadcasts_S1x128_S10000x128 (ix2 r c) = _
  rw [shapeCast_self]
  refine congrArg₂ (· + ·) ?_ ?_
  · exact plainDot.matmul_zero_apply none _ _ r c
  · exact broadcastTo_1b_ab_apply x2 broadcasts_S1x128_S10000x128 r c

/-- The windows' index maps over the grid: `x` and the output move one row block per point, the weights and the
    bias stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An index of the output array is in point `t`'s block iff each coordinate is in the block's range on its axis. -/
theorem mem_blk (t : Fin cfg1.N) (i : S640000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v7).slice (win1_3.rect t)).set ↔ _
  rw [View.set_slice_whole, Rect.mem_set_unit]
  exact Iff.rfl

/-- Every entry of the output array is in the block of the point its row names: row `R` is in block `R / 10000`. -/
theorem cover (i : S640000x128.Idx) : ∃ t : Fin cfg1.N, (cfg1.win 3).flush t = true ∧ i ∈ ((cfg1.win 3).blk t).view.set := by
  have hi0 : (i 0).val < 640000 := (i 0).isLt
  have hi1 : (i 1).val < 128 := (i 1).isLt
  have hN : cfg1.N = 64 := N_1
  obtain ⟨t, ht⟩ : ∃ t : Fin cfg1.N, t.val = (i 0).val / 10000 := ⟨⟨(i 0).val / 10000, by rw [hN]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The `x` block at point `t` is rows `10000 t … 10000 t + 9999` of the array. -/
theorem xblk_apply (c : Dev nD) (t : Fin cfg1.N) (r : Fin 10000) (k : Fin 16) (R : Fin 640000) (hR : R.val = t.val * 10000 + r.val) :
    (iblk1 V c 0 t : Vec Ideal S10000x16 .f32) (ix2 r k) = (V c main_arg2 : S640000x16.Idx → EReal) (ix2 R k) := by
  obtain ⟨e0, e1, -⟩ := idx_facts t
  show V c main_arg2 (((cfg1.win 0).blk t).view.emb (ix2 r k)) = V c main_arg2 (ix2 R k)
  refine congrArg (V c main_arg2) (funext fun a => Fin.ext ?_)
  match a with
  | ⟨0, _⟩ => show win1_0.index t (0 : Fin 2) * 10000 + 1 * r.val = R.val; omega
  | ⟨1, _⟩ => show win1_0.index t (1 : Fin 2) * 16 + 1 * k.val = k.val; omega

/-- The weight block at every point is the whole matrix. -/
theorem wblk_apply (c : Dev nD) (t : Fin cfg1.N) (k : Fin 16) (cc : Fin 128) :
    (iblk1 V c 1 t : Vec Ideal S16x128 .f32) (ix2 k cc) = (V c main_arg6 : S16x128.Idx → EReal) (ix2 k cc) := by
  obtain ⟨-, -, e2, e3, -⟩ := idx_facts t
  show V c main_arg6 (((cfg1.win 1).blk t).view.emb (ix2 k cc)) = V c main_arg6 (ix2 k cc)
  refine congrArg (V c main_arg6) (funext fun a => Fin.ext ?_)
  match a with
  | ⟨0, _⟩ => show win1_1.index t (0 : Fin 2) * 16 + 1 * k.val = k.val; omega
  | ⟨1, _⟩ => show win1_1.index t (1 : Fin 2) * 128 + 1 * cc.val = cc.val; omega

/-- The bias block at every point is the whole one-row array. -/
theorem bblk_apply (c : Dev nD) (t : Fin cfg1.N) (cc : Fin 128) :
    (iblk1 V c 2 t : Vec Ideal S1x128 .f32) (ix2 0 cc) = (V c main_v6 : S1x128.Idx → EReal) (ix2 0 cc) := by
  obtain ⟨-, -, -, -, e4, e5, -⟩ := idx_facts t
  show V c main_v6 (((cfg1.win 2).blk t).view.emb (ix2 0 cc)) = V c main_v6 (ix2 0 cc)
  refine congrArg (V c main_v6) (funext fun a => Fin.ext ?_)
  match a with
  | ⟨0, _⟩ => show win1_2.index t (0 : Fin 2) * 1 + 1 * (0 : Fin 1).val = (0 : Fin 1).val; rw [e4]; rfl
  | ⟨1, _⟩ => show win1_2.index t (1 : Fin 2) * 128 + 1 * cc.val = cc.val; omega

/-- Entry `(r, c)` of the output block at point `t` sits at row `10000 t + r`, column `c` of the array. -/
theorem oblk_emb (t : Fin cfg1.N) (r : Fin 10000) (cc : Fin 128) :
    ∃ R : Fin 640000, R.val = t.val * 10000 + r.val ∧ ((cfg1.win 3).blk t).view.emb (ix2 r cc) = (ix2 R cc : S640000x128.Idx) := by
  obtain ⟨-, -, -, -, -, -, e6, e7⟩ := idx_facts t
  have hN : cfg1.N = 64 := N_1
  have ht : t.val < 64 := hN ▸ t.isLt
  refine ⟨⟨t.val * 10000 + r.val, by have := r.isLt; omega⟩, rfl, funext fun a => Fin.ext ?_⟩
  match a with
  | ⟨0, _⟩ => show win1_3.index t (0 : Fin 2) * 10000 + 1 * r.val = t.val * 10000 + r.val; omega
  | ⟨1, _⟩ => show win1_3.index t (1 : Fin 2) * 128 + 1 * cc.val = cc.val; omega

/-- One entry of what point `t` leaves in the output block is the same entry of the whole affine map. -/
theorem point_eq (c : Dev nD) (t : Fin cfg1.N) (j : S10000x128.Idx) :
    k1_pay1 (F := Ideal) (iblk1 V c 0 t) (iblk1 V c 1 t) (iblk1 V c 2 t) j
      = Spec.affine (V c main_arg2) (V c main_arg6) (V c main_v6) (((cfg1.win 3).blk t).view.emb j) := by
  obtain ⟨r, cc, rfl⟩ : ∃ (r : Fin 10000) (cc : Fin 128), j = ix2 r cc := ⟨j 0, j 1, eq_ix2 j⟩
  obtain ⟨R, hR, hemb⟩ := oblk_emb t r cc
  refine ((pay_apply _ _ _ r cc).trans ?_).trans (congrArg (Spec.affine (V c main_arg2) (V c main_arg6) (V c main_v6)) hemb.symm)
  exact Spec.affine_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg1.N) :
    (dat1 (F := Ideal) V c).flushed 3 t
      = ((cfg1.win 3).blk t).view.read (Elt Ideal) (Spec.affine (V c main_arg2) (V c main_arg6) (V c main_v6)) := by
  show (cfg1.win 3).cut (grid1.coords t) ((dat1 V c).after 3 t) = _
  rw [after1_3]
  unfold out1_3
  rw [View.canon_unit_zero hz]
  simp only [View.ld_unit_zero (S := S10000x16) hz, View.ld_unit_zero (S := S16x128) hz, View.ld_unit_zero (S := S1x128) hz]
  funext j
  exact point_eq V c t j

end R1

/-- The array region 1 leaves: `x · w + b` of the three arrays it is entered with, whole. -/
theorem final1_3 (V : (c : Dev nD) → (b : Ref sig .tc) → Buf (Elt Ideal) ((c : Thread nD τ).loc b)) (c : Dev nD) :
    (dat1 (F := Ideal) V c).arrAt 3 cfg1.N = Spec.affine (V c main_arg2) (V c main_arg6) (V c main_v6) :=
  (dat1 (F := Ideal) V c).arrAt_eq_of_cover 3 (Spec.affine (V c main_arg2) (V c main_arg6) (V c main_v6))
    (fun t _ => R1.flushed_eq V c t) R1.cover

end Cert.KernelIdeal.Region

end
-- ==== Proof.K.Chain1.lean ====
/-
  What the kernel program's buffers hold at the boundaries W1 … W4 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.Region.R0
import proofs.«105345_j19885698580760_2_alg».proof.Proof.Region.R1

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v4 : W1 m ρ c (Proc.devRef .tc main_v4) = row128 (argsOf m c).node_b :=
  (KHost.s0_v4 (W0 m ρ c)).trans (by
    rw [show W0 m ρ c (Proc.devRef .tc main_arg5) = (argsOf m c).node_b from (rfl : W0 m ρ c (Proc.devRef .tc main_arg5) = (argsOf m c).node_b)]
    try rfl)

theorem val_v5 : W2 m ρ c (Proc.devRef .tc main_v5) = KVal.h0 (argsOf m c) :=
  calc W2 m ρ c (Proc.devRef .tc main_v5) = (dat0 (V1 m ρ) c).arrAt 3 cfg0.N := W2_arr m ρ c 3
    _ = _ := Region.final0_3 (V1 m ρ) c
    _ = KVal.h0 (argsOf m c) := by
      rw [show V1 m ρ c main_arg0 = (argsOf m c).x from (keep_arg0_1_0 m ρ c),
        show V1 m ρ c main_arg4 = (argsOf m c).node_w from (keep_arg4_1_0 m ρ c),
        show V1 m ρ c main_v4 = row128 (argsOf m c).node_b from (val_v4 m ρ c)]
      try rfl

theorem val_v6 : W3 m ρ c (Proc.devRef .tc main_v6) = row128 (argsOf m c).edge_b :=
  (KHost.s1_v6 (W2 m ρ c)).trans (by
    rw [show W2 m ρ c (Proc.devRef .tc main_arg7) = (argsOf m c).edge_b from (keep_arg7_2_0 m ρ c)]
    try rfl)

theorem val_v7 : W4 m ρ c (Proc.devRef .tc main_v7) = KVal.e (argsOf m c) :=
  calc W4 m ρ c (Proc.devRef .tc main_v7) = (dat1 (V3 m ρ) c).arrAt 3 cfg1.N := W4_arr m ρ c 3
    _ = _ := Region.final1_3 (V3 m ρ) c
    _ = KVal.e (argsOf m c) := by
      rw [show V3 m ρ c main_arg2 = (argsOf m c).ea from (keep_arg2_3_0 m ρ c),
        show V3 m ρ c main_arg6 = (argsOf m c).edge_w from (keep_arg6_3_0 m ρ c),
        show V3 m ρ c main_v6 = row128 (argsOf m c).edge_b from (val_v6 m ρ c)]
      try rfl

theorem val_v1 : W1 m ρ c (Proc.devRef .tc main_v1) = src_row (argsOf m c).ei :=
  (KHost.s0_v1 (W0 m ρ c)).trans (by
    rw [show W0 m ρ c (Proc.devRef .tc main_arg1) = (argsOf m c).ei from (rfl : W0 m ρ c (Proc.devRef .tc main_arg1) = (argsOf m c).ei)]
    try rfl)

theorem val_v3 : W1 m ρ c (Proc.devRef .tc main_v3) = dst_row (argsOf m c).ei :=
  (KHost.s0_v3 (W0 m ρ c)).trans (by
    rw [show W0 m ρ c (Proc.devRef .tc main_arg1) = (argsOf m c).ei from (rfl : W0 m ρ c (Proc.devRef .tc main_arg1) = (argsOf m c).ei)]
    try rfl)

end Cert.KernelIdeal.KChain

end
-- ==== Proof.Region.R2.lean ====
/-
  The value of kernel region 2: the first layer's edge projection, `e · lin_w[0] + lin_b[0]` on the 640000 × 128
  encoded edge features.

  The region walks the 640000 rows of `x` in 64 blocks of 10000 rows; the weight matrix and the one-row bias are
  staged whole at every point. At a point the body leaves in the output block the block product of the `x` block
  with `w`, accumulated from zero, plus the bias row added to every row (the shape casts of the operands are to their
  own shapes, and changes of float format are the identity on extended reals). Entry `(r, c)` of that block is
  therefore `∑ k, x (10000 t + r, k) * w (k, c) + b (0, c)`, which is entry `(10000 t + r, c)` of `Spec.affine x w b`: an
  entry of an affine map depends on one row of `x` only, so a row block of the result is the affine map of the row
  block. The 64 blocks tile the rows (row `R` lies in block `R / 10000`), so the array the region leaves is
  `Spec.affine x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R2

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S10000x128_S128x128_S10000x128_1_0_0_1_n_n := ⟨rfl, rfl, rfl, rfl, rfl, rfl⟩

/-- The body's stored value at entry `(r, c)` of the block, from the three loaded blocks. -/
theorem pay_apply (x0 : Vec Ideal S10000x128 .bf16) (x1 : Vec Ideal S128x128 .f32) (x2 : Vec Ideal S1x128 .f32)
    (r : Fin 10000) (c : Fin 128) :
    k2_pay1 (F := Ideal) x0 x1 x2 (ix2 r c) = Spec.affine x0 x1 x2 (ix2 r c) := by
  unfold k2_pay1
  show (matmul (F := Ideal) dot_S10000x128_S128x128_S10000x128_1_0_0_1_n_n none
      (shapeCast S10000x128 x0 shapeCasts_S10000x128_S10000x128)
      (truncf (F := Ideal) .bf16 (shapeCast S128x128 x1 shapeCasts_S128x128_S128x128) bitsLt_bf16_f32)
      (constant (F := Ideal) S10000x128 .f32 0x00000000#32)) (ix2 r c)
      + broadcastTo S10000x128 (shapeCast S1x128 x2 shapeCasts_S1x128_S1x128) broadcasts_S1x128_S10000x128 (ix2 r c) = _
  simp only [shapeCast_self]
  refine congrArg₂ (· + ·) ?_ ?_
  · exact plainDot.matmul_zero_apply none _ _ r c
  · exact broadcastTo_1b_ab_apply x2 broadcasts_S1x128_S10000x128 r c

/-- The windows' index maps over the grid: `x` and the output move one row block per point, the weights and the
    bias stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An index of the output array is in point `t`'s block iff each coordinate is in the block's range on its axis. -/
theorem mem_blk (t : Fin cfg2.N) (i : S640000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v13).slice (win2_3.rect t)).set ↔ _
  rw [View.set_slice_whole, Rect.mem_set_unit]
  exact Iff.rfl

/-- Every entry of the output array is in the block of the point its row names: row `R` is in block `R / 10000`. -/
theorem cover (i : S640000x128.Idx) : ∃ t : Fin cfg2.N, (cfg2.win 3).flush t = true ∧ i ∈ ((cfg2.win 3).blk t).view.set := by
  have hi0 : (i 0).val < 640000 := (i 0).isLt
  have hi1 : (i 1).val < 128 := (i 1).isLt
  have hN : cfg2.N = 64 := N_2
  obtain ⟨t, ht⟩ : ∃ t : Fin cfg2.N, t.val = (i 0).val / 10000 := ⟨⟨(i 0).val / 10000, by rw [hN]; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The `x` block at point `t` is rows `10000 t … 10000 t + 9999` of the array. -/
theorem xblk_apply (c : Dev nD) (t : Fin cfg2.N) (r : Fin 10000) (k : Fin 128) (R : Fin 640000) (hR : R.val = t.val * 10000 + r.val) :
    (iblk2 V c 0 t : Vec Ideal S10000x128 .bf16) (ix2 r k) = (V c main_v7 : S640000x128.Idx → EReal) (ix2 R k) := by
  obtain ⟨e0, e1, -⟩ := idx_facts t
  show V c main_v7 (((cfg2.win 0).blk t).view.emb (ix2 r k)) = V c main_v7 (ix2 R k)
  refine congrArg (V c main_v7) (funext fun a => Fin.ext ?_)
  match a with
  | ⟨0, _⟩ => show win2_0.index t (0 : Fin 2) * 10000 + 1 * r.val = R.val; omega
  | ⟨1, _⟩ => show win2_0.index t (1 : Fin 2) * 128 + 1 * k.val = k.val; omega

/-- The weight block at every point is the whole matrix. -/
theorem wblk_apply (c : Dev nD) (t : Fin cfg2.N) (k : Fin 128) (cc : Fin 128) :
    (iblk2 V c 1 t : Vec Ideal S128x128 .f32) (ix2 k cc) = (V c main_v9 : S128x128.Idx → EReal) (ix2 k cc) := by
  obtain ⟨-, -, e2, e3, -⟩ := idx_facts t
  show V c main_v9 (((cfg2.win 1).blk t).view.emb (ix2 k cc)) = V c main_v9 (ix2 k cc)
  refine congrArg (V c main_v9) (funext fun a => Fin.ext ?_)
  match a with
  | ⟨0, _⟩ => show win2_1.index t (0 : Fin 2) * 128 + 1 * k.val = k.val; omega
  | ⟨1, _⟩ => show win2_1.index t (1 : Fin 2) * 128 + 1 * cc.val = cc.val; omega

/-- The bias block at every point is the whole one-row array. -/
theorem bblk_apply (c : Dev nD) (t : Fin cfg2.N) (cc : Fin 128) :
    (iblk2 V c 2 t : Vec Ideal S1x128 .f32) (ix2 0 cc) = (V c main_v12 : S1x128.Idx → EReal) (ix2 0 cc) := by
  obtain ⟨-, -, -, -, e4, e5, -⟩ := idx_facts t
  show V c main_v12 (((cfg2.win 2).blk t).view.emb (ix2 0 cc)) = V c main_v12 (ix2 0 cc)
  refine congrArg (V c main_v12) (funext fun a => Fin.ext ?_)
  match a with
  | ⟨0, _⟩ => show win2_2.index t (0 : Fin 2) * 1 + 1 * (0 : Fin 1).val = (0 : Fin 1).val; rw [e4]; rfl
  | ⟨1, _⟩ => show win2_2.index t (1 : Fin 2) * 128 + 1 * cc.val = cc.val; omega

/-- Entry `(r, c)` of the output block at point `t` sits at row `10000 t + r`, column `c` of the array. -/
theorem oblk_emb (t : Fin cfg2.N) (r : Fin 10000) (cc : Fin 128) :
    ∃ R : Fin 640000, R.val = t.val * 10000 + r.val ∧ ((cfg2.win 3).blk t).view.emb (ix2 r cc) = (ix2 R cc : S640000x128.Idx) := by
  obtain ⟨-, -, -, -, -, -, e6, e7⟩ := idx_facts t
  have hN : cfg2.N = 64 := N_2
  have ht : t.val < 64 := hN ▸ t.isLt
  refine ⟨⟨t.val * 10000 + r.val, by have := r.isLt; omega⟩, rfl, funext fun a => Fin.ext ?_⟩
  match a with
  | ⟨0, _⟩ => show win2_3.index t (0 : Fin 2) * 10000 + 1 * r.val = t.val * 10000 + r.val; omega
  | ⟨1, _⟩ => show win2_3.index t (1 : Fin 2) * 128 + 1 * cc.val = cc.val; omega

/-- One entry of what point `t` leaves in the output block is the same entry of the whole affine map. -/
theorem point_eq (c : Dev nD) (t : Fin cfg2.N) (j : S10000x128.Idx) :
    k2_pay1 (F := Ideal) (iblk2 V c 0 t) (iblk2 V c 1 t) (iblk2 V c 2 t) j
      = Spec.affine (V c main_v7) (V c main_v9) (V c main_v12) (((cfg2.win 3).blk t).view.emb j) := by
  obtain ⟨r, cc, rfl⟩ : ∃ (r : Fin 10000) (cc : Fin 128), j = ix2 r cc := ⟨j 0, j 1, eq_ix2 j⟩
  obtain ⟨R, hR, hemb⟩ := oblk_emb t r cc
  refine ((pay_apply _ _ _ r cc).trans ?_).trans (congrArg (Spec.affine (V c main_v7) (V c main_v9) (V c main_v12)) hemb.symm)
  exact Spec.affine_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg2.N) :
    (dat2 (F := Ideal) V c).flushed 3 t
      = ((cfg2.win 3).blk t).view.read (Elt Ideal) (Spec.affine (V c main_v7) (V c main_v9) (V c main_v12)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  funext j
  exact point_eq V c t j

end R2

/-- The array region 2 leaves: `x · w + b` of the three arrays it is entered with, whole. -/
theorem final2_3 (V : (c : Dev nD) → (b : Ref sig .tc) → Buf (Elt Ideal) ((c : Thread nD τ).loc b)) (c : Dev nD) :
    (dat2 (F := Ideal) V c).arrAt 3 cfg2.N = Spec.affine (V c main_v7) (V c main_v9) (V c main_v12) :=
  (dat2 (F := Ideal) V c).arrAt_eq_of_cover 3 (Spec.affine (V c main_v7) (V c main_v9) (V c main_v12))
    (fun t _ => R2.flushed_eq V c t) R2.cover

end Cert.KernelIdeal.Region

end
-- ==== Proof.Region.MlpBlock.lean ====
/-
  One block of 2000 rows through the perceptron's body, read entry by entry over the extended reals.

  The body's arithmetic is a chain of whole-block operations: the features times (1 + eps) plus the aggregated
  messages; a product with the first weight matrix into a zero accumulator, plus the first bias spread over the rows,
  rectified; a product with the second weight matrix into a zero accumulator, plus the second bias. Changes of float
  format are the identity on extended reals, and a product into a zero accumulator is the plain sum over the shared
  coordinate, so at row `r` and column `c` the block's output is

    ∑ₖ max (∑ₖ' (x (r, k') * (1 + eps) + a (r, k')) * w1 (k', k) + b1 k) 0 * w2 (k, c) + b2 c.

  The two statistics are sums of that output (and of its square) over the block's 2000 rows, column by column; each
  is then spread over an 8-row slab and kept only in the slab's row 0 (a select on "the row number equals 0").

  Every lemma is stated over variables of the literal block types and at indices built from their coordinates. The
  last three say that when the two row blocks are rows `2000 T … 2000 T + 1999` of the whole feature and message
  arrays and the five small blocks are the whole small arrays, the block's three values are the whole-array
  functions `mlpZ`, `blockSums`, `blockSqSums` read at those rows and at slab `T`.
-/
import proofs.«105345_j19885698580760_2_alg».proof.Proof.Spec.Mlp
import proofs.«105345_j19885698580760_2_alg».proof.Proof.Gen.KernelIdeal.Skeleton
import Idealize.ShloMosaic.Lib.ValueLayout
import Idealize.ShloMosaic.PureOps.Ideal.Laws
import Idealize.ShloMosaic.Lib.Pipeline.Value

noncomputable section

open scoped BigOperators

namespace Cert.KernelIdeal.Region

open Idealize.ShloMosaic Idealize.ShloMosaic.ValueIdx Cert.KernelIdeal Cert.KernelIdeal.Gen Cert.Spec

/-- A one-entry array spread over a matrix reads its entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The first dense layer's product at an entry: the sum over the 128 shared coordinates. -/
theorem matmul_128_apply (A : FVec Ideal S2000x128 .bf16) (B : FVec Ideal S128x256 .bf16) (r : Fin 2000) (c : Fin 256) :
    matmul dot_S2000x128_S128x256_S2000x256_1_0_0_1_n_n none A B (constant S2000x256 .f32 0x00000000#32) (ix2 r c)
      = ∑ k : Fin 128, A (ix2 r k) * B (ix2 k c) := by
  refine (Ideal.matmul_constant_zero_apply dot_S2000x128_S128x256_S2000x256_1_0_0_1_n_n none A B (ix2 r c)).trans ?_
  rw [← Equiv.sum_comp (contrEquiv1 dot_S2000x128_S128x256_S2000x256_1_0_0_1_n_n 128 rfl rfl).symm]
  refine Finset.sum_congr rfl fun k _ => ?_
  have ck := contrEquiv1_symm_val dot_S2000x128_S128x256_S2000x256_1_0_0_1_n_n 128 rfl rfl k
  have hl : dot_S2000x128_S128x256_S2000x256_1_0_0_1_n_n.lhsIdx (ix2 r c)
      ((contrEquiv1 dot_S2000x128_S128x256_S2000x256_1_0_0_1_n_n 128 rfl rfl).symm k) = ix2 r k := by
    funext ax; apply Fin.ext
    match ax with
    | ⟨0, _⟩ => simp [DotDims.lhsIdx, dot_S2000x128_S128x256_S2000x256_1_0_0_1_n_n]; rfl
    | ⟨1, _⟩ => simp [DotDims.lhsIdx, dot_S2000x128_S128x256_S2000x256_1_0_0_1_n_n]; exact ck
  have hr : dot_S2000x128_S128x256_S2000x256_1_0_0_1_n_n.rhsIdx (ix2 r c)
      ((contrEquiv1 dot_S2000x128_S128x256_S2000x256_1_0_0_1_n_n 128 rfl rfl).symm k) = ix2 k c := by
    funext ax; apply Fin.ext
    match ax with
    | ⟨0, _⟩ => simp [DotDims.rhsIdx, dot_S2000x128_S128x256_S2000x256_1_0_0_1_n_n]; exact ck
    | ⟨1, _⟩ => simp [DotDims.rhsIdx, dot_S2000x128_S128x256_S2000x256_1_0_0_1_n_n]; rfl
  rw [hl, hr]

/-- The second dense layer's product at an entry: the sum over the 256 shared coordinates. -/
theorem matmul_256_apply (A : FVec Ideal S2000x256 .bf16) (B : FVec Ideal S256x128 .bf16) (r : Fin 2000) (c : Fin 128) :
    matmul dot_S2000x256_S256x128_S2000x128_1_0_0_1_n_n none A B (constant S2000x128 .f32 0x00000000#32) (ix2 r c)
      = ∑ k : Fin 256, A (ix2 r k) * B (ix2 k c) := by
  refine (Ideal.matmul_constant_zero_apply dot_S2000x256_S256x128_S2000x128_1_0_0_1_n_n none A B (ix2 r c)).trans ?_
  rw [← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 r c)
      ((contrEquiv1 dot_S2000x256_S256x128_S2000x128_1_0_0_1_n_n 256 rfl rfl).symm k) = ix2 r k := by
    funext ax; apply Fin.ext
    match ax with
    | ⟨0, _⟩ => simp [DotDims.lhsIdx, dot_S2000x256_S256x128_S2000x128_1_0_0_1_n_n]; rfl
    | ⟨1, _⟩ => simp [DotDims.lhsIdx, dot_S2000x256_S256x128_S2000x128_1_0_0_1_n_n]; exact ck
  have hr : dot_S2000x256_S256x128_S2000x128_1_0_0_1_n_n.rhsIdx (ix2 r c)
      ((contrEquiv1 dot_S2000x256_S256x128_S2000x128_1_0_0_1_n_n 256 rfl rfl).symm k) = ix2 k c := by
    funext ax; apply Fin.ext
    match ax with
    | ⟨0, _⟩ => simp [DotDims.rhsIdx, dot_S2000x256_S256x128_S2000x128_1_0_0_1_n_n]; exact ck
    | ⟨1, _⟩ => simp [DotDims.rhsIdx, dot_S2000x256_S256x128_S2000x128_1_0_0_1_n_n]; rfl
  rw [hl, hr]

/-- One block of 2000 rows through the two dense layers, at row `r` and column `c` of the block. -/
theorem pay4_apply (x0 : Vec Ideal S2000x128 .f32) (x2 : Vec Ideal S1x1 .f32) (x8 : Vec Ideal S2000x128 .f32)
    (x12 : Vec Ideal S128x256 .f32) (x16 : Vec Ideal S1x256 .f32) (x23 : Vec Ideal S256x128 .f32)
    (x27 : Vec Ideal S1x128 .f32) (r : Fin 2000) (c : Fin 128) :
    k3_pay4 (F := Ideal) x0 x2 x8 x12 x16 x23 x27 (ix2 r c)
      = (∑ k : Fin 256, max ((∑ k' : Fin 128,
            (x0 (ix2 r k') * (Ideal.ofBits .f32 0x3F800000#32 + x2 (ix2 (0 : Fin 1) (0 : Fin 1))) + x8 (ix2 r k'))
              * x12 (ix2 k' k)) + x16 (ix2 (0 : Fin 1) k)) 0 * x23 (ix2 k c)) + x27 (ix2 (0 : Fin 1) c) := by
  unfold k3_pay4
  simp only [shapeCast_self]
  refine (addf_apply _ _ (ix2 r c)).trans ?_
  refine congrArg₂ (· + ·) ((matmul_256_apply _ _ r c).trans (Finset.sum_congr rfl fun k _ => ?_))
    (broadcastTo_1b_ab_apply _ _ r c)
  refine congrArg₂ (· * ·) ?_ rfl
  show max ((_ : EReal) + _) _ = _
  refine congrArg₂ max (congrArg₂ (· + ·) ((matmul_128_apply _ _ r k).trans (Finset.sum_congr rfl fun k' _ => ?_))
    (broadcastTo_1b_ab_apply _ _ r k)) Ideal.ofBits_zero_f32
  refine congrArg₂ (· * ·) ?_ rfl
  show ((_ : EReal) * _ + _) = _
  refine congrArg₂ (· + ·) (congrArg₂ (· * ·) rfl ?_) rfl
  exact broadcastTo_11_ab_apply _ _ r k'

/-- A select on "row `s` of eight is row 0" is the `if` on `s`. -/
theorem select_row0 {α : Type} (s : Fin 8) (A B : α) :
    Scalar.select (IntOp.cmpi .eq (BitVec.ofNat 32 s.val) 0#32) A B = if s.val = 0 then A else B := by
  obtain ⟨n, hn⟩ := s
  interval_cases n <;> rfl

/-- The mask: at row `s` it compares the row number with zero. -/
theorem pay1_apply (s : Fin 8) (l : Fin 128) :
    k3_pay1 (ix2 s l) = IntOp.cmpi .eq (BitVec.ofNat 32 s.val) 0#32 := by
  unfold k3_pay1
  show IntOp.cmpi .eq (iota .tc S8x128 32 [0] _ (ix2 s l)) (broadcast S8x128 0#32 (ix2 s l)) = _
  rw [iota_single_apply]
  rfl

/-- A row spread over an 8-row slab under the mask: the row in the slab's row 0, zero below. -/
theorem pay2_apply (v33 : FVec Ideal S1x128 .f32) (u : Fin 1) (s : Fin 8) (l : Fin 128) :
    k3_pay2 (F := Ideal) v33 (ix3 u s l) = if s.val = 0 then v33 (ix2 (0 : Fin 1) l) else 0 := by
  unfold k3_pay2
  simp only [shapeCast_self]
  refine (shapeCast_ab_1ab_apply _ _ u s l).trans ?_
  refine (select_apply _ _ _ (ix2 s l)).trans ?_
  rw [pay1_apply, select_row0]
  exact if_congr Iff.rfl (broadcastTo_1b_ab_apply _ _ s l) Ideal.ofBits_zero_f32

/-- The same for a vector of 128 entries first laid out as a row. -/
theorem pay3_apply (v35 : FVec Ideal S128 .f32) (u : Fin 1) (s : Fin 8) (l : Fin 128) :
    k3_pay3 (F := Ideal) v35 (ix3 u s l) = if s.val = 0 then v35 (ix1 l) else 0 := by
  unfold k3_pay3
  simp only [shapeCast_self]
  refine (shapeCast_ab_1ab_apply _ _ u s l).trans ?_
  refine (select_apply _ _ _ (ix2 s l)).trans ?_
  rw [pay1_apply, select_row0]
  exact if_congr Iff.rfl ((broadcastTo_1b_ab_apply _ _ s l).trans (shapeCast_a_1a_apply _ _ (0 : Fin 1) l))
    Ideal.ofBits_zero_f32

/-- Column `l` of a 2000-row block with the row coordinate `k` put back is entry (k, l). -/
theorem lift_rows (h : S2000x128.Reduces [0] S128) (l : Fin 128) (k : Fin 2000) : h.lift (ix1 l) k = ix2 k l := by
  funext ax; apply Fin.ext
  match ax with
  | ⟨0, _⟩ => rfl
  | ⟨1, _⟩ => rfl

/-- A sum over the rows of a 2000-row block, column by column. -/
theorem colsum_apply (src : FVec Ideal S2000x128 .f32) (h : S2000x128.Reduces [0] S128) (hφ : FKind.Formats .f32)
    (hacc : (0x00000000#32 : BitVec 32) = 0x00000000#32) (l : Fin 128) :
    multiReduction .add [0] S128 src 0x00000000#32 h hφ hacc (ix1 l) = ∑ k : Fin 2000, src (ix2 k l) := by
  refine (Ideal.multiReduction_add_single src 0x00000000#32 h hφ hacc (ix1 l)).trans ?_
  exact Finset.sum_congr rfl fun k _ => congrArg src (lift_rows h l k)

/-- The column sums of a block's output, as a row. -/
theorem pay5_apply (x0 : Vec Ideal S2000x128 .f32) (x2 : Vec Ideal S1x1 .f32) (x8 : Vec Ideal S2000x128 .f32)
    (x12 : Vec Ideal S128x256 .f32) (x16 : Vec Ideal S1x256 .f32) (x23 : Vec Ideal S256x128 .f32)
    (x27 : Vec Ideal S1x128 .f32) (u : Fin 1) (l : Fin 128) :
    k3_pay5 (F := Ideal) x0 x2 x8 x12 x16 x23 x27 (ix2 u l)
      = ∑ r : Fin 2000, k3_pay4 (F := Ideal) x0 x2 x8 x12 x16 x23 x27 (ix2 r l) := by
  unfold k3_pay5
  refine (shapeCast_a_1a_apply _ _ u l).trans ?_
  exact colsum_apply _ _ _ _ l

/-- The column sums of the squares of a block's output. -/
theorem pay6_apply (x0 : Vec Ideal S2000x128 .f32) (x2 : Vec Ideal S1x1 .f32) (x8 : Vec Ideal S2000x128 .f32)
    (x12 : Vec Ideal S128x256 .f32) (x16 : Vec Ideal S1x256 .f32) (x23 : Vec Ideal S256x128 .f32)
    (x27 : Vec Ideal S1x128 .f32) (l : Fin 128) :
    k3_pay6 (F := Ideal) x0 x2 x8 x12 x16 x23 x27 (ix1 l)
      = ∑ r : Fin 2000, k3_pay4 (F := Ideal) x0 x2 x8 x12 x16 x23 x27 (ix2 r l)
          * k3_pay4 (F := Ideal) x0 x2 x8 x12 x16 x23 x27 (ix2 r l) := by
  unfold k3_pay6
  refine (colsum_apply _ _ _ _ l).trans ?_
  exact Finset.sum_congr rfl fun k _ => mulf_apply _ _ _

/-! ## A block's values as the whole-array functions read at the block's rows -/

/-- Zero offsets on two axes, however spelt. -/
theorem zeros2 : (![0, 0] : Fin 2 → Nat) = fun _ => 0 := funext fun a => by fin_cases a <;> rfl

/-- Zero offsets on three axes, however spelt. -/
theorem zeros3 : (![0, 0, 0] : Fin 3 → Nat) = fun _ => 0 := funext fun a => by fin_cases a <;> rfl

/-- When the two row blocks are rows `2000 T … 2000 T + 1999` of the feature and message arrays and the five small
    blocks are the whole small arrays, the block's output at (r, c) is the perceptron's output at row `2000 T + r`. -/
theorem blockZ_eq (x0 x1 : Vec Ideal S2000x128 .f32) (x2 : Vec Ideal S1x1 .f32) (x3 : Vec Ideal S128x256 .f32)
    (x4 : Vec Ideal S1x256 .f32) (x5 : Vec Ideal S256x128 .f32) (x6 : Vec Ideal S1x128 .f32)
    (h agg : (⟨2, ![50000, 128]⟩ : Shape).Idx → EReal) (eps : (⟨2, ![1, 1]⟩ : Shape).Idx → EReal)
    (w1 : (⟨2, ![128, 256]⟩ : Shape).Idx → EReal) (b1 : (⟨2, ![1, 256]⟩ : Shape).Idx → EReal)
    (w2 : (⟨2, ![256, 128]⟩ : Shape).Idx → EReal) (b2 : (⟨2, ![1, 128]⟩ : Shape).Idx → EReal) (T : Fin 25)
    (h0 : ∀ (r : Fin 2000) (k : Fin 128), x0 (ix2 r k) = h (ix2 (mlpBlockRow T r) k))
    (h1 : ∀ (r : Fin 2000) (k : Fin 128), x1 (ix2 r k) = agg (ix2 (mlpBlockRow T r) k))
    (h2 : x2 = eps) (h3 : x3 = w1) (h4 : x4 = b1) (h5 : x5 = w2) (h6 : x6 = b2) (r : Fin 2000) (c : Fin 128) :
    k3_pay4 (F := Ideal) x0 x2 x1 x3 x4 x5 x6 (ix2 r c)
      = mlpZ h agg eps w1 b1 w2 b2 (ix2 (mlpBlockRow T r) c) := by
  subst h2 h3 h4 h5 h6
  refine (pay4_apply x0 x2 x1 x3 x4 x5 x6 r c).trans ?_
  unfold mlpZ
  rw [mlpOut_apply]
  refine congrArg₂ (· + ·) (Finset.sum_congr rfl fun k _ => ?_) rfl
  rw [mlpHid_apply]
  refine congrArg₂ (· * ·) (congrArg₂ max (congrArg₂ (· + ·) (Finset.sum_congr rfl fun k' _ => ?_) rfl) rfl) rfl
  rw [mlpPre_apply, h0 r k', h1 r k']

/-- The block's column sums, spread over the slab, are slab `T` of the column sums of the perceptron's output. -/
theorem blockSums_eq (x0 x1 : Vec Ideal S2000x128 .f32) (x2 : Vec Ideal S1x1 .f32) (x3 : Vec Ideal S128x256 .f32)
    (x4 : Vec Ideal S1x256 .f32) (x5 : Vec Ideal S256x128 .f32) (x6 : Vec Ideal S1x128 .f32)
    (h agg : (⟨2, ![50000, 128]⟩ : Shape).Idx → EReal) (eps : (⟨2, ![1, 1]⟩ : Shape).Idx → EReal)
    (w1 : (⟨2, ![128, 256]⟩ : Shape).Idx → EReal) (b1 : (⟨2, ![1, 256]⟩ : Shape).Idx → EReal)
    (w2 : (⟨2, ![256, 128]⟩ : Shape).Idx → EReal) (b2 : (⟨2, ![1, 128]⟩ : Shape).Idx → EReal) (T : Fin 25)
    (h0 : ∀ (r : Fin 2000) (k : Fin 128), x0 (ix2 r k) = h (ix2 (mlpBlockRow T r) k))
    (h1 : ∀ (r : Fin 2000) (k : Fin 128), x1 (ix2 r k) = agg (ix2 (mlpBlockRow T r) k))
    (h2 : x2 = eps) (h3 : x3 = w1) (h4 : x4 = b1) (h5 : x5 = w2) (h6 : x6 = b2) (u : Fin 1) (s : Fin 8) (l : Fin 128) :
    k3_pay2 (F := Ideal) (k3_pay5 (F := Ideal) x0 x2 x1 x3 x4 x5 x6) (ix3 u s l)
      = blockSums (mlpZ h agg eps w1 b1 w2 b2) (ix3 T s l) := by
  rw [pay2_apply, blockSums_apply]
  refine if_congr Iff.rfl ((pay5_apply x0 x2 x1 x3 x4 x5 x6 (0 : Fin 1) l).trans ?_) rfl
  exact Finset.sum_congr rfl fun r _ =>
    blockZ_eq x0 x1 x2 x3 x4 x5 x6 h agg eps w1 b1 w2 b2 T h0 h1 h2 h3 h4 h5 h6 r l

/-- The block's column sums of squares likewise. -/
theorem blockSqSums_eq (x0 x1 : Vec Ideal S2000x128 .f32) (x2 : Vec Ideal S1x1 .f32) (x3 : Vec Ideal S128x256 .f32)
    (x4 : Vec Ideal S1x256 .f32) (x5 : Vec Ideal S256x128 .f32) (x6 : Vec Ideal S1x128 .f32)
    (h agg : (⟨2, ![50000, 128]⟩ : Shape).Idx → EReal) (eps : (⟨2, ![1, 1]⟩ : Shape).Idx → EReal)
    (w1 : (⟨2, ![128, 256]⟩ : Shape).Idx → EReal) (b1 : (⟨2, ![1, 256]⟩ : Shape).Idx → EReal)
    (w2 : (⟨2, ![256, 128]⟩ : Shape).Idx → EReal) (b2 : (⟨2, ![1, 128]⟩ : Shape).Idx → EReal) (T : Fin 25)
    (h0 : ∀ (r : Fin 2000) (k : Fin 128), x0 (ix2 r k) = h (ix2 (mlpBlockRow T r) k))
    (h1 : ∀ (r : Fin 2000) (k : Fin 128), x1 (ix2 r k) = agg (ix2 (mlpBlockRow T r) k))
    (h2 : x2 = eps) (h3 : x3 = w1) (h4 : x4 = b1) (h5 : x5 = w2) (h6 : x6 = b2) (u : Fin 1) (s : Fin 8) (l : Fin 128) :
    k3_pay3 (F := Ideal) (k3_pay6 (F := Ideal) x0 x2 x1 x3 x4 x5 x6) (ix3 u s l)
      = blockSqSums (mlpZ h agg eps w1 b1 w2 b2) (ix3 T s l) := by
  rw [pay3_apply, blockSqSums_apply]
  refine if_congr Iff.rfl ((pay6_apply x0 x2 x1 x3 x4 x5 x6 l).trans ?_) rfl
  refine Finset.sum_congr rfl fun r _ => ?_
  rw [blockZ_eq x0 x1 x2 x3 x4 x5 x6 h agg eps w1 b1 w2 b2 T h0 h1 h2 h3 h4 h5 h6 r l]

end Cert.KernelIdeal.Region

end
-- ==== Proof.Region.R3.lean ====
/-
  Region 3 of the kernel program: one application of the perceptron over 25 blocks of 2000 rows.

  At grid point `t` the pipeline stages rows `2000 t … 2000 t + 1999` of the feature array and of the aggregated
  messages, and the five small arrays whole; the body writes the block's output back to the same rows of the first
  result, and the block's column sums and column sums of squares to slab `t` of the two [25, 8, 128] results. The 25
  row blocks tile the 50000 rows and the 25 slabs tile the statistics arrays, so after the last point each result is
  one function of the region's seven input arrays: the perceptron's output `mlpZ`, and `blockSums` / `blockSqSums`
  of it.

  Per output window: what a point writes back is the window's block of that function (the block's value read entry by
  entry, each input block read where the window's index map puts it: a block's coordinate is the block index times the
  block size plus the coordinate inside the block); every entry of the array lies in the block of the point that
  covers its row; hence the whole array.
-/
import proofs.«105345_j19885698580760_2_alg».proof.Proof.Spec.Mlp
import proofs.«105345_j19885698580760_2_alg».proof.Proof.Region.MlpBlock
import proofs.«105345_j19885698580760_2_alg».proof.Proof.Gen.KernelIdeal.Frame
import Idealize.ShloMosaic.Lib.Pipeline.Value

noncomputable section

open scoped BigOperators

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The grid and the windows' index maps -/

/-- A grid point as a block number below 25. -/
abbrev pt3 (t : Fin cfg3.N) : Fin 25 := Fin.cast N_3 t

/-- The index maps, decided over the 25 points: the two row-block inputs and the first result move with the point
    along the rows; the five small inputs stay at block (0, 0); the two statistics results move with the point along
    their first axis. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 3) = t.val ∧ win3_8.index t (1 : Fin 3) = 0 ∧ win3_8.index t (2 : Fin 3) = 0
    ∧ win3_9.index t (0 : Fin 3) = t.val ∧ win3_9.index t (1 : Fin 3) = 0 ∧ win3_9.index t (2 : Fin 3) = 0 :=
  (by decide +kernel : ∀ t : Fin grid3.N, _)

/-! ## The input windows' blocks as rows of the arrays the region finds -/

/-- Window 0's block at point `t` is rows `2000 t … 2000 t + 1999` of the feature array. -/
theorem rows3_0 (c : Dev nD) (t : Fin cfg3.N) (r : Fin 2000) (k : Fin 128) :
    (iblk3 V c 0 t : Vec Ideal S2000x128 .f32) (ix2 r k)
      = (V c main_v5 : S50000x128.Idx → EReal) (ix2 (mlpBlockRow (pt3 t) r) k) := by
  obtain ⟨e00, e01, e10, e11, -⟩ := index_facts3 t
  unfold iblk3
  rw [View.read_apply]
  show V c main_v5 _ = V c main_v5 _
  refine congrArg (V c main_v5) ?_
  funext a
  apply Fin.ext
  match a with
  | ⟨0, _⟩ => show win3_0.index t (0 : Fin 2) * 2000 + 1 * r.val = 2000 * t.val + r.val; rw [e00]; omega
  | ⟨1, _⟩ => show win3_0.index t (1 : Fin 2) * 128 + 1 * k.val = k.val; rw [e01]; omega

/-- Window 1's block at point `t` is rows `2000 t … 2000 t + 1999` of the aggregated messages. -/
theorem rows3_1 (c : Dev nD) (t : Fin cfg3.N) (r : Fin 2000) (k : Fin 128) :
    (iblk3 V c 1 t : Vec Ideal S2000x128 .f32) (ix2 r k)
      = (V c main_v29 : S50000x128.Idx → EReal) (ix2 (mlpBlockRow (pt3 t) r) k) := by
  obtain ⟨e00, e01, e10, e11, -⟩ := index_facts3 t
  unfold iblk3
  rw [View.read_apply]
  show V c main_v29 _ = V c main_v29 _
  refine congrArg (V c main_v29) ?_
  funext a
  apply Fin.ext
  match a with
  | ⟨0, _⟩ => show win3_1.index t (0 : Fin 2) * 2000 + 1 * r.val = 2000 * t.val + r.val; rw [e10]; omega
  | ⟨1, _⟩ => show win3_1.index t (1 : Fin 2) * 128 + 1 * k.val = k.val; rw [e11]; omega

/-- Window 2 holds the whole one-entry array holding eps at every point. -/
theorem whole3_2 (c : Dev nD) (t : Fin cfg3.N) :
    (iblk3 V c 2 t : Vec Ideal S1x1 .f32) = (V c main_v32 : S1x1.Idx → EReal) := by
  obtain ⟨-, -, -, -, e20, e21, e30, e31, e40, e41, e50, e51, e60, e61, -⟩ := index_facts3 t
  refine funext fun (y : S1x1.Idx) => ?_
  unfold iblk3
  rw [View.read_apply]
  show V c main_v32 _ = V c main_v32 _
  refine congrArg (V c main_v32) ?_
  funext a
  apply Fin.ext
  match a with
  | ⟨0, _⟩ => show win3_2.index t (0 : Fin 2) * 1 + 1 * (y 0).val = (y 0).val; rw [e20]; omega
  | ⟨1, _⟩ => show win3_2.index t (1 : Fin 2) * 1 + 1 * (y 1).val = (y 1).val; rw [e21]; omega

/-- Window 3 holds the whole first weight matrix at every point. -/
theorem whole3_3 (c : Dev nD) (t : Fin cfg3.N) :
    (iblk3 V c 3 t : Vec Ideal S128x256 .f32) = (V c main_v34 : S128x256.Idx → EReal) := by
  obtain ⟨-, -, -, -, e20, e21, e30, e31, e40, e41, e50, e51, e60, e61, -⟩ := index_facts3 t
  refine funext fun (y : S128x256.Idx) => ?_
  unfold iblk3
  rw [View.read_apply]
  show V c main_v34 _ = V c main_v34 _
  refine congrArg (V c main_v34) ?_
  funext a
  apply Fin.ext
  match a with
  | ⟨0, _⟩ => show win3_3.index t (0 : Fin 2) * 128 + 1 * (y 0).val = (y 0).val; rw [e30]; omega
  | ⟨1, _⟩ => show win3_3.index t (1 : Fin 2) * 256 + 1 * (y 1).val = (y 1).val; rw [e31]; omega

/-- Window 4 holds the whole first bias at every point. -/
theorem whole3_4 (c : Dev nD) (t : Fin cfg3.N) :
    (iblk3 V c 4 t : Vec Ideal S1x256 .f32) = (V c main_v37 : S1x256.Idx → EReal) := by
  obtain ⟨-, -, -, -, e20, e21, e30, e31, e40, e41, e50, e51, e60, e61, -⟩ := index_facts3 t
  refine funext fun (y : S1x256.Idx) => ?_
  unfold iblk3
  rw [View.read_apply]
  show V c main_v37 _ = V c main_v37 _
  refine congrArg (V c main_v37) ?_
  funext a
  apply Fin.ext
  match a with
  | ⟨0, _⟩ => show win3_4.index t (0 : Fin 2) * 1 + 1 * (y 0).val = (y 0).val; rw [e40]; omega
  | ⟨1, _⟩ => show win3_4.index t (1 : Fin 2) * 256 + 1 * (y 1).val = (y 1).val; rw [e41]; omega

/-- Window 5 holds the whole second weight matrix at every point. -/
theorem whole3_5 (c : Dev nD) (t : Fin cfg3.N) :
    (iblk3 V c 5 t : Vec Ideal S256x128 .f32) = (V c main_v39 : S256x128.Idx → EReal) := by
  obtain ⟨-, -, -, -, e20, e21, e30, e31, e40, e41, e50, e51, e60, e61, -⟩ := index_facts3 t
  refine funext fun (y : S256x128.Idx) => ?_
  unfold iblk3
  rw [View.read_apply]
  show V c main_v39 _ = V c main_v39 _
  refine congrArg (V c main_v39) ?_
  funext a
  apply Fin.ext
  match a with
  | ⟨0, _⟩ => show win3_5.index t (0 : Fin 2) * 256 + 1 * (y 0).val = (y 0).val; rw [e50]; omega
  | ⟨1, _⟩ => show win3_5.index t (1 : Fin 2) * 128 + 1 * (y 1).val = (y 1).val; rw [e51]; omega

/-- Window 6 holds the whole second bias at every point. -/
theorem whole3_6 (c : Dev nD) (t : Fin cfg3.N) :
    (iblk3 V c 6 t : Vec Ideal S1x128 .f32) = (V c main_v42 : S1x128.Idx → EReal) := by
  obtain ⟨-, -, -, -, e20, e21, e30, e31, e40, e41, e50, e51, e60, e61, -⟩ := index_facts3 t
  refine funext fun (y : S1x128.Idx) => ?_
  unfold iblk3
  rw [View.read_apply]
  show V c main_v42 _ = V c main_v42 _
  refine congrArg (V c main_v42) ?_
  funext a
  apply Fin.ext
  match a with
  | ⟨0, _⟩ => show win3_6.index t (0 : Fin 2) * 1 + 1 * (y 0).val = (y 0).val; rw [e60]; omega
  | ⟨1, _⟩ => show win3_6.index t (1 : Fin 2) * 128 + 1 * (y 1).val = (y 1).val; rw [e61]; omega

/-! ## Output window 7: the perceptron's output -/

/-- Point `t` writes back rows `2000 t … 2000 t + 1999` of the perceptron's output. -/
theorem flushed3_7_eq (c : Dev nD) (t : Fin cfg3.N) :
    (dat3 V c).flushed 7 t
      = ((cfg3.win 7).blk t).view.read (Elt Ideal) (mlpZ (V c main_v5) (V c main_v29) (V c main_v32) (V c main_v34) (V c main_v37) (V c main_v39) (V c main_v42)) := by
  show (cfg3.win 7).cut (grid3.coords t) ((dat3 V c).after 7 t) = _
  rw [after3_7]
  unfold out3_7
  rw [View.canon_unit_zero zeros2]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S2000x128.Idx) => ?_
  obtain ⟨r, k, rfl⟩ : ∃ (r : Fin 2000) (k : Fin 128), y = ix2 r k := ⟨y 0, y 1, eq_ix2 y⟩
  refine (blockZ_eq (iblk3 V c 0 t) (iblk3 V c 1 t) (iblk3 V c 2 t) (iblk3 V c 3 t) (iblk3 V c 4 t) (iblk3 V c 5 t) (iblk3 V c 6 t)
    (V c main_v5) (V c main_v29) (V c main_v32) (V c main_v34) (V c main_v37) (V c main_v39) (V c main_v42)
    (pt3 t) (rows3_0 V c t) (rows3_1 V c t) (whole3_2 V c t) (whole3_3 V c t) (whole3_4 V c t) (whole3_5 V c t) (whole3_6 V c t) r k).trans ?_
  rw [View.read_apply]
  refine congrArg (mlpZ (V c main_v5) (V c main_v29) (V c main_v32) (V c main_v34) (V c main_v37) (V c main_v39) (V c main_v42)) ?_
  obtain ⟨-, -, -, -, -, -, -, -, -, -, -, -, -, -, e70, e71, -⟩ := index_facts3 t
  funext a
  apply Fin.ext
  match a with
  | ⟨0, _⟩ => show 2000 * t.val + r.val = win3_7.index t (0 : Fin 2) * 2000 + 1 * r.val; rw [e70]; omega
  | ⟨1, _⟩ => show k.val = win3_7.index t (1 : Fin 2) * 128 + 1 * k.val; rw [e71]; omega

/-- An entry of the [50000, 128] array is in point `t`'s block iff each coordinate is in the block's range. -/
theorem mem_blk3_7 (t : Fin cfg3.N) (i : S50000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole main_v43_0).slice (win3_7.rect t)).set ↔ _
  rw [View.set_slice_whole, Rect.mem_set_unit]
  exact Iff.rfl

/-- Row `r` is written back by point `r / 2000`. -/
theorem covered3_7 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, -, -, e70, e71, -⟩ := index_facts3 t
  refine ⟨t, flush3_7 t, ?_⟩
  rw [mem_blk3_7]
  intro a
  match a with
  | ⟨0, _⟩ => show win3_7.index t (0 : Fin 2) * 2000 ≤ (i 0).val ∧ (i 0).val < win3_7.index t (0 : Fin 2) * 2000 + 2000; rw [e70]; omega
  | ⟨1, _⟩ => show win3_7.index t (1 : Fin 2) * 128 ≤ (i 1).val ∧ (i 1).val < win3_7.index t (1 : Fin 2) * 128 + 128; rw [e71]; omega

/-- The array the pipeline leaves: the perceptron's output of the region's seven input arrays. -/
theorem final3_7 (c : Dev nD) :
    (dat3 V c).arrAt 7 cfg3.N = mlpZ (V c main_v5) (V c main_v29) (V c main_v32) (V c main_v34) (V c main_v37) (V c main_v39) (V c main_v42) :=
  (dat3 V c).arrAt_eq_of_cover 7 (mlpZ (V c main_v5) (V c main_v29) (V c main_v32) (V c main_v34) (V c main_v37) (V c main_v39) (V c main_v42))
    (fun t _ => flushed3_7_eq V c t) covered3_7

/-! ## Output window 8: the blocks' column sums -/

/-- Point `t` writes back slab `t` of `blockSums` of the perceptron's output. -/
theorem flushed3_8_eq (c : Dev nD) (t : Fin cfg3.N) :
    (dat3 V c).flushed 8 t
      = ((cfg3.win 8).blk t).view.read (Elt Ideal) (blockSums (mlpZ (V c main_v5) (V c main_v29) (V c main_v32) (V c main_v34) (V c main_v37) (V c main_v39) (V c main_v42))) := by
  show (cfg3.win 8).cut (grid3.coords t) ((dat3 V c).after 8 t) = _
  rw [after3_8]
  unfold out3_8
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSums_eq (iblk3 V c 0 t) (iblk3 V c 1 t) (iblk3 V c 2 t) (iblk3 V c 3 t) (iblk3 V c 4 t) (iblk3 V c 5 t) (iblk3 V c 6 t)
    (V c main_v5) (V c main_v29) (V c main_v32) (V c main_v34) (V c main_v37) (V c main_v39) (V c main_v42)
    (pt3 t) (rows3_0 V c t) (rows3_1 V c t) (whole3_2 V c t) (whole3_3 V c t) (whole3_4 V c t) (whole3_5 V c t) (whole3_6 V c t) u s l).trans ?_
  rw [View.read_apply]
  refine congrArg (blockSums (mlpZ (V c main_v5) (V c main_v29) (V c main_v32) (V c main_v34) (V c main_v37) (V c main_v39) (V c main_v42))) ?_
  obtain ⟨-, -, -, -, -, -, -, -, -, -, -, -, -, -, -, -, e80, e81, e82, e90, e91, e92⟩ := index_facts3 t
  have hu : u.val = 0 := by omega
  funext a
  apply Fin.ext
  match a with
  | ⟨0, _⟩ => show t.val = win3_8.index t (0 : Fin 3) * 1 + 1 * u.val; rw [e80, hu]; omega
  | ⟨1, _⟩ => show s.val = win3_8.index t (1 : Fin 3) * 8 + 1 * s.val; rw [e81]; omega
  | ⟨2, _⟩ => show l.val = win3_8.index t (2 : Fin 3) * 128 + 1 * l.val; rw [e82]; omega

/-- An entry of the [25, 8, 128] array is in point `t`'s slab iff each coordinate is in the slab's range. -/
theorem mem_blk3_8 (t : Fin cfg3.N) (i : S25x8x128.Idx) :
    i ∈ ((cfg3.win 8).blk t).view.set ↔ ∀ a : Fin 3, win3_8.index t a * S1x8x128.size a ≤ (i a).val
      ∧ (i a).val < win3_8.index t a * S1x8x128.size a + S1x8x128.size a := by
  show i ∈ ((View.whole main_v43_1).slice (win3_8.rect t)).set ↔ _
  rw [View.set_slice_whole, Rect.mem_set_unit]
  exact Iff.rfl

/-- Slab `i 0` is written back by point `i 0`. -/
theorem covered3_8 (i : S25x8x128.Idx) :
    ∃ t : Fin cfg3.N, (cfg3.win 8).flush t = true ∧ i ∈ ((cfg3.win 8).blk t).view.set := by
  have hi0 : (i 0).val < 25 := (i 0).isLt
  have hi1 : (i 1).val < 8 := (i 1).isLt
  have hi2 : (i 2).val < 128 := (i 2).isLt
  have hN : cfg3.N = 25 := N_3
  obtain ⟨t, ht⟩ : ∃ t : Fin cfg3.N, t.val = (i 0).val := ⟨⟨(i 0).val, by rw [hN]; exact hi0⟩, rfl⟩
  obtain ⟨-, -, -, -, -, -, -, -, -, -, -, -, -, -, -, -, e80, e81, e82, e90, e91, e92⟩ := index_facts3 t
  refine ⟨t, flush3_8 t, ?_⟩
  rw [mem_blk3_8]
  intro a
  match a with
  | ⟨0, _⟩ => show win3_8.index t (0 : Fin 3) * 1 ≤ (i 0).val ∧ (i 0).val < win3_8.index t (0 : Fin 3) * 1 + 1; rw [e80]; omega
  | ⟨1, _⟩ => show win3_8.index t (1 : Fin 3) * 8 ≤ (i 1).val ∧ (i 1).val < win3_8.index t (1 : Fin 3) * 8 + 8; rw [e81]; omega
  | ⟨2, _⟩ => show win3_8.index t (2 : Fin 3) * 128 ≤ (i 2).val ∧ (i 2).val < win3_8.index t (2 : Fin 3) * 128 + 128; rw [e82]; omega

/-- The array the pipeline leaves: `blockSums` of the perceptron's output of the region's seven input arrays. -/
theorem final3_8 (c : Dev nD) :
    (dat3 V c).arrAt 8 cfg3.N = blockSums (mlpZ (V c main_v5) (V c main_v29) (V c main_v32) (V c main_v34) (V c main_v37) (V c main_v39) (V c main_v42)) :=
  (dat3 V c).arrAt_eq_of_cover 8 (blockSums (mlpZ (V c main_v5) (V c main_v29) (V c main_v32) (V c main_v34) (V c main_v37) (V c main_v39) (V c main_v42)))
    (fun t _ => flushed3_8_eq V c t) covered3_8

/-! ## Output window 9: the blocks' column sums of squares -/

/-- Point `t` writes back slab `t` of `blockSqSums` of the perceptron's output. -/
theorem flushed3_9_eq (c : Dev nD) (t : Fin cfg3.N) :
    (dat3 V c).flushed 9 t
      = ((cfg3.win 9).blk t).view.read (Elt Ideal) (blockSqSums (mlpZ (V c main_v5) (V c main_v29) (V c main_v32) (V c main_v34) (V c main_v37) (V c main_v39) (V c main_v42))) := by
  show (cfg3.win 9).cut (grid3.coords t) ((dat3 V c).after 9 t) = _
  rw [after3_9]
  unfold out3_9
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSqSums_eq (iblk3 V c 0 t) (iblk3 V c 1 t) (iblk3 V c 2 t) (iblk3 V c 3 t) (iblk3 V c 4 t) (iblk3 V c 5 t) (iblk3 V c 6 t)
    (V c main_v5) (V c main_v29) (V c main_v32) (V c main_v34) (V c main_v37) (V c main_v39) (V c main_v42)
    (pt3 t) (rows3_0 V c t) (rows3_1 V c t) (whole3_2 V c t) (whole3_3 V c t) (whole3_4 V c t) (whole3_5 V c t) (whole3_6 V c t) u s l).trans ?_
  rw [View.read_apply]
  refine congrArg (blockSqSums (mlpZ (V c main_v5) (V c main_v29) (V c main_v32) (V c main_v34) (V c main_v37) (V c main_v39) (V c main_v42))) ?_
  obtain ⟨-, -, -, -, -, -, -, -, -, -, -, -, -, -, -, -, e80, e81, e82, e90, e91, e92⟩ := index_facts3 t
  have hu : u.val = 0 := by omega
  funext a
  apply Fin.ext
  match a with
  | ⟨0, _⟩ => show t.val = win3_9.index t (0 : Fin 3) * 1 + 1 * u.val; rw [e90, hu]; omega
  | ⟨1, _⟩ => show s.val = win3_9.index t (1 : Fin 3) * 8 + 1 * s.val; rw [e91]; omega
  | ⟨2, _⟩ => show l.val = win3_9.index t (2 : Fin 3) * 128 + 1 * l.val; rw [e92]; omega

/-- An entry of the [25, 8, 128] array is in point `t`'s slab iff each coordinate is in the slab's range. -/
theorem mem_blk3_9 (t : Fin cfg3.N) (i : S25x8x128.Idx) :
    i ∈ ((cfg3.win 9).blk t).view.set ↔ ∀ a : Fin 3, win3_9.index t a * S1x8x128.size a ≤ (i a).val
      ∧ (i a).val < win3_9.index t a * S1x8x128.size a + S1x8x128.size a := by
  show i ∈ ((View.whole main_v43_2).slice (win3_9.rect t)).set ↔ _
  rw [View.set_slice_whole, Rect.mem_set_unit]
  exact Iff.rfl

/-- Slab `i 0` is written back by point `i 0`. -/
theorem covered3_9 (i : S25x8x128.Idx) :
    ∃ t : Fin cfg3.N, (cfg3.win 9).flush t = true ∧ i ∈ ((cfg3.win 9).blk t).view.set := by
  have hi0 : (i 0).val < 25 := (i 0).isLt
  have hi1 : (i 1).val < 8 := (i 1).isLt
  have hi2 : (i 2).val < 128 := (i 2).isLt
  have hN : cfg3.N = 25 := N_3
  obtain ⟨t, ht⟩ : ∃ t : Fin cfg3.N, t.val = (i 0).val := ⟨⟨(i 0).val, by rw [hN]; exact hi0⟩, rfl⟩
  obtain ⟨-, -, -, -, -, -, -, -, -, -, -, -, -, -, -, -, e80, e81, e82, e90, e91, e92⟩ := index_facts3 t
  refine ⟨t, flush3_9 t, ?_⟩
  rw [mem_blk3_9]
  intro a
  match a with
  | ⟨0, _⟩ => show win3_9.index t (0 : Fin 3) * 1 ≤ (i 0).val ∧ (i 0).val < win3_9.index t (0 : Fin 3) * 1 + 1; rw [e90]; omega
  | ⟨1, _⟩ => show win3_9.index t (1 : Fin 3) * 8 ≤ (i 1).val ∧ (i 1).val < win3_9.index t (1 : Fin 3) * 8 + 8; rw [e91]; omega
  | ⟨2, _⟩ => show win3_9.index t (2 : Fin 3) * 128 ≤ (i 2).val ∧ (i 2).val < win3_9.index t (2 : Fin 3) * 128 + 128; rw [e92]; omega

/-- The array the pipeline leaves: `blockSqSums` of the perceptron's output of the region's seven input arrays. -/
theorem final3_9 (c : Dev nD) :
    (dat3 V c).arrAt 9 cfg3.N = blockSqSums (mlpZ (V c main_v5) (V c main_v29) (V c main_v32) (V c main_v34) (V c main_v37) (V c main_v39) (V c main_v42)) :=
  (dat3 V c).arrAt_eq_of_cover 9 (blockSqSums (mlpZ (V c main_v5) (V c main_v29) (V c main_v32) (V c main_v34) (V c main_v37) (V c main_v39) (V c main_v42)))
    (fun t _ => flushed3_9_eq V c t) covered3_9

end Cert.KernelIdeal.Region

end
-- ==== Proof.Region.R4.lean ====
/-
  Region 4: the array the row-blocked normalisation leaves, as one function of the arrays it reads.

  The region sweeps 25 grid points. At point `t` it reads rows `2000·t … 2000·t + 1999` of the two node arrays
  (50000 × 128 each), the four per-channel rows (1 × 128 each, the same block at every point), and writes back
  rows `2000·t … 2000·t + 1999` of the result. The body is pointwise: the entry at local row `p`, channel `q`
  depends only on the two node entries at `(p, q)` and on the four rows at channel `q`. Since local row `p` of
  block `t` is global row `2000·t + p`, every written block is the corresponding block of `Spec.normRes` of the
  whole arrays; and since every row `r` lies in block `r / 2000`, the 25 blocks cover the result.
-/
import proofs.«105345_j19885698580760_2_alg».proof.Proof.Spec.NormRes
import proofs.«105345_j19885698580760_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region

open Cert.KernelIdeal Idealize.ShloMosaic Idealize.ShloMosaic.TcCoe Idealize.SL.Sem Idealize.ShloMosaic.ValueIdx
open Idealize.ShloMosaic.Pipeline (Dat)

-- The buffer contents of the core when the region is entered: every statement below is at this parameter.
variable (V : (c : Dev nD) → (b : Ref sig .tc) → Buf (Elt Ideal) ((c : Thread nD τ).loc b))

/-- Zero offsets on both axes, however the zeros are spelt. -/
theorem zeroOff4 : (![0, 0] : Fin 2 → Nat) = fun _ => 0 := funext fun a => by fin_cases a <;> rfl

/-! ## The body at one entry of a block -/

/-- The reciprocal root of a vector, at an index, is the reciprocal root of its entry. -/
theorem rsqrt_at4 {s : Shape} {φ : FTy} (a : FVec Ideal s φ) (i : s.Idx) : rsqrt a i = Ideal.rsqrt (a i) := rfl

/-- The body's value at local row `p`, channel `q`: the centred entry times the reciprocal root of the shifted
    variance, times the gain, plus the shift, plus the residual, then the maximum with zero. Each per-channel
    row, broadcast over the block's 2000 rows, is read at its row 0 and channel `q`. -/
theorem body4_ix2 (x0 xh : Vec Ideal S2000x128 .f32) (xmean xvar xg xb : Vec Ideal S1x128 .f32) (p : Fin 2000) (q : Fin 128) :
    Gen.k4_pay1 (F := Ideal) x0 xvar xmean xg xb xh (ix2 p q)
      = max ((x0 (ix2 p q) - xmean (ix2 (0 : Fin 1) q)) * Ideal.rsqrt (xvar (ix2 (0 : Fin 1) q) + Ideal.ofBits .f32 0x3727C5AC#32)
                * xg (ix2 (0 : Fin 1) q) + xb (ix2 (0 : Fin 1) q) + xh (ix2 p q)) 0 := by
  unfold Gen.k4_pay1
  simp only [shapeCast_self]
  simp only [maximumf_apply, addf_apply, mulf_apply, subf_apply, broadcast_apply, broadcastTo_1b_ab_apply, rsqrt_at4]
  simp only [Ideal.ofBits_def, Ideal.ofBits_zero_f32]

/-- The body at an entry of a block is `Spec.normRes` of the whole arrays at the entry's place in them, as soon
    as the two node blocks agree with the node arrays there (`hz`, `hh`), the four rows are the whole
    per-channel arrays, and the place has the entry's channel (`hcol`). -/
theorem body4_eq (Z H : S50000x128.Idx → EReal) (Mn Vr Gn Bs : S1x128.Idx → EReal)
    (x0 xh : Vec Ideal S2000x128 .f32) (xmean xvar xg xb : Vec Ideal S1x128 .f32)
    (y : S2000x128.Idx) (i : S50000x128.Idx)
    (hz : x0 y = Z i) (hh : xh y = H i) (hm : xmean = Mn) (hv : xvar = Vr) (hg : xg = Gn) (hb : xb = Bs)
    (hcol : (i 1).val = (y 1).val) :
    Gen.k4_pay1 (F := Ideal) x0 xvar xmean xg xb xh y = Spec.normRes Z H Mn Vr Gn Bs i := by
  subst hm hv hg hb
  obtain ⟨p, q, rfl⟩ : ∃ (p : Fin 2000) (q : Fin 128), y = ix2 p q := ⟨y 0, y 1, eq_ix2 y⟩
  obtain ⟨r, k, rfl⟩ : ∃ (r : Fin 50000) (k : Fin 128), i = ix2 r k := ⟨i 0, i 1, eq_ix2 i⟩
  obtain rfl : k = q := Fin.ext hcol
  rw [body4_ix2, Spec.normRes_ix2, hz, hh]

/-! ## Where each block sits in its array -/

/-- The block indices at grid point `t`, decided over the 25 points: the two node windows and the result window are
    at row block `t`, column block 0; the four per-channel windows stay at block (0, 0). -/
theorem blockIdx4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A node block's entry `(p, q)` at point `t` is the node array's entry at row `2000·t + p`, channel `q`:
    the first node window. -/
theorem nodeBlock4_0 (c : Dev nD) (t : Fin cfg4.N) (y : S2000x128.Idx) (i : S50000x128.Idx)
    (h0 : (i 0).val = t.val * 2000 + (y 0).val) (h1 : (i 1).val = (y 1).val) :
    (Gen.iblk4 (F := Ideal) V c 0 t : Vec Ideal S2000x128 .f32) y = (V c main_v43_0 : S50000x128.Idx → EReal) i := by
  obtain ⟨e00, e01, -⟩ := blockIdx4 t
  unfold Gen.iblk4
  rw [View.read_apply]
  show V c main_v43_0 _ = V c main_v43_0 _
  congr 1
  funext a
  apply Fin.ext
  match a with
  | ⟨0, _⟩ => show win4_0.index t (0 : Fin 2) * 2000 + 1 * (y 0).val = (i 0).val; rw [e00, h0]; omega
  | ⟨1, _⟩ => show win4_0.index t (1 : Fin 2) * 128 + 1 * (y 1).val = (i 1).val; rw [e01, h1]; omega

/-- The same for the second node window (the residual). -/
theorem nodeBlock4_1 (c : Dev nD) (t : Fin cfg4.N) (y : S2000x128.Idx) (i : S50000x128.Idx)
    (h0 : (i 0).val = t.val * 2000 + (y 0).val) (h1 : (i 1).val = (y 1).val) :
    (Gen.iblk4 (F := Ideal) V c 1 t : Vec Ideal S2000x128 .f32) y = (V c main_v5 : S50000x128.Idx → EReal) i := by
  obtain ⟨-, -, e10, e11, -⟩ := blockIdx4 t
  unfold Gen.iblk4
  rw [View.read_apply]
  show V c main_v5 _ = V c main_v5 _
  congr 1
  funext a
  apply Fin.ext
  match a with
  | ⟨0, _⟩ => show win4_1.index t (0 : Fin 2) * 2000 + 1 * (y 0).val = (i 0).val; rw [e10, h0]; omega
  | ⟨1, _⟩ => show win4_1.index t (1 : Fin 2) * 128 + 1 * (y 1).val = (i 1).val; rw [e11, h1]; omega

/-- A per-channel window's block, at every point, is its whole 1 × 128 array: block (0, 0) of one block. -/
theorem rowBlock4_2 (c : Dev nD) (t : Fin cfg4.N) :
    (Gen.iblk4 (F := Ideal) V c 2 t : Vec Ideal S1x128 .f32) = (V c main_v52 : S1x128.Idx → EReal) := by
  obtain ⟨-, -, -, -, e0, e1, -⟩ := blockIdx4 t
  funext y
  unfold Gen.iblk4
  rw [View.read_apply]
  show V c main_v52 _ = V c main_v52 _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

theorem rowBlock4_3 (c : Dev nD) (t : Fin cfg4.N) :
    (Gen.iblk4 (F := Ideal) V c 3 t : Vec Ideal S1x128 .f32) = (V c main_v53 : S1x128.Idx → EReal) := by
  obtain ⟨-, -, -, -, -, -, e0, e1, -⟩ := blockIdx4 t
  funext y
  unfold Gen.iblk4
  rw [View.read_apply]
  show V c main_v53 _ = V c main_v53 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

theorem rowBlock4_4 (c : Dev nD) (t : Fin cfg4.N) :
    (Gen.iblk4 (F := Ideal) V c 4 t : Vec Ideal S1x128 .f32) = (V c main_v56 : S1x128.Idx → EReal) := by
  obtain ⟨-, -, -, -, -, -, -, -, e0, e1, -⟩ := blockIdx4 t
  funext y
  unfold Gen.iblk4
  rw [View.read_apply]
  show V c main_v56 _ = V c main_v56 _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

theorem rowBlock4_5 (c : Dev nD) (t : Fin cfg4.N) :
    (Gen.iblk4 (F := Ideal) V c 5 t : Vec Ideal S1x128 .f32) = (V c main_v59 : S1x128.Idx → EReal) := by
  obtain ⟨-, -, -, -, -, -, -, -, -, -, e0, e1, -⟩ := blockIdx4 t
  funext y
  unfold Gen.iblk4
  rw [View.read_apply]
  show V c main_v59 _ = V c main_v59 _
  congr 1
  funext a
  apply Fin.ext
  match a with
  | ⟨0, _⟩ => show win4_5.index t (0 : Fin 2) * 1 + 1 * (y 0).val = (y 0).val; rw [e0]; omega
  | ⟨1, _⟩ => show win4_5.index t (1 : Fin 2) * 128 + 1 * (y 1).val = (y 1).val; rw [e1]; omega

/-! ## What each point writes back, and the whole array -/

/-- What point `t` writes back is block `t` of `Spec.normRes` of the arrays as the region finds them. -/
theorem written4 (c : Dev nD) (t : Fin cfg4.N) :
    (Gen.dat4 (F := Ideal) V c).flushed 6 t
      = ((cfg4.win 6).blk t).view.read (Elt Ideal)
          (Spec.normRes (V c main_v43_0) (V c main_v5) (V c main_v52) (V c main_v53) (V c main_v56) (V c main_v59)) := by
  show (cfg4.win 6).cut (grid4.coords t) ((Gen.dat4 (F := Ideal) V c).after 6 t) = _
  rw [Gen.after4_6]
  unfold Gen.out4_6
  rw [View.canon_unit_zero zeroOff4]
  simp only [View.ld_unit_zero (S := S2000x128) zeroOff4, View.ld_unit_zero (S := S1x128) zeroOff4]
  obtain ⟨-, -, -, -, -, -, -, -, -, -, -, -, e60, e61⟩ := blockIdx4 t
  funext j
  rw [View.read_apply]
  have hj0 : (j 0).val < 2000 := (j 0).isLt
  have hj1 : (j 1).val < 128 := (j 1).isLt
  have hr : ((((cfg4.win 6).blk t).view.emb j : S50000x128.Idx) 0).val = t.val * 2000 + (j 0).val := by
    show win4_6.index t (0 : Fin 2) * 2000 + 1 * (j 0).val = _; rw [e60]; omega
  have hk : ((((cfg4.win 6).blk t).view.emb j : S50000x128.Idx) 1).val = (j 1).val := by
    show win4_6.index t (1 : Fin 2) * 128 + 1 * (j 1).val = _; rw [e61]; omega
  exact body4_eq (V c main_v43_0) (V c main_v5) (V c main_v52) (V c main_v53) (V c main_v56) (V c main_v59)
    (Gen.iblk4 (F := Ideal) V c 0 t) (Gen.iblk4 (F := Ideal) V c 1 t) (Gen.iblk4 (F := Ideal) V c 2 t)
    (Gen.iblk4 (F := Ideal) V c 3 t) (Gen.iblk4 (F := Ideal) V c 4 t) (Gen.iblk4 (F := Ideal) V c 5 t)
    j (((cfg4.win 6).blk t).view.emb j)
    (nodeBlock4_0 V c t j _ hr hk) (nodeBlock4_1 V c t j _ hr hk)
    (rowBlock4_2 V c t) (rowBlock4_3 V c t) (rowBlock4_4 V c t) (rowBlock4_5 V c t) hk

/-- An index of the result is in point `t`'s block iff each coordinate is in the block's range on its axis. -/
theorem inBlock4 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v60).slice (win4_6.rect t)).set ↔ _
  rw [View.set_slice_whole, Rect.mem_set_unit]
  exact Iff.rfl

/-- Every index of the result is written by some point: row `r` lies in block `r / 2000`. -/
theorem covered4 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 25 := Gen.N_4
  have hlt : (i 0).val / 2000 < cfg4.N := by rw [hN]; omega
  obtain ⟨-, -, -, -, -, -, -, -, -, -, -, -, e60, e61⟩ := blockIdx4 ⟨(i 0).val / 2000, hlt⟩
  refine ⟨⟨(i 0).val / 2000, hlt⟩, Gen.flush4_6 _, ?_⟩
  rw [inBlock4]
  intro a
  match a with
  | ⟨0, _⟩ =>
    show win4_6.index ⟨(i 0).val / 2000, hlt⟩ (0 : Fin 2) * 2000 ≤ (i 0).val ∧ (i 0).val < win4_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win4_6.index ⟨(i 0).val / 2000, hlt⟩ (1 : Fin 2) * 128 ≤ (i 1).val ∧ (i 1).val < win4_6.index ⟨(i 0).val / 2000, hlt⟩ (1 : Fin 2) * 128 + 128
    rw [e61]
    omega

/-- THE ARRAY the region leaves in its result buffer: `Spec.normRes` of the arrays it read, as it found them. -/
theorem final4_6 (c : Dev nD) :
    (Gen.dat4 (F := Ideal) V c).arrAt 6 cfg4.N
      = Spec.normRes (V c main_v43_0) (V c main_v5) (V c main_v52) (V c main_v53) (V c main_v56) (V c main_v59) :=
  (Gen.dat4 (F := Ideal) V c).arrAt_eq_of_cover 6
    (Spec.normRes (V c main_v43_0) (V c main_v5) (V c main_v52) (V c main_v53) (V c main_v56) (V c main_v59))
    (fun t _ => written4 V c t) (covered4)

end Cert.KernelIdeal.Region

end
-- ==== Proof.K.Chain2.lean ====
/-
  What the kernel program's buffers hold at the boundaries W5 … W10 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.K.Keep2
import proofs.«105345_j19885698580760_2_alg».proof.Proof.K.Chain1
import proofs.«105345_j19885698580760_2_alg».proof.Proof.Region.R2
import proofs.«105345_j19885698580760_2_alg».proof.Proof.Region.R3
import proofs.«105345_j19885698580760_2_alg».proof.Proof.Region.R4

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v9 : W5 m ρ c (Proc.devRef .tc main_v9) = par_lin_w 0 (argsOf m c).lin_w :=
  (KHost.s2_v9 (W4 m ρ c)).trans (by
    rw [show W4 m ρ c (Proc.devRef .tc main_arg9) = (argsOf m c).lin_w from (keep_arg9_4_0 m ρ c)]
    try rfl)

theorem val_v12 : W5 m ρ c (Proc.devRef .tc main_v12) = par_row128 0 (argsOf m c).lin_b :=
  (KHost.s2_v12 (W4 m ρ c)).trans (by
    rw [show W4 m ρ c (Proc.devRef .tc main_arg10) = (argsOf m c).lin_b from (keep_arg10_4_0 m ρ c)]
    try rfl)

theorem val_v13 : W6 m ρ c (Proc.devRef .tc main_v13) = KVal.el (argsOf m c) 0 :=
  calc W6 m ρ c (Proc.devRef .tc main_v13) = (dat2 (V5 m ρ) c).arrAt 3 cfg2.N := W6_arr m ρ c 3
    _ = _ := Region.final2_3 (V5 m ρ) c
    _ = KVal.el (argsOf m c) 0 := by
      rw [show V5 m ρ c main_v7 = KVal.e (argsOf m c) from ((keep_v7_5_4 m ρ c).trans (val_v7 m ρ c)),
        show V5 m ρ c main_v9 = par_lin_w 0 (argsOf m c).lin_w from (val_v9 m ρ c),
        show V5 m ρ c main_v12 = par_row128 0 (argsOf m c).lin_b from (val_v12 m ρ c)]
      try rfl

theorem val_v29 : W7 m ρ c (Proc.devRef .tc main_v29) = KVal.aggOf (argsOf m c) 0 (KVal.h0 (argsOf m c)) :=
  (KHost.s3_v29 (W6 m ρ c)).trans (by
    rw [show W6 m ρ c (Proc.devRef .tc main_v5) = KVal.h0 (argsOf m c) from (((keep_v5_6_4 m ρ c).trans (keep_v5_4_2 m ρ c)).trans (val_v5 m ρ c)),
      show W6 m ρ c (Proc.devRef .tc main_v13) = KVal.el (argsOf m c) 0 from (val_v13 m ρ c),
      show W6 m ρ c (Proc.devRef .tc main_v1) = src_row (argsOf m c).ei from (((keep_v1_6_4 m ρ c).trans (keep_v1_4_1 m ρ c)).trans (val_v1 m ρ c)),
      show W6 m ρ c (Proc.devRef .tc main_v3) = dst_row (argsOf m c).ei from (((keep_v3_6_4 m ρ c).trans (keep_v3_4_1 m ρ c)).trans (val_v3 m ρ c))]
    try rfl)

theorem val_v32 : W7 m ρ c (Proc.devRef .tc main_v32) = par_eps 0 (argsOf m c).eps :=
  (KHost.s3_v32 (W6 m ρ c)).trans (by
    rw [show W6 m ρ c (Proc.devRef .tc main_arg8) = (argsOf m c).eps from ((keep_arg8_6_4 m ρ c).trans (keep_arg8_4_0 m ρ c))]
    try rfl)

theorem val_v34 : W7 m ρ c (Proc.devRef .tc main_v34) = par_w1 0 (argsOf m c).w1 :=
  (KHost.s3_v34 (W6 m ρ c)).trans (by
    rw [show W6 m ρ c (Proc.devRef .tc main_arg11) = (argsOf m c).w1 from ((keep_arg11_6_4 m ρ c).trans (keep_arg11_4_0 m ρ c))]
    try rfl)

theorem val_v37 : W7 m ρ c (Proc.devRef .tc main_v37) = par_b1 0 (argsOf m c).b1 :=
  (KHost.s3_v37 (W6 m ρ c)).trans (by
    rw [show W6 m ρ c (Proc.devRef .tc main_arg12) = (argsOf m c).b1 from ((keep_arg12_6_4 m ρ c).trans (keep_arg12_4_0 m ρ c))]
    try rfl)

theorem val_v39 : W7 m ρ c (Proc.devRef .tc main_v39) = par_w2 0 (argsOf m c).w2 :=
  (KHost.s3_v39 (W6 m ρ c)).trans (by
    rw [show W6 m ρ c (Proc.devRef .tc main_arg13) = (argsOf m c).w2 from ((keep_arg13_6_4 m ρ c).trans (keep_arg13_4_0 m ρ c))]
    try rfl)

theorem val_v42 : W7 m ρ c (Proc.devRef .tc main_v42) = par_row128 0 (argsOf m c).b2 :=
  (KHost.s3_v42 (W6 m ρ c)).trans (by
    rw [show W6 m ρ c (Proc.devRef .tc main_arg14) = (argsOf m c).b2 from ((keep_arg14_6_4 m ρ c).trans (keep_arg14_4_0 m ρ c))]
    try rfl)

theorem val_v43_0 : W8 m ρ c (Proc.devRef .tc main_v43_0) = KVal.zOf (argsOf m c) 0 (KVal.h0 (argsOf m c)) :=
  calc W8 m ρ c (Proc.devRef .tc main_v43_0) = (dat3 (V7 m ρ) c).arrAt 7 cfg3.N := W8_arr m ρ c 7
    _ = _ := Region.final3_7 (V7 m ρ) c
    _ = KVal.zOf (argsOf m c) 0 (KVal.h0 (argsOf m c)) := by
      rw [show V7 m ρ c main_v5 = KVal.h0 (argsOf m c) from (((keep_v5_7_4 m ρ c).trans (keep_v5_4_2 m ρ c)).trans (val_v5 m ρ c)),
        show V7 m ρ c main_v29 = KVal.aggOf (argsOf m c) 0 (KVal.h0 (argsOf m c)) from (val_v29 m ρ c),
        show V7 m ρ c main_v32 = par_eps 0 (argsOf m c).eps from (val_v32 m ρ c),
        show V7 m ρ c main_v34 = par_w1 0 (argsOf m c).w1 from (val_v34 m ρ c),
        show V7 m ρ c main_v37 = par_b1 0 (argsOf m c).b1 from (val_v37 m ρ c),
        show V7 m ρ c main_v39 = par_w2 0 (argsOf m c).w2 from (val_v39 m ρ c),
        show V7 m ρ c main_v42 = par_row128 0 (argsOf m c).b2 from (val_v42 m ρ c)]
      try rfl

theorem val_v43_1 : W8 m ρ c (Proc.devRef .tc main_v43_1) = Cert.Spec.blockSums (KVal.zOf (argsOf m c) 0 (KVal.h0 (argsOf m c))) :=
  calc W8 m ρ c (Proc.devRef .tc main_v43_1) = (dat3 (V7 m ρ) c).arrAt 8 cfg3.N := W8_arr m ρ c 8
    _ = _ := Region.final3_8 (V7 m ρ) c
    _ = Cert.Spec.blockSums (KVal.zOf (argsOf m c) 0 (KVal.h0 (argsOf m c))) := by
      rw [show V7 m ρ c main_v5 = KVal.h0 (argsOf m c) from (((keep_v5_7_4 m ρ c).trans (keep_v5_4_2 m ρ c)).trans (val_v5 m ρ c)),
        show V7 m ρ c main_v29 = KVal.aggOf (argsOf m c) 0 (KVal.h0 (argsOf m c)) from (val_v29 m ρ c),
        show V7 m ρ c main_v32 = par_eps 0 (argsOf m c).eps from (val_v32 m ρ c),
        show V7 m ρ c main_v34 = par_w1 0 (argsOf m c).w1 from (val_v34 m ρ c),
        show V7 m ρ c main_v37 = par_b1 0 (argsOf m c).b1 from (val_v37 m ρ c),
        show V7 m ρ c main_v39 = par_w2 0 (argsOf m c).w2 from (val_v39 m ρ c),
        show V7 m ρ c main_v42 = par_row128 0 (argsOf m c).b2 from (val_v42 m ρ c)]
      try rfl

theorem val_v52 : W9 m ρ c (Proc.devRef .tc main_v52) = KVal.meanRow (argsOf m c) 0 (KVal.h0 (argsOf m c)) :=
  (KHost.s4_v52 (W8 m ρ c)).trans (by
    rw [show W8 m ρ c (Proc.devRef .tc main_v43_1) = Cert.Spec.blockSums (KVal.zOf (argsOf m c) 0 (KVal.h0 (argsOf m c))) from (val_v43_1 m ρ c)]
    try rfl)

theorem val_v43_2 : W8 m ρ c (Proc.devRef .tc main_v43_2) = Cert.Spec.blockSqSums (KVal.zOf (argsOf m c) 0 (KVal.h0 (argsOf m c))) :=
  calc W8 m ρ c (Proc.devRef .tc main_v43_2) = (dat3 (V7 m ρ) c).arrAt 9 cfg3.N := W8_arr m ρ c 9
    _ = _ := Region.final3_9 (V7 m ρ) c
    _ = Cert.Spec.blockSqSums (KVal.zOf (argsOf m c) 0 (KVal.h0 (argsOf m c))) := by
      rw [show V7 m ρ c main_v5 = KVal.h0 (argsOf m c) from (((keep_v5_7_4 m ρ c).trans (keep_v5_4_2 m ρ c)).trans (val_v5 m ρ c)),
        show V7 m ρ c main_v29 = KVal.aggOf (argsOf m c) 0 (KVal.h0 (argsOf m c)) from (val_v29 m ρ c),
        show V7 m ρ c main_v32 = par_eps 0 (argsOf m c).eps from (val_v32 m ρ c),
        show V7 m ρ c main_v34 = par_w1 0 (argsOf m c).w1 from (val_v34 m ρ c),
        show V7 m ρ c main_v37 = par_b1 0 (argsOf m c).b1 from (val_v37 m ρ c),
        show V7 m ρ c main_v39 = par_w2 0 (argsOf m c).w2 from (val_v39 m ρ c),
        show V7 m ρ c main_v42 = par_row128 0 (argsOf m c).b2 from (val_v42 m ρ c)]
      try rfl

theorem val_v53 : W9 m ρ c (Proc.devRef .tc main_v53) = KVal.varRow (argsOf m c) 0 (KVal.h0 (argsOf m c)) :=
  (KHost.s4_v53 (W8 m ρ c)).trans (by
    rw [show W8 m ρ c (Proc.devRef .tc main_v43_1) = Cert.Spec.blockSums (KVal.zOf (argsOf m c) 0 (KVal.h0 (argsOf m c))) from (val_v43_1 m ρ c),
      show W8 m ρ c (Proc.devRef .tc main_v43_2) = Cert.Spec.blockSqSums (KVal.zOf (argsOf m c) 0 (KVal.h0 (argsOf m c))) from (val_v43_2 m ρ c)]
    try rfl)

theorem val_v56 : W9 m ρ c (Proc.devRef .tc main_v56) = par_row128 0 (argsOf m c).g :=
  (KHost.s4_v56 (W8 m ρ c)).trans (by
    rw [show W8 m ρ c (Proc.devRef .tc main_arg15) = (argsOf m c).g from ((keep_arg15_8_4 m ρ c).trans (keep_arg15_4_0 m ρ c))]
    try rfl)

theorem val_v59 : W9 m ρ c (Proc.devRef .tc main_v59) = par_row128 0 (argsOf m c).b :=
  (KHost.s4_v59 (W8 m ρ c)).trans (by
    rw [show W8 m ρ c (Proc.devRef .tc main_arg16) = (argsOf m c).b from ((keep_arg16_8_4 m ρ c).trans (keep_arg16_4_0 m ρ c))]
    try rfl)

theorem val_v60 : W10 m ρ c (Proc.devRef .tc main_v60) = KVal.h1 (argsOf m c) :=
  calc W10 m ρ c (Proc.devRef .tc main_v60) = (dat4 (V9 m ρ) c).arrAt 6 cfg4.N := W10_arr m ρ c 6
    _ = _ := Region.final4_6 (V9 m ρ) c
    _ = KVal.h1 (argsOf m c) := by
      rw [show V9 m ρ c main_v43_0 = KVal.zOf (argsOf m c) 0 (KVal.h0 (argsOf m c)) from ((keep_v43_0_9_8 m ρ c).trans (val_v43_0 m ρ c)),
        show V9 m ρ c main_v5 = KVal.h0 (argsOf m c) from (((keep_v5_9_4 m ρ c).trans (keep_v5_4_2 m ρ c)).trans (val_v5 m ρ c)),
        show V9 m ρ c main_v52 = KVal.meanRow (argsOf m c) 0 (KVal.h0 (argsOf m c)) from (val_v52 m ρ c),
        show V9 m ρ c main_v53 = KVal.varRow (argsOf m c) 0 (KVal.h0 (argsOf m c)) from (val_v53 m ρ c),
        show V9 m ρ c main_v56 = par_row128 0 (argsOf m c).g from (val_v56 m ρ c),
        show V9 m ρ c main_v59 = par_row128 0 (argsOf m c).b from (val_v59 m ρ c)]
      try rfl

end Cert.KernelIdeal.KChain

end
-- ==== Proof.Region.R5.lean ====
/-
  The value of kernel region 5: the second layer's edge projection, `e · lin_w[1] + lin_b[1]` on the 640000 × 128
  encoded edge features.

  The region walks the 640000 rows of `x` in 64 blocks of 10000 rows; the weight matrix and the one-row bias are
  staged whole at every point. At a point the body leaves in the output block the block product of the `x` block
  with `w`, accumulated from zero, plus the bias row added to every row (the shape casts of the operands are to their
  own shapes, and changes of float format are the identity on extended reals). Entry `(r, c)` of that block is
  therefore `∑ k, x (10000 t + r, k) * w (k, c) + b (0, c)`, which is entry `(10000 t + r, c)` of `Spec.affine x w b`: an
  entry of an affine map depends on one row of `x` only, so a row block of the result is the affine map of the row
  block. The 64 blocks tile the rows (row `R` lies in block `R / 10000`), so the array the region leaves is
  `Spec.affine x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R5

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S10000x128_S128x128_S10000x128_1_0_0_1_n_n := ⟨rfl, rfl, rfl, rfl, rfl, rfl⟩

/-- The body's stored value at entry `(r, c)` of the block, from the three loaded blocks. -/
theorem pay_apply (x0 : Vec Ideal S10000x128 .bf16) (x1 : Vec Ideal S128x128 .f32) (x2 : Vec Ideal S1x128 .f32)
    (r : Fin 10000) (c : Fin 128) :
    k5_pay1 (F := Ideal) x0 x1 x2 (ix2 r c) = Spec.affine x0 x1 x2 (ix2 r c) := by
  unfold k5_pay1
  show (matmul (F := Ideal) dot_S10000x128_S128x128_S10000x128_1_0_0_1_n_n none
      (shapeCast S10000x128 x0 shapeCasts_S10000x128_S10000x128)
      (truncf (F := Ideal) .bf16 (shapeCast S128x128 x1 shapeCasts_S128x128_S128x128) bitsLt_bf16_f32)
      (constant (F := Ideal) S10000x128 .f32 0x00000000#32)) (ix2 r c)
      + broadcastTo S10000x128 (shapeCast S1x128 x2 shapeCasts_S1x128_S1x128) broadcasts_S1x128_S10000x128 (ix2 r c) = _
  simp only [shapeCast_self]
  refine congrArg₂ (· + ·) ?_ ?_
  · exact plainDot.matmul_zero_apply none _ _ r c
  · exact broadcastTo_1b_ab_apply x2 broadcasts_S1x128_S10000x128 r c

/-- The windows' index maps over the grid: `x` and the output move one row block per point, the weights and the
    bias stay at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- An index of the output array is in point `t`'s block iff each coordinate is in the block's range on its axis. -/
theorem mem_blk (t : Fin cfg5.N) (i : S640000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v66).slice (win5_3.rect t)).set ↔ _
  rw [View.set_slice_whole, Rect.mem_set_unit]
  exact Iff.rfl

/-- Every entry of the output array is in the block of the point its row names: row `R` is in block `R / 10000`. -/
theorem cover (i : S640000x128.Idx) : ∃ t : Fin cfg5.N, (cfg5.win 3).flush t = true ∧ i ∈ ((cfg5.win 3).blk t).view.set := by
  have hi0 : (i 0).val < 640000 := (i 0).isLt
  have hi1 : (i 1).val < 128 := (i 1).isLt
  have hN : cfg5.N = 64 := N_5
  obtain ⟨t, ht⟩ : ∃ t : Fin cfg5.N, t.val = (i 0).val / 10000 := ⟨⟨(i 0).val / 10000, by rw [hN]; omega⟩, rfl⟩
  obtain ⟨-, -, -, -, -, -, e6, e7⟩ := idx_facts t
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- The `x` block at point `t` is rows `10000 t … 10000 t + 9999` of the array. -/
theorem xblk_apply (c : Dev nD) (t : Fin cfg5.N) (r : Fin 10000) (k : Fin 128) (R : Fin 640000) (hR : R.val = t.val * 10000 + r.val) :
    (iblk5 V c 0 t : Vec Ideal S10000x128 .bf16) (ix2 r k) = (V c main_v7 : S640000x128.Idx → EReal) (ix2 R k) := by
  obtain ⟨e0, e1, -⟩ := idx_facts t
  show V c main_v7 (((cfg5.win 0).blk t).view.emb (ix2 r k)) = V c main_v7 (ix2 R k)
  refine congrArg (V c main_v7) (funext fun a => Fin.ext ?_)
  match a with
  | ⟨0, _⟩ => show win5_0.index t (0 : Fin 2) * 10000 + 1 * r.val = R.val; omega
  | ⟨1, _⟩ => show win5_0.index t (1 : Fin 2) * 128 + 1 * k.val = k.val; omega

/-- The weight block at every point is the whole matrix. -/
theorem wblk_apply (c : Dev nD) (t : Fin cfg5.N) (k : Fin 128) (cc : Fin 128) :
    (iblk5 V c 1 t : Vec Ideal S128x128 .f32) (ix2 k cc) = (V c main_v62 : S128x128.Idx → EReal) (ix2 k cc) := by
  obtain ⟨-, -, e2, e3, -⟩ := idx_facts t
  show V c main_v62 (((cfg5.win 1).blk t).view.emb (ix2 k cc)) = V c main_v62 (ix2 k cc)
  refine congrArg (V c main_v62) (funext fun a => Fin.ext ?_)
  match a with
  | ⟨0, _⟩ => show win5_1.index t (0 : Fin 2) * 128 + 1 * k.val = k.val; omega
  | ⟨1, _⟩ => show win5_1.index t (1 : Fin 2) * 128 + 1 * cc.val = cc.val; omega

/-- The bias block at every point is the whole one-row array. -/
theorem bblk_apply (c : Dev nD) (t : Fin cfg5.N) (cc : Fin 128) :
    (iblk5 V c 2 t : Vec Ideal S1x128 .f32) (ix2 0 cc) = (V c main_v65 : S1x128.Idx → EReal) (ix2 0 cc) := by
  obtain ⟨-, -, -, -, e4, e5, -⟩ := idx_facts t
  show V c main_v65 (((cfg5.win 2).blk t).view.emb (ix2 0 cc)) = V c main_v65 (ix2 0 cc)
  refine congrArg (V c main_v65) (funext fun a => Fin.ext ?_)
  match a with
  | ⟨0, _⟩ => show win5_2.index t (0 : Fin 2) * 1 + 1 * (0 : Fin 1).val = (0 : Fin 1).val; rw [e4]; rfl
  | ⟨1, _⟩ => show win5_2.index t (1 : Fin 2) * 128 + 1 * cc.val = cc.val; omega

/-- Entry `(r, c)` of the output block at point `t` sits at row `10000 t + r`, column `c` of the array. -/
theorem oblk_emb (t : Fin cfg5.N) (r : Fin 10000) (cc : Fin 128) :
    ∃ R : Fin 640000, R.val = t.val * 10000 + r.val ∧ ((cfg5.win 3).blk t).view.emb (ix2 r cc) = (ix2 R cc : S640000x128.Idx) := by
  obtain ⟨-, -, -, -, -, -, e6, e7⟩ := idx_facts t
  have hN : cfg5.N = 64 := N_5
  have ht : t.val < 64 := hN ▸ t.isLt
  refine ⟨⟨t.val * 10000 + r.val, by have := r.isLt; omega⟩, rfl, funext fun a => Fin.ext ?_⟩
  match a with
  | ⟨0, _⟩ => show win5_3.index t (0 : Fin 2) * 10000 + 1 * r.val = t.val * 10000 + r.val; omega
  | ⟨1, _⟩ => show win5_3.index t (1 : Fin 2) * 128 + 1 * cc.val = cc.val; omega

/-- One entry of what point `t` leaves in the output block is the same entry of the whole affine map. -/
theorem point_eq (c : Dev nD) (t : Fin cfg5.N) (j : S10000x128.Idx) :
    k5_pay1 (F := Ideal) (iblk5 V c 0 t) (iblk5 V c 1 t) (iblk5 V c 2 t) j
      = Spec.affine (V c main_v7) (V c main_v62) (V c main_v65) (((cfg5.win 3).blk t).view.emb j) := by
  obtain ⟨r, cc, rfl⟩ : ∃ (r : Fin 10000) (cc : Fin 128), j = ix2 r cc := ⟨j 0, j 1, eq_ix2 j⟩
  obtain ⟨R, hR, hemb⟩ := oblk_emb t r cc
  refine ((pay_apply _ _ _ r cc).trans ?_).trans (congrArg (Spec.affine (V c main_v7) (V c main_v62) (V c main_v65)) hemb.symm)
  exact Spec.affine_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg5.N) :
    (dat5 (F := Ideal) V c).flushed 3 t
      = ((cfg5.win 3).blk t).view.read (Elt Ideal) (Spec.affine (V c main_v7) (V c main_v62) (V c main_v65)) := by
  show (cfg5.win 3).cut (grid5.coords t) ((dat5 V c).after 3 t) = _
  rw [after5_3]
  unfold out5_3
  rw [View.canon_unit_zero hz]
  simp only [View.ld_unit_zero (S := S10000x128) hz, View.ld_unit_zero (S := S128x128) hz, View.ld_unit_zero (S := S1x128) hz]
  funext j
  exact point_eq V c t j

end R5

/-- The array region 5 leaves: `x · w + b` of the three arrays it is entered with, whole. -/
theorem final5_3 (V : (c : Dev nD) → (b : Ref sig .tc) → Buf (Elt Ideal) ((c : Thread nD τ).loc b)) (c : Dev nD) :
    (dat5 (F := Ideal) V c).arrAt 3 cfg5.N = Spec.affine (V c main_v7) (V c main_v62) (V c main_v65) :=
  (dat5 (F := Ideal) V c).arrAt_eq_of_cover 3 (Spec.affine (V c main_v7) (V c main_v62) (V c main_v65))
    (fun t _ => R5.flushed_eq V c t) R5.cover

end Cert.KernelIdeal.Region

end
-- ==== Proof.Region.R6.lean ====
/-
  Region 6 of the kernel program: one application of the perceptron over 25 blocks of 2000 rows.

  At grid point `t` the pipeline stages rows `2000 t … 2000 t + 1999` of the feature array and of the aggregated
  messages, and the five small arrays whole; the body writes the block's output back to the same rows of the first
  result, and the block's column sums and column sums of squares to slab `t` of the two [25, 8, 128] results. The 25
  row blocks tile the 50000 rows and the 25 slabs tile the statistics arrays, so after the last point each result is
  one function of the region's seven input arrays: the perceptron's output `mlpZ`, and `blockSums` / `blockSqSums`
  of it.

  Per output window: what a point writes back is the window's block of that function (the block's value read entry by
  entry, each input block read where the window's index map puts it: a block's coordinate is the block index times the
  block size plus the coordinate inside the block); every entry of the array lies in the block of the point that
  covers its row; hence the whole array.
-/
import proofs.«105345_j19885698580760_2_alg».proof.Proof.Spec.Mlp
import proofs.«105345_j19885698580760_2_alg».proof.Proof.Region.MlpBlock
import proofs.«105345_j19885698580760_2_alg».proof.Proof.Gen.KernelIdeal.Frame
import Idealize.ShloMosaic.Lib.Pipeline.Value

noncomputable section

open scoped BigOperators

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The grid and the windows' index maps -/

/-- A grid point as a block number below 25. -/
abbrev pt6 (t : Fin cfg6.N) : Fin 25 := Fin.cast N_6 t

/-- The index maps, decided over the 25 points: the two row-block inputs and the first result move with the point
    along the rows; the five small inputs stay at block (0, 0); the two statistics results move with the point along
    their first axis. -/
theorem index_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0
    ∧ win6_8.index t (0 : Fin 3) = t.val ∧ win6_8.index t (1 : Fin 3) = 0 ∧ win6_8.index t (2 : Fin 3) = 0
    ∧ win6_9.index t (0 : Fin 3) = t.val ∧ win6_9.index t (1 : Fin 3) = 0 ∧ win6_9.index t (2 : Fin 3) = 0 :=
  (by decide +kernel : ∀ t : Fin grid6.N, _)

/-! ## The input windows' blocks as rows of the arrays the region finds -/

/-- Window 0's block at point `t` is rows `2000 t … 2000 t + 1999` of the feature array. -/
theorem rows6_0 (c : Dev nD) (t : Fin cfg6.N) (r : Fin 2000) (k : Fin 128) :
    (iblk6 V c 0 t : Vec Ideal S2000x128 .f32) (ix2 r k)
      = (V c main_v60 : S50000x128.Idx → EReal) (ix2 (mlpBlockRow (pt6 t) r) k) := by
  obtain ⟨e00, e01, e10, e11, -⟩ := index_facts6 t
  unfold iblk6
  rw [View.read_apply]
  show V c main_v60 _ = V c main_v60 _
  refine congrArg (V c main_v60) ?_
  funext a
  apply Fin.ext
  match a with
  | ⟨0, _⟩ => show win6_0.index t (0 : Fin 2) * 2000 + 1 * r.val = 2000 * t.val + r.val; rw [e00]; omega
  | ⟨1, _⟩ => show win6_0.index t (1 : Fin 2) * 128 + 1 * k.val = k.val; rw [e01]; omega

/-- Window 1's block at point `t` is rows `2000 t … 2000 t + 1999` of the aggregated messages. -/
theorem rows6_1 (c : Dev nD) (t : Fin cfg6.N) (r : Fin 2000) (k : Fin 128) :
    (iblk6 V c 1 t : Vec Ideal S2000x128 .f32) (ix2 r k)
      = (V c main_v82 : S50000x128.Idx → EReal) (ix2 (mlpBlockRow (pt6 t) r) k) := by
  obtain ⟨e00, e01, e10, e11, -⟩ := index_facts6 t
  unfold iblk6
  rw [View.read_apply]
  show V c main_v82 _ = V c main_v82 _
  refine congrArg (V c main_v82) ?_
  funext a
  apply Fin.ext
  match a with
  | ⟨0, _⟩ => show win6_1.index t (0 : Fin 2) * 2000 + 1 * r.val = 2000 * t.val + r.val; rw [e10]; omega
  | ⟨1, _⟩ => show win6_1.index t (1 : Fin 2) * 128 + 1 * k.val = k.val; rw [e11]; omega

/-- Window 2 holds the whole one-entry array holding eps at every point. -/
theorem whole6_2 (c : Dev nD) (t : Fin cfg6.N) :
    (iblk6 V c 2 t : Vec Ideal S1x1 .f32) = (V c main_v85 : S1x1.Idx → EReal) := by
  obtain ⟨-, -, -, -, e20, e21, e30, e31, e40, e41, e50, e51, e60, e61, -⟩ := index_facts6 t
  refine funext fun (y : S1x1.Idx) => ?_
  unfold iblk6
  rw [View.read_apply]
  show V c main_v85 _ = V c main_v85 _
  refine congrArg (V c main_v85) ?_
  funext a
  apply Fin.ext
  match a with
  | ⟨0, _⟩ => show win6_2.index t (0 : Fin 2) * 1 + 1 * (y 0).val = (y 0).val; rw [e20]; omega
  | ⟨1, _⟩ => show win6_2.index t (1 : Fin 2) * 1 + 1 * (y 1).val = (y 1).val; rw [e21]; omega

/-- Window 3 holds the whole first weight matrix at every point. -/
theorem whole6_3 (c : Dev nD) (t : Fin cfg6.N) :
    (iblk6 V c 3 t : Vec Ideal S128x256 .f32) = (V c main_v87 : S128x256.Idx → EReal) := by
  obtain ⟨-, -, -, -, e20, e21, e30, e31, e40, e41, e50, e51, e60, e61, -⟩ := index_facts6 t
  refine funext fun (y : S128x256.Idx) => ?_
  unfold iblk6
  rw [View.read_apply]
  show V c main_v87 _ = V c main_v87 _
  refine congrArg (V c main_v87) ?_
  funext a
  apply Fin.ext
  match a with
  | ⟨0, _⟩ => show win6_3.index t (0 : Fin 2) * 128 + 1 * (y 0).val = (y 0).val; rw [e30]; omega
  | ⟨1, _⟩ => show win6_3.index t (1 : Fin 2) * 256 + 1 * (y 1).val = (y 1).val; rw [e31]; omega

/-- Window 4 holds the whole first bias at every point. -/
theorem whole6_4 (c : Dev nD) (t : Fin cfg6.N) :
    (iblk6 V c 4 t : Vec Ideal S1x256 .f32) = (V c main_v90 : S1x256.Idx → EReal) := by
  obtain ⟨-, -, -, -, e20, e21, e30, e31, e40, e41, e50, e51, e60, e61, -⟩ := index_facts6 t
  refine funext fun (y : S1x256.Idx) => ?_
  unfold iblk6
  rw [View.read_apply]
  show V c main_v90 _ = V c main_v90 _
  refine congrArg (V c main_v90) ?_
  funext a
  apply Fin.ext
  match a with
  | ⟨0, _⟩ => show win6_4.index t (0 : Fin 2) * 1 + 1 * (y 0).val = (y 0).val; rw [e40]; omega
  | ⟨1, _⟩ => show win6_4.index t (1 : Fin 2) * 256 + 1 * (y 1).val = (y 1).val; rw [e41]; omega

/-- Window 5 holds the whole second weight matrix at every point. -/
theorem whole6_5 (c : Dev nD) (t : Fin cfg6.N) :
    (iblk6 V c 5 t : Vec Ideal S256x128 .f32) = (V c main_v92 : S256x128.Idx → EReal) := by
  obtain ⟨-, -, -, -, e20, e21, e30, e31, e40, e41, e50, e51, e60, e61, -⟩ := index_facts6 t
  refine funext fun (y : S256x128.Idx) => ?_
  unfold iblk6
  rw [View.read_apply]
  show V c main_v92 _ = V c main_v92 _
  refine congrArg (V c main_v92) ?_
  funext a
  apply Fin.ext
  match a with
  | ⟨0, _⟩ => show win6_5.index t (0 : Fin 2) * 256 + 1 * (y 0).val = (y 0).val; rw [e50]; omega
  | ⟨1, _⟩ => show win6_5.index t (1 : Fin 2) * 128 + 1 * (y 1).val = (y 1).val; rw [e51]; omega

/-- Window 6 holds the whole second bias at every point. -/
theorem whole6_6 (c : Dev nD) (t : Fin cfg6.N) :
    (iblk6 V c 6 t : Vec Ideal S1x128 .f32) = (V c main_v95 : S1x128.Idx → EReal) := by
  obtain ⟨-, -, -, -, e20, e21, e30, e31, e40, e41, e50, e51, e60, e61, -⟩ := index_facts6 t
  refine funext fun (y : S1x128.Idx) => ?_
  unfold iblk6
  rw [View.read_apply]
  show V c main_v95 _ = V c main_v95 _
  refine congrArg (V c main_v95) ?_
  funext a
  apply Fin.ext
  match a with
  | ⟨0, _⟩ => show win6_6.index t (0 : Fin 2) * 1 + 1 * (y 0).val = (y 0).val; rw [e60]; omega
  | ⟨1, _⟩ => show win6_6.index t (1 : Fin 2) * 128 + 1 * (y 1).val = (y 1).val; rw [e61]; omega

/-! ## Output window 7: the perceptron's output -/

/-- Point `t` writes back rows `2000 t … 2000 t + 1999` of the perceptron's output. -/
theorem flushed6_7_eq (c : Dev nD) (t : Fin cfg6.N) :
    (dat6 V c).flushed 7 t
      = ((cfg6.win 7).blk t).view.read (Elt Ideal) (mlpZ (V c main_v60) (V c main_v82) (V c main_v85) (V c main_v87) (V c main_v90) (V c main_v92) (V c main_v95)) := by
  show (cfg6.win 7).cut (grid6.coords t) ((dat6 V c).after 7 t) = _
  rw [after6_7]
  unfold out6_7
  rw [View.canon_unit_zero zeros2]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S2000x128.Idx) => ?_
  obtain ⟨r, k, rfl⟩ : ∃ (r : Fin 2000) (k : Fin 128), y = ix2 r k := ⟨y 0, y 1, eq_ix2 y⟩
  refine (blockZ_eq (iblk6 V c 0 t) (iblk6 V c 1 t) (iblk6 V c 2 t) (iblk6 V c 3 t) (iblk6 V c 4 t) (iblk6 V c 5 t) (iblk6 V c 6 t)
    (V c main_v60) (V c main_v82) (V c main_v85) (V c main_v87) (V c main_v90) (V c main_v92) (V c main_v95)
    (pt6 t) (rows6_0 V c t) (rows6_1 V c t) (whole6_2 V c t) (whole6_3 V c t) (whole6_4 V c t) (whole6_5 V c t) (whole6_6 V c t) r k).trans ?_
  rw [View.read_apply]
  refine congrArg (mlpZ (V c main_v60) (V c main_v82) (V c main_v85) (V c main_v87) (V c main_v90) (V c main_v92) (V c main_v95)) ?_
  obtain ⟨-, -, -, -, -, -, -, -, -, -, -, -, -, -, e70, e71, -⟩ := index_facts6 t
  funext a
  apply Fin.ext
  match a with
  | ⟨0, _⟩ => show 2000 * t.val + r.val = win6_7.index t (0 : Fin 2) * 2000 + 1 * r.val; rw [e70]; omega
  | ⟨1, _⟩ => show k.val = win6_7.index t (1 : Fin 2) * 128 + 1 * k.val; rw [e71]; omega

/-- An entry of the [50000, 128] array is in point `t`'s block iff each coordinate is in the block's range. -/
theorem mem_blk6_7 (t : Fin cfg6.N) (i : S50000x128.Idx) :
    i ∈ ((cfg6.win 7).blk t).view.set ↔ ∀ a : Fin 2, win6_7.index t a * S2000x128.size a ≤ (i a).val
      ∧ (i a).val < win6_7.index t a * S2000x128.size a + S2000x128.size a := by
  show i ∈ ((View.whole main_v96_0).slice (win6_7.rect t)).set ↔ _
  rw [View.set_slice_whole, Rect.mem_set_unit]
  exact Iff.rfl

/-- Row `r` is written back by point `r / 2000`. -/
theorem covered6_7 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, -, -, -, -, -, -, -, -, -, -, e70, e71, -⟩ := index_facts6 t
  refine ⟨t, flush6_7 t, ?_⟩
  rw [mem_blk6_7]
  intro a
  match a with
  | ⟨0, _⟩ => show win6_7.index t (0 : Fin 2) * 2000 ≤ (i 0).val ∧ (i 0).val < win6_7.index t (0 : Fin 2) * 2000 + 2000; rw [e70]; omega
  | ⟨1, _⟩ => show win6_7.index t (1 : Fin 2) * 128 ≤ (i 1).val ∧ (i 1).val < win6_7.index t (1 : Fin 2) * 128 + 128; rw [e71]; omega

/-- The array the pipeline leaves: the perceptron's output of the region's seven input arrays. -/
theorem final6_7 (c : Dev nD) :
    (dat6 V c).arrAt 7 cfg6.N = mlpZ (V c main_v60) (V c main_v82) (V c main_v85) (V c main_v87) (V c main_v90) (V c main_v92) (V c main_v95) :=
  (dat6 V c).arrAt_eq_of_cover 7 (mlpZ (V c main_v60) (V c main_v82) (V c main_v85) (V c main_v87) (V c main_v90) (V c main_v92) (V c main_v95))
    (fun t _ => flushed6_7_eq V c t) covered6_7

/-! ## Output window 8: the blocks' column sums -/

/-- Point `t` writes back slab `t` of `blockSums` of the perceptron's output. -/
theorem flushed6_8_eq (c : Dev nD) (t : Fin cfg6.N) :
    (dat6 V c).flushed 8 t
      = ((cfg6.win 8).blk t).view.read (Elt Ideal) (blockSums (mlpZ (V c main_v60) (V c main_v82) (V c main_v85) (V c main_v87) (V c main_v90) (V c main_v92) (V c main_v95))) := by
  show (cfg6.win 8).cut (grid6.coords t) ((dat6 V c).after 8 t) = _
  rw [after6_8]
  unfold out6_8
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSums_eq (iblk6 V c 0 t) (iblk6 V c 1 t) (iblk6 V c 2 t) (iblk6 V c 3 t) (iblk6 V c 4 t) (iblk6 V c 5 t) (iblk6 V c 6 t)
    (V c main_v60) (V c main_v82) (V c main_v85) (V c main_v87) (V c main_v90) (V c main_v92) (V c main_v95)
    (pt6 t) (rows6_0 V c t) (rows6_1 V c t) (whole6_2 V c t) (whole6_3 V c t) (whole6_4 V c t) (whole6_5 V c t) (whole6_6 V c t) u s l).trans ?_
  rw [View.read_apply]
  refine congrArg (blockSums (mlpZ (V c main_v60) (V c main_v82) (V c main_v85) (V c main_v87) (V c main_v90) (V c main_v92) (V c main_v95))) ?_
  obtain ⟨-, -, -, -, -, -, -, -, -, -, -, -, -, -, -, -, e80, e81, e82, e90, e91, e92⟩ := index_facts6 t
  have hu : u.val = 0 := by omega
  funext a
  apply Fin.ext
  match a with
  | ⟨0, _⟩ => show t.val = win6_8.index t (0 : Fin 3) * 1 + 1 * u.val; rw [e80, hu]; omega
  | ⟨1, _⟩ => show s.val = win6_8.index t (1 : Fin 3) * 8 + 1 * s.val; rw [e81]; omega
  | ⟨2, _⟩ => show l.val = win6_8.index t (2 : Fin 3) * 128 + 1 * l.val; rw [e82]; omega

/-- An entry of the [25, 8, 128] array is in point `t`'s slab iff each coordinate is in the slab's range. -/
theorem mem_blk6_8 (t : Fin cfg6.N) (i : S25x8x128.Idx) :
    i ∈ ((cfg6.win 8).blk t).view.set ↔ ∀ a : Fin 3, win6_8.index t a * S1x8x128.size a ≤ (i a).val
      ∧ (i a).val < win6_8.index t a * S1x8x128.size a + S1x8x128.size a := by
  show i ∈ ((View.whole main_v96_1).slice (win6_8.rect t)).set ↔ _
  rw [View.set_slice_whole, Rect.mem_set_unit]
  exact Iff.rfl

/-- Slab `i 0` is written back by point `i 0`. -/
theorem covered6_8 (i : S25x8x128.Idx) :
    ∃ t : Fin cfg6.N, (cfg6.win 8).flush t = true ∧ i ∈ ((cfg6.win 8).blk t).view.set := by
  have hi0 : (i 0).val < 25 := (i 0).isLt
  have hi1 : (i 1).val < 8 := (i 1).isLt
  have hi2 : (i 2).val < 128 := (i 2).isLt
  have hN : cfg6.N = 25 := N_6
  obtain ⟨t, ht⟩ : ∃ t : Fin cfg6.N, t.val = (i 0).val := ⟨⟨(i 0).val, by rw [hN]; exact hi0⟩, rfl⟩
  obtain ⟨-, -, -, -, -, -, -, -, -, -, -, -, -, -, -, -, e80, e81, e82, e90, e91, e92⟩ := index_facts6 t
  refine ⟨t, flush6_8 t, ?_⟩
  rw [mem_blk6_8]
  intro a
  match a with
  | ⟨0, _⟩ => show win6_8.index t (0 : Fin 3) * 1 ≤ (i 0).val ∧ (i 0).val < win6_8.index t (0 : Fin 3) * 1 + 1; rw [e80]; omega
  | ⟨1, _⟩ => show win6_8.index t (1 : Fin 3) * 8 ≤ (i 1).val ∧ (i 1).val < win6_8.index t (1 : Fin 3) * 8 + 8; rw [e81]; omega
  | ⟨2, _⟩ => show win6_8.index t (2 : Fin 3) * 128 ≤ (i 2).val ∧ (i 2).val < win6_8.index t (2 : Fin 3) * 128 + 128; rw [e82]; omega

/-- The array the pipeline leaves: `blockSums` of the perceptron's output of the region's seven input arrays. -/
theorem final6_8 (c : Dev nD) :
    (dat6 V c).arrAt 8 cfg6.N = blockSums (mlpZ (V c main_v60) (V c main_v82) (V c main_v85) (V c main_v87) (V c main_v90) (V c main_v92) (V c main_v95)) :=
  (dat6 V c).arrAt_eq_of_cover 8 (blockSums (mlpZ (V c main_v60) (V c main_v82) (V c main_v85) (V c main_v87) (V c main_v90) (V c main_v92) (V c main_v95)))
    (fun t _ => flushed6_8_eq V c t) covered6_8

/-! ## Output window 9: the blocks' column sums of squares -/

/-- Point `t` writes back slab `t` of `blockSqSums` of the perceptron's output. -/
theorem flushed6_9_eq (c : Dev nD) (t : Fin cfg6.N) :
    (dat6 V c).flushed 9 t
      = ((cfg6.win 9).blk t).view.read (Elt Ideal) (blockSqSums (mlpZ (V c main_v60) (V c main_v82) (V c main_v85) (V c main_v87) (V c main_v90) (V c main_v92) (V c main_v95))) := by
  show (cfg6.win 9).cut (grid6.coords t) ((dat6 V c).after 9 t) = _
  rw [after6_9]
  unfold out6_9
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSqSums_eq (iblk6 V c 0 t) (iblk6 V c 1 t) (iblk6 V c 2 t) (iblk6 V c 3 t) (iblk6 V c 4 t) (iblk6 V c 5 t) (iblk6 V c 6 t)
    (V c main_v60) (V c main_v82) (V c main_v85) (V c main_v87) (V c main_v90) (V c main_v92) (V c main_v95)
    (pt6 t) (rows6_0 V c t) (rows6_1 V c t) (whole6_2 V c t) (whole6_3 V c t) (whole6_4 V c t) (whole6_5 V c t) (whole6_6 V c t) u s l).trans ?_
  rw [View.read_apply]
  refine congrArg (blockSqSums (mlpZ (V c main_v60) (V c main_v82) (V c main_v85) (V c main_v87) (V c main_v90) (V c main_v92) (V c main_v95))) ?_
  obtain ⟨-, -, -, -, -, -, -, -, -, -, -, -, -, -, -, -, e80, e81, e82, e90, e91, e92⟩ := index_facts6 t
  have hu : u.val = 0 := by omega
  funext a
  apply Fin.ext
  match a with
  | ⟨0, _⟩ => show t.val = win6_9.index t (0 : Fin 3) * 1 + 1 * u.val; rw [e90, hu]; omega
  | ⟨1, _⟩ => show s.val = win6_9.index t (1 : Fin 3) * 8 + 1 * s.val; rw [e91]; omega
  | ⟨2, _⟩ => show l.val = win6_9.index t (2 : Fin 3) * 128 + 1 * l.val; rw [e92]; omega

/-- An entry of the [25, 8, 128] array is in point `t`'s slab iff each coordinate is in the slab's range. -/
theorem mem_blk6_9 (t : Fin cfg6.N) (i : S25x8x128.Idx) :
    i ∈ ((cfg6.win 9).blk t).view.set ↔ ∀ a : Fin 3, win6_9.index t a * S1x8x128.size a ≤ (i a).val
      ∧ (i a).val < win6_9.index t a * S1x8x128.size a + S1x8x128.size a := by
  show i ∈ ((View.whole main_v96_2).slice (win6_9.rect t)).set ↔ _
  rw [View.set_slice_whole, Rect.mem_set_unit]
  exact Iff.rfl

/-- Slab `i 0` is written back by point `i 0`. -/
theorem covered6_9 (i : S25x8x128.Idx) :
    ∃ t : Fin cfg6.N, (cfg6.win 9).flush t = true ∧ i ∈ ((cfg6.win 9).blk t).view.set := by
  have hi0 : (i 0).val < 25 := (i 0).isLt
  have hi1 : (i 1).val < 8 := (i 1).isLt
  have hi2 : (i 2).val < 128 := (i 2).isLt
  have hN : cfg6.N = 25 := N_6
  obtain ⟨t, ht⟩ : ∃ t : Fin cfg6.N, t.val = (i 0).val := ⟨⟨(i 0).val, by rw [hN]; exact hi0⟩, rfl⟩
  obtain ⟨-, -, -, -, -, -, -, -, -, -, -, -, -, -, -, -, e80, e81, e82, e90, e91, e92⟩ := index_facts6 t
  refine ⟨t, flush6_9 t, ?_⟩
  rw [mem_blk6_9]
  intro a
  match a with
  | ⟨0, _⟩ => show win6_9.index t (0 : Fin 3) * 1 ≤ (i 0).val ∧ (i 0).val < win6_9.index t (0 : Fin 3) * 1 + 1; rw [e90]; omega
  | ⟨1, _⟩ => show win6_9.index t (1 : Fin 3) * 8 ≤ (i 1).val ∧ (i 1).val < win6_9.index t (1 : Fin 3) * 8 + 8; rw [e91]; omega
  | ⟨2, _⟩ => show win6_9.index t (2 : Fin 3) * 128 ≤ (i 2).val ∧ (i 2).val < win6_9.index t (2 : Fin 3) * 128 + 128; rw [e92]; omega

/-- The array the pipeline leaves: `blockSqSums` of the perceptron's output of the region's seven input arrays. -/
theorem final6_9 (c : Dev nD) :
    (dat6 V c).arrAt 9 cfg6.N = blockSqSums (mlpZ (V c main_v60) (V c main_v82) (V c main_v85) (V c main_v87) (V c main_v90) (V c main_v92) (V c main_v95)) :=
  (dat6 V c).arrAt_eq_of_cover 9 (blockSqSums (mlpZ (V c main_v60) (V c main_v82) (V c main_v85) (V c main_v87) (V c main_v90) (V c main_v92) (V c main_v95)))
    (fun t _ => flushed6_9_eq V c t) covered6_9

end Cert.KernelIdeal.Region

end
-- ==== Proof.Region.R7.lean ====
/-
  Region 7: the array the row-blocked normalisation leaves, as one function of the arrays it reads.

  The region sweeps 25 grid points. At point `t` it reads rows `2000·t … 2000·t + 1999` of the two node arrays
  (50000 × 128 each), the four per-channel rows (1 × 128 each, the same block at every point), and writes back
  rows `2000·t … 2000·t + 1999` of the result. The body is pointwise: the entry at local row `p`, channel `q`
  depends only on the two node entries at `(p, q)` and on the four rows at channel `q`. Since local row `p` of
  block `t` is global row `2000·t + p`, every written block is the corresponding block of `Spec.normRes` of the
  whole arrays; and since every row `r` lies in block `r / 2000`, the 25 blocks cover the result.
-/
import proofs.«105345_j19885698580760_2_alg».proof.Proof.Spec.NormRes
import proofs.«105345_j19885698580760_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region

open Cert.KernelIdeal Idealize.ShloMosaic Idealize.ShloMosaic.TcCoe Idealize.SL.Sem Idealize.ShloMosaic.ValueIdx
open Idealize.ShloMosaic.Pipeline (Dat)

-- The buffer contents of the core when the region is entered: every statement below is at this parameter.
variable (V : (c : Dev nD) → (b : Ref sig .tc) → Buf (Elt Ideal) ((c : Thread nD τ).loc b))

/-- Zero offsets on both axes, however the zeros are spelt. -/
theorem zeroOff7 : (![0, 0] : Fin 2 → Nat) = fun _ => 0 := funext fun a => by fin_cases a <;> rfl

/-! ## The body at one entry of a block -/

/-- The reciprocal root of a vector, at an index, is the reciprocal root of its entry. -/
theorem rsqrt_at7 {s : Shape} {φ : FTy} (a : FVec Ideal s φ) (i : s.Idx) : rsqrt a i = Ideal.rsqrt (a i) := rfl

/-- The body's value at local row `p`, channel `q`: the centred entry times the reciprocal root of the shifted
    variance, times the gain, plus the shift, plus the residual, then the maximum with zero. Each per-channel
    row, broadcast over the block's 2000 rows, is read at its row 0 and channel `q`. -/
theorem body7_ix2 (x0 xh : Vec Ideal S2000x128 .f32) (xmean xvar xg xb : Vec Ideal S1x128 .f32) (p : Fin 2000) (q : Fin 128) :
    Gen.k7_pay1 (F := Ideal) x0 xvar xmean xg xb xh (ix2 p q)
      = max ((x0 (ix2 p q) - xmean (ix2 (0 : Fin 1) q)) * Ideal.rsqrt (xvar (ix2 (0 : Fin 1) q) + Ideal.ofBits .f32 0x3727C5AC#32)
                * xg (ix2 (0 : Fin 1) q) + xb (ix2 (0 : Fin 1) q) + xh (ix2 p q)) 0 := by
  unfold Gen.k7_pay1
  simp only [shapeCast_self]
  simp only [maximumf_apply, addf_apply, mulf_apply, subf_apply, broadcast_apply, broadcastTo_1b_ab_apply, rsqrt_at7]
  simp only [Ideal.ofBits_def, Ideal.ofBits_zero_f32]

/-- The body at an entry of a block is `Spec.normRes` of the whole arrays at the entry's place in them, as soon
    as the two node blocks agree with the node arrays there (`hz`, `hh`), the four rows are the whole
    per-channel arrays, and the place has the entry's channel (`hcol`). -/
theorem body7_eq (Z H : S50000x128.Idx → EReal) (Mn Vr Gn Bs : S1x128.Idx → EReal)
    (x0 xh : Vec Ideal S2000x128 .f32) (xmean xvar xg xb : Vec Ideal S1x128 .f32)
    (y : S2000x128.Idx) (i : S50000x128.Idx)
    (hz : x0 y = Z i) (hh : xh y = H i) (hm : xmean = Mn) (hv : xvar = Vr) (hg : xg = Gn) (hb : xb = Bs)
    (hcol : (i 1).val = (y 1).val) :
    Gen.k7_pay1 (F := Ideal) x0 xvar xmean xg xb xh y = Spec.normRes Z H Mn Vr Gn Bs i := by
  subst hm hv hg hb
  obtain ⟨p, q, rfl⟩ : ∃ (p : Fin 2000) (q : Fin 128), y = ix2 p q := ⟨y 0, y 1, eq_ix2 y⟩
  obtain ⟨r, k, rfl⟩ : ∃ (r : Fin 50000) (k : Fin 128), i = ix2 r k := ⟨i 0, i 1, eq_ix2 i⟩
  obtain rfl : k = q := Fin.ext hcol
  rw [body7_ix2, Spec.normRes_ix2, hz, hh]

/-! ## Where each block sits in its array -/

/-- The block indices at grid point `t`, decided over the 25 points: the two node windows and the result window are
    at row block `t`, column block 0; the four per-channel windows stay at block (0, 0). -/
theorem blockIdx7 : ∀ t : Fin cfg7.N,
      win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- A node block's entry `(p, q)` at point `t` is the node array's entry at row `2000·t + p`, channel `q`:
    the first node window. -/
theorem nodeBlock7_0 (c : Dev nD) (t : Fin cfg7.N) (y : S2000x128.Idx) (i : S50000x128.Idx)
    (h0 : (i 0).val = t.val * 2000 + (y 0).val) (h1 : (i 1).val = (y 1).val) :
    (Gen.iblk7 (F := Ideal) V c 0 t : Vec Ideal S2000x128 .f32) y = (V c main_v96_0 : S50000x128.Idx → EReal) i := by
  obtain ⟨e00, e01, -⟩ := blockIdx7 t
  unfold Gen.iblk7
  rw [View.read_apply]
  show V c main_v96_0 _ = V c main_v96_0 _
  congr 1
  funext a
  apply Fin.ext
  match a with
  | ⟨0, _⟩ => show win7_0.index t (0 : Fin 2) * 2000 + 1 * (y 0).val = (i 0).val; rw [e00, h0]; omega
  | ⟨1, _⟩ => show win7_0.index t (1 : Fin 2) * 128 + 1 * (y 1).val = (i 1).val; rw [e01, h1]; omega

/-- The same for the second node window (the residual). -/
theorem nodeBlock7_1 (c : Dev nD) (t : Fin cfg7.N) (y : S2000x128.Idx) (i : S50000x128.Idx)
    (h0 : (i 0).val = t.val * 2000 + (y 0).val) (h1 : (i 1).val = (y 1).val) :
    (Gen.iblk7 (F := Ideal) V c 1 t : Vec Ideal S2000x128 .f32) y = (V c main_v60 : S50000x128.Idx → EReal) i := by
  obtain ⟨-, -, e10, e11, -⟩ := blockIdx7 t
  unfold Gen.iblk7
  rw [View.read_apply]
  show V c main_v60 _ = V c main_v60 _
  congr 1
  funext a
  apply Fin.ext
  match a with
  | ⟨0, _⟩ => show win7_1.index t (0 : Fin 2) * 2000 + 1 * (y 0).val = (i 0).val; rw [e10, h0]; omega
  | ⟨1, _⟩ => show win7_1.index t (1 : Fin 2) * 128 + 1 * (y 1).val = (i 1).val; rw [e11, h1]; omega

/-- A per-channel window's block, at every point, is its whole 1 × 128 array: block (0, 0) of one block. -/
theorem rowBlock7_2 (c : Dev nD) (t : Fin cfg7.N) :
    (Gen.iblk7 (F := Ideal) V c 2 t : Vec Ideal S1x128 .f32) = (V c main_v105 : S1x128.Idx → EReal) := by
  obtain ⟨-, -, -, -, e0, e1, -⟩ := blockIdx7 t
  funext y
  unfold Gen.iblk7
  rw [View.read_apply]
  show V c main_v105 _ = V c main_v105 _
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

theorem rowBlock7_3 (c : Dev nD) (t : Fin cfg7.N) :
    (Gen.iblk7 (F := Ideal) V c 3 t : Vec Ideal S1x128 .f32) = (V c main_v106 : S1x128.Idx → EReal) := by
  obtain ⟨-, -, -, -, -, -, e0, e1, -⟩ := blockIdx7 t
  funext y
  unfold Gen.iblk7
  rw [View.read_apply]
  show V c main_v106 _ = V c main_v106 _
  congr 1
  funext a
  apply Fin.ext
  match a with
  | ⟨0, _⟩ => show win7_3.index t (0 : Fin 2) * 1 + 1 * (y 0).val = (y 0).val; rw [e0]; omega
  | ⟨1, _⟩ => show win7_3.index t (1 : Fin 2) * 128 + 1 * (y 1).val = (y 1).val; rw [e1]; omega

theorem rowBlock7_4 (c : Dev nD) (t : Fin cfg7.N) :
    (Gen.iblk7 (F := Ideal) V c 4 t : Vec Ideal S1x128 .f32) = (V c main_v109 : S1x128.Idx → EReal) := by
  obtain ⟨-, -, -, -, -, -, -, -, e0, e1, -⟩ := blockIdx7 t
  funext y
  unfold Gen.iblk7
  rw [View.read_apply]
  show V c main_v109 _ = V c main_v109 _
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 128 + 1 * (y 1).val = (y 1).val; rw [e1]; omega

theorem rowBlock7_5 (c : Dev nD) (t : Fin cfg7.N) :
    (Gen.iblk7 (F := Ideal) V c 5 t : Vec Ideal S1x128 .f32) = (V c main_v112 : S1x128.Idx → EReal) := by
  obtain ⟨-, -, -, -, -, -, -, -, -, -, e0, e1, -⟩ := blockIdx7 t
  funext y
  unfold Gen.iblk7
  rw [View.read_apply]
  show V c main_v112 _ = V c main_v112 _
  congr 1
  funext a
  apply Fin.ext
  match a with
  | ⟨0, _⟩ => show win7_5.index t (0 : Fin 2) * 1 + 1 * (y 0).val = (y 0).val; rw [e0]; omega
  | ⟨1, _⟩ => show win7_5.index t (1 : Fin 2) * 128 + 1 * (y 1).val = (y 1).val; rw [e1]; omega

/-! ## What each point writes back, and the whole array -/

/-- What point `t` writes back is block `t` of `Spec.normRes` of the arrays as the region finds them. -/
theorem written7 (c : Dev nD) (t : Fin cfg7.N) :
    (Gen.dat7 (F := Ideal) V c).flushed 6 t
      = ((cfg7.win 6).blk t).view.read (Elt Ideal)
          (Spec.normRes (V c main_v96_0) (V c main_v60) (V c main_v105) (V c main_v106) (V c main_v109) (V c main_v112)) := by
  show (cfg7.win 6).cut (grid7.coords t) ((Gen.dat7 (F := Ideal) V c).after 6 t) = _
  rw [Gen.after7_6]
  unfold Gen.out7_6
  rw [View.canon_unit_zero zeroOff7]
  simp only [View.ld_unit_zero (S := S2000x128) zeroOff7, View.ld_unit_zero (S := S1x128) zeroOff7]
  obtain ⟨-, -, -, -, -, -, -, -, -, -, -, -, e60, e61⟩ := blockIdx7 t
  funext j
  rw [View.read_apply]
  have hj0 : (j 0).val < 2000 := (j 0).isLt
  have hj1 : (j 1).val < 128 := (j 1).isLt
  have hr : ((((cfg7.win 6).blk t).view.emb j : S50000x128.Idx) 0).val = t.val * 2000 + (j 0).val := by
    show win7_6.index t (0 : Fin 2) * 2000 + 1 * (j 0).val = _; rw [e60]; omega
  have hk : ((((cfg7.win 6).blk t).view.emb j : S50000x128.Idx) 1).val = (j 1).val := by
    show win7_6.index t (1 : Fin 2) * 128 + 1 * (j 1).val = _; rw [e61]; omega
  exact body7_eq (V c main_v96_0) (V c main_v60) (V c main_v105) (V c main_v106) (V c main_v109) (V c main_v112)
    (Gen.iblk7 (F := Ideal) V c 0 t) (Gen.iblk7 (F := Ideal) V c 1 t) (Gen.iblk7 (F := Ideal) V c 2 t)
    (Gen.iblk7 (F := Ideal) V c 3 t) (Gen.iblk7 (F := Ideal) V c 4 t) (Gen.iblk7 (F := Ideal) V c 5 t)
    j (((cfg7.win 6).blk t).view.emb j)
    (nodeBlock7_0 V c t j _ hr hk) (nodeBlock7_1 V c t j _ hr hk)
    (rowBlock7_2 V c t) (rowBlock7_3 V c t) (rowBlock7_4 V c t) (rowBlock7_5 V c t) hk

/-- An index of the result is in point `t`'s block iff each coordinate is in the block's range on its axis. -/
theorem inBlock7 (t : Fin cfg7.N) (i : S50000x128.Idx) :
    i ∈ ((cfg7.win 6).blk t).view.set ↔ ∀ a : Fin 2, win7_6.index t a * S2000x128.size a ≤ (i a).val ∧ (i a).val < win7_6.index t a * S2000x128.size a + S2000x128.size a := by
  show i ∈ ((View.whole main_v113).slice (win7_6.rect t)).set ↔ _
  rw [View.set_slice_whole, Rect.mem_set_unit]
  exact Iff.rfl

/-- Every index of the result is written by some point: row `r` lies in block `r / 2000`. -/
theorem covered7 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have hN : cfg7.N = 25 := Gen.N_7
  have hlt : (i 0).val / 2000 < cfg7.N := by rw [hN]; omega
  obtain ⟨-, -, -, -, -, -, -, -, -, -, -, -, e60, e61⟩ := blockIdx7 ⟨(i 0).val / 2000, hlt⟩
  refine ⟨⟨(i 0).val / 2000, hlt⟩, Gen.flush7_6 _, ?_⟩
  rw [inBlock7]
  intro a
  match a with
  | ⟨0, _⟩ =>
    show win7_6.index ⟨(i 0).val / 2000, hlt⟩ (0 : Fin 2) * 2000 ≤ (i 0).val ∧ (i 0).val < win7_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win7_6.index ⟨(i 0).val / 2000, hlt⟩ (1 : Fin 2) * 128 ≤ (i 1).val ∧ (i 1).val < win7_6.index ⟨(i 0).val / 2000, hlt⟩ (1 : Fin 2) * 128 + 128
    rw [e61]
    omega

/-- THE ARRAY the region leaves in its result buffer: `Spec.normRes` of the arrays it read, as it found them. -/
theorem final7_6 (c : Dev nD) :
    (Gen.dat7 (F := Ideal) V c).arrAt 6 cfg7.N
      = Spec.normRes (V c main_v96_0) (V c main_v60) (V c main_v105) (V c main_v106) (V c main_v109) (V c main_v112) :=
  (Gen.dat7 (F := Ideal) V c).arrAt_eq_of_cover 6
    (Spec.normRes (V c main_v96_0) (V c main_v60) (V c main_v105) (V c main_v106) (V c main_v109) (V c main_v112))
    (fun t _ => written7 V c t) (covered7)

end Cert.KernelIdeal.Region

end
-- ==== Proof.K.Chain3.lean ====
/-
  What the kernel program's buffers hold at the boundaries W11 … W16 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.K.Keep2
import proofs.«105345_j19885698580760_2_alg».proof.Proof.K.Keep3
import proofs.«105345_j19885698580760_2_alg».proof.Proof.K.Chain2
import proofs.«105345_j19885698580760_2_alg».proof.Proof.Region.R5
import proofs.«105345_j19885698580760_2_alg».proof.Proof.Region.R6
import proofs.«105345_j19885698580760_2_alg».proof.Proof.Region.R7

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v62 : W11 m ρ c (Proc.devRef .tc main_v62) = par_lin_w 1 (argsOf m c).lin_w :=
  (KHost.s5_v62 (W10 m ρ c)).trans (by
    rw [show W10 m ρ c (Proc.devRef .tc main_arg9) = (argsOf m c).lin_w from ((keep_arg9_10_4 m ρ c).trans (keep_arg9_4_0 m ρ c))]
    try rfl)

theorem val_v65 : W11 m ρ c (Proc.devRef .tc main_v65) = par_row128 1 (argsOf m c).lin_b :=
  (KHost.s5_v65 (W10 m ρ c)).trans (by
    rw [show W10 m ρ c (Proc.devRef .tc main_arg10) = (argsOf m c).lin_b from ((keep_arg10_10_4 m ρ c).trans (keep_arg10_4_0 m ρ c))]
    try rfl)

theorem val_v66 : W12 m ρ c (Proc.devRef .tc main_v66) = KVal.el (argsOf m c) 1 :=
  calc W12 m ρ c (Proc.devRef .tc main_v66) = (dat5 (V11 m ρ) c).arrAt 3 cfg5.N := W12_arr m ρ c 3
    _ = _ := Region.final5_3 (V11 m ρ) c
    _ = KVal.el (argsOf m c) 1 := by
      rw [show V11 m ρ c main_v7 = KVal.e (argsOf m c) from (((keep_v7_11_10 m ρ c).trans (keep_v7_10_4 m ρ c)).trans (val_v7 m ρ c)),
        show V11 m ρ c main_v62 = par_lin_w 1 (argsOf m c).lin_w from (val_v62 m ρ c),
        show V11 m ρ c main_v65 = par_row128 1 (argsOf m c).lin_b from (val_v65 m ρ c)]
      try rfl

theorem val_v82 : W13 m ρ c (Proc.devRef .tc main_v82) = KVal.aggOf (argsOf m c) 1 (KVal.h1 (argsOf m c)) :=
  (KHost.s6_v82 (W12 m ρ c)).trans (by
    rw [show W12 m ρ c (Proc.devRef .tc main_v60) = KVal.h1 (argsOf m c) from ((keep_v60_12_10 m ρ c).trans (val_v60 m ρ c)),
      show W12 m ρ c (Proc.devRef .tc main_v66) = KVal.el (argsOf m c) 1 from (val_v66 m ρ c),
      show W12 m ρ c (Proc.devRef .tc main_v1) = src_row (argsOf m c).ei from (((keep_v1_12_10 m ρ c).trans ((keep_v1_10_4 m ρ c).trans (keep_v1_4_1 m ρ c))).trans (val_v1 m ρ c)),
      show W12 m ρ c (Proc.devRef .tc main_v3) = dst_row (argsOf m c).ei from (((keep_v3_12_10 m ρ c).trans ((keep_v3_10_4 m ρ c).trans (keep_v3_4_1 m ρ c))).trans (val_v3 m ρ c))]
    try rfl)

theorem val_v85 : W13 m ρ c (Proc.devRef .tc main_v85) = par_eps 1 (argsOf m c).eps :=
  (KHost.s6_v85 (W12 m ρ c)).trans (by
    rw [show W12 m ρ c (Proc.devRef .tc main_arg8) = (argsOf m c).eps from ((keep_arg8_12_10 m ρ c).trans ((keep_arg8_10_4 m ρ c).trans (keep_arg8_4_0 m ρ c)))]
    try rfl)

theorem val_v87 : W13 m ρ c (Proc.devRef .tc main_v87) = par_w1 1 (argsOf m c).w1 :=
  (KHost.s6_v87 (W12 m ρ c)).trans (by
    rw [show W12 m ρ c (Proc.devRef .tc main_arg11) = (argsOf m c).w1 from ((keep_arg11_12_10 m ρ c).trans ((keep_arg11_10_4 m ρ c).trans (keep_arg11_4_0 m ρ c)))]
    try rfl)

theorem val_v90 : W13 m ρ c (Proc.devRef .tc main_v90) = par_b1 1 (argsOf m c).b1 :=
  (KHost.s6_v90 (W12 m ρ c)).trans (by
    rw [show W12 m ρ c (Proc.devRef .tc main_arg12) = (argsOf m c).b1 from ((keep_arg12_12_10 m ρ c).trans ((keep_arg12_10_4 m ρ c).trans (keep_arg12_4_0 m ρ c)))]
    try rfl)

theorem val_v92 : W13 m ρ c (Proc.devRef .tc main_v92) = par_w2 1 (argsOf m c).w2 :=
  (KHost.s6_v92 (W12 m ρ c)).trans (by
    rw [show W12 m ρ c (Proc.devRef .tc main_arg13) = (argsOf m c).w2 from ((keep_arg13_12_10 m ρ c).trans ((keep_arg13_10_4 m ρ c).trans (keep_arg13_4_0 m ρ c)))]
    try rfl)

theorem val_v95 : W13 m ρ c (Proc.devRef .tc main_v95) = par_row128 1 (argsOf m c).b2 :=
  (KHost.s6_v95 (W12 m ρ c)).trans (by
    rw [show W12 m ρ c (Proc.devRef .tc main_arg14) = (argsOf m c).b2 from ((keep_arg14_12_10 m ρ c).trans ((keep_arg14_10_4 m ρ c).trans (keep_arg14_4_0 m ρ c)))]
    try rfl)

theorem val_v96_0 : W14 m ρ c (Proc.devRef .tc main_v96_0) = KVal.zOf (argsOf m c) 1 (KVal.h1 (argsOf m c)) :=
  calc W14 m ρ c (Proc.devRef .tc main_v96_0) = (dat6 (V13 m ρ) c).arrAt 7 cfg6.N := W14_arr m ρ c 7
    _ = _ := Region.final6_7 (V13 m ρ) c
    _ = KVal.zOf (argsOf m c) 1 (KVal.h1 (argsOf m c)) := by
      rw [show V13 m ρ c main_v60 = KVal.h1 (argsOf m c) from ((keep_v60_13_10 m ρ c).trans (val_v60 m ρ c)),
        show V13 m ρ c main_v82 = KVal.aggOf (argsOf m c) 1 (KVal.h1 (argsOf m c)) from (val_v82 m ρ c),
        show V13 m ρ c main_v85 = par_eps 1 (argsOf m c).eps from (val_v85 m ρ c),
        show V13 m ρ c main_v87 = par_w1 1 (argsOf m c).w1 from (val_v87 m ρ c),
        show V13 m ρ c main_v90 = par_b1 1 (argsOf m c).b1 from (val_v90 m ρ c),
        show V13 m ρ c main_v92 = par_w2 1 (argsOf m c).w2 from (val_v92 m ρ c),
        show V13 m ρ c main_v95 = par_row128 1 (argsOf m c).b2 from (val_v95 m ρ c)]
      try rfl

theorem val_v96_1 : W14 m ρ c (Proc.devRef .tc main_v96_1) = Cert.Spec.blockSums (KVal.zOf (argsOf m c) 1 (KVal.h1 (argsOf m c))) :=
  calc W14 m ρ c (Proc.devRef .tc main_v96_1) = (dat6 (V13 m ρ) c).arrAt 8 cfg6.N := W14_arr m ρ c 8
    _ = _ := Region.final6_8 (V13 m ρ) c
    _ = Cert.Spec.blockSums (KVal.zOf (argsOf m c) 1 (KVal.h1 (argsOf m c))) := by
      rw [show V13 m ρ c main_v60 = KVal.h1 (argsOf m c) from ((keep_v60_13_10 m ρ c).trans (val_v60 m ρ c)),
        show V13 m ρ c main_v82 = KVal.aggOf (argsOf m c) 1 (KVal.h1 (argsOf m c)) from (val_v82 m ρ c),
        show V13 m ρ c main_v85 = par_eps 1 (argsOf m c).eps from (val_v85 m ρ c),
        show V13 m ρ c main_v87 = par_w1 1 (argsOf m c).w1 from (val_v87 m ρ c),
        show V13 m ρ c main_v90 = par_b1 1 (argsOf m c).b1 from (val_v90 m ρ c),
        show V13 m ρ c main_v92 = par_w2 1 (argsOf m c).w2 from (val_v92 m ρ c),
        show V13 m ρ c main_v95 = par_row128 1 (argsOf m c).b2 from (val_v95 m ρ c)]
      try rfl

theorem val_v105 : W15 m ρ c (Proc.devRef .tc main_v105) = KVal.meanRow (argsOf m c) 1 (KVal.h1 (argsOf m c)) :=
  (KHost.s7_v105 (W14 m ρ c)).trans (by
    rw [show W14 m ρ c (Proc.devRef .tc main_v96_1) = Cert.Spec.blockSums (KVal.zOf (argsOf m c) 1 (KVal.h1 (argsOf m c))) from (val_v96_1 m ρ c)]
    try rfl)

theorem val_v96_2 : W14 m ρ c (Proc.devRef .tc main_v96_2) = Cert.Spec.blockSqSums (KVal.zOf (argsOf m c) 1 (KVal.h1 (argsOf m c))) :=
  calc W14 m ρ c (Proc.devRef .tc main_v96_2) = (dat6 (V13 m ρ) c).arrAt 9 cfg6.N := W14_arr m ρ c 9
    _ = _ := Region.final6_9 (V13 m ρ) c
    _ = Cert.Spec.blockSqSums (KVal.zOf (argsOf m c) 1 (KVal.h1 (argsOf m c))) := by
      rw [show V13 m ρ c main_v60 = KVal.h1 (argsOf m c) from ((keep_v60_13_10 m ρ c).trans (val_v60 m ρ c)),
        show V13 m ρ c main_v82 = KVal.aggOf (argsOf m c) 1 (KVal.h1 (argsOf m c)) from (val_v82 m ρ c),
        show V13 m ρ c main_v85 = par_eps 1 (argsOf m c).eps from (val_v85 m ρ c),
        show V13 m ρ c main_v87 = par_w1 1 (argsOf m c).w1 from (val_v87 m ρ c),
        show V13 m ρ c main_v90 = par_b1 1 (argsOf m c).b1 from (val_v90 m ρ c),
        show V13 m ρ c main_v92 = par_w2 1 (argsOf m c).w2 from (val_v92 m ρ c),
        show V13 m ρ c main_v95 = par_row128 1 (argsOf m c).b2 from (val_v95 m ρ c)]
      try rfl

theorem val_v106 : W15 m ρ c (Proc.devRef .tc main_v106) = KVal.varRow (argsOf m c) 1 (KVal.h1 (argsOf m c)) :=
  (KHost.s7_v106 (W14 m ρ c)).trans (by
    rw [show W14 m ρ c (Proc.devRef .tc main_v96_1) = Cert.Spec.blockSums (KVal.zOf (argsOf m c) 1 (KVal.h1 (argsOf m c))) from (val_v96_1 m ρ c),
      show W14 m ρ c (Proc.devRef .tc main_v96_2) = Cert.Spec.blockSqSums (KVal.zOf (argsOf m c) 1 (KVal.h1 (argsOf m c))) from (val_v96_2 m ρ c)]
    try rfl)

theorem val_v109 : W15 m ρ c (Proc.devRef .tc main_v109) = par_row128 1 (argsOf m c).g :=
  (KHost.s7_v109 (W14 m ρ c)).trans (by
    rw [show W14 m ρ c (Proc.devRef .tc main_arg15) = (argsOf m c).g from ((keep_arg15_14_10 m ρ c).trans ((keep_arg15_10_4 m ρ c).trans (keep_arg15_4_0 m ρ c)))]
    try rfl)

theorem val_v112 : W15 m ρ c (Proc.devRef .tc main_v112) = par_row128 1 (argsOf m c).b :=
  (KHost.s7_v112 (W14 m ρ c)).trans (by
    rw [show W14 m ρ c (Proc.devRef .tc main_arg16) = (argsOf m c).b from ((keep_arg16_14_10 m ρ c).trans ((keep_arg16_10_4 m ρ c).trans (keep_arg16_4_0 m ρ c)))]
    try rfl)

theorem val_v113 : W16 m ρ c (Proc.devRef .tc main_v113) = KVal.h2 (argsOf m c) :=
  calc W16 m ρ c (Proc.devRef .tc main_v113) = (dat7 (V15 m ρ) c).arrAt 6 cfg7.N := W16_arr m ρ c 6
    _ = _ := Region.final7_6 (V15 m ρ) c
    _ = KVal.h2 (argsOf m c) := by
      rw [show V15 m ρ c main_v96_0 = KVal.zOf (argsOf m c) 1 (KVal.h1 (argsOf m c)) from ((keep_v96_0_15_14 m ρ c).trans (val_v96_0 m ρ c)),
        show V15 m ρ c main_v60 = KVal.h1 (argsOf m c) from ((keep_v60_15_10 m ρ c).trans (val_v60 m ρ c)),
        show V15 m ρ c main_v105 = KVal.meanRow (argsOf m c) 1 (KVal.h1 (argsOf m c)) from (val_v105 m ρ c),
        show V15 m ρ c main_v106 = KVal.varRow (argsOf m c) 1 (KVal.h1 (argsOf m c)) from (val_v106 m ρ c),
        show V15 m ρ c main_v109 = par_row128 1 (argsOf m c).g from (val_v109 m ρ c),
        show V15 m ρ c main_v112 = par_row128 1 (argsOf m c).b from (val_v112 m ρ c)]
      try rfl

end Cert.KernelIdeal.KChain

end
-- ==== Proof.Region.R8.lean ====
/-
  The value of kernel region 8: the third layer's edge projection, `e · lin_w[2] + lin_b[2]` on the 640000 × 128
  encoded edge features.

  The region walks the 640000 rows of `x` in 64 blocks of 10000 rows; the weight matrix and the one-row bias are
  staged whole at every point. At a point the body leaves in the output block the block product of the `x` block
  with `w`, accumulated from zero, plus the bias row added to every row (the shape casts of the operands are to their
  own shapes, and changes of float format are the identity on extended reals). Entry `(r, c)` of that block is
  therefore `∑ k, x (10000 t + r, k) * w (k, c) + b (0, c)`, which is entry `(10000 t + r, c)` of `Spec.affine x w b`: an
  entry of an affine map depends on one row of `x` only, so a row block of the result is the affine map of the row
  block. The 64 blocks tile the rows (row `R` lies in block `R / 10000`), so the array the region leaves is
  `Spec.affine x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R8

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S10000x128_S128x128_S10000x128_1_0_0_1_n_n := ⟨rfl, rfl, rfl, rfl, rfl, rfl⟩

/-- The body's stored value at entry `(r, c)` of the block, from the three loaded blocks. -/
theorem pay_apply (x0 : Vec Ideal S10000x128 .bf16) (x1 : Vec Ideal S128x128 .f32) (x2 : Vec Ideal S1x128 .f32)
    (r : Fin 10000) (c : Fin 128) :
    k8_pay1 (F := Ideal) x0 x1 x2 (ix2 r c) = Spec.affine x0 x1 x2 (ix2 r c) := by
  unfold k8_pay1
  show (matmul (F := Ideal) dot_S10000x128_S128x128_S10000x128_1_0_0_1_n_n none
      (shapeCast S10000x128 x0 shapeCasts_S10000x128_S10000x128)
      (truncf (F := Ideal) .bf16 (shapeCast S128x128 x1 shapeCasts_S128x128_S128x128) bitsLt_bf16_f32)
      (constant (F := Ideal) S10000x128 .f32 0x00000000#32)) (ix2 r c)
      + broadcastTo S10000x128 (shapeCast S1x128 x2 shapeCasts_S1x128_S1x128) broadcasts_S1x128_S10000x128 (ix2 r c) = _
  simp only [shapeCast_self]
  refine congrArg₂ (· + ·) ?_ ?_
  · exact plainDot.matmul_zero_apply none _ _ r c
  · exact broadcastTo_1b_ab_apply x2 broadcasts_S1x128_S10000x128 r c

/-- The windows' index maps over the grid: `x` and the output move one row block per point, the weights and the
    bias stay at block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- An index of the output array is in point `t`'s block iff each coordinate is in the block's range on its axis. -/
theorem mem_blk (t : Fin cfg8.N) (i : S640000x128.Idx) :
    i ∈ ((cfg8.win 3).blk t).view.set ↔ ∀ a : Fin 2, win8_3.index t a * S10000x128.size a ≤ (i a).val ∧ (i a).val < win8_3.index t a * S10000x128.size a + S10000x128.size a := by
  show i ∈ ((View.whole main_v119).slice (win8_3.rect t)).set ↔ _
  rw [View.set_slice_whole, Rect.mem_set_unit]
  exact Iff.rfl

/-- Every entry of the output array is in the block of the point its row names: row `R` is in block `R / 10000`. -/
theorem cover (i : S640000x128.Idx) : ∃ t : Fin cfg8.N, (cfg8.win 3).flush t = true ∧ i ∈ ((cfg8.win 3).blk t).view.set := by
  have hi0 : (i 0).val < 640000 := (i 0).isLt
  have hi1 : (i 1).val < 128 := (i 1).isLt
  have hN : cfg8.N = 64 := N_8
  obtain ⟨t, ht⟩ : ∃ t : Fin cfg8.N, t.val = (i 0).val / 10000 := ⟨⟨(i 0).val / 10000, by rw [hN]; omega⟩, rfl⟩
  obtain ⟨-, -, -, -, -, -, e6, e7⟩ := idx_facts t
  refine ⟨t, flush8_3 t, ?_⟩
  rw [mem_blk]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 128 ≤ (i 1).val ∧ (i 1).val < win8_3.index t (1 : Fin 2) * 128 + 128; omega

/-- The `x` block at point `t` is rows `10000 t … 10000 t + 9999` of the array. -/
theorem xblk_apply (c : Dev nD) (t : Fin cfg8.N) (r : Fin 10000) (k : Fin 128) (R : Fin 640000) (hR : R.val = t.val * 10000 + r.val) :
    (iblk8 V c 0 t : Vec Ideal S10000x128 .bf16) (ix2 r k) = (V c main_v7 : S640000x128.Idx → EReal) (ix2 R k) := by
  obtain ⟨e0, e1, -⟩ := idx_facts t
  show V c main_v7 (((cfg8.win 0).blk t).view.emb (ix2 r k)) = V c main_v7 (ix2 R k)
  refine congrArg (V c main_v7) (funext fun a => Fin.ext ?_)
  match a with
  | ⟨0, _⟩ => show win8_0.index t (0 : Fin 2) * 10000 + 1 * r.val = R.val; omega
  | ⟨1, _⟩ => show win8_0.index t (1 : Fin 2) * 128 + 1 * k.val = k.val; omega

/-- The weight block at every point is the whole matrix. -/
theorem wblk_apply (c : Dev nD) (t : Fin cfg8.N) (k : Fin 128) (cc : Fin 128) :
    (iblk8 V c 1 t : Vec Ideal S128x128 .f32) (ix2 k cc) = (V c main_v115 : S128x128.Idx → EReal) (ix2 k cc) := by
  obtain ⟨-, -, e2, e3, -⟩ := idx_facts t
  show V c main_v115 (((cfg8.win 1).blk t).view.emb (ix2 k cc)) = V c main_v115 (ix2 k cc)
  refine congrArg (V c main_v115) (funext fun a => Fin.ext ?_)
  match a with
  | ⟨0, _⟩ => show win8_1.index t (0 : Fin 2) * 128 + 1 * k.val = k.val; omega
  | ⟨1, _⟩ => show win8_1.index t (1 : Fin 2) * 128 + 1 * cc.val = cc.val; omega

/-- The bias block at every point is the whole one-row array. -/
theorem bblk_apply (c : Dev nD) (t : Fin cfg8.N) (cc : Fin 128) :
    (iblk8 V c 2 t : Vec Ideal S1x128 .f32) (ix2 0 cc) = (V c main_v118 : S1x128.Idx → EReal) (ix2 0 cc) := by
  obtain ⟨-, -, -, -, e4, e5, -⟩ := idx_facts t
  show V c main_v118 (((cfg8.win 2).blk t).view.emb (ix2 0 cc)) = V c main_v118 (ix2 0 cc)
  refine congrArg (V c main_v118) (funext fun a => Fin.ext ?_)
  match a with
  | ⟨0, _⟩ => show win8_2.index t (0 : Fin 2) * 1 + 1 * (0 : Fin 1).val = (0 : Fin 1).val; rw [e4]; rfl
  | ⟨1, _⟩ => show win8_2.index t (1 : Fin 2) * 128 + 1 * cc.val = cc.val; omega

/-- Entry `(r, c)` of the output block at point `t` sits at row `10000 t + r`, column `c` of the array. -/
theorem oblk_emb (t : Fin cfg8.N) (r : Fin 10000) (cc : Fin 128) :
    ∃ R : Fin 640000, R.val = t.val * 10000 + r.val ∧ ((cfg8.win 3).blk t).view.emb (ix2 r cc) = (ix2 R cc : S640000x128.Idx) := by
  obtain ⟨-, -, -, -, -, -, e6, e7⟩ := idx_facts t
  have hN : cfg8.N = 64 := N_8
  have ht : t.val < 64 := hN ▸ t.isLt
  refine ⟨⟨t.val * 10000 + r.val, by have := r.isLt; omega⟩, rfl, funext fun a => Fin.ext ?_⟩
  match a with
  | ⟨0, _⟩ => show win8_3.index t (0 : Fin 2) * 10000 + 1 * r.val = t.val * 10000 + r.val; omega
  | ⟨1, _⟩ => show win8_3.index t (1 : Fin 2) * 128 + 1 * cc.val = cc.val; omega

/-- One entry of what point `t` leaves in the output block is the same entry of the whole affine map. -/
theorem point_eq (c : Dev nD) (t : Fin cfg8.N) (j : S10000x128.Idx) :
    k8_pay1 (F := Ideal) (iblk8 V c 0 t) (iblk8 V c 1 t) (iblk8 V c 2 t) j
      = Spec.affine (V c main_v7) (V c main_v115) (V c main_v118) (((cfg8.win 3).blk t).view.emb j) := by
  obtain ⟨r, cc, rfl⟩ : ∃ (r : Fin 10000) (cc : Fin 128), j = ix2 r cc := ⟨j 0, j 1, eq_ix2 j⟩
  obtain ⟨R, hR, hemb⟩ := oblk_emb t r cc
  refine ((pay_apply _ _ _ r cc).trans ?_).trans (congrArg (Spec.affine (V c main_v7) (V c main_v115) (V c main_v118)) hemb.symm)
  exact Spec.affine_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg8.N) :
    (dat8 (F := Ideal) V c).flushed 3 t
      = ((cfg8.win 3).blk t).view.read (Elt Ideal) (Spec.affine (V c main_v7) (V c main_v115) (V c main_v118)) := by
  show (cfg8.win 3).cut (grid8.coords t) ((dat8 V c).after 3 t) = _
  rw [after8_3]
  unfold out8_3
  rw [View.canon_unit_zero hz]
  simp only [View.ld_unit_zero (S := S10000x128) hz, View.ld_unit_zero (S := S128x128) hz, View.ld_unit_zero (S := S1x128) hz]
  funext j
  exact point_eq V c t j

end R8

/-- The array region 8 leaves: `x · w + b` of the three arrays it is entered with, whole. -/
theorem final8_3 (V : (c : Dev nD) → (b : Ref sig .tc) → Buf (Elt Ideal) ((c : Thread nD τ).loc b)) (c : Dev nD) :
    (dat8 (F := Ideal) V c).arrAt 3 cfg8.N = Spec.affine (V c main_v7) (V c main_v115) (V c main_v118) :=
  (dat8 (F := Ideal) V c).arrAt_eq_of_cover 3 (Spec.affine (V c main_v7) (V c main_v115) (V c main_v118))
    (fun t _ => R8.flushed_eq V c t) R8.cover

end Cert.KernelIdeal.Region

end
-- ==== Proof.Region.R9.lean ====
/-
  Region 9 of the kernel program: one application of the perceptron over 25 blocks of 2000 rows.

  At grid point `t` the pipeline stages rows `2000 t … 2000 t + 1999` of the feature array and of the aggregated
  messages, and the five small arrays whole; the body writes the block's output back to the same rows of the first
  result, and the block's column sums and column sums of squares to slab `t` of the two [25, 8, 128] results. The 25
  row blocks tile the 50000 rows and the 25 slabs tile the statistics arrays, so after the last point each result is
  one function of the region's seven input arrays: the perceptron's output `mlpZ`, and `blockSums` / `blockSqSums`
  of it.

  Per output window: what a point writes back is the window's block of that function (the block's value read entry by
  entry, each input block read where the window's index map puts it: a block's coordinate is the block index times the
  block size plus the coordinate inside the block); every entry of the array lies in the block of the point that
  covers its row; hence the whole array.
-/
import proofs.«105345_j19885698580760_2_alg».proof.Proof.Spec.Mlp
import proofs.«105345_j19885698580760_2_alg».proof.Proof.Region.MlpBlock
import proofs.«105345_j19885698580760_2_alg».proof.Proof.Gen.KernelIdeal.Frame
import Idealize.ShloMosaic.Lib.Pipeline.Value

noncomputable section

open scoped BigOperators

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The grid and the windows' index maps -/

/-- A grid point as a block number below 25. -/
abbrev pt9 (t : Fin cfg9.N) : Fin 25 := Fin.cast N_9 t

/-- The index maps, decided over the 25 points: the two row-block inputs and the first result move with the point
    along the rows; the five small inputs stay at block (0, 0); the two statistics results move with the point along
    their first axis. -/
theorem index_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0
    ∧ win9_8.index t (0 : Fin 3) = t.val ∧ win9_8.index t (1 : Fin 3) = 0 ∧ win9_8.index t (2 : Fin 3) = 0
    ∧ win9_9.index t (0 : Fin 3) = t.val ∧ win9_9.index t (1 : Fin 3) = 0 ∧ win9_9.index t (2 : Fin 3) = 0 :=
  (by decide +kernel : ∀ t : Fin grid9.N, _)

/-! ## The input windows' blocks as rows of the arrays the region finds -/

/-- Window 0's block at point `t` is rows `2000 t … 2000 t + 1999` of the feature array. -/
theorem rows9_0 (c : Dev nD) (t : Fin cfg9.N) (r : Fin 2000) (k : Fin 128) :
    (iblk9 V c 0 t : Vec Ideal S2000x128 .f32) (ix2 r k)
      = (V c main_v113 : S50000x128.Idx → EReal) (ix2 (mlpBlockRow (pt9 t) r) k) := by
  obtain ⟨e00, e01, e10, e11, -⟩ := index_facts9 t
  unfold iblk9
  rw [View.read_apply]
  show V c main_v113 _ = V c main_v113 _
  refine congrArg (V c main_v113) ?_
  funext a
  apply Fin.ext
  match a with
  | ⟨0, _⟩ => show win9_0.index t (0 : Fin 2) * 2000 + 1 * r.val = 2000 * t.val + r.val; rw [e00]; omega
  | ⟨1, _⟩ => show win9_0.index t (1 : Fin 2) * 128 + 1 * k.val = k.val; rw [e01]; omega

/-- Window 1's block at point `t` is rows `2000 t … 2000 t + 1999` of the aggregated messages. -/
theorem rows9_1 (c : Dev nD) (t : Fin cfg9.N) (r : Fin 2000) (k : Fin 128) :
    (iblk9 V c 1 t : Vec Ideal S2000x128 .f32) (ix2 r k)
      = (V c main_v135 : S50000x128.Idx → EReal) (ix2 (mlpBlockRow (pt9 t) r) k) := by
  obtain ⟨e00, e01, e10, e11, -⟩ := index_facts9 t
  unfold iblk9
  rw [View.read_apply]
  show V c main_v135 _ = V c main_v135 _
  refine congrArg (V c main_v135) ?_
  funext a
  apply Fin.ext
  match a with
  | ⟨0, _⟩ => show win9_1.index t (0 : Fin 2) * 2000 + 1 * r.val = 2000 * t.val + r.val; rw [e10]; omega
  | ⟨1, _⟩ => show win9_1.index t (1 : Fin 2) * 128 + 1 * k.val = k.val; rw [e11]; omega

/-- Window 2 holds the whole one-entry array holding eps at every point. -/
theorem whole9_2 (c : Dev nD) (t : Fin cfg9.N) :
    (iblk9 V c 2 t : Vec Ideal S1x1 .f32) = (V c main_v138 : S1x1.Idx → EReal) := by
  obtain ⟨-, -, -, -, e20, e21, e30, e31, e40, e41, e50, e51, e60, e61, -⟩ := index_facts9 t
  refine funext fun (y : S1x1.Idx) => ?_
  unfold iblk9
  rw [View.read_apply]
  show V c main_v138 _ = V c main_v138 _
  refine congrArg (V c main_v138) ?_
  funext a
  apply Fin.ext
  match a with
  | ⟨0, _⟩ => show win9_2.index t (0 : Fin 2) * 1 + 1 * (y 0).val = (y 0).val; rw [e20]; omega
  | ⟨1, _⟩ => show win9_2.index t (1 : Fin 2) * 1 + 1 * (y 1).val = (y 1).val; rw [e21]; omega

/-- Window 3 holds the whole first weight matrix at every point. -/
theorem whole9_3 (c : Dev nD) (t : Fin cfg9.N) :
    (iblk9 V c 3 t : Vec Ideal S128x256 .f32) = (V c main_v140 : S128x256.Idx → EReal) := by
  obtain ⟨-, -, -, -, e20, e21, e30, e31, e40, e41, e50, e51, e60, e61, -⟩ := index_facts9 t
  refine funext fun (y : S128x256.Idx) => ?_
  unfold iblk9
  rw [View.read_apply]
  show V c main_v140 _ = V c main_v140 _
  refine congrArg (V c main_v140) ?_
  funext a
  apply Fin.ext
  match a with
  | ⟨0, _⟩ => show win9_3.index t (0 : Fin 2) * 128 + 1 * (y 0).val = (y 0).val; rw [e30]; omega
  | ⟨1, _⟩ => show win9_3.index t (1 : Fin 2) * 256 + 1 * (y 1).val = (y 1).val; rw [e31]; omega

/-- Window 4 holds the whole first bias at every point. -/
theorem whole9_4 (c : Dev nD) (t : Fin cfg9.N) :
    (iblk9 V c 4 t : Vec Ideal S1x256 .f32) = (V c main_v143 : S1x256.Idx → EReal) := by
  obtain ⟨-, -, -, -, e20, e21, e30, e31, e40, e41, e50, e51, e60, e61, -⟩ := index_facts9 t
  refine funext fun (y : S1x256.Idx) => ?_
  unfold iblk9
  rw [View.read_apply]
  show V c main_v143 _ = V c main_v143 _
  refine congrArg (V c main_v143) ?_
  funext a
  apply Fin.ext
  match a with
  | ⟨0, _⟩ => show win9_4.index t (0 : Fin 2) * 1 + 1 * (y 0).val = (y 0).val; rw [e40]; omega
  | ⟨1, _⟩ => show win9_4.index t (1 : Fin 2) * 256 + 1 * (y 1).val = (y 1).val; rw [e41]; omega

/-- Window 5 holds the whole second weight matrix at every point. -/
theorem whole9_5 (c : Dev nD) (t : Fin cfg9.N) :
    (iblk9 V c 5 t : Vec Ideal S256x128 .f32) = (V c main_v145 : S256x128.Idx → EReal) := by
  obtain ⟨-, -, -, -, e20, e21, e30, e31, e40, e41, e50, e51, e60, e61, -⟩ := index_facts9 t
  refine funext fun (y : S256x128.Idx) => ?_
  unfold iblk9
  rw [View.read_apply]
  show V c main_v145 _ = V c main_v145 _
  refine congrArg (V c main_v145) ?_
  funext a
  apply Fin.ext
  match a with
  | ⟨0, _⟩ => show win9_5.index t (0 : Fin 2) * 256 + 1 * (y 0).val = (y 0).val; rw [e50]; omega
  | ⟨1, _⟩ => show win9_5.index t (1 : Fin 2) * 128 + 1 * (y 1).val = (y 1).val; rw [e51]; omega

/-- Window 6 holds the whole second bias at every point. -/
theorem whole9_6 (c : Dev nD) (t : Fin cfg9.N) :
    (iblk9 V c 6 t : Vec Ideal S1x128 .f32) = (V c main_v148 : S1x128.Idx → EReal) := by
  obtain ⟨-, -, -, -, e20, e21, e30, e31, e40, e41, e50, e51, e60, e61, -⟩ := index_facts9 t
  refine funext fun (y : S1x128.Idx) => ?_
  unfold iblk9
  rw [View.read_apply]
  show V c main_v148 _ = V c main_v148 _
  refine congrArg (V c main_v148) ?_
  funext a
  apply Fin.ext
  match a with
  | ⟨0, _⟩ => show win9_6.index t (0 : Fin 2) * 1 + 1 * (y 0).val = (y 0).val; rw [e60]; omega
  | ⟨1, _⟩ => show win9_6.index t (1 : Fin 2) * 128 + 1 * (y 1).val = (y 1).val; rw [e61]; omega

/-! ## Output window 7: the perceptron's output -/

/-- Point `t` writes back rows `2000 t … 2000 t + 1999` of the perceptron's output. -/
theorem flushed9_7_eq (c : Dev nD) (t : Fin cfg9.N) :
    (dat9 V c).flushed 7 t
      = ((cfg9.win 7).blk t).view.read (Elt Ideal) (mlpZ (V c main_v113) (V c main_v135) (V c main_v138) (V c main_v140) (V c main_v143) (V c main_v145) (V c main_v148)) := by
  show (cfg9.win 7).cut (grid9.coords t) ((dat9 V c).after 7 t) = _
  rw [after9_7]
  unfold out9_7
  rw [View.canon_unit_zero zeros2]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S2000x128.Idx) => ?_
  obtain ⟨r, k, rfl⟩ : ∃ (r : Fin 2000) (k : Fin 128), y = ix2 r k := ⟨y 0, y 1, eq_ix2 y⟩
  refine (blockZ_eq (iblk9 V c 0 t) (iblk9 V c 1 t) (iblk9 V c 2 t) (iblk9 V c 3 t) (iblk9 V c 4 t) (iblk9 V c 5 t) (iblk9 V c 6 t)
    (V c main_v113) (V c main_v135) (V c main_v138) (V c main_v140) (V c main_v143) (V c main_v145) (V c main_v148)
    (pt9 t) (rows9_0 V c t) (rows9_1 V c t) (whole9_2 V c t) (whole9_3 V c t) (whole9_4 V c t) (whole9_5 V c t) (whole9_6 V c t) r k).trans ?_
  rw [View.read_apply]
  refine congrArg (mlpZ (V c main_v113) (V c main_v135) (V c main_v138) (V c main_v140) (V c main_v143) (V c main_v145) (V c main_v148)) ?_
  obtain ⟨-, -, -, -, -, -, -, -, -, -, -, -, -, -, e70, e71, -⟩ := index_facts9 t
  funext a
  apply Fin.ext
  match a with
  | ⟨0, _⟩ => show 2000 * t.val + r.val = win9_7.index t (0 : Fin 2) * 2000 + 1 * r.val; rw [e70]; omega
  | ⟨1, _⟩ => show k.val = win9_7.index t (1 : Fin 2) * 128 + 1 * k.val; rw [e71]; omega

/-- An entry of the [50000, 128] array is in point `t`'s block iff each coordinate is in the block's range. -/
theorem mem_blk9_7 (t : Fin cfg9.N) (i : S50000x128.Idx) :
    i ∈ ((cfg9.win 7).blk t).view.set ↔ ∀ a : Fin 2, win9_7.index t a * S2000x128.size a ≤ (i a).val
      ∧ (i a).val < win9_7.index t a * S2000x128.size a + S2000x128.size a := by
  show i ∈ ((View.whole main_v149_0).slice (win9_7.rect t)).set ↔ _
  rw [View.set_slice_whole, Rect.mem_set_unit]
  exact Iff.rfl

/-- Row `r` is written back by point `r / 2000`. -/
theorem covered9_7 (i : S50000x128.Idx) :
    ∃ t : Fin cfg9.N, (cfg9.win 7).flush t = true ∧ i ∈ ((cfg9.win 7).blk t).view.set := by
  have hi0 : (i 0).val < 50000 := (i 0).isLt
  have hi1 : (i 1).val < 128 := (i 1).isLt
  have hN : cfg9.N = 25 := N_9
  obtain ⟨t, ht⟩ : ∃ t : Fin cfg9.N, t.val = (i 0).val / 2000 := ⟨⟨(i 0).val / 2000, by rw [hN]; omega⟩, rfl⟩
  obtain ⟨-, -, -, -, -, -, -, -, -, -, -, -, -, -, e70, e71, -⟩ := index_facts9 t
  refine ⟨t, flush9_7 t, ?_⟩
  rw [mem_blk9_7]
  intro a
  match a with
  | ⟨0, _⟩ => show win9_7.index t (0 : Fin 2) * 2000 ≤ (i 0).val ∧ (i 0).val < win9_7.index t (0 : Fin 2) * 2000 + 2000; rw [e70]; omega
  | ⟨1, _⟩ => show win9_7.index t (1 : Fin 2) * 128 ≤ (i 1).val ∧ (i 1).val < win9_7.index t (1 : Fin 2) * 128 + 128; rw [e71]; omega

/-- The array the pipeline leaves: the perceptron's output of the region's seven input arrays. -/
theorem final9_7 (c : Dev nD) :
    (dat9 V c).arrAt 7 cfg9.N = mlpZ (V c main_v113) (V c main_v135) (V c main_v138) (V c main_v140) (V c main_v143) (V c main_v145) (V c main_v148) :=
  (dat9 V c).arrAt_eq_of_cover 7 (mlpZ (V c main_v113) (V c main_v135) (V c main_v138) (V c main_v140) (V c main_v143) (V c main_v145) (V c main_v148))
    (fun t _ => flushed9_7_eq V c t) covered9_7

/-! ## Output window 8: the blocks' column sums -/

/-- Point `t` writes back slab `t` of `blockSums` of the perceptron's output. -/
theorem flushed9_8_eq (c : Dev nD) (t : Fin cfg9.N) :
    (dat9 V c).flushed 8 t
      = ((cfg9.win 8).blk t).view.read (Elt Ideal) (blockSums (mlpZ (V c main_v113) (V c main_v135) (V c main_v138) (V c main_v140) (V c main_v143) (V c main_v145) (V c main_v148))) := by
  show (cfg9.win 8).cut (grid9.coords t) ((dat9 V c).after 8 t) = _
  rw [after9_8]
  unfold out9_8
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSums_eq (iblk9 V c 0 t) (iblk9 V c 1 t) (iblk9 V c 2 t) (iblk9 V c 3 t) (iblk9 V c 4 t) (iblk9 V c 5 t) (iblk9 V c 6 t)
    (V c main_v113) (V c main_v135) (V c main_v138) (V c main_v140) (V c main_v143) (V c main_v145) (V c main_v148)
    (pt9 t) (rows9_0 V c t) (rows9_1 V c t) (whole9_2 V c t) (whole9_3 V c t) (whole9_4 V c t) (whole9_5 V c t) (whole9_6 V c t) u s l).trans ?_
  rw [View.read_apply]
  refine congrArg (blockSums (mlpZ (V c main_v113) (V c main_v135) (V c main_v138) (V c main_v140) (V c main_v143) (V c main_v145) (V c main_v148))) ?_
  obtain ⟨-, -, -, -, -, -, -, -, -, -, -, -, -, -, -, -, e80, e81, e82, e90, e91, e92⟩ := index_facts9 t
  have hu : u.val = 0 := by omega
  funext a
  apply Fin.ext
  match a with
  | ⟨0, _⟩ => show t.val = win9_8.index t (0 : Fin 3) * 1 + 1 * u.val; rw [e80, hu]; omega
  | ⟨1, _⟩ => show s.val = win9_8.index t (1 : Fin 3) * 8 + 1 * s.val; rw [e81]; omega
  | ⟨2, _⟩ => show l.val = win9_8.index t (2 : Fin 3) * 128 + 1 * l.val; rw [e82]; omega

/-- An entry of the [25, 8, 128] array is in point `t`'s slab iff each coordinate is in the slab's range. -/
theorem mem_blk9_8 (t : Fin cfg9.N) (i : S25x8x128.Idx) :
    i ∈ ((cfg9.win 8).blk t).view.set ↔ ∀ a : Fin 3, win9_8.index t a * S1x8x128.size a ≤ (i a).val
      ∧ (i a).val < win9_8.index t a * S1x8x128.size a + S1x8x128.size a := by
  show i ∈ ((View.whole main_v149_1).slice (win9_8.rect t)).set ↔ _
  rw [View.set_slice_whole, Rect.mem_set_unit]
  exact Iff.rfl

/-- Slab `i 0` is written back by point `i 0`. -/
theorem covered9_8 (i : S25x8x128.Idx) :
    ∃ t : Fin cfg9.N, (cfg9.win 8).flush t = true ∧ i ∈ ((cfg9.win 8).blk t).view.set := by
  have hi0 : (i 0).val < 25 := (i 0).isLt
  have hi1 : (i 1).val < 8 := (i 1).isLt
  have hi2 : (i 2).val < 128 := (i 2).isLt
  have hN : cfg9.N = 25 := N_9
  obtain ⟨t, ht⟩ : ∃ t : Fin cfg9.N, t.val = (i 0).val := ⟨⟨(i 0).val, by rw [hN]; exact hi0⟩, rfl⟩
  obtain ⟨-, -, -, -, -, -, -, -, -, -, -, -, -, -, -, -, e80, e81, e82, e90, e91, e92⟩ := index_facts9 t
  refine ⟨t, flush9_8 t, ?_⟩
  rw [mem_blk9_8]
  intro a
  match a with
  | ⟨0, _⟩ => show win9_8.index t (0 : Fin 3) * 1 ≤ (i 0).val ∧ (i 0).val < win9_8.index t (0 : Fin 3) * 1 + 1; rw [e80]; omega
  | ⟨1, _⟩ => show win9_8.index t (1 : Fin 3) * 8 ≤ (i 1).val ∧ (i 1).val < win9_8.index t (1 : Fin 3) * 8 + 8; rw [e81]; omega
  | ⟨2, _⟩ => show win9_8.index t (2 : Fin 3) * 128 ≤ (i 2).val ∧ (i 2).val < win9_8.index t (2 : Fin 3) * 128 + 128; rw [e82]; omega

/-- The array the pipeline leaves: `blockSums` of the perceptron's output of the region's seven input arrays. -/
theorem final9_8 (c : Dev nD) :
    (dat9 V c).arrAt 8 cfg9.N = blockSums (mlpZ (V c main_v113) (V c main_v135) (V c main_v138) (V c main_v140) (V c main_v143) (V c main_v145) (V c main_v148)) :=
  (dat9 V c).arrAt_eq_of_cover 8 (blockSums (mlpZ (V c main_v113) (V c main_v135) (V c main_v138) (V c main_v140) (V c main_v143) (V c main_v145) (V c main_v148)))
    (fun t _ => flushed9_8_eq V c t) covered9_8

/-! ## Output window 9: the blocks' column sums of squares -/

/-- Point `t` writes back slab `t` of `blockSqSums` of the perceptron's output. -/
theorem flushed9_9_eq (c : Dev nD) (t : Fin cfg9.N) :
    (dat9 V c).flushed 9 t
      = ((cfg9.win 9).blk t).view.read (Elt Ideal) (blockSqSums (mlpZ (V c main_v113) (V c main_v135) (V c main_v138) (V c main_v140) (V c main_v143) (V c main_v145) (V c main_v148))) := by
  show (cfg9.win 9).cut (grid9.coords t) ((dat9 V c).after 9 t) = _
  rw [after9_9]
  unfold out9_9
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSqSums_eq (iblk9 V c 0 t) (iblk9 V c 1 t) (iblk9 V c 2 t) (iblk9 V c 3 t) (iblk9 V c 4 t) (iblk9 V c 5 t) (iblk9 V c 6 t)
    (V c main_v113) (V c main_v135) (V c main_v138) (V c main_v140) (V c main_v143) (V c main_v145) (V c main_v148)
    (pt9 t) (rows9_0 V c t) (rows9_1 V c t) (whole9_2 V c t) (whole9_3 V c t) (whole9_4 V c t) (whole9_5 V c t) (whole9_6 V c t) u s l).trans ?_
  rw [View.read_apply]
  refine congrArg (blockSqSums (mlpZ (V c main_v113) (V c main_v135) (V c main_v138) (V c main_v140) (V c main_v143) (V c main_v145) (V c main_v148))) ?_
  obtain ⟨-, -, -, -, -, -, -, -, -, -, -, -, -, -, -, -, e80, e81, e82, e90, e91, e92⟩ := index_facts9 t
  have hu : u.val = 0 := by omega
  funext a
  apply Fin.ext
  match a with
  | ⟨0, _⟩ => show t.val = win9_9.index t (0 : Fin 3) * 1 + 1 * u.val; rw [e90, hu]; omega
  | ⟨1, _⟩ => show s.val = win9_9.index t (1 : Fin 3) * 8 + 1 * s.val; rw [e91]; omega
  | ⟨2, _⟩ => show l.val = win9_9.index t (2 : Fin 3) * 128 + 1 * l.val; rw [e92]; omega

/-- An entry of the [25, 8, 128] array is in point `t`'s slab iff each coordinate is in the slab's range. -/
theorem mem_blk9_9 (t : Fin cfg9.N) (i : S25x8x128.Idx) :
    i ∈ ((cfg9.win 9).blk t).view.set ↔ ∀ a : Fin 3, win9_9.index t a * S1x8x128.size a ≤ (i a).val
      ∧ (i a).val < win9_9.index t a * S1x8x128.size a + S1x8x128.size a := by
  show i ∈ ((View.whole main_v149_2).slice (win9_9.rect t)).set ↔ _
  rw [View.set_slice_whole, Rect.mem_set_unit]
  exact Iff.rfl

/-- Slab `i 0` is written back by point `i 0`. -/
theorem covered9_9 (i : S25x8x128.Idx) :
    ∃ t : Fin cfg9.N, (cfg9.win 9).flush t = true ∧ i ∈ ((cfg9.win 9).blk t).view.set := by
  have hi0 : (i 0).val < 25 := (i 0).isLt
  have hi1 : (i 1).val < 8 := (i 1).isLt
  have hi2 : (i 2).val < 128 := (i 2).isLt
  have hN : cfg9.N = 25 := N_9
  obtain ⟨t, ht⟩ : ∃ t : Fin cfg9.N, t.val = (i 0).val := ⟨⟨(i 0).val, by rw [hN]; exact hi0⟩, rfl⟩
  obtain ⟨-, -, -, -, -, -, -, -, -, -, -, -, -, -, -, -, e80, e81, e82, e90, e91, e92⟩ := index_facts9 t
  refine ⟨t, flush9_9 t, ?_⟩
  rw [mem_blk9_9]
  intro a
  match a with
  | ⟨0, _⟩ => show win9_9.index t (0 : Fin 3) * 1 ≤ (i 0).val ∧ (i 0).val < win9_9.index t (0 : Fin 3) * 1 + 1; rw [e90]; omega
  | ⟨1, _⟩ => show win9_9.index t (1 : Fin 3) * 8 ≤ (i 1).val ∧ (i 1).val < win9_9.index t (1 : Fin 3) * 8 + 8; rw [e91]; omega
  | ⟨2, _⟩ => show win9_9.index t (2 : Fin 3) * 128 ≤ (i 2).val ∧ (i 2).val < win9_9.index t (2 : Fin 3) * 128 + 128; rw [e92]; omega

/-- The array the pipeline leaves: `blockSqSums` of the perceptron's output of the region's seven input arrays. -/
theorem final9_9 (c : Dev nD) :
    (dat9 V c).arrAt 9 cfg9.N = blockSqSums (mlpZ (V c main_v113) (V c main_v135) (V c main_v138) (V c main_v140) (V c main_v143) (V c main_v145) (V c main_v148)) :=
  (dat9 V c).arrAt_eq_of_cover 9 (blockSqSums (mlpZ (V c main_v113) (V c main_v135) (V c main_v138) (V c main_v140) (V c main_v143) (V c main_v145) (V c main_v148)))
    (fun t _ => flushed9_9_eq V c t) covered9_9

end Cert.KernelIdeal.Region

end
-- ==== Proof.Region.R10.lean ====
/-
  Region 10: the array the row-blocked normalisation leaves, as one function of the arrays it reads.

  The region sweeps 25 grid points. At point `t` it reads rows `2000·t … 2000·t + 1999` of the two node arrays
  (50000 × 128 each), the four per-channel rows (1 × 128 each, the same block at every point), and writes back
  rows `2000·t … 2000·t + 1999` of the result. The body is pointwise: the entry at local row `p`, channel `q`
  depends only on the two node entries at `(p, q)` and on the four rows at channel `q`. Since local row `p` of
  block `t` is global row `2000·t + p`, every written block is the corresponding block of `Spec.normRes` of the
  whole arrays; and since every row `r` lies in block `r / 2000`, the 25 blocks cover the result.
-/
import proofs.«105345_j19885698580760_2_alg».proof.Proof.Spec.NormRes
import proofs.«105345_j19885698580760_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region

open Cert.KernelIdeal Idealize.ShloMosaic Idealize.ShloMosaic.TcCoe Idealize.SL.Sem Idealize.ShloMosaic.ValueIdx
open Idealize.ShloMosaic.Pipeline (Dat)

-- The buffer contents of the core when the region is entered: every statement below is at this parameter.
variable (V : (c : Dev nD) → (b : Ref sig .tc) → Buf (Elt Ideal) ((c : Thread nD τ).loc b))

/-- Zero offsets on both axes, however the zeros are spelt. -/
theorem zeroOff10 : (![0, 0] : Fin 2 → Nat) = fun _ => 0 := funext fun a => by fin_cases a <;> rfl

/-! ## The body at one entry of a block -/

/-- The reciprocal root of a vector, at an index, is the reciprocal root of its entry. -/
theorem rsqrt_at10 {s : Shape} {φ : FTy} (a : FVec Ideal s φ) (i : s.Idx) : rsqrt a i = Ideal.rsqrt (a i) := rfl

/-- The body's value at local row `p`, channel `q`: the centred entry times the reciprocal root of the shifted
    variance, times the gain, plus the shift, plus the residual, then the maximum with zero. Each per-channel
    row, broadcast over the block's 2000 rows, is read at its row 0 and channel `q`. -/
theorem body10_ix2 (x0 xh : Vec Ideal S2000x128 .f32) (xmean xvar xg xb : Vec Ideal S1x128 .f32) (p : Fin 2000) (q : Fin 128) :
    Gen.k10_pay1 (F := Ideal) x0 xvar xmean xg xb xh (ix2 p q)
      = max ((x0 (ix2 p q) - xmean (ix2 (0 : Fin 1) q)) * Ideal.rsqrt (xvar (ix2 (0 : Fin 1) q) + Ideal.ofBits .f32 0x3727C5AC#32)
                * xg (ix2 (0 : Fin 1) q) + xb (ix2 (0 : Fin 1) q) + xh (ix2 p q)) 0 := by
  unfold Gen.k10_pay1
  simp only [shapeCast_self]
  simp only [maximumf_apply, addf_apply, mulf_apply, subf_apply, broadcast_apply, broadcastTo_1b_ab_apply, rsqrt_at10]
  simp only [Ideal.ofBits_def, Ideal.ofBits_zero_f32]

/-- The body at an entry of a block is `Spec.normRes` of the whole arrays at the entry's place in them, as soon
    as the two node blocks agree with the node arrays there (`hz`, `hh`), the four rows are the whole
    per-channel arrays, and the place has the entry's channel (`hcol`). -/
theorem body10_eq (Z H : S50000x128.Idx → EReal) (Mn Vr Gn Bs : S1x128.Idx → EReal)
    (x0 xh : Vec Ideal S2000x128 .f32) (xmean xvar xg xb : Vec Ideal S1x128 .f32)
    (y : S2000x128.Idx) (i : S50000x128.Idx)
    (hz : x0 y = Z i) (hh : xh y = H i) (hm : xmean = Mn) (hv : xvar = Vr) (hg : xg = Gn) (hb : xb = Bs)
    (hcol : (i 1).val = (y 1).val) :
    Gen.k10_pay1 (F := Ideal) x0 xvar xmean xg xb xh y = Spec.normRes Z H Mn Vr Gn Bs i := by
  subst hm hv hg hb
  obtain ⟨p, q, rfl⟩ : ∃ (p : Fin 2000) (q : Fin 128), y = ix2 p q := ⟨y 0, y 1, eq_ix2 y⟩
  obtain ⟨r, k, rfl⟩ : ∃ (r : Fin 50000) (k : Fin 128), i = ix2 r k := ⟨i 0, i 1, eq_ix2 i⟩
  obtain rfl : k = q := Fin.ext hcol
  rw [body10_ix2, Spec.normRes_ix2, hz, hh]

/-! ## Where each block sits in its array -/

/-- The block indices at grid point `t`, decided over the 25 points: the two node windows and the result window are
    at row block `t`, column block 0; the four per-channel windows stay at block (0, 0). -/
theorem blockIdx10 : ∀ t : Fin cfg10.N,
      win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

/-- A node block's entry `(p, q)` at point `t` is the node array's entry at row `2000·t + p`, channel `q`:
    the first node window. -/
theorem nodeBlock10_0 (c : Dev nD) (t : Fin cfg10.N) (y : S2000x128.Idx) (i : S50000x128.Idx)
    (h0 : (i 0).val = t.val * 2000 + (y 0).val) (h1 : (i 1).val = (y 1).val) :
    (Gen.iblk10 (F := Ideal) V c 0 t : Vec Ideal S2000x128 .f32) y = (V c main_v149_0 : S50000x128.Idx → EReal) i := by
  obtain ⟨e00, e01, -⟩ := blockIdx10 t
  unfold Gen.iblk10
  rw [View.read_apply]
  show V c main_v149_0 _ = V c main_v149_0 _
  congr 1
  funext a
  apply Fin.ext
  match a with
  | ⟨0, _⟩ => show win10_0.index t (0 : Fin 2) * 2000 + 1 * (y 0).val = (i 0).val; rw [e00, h0]; omega
  | ⟨1, _⟩ => show win10_0.index t (1 : Fin 2) * 128 + 1 * (y 1).val = (i 1).val; rw [e01, h1]; omega

/-- The same for the second node window (the residual). -/
theorem nodeBlock10_1 (c : Dev nD) (t : Fin cfg10.N) (y : S2000x128.Idx) (i : S50000x128.Idx)
    (h0 : (i 0).val = t.val * 2000 + (y 0).val) (h1 : (i 1).val = (y 1).val) :
    (Gen.iblk10 (F := Ideal) V c 1 t : Vec Ideal S2000x128 .f32) y = (V c main_v113 : S50000x128.Idx → EReal) i := by
  obtain ⟨-, -, e10, e11, -⟩ := blockIdx10 t
  unfold Gen.iblk10
  rw [View.read_apply]
  show V c main_v113 _ = V c main_v113 _
  congr 1
  funext a
  apply Fin.ext
  match a with
  | ⟨0, _⟩ => show win10_1.index t (0 : Fin 2) * 2000 + 1 * (y 0).val = (i 0).val; rw [e10, h0]; omega
  | ⟨1, _⟩ => show win10_1.index t (1 : Fin 2) * 128 + 1 * (y 1).val = (i 1).val; rw [e11, h1]; omega

/-- A per-channel window's block, at every point, is its whole 1 × 128 array: block (0, 0) of one block. -/
theorem rowBlock10_2 (c : Dev nD) (t : Fin cfg10.N) :
    (Gen.iblk10 (F := Ideal) V c 2 t : Vec Ideal S1x128 .f32) = (V c main_v158 : S1x128.Idx → EReal) := by
  obtain ⟨-, -, -, -, e0, e1, -⟩ := blockIdx10 t
  funext y
  unfold Gen.iblk10
  rw [View.read_apply]
  show V c main_v158 _ = V c main_v158 _
  congr 1
  funext a
  apply Fin.ext
  match a with
  | ⟨0, _⟩ => show win10_2.index t (0 : Fin 2) * 1 + 1 * (y 0).val = (y 0).val; rw [e0]; omega
  | ⟨1, _⟩ => show win10_2.index t (1 : Fin 2) * 128 + 1 * (y 1).val = (y 1).val; rw [e1]; omega

theorem rowBlock10_3 (c : Dev nD) (t : Fin cfg10.N) :
    (Gen.iblk10 (F := Ideal) V c 3 t : Vec Ideal S1x128 .f32) = (V c main_v159 : S1x128.Idx → EReal) := by
  obtain ⟨-, -, -, -, -, -, e0, e1, -⟩ := blockIdx10 t
  funext y
  unfold Gen.iblk10
  rw [View.read_apply]
  show V c main_v159 _ = V c main_v159 _
  congr 1
  funext a
  apply Fin.ext
  match a with
  | ⟨0, _⟩ => show win10_3.index t (0 : Fin 2) * 1 + 1 * (y 0).val = (y 0).val; rw [e0]; omega
  | ⟨1, _⟩ => show win10_3.index t (1 : Fin 2) * 128 + 1 * (y 1).val = (y 1).val; rw [e1]; omega

theorem rowBlock10_4 (c : Dev nD) (t : Fin cfg10.N) :
    (Gen.iblk10 (F := Ideal) V c 4 t : Vec Ideal S1x128 .f32) = (V c main_v162 : S1x128.Idx → EReal) := by
  obtain ⟨-, -, -, -, -, -, -, -, e0, e1, -⟩ := blockIdx10 t
  funext y
  unfold Gen.iblk10
  rw [View.read_apply]
  show V c main_v162 _ = V c main_v162 _
  congr 1
  funext a
  apply Fin.ext
  match a with
  | ⟨0, _⟩ => show win10_4.index t (0 : Fin 2) * 1 + 1 * (y 0).val = (y 0).val; rw [e0]; omega
  | ⟨1, _⟩ => show win10_4.index t (1 : Fin 2) * 128 + 1 * (y 1).val = (y 1).val; rw [e1]; omega

theorem rowBlock10_5 (c : Dev nD) (t : Fin cfg10.N) :
    (Gen.iblk10 (F := Ideal) V c 5 t : Vec Ideal S1x128 .f32) = (V c main_v165 : S1x128.Idx → EReal) := by
  obtain ⟨-, -, -, -, -, -, -, -, -, -, e0, e1, -⟩ := blockIdx10 t
  funext y
  unfold Gen.iblk10
  rw [View.read_apply]
  show V c main_v165 _ = V c main_v165 _
  congr 1
  funext a
  apply Fin.ext
  match a with
  | ⟨0, _⟩ => show win10_5.index t (0 : Fin 2) * 1 + 1 * (y 0).val = (y 0).val; rw [e0]; omega
  | ⟨1, _⟩ => show win10_5.index t (1 : Fin 2) * 128 + 1 * (y 1).val = (y 1).val; rw [e1]; omega

/-! ## What each point writes back, and the whole array -/

/-- What point `t` writes back is block `t` of `Spec.normRes` of the arrays as the region finds them. -/
theorem written10 (c : Dev nD) (t : Fin cfg10.N) :
    (Gen.dat10 (F := Ideal) V c).flushed 6 t
      = ((cfg10.win 6).blk t).view.read (Elt Ideal)
          (Spec.normRes (V c main_v149_0) (V c main_v113) (V c main_v158) (V c main_v159) (V c main_v162) (V c main_v165)) := by
  show (cfg10.win 6).cut (grid10.coords t) ((Gen.dat10 (F := Ideal) V c).after 6 t) = _
  rw [Gen.after10_6]
  unfold Gen.out10_6
  rw [View.canon_unit_zero zeroOff10]
  simp only [View.ld_unit_zero (S := S2000x128) zeroOff10, View.ld_unit_zero (S := S1x128) zeroOff10]
  obtain ⟨-, -, -, -, -, -, -, -, -, -, -, -, e60, e61⟩ := blockIdx10 t
  funext j
  rw [View.read_apply]
  have hj0 : (j 0).val < 2000 := (j 0).isLt
  have hj1 : (j 1).val < 128 := (j 1).isLt
  have hr : ((((cfg10.win 6).blk t).view.emb j : S50000x128.Idx) 0).val = t.val * 2000 + (j 0).val := by
    show win10_6.index t (0 : Fin 2) * 2000 + 1 * (j 0).val = _; rw [e60]; omega
  have hk : ((((cfg10.win 6).blk t).view.emb j : S50000x128.Idx) 1).val = (j 1).val := by
    show win10_6.index t (1 : Fin 2) * 128 + 1 * (j 1).val = _; rw [e61]; omega
  exact body10_eq (V c main_v149_0) (V c main_v113) (V c main_v158) (V c main_v159) (V c main_v162) (V c main_v165)
    (Gen.iblk10 (F := Ideal) V c 0 t) (Gen.iblk10 (F := Ideal) V c 1 t) (Gen.iblk10 (F := Ideal) V c 2 t)
    (Gen.iblk10 (F := Ideal) V c 3 t) (Gen.iblk10 (F := Ideal) V c 4 t) (Gen.iblk10 (F := Ideal) V c 5 t)
    j (((cfg10.win 6).blk t).view.emb j)
    (nodeBlock10_0 V c t j _ hr hk) (nodeBlock10_1 V c t j _ hr hk)
    (rowBlock10_2 V c t) (rowBlock10_3 V c t) (rowBlock10_4 V c t) (rowBlock10_5 V c t) hk

/-- An index of the result is in point `t`'s block iff each coordinate is in the block's range on its axis. -/
theorem inBlock10 (t : Fin cfg10.N) (i : S50000x128.Idx) :
    i ∈ ((cfg10.win 6).blk t).view.set ↔ ∀ a : Fin 2, win10_6.index t a * S2000x128.size a ≤ (i a).val ∧ (i a).val < win10_6.index t a * S2000x128.size a + S2000x128.size a := by
  show i ∈ ((View.whole main_v166).slice (win10_6.rect t)).set ↔ _
  rw [View.set_slice_whole, Rect.mem_set_unit]
  exact Iff.rfl

/-- Every index of the result is written by some point: row `r` lies in block `r / 2000`. -/
theorem covered10 (i : S50000x128.Idx) :
    ∃ t : Fin cfg10.N, (cfg10.win 6).flush t = true ∧ i ∈ ((cfg10.win 6).blk t).view.set := by
  have hi0 : (i 0).val < 50000 := (i 0).isLt
  have hi1 : (i 1).val < 128 := (i 1).isLt
  have hN : cfg10.N = 25 := Gen.N_10
  have hlt : (i 0).val / 2000 < cfg10.N := by rw [hN]; omega
  obtain ⟨-, -, -, -, -, -, -, -, -, -, -, -, e60, e61⟩ := blockIdx10 ⟨(i 0).val / 2000, hlt⟩
  refine ⟨⟨(i 0).val / 2000, hlt⟩, Gen.flush10_6 _, ?_⟩
  rw [inBlock10]
  intro a
  match a with
  | ⟨0, _⟩ =>
    show win10_6.index ⟨(i 0).val / 2000, hlt⟩ (0 : Fin 2) * 2000 ≤ (i 0).val ∧ (i 0).val < win10_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win10_6.index ⟨(i 0).val / 2000, hlt⟩ (1 : Fin 2) * 128 ≤ (i 1).val ∧ (i 1).val < win10_6.index ⟨(i 0).val / 2000, hlt⟩ (1 : Fin 2) * 128 + 128
    rw [e61]
    omega

/-- THE ARRAY the region leaves in its result buffer: `Spec.normRes` of the arrays it read, as it found them. -/
theorem final10_6 (c : Dev nD) :
    (Gen.dat10 (F := Ideal) V c).arrAt 6 cfg10.N
      = Spec.normRes (V c main_v149_0) (V c main_v113) (V c main_v158) (V c main_v159) (V c main_v162) (V c main_v165) :=
  (Gen.dat10 (F := Ideal) V c).arrAt_eq_of_cover 6
    (Spec.normRes (V c main_v149_0) (V c main_v113) (V c main_v158) (V c main_v159) (V c main_v162) (V c main_v165))
    (fun t _ => written10 V c t) (covered10)

end Cert.KernelIdeal.Region

end
-- ==== Proof.K.Chain4.lean ====
/-
  What the kernel program's buffers hold at the boundaries W17 … W22 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.K.Keep2
import proofs.«105345_j19885698580760_2_alg».proof.Proof.K.Keep3
import proofs.«105345_j19885698580760_2_alg».proof.Proof.K.Keep4
import proofs.«105345_j19885698580760_2_alg».proof.Proof.K.Chain3
import proofs.«105345_j19885698580760_2_alg».proof.Proof.Region.R8
import proofs.«105345_j19885698580760_2_alg».proof.Proof.Region.R9
import proofs.«105345_j19885698580760_2_alg».proof.Proof.Region.R10

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v115 : W17 m ρ c (Proc.devRef .tc main_v115) = par_lin_w 2 (argsOf m c).lin_w :=
  (KHost.s8_v115 (W16 m ρ c)).trans (by
    rw [show W16 m ρ c (Proc.devRef .tc main_arg9) = (argsOf m c).lin_w from ((keep_arg9_16_10 m ρ c).trans ((keep_arg9_10_4 m ρ c).trans (keep_arg9_4_0 m ρ c)))]
    try rfl)

theorem val_v118 : W17 m ρ c (Proc.devRef .tc main_v118) = par_row128 2 (argsOf m c).lin_b :=
  (KHost.s8_v118 (W16 m ρ c)).trans (by
    rw [show W16 m ρ c (Proc.devRef .tc main_arg10) = (argsOf m c).lin_b from ((keep_arg10_16_10 m ρ c).trans ((keep_arg10_10_4 m ρ c).trans (keep_arg10_4_0 m ρ c)))]
    try rfl)

theorem val_v119 : W18 m ρ c (Proc.devRef .tc main_v119) = KVal.el (argsOf m c) 2 :=
  calc W18 m ρ c (Proc.devRef .tc main_v119) = (dat8 (V17 m ρ) c).arrAt 3 cfg8.N := W18_arr m ρ c 3
    _ = _ := Region.final8_3 (V17 m ρ) c
    _ = KVal.el (argsOf m c) 2 := by
      rw [show V17 m ρ c main_v7 = KVal.e (argsOf m c) from (((keep_v7_17_16 m ρ c).trans ((keep_v7_16_10 m ρ c).trans (keep_v7_10_4 m ρ c))).trans (val_v7 m ρ c)),
        show V17 m ρ c main_v115 = par_lin_w 2 (argsOf m c).lin_w from (val_v115 m ρ c),
        show V17 m ρ c main_v118 = par_row128 2 (argsOf m c).lin_b from (val_v118 m ρ c)]
      try rfl

theorem val_v135 : W19 m ρ c (Proc.devRef .tc main_v135) = KVal.aggOf (argsOf m c) 2 (KVal.h2 (argsOf m c)) :=
  (KHost.s9_v135 (W18 m ρ c)).trans (by
    rw [show W18 m ρ c (Proc.devRef .tc main_v113) = KVal.h2 (argsOf m c) from ((keep_v113_18_16 m ρ c).trans (val_v113 m ρ c)),
      show W18 m ρ c (Proc.devRef .tc main_v119) = KVal.el (argsOf m c) 2 from (val_v119 m ρ c),
      show W18 m ρ c (Proc.devRef .tc main_v1) = src_row (argsOf m c).ei from (((keep_v1_18_16 m ρ c).trans ((keep_v1_16_10 m ρ c).trans ((keep_v1_10_4 m ρ c).trans (keep_v1_4_1 m ρ c)))).trans (val_v1 m ρ c)),
      show W18 m ρ c (Proc.devRef .tc main_v3) = dst_row (argsOf m c).ei from (((keep_v3_18_16 m ρ c).trans ((keep_v3_16_10 m ρ c).trans ((keep_v3_10_4 m ρ c).trans (keep_v3_4_1 m ρ c)))).trans (val_v3 m ρ c))]
    try rfl)

theorem val_v138 : W19 m ρ c (Proc.devRef .tc main_v138) = par_eps 2 (argsOf m c).eps :=
  (KHost.s9_v138 (W18 m ρ c)).trans (by
    rw [show W18 m ρ c (Proc.devRef .tc main_arg8) = (argsOf m c).eps from ((keep_arg8_18_16 m ρ c).trans ((keep_arg8_16_10 m ρ c).trans ((keep_arg8_10_4 m ρ c).trans (keep_arg8_4_0 m ρ c))))]
    try rfl)

theorem val_v140 : W19 m ρ c (Proc.devRef .tc main_v140) = par_w1 2 (argsOf m c).w1 :=
  (KHost.s9_v140 (W18 m ρ c)).trans (by
    rw [show W18 m ρ c (Proc.devRef .tc main_arg11) = (argsOf m c).w1 from ((keep_arg11_18_16 m ρ c).trans ((keep_arg11_16_10 m ρ c).trans ((keep_arg11_10_4 m ρ c).trans (keep_arg11_4_0 m ρ c))))]
    try rfl)

theorem val_v143 : W19 m ρ c (Proc.devRef .tc main_v143) = par_b1 2 (argsOf m c).b1 :=
  (KHost.s9_v143 (W18 m ρ c)).trans (by
    rw [show W18 m ρ c (Proc.devRef .tc main_arg12) = (argsOf m c).b1 from ((keep_arg12_18_16 m ρ c).trans ((keep_arg12_16_10 m ρ c).trans ((keep_arg12_10_4 m ρ c).trans (keep_arg12_4_0 m ρ c))))]
    try rfl)

theorem val_v145 : W19 m ρ c (Proc.devRef .tc main_v145) = par_w2 2 (argsOf m c).w2 :=
  (KHost.s9_v145 (W18 m ρ c)).trans (by
    rw [show W18 m ρ c (Proc.devRef .tc main_arg13) = (argsOf m c).w2 from ((keep_arg13_18_16 m ρ c).trans ((keep_arg13_16_10 m ρ c).trans ((keep_arg13_10_4 m ρ c).trans (keep_arg13_4_0 m ρ c))))]
    try rfl)

theorem val_v148 : W19 m ρ c (Proc.devRef .tc main_v148) = par_row128 2 (argsOf m c).b2 :=
  (KHost.s9_v148 (W18 m ρ c)).trans (by
    rw [show W18 m ρ c (Proc.devRef .tc main_arg14) = (argsOf m c).b2 from ((keep_arg14_18_16 m ρ c).trans ((keep_arg14_16_10 m ρ c).trans ((keep_arg14_10_4 m ρ c).trans (keep_arg14_4_0 m ρ c))))]
    try rfl)

theorem val_v149_0 : W20 m ρ c (Proc.devRef .tc main_v149_0) = KVal.zOf (argsOf m c) 2 (KVal.h2 (argsOf m c)) :=
  calc W20 m ρ c (Proc.devRef .tc main_v149_0) = (dat9 (V19 m ρ) c).arrAt 7 cfg9.N := W20_arr m ρ c 7
    _ = _ := Region.final9_7 (V19 m ρ) c
    _ = KVal.zOf (argsOf m c) 2 (KVal.h2 (argsOf m c)) := by
      rw [show V19 m ρ c main_v113 = KVal.h2 (argsOf m c) from ((keep_v113_19_16 m ρ c).trans (val_v113 m ρ c)),
        show V19 m ρ c main_v135 = KVal.aggOf (argsOf m c) 2 (KVal.h2 (argsOf m c)) from (val_v135 m ρ c),
        show V19 m ρ c main_v138 = par_eps 2 (argsOf m c).eps from (val_v138 m ρ c),
        show V19 m ρ c main_v140 = par_w1 2 (argsOf m c).w1 from (val_v140 m ρ c),
        show V19 m ρ c main_v143 = par_b1 2 (argsOf m c).b1 from (val_v143 m ρ c),
        show V19 m ρ c main_v145 = par_w2 2 (argsOf m c).w2 from (val_v145 m ρ c),
        show V19 m ρ c main_v148 = par_row128 2 (argsOf m c).b2 from (val_v148 m ρ c)]
      try rfl

theorem val_v149_1 : W20 m ρ c (Proc.devRef .tc main_v149_1) = Cert.Spec.blockSums (KVal.zOf (argsOf m c) 2 (KVal.h2 (argsOf m c))) :=
  calc W20 m ρ c (Proc.devRef .tc main_v149_1) = (dat9 (V19 m ρ) c).arrAt 8 cfg9.N := W20_arr m ρ c 8
    _ = _ := Region.final9_8 (V19 m ρ) c
    _ = Cert.Spec.blockSums (KVal.zOf (argsOf m c) 2 (KVal.h2 (argsOf m c))) := by
      rw [show V19 m ρ c main_v113 = KVal.h2 (argsOf m c) from ((keep_v113_19_16 m ρ c).trans (val_v113 m ρ c)),
        show V19 m ρ c main_v135 = KVal.aggOf (argsOf m c) 2 (KVal.h2 (argsOf m c)) from (val_v135 m ρ c),
        show V19 m ρ c main_v138 = par_eps 2 (argsOf m c).eps from (val_v138 m ρ c),
        show V19 m ρ c main_v140 = par_w1 2 (argsOf m c).w1 from (val_v140 m ρ c),
        show V19 m ρ c main_v143 = par_b1 2 (argsOf m c).b1 from (val_v143 m ρ c),
        show V19 m ρ c main_v145 = par_w2 2 (argsOf m c).w2 from (val_v145 m ρ c),
        show V19 m ρ c main_v148 = par_row128 2 (argsOf m c).b2 from (val_v148 m ρ c)]
      try rfl

theorem val_v158 : W21 m ρ c (Proc.devRef .tc main_v158) = KVal.meanRow (argsOf m c) 2 (KVal.h2 (argsOf m c)) :=
  (KHost.s10_v158 (W20 m ρ c)).trans (by
    rw [show W20 m ρ c (Proc.devRef .tc main_v149_1) = Cert.Spec.blockSums (KVal.zOf (argsOf m c) 2 (KVal.h2 (argsOf m c))) from (val_v149_1 m ρ c)]
    try rfl)

theorem val_v149_2 : W20 m ρ c (Proc.devRef .tc main_v149_2) = Cert.Spec.blockSqSums (KVal.zOf (argsOf m c) 2 (KVal.h2 (argsOf m c))) :=
  calc W20 m ρ c (Proc.devRef .tc main_v149_2) = (dat9 (V19 m ρ) c).arrAt 9 cfg9.N := W20_arr m ρ c 9
    _ = _ := Region.final9_9 (V19 m ρ) c
    _ = Cert.Spec.blockSqSums (KVal.zOf (argsOf m c) 2 (KVal.h2 (argsOf m c))) := by
      rw [show V19 m ρ c main_v113 = KVal.h2 (argsOf m c) from ((keep_v113_19_16 m ρ c).trans (val_v113 m ρ c)),
        show V19 m ρ c main_v135 = KVal.aggOf (argsOf m c) 2 (KVal.h2 (argsOf m c)) from (val_v135 m ρ c),
        show V19 m ρ c main_v138 = par_eps 2 (argsOf m c).eps from (val_v138 m ρ c),
        show V19 m ρ c main_v140 = par_w1 2 (argsOf m c).w1 from (val_v140 m ρ c),
        show V19 m ρ c main_v143 = par_b1 2 (argsOf m c).b1 from (val_v143 m ρ c),
        show V19 m ρ c main_v145 = par_w2 2 (argsOf m c).w2 from (val_v145 m ρ c),
        show V19 m ρ c main_v148 = par_row128 2 (argsOf m c).b2 from (val_v148 m ρ c)]
      try rfl

theorem val_v159 : W21 m ρ c (Proc.devRef .tc main_v159) = KVal.varRow (argsOf m c) 2 (KVal.h2 (argsOf m c)) :=
  (KHost.s10_v159 (W20 m ρ c)).trans (by
    rw [show W20 m ρ c (Proc.devRef .tc main_v149_1) = Cert.Spec.blockSums (KVal.zOf (argsOf m c) 2 (KVal.h2 (argsOf m c))) from (val_v149_1 m ρ c),
      show W20 m ρ c (Proc.devRef .tc main_v149_2) = Cert.Spec.blockSqSums (KVal.zOf (argsOf m c) 2 (KVal.h2 (argsOf m c))) from (val_v149_2 m ρ c)]
    try rfl)

theorem val_v162 : W21 m ρ c (Proc.devRef .tc main_v162) = par_row128 2 (argsOf m c).g :=
  (KHost.s10_v162 (W20 m ρ c)).trans (by
    rw [show W20 m ρ c (Proc.devRef .tc main_arg15) = (argsOf m c).g from ((keep_arg15_20_16 m ρ c).trans ((keep_arg15_16_10 m ρ c).trans ((keep_arg15_10_4 m ρ c).trans (keep_arg15_4_0 m ρ c))))]
    try rfl)

theorem val_v165 : W21 m ρ c (Proc.devRef .tc main_v165) = par_row128 2 (argsOf m c).b :=
  (KHost.s10_v165 (W20 m ρ c)).trans (by
    rw [show W20 m ρ c (Proc.devRef .tc main_arg16) = (argsOf m c).b from ((keep_arg16_20_16 m ρ c).trans ((keep_arg16_16_10 m ρ c).trans ((keep_arg16_10_4 m ρ c).trans (keep_arg16_4_0 m ρ c))))]
    try rfl)

theorem val_v166 : W22 m ρ c (Proc.devRef .tc main_v166) = KVal.h3 (argsOf m c) :=
  calc W22 m ρ c (Proc.devRef .tc main_v166) = (dat10 (V21 m ρ) c).arrAt 6 cfg10.N := W22_arr m ρ c 6
    _ = _ := Region.final10_6 (V21 m ρ) c
    _ = KVal.h3 (argsOf m c) := by
      rw [show V21 m ρ c main_v149_0 = KVal.zOf (argsOf m c) 2 (KVal.h2 (argsOf m c)) from ((keep_v149_0_21_20 m ρ c).trans (val_v149_0 m ρ c)),
        show V21 m ρ c main_v113 = KVal.h2 (argsOf m c) from ((keep_v113_21_16 m ρ c).trans (val_v113 m ρ c)),
        show V21 m ρ c main_v158 = KVal.meanRow (argsOf m c) 2 (KVal.h2 (argsOf m c)) from (val_v158 m ρ c),
        show V21 m ρ c main_v159 = KVal.varRow (argsOf m c) 2 (KVal.h2 (argsOf m c)) from (val_v159 m ρ c),
        show V21 m ρ c main_v162 = par_row128 2 (argsOf m c).g from (val_v162 m ρ c),
        show V21 m ρ c main_v165 = par_row128 2 (argsOf m c).b from (val_v165 m ρ c)]
      try rfl

end Cert.KernelIdeal.KChain

end
-- ==== Proof.Region.R11.lean ====
/-
  The value of kernel region 11: the fourth layer's edge projection, `e · lin_w[3] + lin_b[3]` on the 640000 × 128
  encoded edge features.

  The region walks the 640000 rows of `x` in 64 blocks of 10000 rows; the weight matrix and the one-row bias are
  staged whole at every point. At a point the body leaves in the output block the block product of the `x` block
  with `w`, accumulated from zero, plus the bias row added to every row (the shape casts of the operands are to their
  own shapes, and changes of float format are the identity on extended reals). Entry `(r, c)` of that block is
  therefore `∑ k, x (10000 t + r, k) * w (k, c) + b (0, c)`, which is entry `(10000 t + r, c)` of `Spec.affine x w b`: an
  entry of an affine map depends on one row of `x` only, so a row block of the result is the affine map of the row
  block. The 64 blocks tile the rows (row `R` lies in block `R / 10000`), so the array the region leaves is
  `Spec.affine x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R11

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S10000x128_S128x128_S10000x128_1_0_0_1_n_n := ⟨rfl, rfl, rfl, rfl, rfl, rfl⟩

/-- The body's stored value at entry `(r, c)` of the block, from the three loaded blocks. -/
theorem pay_apply (x0 : Vec Ideal S10000x128 .bf16) (x1 : Vec Ideal S128x128 .f32) (x2 : Vec Ideal S1x128 .f32)
    (r : Fin 10000) (c : Fin 128) :
    k11_pay1 (F := Ideal) x0 x1 x2 (ix2 r c) = Spec.affine x0 x1 x2 (ix2 r c) := by
  unfold k11_pay1
  show (matmul (F := Ideal) dot_S10000x128_S128x128_S10000x128_1_0_0_1_n_n none
      (shapeCast S10000x128 x0 shapeCasts_S10000x128_S10000x128)
      (truncf (F := Ideal) .bf16 (shapeCast S128x128 x1 shapeCasts_S128x128_S128x128) bitsLt_bf16_f32)
      (constant (F := Ideal) S10000x128 .f32 0x00000000#32)) (ix2 r c)
      + broadcastTo S10000x128 (shapeCast S1x128 x2 shapeCasts_S1x128_S1x128) broadcasts_S1x128_S10000x128 (ix2 r c) = _
  simp only [shapeCast_self]
  refine congrArg₂ (· + ·) ?_ ?_
  · exact plainDot.matmul_zero_apply none _ _ r c
  · exact broadcastTo_1b_ab_apply x2 broadcasts_S1x128_S10000x128 r c

/-- The windows' index maps over the grid: `x` and the output move one row block per point, the weights and the
    bias stay at block (0, 0). -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- An index of the output array is in point `t`'s block iff each coordinate is in the block's range on its axis. -/
theorem mem_blk (t : Fin cfg11.N) (i : S640000x128.Idx) :
    i ∈ ((cfg11.win 3).blk t).view.set ↔ ∀ a : Fin 2, win11_3.index t a * S10000x128.size a ≤ (i a).val ∧ (i a).val < win11_3.index t a * S10000x128.size a + S10000x128.size a := by
  show i ∈ ((View.whole main_v172).slice (win11_3.rect t)).set ↔ _
  rw [View.set_slice_whole, Rect.mem_set_unit]
  exact Iff.rfl

/-- Every entry of the output array is in the block of the point its row names: row `R` is in block `R / 10000`. -/
theorem cover (i : S640000x128.Idx) : ∃ t : Fin cfg11.N, (cfg11.win 3).flush t = true ∧ i ∈ ((cfg11.win 3).blk t).view.set := by
  have hi0 : (i 0).val < 640000 := (i 0).isLt
  have hi1 : (i 1).val < 128 := (i 1).isLt
  have hN : cfg11.N = 64 := N_11
  obtain ⟨t, ht⟩ : ∃ t : Fin cfg11.N, t.val = (i 0).val / 10000 := ⟨⟨(i 0).val / 10000, by rw [hN]; omega⟩, rfl⟩
  obtain ⟨-, -, -, -, -, -, e6, e7⟩ := idx_facts t
  refine ⟨t, flush11_3 t, ?_⟩
  rw [mem_blk]
  intro a
  match a with
  | ⟨0, _⟩ => show win11_3.index t (0 : Fin 2) * 10000 ≤ (i 0).val ∧ (i 0).val < win11_3.index t (0 : Fin 2) * 10000 + 10000; omega
  | ⟨1, _⟩ => show win11_3.index t (1 : Fin 2) * 128 ≤ (i 1).val ∧ (i 1).val < win11_3.index t (1 : Fin 2) * 128 + 128; omega

/-- The `x` block at point `t` is rows `10000 t … 10000 t + 9999` of the array. -/
theorem xblk_apply (c : Dev nD) (t : Fin cfg11.N) (r : Fin 10000) (k : Fin 128) (R : Fin 640000) (hR : R.val = t.val * 10000 + r.val) :
    (iblk11 V c 0 t : Vec Ideal S10000x128 .bf16) (ix2 r k) = (V c main_v7 : S640000x128.Idx → EReal) (ix2 R k) := by
  obtain ⟨e0, e1, -⟩ := idx_facts t
  show V c main_v7 (((cfg11.win 0).blk t).view.emb (ix2 r k)) = V c main_v7 (ix2 R k)
  refine congrArg (V c main_v7) (funext fun a => Fin.ext ?_)
  match a with
  | ⟨0, _⟩ => show win11_0.index t (0 : Fin 2) * 10000 + 1 * r.val = R.val; omega
  | ⟨1, _⟩ => show win11_0.index t (1 : Fin 2) * 128 + 1 * k.val = k.val; omega

/-- The weight block at every point is the whole matrix. -/
theorem wblk_apply (c : Dev nD) (t : Fin cfg11.N) (k : Fin 128) (cc : Fin 128) :
    (iblk11 V c 1 t : Vec Ideal S128x128 .f32) (ix2 k cc) = (V c main_v168 : S128x128.Idx → EReal) (ix2 k cc) := by
  obtain ⟨-, -, e2, e3, -⟩ := idx_facts t
  show V c main_v168 (((cfg11.win 1).blk t).view.emb (ix2 k cc)) = V c main_v168 (ix2 k cc)
  refine congrArg (V c main_v168) (funext fun a => Fin.ext ?_)
  match a with
  | ⟨0, _⟩ => show win11_1.index t (0 : Fin 2) * 128 + 1 * k.val = k.val; omega
  | ⟨1, _⟩ => show win11_1.index t (1 : Fin 2) * 128 + 1 * cc.val = cc.val; omega

/-- The bias block at every point is the whole one-row array. -/
theorem bblk_apply (c : Dev nD) (t : Fin cfg11.N) (cc : Fin 128) :
    (iblk11 V c 2 t : Vec Ideal S1x128 .f32) (ix2 0 cc) = (V c main_v171 : S1x128.Idx → EReal) (ix2 0 cc) := by
  obtain ⟨-, -, -, -, e4, e5, -⟩ := idx_facts t
  show V c main_v171 (((cfg11.win 2).blk t).view.emb (ix2 0 cc)) = V c main_v171 (ix2 0 cc)
  refine congrArg (V c main_v171) (funext fun a => Fin.ext ?_)
  match a with
  | ⟨0, _⟩ => show win11_2.index t (0 : Fin 2) * 1 + 1 * (0 : Fin 1).val = (0 : Fin 1).val; rw [e4]; rfl
  | ⟨1, _⟩ => show win11_2.index t (1 : Fin 2) * 128 + 1 * cc.val = cc.val; omega

/-- Entry `(r, c)` of the output block at point `t` sits at row `10000 t + r`, column `c` of the array. -/
theorem oblk_emb (t : Fin cfg11.N) (r : Fin 10000) (cc : Fin 128) :
    ∃ R : Fin 640000, R.val = t.val * 10000 + r.val ∧ ((cfg11.win 3).blk t).view.emb (ix2 r cc) = (ix2 R cc : S640000x128.Idx) := by
  obtain ⟨-, -, -, -, -, -, e6, e7⟩ := idx_facts t
  have hN : cfg11.N = 64 := N_11
  have ht : t.val < 64 := hN ▸ t.isLt
  refine ⟨⟨t.val * 10000 + r.val, by have := r.isLt; omega⟩, rfl, funext fun a => Fin.ext ?_⟩
  match a with
  | ⟨0, _⟩ => show win11_3.index t (0 : Fin 2) * 10000 + 1 * r.val = t.val * 10000 + r.val; omega
  | ⟨1, _⟩ => show win11_3.index t (1 : Fin 2) * 128 + 1 * cc.val = cc.val; omega

/-- One entry of what point `t` leaves in the output block is the same entry of the whole affine map. -/
theorem point_eq (c : Dev nD) (t : Fin cfg11.N) (j : S10000x128.Idx) :
    k11_pay1 (F := Ideal) (iblk11 V c 0 t) (iblk11 V c 1 t) (iblk11 V c 2 t) j
      = Spec.affine (V c main_v7) (V c main_v168) (V c main_v171) (((cfg11.win 3).blk t).view.emb j) := by
  obtain ⟨r, cc, rfl⟩ : ∃ (r : Fin 10000) (cc : Fin 128), j = ix2 r cc := ⟨j 0, j 1, eq_ix2 j⟩
  obtain ⟨R, hR, hemb⟩ := oblk_emb t r cc
  refine ((pay_apply _ _ _ r cc).trans ?_).trans (congrArg (Spec.affine (V c main_v7) (V c main_v168) (V c main_v171)) hemb.symm)
  exact Spec.affine_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg11.N) :
    (dat11 (F := Ideal) V c).flushed 3 t
      = ((cfg11.win 3).blk t).view.read (Elt Ideal) (Spec.affine (V c main_v7) (V c main_v168) (V c main_v171)) := by
  show (cfg11.win 3).cut (grid11.coords t) ((dat11 V c).after 3 t) = _
  rw [after11_3]
  unfold out11_3
  rw [View.canon_unit_zero hz]
  simp only [View.ld_unit_zero (S := S10000x128) hz, View.ld_unit_zero (S := S128x128) hz, View.ld_unit_zero (S := S1x128) hz]
  funext j
  exact point_eq V c t j

end R11

/-- The array region 11 leaves: `x · w + b` of the three arrays it is entered with, whole. -/
theorem final11_3 (V : (c : Dev nD) → (b : Ref sig .tc) → Buf (Elt Ideal) ((c : Thread nD τ).loc b)) (c : Dev nD) :
    (dat11 (F := Ideal) V c).arrAt 3 cfg11.N = Spec.affine (V c main_v7) (V c main_v168) (V c main_v171) :=
  (dat11 (F := Ideal) V c).arrAt_eq_of_cover 3 (Spec.affine (V c main_v7) (V c main_v168) (V c main_v171))
    (fun t _ => R11.flushed_eq V c t) R11.cover

end Cert.KernelIdeal.Region

end
-- ==== Proof.Region.R12.lean ====
/-
  Region 12 of the kernel program: one application of the perceptron over 25 blocks of 2000 rows.

  At grid point `t` the pipeline stages rows `2000 t … 2000 t + 1999` of the feature array and of the aggregated
  messages, and the five small arrays whole; the body writes the block's output back to the same rows of the first
  result, and the block's column sums and column sums of squares to slab `t` of the two [25, 8, 128] results. The 25
  row blocks tile the 50000 rows and the 25 slabs tile the statistics arrays, so after the last point each result is
  one function of the region's seven input arrays: the perceptron's output `mlpZ`, and `blockSums` / `blockSqSums`
  of it.

  Per output window: what a point writes back is the window's block of that function (the block's value read entry by
  entry, each input block read where the window's index map puts it: a block's coordinate is the block index times the
  block size plus the coordinate inside the block); every entry of the array lies in the block of the point that
  covers its row; hence the whole array.
-/
import proofs.«105345_j19885698580760_2_alg».proof.Proof.Spec.Mlp
import proofs.«105345_j19885698580760_2_alg».proof.Proof.Region.MlpBlock
import proofs.«105345_j19885698580760_2_alg».proof.Proof.Gen.KernelIdeal.Frame
import Idealize.ShloMosaic.Lib.Pipeline.Value

noncomputable section

open scoped BigOperators

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The grid and the windows' index maps -/

/-- A grid point as a block number below 25. -/
abbrev pt12 (t : Fin cfg12.N) : Fin 25 := Fin.cast N_12 t

/-- The index maps, decided over the 25 points: the two row-block inputs and the first result move with the point
    along the rows; the five small inputs stay at block (0, 0); the two statistics results move with the point along
    their first axis. -/
theorem index_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = t.val ∧ win12_7.index t (1 : Fin 2) = 0
    ∧ win12_8.index t (0 : Fin 3) = t.val ∧ win12_8.index t (1 : Fin 3) = 0 ∧ win12_8.index t (2 : Fin 3) = 0
    ∧ win12_9.index t (0 : Fin 3) = t.val ∧ win12_9.index t (1 : Fin 3) = 0 ∧ win12_9.index t (2 : Fin 3) = 0 :=
  (by decide +kernel : ∀ t : Fin grid12.N, _)

/-! ## The input windows' blocks as rows of the arrays the region finds -/

/-- Window 0's block at point `t` is rows `2000 t … 2000 t + 1999` of the feature array. -/
theorem rows12_0 (c : Dev nD) (t : Fin cfg12.N) (r : Fin 2000) (k : Fin 128) :
    (iblk12 V c 0 t : Vec Ideal S2000x128 .f32) (ix2 r k)
      = (V c main_v166 : S50000x128.Idx → EReal) (ix2 (mlpBlockRow (pt12 t) r) k) := by
  obtain ⟨e00, e01, e10, e11, -⟩ := index_facts12 t
  unfold iblk12
  rw [View.read_apply]
  show V c main_v166 _ = V c main_v166 _
  refine congrArg (V c main_v166) ?_
  funext a
  apply Fin.ext
  match a with
  | ⟨0, _⟩ => show win12_0.index t (0 : Fin 2) * 2000 + 1 * r.val = 2000 * t.val + r.val; rw [e00]; omega
  | ⟨1, _⟩ => show win12_0.index t (1 : Fin 2) * 128 + 1 * k.val = k.val; rw [e01]; omega

/-- Window 1's block at point `t` is rows `2000 t … 2000 t + 1999` of the aggregated messages. -/
theorem rows12_1 (c : Dev nD) (t : Fin cfg12.N) (r : Fin 2000) (k : Fin 128) :
    (iblk12 V c 1 t : Vec Ideal S2000x128 .f32) (ix2 r k)
      = (V c main_v188 : S50000x128.Idx → EReal) (ix2 (mlpBlockRow (pt12 t) r) k) := by
  obtain ⟨e00, e01, e10, e11, -⟩ := index_facts12 t
  unfold iblk12
  rw [View.read_apply]
  show V c main_v188 _ = V c main_v188 _
  refine congrArg (V c main_v188) ?_
  funext a
  apply Fin.ext
  match a with
  | ⟨0, _⟩ => show win12_1.index t (0 : Fin 2) * 2000 + 1 * r.val = 2000 * t.val + r.val; rw [e10]; omega
  | ⟨1, _⟩ => show win12_1.index t (1 : Fin 2) * 128 + 1 * k.val = k.val; rw [e11]; omega

/-- Window 2 holds the whole one-entry array holding eps at every point. -/
theorem whole12_2 (c : Dev nD) (t : Fin cfg12.N) :
    (iblk12 V c 2 t : Vec Ideal S1x1 .f32) = (V c main_v191 : S1x1.Idx → EReal) := by
  obtain ⟨-, -, -, -, e20, e21, e30, e31, e40, e41, e50, e51, e60, e61, -⟩ := index_facts12 t
  refine funext fun (y : S1x1.Idx) => ?_
  unfold iblk12
  rw [View.read_apply]
  show V c main_v191 _ = V c main_v191 _
  refine congrArg (V c main_v191) ?_
  funext a
  apply Fin.ext
  match a with
  | ⟨0, _⟩ => show win12_2.index t (0 : Fin 2) * 1 + 1 * (y 0).val = (y 0).val; rw [e20]; omega
  | ⟨1, _⟩ => show win12_2.index t (1 : Fin 2) * 1 + 1 * (y 1).val = (y 1).val; rw [e21]; omega

/-- Window 3 holds the whole first weight matrix at every point. -/
theorem whole12_3 (c : Dev nD) (t : Fin cfg12.N) :
    (iblk12 V c 3 t : Vec Ideal S128x256 .f32) = (V c main_v193 : S128x256.Idx → EReal) := by
  obtain ⟨-, -, -, -, e20, e21, e30, e31, e40, e41, e50, e51, e60, e61, -⟩ := index_facts12 t
  refine funext fun (y : S128x256.Idx) => ?_
  unfold iblk12
  rw [View.read_apply]
  show V c main_v193 _ = V c main_v193 _
  refine congrArg (V c main_v193) ?_
  funext a
  apply Fin.ext
  match a with
  | ⟨0, _⟩ => show win12_3.index t (0 : Fin 2) * 128 + 1 * (y 0).val = (y 0).val; rw [e30]; omega
  | ⟨1, _⟩ => show win12_3.index t (1 : Fin 2) * 256 + 1 * (y 1).val = (y 1).val; rw [e31]; omega

/-- Window 4 holds the whole first bias at every point. -/
theorem whole12_4 (c : Dev nD) (t : Fin cfg12.N) :
    (iblk12 V c 4 t : Vec Ideal S1x256 .f32) = (V c main_v196 : S1x256.Idx → EReal) := by
  obtain ⟨-, -, -, -, e20, e21, e30, e31, e40, e41, e50, e51, e60, e61, -⟩ := index_facts12 t
  refine funext fun (y : S1x256.Idx) => ?_
  unfold iblk12
  rw [View.read_apply]
  show V c main_v196 _ = V c main_v196 _
  refine congrArg (V c main_v196) ?_
  funext a
  apply Fin.ext
  match a with
  | ⟨0, _⟩ => show win12_4.index t (0 : Fin 2) * 1 + 1 * (y 0).val = (y 0).val; rw [e40]; omega
  | ⟨1, _⟩ => show win12_4.index t (1 : Fin 2) * 256 + 1 * (y 1).val = (y 1).val; rw [e41]; omega

/-- Window 5 holds the whole second weight matrix at every point. -/
theorem whole12_5 (c : Dev nD) (t : Fin cfg12.N) :
    (iblk12 V c 5 t : Vec Ideal S256x128 .f32) = (V c main_v198 : S256x128.Idx → EReal) := by
  obtain ⟨-, -, -, -, e20, e21, e30, e31, e40, e41, e50, e51, e60, e61, -⟩ := index_facts12 t
  refine funext fun (y : S256x128.Idx) => ?_
  unfold iblk12
  rw [View.read_apply]
  show V c main_v198 _ = V c main_v198 _
  refine congrArg (V c main_v198) ?_
  funext a
  apply Fin.ext
  match a with
  | ⟨0, _⟩ => show win12_5.index t (0 : Fin 2) * 256 + 1 * (y 0).val = (y 0).val; rw [e50]; omega
  | ⟨1, _⟩ => show win12_5.index t (1 : Fin 2) * 128 + 1 * (y 1).val = (y 1).val; rw [e51]; omega

/-- Window 6 holds the whole second bias at every point. -/
theorem whole12_6 (c : Dev nD) (t : Fin cfg12.N) :
    (iblk12 V c 6 t : Vec Ideal S1x128 .f32) = (V c main_v201 : S1x128.Idx → EReal) := by
  obtain ⟨-, -, -, -, e20, e21, e30, e31, e40, e41, e50, e51, e60, e61, -⟩ := index_facts12 t
  refine funext fun (y : S1x128.Idx) => ?_
  unfold iblk12
  rw [View.read_apply]
  show V c main_v201 _ = V c main_v201 _
  refine congrArg (V c main_v201) ?_
  funext a
  apply Fin.ext
  match a with
  | ⟨0, _⟩ => show win12_6.index t (0 : Fin 2) * 1 + 1 * (y 0).val = (y 0).val; rw [e60]; omega
  | ⟨1, _⟩ => show win12_6.index t (1 : Fin 2) * 128 + 1 * (y 1).val = (y 1).val; rw [e61]; omega

/-! ## Output window 7: the perceptron's output -/

/-- Point `t` writes back rows `2000 t … 2000 t + 1999` of the perceptron's output. -/
theorem flushed12_7_eq (c : Dev nD) (t : Fin cfg12.N) :
    (dat12 V c).flushed 7 t
      = ((cfg12.win 7).blk t).view.read (Elt Ideal) (mlpZ (V c main_v166) (V c main_v188) (V c main_v191) (V c main_v193) (V c main_v196) (V c main_v198) (V c main_v201)) := by
  show (cfg12.win 7).cut (grid12.coords t) ((dat12 V c).after 7 t) = _
  rw [after12_7]
  unfold out12_7
  rw [View.canon_unit_zero zeros2]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S2000x128.Idx) => ?_
  obtain ⟨r, k, rfl⟩ : ∃ (r : Fin 2000) (k : Fin 128), y = ix2 r k := ⟨y 0, y 1, eq_ix2 y⟩
  refine (blockZ_eq (iblk12 V c 0 t) (iblk12 V c 1 t) (iblk12 V c 2 t) (iblk12 V c 3 t) (iblk12 V c 4 t) (iblk12 V c 5 t) (iblk12 V c 6 t)
    (V c main_v166) (V c main_v188) (V c main_v191) (V c main_v193) (V c main_v196) (V c main_v198) (V c main_v201)
    (pt12 t) (rows12_0 V c t) (rows12_1 V c t) (whole12_2 V c t) (whole12_3 V c t) (whole12_4 V c t) (whole12_5 V c t) (whole12_6 V c t) r k).trans ?_
  rw [View.read_apply]
  refine congrArg (mlpZ (V c main_v166) (V c main_v188) (V c main_v191) (V c main_v193) (V c main_v196) (V c main_v198) (V c main_v201)) ?_
  obtain ⟨-, -, -, -, -, -, -, -, -, -, -, -, -, -, e70, e71, -⟩ := index_facts12 t
  funext a
  apply Fin.ext
  match a with
  | ⟨0, _⟩ => show 2000 * t.val + r.val = win12_7.index t (0 : Fin 2) * 2000 + 1 * r.val; rw [e70]; omega
  | ⟨1, _⟩ => show k.val = win12_7.index t (1 : Fin 2) * 128 + 1 * k.val; rw [e71]; omega

/-- An entry of the [50000, 128] array is in point `t`'s block iff each coordinate is in the block's range. -/
theorem mem_blk12_7 (t : Fin cfg12.N) (i : S50000x128.Idx) :
    i ∈ ((cfg12.win 7).blk t).view.set ↔ ∀ a : Fin 2, win12_7.index t a * S2000x128.size a ≤ (i a).val
      ∧ (i a).val < win12_7.index t a * S2000x128.size a + S2000x128.size a := by
  show i ∈ ((View.whole main_v202_0).slice (win12_7.rect t)).set ↔ _
  rw [View.set_slice_whole, Rect.mem_set_unit]
  exact Iff.rfl

/-- Row `r` is written back by point `r / 2000`. -/
theorem covered12_7 (i : S50000x128.Idx) :
    ∃ t : Fin cfg12.N, (cfg12.win 7).flush t = true ∧ i ∈ ((cfg12.win 7).blk t).view.set := by
  have hi0 : (i 0).val < 50000 := (i 0).isLt
  have hi1 : (i 1).val < 128 := (i 1).isLt
  have hN : cfg12.N = 25 := N_12
  obtain ⟨t, ht⟩ : ∃ t : Fin cfg12.N, t.val = (i 0).val / 2000 := ⟨⟨(i 0).val / 2000, by rw [hN]; omega⟩, rfl⟩
  obtain ⟨-, -, -, -, -, -, -, -, -, -, -, -, -, -, e70, e71, -⟩ := index_facts12 t
  refine ⟨t, flush12_7 t, ?_⟩
  rw [mem_blk12_7]
  intro a
  match a with
  | ⟨0, _⟩ => show win12_7.index t (0 : Fin 2) * 2000 ≤ (i 0).val ∧ (i 0).val < win12_7.index t (0 : Fin 2) * 2000 + 2000; rw [e70]; omega
  | ⟨1, _⟩ => show win12_7.index t (1 : Fin 2) * 128 ≤ (i 1).val ∧ (i 1).val < win12_7.index t (1 : Fin 2) * 128 + 128; rw [e71]; omega

/-- The array the pipeline leaves: the perceptron's output of the region's seven input arrays. -/
theorem final12_7 (c : Dev nD) :
    (dat12 V c).arrAt 7 cfg12.N = mlpZ (V c main_v166) (V c main_v188) (V c main_v191) (V c main_v193) (V c main_v196) (V c main_v198) (V c main_v201) :=
  (dat12 V c).arrAt_eq_of_cover 7 (mlpZ (V c main_v166) (V c main_v188) (V c main_v191) (V c main_v193) (V c main_v196) (V c main_v198) (V c main_v201))
    (fun t _ => flushed12_7_eq V c t) covered12_7

/-! ## Output window 8: the blocks' column sums -/

/-- Point `t` writes back slab `t` of `blockSums` of the perceptron's output. -/
theorem flushed12_8_eq (c : Dev nD) (t : Fin cfg12.N) :
    (dat12 V c).flushed 8 t
      = ((cfg12.win 8).blk t).view.read (Elt Ideal) (blockSums (mlpZ (V c main_v166) (V c main_v188) (V c main_v191) (V c main_v193) (V c main_v196) (V c main_v198) (V c main_v201))) := by
  show (cfg12.win 8).cut (grid12.coords t) ((dat12 V c).after 8 t) = _
  rw [after12_8]
  unfold out12_8
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSums_eq (iblk12 V c 0 t) (iblk12 V c 1 t) (iblk12 V c 2 t) (iblk12 V c 3 t) (iblk12 V c 4 t) (iblk12 V c 5 t) (iblk12 V c 6 t)
    (V c main_v166) (V c main_v188) (V c main_v191) (V c main_v193) (V c main_v196) (V c main_v198) (V c main_v201)
    (pt12 t) (rows12_0 V c t) (rows12_1 V c t) (whole12_2 V c t) (whole12_3 V c t) (whole12_4 V c t) (whole12_5 V c t) (whole12_6 V c t) u s l).trans ?_
  rw [View.read_apply]
  refine congrArg (blockSums (mlpZ (V c main_v166) (V c main_v188) (V c main_v191) (V c main_v193) (V c main_v196) (V c main_v198) (V c main_v201))) ?_
  obtain ⟨-, -, -, -, -, -, -, -, -, -, -, -, -, -, -, -, e80, e81, e82, e90, e91, e92⟩ := index_facts12 t
  have hu : u.val = 0 := by omega
  funext a
  apply Fin.ext
  match a with
  | ⟨0, _⟩ => show t.val = win12_8.index t (0 : Fin 3) * 1 + 1 * u.val; rw [e80, hu]; omega
  | ⟨1, _⟩ => show s.val = win12_8.index t (1 : Fin 3) * 8 + 1 * s.val; rw [e81]; omega
  | ⟨2, _⟩ => show l.val = win12_8.index t (2 : Fin 3) * 128 + 1 * l.val; rw [e82]; omega

/-- An entry of the [25, 8, 128] array is in point `t`'s slab iff each coordinate is in the slab's range. -/
theorem mem_blk12_8 (t : Fin cfg12.N) (i : S25x8x128.Idx) :
    i ∈ ((cfg12.win 8).blk t).view.set ↔ ∀ a : Fin 3, win12_8.index t a * S1x8x128.size a ≤ (i a).val
      ∧ (i a).val < win12_8.index t a * S1x8x128.size a + S1x8x128.size a := by
  show i ∈ ((View.whole main_v202_1).slice (win12_8.rect t)).set ↔ _
  rw [View.set_slice_whole, Rect.mem_set_unit]
  exact Iff.rfl

/-- Slab `i 0` is written back by point `i 0`. -/
theorem covered12_8 (i : S25x8x128.Idx) :
    ∃ t : Fin cfg12.N, (cfg12.win 8).flush t = true ∧ i ∈ ((cfg12.win 8).blk t).view.set := by
  have hi0 : (i 0).val < 25 := (i 0).isLt
  have hi1 : (i 1).val < 8 := (i 1).isLt
  have hi2 : (i 2).val < 128 := (i 2).isLt
  have hN : cfg12.N = 25 := N_12
  obtain ⟨t, ht⟩ : ∃ t : Fin cfg12.N, t.val = (i 0).val := ⟨⟨(i 0).val, by rw [hN]; exact hi0⟩, rfl⟩
  obtain ⟨-, -, -, -, -, -, -, -, -, -, -, -, -, -, -, -, e80, e81, e82, e90, e91, e92⟩ := index_facts12 t
  refine ⟨t, flush12_8 t, ?_⟩
  rw [mem_blk12_8]
  intro a
  match a with
  | ⟨0, _⟩ => show win12_8.index t (0 : Fin 3) * 1 ≤ (i 0).val ∧ (i 0).val < win12_8.index t (0 : Fin 3) * 1 + 1; rw [e80]; omega
  | ⟨1, _⟩ => show win12_8.index t (1 : Fin 3) * 8 ≤ (i 1).val ∧ (i 1).val < win12_8.index t (1 : Fin 3) * 8 + 8; rw [e81]; omega
  | ⟨2, _⟩ => show win12_8.index t (2 : Fin 3) * 128 ≤ (i 2).val ∧ (i 2).val < win12_8.index t (2 : Fin 3) * 128 + 128; rw [e82]; omega

/-- The array the pipeline leaves: `blockSums` of the perceptron's output of the region's seven input arrays. -/
theorem final12_8 (c : Dev nD) :
    (dat12 V c).arrAt 8 cfg12.N = blockSums (mlpZ (V c main_v166) (V c main_v188) (V c main_v191) (V c main_v193) (V c main_v196) (V c main_v198) (V c main_v201)) :=
  (dat12 V c).arrAt_eq_of_cover 8 (blockSums (mlpZ (V c main_v166) (V c main_v188) (V c main_v191) (V c main_v193) (V c main_v196) (V c main_v198) (V c main_v201)))
    (fun t _ => flushed12_8_eq V c t) covered12_8

/-! ## Output window 9: the blocks' column sums of squares -/

/-- Point `t` writes back slab `t` of `blockSqSums` of the perceptron's output. -/
theorem flushed12_9_eq (c : Dev nD) (t : Fin cfg12.N) :
    (dat12 V c).flushed 9 t
      = ((cfg12.win 9).blk t).view.read (Elt Ideal) (blockSqSums (mlpZ (V c main_v166) (V c main_v188) (V c main_v191) (V c main_v193) (V c main_v196) (V c main_v198) (V c main_v201))) := by
  show (cfg12.win 9).cut (grid12.coords t) ((dat12 V c).after 9 t) = _
  rw [after12_9]
  unfold out12_9
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSqSums_eq (iblk12 V c 0 t) (iblk12 V c 1 t) (iblk12 V c 2 t) (iblk12 V c 3 t) (iblk12 V c 4 t) (iblk12 V c 5 t) (iblk12 V c 6 t)
    (V c main_v166) (V c main_v188) (V c main_v191) (V c main_v193) (V c main_v196) (V c main_v198) (V c main_v201)
    (pt12 t) (rows12_0 V c t) (rows12_1 V c t) (whole12_2 V c t) (whole12_3 V c t) (whole12_4 V c t) (whole12_5 V c t) (whole12_6 V c t) u s l).trans ?_
  rw [View.read_apply]
  refine congrArg (blockSqSums (mlpZ (V c main_v166) (V c main_v188) (V c main_v191) (V c main_v193) (V c main_v196) (V c main_v198) (V c main_v201))) ?_
  obtain ⟨-, -, -, -, -, -, -, -, -, -, -, -, -, -, -, -, e80, e81, e82, e90, e91, e92⟩ := index_facts12 t
  have hu : u.val = 0 := by omega
  funext a
  apply Fin.ext
  match a with
  | ⟨0, _⟩ => show t.val = win12_9.index t (0 : Fin 3) * 1 + 1 * u.val; rw [e90, hu]; omega
  | ⟨1, _⟩ => show s.val = win12_9.index t (1 : Fin 3) * 8 + 1 * s.val; rw [e91]; omega
  | ⟨2, _⟩ => show l.val = win12_9.index t (2 : Fin 3) * 128 + 1 * l.val; rw [e92]; omega

/-- An entry of the [25, 8, 128] array is in point `t`'s slab iff each coordinate is in the slab's range. -/
theorem mem_blk12_9 (t : Fin cfg12.N) (i : S25x8x128.Idx) :
    i ∈ ((cfg12.win 9).blk t).view.set ↔ ∀ a : Fin 3, win12_9.index t a * S1x8x128.size a ≤ (i a).val
      ∧ (i a).val < win12_9.index t a * S1x8x128.size a + S1x8x128.size a := by
  show i ∈ ((View.whole main_v202_2).slice (win12_9.rect t)).set ↔ _
  rw [View.set_slice_whole, Rect.mem_set_unit]
  exact Iff.rfl

/-- Slab `i 0` is written back by point `i 0`. -/
theorem covered12_9 (i : S25x8x128.Idx) :
    ∃ t : Fin cfg12.N, (cfg12.win 9).flush t = true ∧ i ∈ ((cfg12.win 9).blk t).view.set := by
  have hi0 : (i 0).val < 25 := (i 0).isLt
  have hi1 : (i 1).val < 8 := (i 1).isLt
  have hi2 : (i 2).val < 128 := (i 2).isLt
  have hN : cfg12.N = 25 := N_12
  obtain ⟨t, ht⟩ : ∃ t : Fin cfg12.N, t.val = (i 0).val := ⟨⟨(i 0).val, by rw [hN]; exact hi0⟩, rfl⟩
  obtain ⟨-, -, -, -, -, -, -, -, -, -, -, -, -, -, -, -, e80, e81, e82, e90, e91, e92⟩ := index_facts12 t
  refine ⟨t, flush12_9 t, ?_⟩
  rw [mem_blk12_9]
  intro a
  match a with
  | ⟨0, _⟩ => show win12_9.index t (0 : Fin 3) * 1 ≤ (i 0).val ∧ (i 0).val < win12_9.index t (0 : Fin 3) * 1 + 1; rw [e90]; omega
  | ⟨1, _⟩ => show win12_9.index t (1 : Fin 3) * 8 ≤ (i 1).val ∧ (i 1).val < win12_9.index t (1 : Fin 3) * 8 + 8; rw [e91]; omega
  | ⟨2, _⟩ => show win12_9.index t (2 : Fin 3) * 128 ≤ (i 2).val ∧ (i 2).val < win12_9.index t (2 : Fin 3) * 128 + 128; rw [e92]; omega

/-- The array the pipeline leaves: `blockSqSums` of the perceptron's output of the region's seven input arrays. -/
theorem final12_9 (c : Dev nD) :
    (dat12 V c).arrAt 9 cfg12.N = blockSqSums (mlpZ (V c main_v166) (V c main_v188) (V c main_v191) (V c main_v193) (V c main_v196) (V c main_v198) (V c main_v201)) :=
  (dat12 V c).arrAt_eq_of_cover 9 (blockSqSums (mlpZ (V c main_v166) (V c main_v188) (V c main_v191) (V c main_v193) (V c main_v196) (V c main_v198) (V c main_v201)))
    (fun t _ => flushed12_9_eq V c t) covered12_9

end Cert.KernelIdeal.Region

end
-- ==== Proof.Region.R13.lean ====
/-
  Region 13: the array the row-blocked normalisation leaves, as one function of the arrays it reads.

  The region sweeps 25 grid points. At point `t` it reads rows `2000·t … 2000·t + 1999` of the two node arrays
  (50000 × 128 each), the four per-channel rows (1 × 128 each, the same block at every point), and writes back
  rows `2000·t … 2000·t + 1999` of the result. The body is pointwise: the entry at local row `p`, channel `q`
  depends only on the two node entries at `(p, q)` and on the four rows at channel `q`. Since local row `p` of
  block `t` is global row `2000·t + p`, every written block is the corresponding block of `Spec.normRes` of the
  whole arrays; and since every row `r` lies in block `r / 2000`, the 25 blocks cover the result.
-/
import proofs.«105345_j19885698580760_2_alg».proof.Proof.Spec.NormRes
import proofs.«105345_j19885698580760_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region

open Cert.KernelIdeal Idealize.ShloMosaic Idealize.ShloMosaic.TcCoe Idealize.SL.Sem Idealize.ShloMosaic.ValueIdx
open Idealize.ShloMosaic.Pipeline (Dat)

-- The buffer contents of the core when the region is entered: every statement below is at this parameter.
variable (V : (c : Dev nD) → (b : Ref sig .tc) → Buf (Elt Ideal) ((c : Thread nD τ).loc b))

/-- Zero offsets on both axes, however the zeros are spelt. -/
theorem zeroOff13 : (![0, 0] : Fin 2 → Nat) = fun _ => 0 := funext fun a => by fin_cases a <;> rfl

/-! ## The body at one entry of a block -/

/-- The reciprocal root of a vector, at an index, is the reciprocal root of its entry. -/
theorem rsqrt_at13 {s : Shape} {φ : FTy} (a : FVec Ideal s φ) (i : s.Idx) : rsqrt a i = Ideal.rsqrt (a i) := rfl

/-- The body's value at local row `p`, channel `q`: the centred entry times the reciprocal root of the shifted
    variance, times the gain, plus the shift, plus the residual, then the maximum with zero. Each per-channel
    row, broadcast over the block's 2000 rows, is read at its row 0 and channel `q`. -/
theorem body13_ix2 (x0 xh : Vec Ideal S2000x128 .f32) (xmean xvar xg xb : Vec Ideal S1x128 .f32) (p : Fin 2000) (q : Fin 128) :
    Gen.k13_pay1 (F := Ideal) x0 xvar xmean xg xb xh (ix2 p q)
      = max ((x0 (ix2 p q) - xmean (ix2 (0 : Fin 1) q)) * Ideal.rsqrt (xvar (ix2 (0 : Fin 1) q) + Ideal.ofBits .f32 0x3727C5AC#32)
                * xg (ix2 (0 : Fin 1) q) + xb (ix2 (0 : Fin 1) q) + xh (ix2 p q)) 0 := by
  unfold Gen.k13_pay1
  simp only [shapeCast_self]
  simp only [maximumf_apply, addf_apply, mulf_apply, subf_apply, broadcast_apply, broadcastTo_1b_ab_apply, rsqrt_at13]
  simp only [Ideal.ofBits_def, Ideal.ofBits_zero_f32]

/-- The body at an entry of a block is `Spec.normRes` of the whole arrays at the entry's place in them, as soon
    as the two node blocks agree with the node arrays there (`hz`, `hh`), the four rows are the whole
    per-channel arrays, and the place has the entry's channel (`hcol`). -/
theorem body13_eq (Z H : S50000x128.Idx → EReal) (Mn Vr Gn Bs : S1x128.Idx → EReal)
    (x0 xh : Vec Ideal S2000x128 .f32) (xmean xvar xg xb : Vec Ideal S1x128 .f32)
    (y : S2000x128.Idx) (i : S50000x128.Idx)
    (hz : x0 y = Z i) (hh : xh y = H i) (hm : xmean = Mn) (hv : xvar = Vr) (hg : xg = Gn) (hb : xb = Bs)
    (hcol : (i 1).val = (y 1).val) :
    Gen.k13_pay1 (F := Ideal) x0 xvar xmean xg xb xh y = Spec.normRes Z H Mn Vr Gn Bs i := by
  subst hm hv hg hb
  obtain ⟨p, q, rfl⟩ : ∃ (p : Fin 2000) (q : Fin 128), y = ix2 p q := ⟨y 0, y 1, eq_ix2 y⟩
  obtain ⟨r, k, rfl⟩ : ∃ (r : Fin 50000) (k : Fin 128), i = ix2 r k := ⟨i 0, i 1, eq_ix2 i⟩
  obtain rfl : k = q := Fin.ext hcol
  rw [body13_ix2, Spec.normRes_ix2, hz, hh]

/-! ## Where each block sits in its array -/

/-- The block indices at grid point `t`, decided over the 25 points: the two node windows and the result window are
    at row block `t`, column block 0; the four per-channel windows stay at block (0, 0). -/
theorem blockIdx13 : ∀ t : Fin cfg13.N,
      win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

/-- A node block's entry `(p, q)` at point `t` is the node array's entry at row `2000·t + p`, channel `q`:
    the first node window. -/
theorem nodeBlock13_0 (c : Dev nD) (t : Fin cfg13.N) (y : S2000x128.Idx) (i : S50000x128.Idx)
    (h0 : (i 0).val = t.val * 2000 + (y 0).val) (h1 : (i 1).val = (y 1).val) :
    (Gen.iblk13 (F := Ideal) V c 0 t : Vec Ideal S2000x128 .f32) y = (V c main_v202_0 : S50000x128.Idx → EReal) i := by
  obtain ⟨e00, e01, -⟩ := blockIdx13 t
  unfold Gen.iblk13
  rw [View.read_apply]
  show V c main_v202_0 _ = V c main_v202_0 _
  congr 1
  funext a
  apply Fin.ext
  match a with
  | ⟨0, _⟩ => show win13_0.index t (0 : Fin 2) * 2000 + 1 * (y 0).val = (i 0).val; rw [e00, h0]; omega
  | ⟨1, _⟩ => show win13_0.index t (1 : Fin 2) * 128 + 1 * (y 1).val = (i 1).val; rw [e01, h1]; omega

/-- The same for the second node window (the residual). -/
theorem nodeBlock13_1 (c : Dev nD) (t : Fin cfg13.N) (y : S2000x128.Idx) (i : S50000x128.Idx)
    (h0 : (i 0).val = t.val * 2000 + (y 0).val) (h1 : (i 1).val = (y 1).val) :
    (Gen.iblk13 (F := Ideal) V c 1 t : Vec Ideal S2000x128 .f32) y = (V c main_v166 : S50000x128.Idx → EReal) i := by
  obtain ⟨-, -, e10, e11, -⟩ := blockIdx13 t
  unfold Gen.iblk13
  rw [View.read_apply]
  show V c main_v166 _ = V c main_v166 _
  congr 1
  funext a
  apply Fin.ext
  match a with
  | ⟨0, _⟩ => show win13_1.index t (0 : Fin 2) * 2000 + 1 * (y 0).val = (i 0).val; rw [e10, h0]; omega
  | ⟨1, _⟩ => show win13_1.index t (1 : Fin 2) * 128 + 1 * (y 1).val = (i 1).val; rw [e11, h1]; omega

/-- A per-channel window's block, at every point, is its whole 1 × 128 array: block (0, 0) of one block. -/
theorem rowBlock13_2 (c : Dev nD) (t : Fin cfg13.N) :
    (Gen.iblk13 (F := Ideal) V c 2 t : Vec Ideal S1x128 .f32) = (V c main_v211 : S1x128.Idx → EReal) := by
  obtain ⟨-, -, -, -, e0, e1, -⟩ := blockIdx13 t
  funext y
  unfold Gen.iblk13
  rw [View.read_apply]
  show V c main_v211 _ = V c main_v211 _
  congr 1
  funext a
  apply Fin.ext
  match a with
  | ⟨0, _⟩ => show win13_2.index t (0 : Fin 2) * 1 + 1 * (y 0).val = (y 0).val; rw [e0]; omega
  | ⟨1, _⟩ => show win13_2.index t (1 : Fin 2) * 128 + 1 * (y 1).val = (y 1).val; rw [e1]; omega

theorem rowBlock13_3 (c : Dev nD) (t : Fin cfg13.N) :
    (Gen.iblk13 (F := Ideal) V c 3 t : Vec Ideal S1x128 .f32) = (V c main_v212 : S1x128.Idx → EReal) := by
  obtain ⟨-, -, -, -, -, -, e0, e1, -⟩ := blockIdx13 t
  funext y
  unfold Gen.iblk13
  rw [View.read_apply]
  show V c main_v212 _ = V c main_v212 _
  congr 1
  funext a
  apply Fin.ext
  match a with
  | ⟨0, _⟩ => show win13_3.index t (0 : Fin 2) * 1 + 1 * (y 0).val = (y 0).val; rw [e0]; omega
  | ⟨1, _⟩ => show win13_3.index t (1 : Fin 2) * 128 + 1 * (y 1).val = (y 1).val; rw [e1]; omega

theorem rowBlock13_4 (c : Dev nD) (t : Fin cfg13.N) :
    (Gen.iblk13 (F := Ideal) V c 4 t : Vec Ideal S1x128 .f32) = (V c main_v215 : S1x128.Idx → EReal) := by
  obtain ⟨-, -, -, -, -, -, -, -, e0, e1, -⟩ := blockIdx13 t
  funext y
  unfold Gen.iblk13
  rw [View.read_apply]
  show V c main_v215 _ = V c main_v215 _
  congr 1
  funext a
  apply Fin.ext
  match a with
  | ⟨0, _⟩ => show win13_4.index t (0 : Fin 2) * 1 + 1 * (y 0).val = (y 0).val; rw [e0]; omega
  | ⟨1, _⟩ => show win13_4.index t (1 : Fin 2) * 128 + 1 * (y 1).val = (y 1).val; rw [e1]; omega

theorem rowBlock13_5 (c : Dev nD) (t : Fin cfg13.N) :
    (Gen.iblk13 (F := Ideal) V c 5 t : Vec Ideal S1x128 .f32) = (V c main_v218 : S1x128.Idx → EReal) := by
  obtain ⟨-, -, -, -, -, -, -, -, -, -, e0, e1, -⟩ := blockIdx13 t
  funext y
  unfold Gen.iblk13
  rw [View.read_apply]
  show V c main_v218 _ = V c main_v218 _
  congr 1
  funext a
  apply Fin.ext
  match a with
  | ⟨0, _⟩ => show win13_5.index t (0 : Fin 2) * 1 + 1 * (y 0).val = (y 0).val; rw [e0]; omega
  | ⟨1, _⟩ => show win13_5.index t (1 : Fin 2) * 128 + 1 * (y 1).val = (y 1).val; rw [e1]; omega

/-! ## What each point writes back, and the whole array -/

/-- What point `t` writes back is block `t` of `Spec.normRes` of the arrays as the region finds them. -/
theorem written13 (c : Dev nD) (t : Fin cfg13.N) :
    (Gen.dat13 (F := Ideal) V c).flushed 6 t
      = ((cfg13.win 6).blk t).view.read (Elt Ideal)
          (Spec.normRes (V c main_v202_0) (V c main_v166) (V c main_v211) (V c main_v212) (V c main_v215) (V c main_v218)) := by
  show (cfg13.win 6).cut (grid13.coords t) ((Gen.dat13 (F := Ideal) V c).after 6 t) = _
  rw [Gen.after13_6]
  unfold Gen.out13_6
  rw [View.canon_unit_zero zeroOff13]
  simp only [View.ld_unit_zero (S := S2000x128) zeroOff13, View.ld_unit_zero (S := S1x128) zeroOff13]
  obtain ⟨-, -, -, -, -, -, -, -, -, -, -, -, e60, e61⟩ := blockIdx13 t
  funext j
  rw [View.read_apply]
  have hj0 : (j 0).val < 2000 := (j 0).isLt
  have hj1 : (j 1).val < 128 := (j 1).isLt
  have hr : ((((cfg13.win 6).blk t).view.emb j : S50000x128.Idx) 0).val = t.val * 2000 + (j 0).val := by
    show win13_6.index t (0 : Fin 2) * 2000 + 1 * (j 0).val = _; rw [e60]; omega
  have hk : ((((cfg13.win 6).blk t).view.emb j : S50000x128.Idx) 1).val = (j 1).val := by
    show win13_6.index t (1 : Fin 2) * 128 + 1 * (j 1).val = _; rw [e61]; omega
  exact body13_eq (V c main_v202_0) (V c main_v166) (V c main_v211) (V c main_v212) (V c main_v215) (V c main_v218)
    (Gen.iblk13 (F := Ideal) V c 0 t) (Gen.iblk13 (F := Ideal) V c 1 t) (Gen.iblk13 (F := Ideal) V c 2 t)
    (Gen.iblk13 (F := Ideal) V c 3 t) (Gen.iblk13 (F := Ideal) V c 4 t) (Gen.iblk13 (F := Ideal) V c 5 t)
    j (((cfg13.win 6).blk t).view.emb j)
    (nodeBlock13_0 V c t j _ hr hk) (nodeBlock13_1 V c t j _ hr hk)
    (rowBlock13_2 V c t) (rowBlock13_3 V c t) (rowBlock13_4 V c t) (rowBlock13_5 V c t) hk

/-- An index of the result is in point `t`'s block iff each coordinate is in the block's range on its axis. -/
theorem inBlock13 (t : Fin cfg13.N) (i : S50000x128.Idx) :
    i ∈ ((cfg13.win 6).blk t).view.set ↔ ∀ a : Fin 2, win13_6.index t a * S2000x128.size a ≤ (i a).val ∧ (i a).val < win13_6.index t a * S2000x128.size a + S2000x128.size a := by
  show i ∈ ((View.whole main_v219).slice (win13_6.rect t)).set ↔ _
  rw [View.set_slice_whole, Rect.mem_set_unit]
  exact Iff.rfl

/-- Every index of the result is written by some point: row `r` lies in block `r / 2000`. -/
theorem covered13 (i : S50000x128.Idx) :
    ∃ t : Fin cfg13.N, (cfg13.win 6).flush t = true ∧ i ∈ ((cfg13.win 6).blk t).view.set := by
  have hi0 : (i 0).val < 50000 := (i 0).isLt
  have hi1 : (i 1).val < 128 := (i 1).isLt
  have hN : cfg13.N = 25 := Gen.N_13
  have hlt : (i 0).val / 2000 < cfg13.N := by rw [hN]; omega
  obtain ⟨-, -, -, -, -, -, -, -, -, -, -, -, e60, e61⟩ := blockIdx13 ⟨(i 0).val / 2000, hlt⟩
  refine ⟨⟨(i 0).val / 2000, hlt⟩, Gen.flush13_6 _, ?_⟩
  rw [inBlock13]
  intro a
  match a with
  | ⟨0, _⟩ =>
    show win13_6.index ⟨(i 0).val / 2000, hlt⟩ (0 : Fin 2) * 2000 ≤ (i 0).val ∧ (i 0).val < win13_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win13_6.index ⟨(i 0).val / 2000, hlt⟩ (1 : Fin 2) * 128 ≤ (i 1).val ∧ (i 1).val < win13_6.index ⟨(i 0).val / 2000, hlt⟩ (1 : Fin 2) * 128 + 128
    rw [e61]
    omega

/-- THE ARRAY the region leaves in its result buffer: `Spec.normRes` of the arrays it read, as it found them. -/
theorem final13_6 (c : Dev nD) :
    (Gen.dat13 (F := Ideal) V c).arrAt 6 cfg13.N
      = Spec.normRes (V c main_v202_0) (V c main_v166) (V c main_v211) (V c main_v212) (V c main_v215) (V c main_v218) :=
  (Gen.dat13 (F := Ideal) V c).arrAt_eq_of_cover 6
    (Spec.normRes (V c main_v202_0) (V c main_v166) (V c main_v211) (V c main_v212) (V c main_v215) (V c main_v218))
    (fun t _ => written13 V c t) (covered13)

end Cert.KernelIdeal.Region

end
-- ==== Proof.K.Chain5.lean ====
/-
  What the kernel program's buffers hold at the boundaries W23 … W28 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.K.Keep2
import proofs.«105345_j19885698580760_2_alg».proof.Proof.K.Keep3
import proofs.«105345_j19885698580760_2_alg».proof.Proof.K.Keep4
import proofs.«105345_j19885698580760_2_alg».proof.Proof.K.Keep5
import proofs.«105345_j19885698580760_2_alg».proof.Proof.K.Chain4
import proofs.«105345_j19885698580760_2_alg».proof.Proof.Region.R11
import proofs.«105345_j19885698580760_2_alg».proof.Proof.Region.R12
import proofs.«105345_j19885698580760_2_alg».proof.Proof.Region.R13

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v168 : W23 m ρ c (Proc.devRef .tc main_v168) = par_lin_w 3 (argsOf m c).lin_w :=
  (KHost.s11_v168 (W22 m ρ c)).trans (by
    rw [show W22 m ρ c (Proc.devRef .tc main_arg9) = (argsOf m c).lin_w from ((keep_arg9_22_16 m ρ c).trans ((keep_arg9_16_10 m ρ c).trans ((keep_arg9_10_4 m ρ c).trans (keep_arg9_4_0 m ρ c))))]
    try rfl)

theorem val_v171 : W23 m ρ c (Proc.devRef .tc main_v171) = par_row128 3 (argsOf m c).lin_b :=
  (KHost.s11_v171 (W22 m ρ c)).trans (by
    rw [show W22 m ρ c (Proc.devRef .tc main_arg10) = (argsOf m c).lin_b from ((keep_arg10_22_16 m ρ c).trans ((keep_arg10_16_10 m ρ c).trans ((keep_arg10_10_4 m ρ c).trans (keep_arg10_4_0 m ρ c))))]
    try rfl)

theorem val_v172 : W24 m ρ c (Proc.devRef .tc main_v172) = KVal.el (argsOf m c) 3 :=
  calc W24 m ρ c (Proc.devRef .tc main_v172) = (dat11 (V23 m ρ) c).arrAt 3 cfg11.N := W24_arr m ρ c 3
    _ = _ := Region.final11_3 (V23 m ρ) c
    _ = KVal.el (argsOf m c) 3 := by
      rw [show V23 m ρ c main_v7 = KVal.e (argsOf m c) from (((keep_v7_23_22 m ρ c).trans ((keep_v7_22_16 m ρ c).trans ((keep_v7_16_10 m ρ c).trans (keep_v7_10_4 m ρ c)))).trans (val_v7 m ρ c)),
        show V23 m ρ c main_v168 = par_lin_w 3 (argsOf m c).lin_w from (val_v168 m ρ c),
        show V23 m ρ c main_v171 = par_row128 3 (argsOf m c).lin_b from (val_v171 m ρ c)]
      try rfl

theorem val_v188 : W25 m ρ c (Proc.devRef .tc main_v188) = KVal.aggOf (argsOf m c) 3 (KVal.h3 (argsOf m c)) :=
  (KHost.s12_v188 (W24 m ρ c)).trans (by
    rw [show W24 m ρ c (Proc.devRef .tc main_v166) = KVal.h3 (argsOf m c) from ((keep_v166_24_22 m ρ c).trans (val_v166 m ρ c)),
      show W24 m ρ c (Proc.devRef .tc main_v172) = KVal.el (argsOf m c) 3 from (val_v172 m ρ c),
      show W24 m ρ c (Proc.devRef .tc main_v1) = src_row (argsOf m c).ei from (((keep_v1_24_22 m ρ c).trans ((keep_v1_22_16 m ρ c).trans ((keep_v1_16_10 m ρ c).trans ((keep_v1_10_4 m ρ c).trans (keep_v1_4_1 m ρ c))))).trans (val_v1 m ρ c)),
      show W24 m ρ c (Proc.devRef .tc main_v3) = dst_row (argsOf m c).ei from (((keep_v3_24_22 m ρ c).trans ((keep_v3_22_16 m ρ c).trans ((keep_v3_16_10 m ρ c).trans ((keep_v3_10_4 m ρ c).trans (keep_v3_4_1 m ρ c))))).trans (val_v3 m ρ c))]
    try rfl)

theorem val_v191 : W25 m ρ c (Proc.devRef .tc main_v191) = par_eps 3 (argsOf m c).eps :=
  (KHost.s12_v191 (W24 m ρ c)).trans (by
    rw [show W24 m ρ c (Proc.devRef .tc main_arg8) = (argsOf m c).eps from ((keep_arg8_24_22 m ρ c).trans ((keep_arg8_22_16 m ρ c).trans ((keep_arg8_16_10 m ρ c).trans ((keep_arg8_10_4 m ρ c).trans (keep_arg8_4_0 m ρ c)))))]
    try rfl)

theorem val_v193 : W25 m ρ c (Proc.devRef .tc main_v193) = par_w1 3 (argsOf m c).w1 :=
  (KHost.s12_v193 (W24 m ρ c)).trans (by
    rw [show W24 m ρ c (Proc.devRef .tc main_arg11) = (argsOf m c).w1 from ((keep_arg11_24_22 m ρ c).trans ((keep_arg11_22_16 m ρ c).trans ((keep_arg11_16_10 m ρ c).trans ((keep_arg11_10_4 m ρ c).trans (keep_arg11_4_0 m ρ c)))))]
    try rfl)

theorem val_v196 : W25 m ρ c (Proc.devRef .tc main_v196) = par_b1 3 (argsOf m c).b1 :=
  (KHost.s12_v196 (W24 m ρ c)).trans (by
    rw [show W24 m ρ c (Proc.devRef .tc main_arg12) = (argsOf m c).b1 from ((keep_arg12_24_22 m ρ c).trans ((keep_arg12_22_16 m ρ c).trans ((keep_arg12_16_10 m ρ c).trans ((keep_arg12_10_4 m ρ c).trans (keep_arg12_4_0 m ρ c)))))]
    try rfl)

theorem val_v198 : W25 m ρ c (Proc.devRef .tc main_v198) = par_w2 3 (argsOf m c).w2 :=
  (KHost.s12_v198 (W24 m ρ c)).trans (by
    rw [show W24 m ρ c (Proc.devRef .tc main_arg13) = (argsOf m c).w2 from ((keep_arg13_24_22 m ρ c).trans ((keep_arg13_22_16 m ρ c).trans ((keep_arg13_16_10 m ρ c).trans ((keep_arg13_10_4 m ρ c).trans (keep_arg13_4_0 m ρ c)))))]
    try rfl)

theorem val_v201 : W25 m ρ c (Proc.devRef .tc main_v201) = par_row128 3 (argsOf m c).b2 :=
  (KHost.s12_v201 (W24 m ρ c)).trans (by
    rw [show W24 m ρ c (Proc.devRef .tc main_arg14) = (argsOf m c).b2 from ((keep_arg14_24_22 m ρ c).trans ((keep_arg14_22_16 m ρ c).trans ((keep_arg14_16_10 m ρ c).trans ((keep_arg14_10_4 m ρ c).trans (keep_arg14_4_0 m ρ c)))))]
    try rfl)

theorem val_v202_0 : W26 m ρ c (Proc.devRef .tc main_v202_0) = KVal.zOf (argsOf m c) 3 (KVal.h3 (argsOf m c)) :=
  calc W26 m ρ c (Proc.devRef .tc main_v202_0) = (dat12 (V25 m ρ) c).arrAt 7 cfg12.N := W26_arr m ρ c 7
    _ = _ := Region.final12_7 (V25 m ρ) c
    _ = KVal.zOf (argsOf m c) 3 (KVal.h3 (argsOf m c)) := by
      rw [show V25 m ρ c main_v166 = KVal.h3 (argsOf m c) from ((keep_v166_25_22 m ρ c).trans (val_v166 m ρ c)),
        show V25 m ρ c main_v188 = KVal.aggOf (argsOf m c) 3 (KVal.h3 (argsOf m c)) from (val_v188 m ρ c),
        show V25 m ρ c main_v191 = par_eps 3 (argsOf m c).eps from (val_v191 m ρ c),
        show V25 m ρ c main_v193 = par_w1 3 (argsOf m c).w1 from (val_v193 m ρ c),
        show V25 m ρ c main_v196 = par_b1 3 (argsOf m c).b1 from (val_v196 m ρ c),
        show V25 m ρ c main_v198 = par_w2 3 (argsOf m c).w2 from (val_v198 m ρ c),
        show V25 m ρ c main_v201 = par_row128 3 (argsOf m c).b2 from (val_v201 m ρ c)]
      try rfl

theorem val_v202_1 : W26 m ρ c (Proc.devRef .tc main_v202_1) = Cert.Spec.blockSums (KVal.zOf (argsOf m c) 3 (KVal.h3 (argsOf m c))) :=
  calc W26 m ρ c (Proc.devRef .tc main_v202_1) = (dat12 (V25 m ρ) c).arrAt 8 cfg12.N := W26_arr m ρ c 8
    _ = _ := Region.final12_8 (V25 m ρ) c
    _ = Cert.Spec.blockSums (KVal.zOf (argsOf m c) 3 (KVal.h3 (argsOf m c))) := by
      rw [show V25 m ρ c main_v166 = KVal.h3 (argsOf m c) from ((keep_v166_25_22 m ρ c).trans (val_v166 m ρ c)),
        show V25 m ρ c main_v188 = KVal.aggOf (argsOf m c) 3 (KVal.h3 (argsOf m c)) from (val_v188 m ρ c),
        show V25 m ρ c main_v191 = par_eps 3 (argsOf m c).eps from (val_v191 m ρ c),
        show V25 m ρ c main_v193 = par_w1 3 (argsOf m c).w1 from (val_v193 m ρ c),
        show V25 m ρ c main_v196 = par_b1 3 (argsOf m c).b1 from (val_v196 m ρ c),
        show V25 m ρ c main_v198 = par_w2 3 (argsOf m c).w2 from (val_v198 m ρ c),
        show V25 m ρ c main_v201 = par_row128 3 (argsOf m c).b2 from (val_v201 m ρ c)]
      try rfl

theorem val_v211 : W27 m ρ c (Proc.devRef .tc main_v211) = KVal.meanRow (argsOf m c) 3 (KVal.h3 (argsOf m c)) :=
  (KHost.s13_v211 (W26 m ρ c)).trans (by
    rw [show W26 m ρ c (Proc.devRef .tc main_v202_1) = Cert.Spec.blockSums (KVal.zOf (argsOf m c) 3 (KVal.h3 (argsOf m c))) from (val_v202_1 m ρ c)]
    try rfl)

theorem val_v202_2 : W26 m ρ c (Proc.devRef .tc main_v202_2) = Cert.Spec.blockSqSums (KVal.zOf (argsOf m c) 3 (KVal.h3 (argsOf m c))) :=
  calc W26 m ρ c (Proc.devRef .tc main_v202_2) = (dat12 (V25 m ρ) c).arrAt 9 cfg12.N := W26_arr m ρ c 9
    _ = _ := Region.final12_9 (V25 m ρ) c
    _ = Cert.Spec.blockSqSums (KVal.zOf (argsOf m c) 3 (KVal.h3 (argsOf m c))) := by
      rw [show V25 m ρ c main_v166 = KVal.h3 (argsOf m c) from ((keep_v166_25_22 m ρ c).trans (val_v166 m ρ c)),
        show V25 m ρ c main_v188 = KVal.aggOf (argsOf m c) 3 (KVal.h3 (argsOf m c)) from (val_v188 m ρ c),
        show V25 m ρ c main_v191 = par_eps 3 (argsOf m c).eps from (val_v191 m ρ c),
        show V25 m ρ c main_v193 = par_w1 3 (argsOf m c).w1 from (val_v193 m ρ c),
        show V25 m ρ c main_v196 = par_b1 3 (argsOf m c).b1 from (val_v196 m ρ c),
        show V25 m ρ c main_v198 = par_w2 3 (argsOf m c).w2 from (val_v198 m ρ c),
        show V25 m ρ c main_v201 = par_row128 3 (argsOf m c).b2 from (val_v201 m ρ c)]
      try rfl

theorem val_v212 : W27 m ρ c (Proc.devRef .tc main_v212) = KVal.varRow (argsOf m c) 3 (KVal.h3 (argsOf m c)) :=
  (KHost.s13_v212 (W26 m ρ c)).trans (by
    rw [show W26 m ρ c (Proc.devRef .tc main_v202_1) = Cert.Spec.blockSums (KVal.zOf (argsOf m c) 3 (KVal.h3 (argsOf m c))) from (val_v202_1 m ρ c),
      show W26 m ρ c (Proc.devRef .tc main_v202_2) = Cert.Spec.blockSqSums (KVal.zOf (argsOf m c) 3 (KVal.h3 (argsOf m c))) from (val_v202_2 m ρ c)]
    try rfl)

theorem val_v215 : W27 m ρ c (Proc.devRef .tc main_v215) = par_row128 3 (argsOf m c).g :=
  (KHost.s13_v215 (W26 m ρ c)).trans (by
    rw [show W26 m ρ c (Proc.devRef .tc main_arg15) = (argsOf m c).g from ((keep_arg15_26_22 m ρ c).trans ((keep_arg15_22_16 m ρ c).trans ((keep_arg15_16_10 m ρ c).trans ((keep_arg15_10_4 m ρ c).trans (keep_arg15_4_0 m ρ c)))))]
    try rfl)

theorem val_v218 : W27 m ρ c (Proc.devRef .tc main_v218) = par_row128 3 (argsOf m c).b :=
  (KHost.s13_v218 (W26 m ρ c)).trans (by
    rw [show W26 m ρ c (Proc.devRef .tc main_arg16) = (argsOf m c).b from ((keep_arg16_26_22 m ρ c).trans ((keep_arg16_22_16 m ρ c).trans ((keep_arg16_16_10 m ρ c).trans ((keep_arg16_10_4 m ρ c).trans (keep_arg16_4_0 m ρ c)))))]
    try rfl)

theorem val_v219 : W28 m ρ c (Proc.devRef .tc main_v219) = KVal.h4 (argsOf m c) :=
  calc W28 m ρ c (Proc.devRef .tc main_v219) = (dat13 (V27 m ρ) c).arrAt 6 cfg13.N := W28_arr m ρ c 6
    _ = _ := Region.final13_6 (V27 m ρ) c
    _ = KVal.h4 (argsOf m c) := by
      rw [show V27 m ρ c main_v202_0 = KVal.zOf (argsOf m c) 3 (KVal.h3 (argsOf m c)) from ((keep_v202_0_27_26 m ρ c).trans (val_v202_0 m ρ c)),
        show V27 m ρ c main_v166 = KVal.h3 (argsOf m c) from ((keep_v166_27_22 m ρ c).trans (val_v166 m ρ c)),
        show V27 m ρ c main_v211 = KVal.meanRow (argsOf m c) 3 (KVal.h3 (argsOf m c)) from (val_v211 m ρ c),
        show V27 m ρ c main_v212 = KVal.varRow (argsOf m c) 3 (KVal.h3 (argsOf m c)) from (val_v212 m ρ c),
        show V27 m ρ c main_v215 = par_row128 3 (argsOf m c).g from (val_v215 m ρ c),
        show V27 m ρ c main_v218 = par_row128 3 (argsOf m c).b from (val_v218 m ρ c)]
      try rfl

end Cert.KernelIdeal.KChain

end
-- ==== Proof.Region.R14.lean ====
/-
  The value of kernel region 14: the fifth layer's edge projection, `e · lin_w[4] + lin_b[4]` on the 640000 × 128
  encoded edge features.

  The region walks the 640000 rows of `x` in 64 blocks of 10000 rows; the weight matrix and the one-row bias are
  staged whole at every point. At a point the body leaves in the output block the block product of the `x` block
  with `w`, accumulated from zero, plus the bias row added to every row (the shape casts of the operands are to their
  own shapes, and changes of float format are the identity on extended reals). Entry `(r, c)` of that block is
  therefore `∑ k, x (10000 t + r, k) * w (k, c) + b (0, c)`, which is entry `(10000 t + r, c)` of `Spec.affine x w b`: an
  entry of an affine map depends on one row of `x` only, so a row block of the result is the affine map of the row
  block. The 64 blocks tile the rows (row `R` lies in block `R / 10000`), so the array the region leaves is
  `Spec.affine x w b` whole.
-/
import proofs.«105345_j19885698580760_2_alg».proof.Proof.Spec.Affine
import proofs.«105345_j19885698580760_2_alg».proof.Proof.Spec.AffineBody
import proofs.«105345_j19885698580760_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

namespace R14

variable (V : (c : Dev nD) → (b : Ref sig .tc) → Buf (Elt Ideal) ((c : Thread nD τ).loc b))

theorem hz : (![0, 0] : Fin 2 → Nat) = fun _ => 0 := funext fun a => by fin_cases a <;> rfl

/-- The body's product is a plain matrix product: rows by columns, no batch axis. -/
theorem plainDot : Spec.PlainDot dot_S10000x128_S128x128_S10000x128_1_0_0_1_n_n := ⟨rfl, rfl, rfl, rfl, rfl, rfl⟩

/-- The body's stored value at entry `(r, c)` of the block, from the three loaded blocks. -/
theorem pay_apply (x0 : Vec Ideal S10000x128 .bf16) (x1 : Vec Ideal S128x128 .f32) (x2 : Vec Ideal S1x128 .f32)
    (r : Fin 10000) (c : Fin 128) :
    k14_pay1 (F := Ideal) x0 x1 x2 (ix2 r c) = Spec.affine x0 x1 x2 (ix2 r c) := by
  unfold k14_pay1
  show (matmul (F := Ideal) dot_S10000x128_S128x128_S10000x128_1_0_0_1_n_n none
      (shapeCast S10000x128 x0 shapeCasts_S10000x128_S10000x128)
      (truncf (F := Ideal) .bf16 (shapeCast S128x128 x1 shapeCasts_S128x128_S128x128) bitsLt_bf16_f32)
      (constant (F := Ideal) S10000x128 .f32 0x00000000#32)) (ix2 r c)
      + broadcastTo S10000x128 (shapeCast S1x128 x2 shapeCasts_S1x128_S1x128) broadcasts_S1x128_S10000x128 (ix2 r c) = _
  simp only [shapeCast_self]
  refine congrArg₂ (· + ·) ?_ ?_
  · exact plainDot.matmul_zero_apply none _ _ r c
  · exact broadcastTo_1b_ab_apply x2 broadcasts_S1x128_S10000x128 r c

/-- The windows' index maps over the grid: `x` and the output move one row block per point, the weights and the
    bias stay at block (0, 0). -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- An index of the output array is in point `t`'s block iff each coordinate is in the block's range on its axis. -/
theorem mem_blk (t : Fin cfg14.N) (i : S640000x128.Idx) :
    i ∈ ((cfg14.win 3).blk t).view.set ↔ ∀ a : Fin 2, win14_3.index t a * S10000x128.size a ≤ (i a).val ∧ (i a).val < win14_3.index t a * S10000x128.size a + S10000x128.size a := by
  show i ∈ ((View.whole main_v225).slice (win14_3.rect t)).set ↔ _
  rw [View.set_slice_whole, Rect.mem_set_unit]
  exact Iff.rfl

/-- Every entry of the output array is in the block of the point its row names: row `R` is in block `R / 10000`. -/
theorem cover (i : S640000x128.Idx) : ∃ t : Fin cfg14.N, (cfg14.win 3).flush t = true ∧ i ∈ ((cfg14.win 3).blk t).view.set := by
  have hi0 : (i 0).val < 640000 := (i 0).isLt
  have hi1 : (i 1).val < 128 := (i 1).isLt
  have hN : cfg14.N = 64 := N_14
  obtain ⟨t, ht⟩ : ∃ t : Fin cfg14.N, t.val = (i 0).val / 10000 := ⟨⟨(i 0).val / 10000, by rw [hN]; omega⟩, rfl⟩
  obtain ⟨-, -, -, -, -, -, e6, e7⟩ := idx_facts t
  refine ⟨t, flush14_3 t, ?_⟩
  rw [mem_blk]
  intro a
  match a with
  | ⟨0, _⟩ => show win14_3.index t (0 : Fin 2) * 10000 ≤ (i 0).val ∧ (i 0).val < win14_3.index t (0 : Fin 2) * 10000 + 10000; omega
  | ⟨1, _⟩ => show win14_3.index t (1 : Fin 2) * 128 ≤ (i 1).val ∧ (i 1).val < win14_3.index t (1 : Fin 2) * 128 + 128; omega

/-- The `x` block at point `t` is rows `10000 t … 10000 t + 9999` of the array. -/
theorem xblk_apply (c : Dev nD) (t : Fin cfg14.N) (r : Fin 10000) (k : Fin 128) (R : Fin 640000) (hR : R.val = t.val * 10000 + r.val) :
    (iblk14 V c 0 t : Vec Ideal S10000x128 .bf16) (ix2 r k) = (V c main_v7 : S640000x128.Idx → EReal) (ix2 R k) := by
  obtain ⟨e0, e1, -⟩ := idx_facts t
  show V c main_v7 (((cfg14.win 0).blk t).view.emb (ix2 r k)) = V c main_v7 (ix2 R k)
  refine congrArg (V c main_v7) (funext fun a => Fin.ext ?_)
  match a with
  | ⟨0, _⟩ => show win14_0.index t (0 : Fin 2) * 10000 + 1 * r.val = R.val; omega
  | ⟨1, _⟩ => show win14_0.index t (1 : Fin 2) * 128 + 1 * k.val = k.val; omega

/-- The weight block at every point is the whole matrix. -/
theorem wblk_apply (c : Dev nD) (t : Fin cfg14.N) (k : Fin 128) (cc : Fin 128) :
    (iblk14 V c 1 t : Vec Ideal S128x128 .f32) (ix2 k cc) = (V c main_v221 : S128x128.Idx → EReal) (ix2 k cc) := by
  obtain ⟨-, -, e2, e3, -⟩ := idx_facts t
  show V c main_v221 (((cfg14.win 1).blk t).view.emb (ix2 k cc)) = V c main_v221 (ix2 k cc)
  refine congrArg (V c main_v221) (funext fun a => Fin.ext ?_)
  match a with
  | ⟨0, _⟩ => show win14_1.index t (0 : Fin 2) * 128 + 1 * k.val = k.val; omega
  | ⟨1, _⟩ => show win14_1.index t (1 : Fin 2) * 128 + 1 * cc.val = cc.val; omega

/-- The bias block at every point is the whole one-row array. -/
theorem bblk_apply (c : Dev nD) (t : Fin cfg14.N) (cc : Fin 128) :
    (iblk14 V c 2 t : Vec Ideal S1x128 .f32) (ix2 0 cc) = (V c main_v224 : S1x128.Idx → EReal) (ix2 0 cc) := by
  obtain ⟨-, -, -, -, e4, e5, -⟩ := idx_facts t
  show V c main_v224 (((cfg14.win 2).blk t).view.emb (ix2 0 cc)) = V c main_v224 (ix2 0 cc)
  refine congrArg (V c main_v224) (funext fun a => Fin.ext ?_)
  match a with
  | ⟨0, _⟩ => show win14_2.index t (0 : Fin 2) * 1 + 1 * (0 : Fin 1).val = (0 : Fin 1).val; rw [e4]; rfl
  | ⟨1, _⟩ => show win14_2.index t (1 : Fin 2) * 128 + 1 * cc.val = cc.val; omega

/-- Entry `(r, c)` of the output block at point `t` sits at row `10000 t + r`, column `c` of the array. -/
theorem oblk_emb (t : Fin cfg14.N) (r : Fin 10000) (cc : Fin 128) :
    ∃ R : Fin 640000, R.val = t.val * 10000 + r.val ∧ ((cfg14.win 3).blk t).view.emb (ix2 r cc) = (ix2 R cc : S640000x128.Idx) := by
  obtain ⟨-, -, -, -, -, -, e6, e7⟩ := idx_facts t
  have hN : cfg14.N = 64 := N_14
  have ht : t.val < 64 := hN ▸ t.isLt
  refine ⟨⟨t.val * 10000 + r.val, by have := r.isLt; omega⟩, rfl, funext fun a => Fin.ext ?_⟩
  match a with
  | ⟨0, _⟩ => show win14_3.index t (0 : Fin 2) * 10000 + 1 * r.val = t.val * 10000 + r.val; omega
  | ⟨1, _⟩ => show win14_3.index t (1 : Fin 2) * 128 + 1 * cc.val = cc.val; omega

/-- One entry of what point `t` leaves in the output block is the same entry of the whole affine map. -/
theorem point_eq (c : Dev nD) (t : Fin cfg14.N) (j : S10000x128.Idx) :
    k14_pay1 (F := Ideal) (iblk14 V c 0 t) (iblk14 V c 1 t) (iblk14 V c 2 t) j
      = Spec.affine (V c main_v7) (V c main_v221) (V c main_v224) (((cfg14.win 3).blk t).view.emb j) := by
  obtain ⟨r, cc, rfl⟩ : ∃ (r : Fin 10000) (cc : Fin 128), j = ix2 r cc := ⟨j 0, j 1, eq_ix2 j⟩
  obtain ⟨R, hR, hemb⟩ := oblk_emb t r cc
  refine ((pay_apply _ _ _ r cc).trans ?_).trans (congrArg (Spec.affine (V c main_v7) (V c main_v221) (V c main_v224)) hemb.symm)
  exact Spec.affine_congr _ _ _ _ _ _ r cc R cc (fun k => xblk_apply V c t r k R hR) (fun k => wblk_apply V c t k cc) (bblk_apply V c t cc)

/-- What point `t` writes back is block `t` of the whole affine map of the arrays as the region finds them. -/
theorem flushed_eq (c : Dev nD) (t : Fin cfg14.N) :
    (dat14 (F := Ideal) V c).flushed 3 t
      = ((cfg14.win 3).blk t).view.read (Elt Ideal) (Spec.affine (V c main_v7) (V c main_v221) (V c main_v224)) := by
  show (cfg14.win 3).cut (grid14.coords t) ((dat14 V c).after 3 t) = _
  rw [after14_3]
  unfold out14_3
  rw [View.canon_unit_zero hz]
  simp only [View.ld_unit_zero (S := S10000x128) hz, View.ld_unit_zero (S := S128x128) hz, View.ld_unit_zero (S := S1x128) hz]
  funext j
  exact point_eq V c t j

end R14

/-- The array region 14 leaves: `x · w + b` of the three arrays it is entered with, whole. -/
theorem final14_3 (V : (c : Dev nD) → (b : Ref sig .tc) → Buf (Elt Ideal) ((c : Thread nD τ).loc b)) (c : Dev nD) :
    (dat14 (F := Ideal) V c).arrAt 3 cfg14.N = Spec.affine (V c main_v7) (V c main_v221) (V c main_v224) :=
  (dat14 (F := Ideal) V c).arrAt_eq_of_cover 3 (Spec.affine (V c main_v7) (V c main_v221) (V c main_v224))
    (fun t _ => R14.flushed_eq V c t) R14.cover

end Cert.KernelIdeal.Region

end
-- ==== Proof.Region.R15.lean ====
/-
  Region 15 of the kernel program: one application of the perceptron over 25 blocks of 2000 rows.

  At grid point `t` the pipeline stages rows `2000 t … 2000 t + 1999` of the feature array and of the aggregated
  messages, and the five small arrays whole; the body writes the block's output back to the same rows of the first
  result, and the block's column sums and column sums of squares to slab `t` of the two [25, 8, 128] results. The 25
  row blocks tile the 50000 rows and the 25 slabs tile the statistics arrays, so after the last point each result is
  one function of the region's seven input arrays: the perceptron's output `mlpZ`, and `blockSums` / `blockSqSums`
  of it.

  Per output window: what a point writes back is the window's block of that function (the block's value read entry by
  entry, each input block read where the window's index map puts it: a block's coordinate is the block index times the
  block size plus the coordinate inside the block); every entry of the array lies in the block of the point that
  covers its row; hence the whole array.
-/
import proofs.«105345_j19885698580760_2_alg».proof.Proof.Spec.Mlp
import proofs.«105345_j19885698580760_2_alg».proof.Proof.Region.MlpBlock
import proofs.«105345_j19885698580760_2_alg».proof.Proof.Gen.KernelIdeal.Frame
import Idealize.ShloMosaic.Lib.Pipeline.Value

noncomputable section

open scoped BigOperators

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The grid and the windows' index maps -/

/-- A grid point as a block number below 25. -/
abbrev pt15 (t : Fin cfg15.N) : Fin 25 := Fin.cast N_15 t

/-- The index maps, decided over the 25 points: the two row-block inputs and the first result move with the point
    along the rows; the five small inputs stay at block (0, 0); the two statistics results move with the point along
    their first axis. -/
theorem index_facts15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = t.val ∧ win15_7.index t (1 : Fin 2) = 0
    ∧ win15_8.index t (0 : Fin 3) = t.val ∧ win15_8.index t (1 : Fin 3) = 0 ∧ win15_8.index t (2 : Fin 3) = 0
    ∧ win15_9.index t (0 : Fin 3) = t.val ∧ win15_9.index t (1 : Fin 3) = 0 ∧ win15_9.index t (2 : Fin 3) = 0 :=
  (by decide +kernel : ∀ t : Fin grid15.N, _)

/-! ## The input windows' blocks as rows of the arrays the region finds -/

/-- Window 0's block at point `t` is rows `2000 t … 2000 t + 1999` of the feature array. -/
theorem rows15_0 (c : Dev nD) (t : Fin cfg15.N) (r : Fin 2000) (k : Fin 128) :
    (iblk15 V c 0 t : Vec Ideal S2000x128 .f32) (ix2 r k)
      = (V c main_v219 : S50000x128.Idx → EReal) (ix2 (mlpBlockRow (pt15 t) r) k) := by
  obtain ⟨e00, e01, e10, e11, -⟩ := index_facts15 t
  unfold iblk15
  rw [View.read_apply]
  show V c main_v219 _ = V c main_v219 _
  refine congrArg (V c main_v219) ?_
  funext a
  apply Fin.ext
  match a with
  | ⟨0, _⟩ => show win15_0.index t (0 : Fin 2) * 2000 + 1 * r.val = 2000 * t.val + r.val; rw [e00]; omega
  | ⟨1, _⟩ => show win15_0.index t (1 : Fin 2) * 128 + 1 * k.val = k.val; rw [e01]; omega

/-- Window 1's block at point `t` is rows `2000 t … 2000 t + 1999` of the aggregated messages. -/
theorem rows15_1 (c : Dev nD) (t : Fin cfg15.N) (r : Fin 2000) (k : Fin 128) :
    (iblk15 V c 1 t : Vec Ideal S2000x128 .f32) (ix2 r k)
      = (V c main_v241 : S50000x128.Idx → EReal) (ix2 (mlpBlockRow (pt15 t) r) k) := by
  obtain ⟨e00, e01, e10, e11, -⟩ := index_facts15 t
  unfold iblk15
  rw [View.read_apply]
  show V c main_v241 _ = V c main_v241 _
  refine congrArg (V c main_v241) ?_
  funext a
  apply Fin.ext
  match a with
  | ⟨0, _⟩ => show win15_1.index t (0 : Fin 2) * 2000 + 1 * r.val = 2000 * t.val + r.val; rw [e10]; omega
  | ⟨1, _⟩ => show win15_1.index t (1 : Fin 2) * 128 + 1 * k.val = k.val; rw [e11]; omega

/-- Window 2 holds the whole one-entry array holding eps at every point. -/
theorem whole15_2 (c : Dev nD) (t : Fin cfg15.N) :
    (iblk15 V c 2 t : Vec Ideal S1x1 .f32) = (V c main_v244 : S1x1.Idx → EReal) := by
  obtain ⟨-, -, -, -, e20, e21, e30, e31, e40, e41, e50, e51, e60, e61, -⟩ := index_facts15 t
  refine funext fun (y : S1x1.Idx) => ?_
  unfold iblk15
  rw [View.read_apply]
  show V c main_v244 _ = V c main_v244 _
  refine congrArg (V c main_v244) ?_
  funext a
  apply Fin.ext
  match a with
  | ⟨0, _⟩ => show win15_2.index t (0 : Fin 2) * 1 + 1 * (y 0).val = (y 0).val; rw [e20]; omega
  | ⟨1, _⟩ => show win15_2.index t (1 : Fin 2) * 1 + 1 * (y 1).val = (y 1).val; rw [e21]; omega

/-- Window 3 holds the whole first weight matrix at every point. -/
theorem whole15_3 (c : Dev nD) (t : Fin cfg15.N) :
    (iblk15 V c 3 t : Vec Ideal S128x256 .f32) = (V c main_v246 : S128x256.Idx → EReal) := by
  obtain ⟨-, -, -, -, e20, e21, e30, e31, e40, e41, e50, e51, e60, e61, -⟩ := index_facts15 t
  refine funext fun (y : S128x256.Idx) => ?_
  unfold iblk15
  rw [View.read_apply]
  show V c main_v246 _ = V c main_v246 _
  refine congrArg (V c main_v246) ?_
  funext a
  apply Fin.ext
  match a with
  | ⟨0, _⟩ => show win15_3.index t (0 : Fin 2) * 128 + 1 * (y 0).val = (y 0).val; rw [e30]; omega
  | ⟨1, _⟩ => show win15_3.index t (1 : Fin 2) * 256 + 1 * (y 1).val = (y 1).val; rw [e31]; omega

/-- Window 4 holds the whole first bias at every point. -/
theorem whole15_4 (c : Dev nD) (t : Fin cfg15.N) :
    (iblk15 V c 4 t : Vec Ideal S1x256 .f32) = (V c main_v249 : S1x256.Idx → EReal) := by
  obtain ⟨-, -, -, -, e20, e21, e30, e31, e40, e41, e50, e51, e60, e61, -⟩ := index_facts15 t
  refine funext fun (y : S1x256.Idx) => ?_
  unfold iblk15
  rw [View.read_apply]
  show V c main_v249 _ = V c main_v249 _
  refine congrArg (V c main_v249) ?_
  funext a
  apply Fin.ext
  match a with
  | ⟨0, _⟩ => show win15_4.index t (0 : Fin 2) * 1 + 1 * (y 0).val = (y 0).val; rw [e40]; omega
  | ⟨1, _⟩ => show win15_4.index t (1 : Fin 2) * 256 + 1 * (y 1).val = (y 1).val; rw [e41]; omega

/-- Window 5 holds the whole second weight matrix at every point. -/
theorem whole15_5 (c : Dev nD) (t : Fin cfg15.N) :
    (iblk15 V c 5 t : Vec Ideal S256x128 .f32) = (V c main_v251 : S256x128.Idx → EReal) := by
  obtain ⟨-, -, -, -, e20, e21, e30, e31, e40, e41, e50, e51, e60, e61, -⟩ := index_facts15 t
  refine funext fun (y : S256x128.Idx) => ?_
  unfold iblk15
  rw [View.read_apply]
  show V c main_v251 _ = V c main_v251 _
  refine congrArg (V c main_v251) ?_
  funext a
  apply Fin.ext
  match a with
  | ⟨0, _⟩ => show win15_5.index t (0 : Fin 2) * 256 + 1 * (y 0).val = (y 0).val; rw [e50]; omega
  | ⟨1, _⟩ => show win15_5.index t (1 : Fin 2) * 128 + 1 * (y 1).val = (y 1).val; rw [e51]; omega

/-- Window 6 holds the whole second bias at every point. -/
theorem whole15_6 (c : Dev nD) (t : Fin cfg15.N) :
    (iblk15 V c 6 t : Vec Ideal S1x128 .f32) = (V c main_v254 : S1x128.Idx → EReal) := by
  obtain ⟨-, -, -, -, e20, e21, e30, e31, e40, e41, e50, e51, e60, e61, -⟩ := index_facts15 t
  refine funext fun (y : S1x128.Idx) => ?_
  unfold iblk15
  rw [View.read_apply]
  show V c main_v254 _ = V c main_v254 _
  refine congrArg (V c main_v254) ?_
  funext a
  apply Fin.ext
  match a with
  | ⟨0, _⟩ => show win15_6.index t (0 : Fin 2) * 1 + 1 * (y 0).val = (y 0).val; rw [e60]; omega
  | ⟨1, _⟩ => show win15_6.index t (1 : Fin 2) * 128 + 1 * (y 1).val = (y 1).val; rw [e61]; omega

/-! ## Output window 7: the perceptron's output -/

/-- Point `t` writes back rows `2000 t … 2000 t + 1999` of the perceptron's output. -/
theorem flushed15_7_eq (c : Dev nD) (t : Fin cfg15.N) :
    (dat15 V c).flushed 7 t
      = ((cfg15.win 7).blk t).view.read (Elt Ideal) (mlpZ (V c main_v219) (V c main_v241) (V c main_v244) (V c main_v246) (V c main_v249) (V c main_v251) (V c main_v254)) := by
  show (cfg15.win 7).cut (grid15.coords t) ((dat15 V c).after 7 t) = _
  rw [after15_7]
  unfold out15_7
  rw [View.canon_unit_zero zeros2]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S2000x128.Idx) => ?_
  obtain ⟨r, k, rfl⟩ : ∃ (r : Fin 2000) (k : Fin 128), y = ix2 r k := ⟨y 0, y 1, eq_ix2 y⟩
  refine (blockZ_eq (iblk15 V c 0 t) (iblk15 V c 1 t) (iblk15 V c 2 t) (iblk15 V c 3 t) (iblk15 V c 4 t) (iblk15 V c 5 t) (iblk15 V c 6 t)
    (V c main_v219) (V c main_v241) (V c main_v244) (V c main_v246) (V c main_v249) (V c main_v251) (V c main_v254)
    (pt15 t) (rows15_0 V c t) (rows15_1 V c t) (whole15_2 V c t) (whole15_3 V c t) (whole15_4 V c t) (whole15_5 V c t) (whole15_6 V c t) r k).trans ?_
  rw [View.read_apply]
  refine congrArg (mlpZ (V c main_v219) (V c main_v241) (V c main_v244) (V c main_v246) (V c main_v249) (V c main_v251) (V c main_v254)) ?_
  obtain ⟨-, -, -, -, -, -, -, -, -, -, -, -, -, -, e70, e71, -⟩ := index_facts15 t
  funext a
  apply Fin.ext
  match a with
  | ⟨0, _⟩ => show 2000 * t.val + r.val = win15_7.index t (0 : Fin 2) * 2000 + 1 * r.val; rw [e70]; omega
  | ⟨1, _⟩ => show k.val = win15_7.index t (1 : Fin 2) * 128 + 1 * k.val; rw [e71]; omega

/-- An entry of the [50000, 128] array is in point `t`'s block iff each coordinate is in the block's range. -/
theorem mem_blk15_7 (t : Fin cfg15.N) (i : S50000x128.Idx) :
    i ∈ ((cfg15.win 7).blk t).view.set ↔ ∀ a : Fin 2, win15_7.index t a * S2000x128.size a ≤ (i a).val
      ∧ (i a).val < win15_7.index t a * S2000x128.size a + S2000x128.size a := by
  show i ∈ ((View.whole main_v255_0).slice (win15_7.rect t)).set ↔ _
  rw [View.set_slice_whole, Rect.mem_set_unit]
  exact Iff.rfl

/-- Row `r` is written back by point `r / 2000`. -/
theorem covered15_7 (i : S50000x128.Idx) :
    ∃ t : Fin cfg15.N, (cfg15.win 7).flush t = true ∧ i ∈ ((cfg15.win 7).blk t).view.set := by
  have hi0 : (i 0).val < 50000 := (i 0).isLt
  have hi1 : (i 1).val < 128 := (i 1).isLt
  have hN : cfg15.N = 25 := N_15
  obtain ⟨t, ht⟩ : ∃ t : Fin cfg15.N, t.val = (i 0).val / 2000 := ⟨⟨(i 0).val / 2000, by rw [hN]; omega⟩, rfl⟩
  obtain ⟨-, -, -, -, -, -, -, -, -, -, -, -, -, -, e70, e71, -⟩ := index_facts15 t
  refine ⟨t, flush15_7 t, ?_⟩
  rw [mem_blk15_7]
  intro a
  match a with
  | ⟨0, _⟩ => show win15_7.index t (0 : Fin 2) * 2000 ≤ (i 0).val ∧ (i 0).val < win15_7.index t (0 : Fin 2) * 2000 + 2000; rw [e70]; omega
  | ⟨1, _⟩ => show win15_7.index t (1 : Fin 2) * 128 ≤ (i 1).val ∧ (i 1).val < win15_7.index t (1 : Fin 2) * 128 + 128; rw [e71]; omega

/-- The array the pipeline leaves: the perceptron's output of the region's seven input arrays. -/
theorem final15_7 (c : Dev nD) :
    (dat15 V c).arrAt 7 cfg15.N = mlpZ (V c main_v219) (V c main_v241) (V c main_v244) (V c main_v246) (V c main_v249) (V c main_v251) (V c main_v254) :=
  (dat15 V c).arrAt_eq_of_cover 7 (mlpZ (V c main_v219) (V c main_v241) (V c main_v244) (V c main_v246) (V c main_v249) (V c main_v251) (V c main_v254))
    (fun t _ => flushed15_7_eq V c t) covered15_7

/-! ## Output window 8: the blocks' column sums -/

/-- Point `t` writes back slab `t` of `blockSums` of the perceptron's output. -/
theorem flushed15_8_eq (c : Dev nD) (t : Fin cfg15.N) :
    (dat15 V c).flushed 8 t
      = ((cfg15.win 8).blk t).view.read (Elt Ideal) (blockSums (mlpZ (V c main_v219) (V c main_v241) (V c main_v244) (V c main_v246) (V c main_v249) (V c main_v251) (V c main_v254))) := by
  show (cfg15.win 8).cut (grid15.coords t) ((dat15 V c).after 8 t) = _
  rw [after15_8]
  unfold out15_8
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSums_eq (iblk15 V c 0 t) (iblk15 V c 1 t) (iblk15 V c 2 t) (iblk15 V c 3 t) (iblk15 V c 4 t) (iblk15 V c 5 t) (iblk15 V c 6 t)
    (V c main_v219) (V c main_v241) (V c main_v244) (V c main_v246) (V c main_v249) (V c main_v251) (V c main_v254)
    (pt15 t) (rows15_0 V c t) (rows15_1 V c t) (whole15_2 V c t) (whole15_3 V c t) (whole15_4 V c t) (whole15_5 V c t) (whole15_6 V c t) u s l).trans ?_
  rw [View.read_apply]
  refine congrArg (blockSums (mlpZ (V c main_v219) (V c main_v241) (V c main_v244) (V c main_v246) (V c main_v249) (V c main_v251) (V c main_v254))) ?_
  obtain ⟨-, -, -, -, -, -, -, -, -, -, -, -, -, -, -, -, e80, e81, e82, e90, e91, e92⟩ := index_facts15 t
  have hu : u.val = 0 := by omega
  funext a
  apply Fin.ext
  match a with
  | ⟨0, _⟩ => show t.val = win15_8.index t (0 : Fin 3) * 1 + 1 * u.val; rw [e80, hu]; omega
  | ⟨1, _⟩ => show s.val = win15_8.index t (1 : Fin 3) * 8 + 1 * s.val; rw [e81]; omega
  | ⟨2, _⟩ => show l.val = win15_8.index t (2 : Fin 3) * 128 + 1 * l.val; rw [e82]; omega

/-- An entry of the [25, 8, 128] array is in point `t`'s slab iff each coordinate is in the slab's range. -/
theorem mem_blk15_8 (t : Fin cfg15.N) (i : S25x8x128.Idx) :
    i ∈ ((cfg15.win 8).blk t).view.set ↔ ∀ a : Fin 3, win15_8.index t a * S1x8x128.size a ≤ (i a).val
      ∧ (i a).val < win15_8.index t a * S1x8x128.size a + S1x8x128.size a := by
  show i ∈ ((View.whole main_v255_1).slice (win15_8.rect t)).set ↔ _
  rw [View.set_slice_whole, Rect.mem_set_unit]
  exact Iff.rfl

/-- Slab `i 0` is written back by point `i 0`. -/
theorem covered15_8 (i : S25x8x128.Idx) :
    ∃ t : Fin cfg15.N, (cfg15.win 8).flush t = true ∧ i ∈ ((cfg15.win 8).blk t).view.set := by
  have hi0 : (i 0).val < 25 := (i 0).isLt
  have hi1 : (i 1).val < 8 := (i 1).isLt
  have hi2 : (i 2).val < 128 := (i 2).isLt
  have hN : cfg15.N = 25 := N_15
  obtain ⟨t, ht⟩ : ∃ t : Fin cfg15.N, t.val = (i 0).val := ⟨⟨(i 0).val, by rw [hN]; exact hi0⟩, rfl⟩
  obtain ⟨-, -, -, -, -, -, -, -, -, -, -, -, -, -, -, -, e80, e81, e82, e90, e91, e92⟩ := index_facts15 t
  refine ⟨t, flush15_8 t, ?_⟩
  rw [mem_blk15_8]
  intro a
  match a with
  | ⟨0, _⟩ => show win15_8.index t (0 : Fin 3) * 1 ≤ (i 0).val ∧ (i 0).val < win15_8.index t (0 : Fin 3) * 1 + 1; rw [e80]; omega
  | ⟨1, _⟩ => show win15_8.index t (1 : Fin 3) * 8 ≤ (i 1).val ∧ (i 1).val < win15_8.index t (1 : Fin 3) * 8 + 8; rw [e81]; omega
  | ⟨2, _⟩ => show win15_8.index t (2 : Fin 3) * 128 ≤ (i 2).val ∧ (i 2).val < win15_8.index t (2 : Fin 3) * 128 + 128; rw [e82]; omega

/-- The array the pipeline leaves: `blockSums` of the perceptron's output of the region's seven input arrays. -/
theorem final15_8 (c : Dev nD) :
    (dat15 V c).arrAt 8 cfg15.N = blockSums (mlpZ (V c main_v219) (V c main_v241) (V c main_v244) (V c main_v246) (V c main_v249) (V c main_v251) (V c main_v254)) :=
  (dat15 V c).arrAt_eq_of_cover 8 (blockSums (mlpZ (V c main_v219) (V c main_v241) (V c main_v244) (V c main_v246) (V c main_v249) (V c main_v251) (V c main_v254)))
    (fun t _ => flushed15_8_eq V c t) covered15_8

/-! ## Output window 9: the blocks' column sums of squares -/

/-- Point `t` writes back slab `t` of `blockSqSums` of the perceptron's output. -/
theorem flushed15_9_eq (c : Dev nD) (t : Fin cfg15.N) :
    (dat15 V c).flushed 9 t
      = ((cfg15.win 9).blk t).view.read (Elt Ideal) (blockSqSums (mlpZ (V c main_v219) (V c main_v241) (V c main_v244) (V c main_v246) (V c main_v249) (V c main_v251) (V c main_v254))) := by
  show (cfg15.win 9).cut (grid15.coords t) ((dat15 V c).after 9 t) = _
  rw [after15_9]
  unfold out15_9
  rw [View.canon_unit_zero zeros3]
  simp only [View.ld_unit_zero (S := S2000x128) zeros2, View.ld_unit_zero (S := S1x1) zeros2,
    View.ld_unit_zero (S := S128x256) zeros2, View.ld_unit_zero (S := S1x256) zeros2,
    View.ld_unit_zero (S := S256x128) zeros2, View.ld_unit_zero (S := S1x128) zeros2]
  refine funext fun (y : S1x8x128.Idx) => ?_
  obtain ⟨u, s, l, rfl⟩ : ∃ (u : Fin 1) (s : Fin 8) (l : Fin 128), y = ix3 u s l := ⟨y 0, y 1, y 2, eq_ix3 y⟩
  refine (blockSqSums_eq (iblk15 V c 0 t) (iblk15 V c 1 t) (iblk15 V c 2 t) (iblk15 V c 3 t) (iblk15 V c 4 t) (iblk15 V c 5 t) (iblk15 V c 6 t)
    (V c main_v219) (V c main_v241) (V c main_v244) (V c main_v246) (V c main_v249) (V c main_v251) (V c main_v254)
    (pt15 t) (rows15_0 V c t) (rows15_1 V c t) (whole15_2 V c t) (whole15_3 V c t) (whole15_4 V c t) (whole15_5 V c t) (whole15_6 V c t) u s l).trans ?_
  rw [View.read_apply]
  refine congrArg (blockSqSums (mlpZ (V c main_v219) (V c main_v241) (V c main_v244) (V c main_v246) (V c main_v249) (V c main_v251) (V c main_v254))) ?_
  obtain ⟨-, -, -, -, -, -, -, -, -, -, -, -, -, -, -, -, e80, e81, e82, e90, e91, e92⟩ := index_facts15 t
  have hu : u.val = 0 := by omega
  funext a
  apply Fin.ext
  match a with
  | ⟨0, _⟩ => show t.val = win15_9.index t (0 : Fin 3) * 1 + 1 * u.val; rw [e90, hu]; omega
  | ⟨1, _⟩ => show s.val = win15_9.index t (1 : Fin 3) * 8 + 1 * s.val; rw [e91]; omega
  | ⟨2, _⟩ => show l.val = win15_9.index t (2 : Fin 3) * 128 + 1 * l.val; rw [e92]; omega

/-- An entry of the [25, 8, 128] array is in point `t`'s slab iff each coordinate is in the slab's range. -/
theorem mem_blk15_9 (t : Fin cfg15.N) (i : S25x8x128.Idx) :
    i ∈ ((cfg15.win 9).blk t).view.set ↔ ∀ a : Fin 3, win15_9.index t a * S1x8x128.size a ≤ (i a).val
      ∧ (i a).val < win15_9.index t a * S1x8x128.size a + S1x8x128.size a := by
  show i ∈ ((View.whole main_v255_2).slice (win15_9.rect t)).set ↔ _
  rw [View.set_slice_whole, Rect.mem_set_unit]
  exact Iff.rfl

/-- Slab `i 0` is written back by point `i 0`. -/
theorem covered15_9 (i : S25x8x128.Idx) :
    ∃ t : Fin cfg15.N, (cfg15.win 9).flush t = true ∧ i ∈ ((cfg15.win 9).blk t).view.set := by
  have hi0 : (i 0).val < 25 := (i 0).isLt
  have hi1 : (i 1).val < 8 := (i 1).isLt
  have hi2 : (i 2).val < 128 := (i 2).isLt
  have hN : cfg15.N = 25 := N_15
  obtain ⟨t, ht⟩ : ∃ t : Fin cfg15.N, t.val = (i 0).val := ⟨⟨(i 0).val, by rw [hN]; exact hi0⟩, rfl⟩
  obtain ⟨-, -, -, -, -, -, -, -, -, -, -, -, -, -, -, -, e80, e81, e82, e90, e91, e92⟩ := index_facts15 t
  refine ⟨t, flush15_9 t, ?_⟩
  rw [mem_blk15_9]
  intro a
  match a with
  | ⟨0, _⟩ => show win15_9.index t (0 : Fin 3) * 1 ≤ (i 0).val ∧ (i 0).val < win15_9.index t (0 : Fin 3) * 1 + 1; rw [e90]; omega
  | ⟨1, _⟩ => show win15_9.index t (1 : Fin 3) * 8 ≤ (i 1).val ∧ (i 1).val < win15_9.index t (1 : Fin 3) * 8 + 8; rw [e91]; omega
  | ⟨2, _⟩ => show win15_9.index t (2 : Fin 3) * 128 ≤ (i 2).val ∧ (i 2).val < win15_9.index t (2 : Fin 3) * 128 + 128; rw [e92]; omega

/-- The array the pipeline leaves: `blockSqSums` of the perceptron's output of the region's seven input arrays. -/
theorem final15_9 (c : Dev nD) :
    (dat15 V c).arrAt 9 cfg15.N = blockSqSums (mlpZ (V c main_v219) (V c main_v241) (V c main_v244) (V c main_v246) (V c main_v249) (V c main_v251) (V c main_v254)) :=
  (dat15 V c).arrAt_eq_of_cover 9 (blockSqSums (mlpZ (V c main_v219) (V c main_v241) (V c main_v244) (V c main_v246) (V c main_v249) (V c main_v251) (V c main_v254)))
    (fun t _ => flushed15_9_eq V c t) covered15_9

end Cert.KernelIdeal.Region

end
-- ==== Proof.Region.R16.lean ====
/-
  Region 16: the array the row-blocked normalisation leaves, as one function of the arrays it reads.

  The region sweeps 25 grid points. At point `t` it reads rows `2000·t … 2000·t + 1999` of the two node arrays
  (50000 × 128 each), the four per-channel rows (1 × 128 each, the same block at every point), and writes back
  rows `2000·t … 2000·t + 1999` of the result. The body is pointwise: the entry at local row `p`, channel `q`
  depends only on the two node entries at `(p, q)` and on the four rows at channel `q`. Since local row `p` of
  block `t` is global row `2000·t + p`, every written block is the corresponding block of `Spec.normRes` of the
  whole arrays; and since every row `r` lies in block `r / 2000`, the 25 blocks cover the result.
-/
import proofs.«105345_j19885698580760_2_alg».proof.Proof.Spec.NormRes
import proofs.«105345_j19885698580760_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region

open Cert.KernelIdeal Idealize.ShloMosaic Idealize.ShloMosaic.TcCoe Idealize.SL.Sem Idealize.ShloMosaic.ValueIdx
open Idealize.ShloMosaic.Pipeline (Dat)

-- The buffer contents of the core when the region is entered: every statement below is at this parameter.
variable (V : (c : Dev nD) → (b : Ref sig .tc) → Buf (Elt Ideal) ((c : Thread nD τ).loc b))

/-- Zero offsets on both axes, however the zeros are spelt. -/
theorem zeroOff16 : (![0, 0] : Fin 2 → Nat) = fun _ => 0 := funext fun a => by fin_cases a <;> rfl

/-! ## The body at one entry of a block -/

/-- The reciprocal root of a vector, at an index, is the reciprocal root of its entry. -/
theorem rsqrt_at16 {s : Shape} {φ : FTy} (a : FVec Ideal s φ) (i : s.Idx) : rsqrt a i = Ideal.rsqrt (a i) := rfl

/-- The body's value at local row `p`, channel `q`: the centred entry times the reciprocal root of the shifted
    variance, times the gain, plus the shift, plus the residual, then the maximum with zero. Each per-channel
    row, broadcast over the block's 2000 rows, is read at its row 0 and channel `q`. -/
theorem body16_ix2 (x0 xh : Vec Ideal S2000x128 .f32) (xmean xvar xg xb : Vec Ideal S1x128 .f32) (p : Fin 2000) (q : Fin 128) :
    Gen.k16_pay1 (F := Ideal) x0 xvar xmean xg xb xh (ix2 p q)
      = max ((x0 (ix2 p q) - xmean (ix2 (0 : Fin 1) q)) * Ideal.rsqrt (xvar (ix2 (0 : Fin 1) q) + Ideal.ofBits .f32 0x3727C5AC#32)
                * xg (ix2 (0 : Fin 1) q) + xb (ix2 (0 : Fin 1) q) + xh (ix2 p q)) 0 := by
  unfold Gen.k16_pay1
  simp only [shapeCast_self]
  simp only [maximumf_apply, addf_apply, mulf_apply, subf_apply, broadcast_apply, broadcastTo_1b_ab_apply, rsqrt_at16]
  simp only [Ideal.ofBits_def, Ideal.ofBits_zero_f32]

/-- The body at an entry of a block is `Spec.normRes` of the whole arrays at the entry's place in them, as soon
    as the two node blocks agree with the node arrays there (`hz`, `hh`), the four rows are the whole
    per-channel arrays, and the place has the entry's channel (`hcol`). -/
theorem body16_eq (Z H : S50000x128.Idx → EReal) (Mn Vr Gn Bs : S1x128.Idx → EReal)
    (x0 xh : Vec Ideal S2000x128 .f32) (xmean xvar xg xb : Vec Ideal S1x128 .f32)
    (y : S2000x128.Idx) (i : S50000x128.Idx)
    (hz : x0 y = Z i) (hh : xh y = H i) (hm : xmean = Mn) (hv : xvar = Vr) (hg : xg = Gn) (hb : xb = Bs)
    (hcol : (i 1).val = (y 1).val) :
    Gen.k16_pay1 (F := Ideal) x0 xvar xmean xg xb xh y = Spec.normRes Z H Mn Vr Gn Bs i := by
  subst hm hv hg hb
  obtain ⟨p, q, rfl⟩ : ∃ (p : Fin 2000) (q : Fin 128), y = ix2 p q := ⟨y 0, y 1, eq_ix2 y⟩
  obtain ⟨r, k, rfl⟩ : ∃ (r : Fin 50000) (k : Fin 128), i = ix2 r k := ⟨i 0, i 1, eq_ix2 i⟩
  obtain rfl : k = q := Fin.ext hcol
  rw [body16_ix2, Spec.normRes_ix2, hz, hh]

/-! ## Where each block sits in its array -/

/-- The block indices at grid point `t`, decided over the 25 points: the two node windows and the result window are
    at row block `t`, column block 0; the four per-channel windows stay at block (0, 0). -/
theorem blockIdx16 : ∀ t : Fin cfg16.N,
      win16_0.index t (0 : Fin 2) = t.val ∧ win16_0.index t (1 : Fin 2) = 0
    ∧ win16_1.index t (0 : Fin 2) = t.val ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = t.val ∧ win16_6.index t (1 : Fin 2) = 0 :=
  (by decide +kernel : ∀ t : Fin grid16.N, _)

/-- A node block's entry `(p, q)` at point `t` is the node array's entry at row `2000·t + p`, channel `q`:
    the first node window. -/
theorem nodeBlock16_0 (c : Dev nD) (t : Fin cfg16.N) (y : S2000x128.Idx) (i : S50000x128.Idx)
    (h0 : (i 0).val = t.val * 2000 + (y 0).val) (h1 : (i 1).val = (y 1).val) :
    (Gen.iblk16 (F := Ideal) V c 0 t : Vec Ideal S2000x128 .f32) y = (V c main_v255_0 : S50000x128.Idx → EReal) i := by
  obtain ⟨e00, e01, -⟩ := blockIdx16 t
  unfold Gen.iblk16
  rw [View.read_apply]
  show V c main_v255_0 _ = V c main_v255_0 _
  congr 1
  funext a
  apply Fin.ext
  match a with
  | ⟨0, _⟩ => show win16_0.index t (0 : Fin 2) * 2000 + 1 * (y 0).val = (i 0).val; rw [e00, h0]; omega
  | ⟨1, _⟩ => show win16_0.index t (1 : Fin 2) * 128 + 1 * (y 1).val = (i 1).val; rw [e01, h1]; omega

/-- The same for the second node window (the residual). -/
theorem nodeBlock16_1 (c : Dev nD) (t : Fin cfg16.N) (y : S2000x128.Idx) (i : S50000x128.Idx)
    (h0 : (i 0).val = t.val * 2000 + (y 0).val) (h1 : (i 1).val = (y 1).val) :
    (Gen.iblk16 (F := Ideal) V c 1 t : Vec Ideal S2000x128 .f32) y = (V c main_v219 : S50000x128.Idx → EReal) i := by
  obtain ⟨-, -, e10, e11, -⟩ := blockIdx16 t
  unfold Gen.iblk16
  rw [View.read_apply]
  show V c main_v219 _ = V c main_v219 _
  congr 1
  funext a
  apply Fin.ext
  match a with
  | ⟨0, _⟩ => show win16_1.index t (0 : Fin 2) * 2000 + 1 * (y 0).val = (i 0).val; rw [e10, h0]; omega
  | ⟨1, _⟩ => show win16_1.index t (1 : Fin 2) * 128 + 1 * (y 1).val = (i 1).val; rw [e11, h1]; omega

/-- A per-channel window's block, at every point, is its whole 1 × 128 array: block (0, 0) of one block. -/
theorem rowBlock16_2 (c : Dev nD) (t : Fin cfg16.N) :
    (Gen.iblk16 (F := Ideal) V c 2 t : Vec Ideal S1x128 .f32) = (V c main_v264 : S1x128.Idx → EReal) := by
  obtain ⟨-, -, -, -, e0, e1, -⟩ := blockIdx16 t
  funext y
  unfold Gen.iblk16
  rw [View.read_apply]
  show V c main_v264 _ = V c main_v264 _
  congr 1
  funext a
  apply Fin.ext
  match a with
  | ⟨0, _⟩ => show win16_2.index t (0 : Fin 2) * 1 + 1 * (y 0).val = (y 0).val; rw [e0]; omega
  | ⟨1, _⟩ => show win16_2.index t (1 : Fin 2) * 128 + 1 * (y 1).val = (y 1).val; rw [e1]; omega

theorem rowBlock16_3 (c : Dev nD) (t : Fin cfg16.N) :
    (Gen.iblk16 (F := Ideal) V c 3 t : Vec Ideal S1x128 .f32) = (V c main_v265 : S1x128.Idx → EReal) := by
  obtain ⟨-, -, -, -, -, -, e0, e1, -⟩ := blockIdx16 t
  funext y
  unfold Gen.iblk16
  rw [View.read_apply]
  show V c main_v265 _ = V c main_v265 _
  congr 1
  funext a
  apply Fin.ext
  match a with
  | ⟨0, _⟩ => show win16_3.index t (0 : Fin 2) * 1 + 1 * (y 0).val = (y 0).val; rw [e0]; omega
  | ⟨1, _⟩ => show win16_3.index t (1 : Fin 2) * 128 + 1 * (y 1).val = (y 1).val; rw [e1]; omega

theorem rowBlock16_4 (c : Dev nD) (t : Fin cfg16.N) :
    (Gen.iblk16 (F := Ideal) V c 4 t : Vec Ideal S1x128 .f32) = (V c main_v268 : S1x128.Idx → EReal) := by
  obtain ⟨-, -, -, -, -, -, -, -, e0, e1, -⟩ := blockIdx16 t
  funext y
  unfold Gen.iblk16
  rw [View.read_apply]
  show V c main_v268 _ = V c main_v268 _
  congr 1
  funext a
  apply Fin.ext
  match a with
  | ⟨0, _⟩ => show win16_4.index t (0 : Fin 2) * 1 + 1 * (y 0).val = (y 0).val; rw [e0]; omega
  | ⟨1, _⟩ => show win16_4.index t (1 : Fin 2) * 128 + 1 * (y 1).val = (y 1).val; rw [e1]; omega

theorem rowBlock16_5 (c : Dev nD) (t : Fin cfg16.N) :
    (Gen.iblk16 (F := Ideal) V c 5 t : Vec Ideal S1x128 .f32) = (V c main_v271 : S1x128.Idx → EReal) := by
  obtain ⟨-, -, -, -, -, -, -, -, -, -, e0, e1, -⟩ := blockIdx16 t
  funext y
  unfold Gen.iblk16
  rw [View.read_apply]
  show V c main_v271 _ = V c main_v271 _
  congr 1
  funext a
  apply Fin.ext
  match a with
  | ⟨0, _⟩ => show win16_5.index t (0 : Fin 2) * 1 + 1 * (y 0).val = (y 0).val; rw [e0]; omega
  | ⟨1, _⟩ => show win16_5.index t (1 : Fin 2) * 128 + 1 * (y 1).val = (y 1).val; rw [e1]; omega

/-! ## What each point writes back, and the whole array -/

/-- What point `t` writes back is block `t` of `Spec.normRes` of the arrays as the region finds them. -/
theorem written16 (c : Dev nD) (t : Fin cfg16.N) :
    (Gen.dat16 (F := Ideal) V c).flushed 6 t
      = ((cfg16.win 6).blk t).view.read (Elt Ideal)
          (Spec.normRes (V c main_v255_0) (V c main_v219) (V c main_v264) (V c main_v265) (V c main_v268) (V c main_v271)) := by
  show (cfg16.win 6).cut (grid16.coords t) ((Gen.dat16 (F := Ideal) V c).after 6 t) = _
  rw [Gen.after16_6]
  unfold Gen.out16_6
  rw [View.canon_unit_zero zeroOff16]
  simp only [View.ld_unit_zero (S := S2000x128) zeroOff16, View.ld_unit_zero (S := S1x128) zeroOff16]
  obtain ⟨-, -, -, -, -, -, -, -, -, -, -, -, e60, e61⟩ := blockIdx16 t
  funext j
  rw [View.read_apply]
  have hj0 : (j 0).val < 2000 := (j 0).isLt
  have hj1 : (j 1).val < 128 := (j 1).isLt
  have hr : ((((cfg16.win 6).blk t).view.emb j : S50000x128.Idx) 0).val = t.val * 2000 + (j 0).val := by
    show win16_6.index t (0 : Fin 2) * 2000 + 1 * (j 0).val = _; rw [e60]; omega
  have hk : ((((cfg16.win 6).blk t).view.emb j : S50000x128.Idx) 1).val = (j 1).val := by
    show win16_6.index t (1 : Fin 2) * 128 + 1 * (j 1).val = _; rw [e61]; omega
  exact body16_eq (V c main_v255_0) (V c main_v219) (V c main_v264) (V c main_v265) (V c main_v268) (V c main_v271)
    (Gen.iblk16 (F := Ideal) V c 0 t) (Gen.iblk16 (F := Ideal) V c 1 t) (Gen.iblk16 (F := Ideal) V c 2 t)
    (Gen.iblk16 (F := Ideal) V c 3 t) (Gen.iblk16 (F := Ideal) V c 4 t) (Gen.iblk16 (F := Ideal) V c 5 t)
    j (((cfg16.win 6).blk t).view.emb j)
    (nodeBlock16_0 V c t j _ hr hk) (nodeBlock16_1 V c t j _ hr hk)
    (rowBlock16_2 V c t) (rowBlock16_3 V c t) (rowBlock16_4 V c t) (rowBlock16_5 V c t) hk

/-- An index of the result is in point `t`'s block iff each coordinate is in the block's range on its axis. -/
theorem inBlock16 (t : Fin cfg16.N) (i : S50000x128.Idx) :
    i ∈ ((cfg16.win 6).blk t).view.set ↔ ∀ a : Fin 2, win16_6.index t a * S2000x128.size a ≤ (i a).val ∧ (i a).val < win16_6.index t a * S2000x128.size a + S2000x128.size a := by
  show i ∈ ((View.whole main_v272).slice (win16_6.rect t)).set ↔ _
  rw [View.set_slice_whole, Rect.mem_set_unit]
  exact Iff.rfl

/-- Every index of the result is written by some point: row `r` lies in block `r / 2000`. -/
theorem covered16 (i : S50000x128.Idx) :
    ∃ t : Fin cfg16.N, (cfg16.win 6).flush t = true ∧ i ∈ ((cfg16.win 6).blk t).view.set := by
  have hi0 : (i 0).val < 50000 := (i 0).isLt
  have hi1 : (i 1).val < 128 := (i 1).isLt
  have hN : cfg16.N = 25 := Gen.N_16
  have hlt : (i 0).val / 2000 < cfg16.N := by rw [hN]; omega
  obtain ⟨-, -, -, -, -, -, -, -, -, -, -, -, e60, e61⟩ := blockIdx16 ⟨(i 0).val / 2000, hlt⟩
  refine ⟨⟨(i 0).val / 2000, hlt⟩, Gen.flush16_6 _, ?_⟩
  rw [inBlock16]
  intro a
  match a with
  | ⟨0, _⟩ =>
    show win16_6.index ⟨(i 0).val / 2000, hlt⟩ (0 : Fin 2) * 2000 ≤ (i 0).val ∧ (i 0).val < win16_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win16_6.index ⟨(i 0).val / 2000, hlt⟩ (1 : Fin 2) * 128 ≤ (i 1).val ∧ (i 1).val < win16_6.index ⟨(i 0).val / 2000, hlt⟩ (1 : Fin 2) * 128 + 128
    rw [e61]
    omega

/-- THE ARRAY the region leaves in its result buffer: `Spec.normRes` of the arrays it read, as it found them. -/
theorem final16_6 (c : Dev nD) :
    (Gen.dat16 (F := Ideal) V c).arrAt 6 cfg16.N
      = Spec.normRes (V c main_v255_0) (V c main_v219) (V c main_v264) (V c main_v265) (V c main_v268) (V c main_v271) :=
  (Gen.dat16 (F := Ideal) V c).arrAt_eq_of_cover 6
    (Spec.normRes (V c main_v255_0) (V c main_v219) (V c main_v264) (V c main_v265) (V c main_v268) (V c main_v271))
    (fun t _ => written16 V c t) (covered16)

end Cert.KernelIdeal.Region

end
-- ==== Proof.K.Chain6.lean ====
/-
  What the kernel program's buffers hold at the boundaries W29 … W34 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.K.Keep2
import proofs.«105345_j19885698580760_2_alg».proof.Proof.K.Keep3
import proofs.«105345_j19885698580760_2_alg».proof.Proof.K.Keep4
import proofs.«105345_j19885698580760_2_alg».proof.Proof.K.Keep5
import proofs.«105345_j19885698580760_2_alg».proof.Proof.K.Keep6
import proofs.«105345_j19885698580760_2_alg».proof.Proof.K.Chain5
import proofs.«105345_j19885698580760_2_alg».proof.Proof.Region.R14
import proofs.«105345_j19885698580760_2_alg».proof.Proof.Region.R15
import proofs.«105345_j19885698580760_2_alg».proof.Proof.Region.R16

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v221 : W29 m ρ c (Proc.devRef .tc main_v221) = par_lin_w 4 (argsOf m c).lin_w :=
  (KHost.s14_v221 (W28 m ρ c)).trans (by
    rw [show W28 m ρ c (Proc.devRef .tc main_arg9) = (argsOf m c).lin_w from ((keep_arg9_28_22 m ρ c).trans ((keep_arg9_22_16 m ρ c).trans ((keep_arg9_16_10 m ρ c).trans ((keep_arg9_10_4 m ρ c).trans (keep_arg9_4_0 m ρ c)))))]
    try rfl)

theorem val_v224 : W29 m ρ c (Proc.devRef .tc main_v224) = par_row128 4 (argsOf m c).lin_b :=
  (KHost.s14_v224 (W28 m ρ c)).trans (by
    rw [show W28 m ρ c (Proc.devRef .tc main_arg10) = (argsOf m c).lin_b from ((keep_arg10_28_22 m ρ c).trans ((keep_arg10_22_16 m ρ c).trans ((keep_arg10_16_10 m ρ c).trans ((keep_arg10_10_4 m ρ c).trans (keep_arg10_4_0 m ρ c)))))]
    try rfl)

theorem val_v225 : W30 m ρ c (Proc.devRef .tc main_v225) = KVal.el (argsOf m c) 4 :=
  calc W30 m ρ c (Proc.devRef .tc main_v225) = (dat14 (V29 m ρ) c).arrAt 3 cfg14.N := W30_arr m ρ c 3
    _ = _ := Region.final14_3 (V29 m ρ) c
    _ = KVal.el (argsOf m c) 4 := by
      rw [show V29 m ρ c main_v7 = KVal.e (argsOf m c) from (((keep_v7_29_28 m ρ c).trans ((keep_v7_28_22 m ρ c).trans ((keep_v7_22_16 m ρ c).trans ((keep_v7_16_10 m ρ c).trans (keep_v7_10_4 m ρ c))))).trans (val_v7 m ρ c)),
        show V29 m ρ c main_v221 = par_lin_w 4 (argsOf m c).lin_w from (val_v221 m ρ c),
        show V29 m ρ c main_v224 = par_row128 4 (argsOf m c).lin_b from (val_v224 m ρ c)]
      try rfl

theorem val_v241 : W31 m ρ c (Proc.devRef .tc main_v241) = KVal.aggOf (argsOf m c) 4 (KVal.h4 (argsOf m c)) :=
  (KHost.s15_v241 (W30 m ρ c)).trans (by
    rw [show W30 m ρ c (Proc.devRef .tc main_v219) = KVal.h4 (argsOf m c) from ((keep_v219_30_28 m ρ c).trans (val_v219 m ρ c)),
      show W30 m ρ c (Proc.devRef .tc main_v225) = KVal.el (argsOf m c) 4 from (val_v225 m ρ c),
      show W30 m ρ c (Proc.devRef .tc main_v1) = src_row (argsOf m c).ei from (((keep_v1_30_28 m ρ c).trans ((keep_v1_28_22 m ρ c).trans ((keep_v1_22_16 m ρ c).trans ((keep_v1_16_10 m ρ c).trans ((keep_v1_10_4 m ρ c).trans (keep_v1_4_1 m ρ c)))))).trans (val_v1 m ρ c)),
      show W30 m ρ c (Proc.devRef .tc main_v3) = dst_row (argsOf m c).ei from (((keep_v3_30_28 m ρ c).trans ((keep_v3_28_22 m ρ c).trans ((keep_v3_22_16 m ρ c).trans ((keep_v3_16_10 m ρ c).trans ((keep_v3_10_4 m ρ c).trans (keep_v3_4_1 m ρ c)))))).trans (val_v3 m ρ c))]
    try rfl)

theorem val_v244 : W31 m ρ c (Proc.devRef .tc main_v244) = par_eps 4 (argsOf m c).eps :=
  (KHost.s15_v244 (W30 m ρ c)).trans (by
    rw [show W30 m ρ c (Proc.devRef .tc main_arg8) = (argsOf m c).eps from ((keep_arg8_30_28 m ρ c).trans ((keep_arg8_28_22 m ρ c).trans ((keep_arg8_22_16 m ρ c).trans ((keep_arg8_16_10 m ρ c).trans ((keep_arg8_10_4 m ρ c).trans (keep_arg8_4_0 m ρ c))))))]
    try rfl)

theorem val_v246 : W31 m ρ c (Proc.devRef .tc main_v246) = par_w1 4 (argsOf m c).w1 :=
  (KHost.s15_v246 (W30 m ρ c)).trans (by
    rw [show W30 m ρ c (Proc.devRef .tc main_arg11) = (argsOf m c).w1 from ((keep_arg11_30_28 m ρ c).trans ((keep_arg11_28_22 m ρ c).trans ((keep_arg11_22_16 m ρ c).trans ((keep_arg11_16_10 m ρ c).trans ((keep_arg11_10_4 m ρ c).trans (keep_arg11_4_0 m ρ c))))))]
    try rfl)

theorem val_v249 : W31 m ρ c (Proc.devRef .tc main_v249) = par_b1 4 (argsOf m c).b1 :=
  (KHost.s15_v249 (W30 m ρ c)).trans (by
    rw [show W30 m ρ c (Proc.devRef .tc main_arg12) = (argsOf m c).b1 from ((keep_arg12_30_28 m ρ c).trans ((keep_arg12_28_22 m ρ c).trans ((keep_arg12_22_16 m ρ c).trans ((keep_arg12_16_10 m ρ c).trans ((keep_arg12_10_4 m ρ c).trans (keep_arg12_4_0 m ρ c))))))]
    try rfl)

theorem val_v251 : W31 m ρ c (Proc.devRef .tc main_v251) = par_w2 4 (argsOf m c).w2 :=
  (KHost.s15_v251 (W30 m ρ c)).trans (by
    rw [show W30 m ρ c (Proc.devRef .tc main_arg13) = (argsOf m c).w2 from ((keep_arg13_30_28 m ρ c).trans ((keep_arg13_28_22 m ρ c).trans ((keep_arg13_22_16 m ρ c).trans ((keep_arg13_16_10 m ρ c).trans ((keep_arg13_10_4 m ρ c).trans (keep_arg13_4_0 m ρ c))))))]
    try rfl)

theorem val_v254 : W31 m ρ c (Proc.devRef .tc main_v254) = par_row128 4 (argsOf m c).b2 :=
  (KHost.s15_v254 (W30 m ρ c)).trans (by
    rw [show W30 m ρ c (Proc.devRef .tc main_arg14) = (argsOf m c).b2 from ((keep_arg14_30_28 m ρ c).trans ((keep_arg14_28_22 m ρ c).trans ((keep_arg14_22_16 m ρ c).trans ((keep_arg14_16_10 m ρ c).trans ((keep_arg14_10_4 m ρ c).trans (keep_arg14_4_0 m ρ c))))))]
    try rfl)

theorem val_v255_0 : W32 m ρ c (Proc.devRef .tc main_v255_0) = KVal.zOf (argsOf m c) 4 (KVal.h4 (argsOf m c)) :=
  calc W32 m ρ c (Proc.devRef .tc main_v255_0) = (dat15 (V31 m ρ) c).arrAt 7 cfg15.N := W32_arr m ρ c 7
    _ = _ := Region.final15_7 (V31 m ρ) c
    _ = KVal.zOf (argsOf m c) 4 (KVal.h4 (argsOf m c)) := by
      rw [show V31 m ρ c main_v219 = KVal.h4 (argsOf m c) from ((keep_v219_31_28 m ρ c).trans (val_v219 m ρ c)),
        show V31 m ρ c main_v241 = KVal.aggOf (argsOf m c) 4 (KVal.h4 (argsOf m c)) from (val_v241 m ρ c),
        show V31 m ρ c main_v244 = par_eps 4 (argsOf m c).eps from (val_v244 m ρ c),
        show V31 m ρ c main_v246 = par_w1 4 (argsOf m c).w1 from (val_v246 m ρ c),
        show V31 m ρ c main_v249 = par_b1 4 (argsOf m c).b1 from (val_v249 m ρ c),
        show V31 m ρ c main_v251 = par_w2 4 (argsOf m c).w2 from (val_v251 m ρ c),
        show V31 m ρ c main_v254 = par_row128 4 (argsOf m c).b2 from (val_v254 m ρ c)]
      try rfl

theorem val_v255_1 : W32 m ρ c (Proc.devRef .tc main_v255_1) = Cert.Spec.blockSums (KVal.zOf (argsOf m c) 4 (KVal.h4 (argsOf m c))) :=
  calc W32 m ρ c (Proc.devRef .tc main_v255_1) = (dat15 (V31 m ρ) c).arrAt 8 cfg15.N := W32_arr m ρ c 8
    _ = _ := Region.final15_8 (V31 m ρ) c
    _ = Cert.Spec.blockSums (KVal.zOf (argsOf m c) 4 (KVal.h4 (argsOf m c))) := by
      rw [show V31 m ρ c main_v219 = KVal.h4 (argsOf m c) from ((keep_v219_31_28 m ρ c).trans (val_v219 m ρ c)),
        show V31 m ρ c main_v241 = KVal.aggOf (argsOf m c) 4 (KVal.h4 (argsOf m c)) from (val_v241 m ρ c),
        show V31 m ρ c main_v244 = par_eps 4 (argsOf m c).eps from (val_v244 m ρ c),
        show V31 m ρ c main_v246 = par_w1 4 (argsOf m c).w1 from (val_v246 m ρ c),
        show V31 m ρ c main_v249 = par_b1 4 (argsOf m c).b1 from (val_v249 m ρ c),
        show V31 m ρ c main_v251 = par_w2 4 (argsOf m c).w2 from (val_v251 m ρ c),
        show V31 m ρ c main_v254 = par_row128 4 (argsOf m c).b2 from (val_v254 m ρ c)]
      try rfl

theorem val_v264 : W33 m ρ c (Proc.devRef .tc main_v264) = KVal.meanRow (argsOf m c) 4 (KVal.h4 (argsOf m c)) :=
  (KHost.s16_v264 (W32 m ρ c)).trans (by
    rw [show W32 m ρ c (Proc.devRef .tc main_v255_1) = Cert.Spec.blockSums (KVal.zOf (argsOf m c) 4 (KVal.h4 (argsOf m c))) from (val_v255_1 m ρ c)]
    try rfl)

theorem val_v255_2 : W32 m ρ c (Proc.devRef .tc main_v255_2) = Cert.Spec.blockSqSums (KVal.zOf (argsOf m c) 4 (KVal.h4 (argsOf m c))) :=
  calc W32 m ρ c (Proc.devRef .tc main_v255_2) = (dat15 (V31 m ρ) c).arrAt 9 cfg15.N := W32_arr m ρ c 9
    _ = _ := Region.final15_9 (V31 m ρ) c
    _ = Cert.Spec.blockSqSums (KVal.zOf (argsOf m c) 4 (KVal.h4 (argsOf m c))) := by
      rw [show V31 m ρ c main_v219 = KVal.h4 (argsOf m c) from ((keep_v219_31_28 m ρ c).trans (val_v219 m ρ c)),
        show V31 m ρ c main_v241 = KVal.aggOf (argsOf m c) 4 (KVal.h4 (argsOf m c)) from (val_v241 m ρ c),
        show V31 m ρ c main_v244 = par_eps 4 (argsOf m c).eps from (val_v244 m ρ c),
        show V31 m ρ c main_v246 = par_w1 4 (argsOf m c).w1 from (val_v246 m ρ c),
        show V31 m ρ c main_v249 = par_b1 4 (argsOf m c).b1 from (val_v249 m ρ c),
        show V31 m ρ c main_v251 = par_w2 4 (argsOf m c).w2 from (val_v251 m ρ c),
        show V31 m ρ c main_v254 = par_row128 4 (argsOf m c).b2 from (val_v254 m ρ c)]
      try rfl

theorem val_v265 : W33 m ρ c (Proc.devRef .tc main_v265) = KVal.varRow (argsOf m c) 4 (KVal.h4 (argsOf m c)) :=
  (KHost.s16_v265 (W32 m ρ c)).trans (by
    rw [show W32 m ρ c (Proc.devRef .tc main_v255_1) = Cert.Spec.blockSums (KVal.zOf (argsOf m c) 4 (KVal.h4 (argsOf m c))) from (val_v255_1 m ρ c),
      show W32 m ρ c (Proc.devRef .tc main_v255_2) = Cert.Spec.blockSqSums (KVal.zOf (argsOf m c) 4 (KVal.h4 (argsOf m c))) from (val_v255_2 m ρ c)]
    try rfl)

theorem val_v268 : W33 m ρ c (Proc.devRef .tc main_v268) = par_row128 4 (argsOf m c).g :=
  (KHost.s16_v268 (W32 m ρ c)).trans (by
    rw [show W32 m ρ c (Proc.devRef .tc main_arg15) = (argsOf m c).g from ((keep_arg15_32_28 m ρ c).trans ((keep_arg15_28_22 m ρ c).trans ((keep_arg15_22_16 m ρ c).trans ((keep_arg15_16_10 m ρ c).trans ((keep_arg15_10_4 m ρ c).trans (keep_arg15_4_0 m ρ c))))))]
    try rfl)

theorem val_v271 : W33 m ρ c (Proc.devRef .tc main_v271) = par_row128 4 (argsOf m c).b :=
  (KHost.s16_v271 (W32 m ρ c)).trans (by
    rw [show W32 m ρ c (Proc.devRef .tc main_arg16) = (argsOf m c).b from ((keep_arg16_32_28 m ρ c).trans ((keep_arg16_28_22 m ρ c).trans ((keep_arg16_22_16 m ρ c).trans ((keep_arg16_16_10 m ρ c).trans ((keep_arg16_10_4 m ρ c).trans (keep_arg16_4_0 m ρ c))))))]
    try rfl)

theorem val_v272 : W34 m ρ c (Proc.devRef .tc main_v272) = KVal.h5 (argsOf m c) :=
  calc W34 m ρ c (Proc.devRef .tc main_v272) = (dat16 (V33 m ρ) c).arrAt 6 cfg16.N := W34_arr m ρ c 6
    _ = _ := Region.final16_6 (V33 m ρ) c
    _ = KVal.h5 (argsOf m c) := by
      rw [show V33 m ρ c main_v255_0 = KVal.zOf (argsOf m c) 4 (KVal.h4 (argsOf m c)) from ((keep_v255_0_33_32 m ρ c).trans (val_v255_0 m ρ c)),
        show V33 m ρ c main_v219 = KVal.h4 (argsOf m c) from ((keep_v219_33_28 m ρ c).trans (val_v219 m ρ c)),
        show V33 m ρ c main_v264 = KVal.meanRow (argsOf m c) 4 (KVal.h4 (argsOf m c)) from (val_v264 m ρ c),
        show V33 m ρ c main_v265 = KVal.varRow (argsOf m c) 4 (KVal.h4 (argsOf m c)) from (val_v265 m ρ c),
        show V33 m ρ c main_v268 = par_row128 4 (argsOf m c).g from (val_v268 m ρ c),
        show V33 m ρ c main_v271 = par_row128 4 (argsOf m c).b from (val_v271 m ρ c)]
      try rfl

end Cert.KernelIdeal.KChain

end
-- ==== Proof.K.Chain7.lean ====
/-
  What the kernel program's buffers hold at the boundaries W35 … W37 of its run, as the named values of the
  argument arrays: each stretch of host operations by its stage functions, each region by the whole-array function
  its blocks assemble to.  (The layer sections are one text instantiated per layer from the table of each region's
  and stretch's buffers.)
-/
import proofs.«105345_j19885698580760_2_alg».proof.Proof.K.ChainBase
import proofs.«105345_j19885698580760_2_alg».proof.Proof.K.Keep1
import proofs.«105345_j19885698580760_2_alg».proof.Proof.K.Keep2
import proofs.«105345_j19885698580760_2_alg».proof.Proof.K.Keep3
import proofs.«105345_j19885698580760_2_alg».proof.Proof.K.Keep4
import proofs.«105345_j19885698580760_2_alg».proof.Proof.K.Keep5
import proofs.«105345_j19885698580760_2_alg».proof.Proof.K.Keep6
import proofs.«105345_j19885698580760_2_alg».proof.Proof.K.Keep7
import proofs.«105345_j19885698580760_2_alg».proof.Proof.K.Chain6

set_option maxRecDepth 16384

noncomputable section

namespace Cert.KernelIdeal.KChain

open Cert.KernelIdeal Cert.KernelIdeal.Gen Cert.KernelIdeal.KStages
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem val_v288 : W35 m ρ c (Proc.devRef .tc main_v288) = head1 (KVal.pooledV (argsOf m c)) (argsOf m c).ow1 (argsOf m c).ob1 :=
  (KHost.s17_v288 (W34 m ρ c)).trans (by
    rw [show W34 m ρ c (Proc.devRef .tc main_v272) = KVal.h5 (argsOf m c) from (val_v272 m ρ c),
      show W34 m ρ c (Proc.devRef .tc main_arg3) = (argsOf m c).batch from ((keep_arg3_34_28 m ρ c).trans ((keep_arg3_28_22 m ρ c).trans ((keep_arg3_22_16 m ρ c).trans ((keep_arg3_16_10 m ρ c).trans ((keep_arg3_10_4 m ρ c).trans (keep_arg3_4_0 m ρ c)))))),
      show W34 m ρ c (Proc.devRef .tc main_arg17) = (argsOf m c).ow1 from ((keep_arg17_34_28 m ρ c).trans ((keep_arg17_28_22 m ρ c).trans ((keep_arg17_22_16 m ρ c).trans ((keep_arg17_16_10 m ρ c).trans ((keep_arg17_10_4 m ρ c).trans (keep_arg17_4_0 m ρ c)))))),
      show W34 m ρ c (Proc.devRef .tc main_arg18) = (argsOf m c).ob1 from ((keep_arg18_34_28 m ρ c).trans ((keep_arg18_28_22 m ρ c).trans ((keep_arg18_22_16 m ρ c).trans ((keep_arg18_16_10 m ρ c).trans ((keep_arg18_10_4 m ρ c).trans (keep_arg18_4_0 m ρ c))))))]
    try rfl)

theorem val_v289 : W36 m ρ c (Proc.devRef .tc main_v289) = relu64 (head1 (KVal.pooledV (argsOf m c)) (argsOf m c).ow1 (argsOf m c).ob1) :=
  (KHost.s17_1_v289 (W35 m ρ c)).trans (by
    rw [show W35 m ρ c (Proc.devRef .tc main_v288) = head1 (KVal.pooledV (argsOf m c)) (argsOf m c).ow1 (argsOf m c).ob1 from (val_v288 m ρ c)]
    try rfl)

theorem val_v293 : W37 m ρ c (Proc.devRef .tc main_v293) = KVal.logitsV (argsOf m c) :=
  (KHost.s17_2_v293 (W36 m ρ c)).trans (by
    rw [show W36 m ρ c (Proc.devRef .tc main_v289) = relu64 (head1 (KVal.pooledV (argsOf m c)) (argsOf m c).ow1 (argsOf m c).ob1) from (val_v289 m ρ c),
      show W36 m ρ c (Proc.devRef .tc main_arg19) = (argsOf m c).ow2 from ((keep_arg19_36_34 m ρ c).trans ((keep_arg19_34_28 m ρ c).trans ((keep_arg19_28_22 m ρ c).trans ((keep_arg19_22_16 m ρ c).trans ((keep_arg19_16_10 m ρ c).trans ((keep_arg19_10_4 m ρ c).trans (keep_arg19_4_0 m ρ c))))))),
      show W36 m ρ c (Proc.devRef .tc main_arg20) = (argsOf m c).ob2 from ((keep_arg20_36_34 m ρ c).trans ((keep_arg20_34_28 m ρ c).trans ((keep_arg20_28_22 m ρ c).trans ((keep_arg20_22_16 m ρ c).trans ((keep_arg20_16_10 m ρ c).trans ((keep_arg20_10_4 m ρ c).trans (keep_arg20_4_0 m ρ c)))))))]
    try rfl)

theorem val_v284 : W35 m ρ c (Proc.devRef .tc main_v284) = KVal.pooledV (argsOf m c) :=
  (KHost.s17_v284 (W34 m ρ c)).trans (by
    rw [show W34 m ρ c (Proc.devRef .tc main_v272) = KVal.h5 (argsOf m c) from (val_v272 m ρ c),
      show W34 m ρ c (Proc.devRef .tc main_arg3) = (argsOf m c).batch from ((keep_arg3_34_28 m ρ c).trans ((keep_arg3_28_22 m ρ c).trans ((keep_arg3_22_16 m ρ c).trans ((keep_arg3_16_10 m ρ c).trans ((keep_arg3_10_4 m ρ c).trans (keep_arg3_4_0 m ρ c))))))]
    try rfl)

theorem val_v284_end : W37 m ρ c (Proc.devRef .tc main_v284) = KVal.pooledV (argsOf m c) := (keep_v284_37_35 m ρ c).trans (val_v284 m ρ c)

end Cert.KernelIdeal.KChain

end
-- ==== Proof.Spec.Sums.lean ====
/-
  Rearrangements of finite sums, valid on the extended reals because addition there is commutative and associative
  (no finiteness is needed): a sum over 50000 rows taken block by block — 25 blocks of 2000 consecutive rows —, and a
  sum over slabs of eight rows of which only row 0 carries a value.
-/
import Idealize.ShloMosaic.PureOps.Ideal

noncomputable section

namespace Cert.Spec

/-- Row `r` of block `t`, of 25 blocks of 2000 rows, is a row below 50000. -/
theorem blockRow_lt (t : Fin 25) (r : Fin 2000) : 2000 * t.val + r.val < 50000 := by
  have := t.isLt; have := r.isLt; omega

/-- Summing block by block is summing over all rows. -/
theorem sum_blocks {α : Type*} [AddCommMonoid α] (f : Fin 50000 → α) :
    ∑ t : Fin 25, ∑ r : Fin 2000, f ⟨2000 * t.val + r.val, blockRow_lt t r⟩ = ∑ i : Fin 50000, f i := by
  rw [← Finset.sum_product' (f := fun (t : Fin 25) (r : Fin 2000) => f ⟨2000 * t.val + r.val, blockRow_lt t r⟩)]
  refine Fintype.sum_equiv (finProdFinEquiv (m := 25) (n := 2000)) _ _ fun p => ?_
  refine congrArg f (Fin.ext ?_)
  show 2000 * p.1.val + p.2.val = p.2.val + 2000 * p.1.val
  omega

/-- A slab of eight rows whose row 0 holds `g` and whose other rows hold zero sums to `g`. -/
theorem sum_slab {α : Type*} [AddCommMonoid α] (g : α) : ∑ s : Fin 8, (if s.val = 0 then g else 0) = g := by
  rw [Finset.sum_eq_single (0 : Fin 8)]
  · simp
  · intro s _ hs
    exact if_neg (fun h => hs (Fin.ext h))
  · intro h; exact absurd (Finset.mem_univ _) h

end Cert.Spec

end
-- ==== Proof.Spec.Consts.lean ====
/-
  The float constants whose VALUE the argument uses, as the extended reals their bit patterns denote: the number of
  nodes `50000.0` (the variance identity needs the divisor to be the number of terms), the small positive constant
  added to the variance (only that it is a positive real: then the reciprocal square root is taken of a positive
  real), and `1.0`, `0.0` (only that they are real numbers).  Every other literal appears as the same word on both
  sides and is never evaluated.
-/
import Idealize.ShloMosaic.PureOps.Ideal

noncomputable section

namespace Cert.Spec

open Idealize.ShloMosaic

/-- `50000.0` denotes the real `50000`. -/
theorem ofBits_50000 : Ideal.ofBits .f32 0x47435000#32 = ((50000 : ℝ) : EReal) := by
  simp [Ideal.ofBits, Ideal.ieee, -EReal.coe_mul]; norm_num

/-- `1.0` denotes `1`. -/
theorem ofBits_one : Ideal.ofBits .f32 0x3F800000#32 = ((1 : ℝ) : EReal) := by
  simp [Ideal.ofBits, Ideal.ieee, -EReal.coe_mul]; norm_num

/-- `0.0` denotes `0`. -/
theorem ofBits_zero : Ideal.ofBits .f32 0x00000000#32 = ((0 : ℝ) : EReal) := by
  simp [Ideal.ofBits, Ideal.ieee]

/-- The constant added to the variance denotes a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  positivity

end Cert.Spec

end
-- ==== Proof.K.Stats.lean ====
/-
  The per-channel statistics of a node array, read off the partial sums its row blocks leave.

  A 50000 × 128 array `z` is swept in 25 blocks of 2000 consecutive rows. Each block leaves, for every channel, the sum
  of its rows' entries (and, separately, of their squares) in row 0 of an 8-row slab, the slab's other rows zero: a
  25 × 8 × 128 array. The host then sums that array over its first two axes, from zero, and divides by 50000.

  Summing over blocks and slab rows is summing, block by block, the one row of each slab that carries a value; and
  summing block by block over 25 blocks of 2000 rows is summing over all 50000 rows. Both are rearrangements of a finite
  sum of extended reals, which addition's commutativity and associativity allow with no finiteness assumption. So the
  first statistic is the channel's sum over all rows divided by 50000, the second the channel's sum of squares divided
  by 50000, and the variance the host forms is the second less the square of the first.

  The messages along the edges are read entry by entry too: changes of float format are the identity on extended reals.
-/
import proofs.«105345_j19885698580760_2_alg».proof.Proof.K.Stages
import proofs.«105345_j19885698580760_2_alg».proof.Proof.Spec.Mlp
import proofs.«105345_j19885698580760_2_alg».proof.Proof.Spec.Sums
import proofs.«105345_j19885698580760_2_alg».proof.Proof.Spec.Consts
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

open scoped BigOperators

namespace Cert.KernelIdeal.KStats

open Cert.KernelIdeal Cert.KernelIdeal.Facts₀ Cert.KernelIdeal.Facts Cert.KernelIdeal.KStages
open Idealize.ShloMosaic Idealize.ShloMosaic.ValueIdx

variable [Facts]

/-! ## A sum over the first two axes of a 25 × 8 × 128 array -/

/-- The host's sum over the first two axes of a 25 × 8 × 128 array, at channel `c`: the initial value plus the double
    sum over blocks and slab rows. The indices that reduce to channel `c` are exactly the triples `(t, s, c)`. -/
theorem hostSum_blocks_slabs (h : Shape.ReducesTo (⟨3, ![25, 8, 128]⟩ : Shape) [0, 1] (⟨1, ![128]⟩ : Shape))
    (x : (⟨3, ![25, 8, 128]⟩ : Shape).Idx → EReal) (init : EReal) (c : Fin 128) :
    Ideal.hostReduceAdd h x init (ix1 c) = init + ∑ t : Fin 25, ∑ s : Fin 8, x (ix3 t s c) := by
  unfold Ideal.hostReduceAdd
  congr 1
  rw [← Finset.sum_product' (f := fun (t : Fin 25) (s : Fin 8) => x (ix3 t s c))]
  symm
  refine Finset.sum_bij (fun (p : Fin 25 × Fin 8) _ => (ix3 p.1 p.2 c : (⟨3, ![25, 8, 128]⟩ : Shape).Idx)) ?_ ?_ ?_ ?_
  · intro p _
    rw [Finset.mem_filter]
    refine ⟨Finset.mem_univ _, ?_⟩
    funext b
    apply Fin.ext
    match b with
    | ⟨0, _⟩ => exact h.drop_apply_val_of_eq (ix3 p.1 p.2 c) 0 2
  · intro p _ q _ e
    exact Prod.ext (congrFun e 0) (congrFun e 1)
  · intro i hi
    rw [Finset.mem_filter] at hi
    have h2 : (i 2).val = c.val := by
      rw [← h.drop_apply_val_of_eq i 0 2]
      exact congrArg Fin.val (congrFun hi.2 0)
    refine ⟨(i 0, i 1), Finset.mem_univ _, ?_⟩
    funext a
    match a with
    | ⟨0, _⟩ => rfl
    | ⟨1, _⟩ => rfl
    | ⟨2, _⟩ => exact Fin.ext h2.symm
  · intro p _
    rfl

/-! ## A column statistic from its partial sums -/

/-- The host's statistic at channel `c`: the sum of the partial sums over blocks and slab rows, from zero, over 50000. -/
theorem meanOf_ix1 (parts : (⟨3, ![25, 8, 128]⟩ : Shape).Idx → EReal) (c : Fin 128) :
    meanOf (F := Ideal) parts (ix1 c)
      = Ideal.div (∑ t : Fin 25, ∑ s : Fin 8, parts (ix3 t s c)) ((50000 : ℝ) : EReal) := by
  unfold meanOf
  rw [hostDivf_apply, hostReduceAdd_apply, broadcastInDim_scalar_apply, constant_apply, constant_apply,
    Cert.Spec.ofBits_50000, Ideal.ofBits_zero_f32, hostSum_blocks_slabs, zero_add]

/-- The blocks' column sums, summed over blocks and slab rows, are the column's sum over all 50000 rows. -/
theorem sum_blockSums (z : (⟨2, ![50000, 128]⟩ : Shape).Idx → EReal) (c : Fin 128) :
    ∑ t : Fin 25, ∑ s : Fin 8, Cert.Spec.blockSums z (ix3 t s c) = ∑ r : Fin 50000, z (ix2 r c) := by
  simp only [Cert.Spec.blockSums_apply, Cert.Spec.sum_slab]
  exact Cert.Spec.sum_blocks (fun i => z (ix2 i c))

/-- The same for the blocks' column sums of squares. -/
theorem sum_blockSqSums (z : (⟨2, ![50000, 128]⟩ : Shape).Idx → EReal) (c : Fin 128) :
    ∑ t : Fin 25, ∑ s : Fin 8, Cert.Spec.blockSqSums z (ix3 t s c) = ∑ r : Fin 50000, z (ix2 r c) * z (ix2 r c) := by
  simp only [Cert.Spec.blockSqSums_apply, Cert.Spec.sum_slab]
  exact Cert.Spec.sum_blocks (fun i => z (ix2 i c) * z (ix2 i c))

/-- The first statistic: each channel's sum over all rows, over 50000. -/
theorem meanOf_blockSums (z : (⟨2, ![50000, 128]⟩ : Shape).Idx → EReal) :
    meanOf (F := Ideal) (Cert.Spec.blockSums z)
      = fun j => Ideal.div (∑ r : Fin 50000, z (ix2 r (j 0))) ((50000 : ℝ) : EReal) := by
  funext j
  obtain ⟨c, rfl⟩ : ∃ c : Fin 128, j = ix1 c := ⟨j 0, eq_ix1 j⟩
  rw [meanOf_ix1, sum_blockSums]

/-- The second statistic: each channel's sum of squares over all rows, over 50000. -/
theorem meanOf_blockSqSums (z : (⟨2, ![50000, 128]⟩ : Shape).Idx → EReal) :
    meanOf (F := Ideal) (Cert.Spec.blockSqSums z)
      = fun j => Ideal.div (∑ r : Fin 50000, z (ix2 r (j 0)) * z (ix2 r (j 0))) ((50000 : ℝ) : EReal) := by
  funext j
  obtain ⟨c, rfl⟩ : ∃ c : Fin 128, j = ix1 c := ⟨j 0, eq_ix1 j⟩
  rw [meanOf_ix1, sum_blockSqSums]

/-- The variance the host forms: the mean of the squares less the square of the mean, channel by channel. -/
theorem varOf_blocks (z : (⟨2, ![50000, 128]⟩ : Shape).Idx → EReal) :
    varOf (F := Ideal) (Cert.Spec.blockSums z) (Cert.Spec.blockSqSums z)
      = fun j => Ideal.div (∑ r : Fin 50000, z (ix2 r (j 0)) * z (ix2 r (j 0))) ((50000 : ℝ) : EReal)
          - Ideal.div (∑ r : Fin 50000, z (ix2 r (j 0))) ((50000 : ℝ) : EReal)
            * Ideal.div (∑ r : Fin 50000, z (ix2 r (j 0))) ((50000 : ℝ) : EReal) := by
  funext j
  unfold varOf
  rw [subf_apply, mulf_apply, meanOf_blockSums, meanOf_blockSqSums]

/-! ## The messages along the edges -/

/-- A message entry: the gathered source-node entry plus the edge projection's entry, rectified. The two changes of
    float format around the rectifier are the identity on extended reals, and the zero it is compared with is the
    zero word. -/
theorem msg_apply (h : Tf Ideal S50000x128) (el : Tb Ideal S640000x128) (src : Ti Ideal S640000) (i : S640000x128.Idx) :
    msg (F := Ideal) h el src i
      = max (Host.gather gather_S50000x128_S640000x1_S640000x128_1_0_n_n_0_1_1128 h
              (broadcastInDim S640000x1 ![0] bcast_S640000_S640000x1_0
                (select (cmpi .slt src (broadcastInDim S640000 ![] bcast_S_S640000 (constantI S_ 32 0#32)))
                  (addi src (broadcastInDim S640000 ![] bcast_S_S640000 (constantI S_ 32 50000#32))) src)) i
            + el i) 0 := by
  unfold msg
  rw [extf_apply, truncf_apply, maximumf_apply, addf_apply, extf_apply, broadcastInDim_scalar_apply, constant_apply,
    Ideal.ofBits_zero_f32]

end Cert.KernelIdeal.KStats

end
-- ==== Proof.Spec.Layout.lean ====
/-
  Two re-readings of small arrays as matrices, so that a per-column vector and a single number can stand where a
  one-row matrix and a one-by-one matrix are expected: a vector of N entries is the 1 × N matrix whose entry (0, c)
  is entry c of the vector, and a number is the 1 × 1 matrix holding it.
-/
import Idealize.ShloMosaic.PureOps.Ideal
import Idealize.ShloMosaic.Lib.ValueIdx

noncomputable section

namespace Cert.Spec

open Idealize.ShloMosaic

/-- A vector of N entries as a one-row matrix: entry (0, c) is entry c. -/
def row {N : Nat} (b : (⟨1, ![N]⟩ : Shape).Idx → EReal) : (⟨2, ![1, N]⟩ : Shape).Idx → EReal :=
  fun i => b (ValueIdx.ix1 (i 1))

/-- A single number as a one-by-one matrix. -/
def cell (e : (⟨0, ![]⟩ : Shape).Idx → EReal) : (⟨2, ![1, 1]⟩ : Shape).Idx → EReal := fun _ => e ValueIdx.ix0

/-- The one-row matrix read at (q, c) is the vector at c. -/
theorem row_ix2 {N : Nat} (b : (⟨1, ![N]⟩ : Shape).Idx → EReal) (q : Fin 1) (c : Fin N) :
    row b (ValueIdx.ix2 q c) = b (ValueIdx.ix1 c) := rfl

/-- The one-by-one matrix read anywhere is the number. -/
theorem cell_apply (e : (⟨0, ![]⟩ : Shape).Idx → EReal) (i : (⟨2, ![1, 1]⟩ : Shape).Idx) : cell e i = e ValueIdx.ix0 := rfl

end Cert.Spec

end
-- ==== Proof.Bridge.Layout.lean ====
/-
  The small arrays the kernel program hands its regions — a bias or a per-column statistic recast from N entries to a
  1 × N row, the per-layer scalar recast to 1 × 1 — are the reference's vector read as a one-row matrix and its number
  read as a one-by-one matrix; and layer `l`'s slices of the stacked parameters are the same arrays in both programs.
-/
import proofs.«105345_j19885698580760_2_alg».proof.Proof.K.Stages
import proofs.«105345_j19885698580760_2_alg».proof.Proof.RefRun.Stages
import proofs.«105345_j19885698580760_2_alg».proof.Proof.Spec.Layout
import Idealize.ShloMosaic.Lib.ValueLayout
import Idealize.ShloMosaic.Lib.Pipeline.Value

noncomputable section

namespace Cert.Bridge

open Idealize.ShloMosaic Idealize.ShloMosaic.ValueIdx

variable [Cert.KernelIdeal.Facts] [Cert.ReferenceIdeal.Facts]

/-- A 128-vector recast to a 1×128 row is the vector read as a one-row matrix. -/
theorem row128_eq (v : Cert.KernelIdeal.KStages.Tf Ideal Cert.KernelIdeal.S128) :
    Cert.KernelIdeal.KStages.row128 v = Cert.Spec.row v := by
  funext i
  obtain ⟨u, j, rfl⟩ : ∃ (u : Fin 1) (j : Fin 128), i = ix2 u j := ⟨i 0, i 1, eq_ix2 i⟩
  exact shapeCast_a_1a_apply v _ u j

/-- Layer `l`'s 128-row of a stacked parameter, as the kernel program's regions read it. -/
theorem par_row128_eq (l : Fin 5) (a : Cert.KernelIdeal.KStages.Tf Ideal Cert.KernelIdeal.S5x128) :
    Cert.KernelIdeal.KStages.par_row128 l a = Cert.Spec.row (Cert.ReferenceIdeal.RefRun.par_row128 l a) :=
  row128_eq _

/-- Layer `l`'s 256-row of the first perceptron bias. -/
theorem par_b1_eq (l : Fin 5) (a : Cert.KernelIdeal.KStages.Tf Ideal Cert.KernelIdeal.S5x256) :
    Cert.KernelIdeal.KStages.par_b1 l a = Cert.Spec.row (Cert.ReferenceIdeal.RefRun.par_b1 l a) := by
  funext i
  obtain ⟨u, j, rfl⟩ : ∃ (u : Fin 1) (j : Fin 256), i = ix2 u j := ⟨i 0, i 1, eq_ix2 i⟩
  exact shapeCast_a_1a_apply (Cert.ReferenceIdeal.RefRun.par_b1 l a) _ u j

/-- Layer `l`'s self-loop weight as a 1×1 array. -/
theorem par_eps_eq (l : Fin 5) (a : Cert.KernelIdeal.KStages.Tf Ideal Cert.KernelIdeal.S5) :
    Cert.KernelIdeal.KStages.par_eps l a = Cert.Spec.cell (Cert.ReferenceIdeal.RefRun.par_eps l a) := by
  funext i
  exact shapeCast_apply (Cert.ReferenceIdeal.RefRun.par_eps l a) _ i ix0 (by
    have h0 : (i 0).val = 0 := by have : (i 0).val < 1 := (i 0).isLt; omega
    have h1 : (i 1).val = 0 := by have : (i 1).val < 1 := (i 1).isLt; omega
    rw [Shape.rowMajor_val_two]
    show _ = (i 0).val * 1 + (i 1).val
    rw [h0, h1]
    rfl)

theorem par_lin_w_eq (l : Fin 5) (a : Cert.KernelIdeal.KStages.Tf Ideal Cert.KernelIdeal.S5x128x128) :
    Cert.KernelIdeal.KStages.par_lin_w l a = Cert.ReferenceIdeal.RefRun.par_lin_w l a := rfl
theorem par_w1_eq (l : Fin 5) (a : Cert.KernelIdeal.KStages.Tf Ideal Cert.KernelIdeal.S5x128x256) :
    Cert.KernelIdeal.KStages.par_w1 l a = Cert.ReferenceIdeal.RefRun.par_w1 l a := rfl
theorem par_w2_eq (l : Fin 5) (a : Cert.KernelIdeal.KStages.Tf Ideal Cert.KernelIdeal.S5x256x128) :
    Cert.KernelIdeal.KStages.par_w2 l a = Cert.ReferenceIdeal.RefRun.par_w2 l a := rfl

end Cert.Bridge

end
-- ==== Proof.Spec.Moments.lean ====
/-
  The two ways of taking a column's variance agree on real data.

  One program takes the mean of the squared deviations from the mean; the other takes the mean of the squares and
  subtracts the square of the mean.  Over the reals, with `N` the number of terms, both are
  `(∑ z²)/N − ((∑ z)/N)²`; on the extended reals the identity needs every term to be a real number, since it
  moves a factor across a sum and cancels, which fail at the infinities.  The division is the extended reals'
  `Ideal.div`, which for a nonzero real divisor is the product with its reciprocal.
-/
import Idealize.ShloMosaic.PureOps.Ideal

noncomputable section

namespace Cert.Spec

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean squared deviation is the mean square less the squared mean, when `N` counts the terms. -/
theorem real_var_two_forms {ι : Type*} [Fintype ι] (z : ι → ℝ) (N : ℝ) (hN : N ≠ 0) (hcard : (Fintype.card ι : ℝ) = N) :
    (∑ i, (z i - (∑ j, z j) * (1 / N)) * (z i - (∑ j, z j) * (1 / N))) * (1 / N)
      = (∑ i, z i * z i) * (1 / N) - ((∑ j, z j) * (1 / N)) * ((∑ j, z j) * (1 / N)) := by
  have h1 : ∀ i, (z i - (∑ j, z j) * (1 / N)) * (z i - (∑ j, z j) * (1 / N))
      = z i * z i - 2 * ((∑ j, z j) * (1 / N)) * z i + ((∑ j, z j) * (1 / N)) * ((∑ j, z j) * (1 / N)) := fun i => by ring
  rw [Finset.sum_congr rfl (fun i _ => h1 i), Finset.sum_add_distrib, Finset.sum_sub_distrib, ← Finset.mul_sum,
    Finset.sum_const, Finset.card_univ, nsmul_eq_mul, hcard]
  field_simp
  ring

/-- On the extended reals, for real data `z` and a nonzero real count `N` of the terms: the mean (by `Ideal.div`) of the
    squared deviations from the mean is the mean of the squares less the square of the mean. -/
theorem var_two_forms {ι : Type*} [Fintype ι] (z : ι → ℝ) (N : ℝ) (hN : N ≠ 0) (hcard : (Fintype.card ι : ℝ) = N) :
    Ideal.div (∑ i, ((z i : EReal) - Ideal.div (∑ j, (z j : EReal)) (N : EReal)) * ((z i : EReal) - Ideal.div (∑ j, (z j : EReal)) (N : EReal))) (N : EReal)
      = Ideal.div (∑ i, (z i : EReal) * (z i : EReal)) (N : EReal)
        - Ideal.div (∑ j, (z j : EReal)) (N : EReal) * Ideal.div (∑ j, (z j : EReal)) (N : EReal) := by
  simp only [Ideal.div_coe hN, ← coe_sum, ← EReal.coe_mul, ← EReal.coe_sub]
  exact congrArg _ (real_var_two_forms z N hN hcard)

end Cert.Spec

end
-- ==== Proof.Bridge.Real.lean ====
/-
  Every value the kernel program computes from real-valued arguments is real-valued.  An affine map's entry is a
  finite sum of products plus a bias; a gathered row is a row of the table; a scatter-sum's entry is a finite sum of
  updates; a column mean is a finite sum over a nonzero real; the variance, in the form "mean of squared deviations",
  is a nonnegative real, so the reciprocal square root is taken of a positive real; maxima with zero, products and sums
  keep reals real.  Recasts and slices only re-index.
-/
import proofs.«105345_j19885698580760_2_alg».proof.Proof.K.Values
import proofs.«105345_j19885698580760_2_alg».proof.Proof.K.Stats
import proofs.«105345_j19885698580760_2_alg».proof.Proof.Spec.Finite
import proofs.«105345_j19885698580760_2_alg».proof.Proof.Spec.Consts
import proofs.«105345_j19885698580760_2_alg».proof.Proof.Spec.Layout
import proofs.«105345_j19885698580760_2_alg».proof.Proof.Spec.Moments

noncomputable section

namespace Cert.Bridge

open Idealize.ShloMosaic Idealize.ShloMosaic.ValueIdx Cert.Spec
open Cert.KernelIdeal Cert.KernelIdeal.Facts₀ Cert.KernelIdeal.Facts Cert.KernelIdeal.KStages

variable [Cert.KernelIdeal.Facts]

/-- Re-indexing keeps an array real-valued. -/
theorem allReal_comp {ι κ : Type*} {x : κ → EReal} (hx : AllReal x) (f : ι → κ) : AllReal (fun j => x (f j)) := fun j => hx _

theorem allReal_shapeCast {s t : Shape} {x : s.Idx → EReal} (hx : AllReal x) (h : s.ShapeCasts t) : AllReal (shapeCast t x h) :=
  fun j => hx _
theorem allReal_slice {s t : Shape} {x : s.Idx → EReal} (hx : AllReal x) (off : Fin s.rank → Nat) (h : s.Slices off t) :
    AllReal (extractStridedSlice t off x h) := fun j => hx _

theorem allReal_row {N : Nat} {v : (⟨1, ![N]⟩ : Shape).Idx → EReal} (hv : AllReal v) : AllReal (Cert.Spec.row v) := fun i => hv _
theorem allReal_cell {e : (⟨0, ![]⟩ : Shape).Idx → EReal} (he : AllReal e) : AllReal (Cert.Spec.cell e) := fun i => he _

/-- The words the programs spell whose realness is used. -/
theorem isReal_one : IsReal (Ideal.ofBits .f32 0x3F800000#32) := ⟨1, ofBits_one⟩

theorem allReal_affine {M K N : Nat} {x : (⟨2, ![M, K]⟩ : Shape).Idx → EReal} {w : (⟨2, ![K, N]⟩ : Shape).Idx → EReal}
    {b : (⟨2, ![1, N]⟩ : Shape).Idx → EReal} (hx : AllReal x) (hw : AllReal w) (hb : AllReal b) : AllReal (affine x w b) :=
  fun i => (isReal_sum _ _ fun k _ => (hx _).mul (hw _)).add (hb _)

theorem allReal_affineRelu {M K N : Nat} {x : (⟨2, ![M, K]⟩ : Shape).Idx → EReal} {w : (⟨2, ![K, N]⟩ : Shape).Idx → EReal}
    {b : (⟨2, ![1, N]⟩ : Shape).Idx → EReal} (hx : AllReal x) (hw : AllReal w) (hb : AllReal b) : AllReal (affineRelu x w b) :=
  fun i => (allReal_affine hx hw hb i).max isReal_zero

/-! ## Layer `l`'s parameters -/

theorem allReal_row128 {v : Tf Ideal S128} (hv : AllReal v) : AllReal (row128 v) := allReal_shapeCast hv _
theorem allReal_par_lin_w (l : Fin 5) {a : Tf Ideal S5x128x128} (ha : AllReal a) : AllReal (par_lin_w l a) :=
  allReal_shapeCast (allReal_slice ha _ _) _
theorem allReal_par_row128 (l : Fin 5) {a : Tf Ideal S5x128} (ha : AllReal a) : AllReal (par_row128 l a) :=
  allReal_shapeCast (allReal_shapeCast (allReal_slice ha _ _) _) _
theorem allReal_par_eps (l : Fin 5) {a : Tf Ideal S5} (ha : AllReal a) : AllReal (par_eps l a) :=
  allReal_shapeCast (allReal_shapeCast (allReal_slice ha _ _) _) _
theorem allReal_par_w1 (l : Fin 5) {a : Tf Ideal S5x128x256} (ha : AllReal a) : AllReal (par_w1 l a) :=
  allReal_shapeCast (allReal_slice ha _ _) _
theorem allReal_par_b1 (l : Fin 5) {a : Tf Ideal S5x256} (ha : AllReal a) : AllReal (par_b1 l a) :=
  allReal_shapeCast (allReal_shapeCast (allReal_slice ha _ _) _) _
theorem allReal_par_w2 (l : Fin 5) {a : Tf Ideal S5x256x128} (ha : AllReal a) : AllReal (par_w2 l a) :=
  allReal_shapeCast (allReal_slice ha _ _) _

/-! ## The messages and their sums -/

theorem allReal_msg {h : Tf Ideal S50000x128} {el : Tb Ideal S640000x128} (hh : AllReal h) (hel : AllReal el)
    (src : Ti Ideal S640000) : AllReal (msg (F := Ideal) h el src) := fun i => by
  rw [Cert.KernelIdeal.KStats.msg_apply]
  exact ((hh _).add (hel i)).max isReal_zero

/-- A scatter-sum of real-valued updates into a real-valued array is real-valued: each entry is the array's entry plus a
    finite sum of updates.  Stated for any shapes, so that the sum is never formed at the program's extents. -/
theorem allReal_hostScatterAdd {s si su : Shape} (d : ScatterDims s si su) {w : Nat} (x : s.Idx → EReal) (idx : IVec si w)
    (upd : su.Idx → EReal) (hx : AllReal x) (hu : AllReal upd) : AllReal (Ideal.hostScatterAdd d x idx upd) := fun i => by
  unfold Ideal.hostScatterAdd
  exact (hx i).add (isReal_sum _ _ fun j _ => hu j)

/-- The host's scatter-sum over the extended reals is that explicit sum (any shapes). -/
theorem scatterAdd_eq {s si su : Shape} {w : Nat} (d : ScatterDims s si su) (x : FVec Ideal s .f32) (idx : IVec si w)
    (upd : FVec Ideal su .f32) : Host.scatterAdd (F := Ideal) d x idx upd = Ideal.hostScatterAdd d x idx upd := rfl

/-- The host's scatter-sum of real-valued updates into a real-valued array is real-valued (any shapes). -/
theorem allReal_scatterAdd {s si su : Shape} {w : Nat} (d : ScatterDims s si su) (x : FVec Ideal s .f32) (idx : IVec si w)
    (upd : FVec Ideal su .f32) (hx : AllReal x) (hu : AllReal upd) : AllReal (Host.scatterAdd (F := Ideal) d x idx upd) := by
  rw [scatterAdd_eq]
  exact allReal_hostScatterAdd d x idx upd hx hu

/-- The array of zeros the sums start from is real-valued. -/
theorem allReal_zeros :
    AllReal (broadcastInDim S50000x128 ![] bcast_S_S50000x128 (constant (F := Ideal) S_ .f32 0x00000000#32)) := fun i => by
  rw [broadcastInDim_scalar_apply, constant_apply]
  exact ⟨0, ofBits_zero⟩

theorem allReal_agg {m : Tf Ideal S640000x128} (hm : AllReal m) (dst : Ti Ideal S640000) : AllReal (agg (F := Ideal) m dst) :=
  fun i => by
    unfold agg
    exact allReal_scatterAdd _ _ _ _ allReal_zeros hm i

/-! ## The perceptron -/

theorem allReal_mlpZ {h agg : (⟨2, ![50000, 128]⟩ : Shape).Idx → EReal} {eps : (⟨2, ![1, 1]⟩ : Shape).Idx → EReal}
    {w1 : (⟨2, ![128, 256]⟩ : Shape).Idx → EReal} {b1 : (⟨2, ![1, 256]⟩ : Shape).Idx → EReal}
    {w2 : (⟨2, ![256, 128]⟩ : Shape).Idx → EReal} {b2 : (⟨2, ![1, 128]⟩ : Shape).Idx → EReal}
    (hh : AllReal h) (ha : AllReal agg) (he : AllReal eps) (hw1 : AllReal w1) (hb1 : AllReal b1) (hw2 : AllReal w2)
    (hb2 : AllReal b2) : AllReal (mlpZ h agg eps w1 b1 w2 b2) := by
  have hpre : AllReal (mlpPre h agg eps) := fun i => ((hh i).mul (isReal_one.add (he _))).add (ha i)
  have hhid : AllReal (mlpHid (mlpPre h agg eps) w1 b1) := fun i =>
    ((isReal_sum _ _ fun k _ => (hpre _).mul (hw1 _)).add (hb1 _)).max isReal_zero
  exact fun i => (isReal_sum _ _ fun k _ => (hhid _).mul (hw2 _)).add (hb2 _)

/-! ## The statistics and the normalization -/

/-- The column mean of a real-valued array is real. -/
theorem isReal_colMean {z : (⟨2, ![50000, 128]⟩ : Shape).Idx → EReal} (hz : AllReal z) (c : Fin 128) :
    IsReal (Ideal.div (∑ r : Fin 50000, z (ix2 r c)) ((50000 : ℝ) : EReal)) :=
  (isReal_sum _ _ fun r _ => hz _).div_coe (by norm_num)

/-- The mean squared deviation of a real-valued column is a nonnegative real. -/
theorem nonneg_colVar {z : (⟨2, ![50000, 128]⟩ : Shape).Idx → EReal} (hz : AllReal z) (c : Fin 128) :
    ∃ v : ℝ, 0 ≤ v ∧ Ideal.div (∑ r : Fin 50000, (z (ix2 r c) - Ideal.div (∑ r' : Fin 50000, z (ix2 r' c)) ((50000 : ℝ) : EReal))
        * (z (ix2 r c) - Ideal.div (∑ r' : Fin 50000, z (ix2 r' c)) ((50000 : ℝ) : EReal))) ((50000 : ℝ) : EReal) = (v : EReal) := by
  choose zr hzr using fun r : Fin 50000 => hz (ix2 r c)
  have hN : (50000 : ℝ) ≠ 0 := by norm_num
  refine ⟨(∑ r : Fin 50000, (zr r - (∑ r' : Fin 50000, zr r') * (1 / 50000)) * (zr r - (∑ r' : Fin 50000, zr r') * (1 / 50000)))
      * (1 / 50000), mul_nonneg (Finset.sum_nonneg fun r _ => mul_self_nonneg _) (by norm_num), ?_⟩
  simp only [hzr, Ideal.div_coe hN, ← coe_sum, ← EReal.coe_mul, ← EReal.coe_sub]

/-- The normalization with the residual keeps reals real when the variance row is a nonnegative real. -/
theorem allReal_normRes {z h : (⟨2, ![50000, 128]⟩ : Shape).Idx → EReal} {mean var g b : (⟨2, ![1, 128]⟩ : Shape).Idx → EReal}
    (hz : AllReal z) (hh : AllReal h) (hm : AllReal mean) (hv : ∀ c : Fin 128, ∃ v : ℝ, 0 ≤ v ∧ var (ix2 (0 : Fin 1) c) = (v : EReal))
    (hg : AllReal g) (hb : AllReal b) : AllReal (normRes z h mean var g b) := fun i => by
  obtain ⟨r, c, rfl⟩ : ∃ (r : Fin 50000) (c : Fin 128), i = ix2 r c := ⟨i 0, i 1, eq_ix2 i⟩
  rw [normRes_ix2]
  obtain ⟨v, hv0, hvc⟩ := hv c
  obtain ⟨e, he0, hec⟩ := ofBits_eps
  have hrs : IsReal (Ideal.rsqrt (var (ix2 (0 : Fin 1) c) + Ideal.ofBits .f32 0x3727C5AC#32)) := by
    rw [hvc, hec, ← EReal.coe_add]
    exact isReal_rsqrt_pos (by linarith)
  exact ((((((hz _).sub (hm _)).mul hrs).mul (hg _)).add (hb _)).add (hh _)).max isReal_zero

end Cert.Bridge

end
-- ==== Proof.RefStage.Basic.lean ====
/-
  The operations of the reference program read at an index, over the extended reals.  Every array operation the
  reference's stages are made of is a function of whole arrays; here each is read at one entry, given by its
  coordinates: a number broadcast to an array reads the number everywhere; a vector broadcast along the rows of a
  matrix reads, at (r, c), the vector at c; a matrix product reads, at (r, c), the sum over k of the products of row
  r of the left factor with column c of the right factor; the column sums of a matrix read, at c, the sum over the
  rows r of entry (r, c).
-/
import proofs.«105345_j19885698580760_2_alg».proof.Proof.RefRun.Stages
import Idealize.ShloMosaic.Lib.ValueIdx
import Idealize.ShloMosaic.Lib.Pipeline.Value
import Idealize.ShloMosaic.PureOps.Ideal.Laws

noncomputable section

open scoped BigOperators

namespace Cert.RefStage

open Cert.ReferenceIdeal Cert.ReferenceIdeal.Facts₀ Cert.ReferenceIdeal.Facts Cert.ReferenceIdeal.RefRun
open Idealize.ShloMosaic Idealize.ShloMosaic.ValueIdx

/-! ## Broadcasts read at an index -/

/-- A number broadcast to any shape reads the number at every index. -/
theorem bcast0_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector of N entries laid out as a one-row matrix reads, at (q, c), the vector at c. -/
theorem bcast_lift_apply {α : Type} {N : Nat}
    (h : (⟨1, ![N]⟩ : Shape).BroadcastsInDim ⟨2, ![1, N]⟩ (![1] : Fin 1 → Fin 2))
    (b : (⟨1, ![N]⟩ : Shape).Idx → α) (q : Fin 1) (c : Fin N) :
    broadcastInDim ⟨2, ![1, N]⟩ ![1] h b (ix2 q c) = b (ix1 c) := by
  refine broadcastInDim_apply _ h b (ix2 q c) (ix1 c) fun a => ?_
  match a with
  | ⟨0, _⟩ =>
    show c.val = if N = 1 then 0 else c.val
    split
    · have := c.isLt; omega
    · rfl

/-- A one-row matrix repeated along M rows reads, at (r, c), the row at (0, c). -/
theorem bcast_rows_apply {α : Type} {M N : Nat}
    (h : (⟨2, ![1, N]⟩ : Shape).BroadcastsInDim ⟨2, ![M, N]⟩ (![0, 1] : Fin 2 → Fin 2))
    (x : (⟨2, ![1, N]⟩ : Shape).Idx → α) (r : Fin M) (c : Fin N) :
    broadcastInDim ⟨2, ![M, N]⟩ ![0, 1] h x (ix2 r c) = x (ix2 (0 : Fin 1) c) := by
  refine broadcastInDim_apply _ h x (ix2 r c) (ix2 (0 : Fin 1) c) fun a => ?_
  match a with
  | ⟨0, _⟩ => rfl
  | ⟨1, _⟩ =>
    show c.val = if N = 1 then 0 else c.val
    split
    · have := c.isLt; omega
    · rfl

/-- A vector of N entries added to every row of an M × N matrix: the broadcast reads, at (r, c), the vector at c. -/
theorem bcast_row_apply {α : Type} {M N : Nat}
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (r : Fin M) (c : Fin N) :
    broadcastInDim ⟨2, ![M, N]⟩ ![0, 1] h2 (broadcastInDim ⟨2, ![1, N]⟩ ![1] h1 b) (ix2 r c) = b (ix1 c) :=
  (bcast_rows_apply h2 _ r c).trans (bcast_lift_apply h1 b 0 c)

variable [Cert.ReferenceIdeal.Facts]

/-! ## Matrix products read at an index -/

/-! ### The 50000 × 64 by 64 × 128 product -/

theorem lhs_encNode_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch from List.not_mem_nil),
    dif_pos (show (0 : Fin S50000x64.rank) ∈ dot_S50000x64_S64x128_S50000x128_1_0_0_1_n_n.lhsNonContracting from List.mem_singleton.mpr rfl)]
  rfl
theorem lhs_encNode_1 (i : S50000x128.Idx) (q : dot_S50000x64_S64x128_S50000x128_1_0_0_1_n_n.contr.Idx) :
    (dot_S50000x64_S64x128_S50000x128_1_0_0_1_n_n.lhsIdx i q 1).val = (q ⟨0, Nat.one_pos⟩).val :=
  dot_S50000x64_S64x128_S50000x128_1_0_0_1_n_n.lhsIdx_val_of_single rfl i q
theorem rhs_encNode_0 (i : S50000x128.Idx) (q : dot_S50000x64_S64x128_S50000x128_1_0_0_1_n_n.contr.Idx) :
    (dot_S50000x64_S64x128_S50000x128_1_0_0_1_n_n.rhsIdx i q 0).val = (q ⟨0, Nat.one_pos⟩).val :=
  dot_S50000x64_S64x128_S50000x128_1_0_0_1_n_n.rhsIdx_val_of_single rfl i q
theorem rhs_encNode_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch from List.not_mem_nil),
    dif_pos (show (1 : Fin S64x128.rank) ∈ dot_S50000x64_S64x128_S50000x128_1_0_0_1_n_n.rhsNonContracting from List.mem_singleton.mpr rfl)]
  rfl

/-- Entry (r, c) of the product is the sum over k of x (r, k) * w (k, c): over the extended reals the product is this
    exact sum. -/
theorem dot_encNode_apply (x : FVec Ideal S50000x64 .f32) (w : FVec Ideal S64x128 .f32) (r : Fin 50000) (c : Fin 128) :
    Host.dotGeneral (F := Ideal) (φ₁ := .f32) (φ₂ := .f32) dot_S50000x64_S64x128_S50000x128_1_0_0_1_n_n none x w (ix2 r c)
      = ∑ k : Fin 64, x (ix2 r k) * w (ix2 k c) := by
  simp only [Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have el : dot_S50000x64_S64x128_S50000x128_1_0_0_1_n_n.lhsIdx (ix2 r c) ((ValueIdx.contrEquiv1 dot_S50000x64_S64x128_S50000x128_1_0_0_1_n_n 64 rfl rfl).symm k) = ix2 r k := funext fun a => Fin.ext (by
    match a with
    | ⟨0, _⟩ => exact lhs_encNode_0 _ _
    | ⟨1, _⟩ => exact (lhs_encNode_1 _ _).trans hk)
  have er : dot_S50000x64_S64x128_S50000x128_1_0_0_1_n_n.rhsIdx (ix2 r c) ((ValueIdx.contrEquiv1 dot_S50000x64_S64x128_S50000x128_1_0_0_1_n_n 64 rfl rfl).symm k) = ix2 k c := funext fun a => Fin.ext (by
    match a with
    | ⟨0, _⟩ => exact (rhs_encNode_0 _ _).trans hk
    | ⟨1, _⟩ => exact rhs_encNode_1 _ _)
  rw [el, er]

/-! ### The 640000 × 16 by 16 × 128 product -/

theorem lhs_encEdge_0 (i : S640000x128.Idx) (q : dot_S640000x16_S16x128_S640000x128_1_0_0_1_n_n.contr.Idx) :
    (dot_S640000x16_S16x128_S640000x128_1_0_0_1_n_n.lhsIdx i q 0).val = (i 0).val := by
  unfold DotDims.lhsIdx
  rw [dif_neg (show ¬(0 : Fin S640000x16.rank) ∈ dot_S640000x16_S16x128_S640000x128_1_0_0_1_n_n.lhsBatch from List.not_mem_nil),
    dif_pos (show (0 : Fin S640000x16.rank) ∈ dot_S640000x16_S16x128_S640000x128_1_0_0_1_n_n.lhsNonContracting from List.mem_singleton.mpr rfl)]
  rfl
theorem lhs_encEdge_1 (i : S640000x128.Idx) (q : dot_S640000x16_S16x128_S640000x128_1_0_0_1_n_n.contr.Idx) :
    (dot_S640000x16_S16x128_S640000x128_1_0_0_1_n_n.lhsIdx i q 1).val = (q ⟨0, Nat.one_pos⟩).val :=
  dot_S640000x16_S16x128_S640000x128_1_0_0_1_n_n.lhsIdx_val_of_single rfl i q
theorem rhs_encEdge_0 (i : S640000x128.Idx) (q : dot_S640000x16_S16x128_S640000x128_1_0_0_1_n_n.contr.Idx) :
    (dot_S640000x16_S16x128_S640000x128_1_0_0_1_n_n.rhsIdx i q 0).val = (q ⟨0, Nat.one_pos⟩).val :=
  dot_S640000x16_S16x128_S640000x128_1_0_0_1_n_n.rhsIdx_val_of_single rfl i q
theorem rhs_encEdge_1 (i : S640000x128.Idx) (q : dot_S640000x16_S16x128_S640000x128_1_0_0_1_n_n.contr.Idx) :
    (dot_S640000x16_S16x128_S640000x128_1_0_0_1_n_n.rhsIdx i q 1).val = (i 1).val := by
  unfold DotDims.rhsIdx
  rw [dif_neg (show ¬(1 : Fin S16x128.rank) ∈ dot_S640000x16_S16x128_S640000x128_1_0_0_1_n_n.rhsBatch from List.not_mem_nil),
    dif_pos (show (1 : Fin S16x128.rank) ∈ dot_S640000x16_S16x128_S640000x128_1_0_0_1_n_n.rhsNonContracting from List.mem_singleton.mpr rfl)]
  rfl

/-- Entry (r, c) of the product is the sum over k of x (r, k) * w (k, c): over the extended reals the product is this
    exact sum. -/
theorem dot_encEdge_apply (x : FVec Ideal S640000x16 .f32) (w : FVec Ideal S16x128 .f32) (r : Fin 640000) (c : Fin 128) :
    Host.dotGeneral (F := Ideal) (φ₁ := .f32) (φ₂ := .f32) dot_S640000x16_S16x128_S640000x128_1_0_0_1_n_n none x w (ix2 r c)
      = ∑ k : Fin 16, x (ix2 r k) * w (ix2 k c) := by
  simp only [Host.dotGeneral]
  rw [Ideal.dotGeneral_apply, ← Equiv.sum_comp (ValueIdx.contrEquiv1 dot_S640000x16_S16x128_S640000x128_1_0_0_1_n_n 16 rfl rfl).symm]
  refine Finset.sum_congr rfl fun k _ => ?_
  have hk := ValueIdx.contrEquiv1_symm_val dot_S640000x16_S16x128_S640000x128_1_0_0_1_n_n 16 rfl rfl k
  have el : dot_S640000x16_S16x128_S640000x128_1_0_0_1_n_n.lhsIdx (ix2 r c) ((ValueIdx.contrEquiv1 dot_S640000x16_S16x128_S640000x128_1_0_0_1_n_n 16 rfl rfl).symm k) = ix2 r k := funext fun a => Fin.ext (by
    match a with
    | ⟨0, _⟩ => exact lhs_encEdge_0 _ _
    | ⟨1, _⟩ => exact (lhs_encEdge_1 _ _).trans hk)
  have er : dot_S640000x16_S16x128_S640000x128_1_0_0_1_n_n.rhsIdx (ix2 r c) ((ValueIdx.contrEquiv1 dot_S640000x16_S16x128_S640000x128_1_0_0_1_n_n 16 rfl rfl).symm k) = ix2 k c := funext fun a => Fin.ext (by
    match a with
    | ⟨0, _⟩ => exact (rhs_encEdge_0 _ _).trans hk
    | ⟨1, _⟩ => exact rhs_encEdge_1 _ _)
  rw [el, er]

/-! ### The 640000 × 128 by 128 × 128 product -/

theorem lhs_msg_0 (i : S640000x128.Idx) (q : dot_S640000x128_S128x128_S640000x128_1_0_0_1_n_n.contr.Idx) :
    (dot_S640000x128_S128x128_S640000x128_1_0_0_1_n_n.lhsIdx i q 0).val = (i 0).val := by
  unfold DotDims.lhsIdx
  rw [dif_neg (show ¬(0 : Fin S640000x128.rank) ∈ dot_S640000x128_S128x128_S640000x128_1_0_0_1_n_n.lhsBatch from List.not_mem_nil),
    dif_pos (show (0 : Fin S640000x128.rank) ∈ dot_S640000x128_S128x128_S640000x128_1_0_0_1_n_n.lhsNonContracting from List.mem_singleton.mpr rfl)]
  rfl
theorem lhs_msg_1 (i : S640000x128.Idx) (q : dot_S640000x128_S128x128_S640000x128_1_0_0_1_n_n.contr.Idx) :
    (dot_S640000x128_S128x128_S640000x128_1_0_0_1_n_n.lhsIdx i q 1).val = (q ⟨0, Nat.one_pos⟩).val :=
  dot_S640000x128_S128x128_S640000x128_1_0_0_1_n_n.lhsIdx_val_of_single rfl i q
theorem rhs_msg_0 (i : S640000x128.Idx) (q : dot_S640000x128_S128x128_S640000x128_1_0_0_1_n_n.contr.Idx) :
    (dot_S640000x128_S128x128_S640000x128_1_0_0_1_n_n.rhsIdx i q 0).val = (q ⟨0, Nat.one_pos⟩).val :=
  dot_S640000x128_S128x128_S640000x128_1_0_0_1_n_n.rhsIdx_val_of_single rfl i q
theorem rhs_msg_1 (i : S640000x128.Idx) (q : dot_S640000x128_S128x128_S640000x128_1_0_0_1_n_n.contr.Idx) :
    (dot_S640000x128_S128x128_S640000x128_1_0_0_1_n_n.rhsIdx i q 1).val = (i 1).val := by
  unfold DotDims.rhsIdx
  rw [dif_neg (show ¬(1 : Fin S128x128.rank) ∈ dot_S640000x128_S128x128_S640000x128_1_0_0_1_n_n.rhsBatch from List.not_mem_nil),
    dif_pos (show (1 : Fin S128x128.rank) ∈ dot_S640000x128_S128x128_S640000x128_1_0_0_1_n_n.rhsNonContracting from List.mem_singleton.mpr rfl)]
  rfl

/-- Entry (r, c) of the product is the sum over k of x (r, k) * w (k, c): over the extended reals the product is this
    exact sum. -/
theorem dot_msg_apply (x : FVec Ideal S640000x128 .f32) (w : FVec Ideal S128x128 .f32) (r : Fin 640000) (c : Fin 128) :
    Host.dotGeneral (F := Ideal) (φ₁ := .f32) (φ₂ := .f32) dot_S640000x128_S128x128_S640000x128_1_0_0_1_n_n none x w (ix2 r c)
      = ∑ k : Fin 128, x (ix2 r k) * w (ix2 k c) := by
  simp only [Host.dotGeneral]
  rw [Ideal.dotGeneral_apply, ← Equiv.sum_comp (ValueIdx.contrEquiv1 dot_S640000x128_S128x128_S640000x128_1_0_0_1_n_n 128 rfl rfl).symm]
  refine Finset.sum_congr rfl fun k _ => ?_
  have hk := ValueIdx.contrEquiv1_symm_val dot_S640000x128_S128x128_S640000x128_1_0_0_1_n_n 128 rfl rfl k
  have el : dot_S640000x128_S128x128_S640000x128_1_0_0_1_n_n.lhsIdx (ix2 r c) ((ValueIdx.contrEquiv1 dot_S640000x128_S128x128_S640000x128_1_0_0_1_n_n 128 rfl rfl).symm k) = ix2 r k := funext fun a => Fin.ext (by
    match a with
    | ⟨0, _⟩ => exact lhs_msg_0 _ _
    | ⟨1, _⟩ => exact (lhs_msg_1 _ _).trans hk)
  have er : dot_S640000x128_S128x128_S640000x128_1_0_0_1_n_n.rhsIdx (ix2 r c) ((ValueIdx.contrEquiv1 dot_S640000x128_S128x128_S640000x128_1_0_0_1_n_n 128 rfl rfl).symm k) = ix2 k c := funext fun a => Fin.ext (by
    match a with
    | ⟨0, _⟩ => exact (rhs_msg_0 _ _).trans hk
    | ⟨1, _⟩ => exact rhs_msg_1 _ _)
  rw [el, er]

/-! ### The 50000 × 128 by 128 × 256 product -/

theorem lhs_mlp1_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch from List.not_mem_nil),
    dif_pos (show (0 : Fin S50000x128.rank) ∈ dot_S50000x128_S128x256_S50000x256_1_0_0_1_n_n.lhsNonContracting from List.mem_singleton.mpr rfl)]
  rfl
theorem lhs_mlp1_1 (i : S50000x256.Idx) (q : dot_S50000x128_S128x256_S50000x256_1_0_0_1_n_n.contr.Idx) :
    (dot_S50000x128_S128x256_S50000x256_1_0_0_1_n_n.lhsIdx i q 1).val = (q ⟨0, Nat.one_pos⟩).val :=
  dot_S50000x128_S128x256_S50000x256_1_0_0_1_n_n.lhsIdx_val_of_single rfl i q
theorem rhs_mlp1_0 (i : S50000x256.Idx) (q : dot_S50000x128_S128x256_S50000x256_1_0_0_1_n_n.contr.Idx) :
    (dot_S50000x128_S128x256_S50000x256_1_0_0_1_n_n.rhsIdx i q 0).val = (q ⟨0, Nat.one_pos⟩).val :=
  dot_S50000x128_S128x256_S50000x256_1_0_0_1_n_n.rhsIdx_val_of_single rfl i q
theorem rhs_mlp1_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch from List.not_mem_nil),
    dif_pos (show (1 : Fin S128x256.rank) ∈ dot_S50000x128_S128x256_S50000x256_1_0_0_1_n_n.rhsNonContracting from List.mem_singleton.mpr rfl)]
  rfl

/-- Entry (r, c) of the product is the sum over k of x (r, k) * w (k, c): over the extended reals the product is this
    exact sum. -/
theorem dot_mlp1_apply (x : FVec Ideal S50000x128 .f32) (w : FVec Ideal S128x256 .f32) (r : Fin 50000) (c : Fin 256) :
    Host.dotGeneral (F := Ideal) (φ₁ := .f32) (φ₂ := .f32) dot_S50000x128_S128x256_S50000x256_1_0_0_1_n_n none x w (ix2 r c)
      = ∑ k : Fin 128, x (ix2 r k) * w (ix2 k c) := by
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx (ix2 r c) ((ValueIdx.contrEquiv1 dot_S50000x128_S128x256_S50000x256_1_0_0_1_n_n 128 rfl rfl).symm k) = ix2 r k := funext fun a => Fin.ext (by
    match a with
    | ⟨0, _⟩ => exact lhs_mlp1_0 _ _
    | ⟨1, _⟩ => exact (lhs_mlp1_1 _ _).trans hk)
  have er : dot_S50000x128_S128x256_S50000x256_1_0_0_1_n_n.rhsIdx (ix2 r c) ((ValueIdx.contrEquiv1 dot_S50000x128_S128x256_S50000x256_1_0_0_1_n_n 128 rfl rfl).symm k) = ix2 k c := funext fun a => Fin.ext (by
    match a with
    | ⟨0, _⟩ => exact (rhs_mlp1_0 _ _).trans hk
    | ⟨1, _⟩ => exact rhs_mlp1_1 _ _)
  rw [el, er]

/-! ### The 50000 × 256 by 256 × 128 product -/

theorem lhs_mlp2_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch from List.not_mem_nil),
    dif_pos (show (0 : Fin S50000x256.rank) ∈ dot_S50000x256_S256x128_S50000x128_1_0_0_1_n_n.lhsNonContracting from List.mem_singleton.mpr rfl)]
  rfl
theorem lhs_mlp2_1 (i : S50000x128.Idx) (q : dot_S50000x256_S256x128_S50000x128_1_0_0_1_n_n.contr.Idx) :
    (dot_S50000x256_S256x128_S50000x128_1_0_0_1_n_n.lhsIdx i q 1).val = (q ⟨0, Nat.one_pos⟩).val :=
  dot_S50000x256_S256x128_S50000x128_1_0_0_1_n_n.lhsIdx_val_of_single rfl i q
theorem rhs_mlp2_0 (i : S50000x128.Idx) (q : dot_S50000x256_S256x128_S50000x128_1_0_0_1_n_n.contr.Idx) :
    (dot_S50000x256_S256x128_S50000x128_1_0_0_1_n_n.rhsIdx i q 0).val = (q ⟨0, Nat.one_pos⟩).val :=
  dot_S50000x256_S256x128_S50000x128_1_0_0_1_n_n.rhsIdx_val_of_single rfl i q
theorem rhs_mlp2_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch from List.not_mem_nil),
    dif_pos (show (1 : Fin S256x128.rank) ∈ dot_S50000x256_S256x128_S50000x128_1_0_0_1_n_n.rhsNonContracting from List.mem_singleton.mpr rfl)]
  rfl

/-- Entry (r, c) of the product is the sum over k of x (r, k) * w (k, c): over the extended reals the product is this
    exact sum. -/
theorem dot_mlp2_apply (x : FVec Ideal S50000x256 .f32) (w : FVec Ideal S256x128 .f32) (r : Fin 50000) (c : Fin 128) :
    Host.dotGeneral (F := Ideal) (φ₁ := .f32) (φ₂ := .f32) dot_S50000x256_S256x128_S50000x128_1_0_0_1_n_n none x w (ix2 r c)
      = ∑ k : Fin 256, x (ix2 r k) * w (ix2 k c) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 r c) ((ValueIdx.contrEquiv1 dot_S50000x256_S256x128_S50000x128_1_0_0_1_n_n 256 rfl rfl).symm k) = ix2 r k := funext fun a => Fin.ext (by
    match a with
    | ⟨0, _⟩ => exact lhs_mlp2_0 _ _
    | ⟨1, _⟩ => exact (lhs_mlp2_1 _ _).trans hk)
  have er : dot_S50000x256_S256x128_S50000x128_1_0_0_1_n_n.rhsIdx (ix2 r c) ((ValueIdx.contrEquiv1 dot_S50000x256_S256x128_S50000x128_1_0_0_1_n_n 256 rfl rfl).symm k) = ix2 k c := funext fun a => Fin.ext (by
    match a with
    | ⟨0, _⟩ => exact (rhs_mlp2_0 _ _).trans hk
    | ⟨1, _⟩ => exact rhs_mlp2_1 _ _)
  rw [el, er]

/-! ## Column sums read at an index -/

/-- The sum over the 50000 rows, from the zero word: at column c, the sum over r of z (r, c). -/
theorem colsum_apply (z : FVec Ideal S50000x128 .f32) (c : Fin 128) :
    Host.reduceAdd (F := Ideal) (φ := .f32) z (constant (F := Ideal) S_ .f32 0x00000000#32) reducesTo_S50000x128_S128_d0 h_S_ (ix1 c)
      = ∑ r : Fin 50000, z (ix2 r c) := by
  simp only [Host.reduceAdd, Ideal.hostReduceAdd_def]
  rw [Ideal.hostReduceAdd_single reducesTo_S50000x128_S128_d0 (by decide), constant_apply, Ideal.ofBits_zero_f32, zero_add]
  refine Finset.sum_congr rfl fun k _ => ?_
  exact congrArg z (funext fun a => Fin.ext (by match a with | ⟨0, _⟩ => rfl | ⟨1, _⟩ => rfl))

end Cert.RefStage

end
-- ==== Proof.RefStage.Affine.lean ====
/-
  The reference's two encoders and its message stage are affine maps, as the specification states them.  At (r, c)
  a matrix product is the sum over k of the products of row r with column c; the bias vector is added to every row,
  which is the specification's one-row matrix read at (0, c); the zero word denotes 0.  In the message stage the
  reference adds the gathered row to the product and then the bias; the specification adds the gathered row to
  (product + bias): the two agree because addition of extended reals is associative.
-/
import proofs.«105345_j19885698580760_2_alg».proof.Proof.RefStage.Basic
import proofs.«105345_j19885698580760_2_alg».proof.Proof.Spec.Affine
import proofs.«105345_j19885698580760_2_alg».proof.Proof.Spec.Layout

noncomputable section

open scoped BigOperators

namespace Cert.RefStage

open Cert.ReferenceIdeal Cert.ReferenceIdeal.Facts₀ Cert.ReferenceIdeal.Facts Cert.ReferenceIdeal.RefRun
open Idealize.ShloMosaic Idealize.ShloMosaic.ValueIdx

variable [Cert.ReferenceIdeal.Facts]

/-- (R1) The node encoder is the rectified affine map. -/
theorem enc_node_eq (x : Tf Ideal S50000x64) (w : Tf Ideal S64x128) (b : Tf Ideal S128) :
    enc_node (F := Ideal) x w b = Cert.Spec.affineRelu x w (Cert.Spec.row b) := by
  funext i
  obtain ⟨r, c, rfl⟩ : ∃ (r : Fin 50000) (c : Fin 128), i = ix2 r c := ⟨i 0, i 1, eq_ix2 i⟩
  rw [Cert.Spec.affineRelu_ix2, Cert.Spec.row_ix2]
  simp only [enc_node, maximumf_apply, addf_apply]
  rw [dot_encNode_apply, bcast_row_apply, bcast0_apply, constant_apply, Ideal.ofBits_zero_f32]

/-- (R2) The edge encoder is the affine map. -/
theorem enc_edge_eq (a : Tf Ideal S640000x16) (w : Tf Ideal S16x128) (b : Tf Ideal S128) :
    enc_edge (F := Ideal) a w b = Cert.Spec.affine a w (Cert.Spec.row b) := by
  funext i
  obtain ⟨r, c, rfl⟩ : ∃ (r : Fin 640000) (c : Fin 128), i = ix2 r c := ⟨i 0, i 1, eq_ix2 i⟩
  rw [Cert.Spec.affine_ix2, Cert.Spec.row_ix2]
  simp only [enc_edge, addf_apply]
  rw [dot_encEdge_apply, bcast_row_apply]

/-- (R3) The messages: the rectified sum of the gathered source row and the affine map of the edge features. -/
theorem lyr_msg_eq (h : Tf Ideal S50000x128) (e : Tf Ideal S640000x128) (src : Ti Ideal S640000x1) (lw : Tf Ideal S128x128)
    (lb : Tf Ideal S128) :
    lyr_msg (F := Ideal) h e src lw lb
      = fun i => max (Host.gather gather_S50000x128_S640000x1_S640000x128_1_0_n_n_0_1_1128 h src i
          + Cert.Spec.affine e lw (Cert.Spec.row lb) i) 0 := by
  funext i
  obtain ⟨r, c, rfl⟩ : ∃ (r : Fin 640000) (c : Fin 128), i = ix2 r c := ⟨i 0, i 1, eq_ix2 i⟩
  show lyr_msg (F := Ideal) h e src lw lb (ix2 r c)
      = max (Host.gather gather_S50000x128_S640000x1_S640000x128_1_0_n_n_0_1_1128 h src (ix2 r c)
          + Cert.Spec.affine e lw (Cert.Spec.row lb) (ix2 r c)) 0
  rw [Cert.Spec.affine_ix2, Cert.Spec.row_ix2]
  simp only [lyr_msg, maximumf_apply, addf_apply]
  rw [dot_msg_apply, bcast_row_apply, bcast0_apply, constant_apply, Ideal.ofBits_zero_f32, add_assoc]

end Cert.RefStage

end
-- ==== Proof.RefStage.Mlp.lean ====
/-
  The reference's two-layer perceptron, applied to the rescaled features plus the aggregated messages, is the
  specification's.  The reference multiplies (1 + eps) by the feature, the specification the feature by (1 + eps):
  multiplication of extended reals is commutative.  The number 1 stays the word that spells it on both sides.  Each
  dense layer reads, at (r, c), the sum over k of the products of row r with column c plus the bias at c; the zero
  word of the rectifier denotes 0.
-/
import proofs.«105345_j19885698580760_2_alg».proof.Proof.RefStage.Basic
import proofs.«105345_j19885698580760_2_alg».proof.Proof.Spec.Mlp
import proofs.«105345_j19885698580760_2_alg».proof.Proof.Spec.Layout

noncomputable section

open scoped BigOperators

namespace Cert.RefStage

open Cert.ReferenceIdeal Cert.ReferenceIdeal.Facts₀ Cert.ReferenceIdeal.Facts Cert.ReferenceIdeal.RefRun
open Idealize.ShloMosaic Idealize.ShloMosaic.ValueIdx

variable [Cert.ReferenceIdeal.Facts]

/-- The rescaled features plus the aggregated messages. -/
theorem lyr_pre_eq (eps : Tf Ideal S_) (h agg : Tf Ideal S50000x128) :
    lyr_pre (F := Ideal) eps h agg = Cert.Spec.mlpPre h agg (Cert.Spec.cell eps) := by
  funext i
  obtain ⟨r, c, rfl⟩ : ∃ (r : Fin 50000) (c : Fin 128), i = ix2 r c := ⟨i 0, i 1, eq_ix2 i⟩
  rw [Cert.Spec.mlpPre_apply, Cert.Spec.cell_apply]
  simp only [lyr_pre, addf_apply, mulf_apply]
  rw [bcast0_apply, addf_apply, constant_apply, mul_comm]

/-- The first dense layer, rectified. -/
theorem mlp_hid_eq (pre : Tf Ideal S50000x128) (w1 : Tf Ideal S128x256) (b1 : Tf Ideal S256) :
    maximumf
        (addf (Host.dotGeneral (F := Ideal) (φ₁ := .f32) (φ₂ := .f32) dot_S50000x128_S128x256_S50000x256_1_0_0_1_n_n none pre w1)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32))
      = Cert.Spec.mlpHid pre w1 (Cert.Spec.row b1) := by
  funext i
  obtain ⟨r, c, rfl⟩ : ∃ (r : Fin 50000) (c : Fin 256), i = ix2 r c := ⟨i 0, i 1, eq_ix2 i⟩
  rw [Cert.Spec.mlpHid_apply, Cert.Spec.row_ix2]
  simp only [maximumf_apply, addf_apply]
  rw [dot_mlp1_apply, bcast_row_apply, bcast0_apply, constant_apply, Ideal.ofBits_zero_f32]

/-- The second dense layer. -/
theorem mlp_out_eq (hid : FVec Ideal S50000x256 .f32) (w2 : Tf Ideal S256x128) (b2 : Tf Ideal S128) :
    addf (Host.dotGeneral (F := Ideal) (φ₁ := .f32) (φ₂ := .f32) dot_S50000x256_S256x128_S50000x128_1_0_0_1_n_n none hid w2)
        (broadcastInDim S50000x128 ![0, 1] bcast_S1x128_S50000x128_0_1 (broadcastInDim S1x128 ![1] bcast_S128_S1x128_1 b2))
      = Cert.Spec.mlpOut hid w2 (Cert.Spec.row b2) := by
  funext i
  obtain ⟨r, c, rfl⟩ : ∃ (r : Fin 50000) (c : Fin 128), i = ix2 r c := ⟨i 0, i 1, eq_ix2 i⟩
  rw [Cert.Spec.mlpOut_apply, Cert.Spec.row_ix2]
  simp only [addf_apply]
  rw [dot_mlp2_apply, bcast_row_apply]

/-- (R5) The perceptron applied to the rescaled features plus the aggregated messages, as the specification states it. -/
theorem lyr_mlp_eq (eps : Tf Ideal S_) (h agg : Tf Ideal S50000x128) (w1 : Tf Ideal S128x256) (b1 : Tf Ideal S256)
    (w2 : Tf Ideal S256x128) (b2 : Tf Ideal S128) :
    lyr_mlp (F := Ideal) (lyr_pre (F := Ideal) eps h agg) w1 b1 w2 b2
      = Cert.Spec.mlpZ h agg (Cert.Spec.cell eps) w1 (Cert.Spec.row b1) w2 (Cert.Spec.row b2) := by
  unfold lyr_mlp Cert.Spec.mlpZ
  rw [mlp_hid_eq, mlp_out_eq, lyr_pre_eq]

end Cert.RefStage

end
-- ==== Proof.RefStage.Moments.lean ====
/-
  The reference's column statistics read at a column, over the extended reals.  The column mean is the sum of the
  column's 50000 entries divided by the number 50000 (the zero the sum starts from drops out; the divisor's word
  0x47435000 denotes the real number 50000).  The column variance is the sum of the squared deviations from that mean
  divided by the count 50000 - 0 = 50000: the count is positive, so the guard "count > 0" holds and the guarded
  alternative is never read.
-/
import proofs.«105345_j19885698580760_2_alg».proof.Proof.RefStage.Basic
import proofs.«105345_j19885698580760_2_alg».proof.Proof.Spec.Consts

noncomputable section

open scoped BigOperators

namespace Cert.RefStage

open Cert.ReferenceIdeal Cert.ReferenceIdeal.Facts₀ Cert.ReferenceIdeal.Facts Cert.ReferenceIdeal.RefRun
open Idealize.ShloMosaic Idealize.ShloMosaic.ValueIdx

variable [Cert.ReferenceIdeal.Facts]

/-- (R6a) The column means: at column j, the column's sum over the 50000 rows divided by 50000. -/
theorem lyr_mean_eq (z : Tf Ideal S50000x128) :
    lyr_mean (F := Ideal) z
      = fun j => Ideal.div (∑ r : Fin 50000, z (ix2 r (j 0))) ((50000 : ℝ) : EReal) := by
  funext j
  obtain ⟨c, rfl⟩ : ∃ c : Fin 128, j = ix1 c := ⟨j 0, eq_ix1 j⟩
  show lyr_mean (F := Ideal) z (ix1 c) = Ideal.div (∑ r : Fin 50000, z (ix2 r c)) ((50000 : ℝ) : EReal)
  simp only [lyr_mean, Host.divf, Ideal.hostDivf_def]
  rw [colsum_apply, bcast0_apply, constant_apply, Cert.Spec.ofBits_50000]

/-- The variance's divisor is the real number 50000: 50000 less the integer 0 converted to a float. -/
theorem var_cnt_eq : var_cnt (F := Ideal) ix0 = ((50000 : ℝ) : EReal) := by
  show Ideal.ofBits .f32 0x47435000#32 - (((0#32 : BitVec 32).toInt : ℝ) : EReal) = _
  rw [Cert.Spec.ofBits_50000]
  simp

/-- The guard 50000 > 0 holds. -/
theorem cnt_pos : FloatOps.cmpf (F := Ideal) (φ := .f32) .ogt ((50000 : ℝ) : EReal) (0 : EReal) = 1#1 := by
  show BitVec.ofBool (decide ((0 : EReal) < ((50000 : ℝ) : EReal))) = 1#1
  rw [decide_eq_true (EReal.coe_pos.mpr (by norm_num))]
  rfl

/-- The centred operand at (r, c): the entry less its column's mean. -/
theorem var_centered_apply (z : Tf Ideal S50000x128) (r : Fin 50000) (c : Fin 128) :
    var_centered (F := Ideal) z (ix2 r c) = z (ix2 r c) - Ideal.div (∑ r' : Fin 50000, z (ix2 r' c)) ((50000 : ℝ) : EReal) := by
  simp only [var_centered, subf_apply]
  rw [bcast_rows_apply]
  simp only [Host.divf, Ideal.hostDivf_def]
  rw [bcast_lift_apply, colsum_apply, bcast0_apply, constant_apply, Cert.Spec.ofBits_50000]

/-- (R6b) The column variances: at column j, the sum over the 50000 rows of the squared deviation of the entry from
    the column's mean, divided by 50000. -/
theorem lyr_var_eq (z : Tf Ideal S50000x128) :
    lyr_var (F := Ideal) z
      = fun j => Ideal.div
          (∑ r : Fin 50000, (z (ix2 r (j 0)) - Ideal.div (∑ r' : Fin 50000, z (ix2 r' (j 0))) ((50000 : ℝ) : EReal))
            * (z (ix2 r (j 0)) - Ideal.div (∑ r' : Fin 50000, z (ix2 r' (j 0))) ((50000 : ℝ) : EReal)))
          ((50000 : ℝ) : EReal) := by
  funext j
  obtain ⟨c, rfl⟩ : ∃ c : Fin 128, j = ix1 c := ⟨j 0, eq_ix1 j⟩
  show lyr_var (F := Ideal) z (ix1 c)
      = Ideal.div (∑ r : Fin 50000, (z (ix2 r c) - Ideal.div (∑ r' : Fin 50000, z (ix2 r' c)) ((50000 : ℝ) : EReal)) * (z (ix2 r c) - Ideal.div (∑ r' : Fin 50000, z (ix2 r' c)) ((50000 : ℝ) : EReal))) ((50000 : ℝ) : EReal)
  simp only [lyr_var, select_apply, Host.divf, Ideal.hostDivf_def]
  rw [bcast0_apply, bcast0_apply, bcast0_apply]
  simp only [cmpf_apply, constant_apply, var_cnt_eq, Ideal.ofBits_zero_f32, cnt_pos, select_one, colsum_apply, mulf_apply,
    var_centered_apply]

end Cert.RefStage

end
-- ==== Proof.RefStage.Norm.lean ====
/-
  The reference's normalisation stage is the specification's: at row r and channel c the centred entry is scaled by
  the reciprocal square root of the channel's variance plus the small constant, then by the gain; the shift is added,
  then the residual; the maximum with zero is last.  Each per-channel vector is read at the entry's channel, which is
  the one-row matrix of the specification read at (0, c); the zero word denotes 0.
-/
import proofs.«105345_j19885698580760_2_alg».proof.Proof.RefStage.Basic
import proofs.«105345_j19885698580760_2_alg».proof.Proof.Spec.NormRes
import proofs.«105345_j19885698580760_2_alg».proof.Proof.Spec.Layout

noncomputable section

open scoped BigOperators

namespace Cert.RefStage

open Cert.ReferenceIdeal Cert.ReferenceIdeal.Facts₀ Cert.ReferenceIdeal.Facts Cert.ReferenceIdeal.RefRun
open Idealize.ShloMosaic Idealize.ShloMosaic.ValueIdx

variable [Cert.ReferenceIdeal.Facts]

/-- (R7) Normalisation, scale and shift, the residual and the rectifier, as the specification states them. -/
theorem lyr_bn_eq (z : Tf Ideal S50000x128) (mean var g b : Tf Ideal S128) (h : Tf Ideal S50000x128) :
    lyr_bn (F := Ideal) z mean var g b h
      = Cert.Spec.normRes z h (Cert.Spec.row mean) (Cert.Spec.row var) (Cert.Spec.row g) (Cert.Spec.row b) := by
  funext i
  obtain ⟨r, c, rfl⟩ : ∃ (r : Fin 50000) (c : Fin 128), i = ix2 r c := ⟨i 0, i 1, eq_ix2 i⟩
  rw [Cert.Spec.normRes_ix2]
  simp only [Cert.Spec.row_ix2]
  simp only [lyr_bn, maximumf_apply, addf_apply, mulf_apply, subf_apply]
  rw [bcast_row_apply, bcast_row_apply, bcast_row_apply, bcast_row_apply, bcast0_apply]
  simp only [Host.rsqrt, Ideal.hostUnary_rsqrt_def, addf_apply, constant_apply]
  rw [bcast0_apply, constant_apply, Ideal.ofBits_zero_f32]

end Cert.RefStage

end
-- ==== Proof.Bridge.Step.lean ====
/-
  One layer of the two programs is one function of the node features, for real-valued data.

  The kernel program's layer: the edge projection (an affine map a region computes), the messages relu (h[src] + el)
  summed into their destinations, the perceptron (a region), the column mean and variance from per-block partial
  sums — the variance as the mean of the squares less the square of the mean —, and the normalization with the
  residual (a region).  The reference's layer: the messages relu ((h[src] + e·W) + b), the same sums, the same
  perceptron, the mean as the column sum over 50000, the variance as the mean of the squared deviations from the
  mean.  The two message forms agree by associativity of addition; the two variance forms agree when every entry of
  the column is a real number (the identity moves a factor across a sum and cancels, which fail at infinities).
-/
import proofs.«105345_j19885698580760_2_alg».proof.Proof.K.Values
import proofs.«105345_j19885698580760_2_alg».proof.Proof.R.Values
import proofs.«105345_j19885698580760_2_alg».proof.Proof.K.Stats
import proofs.«105345_j19885698580760_2_alg».proof.Proof.Bridge.Layout
import proofs.«105345_j19885698580760_2_alg».proof.Proof.Bridge.Real
import proofs.«105345_j19885698580760_2_alg».proof.Proof.RefStage.Affine
import proofs.«105345_j19885698580760_2_alg».proof.Proof.RefStage.Mlp
import proofs.«105345_j19885698580760_2_alg».proof.Proof.RefStage.Moments
import proofs.«105345_j19885698580760_2_alg».proof.Proof.RefStage.Norm
import proofs.«105345_j19885698580760_2_alg».proof.Proof.Spec.Moments

noncomputable section

namespace Cert.Bridge

open Idealize.ShloMosaic Idealize.ShloMosaic.ValueIdx Cert.Spec

variable [Cert.KernelIdeal.Facts] [Cert.ReferenceIdeal.Facts]

/-- The kernel program's argument record read as the reference's (the same arrays). -/
def toR (a : Cert.KernelIdeal.KVal.Args) : Cert.ReferenceIdeal.RVal.Args where
  x := a.x
  ei := a.ei
  ea := a.ea
  batch := a.batch
  node_w := a.node_w
  node_b := a.node_b
  edge_w := a.edge_w
  edge_b := a.edge_b
  eps := a.eps
  lin_w := a.lin_w
  lin_b := a.lin_b
  w1 := a.w1
  b1 := a.b1
  w2 := a.w2
  b2 := a.b2
  g := a.g
  b := a.b
  ow1 := a.ow1
  ob1 := a.ob1
  ow2 := a.ow2
  ob2 := a.ob2

variable (a : Cert.KernelIdeal.KVal.Args)

/-- The encoded node features agree. -/
theorem h0_eq : Cert.KernelIdeal.KVal.h0 a = Cert.ReferenceIdeal.RVal.h0 (toR a) := by
  unfold Cert.KernelIdeal.KVal.h0 Cert.ReferenceIdeal.RVal.h0
  rw [Cert.RefStage.enc_node_eq, row128_eq]
  rfl

/-- The encoded edge features agree. -/
theorem e_eq : Cert.KernelIdeal.KVal.e a = Cert.ReferenceIdeal.RVal.e (toR a) := by
  unfold Cert.KernelIdeal.KVal.e Cert.ReferenceIdeal.RVal.e
  rw [Cert.RefStage.enc_edge_eq, row128_eq]
  rfl

/-- The messages agree: relu (h[src] + (e·W + b)) = relu ((h[src] + e·W) + b). -/
theorem msg_eq (l : Fin 5) (h : Cert.KernelIdeal.KStages.Tf Ideal Cert.KernelIdeal.S50000x128) :
    Cert.KernelIdeal.KStages.msg (F := Ideal) h (Cert.KernelIdeal.KVal.el a l) (Cert.KernelIdeal.KStages.src_row a.ei)
      = Cert.ReferenceIdeal.RefRun.lyr_msg (F := Ideal) h (Cert.ReferenceIdeal.RVal.e (toR a))
          (Cert.ReferenceIdeal.RefRun.src_of (toR a).ei) (Cert.ReferenceIdeal.RefRun.par_lin_w l (toR a).lin_w)
          (Cert.ReferenceIdeal.RefRun.par_lin_b l (toR a).lin_b) := by
  funext i
  rw [Cert.KernelIdeal.KStats.msg_apply, Cert.RefStage.lyr_msg_eq]
  unfold Cert.KernelIdeal.KVal.el
  rw [e_eq a, par_row128_eq]
  rfl

/-- The aggregated messages agree. -/
theorem agg_eq (l : Fin 5) (h : Cert.KernelIdeal.KStages.Tf Ideal Cert.KernelIdeal.S50000x128) :
    Cert.KernelIdeal.KVal.aggOf a l h = Cert.ReferenceIdeal.RVal.aggOf (toR a) l h := by
  unfold Cert.KernelIdeal.KVal.aggOf Cert.ReferenceIdeal.RVal.aggOf
  rw [msg_eq a l h]
  rfl

/-- The perceptron outputs agree. -/
theorem z_eq (l : Fin 5) (h : Cert.KernelIdeal.KStages.Tf Ideal Cert.KernelIdeal.S50000x128) :
    Cert.KernelIdeal.KVal.zOf a l h = Cert.ReferenceIdeal.RVal.zOf (toR a) l h := by
  unfold Cert.KernelIdeal.KVal.zOf Cert.ReferenceIdeal.RVal.zOf
  rw [Cert.RefStage.lyr_mlp_eq, agg_eq a l h, par_eps_eq, par_b1_eq, par_row128_eq]
  rfl

/-- The mean rows agree (no finiteness needed: a sum taken block by block is the sum). -/
theorem meanRow_eq (l : Fin 5) (h : Cert.KernelIdeal.KStages.Tf Ideal Cert.KernelIdeal.S50000x128) :
    Cert.KernelIdeal.KVal.meanRow a l h
      = Cert.Spec.row (Cert.ReferenceIdeal.RefRun.lyr_mean (F := Ideal) (Cert.KernelIdeal.KVal.zOf a l h)) := by
  unfold Cert.KernelIdeal.KVal.meanRow
  rw [row128_eq, Cert.KernelIdeal.KStats.meanOf_blockSums, Cert.RefStage.lyr_mean_eq]

/-- The variance rows agree when the perceptron output is real-valued. -/
theorem varRow_eq (l : Fin 5) (h : Cert.KernelIdeal.KStages.Tf Ideal Cert.KernelIdeal.S50000x128)
    (hz : AllReal (Cert.KernelIdeal.KVal.zOf a l h)) :
    Cert.KernelIdeal.KVal.varRow a l h
      = Cert.Spec.row (Cert.ReferenceIdeal.RefRun.lyr_var (F := Ideal) (Cert.KernelIdeal.KVal.zOf a l h)) := by
  unfold Cert.KernelIdeal.KVal.varRow
  rw [row128_eq, Cert.KernelIdeal.KStats.varOf_blocks, Cert.RefStage.lyr_var_eq]
  refine congrArg Cert.Spec.row (funext fun j => ?_)
  choose zr hzr using fun r : Fin 50000 => hz (ix2 r (j 0))
  simp only [hzr]
  exact (var_two_forms zr 50000 (by norm_num) (by simp)).symm

/-- One layer agrees when its perceptron output is real-valued. -/
theorem step_eq (l : Fin 5) (h : Cert.KernelIdeal.KStages.Tf Ideal Cert.KernelIdeal.S50000x128)
    (hz : AllReal (Cert.KernelIdeal.KVal.zOf a l h)) :
    Cert.KernelIdeal.KVal.step a l h = Cert.ReferenceIdeal.RVal.step (toR a) l h := by
  unfold Cert.KernelIdeal.KVal.step Cert.ReferenceIdeal.RVal.step
  rw [Cert.RefStage.lyr_bn_eq, ← z_eq a l h, meanRow_eq a l h, varRow_eq a l h hz, par_row128_eq, par_row128_eq]
  rfl

end Cert.Bridge

end
-- ==== Proof.Bridge.Whole.lean ====
/-
  From real-valued arguments the two programs compute the same node features after every layer, hence the same pooled
  features and the same logits.  The induction over the five layers carries two facts together: the features agree,
  and they are real-valued (which the next layer's variance identity needs).
-/
import proofs.«105345_j19885698580760_2_alg».proof.Proof.Bridge.Step

noncomputable section

namespace Cert.Bridge

open Idealize.ShloMosaic Idealize.ShloMosaic.ValueIdx Cert.Spec
open Cert.KernelIdeal.KStages

variable [Cert.KernelIdeal.Facts] [Cert.ReferenceIdeal.Facts]

/-- Every float argument array is real-valued. -/
structure ArgsReal (a : Cert.KernelIdeal.KVal.Args) : Prop where
  x : AllReal a.x
  ea : AllReal a.ea
  node_w : AllReal a.node_w
  node_b : AllReal a.node_b
  edge_w : AllReal a.edge_w
  edge_b : AllReal a.edge_b
  eps : AllReal a.eps
  lin_w : AllReal a.lin_w
  lin_b : AllReal a.lin_b
  w1 : AllReal a.w1
  b1 : AllReal a.b1
  w2 : AllReal a.w2
  b2 : AllReal a.b2
  g : AllReal a.g
  b : AllReal a.b
  ow1 : AllReal a.ow1
  ob1 : AllReal a.ob1
  ow2 : AllReal a.ow2
  ob2 : AllReal a.ob2

variable {a : Cert.KernelIdeal.KVal.Args} (ha : ArgsReal a)
include ha

theorem real_h0 : AllReal (Cert.KernelIdeal.KVal.h0 a) :=
  allReal_affineRelu ha.x ha.node_w (allReal_row128 ha.node_b)

theorem real_e : AllReal (Cert.KernelIdeal.KVal.e a) :=
  allReal_affine ha.ea ha.edge_w (allReal_row128 ha.edge_b)

theorem real_el (l : Fin 5) : AllReal (Cert.KernelIdeal.KVal.el a l) :=
  allReal_affine (real_e ha) (allReal_par_lin_w l ha.lin_w) (allReal_par_row128 l ha.lin_b)

theorem real_agg (l : Fin 5) {h : Tf Ideal Cert.KernelIdeal.S50000x128} (hh : AllReal h) :
    AllReal (Cert.KernelIdeal.KVal.aggOf a l h) :=
  allReal_agg (allReal_msg hh (real_el ha l) _) _

theorem real_z (l : Fin 5) {h : Tf Ideal Cert.KernelIdeal.S50000x128} (hh : AllReal h) :
    AllReal (Cert.KernelIdeal.KVal.zOf a l h) :=
  allReal_mlpZ hh (real_agg ha l hh) (allReal_par_eps l ha.eps) (allReal_par_w1 l ha.w1) (allReal_par_b1 l ha.b1)
    (allReal_par_w2 l ha.w2) (allReal_par_row128 l ha.b2)

theorem real_meanRow (l : Fin 5) {h : Tf Ideal Cert.KernelIdeal.S50000x128} (hh : AllReal h) :
    AllReal (Cert.KernelIdeal.KVal.meanRow a l h) := by
  unfold Cert.KernelIdeal.KVal.meanRow
  refine allReal_row128 ?_
  rw [Cert.KernelIdeal.KStats.meanOf_blockSums]
  exact fun j => isReal_colMean (real_z ha l hh) (j 0)

theorem nonneg_varRow (l : Fin 5) {h : Tf Ideal Cert.KernelIdeal.S50000x128} (hh : AllReal h) (c : Fin 128) :
    ∃ v : ℝ, 0 ≤ v ∧ Cert.KernelIdeal.KVal.varRow a l h (ix2 (0 : Fin 1) c) = (v : EReal) := by
  rw [varRow_eq a l h (real_z ha l hh), Cert.Spec.row_ix2, Cert.RefStage.lyr_var_eq]
  exact nonneg_colVar (real_z ha l hh) c

/-- A layer keeps the features real-valued. -/
theorem real_step (l : Fin 5) {h : Tf Ideal Cert.KernelIdeal.S50000x128} (hh : AllReal h) :
    AllReal (Cert.KernelIdeal.KVal.step a l h) :=
  allReal_normRes (real_z ha l hh) hh (real_meanRow ha l hh) (nonneg_varRow ha l hh) (allReal_par_row128 l ha.g)
    (allReal_par_row128 l ha.b)

/-- A layer agrees on agreeing, real-valued features. -/
theorem step_agree (l : Fin 5) {h : Tf Ideal Cert.KernelIdeal.S50000x128} {h' : Tf Ideal Cert.KernelIdeal.S50000x128}
    (e : h = h') (hh : AllReal h) :
    Cert.KernelIdeal.KVal.step a l h = Cert.ReferenceIdeal.RVal.step (toR a) l h' := by
  subst e
  exact step_eq a l h (real_z ha l hh)

theorem real_h1 : AllReal (Cert.KernelIdeal.KVal.h1 a) := real_step ha 0 (real_h0 ha)
theorem real_h2 : AllReal (Cert.KernelIdeal.KVal.h2 a) := real_step ha 1 (real_h1 ha)
theorem real_h3 : AllReal (Cert.KernelIdeal.KVal.h3 a) := real_step ha 2 (real_h2 ha)
theorem real_h4 : AllReal (Cert.KernelIdeal.KVal.h4 a) := real_step ha 3 (real_h3 ha)

theorem h1_eq : Cert.KernelIdeal.KVal.h1 a = Cert.ReferenceIdeal.RVal.h1 (toR a) := step_agree ha 0 (h0_eq a) (real_h0 ha)
theorem h2_eq : Cert.KernelIdeal.KVal.h2 a = Cert.ReferenceIdeal.RVal.h2 (toR a) := step_agree ha 1 (h1_eq ha) (real_h1 ha)
theorem h3_eq : Cert.KernelIdeal.KVal.h3 a = Cert.ReferenceIdeal.RVal.h3 (toR a) := step_agree ha 2 (h2_eq ha) (real_h2 ha)
theorem h4_eq : Cert.KernelIdeal.KVal.h4 a = Cert.ReferenceIdeal.RVal.h4 (toR a) := step_agree ha 3 (h3_eq ha) (real_h3 ha)
theorem h5_eq : Cert.KernelIdeal.KVal.h5 a = Cert.ReferenceIdeal.RVal.h5 (toR a) := step_agree ha 4 (h4_eq ha) (real_h4 ha)

/-- The pooled features agree: the same host operations on agreeing features. -/
theorem pooled_eq : Cert.KernelIdeal.KVal.pooledV a = Cert.ReferenceIdeal.RVal.pooledV (toR a) := by
  unfold Cert.KernelIdeal.KVal.pooledV Cert.ReferenceIdeal.RVal.pooledV
  rw [h5_eq ha]
  rfl

/-- The logits agree: the same host operations on agreeing pooled features. -/
theorem logits_eq : Cert.KernelIdeal.KVal.logitsV a = Cert.ReferenceIdeal.RVal.logitsV (toR a) := by
  unfold Cert.KernelIdeal.KVal.logitsV Cert.ReferenceIdeal.RVal.logitsV
  rw [pooled_eq ha]
  rfl

end Cert.Bridge

end
-- ==== Proof.Assembly.lean ====
/-
  The two idealized programs end with the same two result arrays.

  Both programs are functions of the same twenty-one argument arrays: the node features, the edge list, the edge
  features, the graph of each node, the two encoders' weights and biases, and, stacked over the five layers, the
  self-loop weights, the edge projections, the two dense layers of each perceptron and the normalisation's gain and
  shift; then the output head's two dense layers. Each program's run leaves its two results — the logits and the
  pooled node features — at a function of its own record of those arrays.

  Where the two memories hold the same arguments the two records are one record. The two functions of that record are
  then equal for real-valued data, layer by layer. A message sum is the same sum taken in another order, which
  addition's commutativity and associativity allow on all extended reals. The rescaled node features are
  `h · (1 + ε)` on one side and `(1 + ε) · h` on the other. The normalisation's variance is, on one side, the mean of
  the squares less the square of the mean, both taken from the sums of blocks of 2000 rows; on the other, the mean of
  the squared deviations from the mean. Those agree when every entry is a real number — at an infinite entry neither
  side need be defined alike — and that is the one place where the precondition is used: it says that every entry
  of every float argument is real, and each layer keeps real data real.
-/
import proofs.«105345_j19885698580760_2_alg».proof.Defs
import proofs.«105345_j19885698580760_2_alg».proof.Proof.Gen.KernelIdeal
import proofs.«105345_j19885698580760_2_alg».proof.Proof.Gen.ReferenceIdeal
import proofs.«105345_j19885698580760_2_alg».proof.Proof.Gen.Pre_finite_inputs
import proofs.«105345_j19885698580760_2_alg».proof.Proof.PreReal
import proofs.«105345_j19885698580760_2_alg».proof.Proof.KRun
import proofs.«105345_j19885698580760_2_alg».proof.Proof.K.Chain7
import proofs.«105345_j19885698580760_2_alg».proof.Proof.Bridge.Whole
import proofs.«105345_j19885698580760_2_alg».proof.Proof.RefRun

noncomputable section

namespace Cert.Assembly

open Idealize.ShloMosaic Idealize.ShloMosaic.TcCoe Idealize.SL.Sem

/-! ## The arguments are real-valued, and the two argument records are one -/

/-- Under the precondition every float argument array of the kernel program's record is real-valued: the precondition
    says so of the nineteen float arrays one by one, in the record's order. -/
theorem argsReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Bridge.ArgsReal (Cert.KernelIdeal.KChain.argsOf m c) := by
  obtain ⟨h0, h2, h4, h5, h6, h7, h8, h9, h10, h11, h12, h13, h14, h15, h16, h17, h18, h19, h20⟩ := Cert.PreReal.allReal_of_pre m h c
  exact ⟨h0, h2, h4, h5, h6, h7, h8, h9, h10, h11, h12, h13, h14, h15, h16, h17, h18, h19, h20⟩

/-- Where the two memories hold the same twenty-one argument arrays, the reference's argument record is the kernel
    program's, read as the reference's. -/
theorem refArgs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.RefRun.argsOf m' c = Cert.Bridge.toR (Cert.KernelIdeal.KChain.argsOf m c) := by
  obtain ⟨e0, e1, e2, e3, e4, e5, e6, e7, e8, e9, e10, e11, e12, e13, e14, e15, e16, e17, e18, e19, e20⟩ := hagree
  unfold Cert.ReferenceIdeal.RefRun.argsOf
  simp only [e0, e1, e2, e3, e4, e5, e6, e7, e8, e9, e10, e11, e12, e13, e14, e15, e16, e17, e18, e19, e20]
  rfl

/-! ## The two runs, side by side -/

/-- From memories that agree on the arguments, under the precondition, both programs run, and the reference's two
    results are the kernel program's: each is the same function of the one argument record. -/
theorem algebraic : Cert.algebraic_KernelIdeal_ReferenceIdeal := by
  intro m ρ m' ρ' hpre hagree
  refine ⟨fun c => Cert.KernelIdeal.Gen.W37 m ρ c (Proc.devRef .tc Cert.KernelIdeal.main_v293),
    fun c => Cert.KernelIdeal.Gen.W37 m ρ c (Proc.devRef .tc Cert.KernelIdeal.main_v284), Cert.KernelIdeal.KRun.run_results (F := Ideal) m ρ, ?_⟩
  refine (θ_run Cert.ReferenceIdeal.defs _ _).mono (fun r h c => ?_) (Cert.ReferenceIdeal.RefRun.run m' ρ')
  obtain ⟨hl, hp, hkeep⟩ := h c
  have ha := argsReal_of_pre m hpre c
  have hr := refArgs_eq m m' c (hagree c)
  refine ⟨hl.trans ?_, hp.trans ?_, hkeep⟩
  · show _ = Cert.KernelIdeal.Gen.W37 m ρ c (Proc.devRef .tc Cert.KernelIdeal.main_v293)
    rw [Cert.KernelIdeal.KChain.val_v293 m ρ c, Cert.Bridge.logits_eq ha, ← hr]
  · show _ = Cert.KernelIdeal.Gen.W37 m ρ c (Proc.devRef .tc Cert.KernelIdeal.main_v284)
    rw [Cert.KernelIdeal.KChain.val_v284_end m ρ c, Cert.Bridge.pooled_eq ha, ← hr]

end Cert.Assembly

end
-- ==== Proof.lean ====
/-
  The certificate of a five-layer graph network with edge features: its kernel program and its reference agree.

  Five conjuncts. The kernel program as printed, the kernel program over the extended reals, and the reference over the
  extended reals each run to the end, fault nowhere, and leave their twenty-one argument arrays as they found them. The
  program over the extended reals is the printed program's own text read there: no operation was rewritten, so there
  is nothing to preserve. And from memories that agree on the arguments, under the precondition that every float
  argument is finite, the two programs over the extended reals end with equal logits and equal pooled node features.

  The law that joins the two programs: each layer's message sum is one finite sum taken in two orders (addition on the
  extended reals is commutative and associative), and each layer's normalisation divides by the root of a variance
  that one side forms as the mean of the squares less the square of the mean and the other as the mean of the squared
  deviations — equal on real data, which the precondition provides and every layer preserves.
-/
import proofs.«105345_j19885698580760_2_alg».proof.Defs
import proofs.«105345_j19885698580760_2_alg».proof.Proof.Gen.Kernel
import proofs.«105345_j19885698580760_2_alg».proof.Proof.Gen.Kernel.Skeleton
import proofs.«105345_j19885698580760_2_alg».proof.Proof.Gen.Kernel.Launch
import proofs.«105345_j19885698580760_2_alg».proof.Proof.Gen.Kernel.Points
import proofs.«105345_j19885698580760_2_alg».proof.Proof.Gen.Kernel.Frame
import proofs.«105345_j19885698580760_2_alg».proof.Proof.Gen.KernelIdeal
import proofs.«105345_j19885698580760_2_alg».proof.Proof.Gen.KernelIdeal.Skeleton
import proofs.«105345_j19885698580760_2_alg».proof.Proof.Gen.KernelIdeal.Launch
import proofs.«105345_j19885698580760_2_alg».proof.Proof.Gen.KernelIdeal.Points
import proofs.«105345_j19885698580760_2_alg».proof.Proof.Gen.KernelIdeal.Frame
import proofs.«105345_j19885698580760_2_alg».proof.Proof.Gen.ReferenceIdeal
import proofs.«105345_j19885698580760_2_alg».proof.Proof.Gen.Pre_finite_inputs
import Idealize.ShloMosaic.Adequacy
import Idealize.ShloMosaic.Init
import proofs.«105345_j19885698580760_2_alg».proof.Proof.RefRun
import proofs.«105345_j19885698580760_2_alg».proof.Proof.Assembly

noncomputable section

namespace Cert.Proof

open Idealize.ShloMosaic Idealize.SL.Sem

/-- The five conjuncts, in the claim's order, under the four witnesses of the programs' stated facts. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RefRun.frame m ρ,
  trivial,
  Cert.Assembly.algebraic⟩

end Cert.Proof

end
